-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  IdealRules.named_const.Statement Cert.KernelIdeal.κ "scale_layer0" .f32 0x40066666#32 ((17616077 / 8388608 : ℝ) : EReal)
  ∧ IdealRules.named_const.Statement Cert.KernelIdeal.κ "scale_layer0" .f32 0x40066666#32 ((17616077 / 8388608 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S256x64 : Shape := ⟨2, ![256, 64]⟩
abbrev S2x192x64 : Shape := ⟨3, ![2, 192, 64]⟩
abbrev S2x64 : Shape := ⟨2, ![2, 64]⟩
abbrev S2x64x64 : Shape := ⟨3, ![2, 64, 64]⟩
abbrev S128x64 : Shape := ⟨2, ![128, 64]⟩
abbrev S64x1 : Shape := ⟨2, ![64, 1]⟩
abbrev S1 : Shape := ⟨1, ![1]⟩
abbrev S300000x256 : Shape := ⟨2, ![300000, 256]⟩
abbrev S100000 : Shape := ⟨1, ![100000]⟩
abbrev S2x300000 : Shape := ⟨2, ![2, 300000]⟩
abbrev S2x150000 : Shape := ⟨2, ![2, 150000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S2x192x64 : S_.BroadcastsInDim S2x192x64 (![] : Fin 0 → Fin S2x192x64.rank)
  reducesTo_S2x192x64_S_d0_1_2 : S2x192x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S300000x256 : S_.BroadcastsInDim S300000x256 (![] : Fin 0 → Fin S300000x256.rank)
  reducesTo_S300000x256_S_d0_1 : S300000x256.ReducesTo [0, 1] S_
  bcast_S_S100000 : S_.BroadcastsInDim S100000 (![] : Fin 0 → Fin S100000.rank)
  reducesTo_S100000_S_d0 : S100000.ReducesTo [0] S_
  bcast_S_S2x300000 : S_.BroadcastsInDim S2x300000 (![] : Fin 0 → Fin S2x300000.rank)
  reducesTo_S2x300000_S_d0_1 : S2x300000.ReducesTo [0, 1] S_
  bcast_S_S2x150000 : S_.BroadcastsInDim S2x150000 (![] : Fin 0 → Fin S2x150000.rank)
  reducesTo_S2x150000_S_d0_1 : S2x150000.ReducesTo [0, 1] S_

variable [Facts]

def fn_part10 {F : FTy → Type} [FloatOps F] (main_arg33 : IVec S2x300000 32) (main_arg34 : IVec S2x150000 32) (main_v169 : IVec S_ 1) : IVec S_ 1 :=
  let main_c_68 : IVec S_ 32 := constantI S_ 32 4294867296#32
  let main_v170 : IVec S2x300000 32 := broadcastInDim S2x300000 ![] bcast_S_S2x300000 main_c_68
  let main_v171 : IVec S2x300000 1 := cmpi .sge main_arg33 main_v170
  let main_c_69 : IVec S_ 1 := constantI S_ 1 1#1
  let main_v172 : IVec S_ 1 := (fun x v => Host.reduce IntOp.andi x v reducesTo_S2x300000_S_d0_1 h_S_) main_v171 main_c_69
  let main_v173 : IVec S_ 1 := andi main_v169 main_v172
  let main_c_70 : IVec S_ 32 := constantI S_ 32 100000#32
  let main_v174 : IVec S2x300000 32 := broadcastInDim S2x300000 ![] bcast_S_S2x300000 main_c_70
  let main_v175 : IVec S2x300000 1 := cmpi .slt main_arg33 main_v174
  let main_c_71 : IVec S_ 1 := constantI S_ 1 1#1
  let main_v176 : IVec S_ 1 := (fun x v => Host.reduce IntOp.andi x v reducesTo_S2x300000_S_d0_1 h_S_) main_v175 main_c_71
  let main_v177 : IVec S_ 1 := andi main_v173 main_v176
  let main_c_72 : IVec S_ 32 := constantI S_ 32 4294867296#32
  let main_v178 : IVec S2x150000 32 := broadcastInDim S2x150000 ![] bcast_S_S2x150000 main_c_72
  let main_v179 : IVec S2x150000 1 := cmpi .sge main_arg34 main_v178
  let main_c_73 : IVec S_ 1 := constantI S_ 1 1#1
  let main_v180 : IVec S_ 1 := (fun x v => Host.reduce IntOp.andi x v reducesTo_S2x150000_S_d0_1 h_S_) main_v179 main_c_73
  let main_v181 : IVec S_ 1 := andi main_v177 main_v180
  let main_c_74 : IVec S_ 32 := constantI S_ 32 100000#32
  let main_v182 : IVec S2x150000 32 := broadcastInDim S2x150000 ![] bcast_S_S2x150000 main_c_74
  let main_v183 : IVec S2x150000 1 := cmpi .slt main_arg34 main_v182
  let main_c_75 : IVec S_ 1 := constantI S_ 1 1#1
  let main_v184 : IVec S_ 1 := (fun x v => Host.reduce IntOp.andi x v reducesTo_S2x150000_S_d0_1 h_S_) main_v183 main_c_75
  let main_v185 : IVec S_ 1 := andi main_v181 main_v184
  main_v185

def fn_part9 {F : FTy → Type} [FloatOps F] (main_arg31 : IVec S100000 32) (main_arg32 : IVec S100000 32) (main_arg33 : IVec S2x300000 32) (main_arg34 : IVec S2x150000 32) (main_v153 : IVec S_ 1) : IVec S_ 1 :=
  let main_c_60 : IVec S_ 32 := constantI S_ 32 4294867296#32
  let main_v154 : IVec S100000 32 := broadcastInDim S100000 ![] bcast_S_S100000 main_c_60
  let main_v155 : IVec S100000 1 := cmpi .sge main_arg31 main_v154
  let main_c_61 : IVec S_ 1 := constantI S_ 1 1#1
  let main_v156 : IVec S_ 1 := (fun x v => Host.reduce IntOp.andi x v reducesTo_S100000_S_d0 h_S_) main_v155 main_c_61
  let main_v157 : IVec S_ 1 := andi main_v153 main_v156
  let main_c_62 : IVec S_ 32 := constantI S_ 32 100000#32
  let main_v158 : IVec S100000 32 := broadcastInDim S100000 ![] bcast_S_S100000 main_c_62
  let main_v159 : IVec S100000 1 := cmpi .slt main_arg31 main_v158
  let main_c_63 : IVec S_ 1 := constantI S_ 1 1#1
  let main_v160 : IVec S_ 1 := (fun x v => Host.reduce IntOp.andi x v reducesTo_S100000_S_d0 h_S_) main_v159 main_c_63
  let main_v161 : IVec S_ 1 := andi main_v157 main_v160
  let main_c_64 : IVec S_ 32 := constantI S_ 32 4294867296#32
  let main_v162 : IVec S100000 32 := broadcastInDim S100000 ![] bcast_S_S100000 main_c_64
  let main_v163 : IVec S100000 1 := cmpi .sge main_arg32 main_v162
  let main_c_65 : IVec S_ 1 := constantI S_ 1 1#1
  let main_v164 : IVec S_ 1 := (fun x v => Host.reduce IntOp.andi x v reducesTo_S100000_S_d0 h_S_) main_v163 main_c_65
  let main_v165 : IVec S_ 1 := andi main_v161 main_v164
  let main_c_66 : IVec S_ 32 := constantI S_ 32 100000#32
  let main_v166 : IVec S100000 32 := broadcastInDim S100000 ![] bcast_S_S100000 main_c_66
  let main_v167 : IVec S100000 1 := cmpi .slt main_arg32 main_v166
  let main_c_67 : IVec S_ 1 := constantI S_ 1 1#1
  let main_v168 : IVec S_ 1 := (fun x v => Host.reduce IntOp.andi x v reducesTo_S100000_S_d0 h_S_) main_v167 main_c_67
  let main_v169 : IVec S_ 1 := andi main_v165 main_v168
  fn_part10 (F := F) main_arg33 main_arg34 main_v169

def fn_part8 {F : FTy → Type} [FloatOps F] (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x1 .f32 := Host.absf main_arg28
  let main_cst_54 : FVec F S_ .f32 := constant S_ .f32 0x7F800000#32
  let main_v140 : FVec F S64x1 .f32 := broadcastInDim S64x1 ![] bcast_S_S64x1 main_cst_54
  let main_v141 : IVec S64x1 1 := cmpf .olt main_v139 main_v140
  let main_c_55 : IVec S_ 1 := constantI S_ 1 1#1
  let main_v142 : IVec S_ 1 := (fun x v => Host.reduce IntOp.andi x v reducesTo_S64x1_S_d0_1 h_S_) main_v141 main_c_55
  let main_v143 : IVec S_ 1 := andi main_v138 main_v142
  let main_v144 : FVec F S1 .f32 := Host.absf main_arg29
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  let main_v149 : FVec F S300000x256 .f32 := Host.absf main_arg30
  let main_cst_58 : FVec F S_ .f32 := constant S_ .f32 0x7F800000#32
  let main_v150 : FVec F S300000x256 .f32 := broadcastInDim S300000x256 ![] bcast_S_S300000x256 main_cst_58
  let main_v151 : IVec S300000x256 1 := cmpf .olt main_v149 main_v150
  let main_c_59 : IVec S_ 1 := constantI S_ 1 1#1
  let main_v152 : IVec S_ 1 := (fun x v => Host.reduce IntOp.andi x v reducesTo_S300000x256_S_d0_1 h_S_) main_v151 main_c_59
  let main_v153 : IVec S_ 1 := andi main_v148 main_v152
  fn_part9 (F := F) main_arg31 main_arg32 main_arg33 main_arg34 main_v153

def fn_part7 {F : FTy → Type} [FloatOps F] (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v118 : IVec S_ 1) (main_v119 : FVec F S2x64x64 .f32) : IVec S_ 1 :=
  let main_cst_46 : FVec F S_ .f32 := constant S_ .f32 0x7F800000#32
  let main_v120 : FVec F S2x64x64 .f32 := broadcastInDim S2x64x64 ![] bcast_S_S2x64x64 main_cst_46
  let main_v121 : IVec S2x64x64 1 := cmpf .olt main_v119 main_v120
  let main_c_47 : IVec S_ 1 := constantI S_ 1 1#1
  let main_v122 : IVec S_ 1 := (fun x v => Host.reduce IntOp.andi x v reducesTo_S2x64x64_S_d0_1_2 h_S_) main_v121 main_c_47
  let main_v123 : IVec S_ 1 := andi main_v118 main_v122
  let main_v124 : FVec F S2x64 .f32 := Host.absf main_arg25
  let main_cst_48 : FVec F S_ .f32 := constant S_ .f32 0x7F800000#32
  let main_v125 : FVec F S2x64 .f32 := broadcastInDim S2x64 ![] bcast_S_S2x64 main_cst_48
  let main_v126 : IVec S2x64 1 := cmpf .olt main_v124 main_v125
  let main_c_49 : IVec S_ 1 := constantI S_ 1 1#1
  let main_v127 : IVec S_ 1 := (fun x v => Host.reduce IntOp.andi x v reducesTo_S2x64_S_d0_1 h_S_) main_v126 main_c_49
  let main_v128 : IVec S_ 1 := andi main_v123 main_v127
  let main_v129 : FVec F S128x64 .f32 := Host.absf main_arg26
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg27
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg28 main_arg29 main_arg30 main_arg31 main_arg32 main_arg33 main_arg34 main_v133 main_v136

def fn_part6 {F : FTy → Type} [FloatOps F] (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v98 : IVec S_ 1) (main_v101 : IVec S2x64x64 1) (main_c_39 : IVec S_ 1) : IVec S_ 1 :=
  let main_v102 : IVec S_ 1 := (fun x v => Host.reduce IntOp.andi x v reducesTo_S2x64x64_S_d0_1_2 h_S_) main_v101 main_c_39
  let main_v103 : IVec S_ 1 := andi main_v98 main_v102
  let main_v104 : FVec F S2x64 .f32 := Host.absf main_arg21
  let main_cst_40 : FVec F S_ .f32 := constant S_ .f32 0x7F800000#32
  let main_v105 : FVec F S2x64 .f32 := broadcastInDim S2x64 ![] bcast_S_S2x64 main_cst_40
  let main_v106 : IVec S2x64 1 := cmpf .olt main_v104 main_v105
  let main_c_41 : IVec S_ 1 := constantI S_ 1 1#1
  let main_v107 : IVec S_ 1 := (fun x v => Host.reduce IntOp.andi x v reducesTo_S2x64_S_d0_1 h_S_) main_v106 main_c_41
  let main_v108 : IVec S_ 1 := andi main_v103 main_v107
  let main_v109 : FVec F S2x192x64 .f32 := Host.absf main_arg22
  let main_cst_42 : FVec F S_ .f32 := constant S_ .f32 0x7F800000#32
  let main_v110 : FVec F S2x192x64 .f32 := broadcastInDim S2x192x64 ![] bcast_S_S2x192x64 main_cst_42
  let main_v111 : IVec S2x192x64 1 := cmpf .olt main_v109 main_v110
  let main_c_43 : IVec S_ 1 := constantI S_ 1 1#1
  let main_v112 : IVec S_ 1 := (fun x v => Host.reduce IntOp.andi x v reducesTo_S2x192x64_S_d0_1_2 h_S_) main_v111 main_c_43
  let main_v113 : IVec S_ 1 := andi main_v108 main_v112
  let main_v114 : FVec F S2x64 .f32 := Host.absf main_arg23
  let main_cst_44 : FVec F S_ .f32 := constant S_ .f32 0x7F800000#32
  let main_v115 : FVec F S2x64 .f32 := broadcastInDim S2x64 ![] bcast_S_S2x64 main_cst_44
  let main_v116 : IVec S2x64 1 := cmpf .olt main_v114 main_v115
  let main_c_45 : IVec S_ 1 := constantI S_ 1 1#1
  let main_v117 : IVec S_ 1 := (fun x v => Host.reduce IntOp.andi x v reducesTo_S2x64_S_d0_1 h_S_) main_v116 main_c_45
  let main_v118 : IVec S_ 1 := andi main_v113 main_v117
  let main_v119 : FVec F S2x64x64 .f32 := Host.absf main_arg24
  fn_part7 (F := F) main_arg25 main_arg26 main_arg27 main_arg28 main_arg29 main_arg30 main_arg31 main_arg32 main_arg33 main_arg34 main_v118 main_v119

def fn_part5 {F : FTy → Type} [FloatOps F] (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S2x192x64 .f32 := Host.absf main_arg18
  let main_cst_34 : FVec F S_ .f32 := constant S_ .f32 0x7F800000#32
  let main_v90 : FVec F S2x192x64 .f32 := broadcastInDim S2x192x64 ![] bcast_S_S2x192x64 main_cst_34
  let main_v91 : IVec S2x192x64 1 := cmpf .olt main_v89 main_v90
  let main_c_35 : IVec S_ 1 := constantI S_ 1 1#1
  let main_v92 : IVec S_ 1 := (fun x v => Host.reduce IntOp.andi x v reducesTo_S2x192x64_S_d0_1_2 h_S_) main_v91 main_c_35
  let main_v93 : IVec S_ 1 := andi main_v88 main_v92
  let main_v94 : FVec F S2x64 .f32 := Host.absf main_arg19
  let main_cst_36 : FVec F S_ .f32 := constant S_ .f32 0x7F800000#32
  let main_v95 : FVec F S2x64 .f32 := broadcastInDim S2x64 ![] bcast_S_S2x64 main_cst_36
  let main_v96 : IVec S2x64 1 := cmpf .olt main_v94 main_v95
  let main_c_37 : IVec S_ 1 := constantI S_ 1 1#1
  let main_v97 : IVec S_ 1 := (fun x v => Host.reduce IntOp.andi x v reducesTo_S2x64_S_d0_1 h_S_) main_v96 main_c_37
  let main_v98 : IVec S_ 1 := andi main_v93 main_v97
  let main_v99 : FVec F S2x64x64 .f32 := Host.absf main_arg20
  let main_cst_38 : FVec F S_ .f32 := constant S_ .f32 0x7F800000#32
  let main_v100 : FVec F S2x64x64 .f32 := broadcastInDim S2x64x64 ![] bcast_S_S2x64x64 main_cst_38
  let main_v101 : IVec S2x64x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_v98 main_v101 main_c_39

def fn_part4 {F : FTy → Type} [FloatOps F] (main_arg14 : FVec F S256x64 .f32) (main_arg15 : FVec F S64 .f32) (main_arg16 : FVec F S64x64 .f32) (main_arg17 : FVec F S64 .f32) (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v63 : IVec S_ 1) (main_v67 : IVec S_ 1) : IVec S_ 1 :=
  let main_v68 : IVec S_ 1 := andi main_v63 main_v67
  let main_v69 : FVec F S256x64 .f32 := Host.absf main_arg14
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg11 : FVec F S64 .f32) (main_arg12 : FVec F S64x64 .f32) (main_arg13 : FVec F S64 .f32) (main_arg14 : FVec F S256x64 .f32) (main_arg15 : FVec F S64 .f32) (main_arg16 : FVec F S64x64 .f32) (main_arg17 : FVec F S64 .f32) (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg7 : FVec F S64 .f32) (main_arg8 : FVec F S64x64 .f32) (main_arg9 : FVec F S64 .f32) (main_arg10 : FVec F S256x64 .f32) (main_arg11 : FVec F S64 .f32) (main_arg12 : FVec F S64x64 .f32) (main_arg13 : FVec F S64 .f32) (main_arg14 : FVec F S256x64 .f32) (main_arg15 : FVec F S64 .f32) (main_arg16 : FVec F S64x64 .f32) (main_arg17 : FVec F S64 .f32) (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S256x64 .f32) (main_arg11 : FVec F S64 .f32) (main_arg12 : FVec F S64x64 .f32) (main_arg13 : FVec F S64 .f32) (main_arg14 : FVec F S256x64 .f32) (main_arg15 : FVec F S64 .f32) (main_arg16 : FVec F S64x64 .f32) (main_arg17 : FVec F S64 .f32) (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S100000x64 .f32) (main_arg1 : FVec F S100000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S256x64 .f32) (main_arg11 : FVec F S64 .f32) (main_arg12 : FVec F S64x64 .f32) (main_arg13 : FVec F S64 .f32) (main_arg14 : FVec F S256x64 .f32) (main_arg15 : FVec F S64 .f32) (main_arg16 : FVec F S64x64 .f32) (main_arg17 : FVec F S64 .f32) (main_arg18 : FVec F S2x192x64 .f32) (main_arg19 : FVec F S2x64 .f32) (main_arg20 : FVec F S2x64x64 .f32) (main_arg21 : FVec F S2x64 .f32) (main_arg22 : FVec F S2x192x64 .f32) (main_arg23 : FVec F S2x64 .f32) (main_arg24 : FVec F S2x64x64 .f32) (main_arg25 : FVec F S2x64 .f32) (main_arg26 : FVec F S128x64 .f32) (main_arg27 : FVec F S64 .f32) (main_arg28 : FVec F S64x1 .f32) (main_arg29 : FVec F S1 .f32) (main_arg30 : FVec F S300000x256 .f32) (main_arg31 : IVec S100000 32) (main_arg32 : IVec S100000 32) (main_arg33 : IVec S2x300000 32) (main_arg34 : IVec S2x150000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S100000x64 : Shape := ⟨2, ![100000, 64]⟩
abbrev S64x64 : Shape := ⟨2, ![64, 64]⟩
abbrev S64 : Shape := ⟨1, ![64]⟩
abbrev S256x64 : Shape := ⟨2, ![256, 64]⟩
abbrev S2x192x64 : Shape := ⟨3, ![2, 192, 64]⟩
abbrev S2x64 : Shape := ⟨2, ![2, 64]⟩
abbrev S2x64x64 : Shape := ⟨3, ![2, 64, 64]⟩
abbrev S128x64 : Shape := ⟨2, ![128, 64]⟩
abbrev S64x1 : Shape := ⟨2, ![64, 1]⟩
abbrev S1 : Shape := ⟨1, ![1]⟩
abbrev S300000x256 : Shape := ⟨2, ![300000, 256]⟩
abbrev S100000 : Shape := ⟨1, ![100000]⟩
abbrev S2x300000 : Shape := ⟨2, ![2, 300000]⟩
abbrev S2x150000 : Shape := ⟨2, ![2, 150000]⟩
abbrev S_ : Shape := ⟨0, ![]⟩
abbrev S100000x1 : Shape := ⟨2, ![100000, 1]⟩
abbrev S1x1 : Shape := ⟨2, ![1, 1]⟩
abbrev S5000x64 : Shape := ⟨2, ![5000, 64]⟩
abbrev S1x64 : Shape := ⟨2, ![1, 64]⟩
abbrev S300000x64 : Shape := ⟨2, ![300000, 64]⟩
abbrev S6000x256 : Shape := ⟨2, ![6000, 256]⟩
abbrev S6000x64 : Shape := ⟨2, ![6000, 64]⟩
abbrev S1x300000 : Shape := ⟨2, ![1, 300000]⟩
abbrev S300000 : Shape := ⟨1, ![300000]⟩
abbrev S300000x1 : Shape := ⟨2, ![300000, 1]⟩
abbrev S1x192x64 : Shape := ⟨3, ![1, 192, 64]⟩
abbrev S192x64 : Shape := ⟨2, ![192, 64]⟩
abbrev S1x64x64 : Shape := ⟨3, ![1, 64, 64]⟩
abbrev S1x150000 : Shape := ⟨2, ![1, 150000]⟩
abbrev S150000 : Shape := ⟨1, ![150000]⟩
abbrev S150000x1 : Shape := ⟨2, ![150000, 1]⟩
abbrev S150000x64 : Shape := ⟨2, ![150000, 64]⟩
abbrev S6000x1 : Shape := ⟨2, ![6000, 1]⟩

abbrev nBuf : Space → Nat
  | .hbm => 303
  | .vmem => 113
  | .smem => 0
  | _ => 0

abbrev hbmTy0_0 (i : Nat) : BufTy := match i % 128 with
  | 0 => ⟨S100000x64, .f32⟩
  | 1 => ⟨S100000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S256x64, .f32⟩
  | 11 => ⟨S64, .f32⟩
  | 12 => ⟨S64x64, .f32⟩
  | 13 => ⟨S64, .f32⟩
  | 14 => ⟨S256x64, .f32⟩
  | 15 => ⟨S64, .f32⟩
  | 16 => ⟨S64x64, .f32⟩
  | 17 => ⟨S64, .f32⟩
  | 18 => ⟨S2x192x64, .f32⟩
  | 19 => ⟨S2x64, .f32⟩
  | 20 => ⟨S2x64x64, .f32⟩
  | 21 => ⟨S2x64, .f32⟩
  | 22 => ⟨S2x192x64, .f32⟩
  | 23 => ⟨S2x64, .f32⟩
  | 24 => ⟨S2x64x64, .f32⟩
  | 25 => ⟨S2x64, .f32⟩
  | 26 => ⟨S128x64, .f32⟩
  | 27 => ⟨S64, .f32⟩
  | 28 => ⟨S64x1, .f32⟩
  | 29 => ⟨S1, .f32⟩
  | 30 => ⟨S300000x256, .f32⟩
  | 31 => ⟨S100000, .i32⟩
  | 32 => ⟨S100000, .i32⟩
  | 33 => ⟨S2x300000, .i32⟩
  | 34 => ⟨S2x150000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S1, .i32⟩
  | 44 => ⟨S_, .i32⟩
  | 45 => ⟨S100000x1, .i32⟩
  | 46 => ⟨S100000x1, .i1⟩
  | 47 => ⟨S1x1, .i32⟩
  | 48 => ⟨S100000x1, .i32⟩
  | 49 => ⟨S100000x1, .i1⟩
  | 50 => ⟨S100000x1, .i1⟩
  | 51 => ⟨S_, .i1⟩
  | 52 => ⟨S100000, .i1⟩
  | 53 => ⟨S100000x64, .f32⟩
  | 54 => ⟨S100000x64, .i1⟩
  | 55 => ⟨S_, .f32⟩
  | 56 => ⟨S100000x64, .f32⟩
  | 57 => ⟨S100000x64, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S1, .i32⟩
  | 67 => ⟨S_, .i32⟩
  | 68 => ⟨S100000x1, .i32⟩
  | 69 => ⟨S100000x1, .i1⟩
  | 70 => ⟨S1x1, .i32⟩
  | 71 => ⟨S100000x1, .i32⟩
  | 72 => ⟨S100000x1, .i1⟩
  | 73 => ⟨S100000x1, .i1⟩
  | 74 => ⟨S_, .i1⟩
  | 75 => ⟨S100000, .i1⟩
  | 76 => ⟨S100000x64, .f32⟩
  | 77 => ⟨S100000x64, .i1⟩
  | 78 => ⟨S_, .f32⟩
  | 79 => ⟨S100000x64, .f32⟩
  | 80 => ⟨S100000x64, .f32⟩
  | 81 => ⟨S100000x64, .f32⟩
  | 82 => ⟨S100000x64, .f32⟩
  | 83 => ⟨S300000x64, .f32⟩
  | 84 => ⟨S300000x64, .f32⟩
  | 85 => ⟨S1x300000, .i32⟩
  | 86 => ⟨S300000, .i32⟩
  | 87 => ⟨S1x300000, .i32⟩
  | 88 => ⟨S300000, .i32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S1, .i32⟩
  | 98 => ⟨S_, .i32⟩
  | 99 => ⟨S300000x1, .i32⟩
  | 100 => ⟨S300000x1, .i1⟩
  | 101 => ⟨S1x1, .i32⟩
  | 102 => ⟨S300000x1, .i32⟩
  | 103 => ⟨S300000x1, .i1⟩
  | 104 => ⟨S300000x1, .i1⟩
  | 105 => ⟨S_, .i1⟩
  | 106 => ⟨S300000, .i1⟩
  | 107 => ⟨S300000x64, .f32⟩
  | 108 => ⟨S300000x64, .i1⟩
  | 109 => ⟨S_, .f32⟩
  | 110 => ⟨S300000x64, .f32⟩
  | 111 => ⟨S300000x64, .f32⟩
  | 112 => ⟨S_, .i32⟩
  | 113 => ⟨S300000, .i32⟩
  | 114 => ⟨S300000, .i1⟩
  | 115 => ⟨S_, .i32⟩
  | 116 => ⟨S300000, .i32⟩
  | 117 => ⟨S300000, .i32⟩
  | 118 => ⟨S300000, .i32⟩
  | 119 => ⟨S300000x1, .i32⟩
  | 120 => ⟨S1, .i32⟩
  | 121 => ⟨S_, .i32⟩
  | 122 => ⟨S300000x1, .i32⟩
  | 123 => ⟨S300000x1, .i1⟩
  | 124 => ⟨S1x1, .i32⟩
  | 125 => ⟨S300000x1, .i32⟩
  | 126 => ⟨S300000x1, .i1⟩
  | 127 => ⟨S300000x1, .i1⟩
  | _ => ⟨S100000x64, .f32⟩

abbrev hbmTy0_1 (i : Nat) : BufTy := match i % 128 with
  | 0 => ⟨S_, .i1⟩
  | 1 => ⟨S300000, .i1⟩
  | 2 => ⟨S300000x64, .f32⟩
  | 3 => ⟨S300000x64, .i1⟩
  | 4 => ⟨S_, .f32⟩
  | 5 => ⟨S300000x64, .f32⟩
  | 6 => ⟨S300000x64, .f32⟩
  | 7 => ⟨S1x192x64, .f32⟩
  | 8 => ⟨S192x64, .f32⟩
  | 9 => ⟨S1x64, .f32⟩
  | 10 => ⟨S64, .f32⟩
  | 11 => ⟨S1x64x64, .f32⟩
  | 12 => ⟨S64x64, .f32⟩
  | 13 => ⟨S1x64, .f32⟩
  | 14 => ⟨S64, .f32⟩
  | 15 => ⟨S1x192x64, .f32⟩
  | 16 => ⟨S192x64, .f32⟩
  | 17 => ⟨S1x64, .f32⟩
  | 18 => ⟨S64, .f32⟩
  | 19 => ⟨S1x64x64, .f32⟩
  | 20 => ⟨S64x64, .f32⟩
  | 21 => ⟨S1x64, .f32⟩
  | 22 => ⟨S64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S300000x64, .f32⟩
  | 30 => ⟨S300000x64, .f32⟩
  | 31 => ⟨S_, .f32⟩
  | 32 => ⟨S100000x64, .f32⟩
  | 33 => ⟨S300000x1, .i32⟩
  | 34 => ⟨S100000x64, .f32⟩
  | 35 => ⟨S_, .f32⟩
  | 36 => ⟨S100000x64, .f32⟩
  | 37 => ⟨S300000x1, .i32⟩
  | 38 => ⟨S100000x64, .f32⟩
  | 39 => ⟨S100000x64, .f32⟩
  | 40 => ⟨S100000x64, .f32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S1, .i32⟩
  | 50 => ⟨S_, .i32⟩
  | 51 => ⟨S300000x1, .i32⟩
  | 52 => ⟨S300000x1, .i1⟩
  | 53 => ⟨S1x1, .i32⟩
  | 54 => ⟨S300000x1, .i32⟩
  | 55 => ⟨S300000x1, .i1⟩
  | 56 => ⟨S300000x1, .i1⟩
  | 57 => ⟨S_, .i1⟩
  | 58 => ⟨S300000, .i1⟩
  | 59 => ⟨S300000x64, .f32⟩
  | 60 => ⟨S300000x64, .i1⟩
  | 61 => ⟨S_, .f32⟩
  | 62 => ⟨S300000x64, .f32⟩
  | 63 => ⟨S300000x64, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S1, .i32⟩
  | 73 => ⟨S_, .i32⟩
  | 74 => ⟨S300000x1, .i32⟩
  | 75 => ⟨S300000x1, .i1⟩
  | 76 => ⟨S1x1, .i32⟩
  | 77 => ⟨S300000x1, .i32⟩
  | 78 => ⟨S300000x1, .i1⟩
  | 79 => ⟨S300000x1, .i1⟩
  | 80 => ⟨S_, .i1⟩
  | 81 => ⟨S300000, .i1⟩
  | 82 => ⟨S300000x64, .f32⟩
  | 83 => ⟨S300000x64, .i1⟩
  | 84 => ⟨S_, .f32⟩
  | 85 => ⟨S300000x64, .f32⟩
  | 86 => ⟨S300000x64, .f32⟩
  | 87 => ⟨S1x192x64, .f32⟩
  | 88 => ⟨S192x64, .f32⟩
  | 89 => ⟨S1x64, .f32⟩
  | 90 => ⟨S64, .f32⟩
  | 91 => ⟨S1x64x64, .f32⟩
  | 92 => ⟨S64x64, .f32⟩
  | 93 => ⟨S1x64, .f32⟩
  | 94 => ⟨S64, .f32⟩
  | 95 => ⟨S1x192x64, .f32⟩
  | 96 => ⟨S192x64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S300000x64, .f32⟩
  | 110 => ⟨S300000x64, .f32⟩
  | 111 => ⟨S_, .f32⟩
  | 112 => ⟨S100000x64, .f32⟩
  | 113 => ⟨S300000x1, .i32⟩
  | 114 => ⟨S100000x64, .f32⟩
  | 115 => ⟨S_, .f32⟩
  | 116 => ⟨S100000x64, .f32⟩
  | 117 => ⟨S300000x1, .i32⟩
  | 118 => ⟨S100000x64, .f32⟩
  | 119 => ⟨S100000x64, .f32⟩
  | 120 => ⟨S100000x64, .f32⟩
  | 121 => ⟨S1x150000, .i32⟩
  | 122 => ⟨S150000, .i32⟩
  | 123 => ⟨S_, .i32⟩
  | 124 => ⟨S150000, .i32⟩
  | 125 => ⟨S150000, .i1⟩
  | 126 => ⟨S_, .i32⟩
  | 127 => ⟨S150000, .i32⟩
  | _ => ⟨S100000x64, .f32⟩

abbrev hbmTy0_2 (i : Nat) : BufTy := match i % 128 with
  | 0 => ⟨S150000, .i32⟩
  | 1 => ⟨S150000, .i32⟩
  | 2 => ⟨S150000x1, .i32⟩
  | 3 => ⟨S1, .i32⟩
  | 4 => ⟨S_, .i32⟩
  | 5 => ⟨S150000x1, .i32⟩
  | 6 => ⟨S150000x1, .i1⟩
  | 7 => ⟨S1x1, .i32⟩
  | 8 => ⟨S150000x1, .i32⟩
  | 9 => ⟨S150000x1, .i1⟩
  | 10 => ⟨S150000x1, .i1⟩
  | 11 => ⟨S_, .i1⟩
  | 12 => ⟨S150000, .i1⟩
  | 13 => ⟨S150000x64, .f32⟩
  | 14 => ⟨S150000x64, .i1⟩
  | 15 => ⟨S_, .f32⟩
  | 16 => ⟨S150000x64, .f32⟩
  | 17 => ⟨S150000x64, .f32⟩
  | 18 => ⟨S1x150000, .i32⟩
  | 19 => ⟨S150000, .i32⟩
  | 20 => ⟨S_, .i32⟩
  | 21 => ⟨S150000, .i32⟩
  | 22 => ⟨S150000, .i1⟩
  | 23 => ⟨S_, .i32⟩
  | 24 => ⟨S150000, .i32⟩
  | 25 => ⟨S150000, .i32⟩
  | 26 => ⟨S150000, .i32⟩
  | 27 => ⟨S150000x1, .i32⟩
  | 28 => ⟨S1, .i32⟩
  | 29 => ⟨S_, .i32⟩
  | 30 => ⟨S150000x1, .i32⟩
  | 31 => ⟨S150000x1, .i1⟩
  | 32 => ⟨S1x1, .i32⟩
  | 33 => ⟨S150000x1, .i32⟩
  | 34 => ⟨S150000x1, .i1⟩
  | 35 => ⟨S150000x1, .i1⟩
  | 36 => ⟨S_, .i1⟩
  | 37 => ⟨S150000, .i1⟩
  | 38 => ⟨S150000x64, .f32⟩
  | 39 => ⟨S150000x64, .i1⟩
  | 40 => ⟨S_, .f32⟩
  | 41 => ⟨S150000x64, .f32⟩
  | 42 => ⟨S150000x64, .f32⟩
  | 43 => ⟨S64x64, .f32⟩
  | 44 => ⟨S64x64, .f32⟩
  | 45 => ⟨S150000x1, .f32⟩
  | 46 => ⟨S150000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S6000x256, .f32⟩
  | .local _ .vmem, ⟨17, _⟩ => ⟨S6000x256, .f32⟩
  | .local _ .vmem, ⟨18, _⟩ => ⟨S256x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S256x64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S6000x64, .f32⟩
  | .local _ .vmem, ⟨27, _⟩ => ⟨S6000x64, .f32⟩
  | .local _ .vmem, ⟨28, _⟩ => ⟨S6000x64, .f32⟩
  | .local _ .vmem, ⟨29, _⟩ => ⟨S6000x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | .local _ .vmem, ⟨36, _⟩ => ⟨S6000x64, .f32⟩
  | .local _ .vmem, ⟨37, _⟩ => ⟨S6000x64, .f32⟩
  | .local _ .vmem, ⟨38, _⟩ => ⟨S64x64, .f32⟩
  | .local _ .vmem, ⟨39, _⟩ => ⟨S64x64, .f32⟩
  | .local _ .vmem, ⟨40, _⟩ => ⟨S64x64, .f32⟩
  | .local _ .vmem, ⟨41, _⟩ => ⟨S64, .f32⟩
  | .local _ .vmem, ⟨42, _⟩ => ⟨S64x64, .f32⟩
  | .local _ .vmem, ⟨43, _⟩ => ⟨S64, .f32⟩
  | .local _ .vmem, ⟨44, _⟩ => ⟨S64x64, .f32⟩
  | .local _ .vmem, ⟨45, _⟩ => ⟨S64x64, .f32⟩
  | .local _ .vmem, ⟨46, _⟩ => ⟨S64x64, .f32⟩
  | .local _ .vmem, ⟨47, _⟩ => ⟨S64, .f32⟩
  | .local _ .vmem, ⟨48, _⟩ => ⟨S64x64, .f32⟩
  | .local _ .vmem, ⟨49, _⟩ => ⟨S64, .f32⟩
  | .local _ .vmem, ⟨50, _⟩ => ⟨S6000x64, .f32⟩
  | .local _ .vmem, ⟨51, _⟩ => ⟨S6000x64, .f32⟩
  | .local _ .vmem, ⟨52, _⟩ => ⟨S6000x64, .f32⟩
  | .local _ .vmem, ⟨53, _⟩ => ⟨S6000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S6000x64, .f32⟩
  | .local _ .vmem, ⟨67, _⟩ => ⟨S6000x64, .f32⟩
  | .local _ .vmem, ⟨68, _⟩ => ⟨S6000x64, .f32⟩
  | .local _ .vmem, ⟨69, _⟩ => ⟨S6000x64, .f32⟩
  | .local _ .vmem, ⟨70, _⟩ => ⟨S6000x64, .f32⟩
  | .local _ .vmem, ⟨71, _⟩ => ⟨S6000x64, .f32⟩
  | .local _ .vmem, ⟨72, _⟩ => ⟨S6000x64, .f32⟩
  | .local _ .vmem, ⟨73, _⟩ => ⟨S6000x64, .f32⟩
  | .local _ .vmem, ⟨74, _⟩ => ⟨S64x64, .f32⟩
  | .local _ .vmem, ⟨75, _⟩ => ⟨S64x64, .f32⟩
  | .local _ .vmem, ⟨76, _⟩ => ⟨S64x64, .f32⟩
  | .local _ .vmem, ⟨77, _⟩ => ⟨S64, .f32⟩
  | .local _ .vmem, ⟨78, _⟩ => ⟨S64x64, .f32⟩
  | .local _ .vmem, ⟨79, _⟩ => ⟨S64, .f32⟩
  | .local _ .vmem, ⟨80, _⟩ => ⟨S64x64, .f32⟩
  | .local _ .vmem, ⟨81, _⟩ => ⟨S64x64, .f32⟩
  | .local _ .vmem, ⟨82, _⟩ => ⟨S64x64, .f32⟩
  | .local _ .vmem, ⟨83, _⟩ => ⟨S64, .f32⟩
  | .local _ .vmem, ⟨84, _⟩ => ⟨S64x64, .f32⟩
  | .local _ .vmem, ⟨85, _⟩ => ⟨S64, .f32⟩
  | .local _ .vmem, ⟨86, _⟩ => ⟨S6000x64, .f32⟩
  | .local _ .vmem, ⟨87, _⟩ => ⟨S6000x64, .f32⟩
  | .local _ .vmem, ⟨88, _⟩ => ⟨S6000x64, .f32⟩
  | .local _ .vmem, ⟨89, _⟩ => ⟨S6000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x64, .f32⟩
  | .local _ .vmem, ⟨96, _⟩ => ⟨S5000x64, .f32⟩
  | .local _ .vmem, ⟨97, _⟩ => ⟨S5000x64, .f32⟩
  | .local _ .vmem, ⟨98, _⟩ => ⟨S5000x64, .f32⟩
  | .local _ .vmem, ⟨99, _⟩ => ⟨S5000x64, .f32⟩
  | .local _ .vmem, ⟨100, _⟩ => ⟨S5000x64, .f32⟩
  | .local _ .vmem, ⟨101, _⟩ => ⟨S5000x64, .f32⟩
  | .local _ .vmem, ⟨102, _⟩ => ⟨S6000x64, .f32⟩
  | .local _ .vmem, ⟨103, _⟩ => ⟨S6000x64, .f32⟩
  | .local _ .vmem, ⟨104, _⟩ => ⟨S6000x64, .f32⟩
  | .local _ .vmem, ⟨105, _⟩ => ⟨S6000x64, .f32⟩
  | .local _ .vmem, ⟨106, _⟩ => ⟨S64x64, .f32⟩
  | .local _ .vmem, ⟨107, _⟩ => ⟨S64x64, .f32⟩
  | .local _ .vmem, ⟨108, _⟩ => ⟨S64, .f32⟩
  | .local _ .vmem, ⟨109, _⟩ => ⟨S64x1, .f32⟩
  | .local _ .vmem, ⟨110, _⟩ => ⟨S1, .f32⟩
  | .local _ .vmem, ⟨111, _⟩ => ⟨S6000x1, .f32⟩
  | .local _ .vmem, ⟨112, _⟩ => ⟨S6000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  ofTc nBuf bufTy 0 113 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v0 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v1 : Ref sig .tc := ⟨.hbm, 80, rfl⟩
abbrev main_v2_0 : Ref sig .tc := ⟨.hbm, 81, rfl⟩
abbrev main_v2_1 : Ref sig .tc := ⟨.hbm, 82, rfl⟩
abbrev main_v3_0 : Ref sig .tc := ⟨.hbm, 83, rfl⟩
abbrev main_v3_1 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v8 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v9 : Ref sig .tc := ⟨.hbm, 134, rfl⟩
abbrev main_v10 : Ref sig .tc := ⟨.hbm, 135, rfl⟩
abbrev main_v11 : Ref sig .tc := ⟨.hbm, 136, rfl⟩
abbrev main_v12 : Ref sig .tc := ⟨.hbm, 137, rfl⟩
abbrev main_v13 : Ref sig .tc := ⟨.hbm, 138, rfl⟩
abbrev main_v14 : Ref sig .tc := ⟨.hbm, 139, rfl⟩
abbrev main_v15 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_v20 : Ref sig .tc := ⟨.hbm, 145, rfl⟩
abbrev main_v21 : Ref sig .tc := ⟨.hbm, 146, rfl⟩
abbrev main_v22 : Ref sig .tc := ⟨.hbm, 147, rfl⟩
abbrev main_v23 : Ref sig .tc := ⟨.hbm, 148, rfl⟩
abbrev main_v24 : Ref sig .tc := ⟨.hbm, 149, rfl⟩
abbrev main_v25 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32_0 : Ref sig .tc := ⟨.hbm, 157, rfl⟩
abbrev main_v32_1 : Ref sig .tc := ⟨.hbm, 158, rfl⟩
abbrev main_cst : Ref sig .tc := ⟨.hbm, 159, rfl⟩
abbrev main_v33 : Ref sig .tc := ⟨.hbm, 160, rfl⟩
abbrev main_v34 : Ref sig .tc := ⟨.hbm, 161, rfl⟩
abbrev main_v35 : Ref sig .tc := ⟨.hbm, 162, rfl⟩
abbrev main_cst_0 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_v39_0 : Ref sig .tc := ⟨.hbm, 167, rfl⟩
abbrev main_v39_1 : Ref sig .tc := ⟨.hbm, 168, rfl⟩
abbrev main_call4_c : Ref sig .tc := ⟨.hbm, 169, rfl⟩
abbrev main_call4_v0 : Ref sig .tc := ⟨.hbm, 170, rfl⟩
abbrev main_call4_v1 : Ref sig .tc := ⟨.hbm, 171, rfl⟩
abbrev main_call4_c_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_c_1 : Ref sig .tc := ⟨.hbm, 177, rfl⟩
abbrev main_call4_c_2 : Ref sig .tc := ⟨.hbm, 178, rfl⟩
abbrev main_call4_v6 : Ref sig .tc := ⟨.hbm, 179, rfl⟩
abbrev main_call4_v7 : Ref sig .tc := ⟨.hbm, 180, rfl⟩
abbrev main_call4_v8 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_c_3 : Ref sig .tc := ⟨.hbm, 185, rfl⟩
abbrev main_call4_v12 : Ref sig .tc := ⟨.hbm, 186, rfl⟩
abbrev main_call4_v13 : Ref sig .tc := ⟨.hbm, 187, rfl⟩
abbrev main_call4_v14 : Ref sig .tc := ⟨.hbm, 188, rfl⟩
abbrev main_call4_cst : Ref sig .tc := ⟨.hbm, 189, rfl⟩
abbrev main_call4_v15 : Ref sig .tc := ⟨.hbm, 190, rfl⟩
abbrev main_v40 : Ref sig .tc := ⟨.hbm, 191, rfl⟩
abbrev main_call5_c : Ref sig .tc := ⟨.hbm, 192, rfl⟩
abbrev main_call5_v0 : Ref sig .tc := ⟨.hbm, 193, rfl⟩
abbrev main_call5_v1 : Ref sig .tc := ⟨.hbm, 194, rfl⟩
abbrev main_call5_c_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_c_1 : Ref sig .tc := ⟨.hbm, 200, rfl⟩
abbrev main_call5_c_2 : Ref sig .tc := ⟨.hbm, 201, rfl⟩
abbrev main_call5_v6 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_c_3 : Ref sig .tc := ⟨.hbm, 208, rfl⟩
abbrev main_call5_v12 : Ref sig .tc := ⟨.hbm, 209, rfl⟩
abbrev main_call5_v13 : Ref sig .tc := ⟨.hbm, 210, rfl⟩
abbrev main_call5_v14 : Ref sig .tc := ⟨.hbm, 211, rfl⟩
abbrev main_call5_cst : Ref sig .tc := ⟨.hbm, 212, rfl⟩
abbrev main_call5_v15 : Ref sig .tc := ⟨.hbm, 213, rfl⟩
abbrev main_v41 : Ref sig .tc := ⟨.hbm, 214, rfl⟩
abbrev main_v42 : Ref sig .tc := ⟨.hbm, 215, rfl⟩
abbrev main_v43 : Ref sig .tc := ⟨.hbm, 216, rfl⟩
abbrev main_v44 : Ref sig .tc := ⟨.hbm, 217, rfl⟩
abbrev main_v45 : Ref sig .tc := ⟨.hbm, 218, rfl⟩
abbrev main_v46 : Ref sig .tc := ⟨.hbm, 219, rfl⟩
abbrev main_v47 : Ref sig .tc := ⟨.hbm, 220, rfl⟩
abbrev main_v48 : Ref sig .tc := ⟨.hbm, 221, rfl⟩
abbrev main_v49 : Ref sig .tc := ⟨.hbm, 222, rfl⟩
abbrev main_v50 : Ref sig .tc := ⟨.hbm, 223, rfl⟩
abbrev main_v51 : Ref sig .tc := ⟨.hbm, 224, rfl⟩
abbrev main_v52 : Ref sig .tc := ⟨.hbm, 225, rfl⟩
abbrev main_v53 : Ref sig .tc := ⟨.hbm, 226, rfl⟩
abbrev main_v54 : Ref sig .tc := ⟨.hbm, 227, rfl⟩
abbrev main_v55 : Ref sig .tc := ⟨.hbm, 228, rfl⟩
abbrev main_v56 : Ref sig .tc := ⟨.hbm, 229, rfl⟩
abbrev main_v57 : Ref sig .tc := ⟨.hbm, 230, rfl⟩
abbrev main_v58 : Ref sig .tc := ⟨.hbm, 231, rfl⟩
abbrev main_v59 : Ref sig .tc := ⟨.hbm, 232, rfl⟩
abbrev main_v60 : Ref sig .tc := ⟨.hbm, 233, rfl⟩
abbrev main_v61 : Ref sig .tc := ⟨.hbm, 234, rfl⟩
abbrev main_v62 : Ref sig .tc := ⟨.hbm, 235, rfl⟩
abbrev main_v63 : Ref sig .tc := ⟨.hbm, 236, rfl⟩
abbrev main_v64_0 : Ref sig .tc := ⟨.hbm, 237, rfl⟩
abbrev main_v64_1 : Ref sig .tc := ⟨.hbm, 238, rfl⟩
abbrev main_cst_1 : Ref sig .tc := ⟨.hbm, 239, rfl⟩
abbrev main_v65 : Ref sig .tc := ⟨.hbm, 240, rfl⟩
abbrev main_v66 : Ref sig .tc := ⟨.hbm, 241, rfl⟩
abbrev main_v67 : Ref sig .tc := ⟨.hbm, 242, rfl⟩
abbrev main_cst_2 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71_0 : Ref sig .tc := ⟨.hbm, 247, rfl⟩
abbrev main_v71_1 : Ref sig .tc := ⟨.hbm, 248, rfl⟩
abbrev main_v72 : Ref sig .tc := ⟨.hbm, 249, rfl⟩
abbrev main_v73 : Ref sig .tc := ⟨.hbm, 250, rfl⟩
abbrev main_call6_c : Ref sig .tc := ⟨.hbm, 251, rfl⟩
abbrev main_call6_v0 : Ref sig .tc := ⟨.hbm, 252, rfl⟩
abbrev main_call6_v1 : Ref sig .tc := ⟨.hbm, 253, rfl⟩
abbrev main_call6_c_0 : Ref sig .tc := ⟨.hbm, 254, rfl⟩
abbrev main_call6_v2 : Ref sig .tc := ⟨.hbm, 255, rfl⟩
abbrev main_call6_v3 : Ref sig .tc := ⟨.hbm, 256, rfl⟩
abbrev main_call6_v4 : Ref sig .tc := ⟨.hbm, 257, rfl⟩
abbrev main_call6_v5 : Ref sig .tc := ⟨.hbm, 258, rfl⟩
abbrev main_call6_c_1 : Ref sig .tc := ⟨.hbm, 259, rfl⟩
abbrev main_call6_c_2 : Ref sig .tc := ⟨.hbm, 260, rfl⟩
abbrev main_call6_v6 : Ref sig .tc := ⟨.hbm, 261, rfl⟩
abbrev main_call6_v7 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_call6_c_3 : Ref sig .tc := ⟨.hbm, 267, rfl⟩
abbrev main_call6_v12 : Ref sig .tc := ⟨.hbm, 268, rfl⟩
abbrev main_call6_v13 : Ref sig .tc := ⟨.hbm, 269, rfl⟩
abbrev main_call6_v14 : Ref sig .tc := ⟨.hbm, 270, rfl⟩
abbrev main_call6_cst : Ref sig .tc := ⟨.hbm, 271, rfl⟩
abbrev main_call6_v15 : Ref sig .tc := ⟨.hbm, 272, rfl⟩
abbrev main_v74 : Ref sig .tc := ⟨.hbm, 273, rfl⟩
abbrev main_v75 : Ref sig .tc := ⟨.hbm, 274, rfl⟩
abbrev main_v76 : Ref sig .tc := ⟨.hbm, 275, rfl⟩
abbrev main_call7_c : Ref sig .tc := ⟨.hbm, 276, rfl⟩
abbrev main_call7_v0 : Ref sig .tc := ⟨.hbm, 277, rfl⟩
abbrev main_call7_v1 : Ref sig .tc := ⟨.hbm, 278, rfl⟩
abbrev main_call7_c_0 : Ref sig .tc := ⟨.hbm, 279, rfl⟩
abbrev main_call7_v2 : Ref sig .tc := ⟨.hbm, 280, rfl⟩
abbrev main_call7_v3 : Ref sig .tc := ⟨.hbm, 281, rfl⟩
abbrev main_call7_v4 : Ref sig .tc := ⟨.hbm, 282, rfl⟩
abbrev main_call7_v5 : Ref sig .tc := ⟨.hbm, 283, rfl⟩
abbrev main_call7_c_1 : Ref sig .tc := ⟨.hbm, 284, rfl⟩
abbrev main_call7_c_2 : Ref sig .tc := ⟨.hbm, 285, rfl⟩
abbrev main_call7_v6 : Ref sig .tc := ⟨.hbm, 286, rfl⟩
abbrev main_call7_v7 : Ref sig .tc := ⟨.hbm, 287, rfl⟩
abbrev main_call7_v8 : Ref sig .tc := ⟨.hbm, 288, rfl⟩
abbrev main_call7_v9 : Ref sig .tc := ⟨.hbm, 289, rfl⟩
abbrev main_call7_v10 : Ref sig .tc := ⟨.hbm, 290, rfl⟩
abbrev main_call7_v11 : Ref sig .tc := ⟨.hbm, 291, rfl⟩
abbrev main_call7_c_3 : Ref sig .tc := ⟨.hbm, 292, rfl⟩
abbrev main_call7_v12 : Ref sig .tc := ⟨.hbm, 293, rfl⟩
abbrev main_call7_v13 : Ref sig .tc := ⟨.hbm, 294, rfl⟩
abbrev main_call7_v14 : Ref sig .tc := ⟨.hbm, 295, rfl⟩
abbrev main_call7_cst : Ref sig .tc := ⟨.hbm, 296, rfl⟩
abbrev main_call7_v15 : Ref sig .tc := ⟨.hbm, 297, rfl⟩
abbrev main_v77 : Ref sig .tc := ⟨.hbm, 298, rfl⟩
abbrev main_v78 : Ref sig .tc := ⟨.hbm, 299, rfl⟩
abbrev main_v79 : Ref sig .tc := ⟨.hbm, 300, rfl⟩
abbrev main_v80 : Ref sig .tc := ⟨.hbm, 301, rfl⟩
abbrev main_v81 : Ref sig .tc := ⟨.hbm, 302, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg14_0 : Ref sig .tc := ⟨.vmem, 48, rfl⟩
abbrev cc2_stg15_0 : Ref sig .tc := ⟨.vmem, 49, rfl⟩
abbrev cc2_stg16_0 : Ref sig .tc := ⟨.vmem, 50, rfl⟩
abbrev cc2_stg16_1 : Ref sig .tc := ⟨.vmem, 51, rfl⟩
abbrev cc2_stg17_0 : Ref sig .tc := ⟨.vmem, 52, rfl⟩
abbrev cc2_stg17_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg1_1 : Ref sig .tc := ⟨.vmem, 69, rfl⟩
abbrev cc4_stg2_0 : Ref sig .tc := ⟨.vmem, 70, rfl⟩
abbrev cc4_stg2_1 : Ref sig .tc := ⟨.vmem, 71, rfl⟩
abbrev cc4_stg3_0 : Ref sig .tc := ⟨.vmem, 72, rfl⟩
abbrev cc4_stg3_1 : Ref sig .tc := ⟨.vmem, 73, rfl⟩
abbrev cc4_stg4_0 : Ref sig .tc := ⟨.vmem, 74, rfl⟩
abbrev cc4_stg5_0 : Ref sig .tc := ⟨.vmem, 75, rfl⟩
abbrev cc4_stg6_0 : Ref sig .tc := ⟨.vmem, 76, rfl⟩
abbrev cc4_stg7_0 : Ref sig .tc := ⟨.vmem, 77, rfl⟩
abbrev cc4_stg8_0 : Ref sig .tc := ⟨.vmem, 78, rfl⟩
abbrev cc4_stg9_0 : Ref sig .tc := ⟨.vmem, 79, rfl⟩
abbrev cc4_stg10_0 : Ref sig .tc := ⟨.vmem, 80, rfl⟩
abbrev cc4_stg11_0 : Ref sig .tc := ⟨.vmem, 81, rfl⟩
abbrev cc4_stg12_0 : Ref sig .tc := ⟨.vmem, 82, rfl⟩
abbrev cc4_stg13_0 : Ref sig .tc := ⟨.vmem, 83, rfl⟩
abbrev cc4_stg14_0 : Ref sig .tc := ⟨.vmem, 84, rfl⟩
abbrev cc4_stg15_0 : Ref sig .tc := ⟨.vmem, 85, rfl⟩
abbrev cc4_stg16_0 : Ref sig .tc := ⟨.vmem, 86, rfl⟩
abbrev cc4_stg16_1 : Ref sig .tc := ⟨.vmem, 87, rfl⟩
abbrev cc4_stg17_0 : Ref sig .tc := ⟨.vmem, 88, rfl⟩
abbrev cc4_stg17_1 : Ref sig .tc := ⟨.vmem, 89, rfl⟩
abbrev cc5_stg0_0 : Ref sig .tc := ⟨.vmem, 90, rfl⟩
abbrev cc5_stg0_1 : Ref sig .tc := ⟨.vmem, 91, rfl⟩
abbrev cc5_stg1_0 : Ref sig .tc := ⟨.vmem, 92, rfl⟩
abbrev cc5_stg1_1 : Ref sig .tc := ⟨.vmem, 93, rfl⟩
abbrev cc5_stg2_0 : Ref sig .tc := ⟨.vmem, 94, rfl⟩
abbrev cc5_stg2_1 : Ref sig .tc := ⟨.vmem, 95, rfl⟩
abbrev cc5_stg3_0 : Ref sig .tc := ⟨.vmem, 96, rfl⟩
abbrev cc5_stg3_1 : Ref sig .tc := ⟨.vmem, 97, rfl⟩
abbrev cc5_stg4_0 : Ref sig .tc := ⟨.vmem, 98, rfl⟩
abbrev cc5_stg4_1 : Ref sig .tc := ⟨.vmem, 99, rfl⟩
abbrev cc5_stg5_0 : Ref sig .tc := ⟨.vmem, 100, rfl⟩
abbrev cc5_stg5_1 : Ref sig .tc := ⟨.vmem, 101, rfl⟩
abbrev cc6_stg0_0 : Ref sig .tc := ⟨.vmem, 102, rfl⟩
abbrev cc6_stg0_1 : Ref sig .tc := ⟨.vmem, 103, rfl⟩
abbrev cc6_stg1_0 : Ref sig .tc := ⟨.vmem, 104, rfl⟩
abbrev cc6_stg1_1 : Ref sig .tc := ⟨.vmem, 105, rfl⟩
abbrev cc6_stg2_0 : Ref sig .tc := ⟨.vmem, 106, rfl⟩
abbrev cc6_stg3_0 : Ref sig .tc := ⟨.vmem, 107, rfl⟩
abbrev cc6_stg4_0 : Ref sig .tc := ⟨.vmem, 108, rfl⟩
abbrev cc6_stg5_0 : Ref sig .tc := ⟨.vmem, 109, rfl⟩
abbrev cc6_stg6_0 : Ref sig .tc := ⟨.vmem, 110, rfl⟩
abbrev cc6_stg7_0 : Ref sig .tc := ⟨.vmem, 111, rfl⟩
abbrev cc6_stg7_1 : Ref sig .tc := ⟨.vmem, 112, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem13_0 : DmaSem sig := 47
abbrev cc2_sem14_0 : DmaSem sig := 48
abbrev cc2_sem15_0 : DmaSem sig := 49
abbrev cc2_sem16_0 : DmaSem sig := 50
abbrev cc2_sem16_1 : DmaSem sig := 51
abbrev cc2_sem17_0 : DmaSem sig := 52
abbrev cc2_sem17_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc4_sem0_0 : DmaSem sig := 66
abbrev cc4_sem0_1 : DmaSem sig := 67
abbrev cc4_sem1_0 : DmaSem sig := 68
abbrev cc4_sem1_1 : DmaSem sig := 69
abbrev cc4_sem2_0 : DmaSem sig := 70
abbrev cc4_sem2_1 : DmaSem sig := 71
abbrev cc4_sem3_0 : DmaSem sig := 72
abbrev cc4_sem3_1 : DmaSem sig := 73
abbrev cc4_sem4_0 : DmaSem sig := 74
abbrev cc4_sem5_0 : DmaSem sig := 75
abbrev cc4_sem6_0 : DmaSem sig := 76
abbrev cc4_sem7_0 : DmaSem sig := 77
abbrev cc4_sem8_0 : DmaSem sig := 78
abbrev cc4_sem9_0 : DmaSem sig := 79
abbrev cc4_sem10_0 : DmaSem sig := 80
abbrev cc4_sem11_0 : DmaSem sig := 81
abbrev cc4_sem12_0 : DmaSem sig := 82
abbrev cc4_sem13_0 : DmaSem sig := 83
abbrev cc4_sem14_0 : DmaSem sig := 84
abbrev cc4_sem15_0 : DmaSem sig := 85
abbrev cc4_sem16_0 : DmaSem sig := 86
abbrev cc4_sem16_1 : DmaSem sig := 87
abbrev cc4_sem17_0 : DmaSem sig := 88
abbrev cc4_sem17_1 : DmaSem sig := 89
abbrev cc5_sem0_0 : DmaSem sig := 90
abbrev cc5_sem0_1 : DmaSem sig := 91
abbrev cc5_sem1_0 : DmaSem sig := 92
abbrev cc5_sem1_1 : DmaSem sig := 93
abbrev cc5_sem2_0 : DmaSem sig := 94
abbrev cc5_sem2_1 : DmaSem sig := 95
abbrev cc5_sem3_0 : DmaSem sig := 96
abbrev cc5_sem3_1 : DmaSem sig := 97
abbrev cc5_sem4_0 : DmaSem sig := 98
abbrev cc5_sem4_1 : DmaSem sig := 99
abbrev cc5_sem5_0 : DmaSem sig := 100
abbrev cc5_sem5_1 : DmaSem sig := 101
abbrev cc6_sem0_0 : DmaSem sig := 102
abbrev cc6_sem0_1 : DmaSem sig := 103
abbrev cc6_sem1_0 : DmaSem sig := 104
abbrev cc6_sem1_1 : DmaSem sig := 105
abbrev cc6_sem2_0 : DmaSem sig := 106
abbrev cc6_sem3_0 : DmaSem sig := 107
abbrev cc6_sem4_0 : DmaSem sig := 108
abbrev cc6_sem5_0 : DmaSem sig := 109
abbrev cc6_sem6_0 : DmaSem sig := 110
abbrev cc6_sem7_0 : DmaSem sig := 111
abbrev cc6_sem7_1 : DmaSem sig := 112

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S6000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S6000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S6000x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S6000x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S6000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S64x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x64 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S64 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 2 → Memref sig .tc .vmem S6000x64 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S6000x64 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S6000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S6000x256_S6000x256_0_0 : ∀ a, (![0, 0] : Fin 2 → Nat) a + S6000x256.size a ≤ S6000x256.size a
  h_S6000x256 : 0 < S6000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  broadcasts_S1x64_S6000x64 : S1x64.Broadcasts S6000x64
  inb_S6000x64_S6000x64_0_0 : ∀ a, (![0, 0] : Fin 2 → Nat) a + S6000x64.size a ≤ S6000x64.size a
  h_S6000x64 : 0 < S6000x64.numel
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1x1_S300000x1_0_1 : S1x1.BroadcastsInDim S300000x1 (![0, 1] : Fin 2 → Fin S300000x1.rank)
  reducesTo_S300000x1_S300000_d1 : S300000x1.ReducesTo [1] S300000
  bcast_S300000_S300000x64_0 : S300000.BroadcastsInDim S300000x64 (![0] : Fin 1 → Fin S300000x64.rank)
  bcast_S_S300000x64 : S_.BroadcastsInDim S300000x64 (![] : Fin 0 → Fin S300000x64.rank)
  slices_S2x192x64_S1x192x64_0_0_0 : S2x192x64.Slices ![0, 0, 0] S1x192x64
  shapeCasts_S1x192x64_S192x64 : S1x192x64.ShapeCasts S192x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S6000x64_S6000x64 : S6000x64.ShapeCasts S6000x64
  shapeCasts_S64x64_S64x64 : S64x64.ShapeCasts S64x64
  shapeCasts_S64_S64 : S64.ShapeCasts S64
  slices_S2x192x64_S1x192x64_1_0_0 : S2x192x64.Slices ![1, 0, 0] S1x192x64
  slices_S2x64_S1x64_1_0 : S2x64.Slices ![1, 0] S1x64
  slices_S2x64x64_S1x64x64_1_0_0 : S2x64x64.Slices ![1, 0, 0] S1x64x64
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1x1_S150000x1_0_1 : S1x1.BroadcastsInDim S150000x1 (![0, 1] : Fin 2 → Fin S150000x1.rank)
  reducesTo_S150000x1_S150000_d1 : S150000x1.ReducesTo [1] S150000
  bcast_S150000_S150000x64_0 : S150000.BroadcastsInDim S150000x64 (![0] : Fin 1 → Fin S150000x64.rank)
  bcast_S_S150000x64 : S_.BroadcastsInDim S150000x64 (![] : Fin 0 → Fin S150000x64.rank)
  slices_S2x150000_S1x150000_1_0 : S2x150000.Slices ![1, 0] S1x150000
  slices_S128x64_S64x64_0_0 : S128x64.Slices ![0, 0] S64x64
  slices_S128x64_S64x64_64_0 : S128x64.Slices ![64, 0] S64x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S150000x1_S150000 : S150000x1.ShapeCasts S150000
  gather_S100000x64_S100000x1_S100000x64_1_0_n_n_0_1_164_wf : GatherDims.WF S100000x64 S100000x1 S100000x64 [1] [0] [] [0] [] 1 ![1, 64]
  dot_S5000x64_S64x64_S5000x64_1_0_0_1_n_n_wf : DotDims.WF S5000x64 S64x64 S5000x64 [1] [0] [0] [1] [] []
  dot_S6000x256_S256x64_S6000x64_1_0_0_1_n_n_wf : DotDims.WF S6000x256 S256x64 S6000x64 [1] [0] [0] [1] [] []
  dot_S6000x64_S64x64_S6000x64_1_0_0_1_n_n_wf : DotDims.WF S6000x64 S64x64 S6000x64 [1] [0] [0] [1] [] []
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1
  gather_S100000x64_S150000x1_S150000x64_1_0_n_n_0_1_164_wf : GatherDims.WF S100000x64 S150000x1 S150000x64 [1] [0] [] [0] [] 1 ![1, 64]
  dot_S6000x64_S64x1_S6000x1_1_0_0_1_n_n_wf : DotDims.WF S6000x64 S64x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x256.size a ≤ S300000x256.size a
  hwx1_0 : ∀ i : grid1.Coords, EltTy.bits .f32 = 32 ∨ (Rect.block (s := S300000x256) S6000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S6000x64.size a ≤ S300000x64.size a
  hwx1_9 : ∀ i : grid1.Coords, EltTy.bits .f32 = 32 ∨ (Rect.block (s := S300000x64) S6000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6000x64.size a ≤ S300000x64.size a
  hwx1_10 : ∀ i : grid1.Coords, EltTy.bits .f32 = 32 ∨ (Rect.block (s := S300000x64) S6000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S300000x64.size a
  hwx2_0 : ∀ i : grid2.Coords, EltTy.bits .f32 = 32 ∨ (Rect.block (s := S300000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S300000x64.size a
  hwx2_1 : ∀ i : grid2.Coords, EltTy.bits .f32 = 32 ∨ (Rect.block (s := S300000x64) S6000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S300000x64.size a
  hwx2_2 : ∀ i : grid2.Coords, EltTy.bits .f32 = 32 ∨ (Rect.block (s := S300000x64) S6000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x64.size a ≤ S300000x64.size a
  hwx2_3 : ∀ i : grid2.Coords, EltTy.bits .f32 = 32 ∨ (Rect.block (s := S300000x64) S6000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S64x64.size a
  hwx2_10 : ∀ i : grid2.Coords, EltTy.bits .f32 = 32 ∨ (Rect.block (s := S64x64) S64x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x64.size a ≤ S64x64.size a
  hwx2_12 : ∀ i : grid2.Coords, EltTy.bits .f32 = 32 ∨ (Rect.block (s := S64x64) S64x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64.size a ≤ S64.size a
  hwx2_13 : ∀ i : grid2.Coords, EltTy.bits .f32 = 32 ∨ (Rect.block (s := S64) S64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x64.size a ≤ S64x64.size a
  hwx2_14 : ∀ i : grid2.Coords, EltTy.bits .f32 = 32 ∨ (Rect.block (s := S64x64) S64x64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S64.size a ≤ S64.size a
  hwx2_15 : ∀ i : grid2.Coords, EltTy.bits .f32 = 32 ∨ (Rect.block (s := S64) S64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S6000x64.size a ≤ S300000x64.size a
  hwx2_16 : ∀ i : grid2.Coords, EltTy.bits .f32 = 32 ∨ (Rect.block (s := S300000x64) S6000x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S6000x64.size a ≤ S300000x64.size a
  hwx2_17 : ∀ i : grid2.Coords, EltTy.bits .f32 = 32 ∨ (Rect.block (s := S300000x64) S6000x64.size (cc2_transform_17 i) (hinb2_17 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S300000x64.size a
  hwx4_0 : ∀ i : grid4.Coords, EltTy.bits .f32 = 32 ∨ (Rect.block (s := S300000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x64.size a ≤ S300000x64.size a
  hwx4_1 : ∀ i : grid4.Coords, EltTy.bits .f32 = 32 ∨ (Rect.block (s := S300000x64) S6000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x64.size a ≤ S300000x64.size a
  hwx4_2 : ∀ i : grid4.Coords, EltTy.bits .f32 = 32 ∨ (Rect.block (s := S300000x64) S6000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x64.size a ≤ S300000x64.size a
  hwx4_3 : ∀ i : grid4.Coords, EltTy.bits .f32 = 32 ∨ (Rect.block (s := S300000x64) S6000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64.size a ≤ S64.size a
  hwx4_9 : ∀ i : grid4.Coords, EltTy.bits .f32 = 32 ∨ (Rect.block (s := S64) S64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x64.size a ≤ S64x64.size a
  hwx4_10 : ∀ i : grid4.Coords, EltTy.bits .f32 = 32 ∨ (Rect.block (s := S64x64) S64x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64x64.size a ≤ S64x64.size a
  hwx4_11 : ∀ i : grid4.Coords, EltTy.bits .f32 = 32 ∨ (Rect.block (s := S64x64) S64x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S64x64.size a ≤ S64x64.size a
  hwx4_12 : ∀ i : grid4.Coords, EltTy.bits .f32 = 32 ∨ (Rect.block (s := S64x64) S64x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S64.size a ≤ S64.size a
  hwx4_13 : ∀ i : grid4.Coords, EltTy.bits .f32 = 32 ∨ (Rect.block (s := S64) S64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x64.size a ≤ S64x64.size a
  hwx4_14 : ∀ i : grid4.Coords, EltTy.bits .f32 = 32 ∨ (Rect.block (s := S64x64) S64x64.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S64.size a ≤ S64.size a
  hwx4_15 : ∀ i : grid4.Coords, EltTy.bits .f32 = 32 ∨ (Rect.block (s := S64) S64.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S6000x64.size a ≤ S300000x64.size a
  hwx4_16 : ∀ i : grid4.Coords, EltTy.bits .f32 = 32 ∨ (Rect.block (s := S300000x64) S6000x64.size (cc4_transform_16 i) (hinb4_16 i)).WholeWords (EltTy.packing .f32)
  hstage4_17 : ∀ j, (stage4_17 j).IsWhole
  nbuf4_17 : grid4.bufCount reads4_17 false = 2
  hreads4_17 : ∀ i i' : grid4.Coords, (∀ a, reads4_17 a = true → i a = i' a) → cc4_transform_17 i = cc4_transform_17 i'
  hinb4_17 : ∀ (i : grid4.Coords) a, (cc4_transform_17 i a + 1) * S6000x64.size a ≤ S300000x64.size a
  hwx4_17 : ∀ i : grid4.Coords, EltTy.bits .f32 = 32 ∨ (Rect.block (s := S300000x64) S6000x64.size (cc4_transform_17 i) (hinb4_17 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S150000x64.size a
  hwx6_0 : ∀ i : grid6.Coords, EltTy.bits .f32 = 32 ∨ (Rect.block (s := S150000x64) S6000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S150000x64.size a
  hwx6_1 : ∀ i : grid6.Coords, EltTy.bits .f32 = 32 ∨ (Rect.block (s := S150000x64) S6000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1.size a ≤ S1.size a
  hwx6_6 : ∀ i : grid6.Coords, EltTy.bits .f32 = 32 ∨ (Rect.block (s := S1) S1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S6000x1.size a ≤ S150000x1.size a
  hwx6_7 : ∀ i : grid6.Coords, EltTy.bits .f32 = 32 ∨ (Rect.block (s := S150000x1) S6000x1.size (cc6_transform_7 i) (hinb6_7 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S6000x256_S256x64_S6000x64_1_0_0_1_n_n : DotDims S6000x256 S256x64 S6000x64 where
  lhsContracting := [1]
  rhsContracting := [0]
  lhsNonContracting := [0]
  rhsNonContracting := [1]
  lhsBatch := []
  rhsBatch := []
  wf := dot_S6000x256_S256x64_S6000x64_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def gather_S100000x64_S150000x1_S150000x64_1_0_n_n_0_1_164 : GatherDims S100000x64 S150000x1 S150000x64 where
  offsetDims := [1]
  collapsedSliceDims := [0]
  operandBatchingDims := []
  startIndicesBatchingDims := []
  startIndexMap := [0]
  indexVectorDim := 1
  sliceSizes := ![1, 64]
  wf := gather_S100000x64_S150000x1_S150000x64_1_0_n_n_0_1_164_wf
def dot_S6000x64_S64x1_S6000x1_1_0_0_1_n_n : DotDims S6000x64 S64x1 S6000x1 where
  lhsContracting := [1]
  rhsContracting := [0]
  lhsNonContracting := [0]
  rhsNonContracting := [1]
  lhsBatch := []
  rhsBatch := []
  wf := dot_S6000x64_S64x1_S6000x1_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S5000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_1) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg30) S6000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3_0) S6000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v3_1) S6000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v9) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S6000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S6000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v29) S64x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v30) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v31) S64x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v21) S64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v23) S64x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v25) S64.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v32_0) S6000x64.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v32_1) S6000x64.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

abbrev win3_0 : Pipeline.Window sig grid3 :=
  Pipeline.Window.ofSpec (Memref.whole main_v2_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v39_1) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v41) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S6000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3_0) S6000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3_1) S6000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v45) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v47) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v49) S64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v61) S64x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v62) S64x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v63) S64x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v53) S64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v55) S64x64.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v57) S64.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v64_0) S6000x64.size cc4_transform_16 reads4_16 true false 2 stage4_16 sem4_16
    hrank4 hreads4_16 hinb4_16 nbuf4_16 (Memref.isWhole_whole _) hwx4_16 hstage4_16

abbrev win4_17 : Pipeline.Window sig grid4 :=
  Pipeline.Window.ofSpec (Memref.whole main_v64_1) S6000x64.size cc4_transform_17 reads4_17 true false 2 stage4_17 sem4_17
    hrank4 hreads4_17 hinb4_17 nbuf4_17 (Memref.isWhole_whole _) hwx4_17 hstage4_17

abbrev win4 : Fin 18 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | ⟨_ + 18, h⟩ => absurd h (Nat.not_lt.2 (Nat.le_add_left _ _))
abbrev spec4 : Fin 18 → Pipeline.WinSpec sig grid4.rank := fun w => (win4 w).toWinSpec

abbrev win5_0 : Pipeline.Window sig grid5 :=
  Pipeline.Window.ofSpec (Memref.whole main_v39_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39_1) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v71_0) S5000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v71_1) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v74) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S6000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg27) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg28) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg29) S1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v80) S6000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S256x64 : Shape := ⟨2, ![256, 64]⟩
abbrev S2x192x64 : Shape := ⟨3, ![2, 192, 64]⟩
abbrev S2x64 : Shape := ⟨2, ![2, 64]⟩
abbrev S2x64x64 : Shape := ⟨3, ![2, 64, 64]⟩
abbrev S128x64 : Shape := ⟨2, ![128, 64]⟩
abbrev S64x1 : Shape := ⟨2, ![64, 1]⟩
abbrev S1 : Shape := ⟨1, ![1]⟩
abbrev S300000x256 : Shape := ⟨2, ![300000, 256]⟩
abbrev S100000 : Shape := ⟨1, ![100000]⟩
abbrev S2x300000 : Shape := ⟨2, ![2, 300000]⟩
abbrev S2x150000 : Shape := ⟨2, ![2, 150000]⟩
abbrev S_ : Shape := ⟨0, ![]⟩
abbrev S100000x1 : Shape := ⟨2, ![100000, 1]⟩
abbrev S1x64 : Shape := ⟨2, ![1, 64]⟩
abbrev S300000x64 : Shape := ⟨2, ![300000, 64]⟩
abbrev S1x300000 : Shape := ⟨2, ![1, 300000]⟩
abbrev S300000 : Shape := ⟨1, ![300000]⟩
abbrev S300000x1 : Shape := ⟨2, ![300000, 1]⟩
abbrev S300000x192 : Shape := ⟨2, ![300000, 192]⟩
abbrev S1x192x64 : Shape := ⟨3, ![1, 192, 64]⟩
abbrev S192x64 : Shape := ⟨2, ![192, 64]⟩
abbrev S1x64x64 : Shape := ⟨3, ![1, 64, 64]⟩
abbrev S1x150000 : Shape := ⟨2, ![1, 150000]⟩
abbrev S150000 : Shape := ⟨1, ![150000]⟩
abbrev S150000x1 : Shape := ⟨2, ![150000, 1]⟩
abbrev S150000x64 : Shape := ⟨2, ![150000, 64]⟩
abbrev S150000x128 : Shape := ⟨2, ![150000, 128]⟩
abbrev S1x1 : Shape := ⟨2, ![1, 1]⟩

abbrev nBuf : Space → Nat
  | .hbm => 328
  | .vmem => 0
  | .smem => 0
  | _ => 0

abbrev hbmTy0_0 (i : Nat) : BufTy := match i % 128 with
  | 0 => ⟨S100000x64, .f32⟩
  | 1 => ⟨S100000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S256x64, .f32⟩
  | 11 => ⟨S64, .f32⟩
  | 12 => ⟨S64x64, .f32⟩
  | 13 => ⟨S64, .f32⟩
  | 14 => ⟨S256x64, .f32⟩
  | 15 => ⟨S64, .f32⟩
  | 16 => ⟨S64x64, .f32⟩
  | 17 => ⟨S64, .f32⟩
  | 18 => ⟨S2x192x64, .f32⟩
  | 19 => ⟨S2x64, .f32⟩
  | 20 => ⟨S2x64x64, .f32⟩
  | 21 => ⟨S2x64, .f32⟩
  | 22 => ⟨S2x192x64, .f32⟩
  | 23 => ⟨S2x64, .f32⟩
  | 24 => ⟨S2x64x64, .f32⟩
  | 25 => ⟨S2x64, .f32⟩
  | 26 => ⟨S128x64, .f32⟩
  | 27 => ⟨S64, .f32⟩
  | 28 => ⟨S64x1, .f32⟩
  | 29 => ⟨S1, .f32⟩
  | 30 => ⟨S300000x256, .f32⟩
  | 31 => ⟨S100000, .i32⟩
  | 32 => ⟨S100000, .i32⟩
  | 33 => ⟨S2x300000, .i32⟩
  | 34 => ⟨S2x150000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S300000x64, .f32⟩
  | 76 => ⟨S1x64, .f32⟩
  | 77 => ⟨S300000x64, .f32⟩
  | 78 => ⟨S300000x64, .f32⟩
  | 79 => ⟨S_, .f32⟩
  | 80 => ⟨S300000x64, .f32⟩
  | 81 => ⟨S300000x64, .f32⟩
  | 82 => ⟨S300000x64, .f32⟩
  | 83 => ⟨S1x64, .f32⟩
  | 84 => ⟨S300000x64, .f32⟩
  | 85 => ⟨S300000x64, .f32⟩
  | 86 => ⟨S300000x64, .f32⟩
  | 87 => ⟨S1x64, .f32⟩
  | 88 => ⟨S300000x64, .f32⟩
  | 89 => ⟨S300000x64, .f32⟩
  | 90 => ⟨S_, .f32⟩
  | 91 => ⟨S300000x64, .f32⟩
  | 92 => ⟨S300000x64, .f32⟩
  | 93 => ⟨S300000x64, .f32⟩
  | 94 => ⟨S1x64, .f32⟩
  | 95 => ⟨S300000x64, .f32⟩
  | 96 => ⟨S300000x64, .f32⟩
  | 97 => ⟨S1x300000, .i32⟩
  | 98 => ⟨S300000, .i32⟩
  | 99 => ⟨S1x300000, .i32⟩
  | 100 => ⟨S300000, .i32⟩
  | 101 => ⟨S_, .i32⟩
  | 102 => ⟨S300000, .i32⟩
  | 103 => ⟨S300000, .i1⟩
  | 104 => ⟨S_, .i32⟩
  | 105 => ⟨S300000, .i32⟩
  | 106 => ⟨S300000, .i32⟩
  | 107 => ⟨S300000, .i32⟩
  | 108 => ⟨S300000x1, .i32⟩
  | 109 => ⟨S300000x64, .f32⟩
  | 110 => ⟨S_, .i32⟩
  | 111 => ⟨S300000, .i32⟩
  | 112 => ⟨S300000, .i1⟩
  | 113 => ⟨S_, .i32⟩
  | 114 => ⟨S300000, .i32⟩
  | 115 => ⟨S300000, .i32⟩
  | 116 => ⟨S300000, .i32⟩
  | 117 => ⟨S300000x1, .i32⟩
  | 118 => ⟨S300000x64, .f32⟩
  | 119 => ⟨S300000x192, .f32⟩
  | 120 => ⟨S1x192x64, .f32⟩
  | 121 => ⟨S192x64, .f32⟩
  | 122 => ⟨S1x64, .f32⟩
  | 123 => ⟨S64, .f32⟩
  | 124 => ⟨S1x64x64, .f32⟩
  | 125 => ⟨S64x64, .f32⟩
  | 126 => ⟨S1x64, .f32⟩
  | 127 => ⟨S64, .f32⟩
  | _ => ⟨S100000x64, .f32⟩

abbrev hbmTy0_1 (i : Nat) : BufTy := match i % 128 with
  | 0 => ⟨S300000x64, .f32⟩
  | 1 => ⟨S1x64, .f32⟩
  | 2 => ⟨S300000x64, .f32⟩
  | 3 => ⟨S300000x64, .f32⟩
  | 4 => ⟨S_, .f32⟩
  | 5 => ⟨S300000x64, .f32⟩
  | 6 => ⟨S300000x64, .f32⟩
  | 7 => ⟨S300000x64, .f32⟩
  | 8 => ⟨S1x64, .f32⟩
  | 9 => ⟨S300000x64, .f32⟩
  | 10 => ⟨S300000x64, .f32⟩
  | 11 => ⟨S_, .f32⟩
  | 12 => ⟨S100000x64, .f32⟩
  | 13 => ⟨S100000x64, .f32⟩
  | 14 => ⟨S_, .f32⟩
  | 15 => ⟨S100000x64, .f32⟩
  | 16 => ⟨S300000x1, .i32⟩
  | 17 => ⟨S100000x64, .f32⟩
  | 18 => ⟨S100000x64, .f32⟩
  | 19 => ⟨S_, .i32⟩
  | 20 => ⟨S300000, .i32⟩
  | 21 => ⟨S300000, .i1⟩
  | 22 => ⟨S_, .i32⟩
  | 23 => ⟨S300000, .i32⟩
  | 24 => ⟨S300000, .i32⟩
  | 25 => ⟨S300000, .i32⟩
  | 26 => ⟨S300000x1, .i32⟩
  | 27 => ⟨S300000x64, .f32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000x64, .f32⟩
  | 37 => ⟨S300000x192, .f32⟩
  | 38 => ⟨S1x192x64, .f32⟩
  | 39 => ⟨S192x64, .f32⟩
  | 40 => ⟨S1x64, .f32⟩
  | 41 => ⟨S64, .f32⟩
  | 42 => ⟨S1x64x64, .f32⟩
  | 43 => ⟨S64x64, .f32⟩
  | 44 => ⟨S1x64, .f32⟩
  | 45 => ⟨S64, .f32⟩
  | 46 => ⟨S300000x64, .f32⟩
  | 47 => ⟨S1x64, .f32⟩
  | 48 => ⟨S300000x64, .f32⟩
  | 49 => ⟨S300000x64, .f32⟩
  | 50 => ⟨S_, .f32⟩
  | 51 => ⟨S300000x64, .f32⟩
  | 52 => ⟨S300000x64, .f32⟩
  | 53 => ⟨S300000x64, .f32⟩
  | 54 => ⟨S1x64, .f32⟩
  | 55 => ⟨S300000x64, .f32⟩
  | 56 => ⟨S300000x64, .f32⟩
  | 57 => ⟨S_, .f32⟩
  | 58 => ⟨S100000x64, .f32⟩
  | 59 => ⟨S100000x64, .f32⟩
  | 60 => ⟨S_, .f32⟩
  | 61 => ⟨S100000x64, .f32⟩
  | 62 => ⟨S300000x1, .i32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x64, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x64, .f32⟩
  | 91 => ⟨S300000x192, .f32⟩
  | 92 => ⟨S1x192x64, .f32⟩
  | 93 => ⟨S192x64, .f32⟩
  | 94 => ⟨S1x64, .f32⟩
  | 95 => ⟨S64, .f32⟩
  | 96 => ⟨S1x64x64, .f32⟩
  | 97 => ⟨S64x64, .f32⟩
  | 98 => ⟨S1x64, .f32⟩
  | 99 => ⟨S64, .f32⟩
  | 100 => ⟨S300000x64, .f32⟩
  | 101 => ⟨S1x64, .f32⟩
  | 102 => ⟨S300000x64, .f32⟩
  | 103 => ⟨S300000x64, .f32⟩
  | 104 => ⟨S_, .f32⟩
  | 105 => ⟨S300000x64, .f32⟩
  | 106 => ⟨S300000x64, .f32⟩
  | 107 => ⟨S300000x64, .f32⟩
  | 108 => ⟨S1x64, .f32⟩
  | 109 => ⟨S300000x64, .f32⟩
  | 110 => ⟨S300000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S300000x1, .i32⟩
  | 117 => ⟨S100000x64, .f32⟩
  | 118 => ⟨S100000x64, .f32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S300000x64, .f32⟩
  | _ => ⟨S100000x64, .f32⟩

abbrev hbmTy0_2 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x64, .f32⟩
  | 9 => ⟨S300000x192, .f32⟩
  | 10 => ⟨S1x192x64, .f32⟩
  | 11 => ⟨S192x64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S300000x64, .f32⟩
  | 19 => ⟨S1x64, .f32⟩
  | 20 => ⟨S300000x64, .f32⟩
  | 21 => ⟨S300000x64, .f32⟩
  | 22 => ⟨S_, .f32⟩
  | 23 => ⟨S300000x64, .f32⟩
  | 24 => ⟨S300000x64, .f32⟩
  | 25 => ⟨S300000x64, .f32⟩
  | 26 => ⟨S1x64, .f32⟩
  | 27 => ⟨S300000x64, .f32⟩
  | 28 => ⟨S300000x64, .f32⟩
  | 29 => ⟨S_, .f32⟩
  | 30 => ⟨S100000x64, .f32⟩
  | 31 => ⟨S100000x64, .f32⟩
  | 32 => ⟨S_, .f32⟩
  | 33 => ⟨S100000x64, .f32⟩
  | 34 => ⟨S300000x1, .i32⟩
  | 35 => ⟨S100000x64, .f32⟩
  | 36 => ⟨S100000x64, .f32⟩
  | 37 => ⟨S1x150000, .i32⟩
  | 38 => ⟨S150000, .i32⟩
  | 39 => ⟨S_, .i32⟩
  | 40 => ⟨S150000, .i32⟩
  | 41 => ⟨S150000, .i1⟩
  | 42 => ⟨S_, .i32⟩
  | 43 => ⟨S150000, .i32⟩
  | 44 => ⟨S150000, .i32⟩
  | 45 => ⟨S150000, .i32⟩
  | 46 => ⟨S150000x1, .i32⟩
  | 47 => ⟨S150000x64, .f32⟩
  | 48 => ⟨S1x150000, .i32⟩
  | 49 => ⟨S150000, .i32⟩
  | 50 => ⟨S_, .i32⟩
  | 51 => ⟨S150000, .i32⟩
  | 52 => ⟨S150000, .i1⟩
  | 53 => ⟨S_, .i32⟩
  | 54 => ⟨S150000, .i32⟩
  | 55 => ⟨S150000, .i32⟩
  | 56 => ⟨S150000, .i32⟩
  | 57 => ⟨S150000x1, .i32⟩
  | 58 => ⟨S150000x64, .f32⟩
  | 59 => ⟨S150000x128, .f32⟩
  | 60 => ⟨S150000x64, .f32⟩
  | 61 => ⟨S1x64, .f32⟩
  | 62 => ⟨S150000x64, .f32⟩
  | 63 => ⟨S150000x64, .f32⟩
  | 64 => ⟨S_, .f32⟩
  | 65 => ⟨S150000x64, .f32⟩
  | 66 => ⟨S150000x64, .f32⟩
  | 67 => ⟨S150000x1, .f32⟩
  | 68 => ⟨S1x1, .f32⟩
  | 69 => ⟨S150000x1, .f32⟩
  | 70 => ⟨S150000x1, .f32⟩
  | 71 => ⟨S150000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_c : Ref sig .tc := ⟨.hbm, 35, rfl⟩
abbrev main_v0 : Ref sig .tc := ⟨.hbm, 36, rfl⟩
abbrev main_v1 : Ref sig .tc := ⟨.hbm, 37, rfl⟩
abbrev main_c_0 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_call0_cst : Ref sig .tc := ⟨.hbm, 48, rfl⟩
abbrev main_call0_v0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call1_cst : Ref sig .tc := ⟨.hbm, 68, rfl⟩
abbrev main_call1_v0 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_call2_cst : Ref sig .tc := ⟨.hbm, 79, rfl⟩
abbrev main_call2_v0 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_call3_cst : Ref sig .tc := ⟨.hbm, 90, rfl⟩
abbrev main_call3_v0 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_3 : Ref sig .tc := ⟨.hbm, 101, rfl⟩
abbrev main_v54 : Ref sig .tc := ⟨.hbm, 102, rfl⟩
abbrev main_v55 : Ref sig .tc := ⟨.hbm, 103, rfl⟩
abbrev main_c_4 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_c_5 : Ref sig .tc := ⟨.hbm, 110, rfl⟩
abbrev main_v61 : Ref sig .tc := ⟨.hbm, 111, rfl⟩
abbrev main_v62 : Ref sig .tc := ⟨.hbm, 112, rfl⟩
abbrev main_c_6 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_call4_cst : Ref sig .tc := ⟨.hbm, 132, rfl⟩
abbrev main_call4_v0 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst : Ref sig .tc := ⟨.hbm, 139, rfl⟩
abbrev main_v86 : Ref sig .tc := ⟨.hbm, 140, rfl⟩
abbrev main_v87 : Ref sig .tc := ⟨.hbm, 141, rfl⟩
abbrev main_cst_7 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_8 : Ref sig .tc := ⟨.hbm, 147, rfl⟩
abbrev main_v92 : Ref sig .tc := ⟨.hbm, 148, rfl⟩
abbrev main_v93 : Ref sig .tc := ⟨.hbm, 149, rfl⟩
abbrev main_c_9 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_10 : Ref sig .tc := ⟨.hbm, 156, rfl⟩
abbrev main_v99 : Ref sig .tc := ⟨.hbm, 157, rfl⟩
abbrev main_v100 : Ref sig .tc := ⟨.hbm, 158, rfl⟩
abbrev main_c_11 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_call5_cst : Ref sig .tc := ⟨.hbm, 178, rfl⟩
abbrev main_call5_v0 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_12 : Ref sig .tc := ⟨.hbm, 185, rfl⟩
abbrev main_v124 : Ref sig .tc := ⟨.hbm, 186, rfl⟩
abbrev main_v125 : Ref sig .tc := ⟨.hbm, 187, rfl⟩
abbrev main_cst_13 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_call6_cst : Ref sig .tc := ⟨.hbm, 194, rfl⟩
abbrev main_call6_v0 : Ref sig .tc := ⟨.hbm, 195, rfl⟩
abbrev main_v131 : Ref sig .tc := ⟨.hbm, 196, rfl⟩
abbrev main_v132 : Ref sig .tc := ⟨.hbm, 197, rfl⟩
abbrev main_call7_cst : Ref sig .tc := ⟨.hbm, 198, rfl⟩
abbrev main_call7_v0 : Ref sig .tc := ⟨.hbm, 199, rfl⟩
abbrev main_v133 : Ref sig .tc := ⟨.hbm, 200, rfl⟩
abbrev main_c_14 : Ref sig .tc := ⟨.hbm, 201, rfl⟩
abbrev main_v134 : Ref sig .tc := ⟨.hbm, 202, rfl⟩
abbrev main_v135 : Ref sig .tc := ⟨.hbm, 203, rfl⟩
abbrev main_c_15 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_c_16 : Ref sig .tc := ⟨.hbm, 210, rfl⟩
abbrev main_v141 : Ref sig .tc := ⟨.hbm, 211, rfl⟩
abbrev main_v142 : Ref sig .tc := ⟨.hbm, 212, rfl⟩
abbrev main_c_17 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_call8_cst : Ref sig .tc := ⟨.hbm, 232, rfl⟩
abbrev main_call8_v0 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_18 : Ref sig .tc := ⟨.hbm, 239, rfl⟩
abbrev main_v166 : Ref sig .tc := ⟨.hbm, 240, rfl⟩
abbrev main_v167 : Ref sig .tc := ⟨.hbm, 241, rfl⟩
abbrev main_cst_19 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_c_20 : Ref sig .tc := ⟨.hbm, 247, rfl⟩
abbrev main_v172 : Ref sig .tc := ⟨.hbm, 248, rfl⟩
abbrev main_v173 : Ref sig .tc := ⟨.hbm, 249, rfl⟩
abbrev main_c_21 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_22 : Ref sig .tc := ⟨.hbm, 256, rfl⟩
abbrev main_v179 : Ref sig .tc := ⟨.hbm, 257, rfl⟩
abbrev main_v180 : Ref sig .tc := ⟨.hbm, 258, rfl⟩
abbrev main_c_23 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_call9_cst : Ref sig .tc := ⟨.hbm, 278, rfl⟩
abbrev main_call9_v0 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_cst_24 : Ref sig .tc := ⟨.hbm, 285, rfl⟩
abbrev main_v204 : Ref sig .tc := ⟨.hbm, 286, rfl⟩
abbrev main_v205 : Ref sig .tc := ⟨.hbm, 287, rfl⟩
abbrev main_cst_25 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_c_26 : Ref sig .tc := ⟨.hbm, 295, rfl⟩
abbrev main_v212 : Ref sig .tc := ⟨.hbm, 296, rfl⟩
abbrev main_v213 : Ref sig .tc := ⟨.hbm, 297, rfl⟩
abbrev main_c_27 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_c_28 : Ref sig .tc := ⟨.hbm, 306, rfl⟩
abbrev main_v221 : Ref sig .tc := ⟨.hbm, 307, rfl⟩
abbrev main_v222 : Ref sig .tc := ⟨.hbm, 308, rfl⟩
abbrev main_c_29 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_call10_cst : Ref sig .tc := ⟨.hbm, 320, rfl⟩
abbrev main_call10_v0 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x64_S300000x64_S300000x64_S300000x192_d1 : Shape.Concatenates [S300000x64, S300000x64, S300000x64] S300000x192 1
  slices_S2x192x64_S1x192x64_0_0_0 : S2x192x64.Slices ![0, 0, 0] S1x192x64
  shapeCasts_S1x192x64_S192x64 : S1x192x64.ShapeCasts S192x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  slices_S2x192x64_S1x192x64_1_0_0 : S2x192x64.Slices ![1, 0, 0] S1x192x64
  slices_S2x64_S1x64_1_0 : S2x64.Slices ![1, 0] S1x64
  slices_S2x64x64_S1x64x64_1_0_0 : S2x64x64.Slices ![1, 0, 0] S1x64x64
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  concatenates_S150000x64_S150000x64_S150000x128_d1 : Shape.Concatenates [S150000x64, S150000x64] S150000x128 1
  bcast_S1x64_S150000x64_0_1 : S1x64.BroadcastsInDim S150000x64 (![0, 1] : Fin 2 → Fin S150000x64.rank)
  bcast_S_S150000x64 : S_.BroadcastsInDim S150000x64 (![] : Fin 0 → Fin S150000x64.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  shapeCasts_S150000x1_S150000 : S150000x1.ShapeCasts S150000
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  dot_S300000x256_S256x64_S300000x64_1_0_0_1_n_n_wf : DotDims.WF S300000x256 S256x64 S300000x64 [1] [0] [0] [1] [] []
  dot_S300000x64_S64x64_S300000x64_1_0_0_1_n_n_wf : DotDims.WF S300000x64 S64x64 S300000x64 [1] [0] [0] [1] [] []
  gather_S100000x64_S300000x1_S300000x64_1_0_n_n_0_1_164_wf : GatherDims.WF S100000x64 S300000x1 S300000x64 [1] [0] [] [0] [] 1 ![1, 64]
  dot_S300000x192_S192x64_S300000x64_1_0_0_1_n_n_wf : DotDims.WF S300000x192 S192x64 S300000x64 [1] [0] [0] [1] [] []
  scatter_S100000x64_S300000x1_S300000x64_1_0_0_1_wf : ScatterDims.WF S100000x64 S300000x1 S300000x64 [1] [0] [0] 1
  gather_S100000x64_S150000x1_S150000x64_1_0_n_n_0_1_164_wf : GatherDims.WF S100000x64 S150000x1 S150000x64 [1] [0] [] [0] [] 1 ![1, 64]
  dot_S150000x128_S128x64_S150000x64_1_0_0_1_n_n_wf : DotDims.WF S150000x128 S128x64 S150000x64 [1] [0] [0] [1] [] []
  dot_S150000x64_S64x1_S150000x1_1_0_0_1_n_n_wf : DotDims.WF S150000x64 S64x1 S150000x1 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def dot_S300000x192_S192x64_S300000x64_1_0_0_1_n_n : DotDims S300000x192 S192x64 S300000x64 where
  lhsContracting := [1]
  rhsContracting := [0]
  lhsNonContracting := [0]
  rhsNonContracting := [1]
  lhsBatch := []
  rhsBatch := []
  wf := dot_S300000x192_S192x64_S300000x64_1_0_0_1_n_n_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def gather_S100000x64_S150000x1_S150000x64_1_0_n_n_0_1_164 : GatherDims S100000x64 S150000x1 S150000x64 where
  offsetDims := [1]
  collapsedSliceDims := [0]
  operandBatchingDims := []
  startIndicesBatchingDims := []
  startIndexMap := [0]
  indexVectorDim := 1
  sliceSizes := ![1, 64]
  wf := gather_S100000x64_S150000x1_S150000x64_1_0_n_n_0_1_164_wf
def dot_S150000x128_S128x64_S150000x64_1_0_0_1_n_n : DotDims S150000x128 S128x64 S150000x64 where
  lhsContracting := [1]
  rhsContracting := [0]
  lhsNonContracting := [0]
  rhsNonContracting := [1]
  lhsBatch := []
  rhsBatch := []
  wf := dot_S150000x128_S128x64_S150000x64_1_0_0_1_n_n_wf
def dot_S150000x64_S64x1_S150000x1_1_0_0_1_n_n : DotDims S150000x64 S64x1 S150000x1 where
  lhsContracting := [1]
  rhsContracting := [0]
  lhsNonContracting := [0]
  rhsNonContracting := [1]
  lhsBatch := []
  rhsBatch := []
  wf := dot_S150000x64_S64x1_S150000x1_1_0_0_1_n_n_wf

class Facts : Prop extends Facts₀ where

variable [Facts]
-- ==== Proof.RefRunWin.lean ====
/-
  The reference program's run, window by window.

  The reference's @main is a straight line of 293 host operations, cut here into 17 consecutive windows. `B j V` is
  the buffers' contents after the first `j` windows, from contents `V`. For each buffer that a later window reads,
  the buffer holds the reference's stage `val_main_<buffer>` of the argument arrays: inside its own window by
  computing the window's operations (every operation writes its result buffer with its function of its operands'
  contents; the stage's definition is that same function of the operands' stages), across a later window because no
  operation of that window writes it. The argument arrays are never written. After the last window the result
  buffer holds the last stage.
-/
import proofs.«109817_j10033043603480_2_alg».proof.Proof.RefRunBase
import proofs.«109817_j10033043603480_2_alg».proof.Proof.RefRead

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- Running two lists of operations one after the other is running their concatenation. -/
theorem after_append' {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => exact ih (op.result V)

/-- A joining of three arrays writes its result with its function of the three operands' contents. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- A buffer that no operation of a window writes keeps its contents across the window. -/
macro "keep_win" ops:ident : tactic => `(tactic| (
  refine StableHlo.after_of_forall_not_mem _ _ (List.forall_iff_forall_mem.mp ?_)
  simp only [$ops:ident, List.Forall,
    StableHlo.nullary_writes, StableHlo.unary_writes, StableHlo.binary_writes, StableHlo.ternary_writes, StableHlo.quaternary_writes,
    StableHlo.reshape_writes, StableHlo.nary_writes, Finset.mem_singleton]
  repeat' apply And.intro
  all_goals exact StableHlo.devRef_ne_of_ne (by decide)))

/-- The contents after window 1. -/
abbrev B1 (V : Valuation τ sig (Elt Ideal)) : Valuation τ sig (Elt Ideal) := StableHlo.after rops1 V

/-- The contents after window 2. -/
abbrev B2 (V : Valuation τ sig (Elt Ideal)) : Valuation τ sig (Elt Ideal) := StableHlo.after rops2 (B1 V)

/-- The contents after window 3. -/
abbrev B3 (V : Valuation τ sig (Elt Ideal)) : Valuation τ sig (Elt Ideal) := StableHlo.after rops3 (B2 V)

/-- The contents after window 4. -/
abbrev B4 (V : Valuation τ sig (Elt Ideal)) : Valuation τ sig (Elt Ideal) := StableHlo.after rops4 (B3 V)

/-- The contents after window 5. -/
abbrev B5 (V : Valuation τ sig (Elt Ideal)) : Valuation τ sig (Elt Ideal) := StableHlo.after rops5 (B4 V)

/-- The contents after window 6. -/
abbrev B6 (V : Valuation τ sig (Elt Ideal)) : Valuation τ sig (Elt Ideal) := StableHlo.after rops6 (B5 V)

/-- The contents after window 7. -/
abbrev B7 (V : Valuation τ sig (Elt Ideal)) : Valuation τ sig (Elt Ideal) := StableHlo.after rops7 (B6 V)

/-- The contents after window 8. -/
abbrev B8 (V : Valuation τ sig (Elt Ideal)) : Valuation τ sig (Elt Ideal) := StableHlo.after rops8 (B7 V)

/-- The contents after window 9. -/
abbrev B9 (V : Valuation τ sig (Elt Ideal)) : Valuation τ sig (Elt Ideal) := StableHlo.after rops9 (B8 V)

/-- The contents after window 10. -/
abbrev B10 (V : Valuation τ sig (Elt Ideal)) : Valuation τ sig (Elt Ideal) := StableHlo.after rops10 (B9 V)

/-- The contents after window 11. -/
abbrev B11 (V : Valuation τ sig (Elt Ideal)) : Valuation τ sig (Elt Ideal) := StableHlo.after rops11 (B10 V)

/-- The contents after window 12. -/
abbrev B12 (V : Valuation τ sig (Elt Ideal)) : Valuation τ sig (Elt Ideal) := StableHlo.after rops12 (B11 V)

/-- The contents after window 13. -/
abbrev B13 (V : Valuation τ sig (Elt Ideal)) : Valuation τ sig (Elt Ideal) := StableHlo.after rops13 (B12 V)

/-- The contents after window 14. -/
abbrev B14 (V : Valuation τ sig (Elt Ideal)) : Valuation τ sig (Elt Ideal) := StableHlo.after rops14 (B13 V)

/-- The contents after window 15. -/
abbrev B15 (V : Valuation τ sig (Elt Ideal)) : Valuation τ sig (Elt Ideal) := StableHlo.after rops15 (B14 V)

/-- The contents after window 16. -/
abbrev B16 (V : Valuation τ sig (Elt Ideal)) : Valuation τ sig (Elt Ideal) := StableHlo.after rops16 (B15 V)

/-- The contents after window 17. -/
abbrev B17 (V : Valuation τ sig (Elt Ideal)) : Valuation τ sig (Elt Ideal) := StableHlo.after rops17 (B16 V)

set_option maxHeartbeats 2000000 in
theorem B1_main_v15 (V : Valuation τ sig (Elt Ideal)) : (B1 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) := by
  show StableHlo.after rops1 V (Proc.devRef .tc main_v15) = _
  simp only [rops1]
  after_results_simp
  rfl

theorem B2_main_v15 (V : Valuation τ sig (Elt Ideal)) : (B2 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops2 : (B2 V) (Proc.devRef .tc main_v15) = (B1 V) (Proc.devRef .tc main_v15)).trans (B1_main_v15 V)

theorem B3_main_v15 (V : Valuation τ sig (Elt Ideal)) : (B3 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops3 : (B3 V) (Proc.devRef .tc main_v15) = (B2 V) (Proc.devRef .tc main_v15)).trans (B2_main_v15 V)

theorem B4_main_v15 (V : Valuation τ sig (Elt Ideal)) : (B4 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops4 : (B4 V) (Proc.devRef .tc main_v15) = (B3 V) (Proc.devRef .tc main_v15)).trans (B3_main_v15 V)

theorem B5_main_v15 (V : Valuation τ sig (Elt Ideal)) : (B5 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops5 : (B5 V) (Proc.devRef .tc main_v15) = (B4 V) (Proc.devRef .tc main_v15)).trans (B4_main_v15 V)

theorem B6_main_v15 (V : Valuation τ sig (Elt Ideal)) : (B6 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops6 : (B6 V) (Proc.devRef .tc main_v15) = (B5 V) (Proc.devRef .tc main_v15)).trans (B5_main_v15 V)

theorem B7_main_v15 (V : Valuation τ sig (Elt Ideal)) : (B7 V) (Proc.devRef .tc main_v15) = (Cert.ReferenceIdeal.Read.val_main_v15 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31))) :=
  (by keep_win rops7 : (B7 V) (Proc.devRef .tc main_v15) = (B6 V) (Proc.devRef .tc main_v15)).trans (B6_main_v15 V)

theorem B1_main_arg33 (V : Valuation τ sig (Elt Ideal)) : (B1 V) (Proc.devRef .tc main_arg33) = (V (Proc.devRef .tc main_arg33)) :=
  (by keep_win rops1 : (B1 V) (Proc.devRef .tc main_arg33) = V (Proc.devRef .tc main_arg33)).trans (rfl : V (Proc.devRef .tc main_arg33) = V (Proc.devRef .tc main_arg33))

set_option maxHeartbeats 2000000 in
theorem B2_main_v51 (V : Valuation τ sig (Elt Ideal)) : (B2 V) (Proc.devRef .tc main_v51) = (Cert.ReferenceIdeal.Read.val_main_v51 (F := Ideal) (V (Proc.devRef .tc main_arg33))) := by
  have e0 := (B1_main_arg33 V)
  show StableHlo.after rops2 (B1 V) (Proc.devRef .tc main_v51) = _
  generalize (B1 V) = W at e0 ⊢
  simp only [rops2]
  after_results_simp
  rw [e0]
  rfl

theorem B3_main_v51 (V : Valuation τ sig (Elt Ideal)) : (B3 V) (Proc.devRef .tc main_v51) = (Cert.ReferenceIdeal.Read.val_main_v51 (F := Ideal) (V (Proc.devRef .tc main_arg33))) :=
  (by keep_win rops3 : (B3 V) (Proc.devRef .tc main_v51) = (B2 V) (Proc.devRef .tc main_v51)).trans (B2_main_v51 V)

theorem B4_main_v51 (V : Valuation τ sig (Elt Ideal)) : (B4 V) (Proc.devRef .tc main_v51) = (Cert.ReferenceIdeal.Read.val_main_v51 (F := Ideal) (V (Proc.devRef .tc main_arg33))) :=
  (by keep_win rops4 : (B4 V) (Proc.devRef .tc main_v51) = (B3 V) (Proc.devRef .tc main_v51)).trans (B3_main_v51 V)

theorem B5_main_v51 (V : Valuation τ sig (Elt Ideal)) : (B5 V) (Proc.devRef .tc main_v51) = (Cert.ReferenceIdeal.Read.val_main_v51 (F := Ideal) (V (Proc.devRef .tc main_arg33))) :=
  (by keep_win rops5 : (B5 V) (Proc.devRef .tc main_v51) = (B4 V) (Proc.devRef .tc main_v51)).trans (B4_main_v51 V)

theorem B6_main_v51 (V : Valuation τ sig (Elt Ideal)) : (B6 V) (Proc.devRef .tc main_v51) = (Cert.ReferenceIdeal.Read.val_main_v51 (F := Ideal) (V (Proc.devRef .tc main_arg33))) :=
  (by keep_win rops6 : (B6 V) (Proc.devRef .tc main_v51) = (B5 V) (Proc.devRef .tc main_v51)).trans (B5_main_v51 V)

theorem B7_main_v51 (V : Valuation τ sig (Elt Ideal)) : (B7 V) (Proc.devRef .tc main_v51) = (Cert.ReferenceIdeal.Read.val_main_v51 (F := Ideal) (V (Proc.devRef .tc main_arg33))) :=
  (by keep_win rops7 : (B7 V) (Proc.devRef .tc main_v51) = (B6 V) (Proc.devRef .tc main_v51)).trans (B6_main_v51 V)

set_option maxHeartbeats 2000000 in
theorem B6_main_v98 (V : Valuation τ sig (Elt Ideal)) : (B6 V) (Proc.devRef .tc main_v98) = (Cert.ReferenceIdeal.Read.val_main_v98 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31)) (V (Proc.devRef .tc main_arg33))) := by
  have e0 := (B5_main_v15 V)
  have e1 := (B5_main_v51 V)
  show StableHlo.after rops6 (B5 V) (Proc.devRef .tc main_v98) = _
  generalize (B5 V) = W at e0 e1 ⊢
  simp only [rops6]
  after_results_simp
  rw [e0, e1]
  rfl

set_option maxHeartbeats 2000000 in
theorem B1_main_v31 (V : Valuation τ sig (Elt Ideal)) : (B1 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) := by
  show StableHlo.after rops1 V (Proc.devRef .tc main_v31) = _
  simp only [rops1]
  after_results_simp
  rfl

theorem B2_main_v31 (V : Valuation τ sig (Elt Ideal)) : (B2 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops2 : (B2 V) (Proc.devRef .tc main_v31) = (B1 V) (Proc.devRef .tc main_v31)).trans (B1_main_v31 V)

theorem B3_main_v31 (V : Valuation τ sig (Elt Ideal)) : (B3 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops3 : (B3 V) (Proc.devRef .tc main_v31) = (B2 V) (Proc.devRef .tc main_v31)).trans (B2_main_v31 V)

theorem B4_main_v31 (V : Valuation τ sig (Elt Ideal)) : (B4 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops4 : (B4 V) (Proc.devRef .tc main_v31) = (B3 V) (Proc.devRef .tc main_v31)).trans (B3_main_v31 V)

theorem B5_main_v31 (V : Valuation τ sig (Elt Ideal)) : (B5 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops5 : (B5 V) (Proc.devRef .tc main_v31) = (B4 V) (Proc.devRef .tc main_v31)).trans (B4_main_v31 V)

theorem B2_main_arg33 (V : Valuation τ sig (Elt Ideal)) : (B2 V) (Proc.devRef .tc main_arg33) = (V (Proc.devRef .tc main_arg33)) :=
  (by keep_win rops2 : (B2 V) (Proc.devRef .tc main_arg33) = (B1 V) (Proc.devRef .tc main_arg33)).trans (B1_main_arg33 V)

set_option maxHeartbeats 2000000 in
theorem B3_main_v53 (V : Valuation τ sig (Elt Ideal)) : (B3 V) (Proc.devRef .tc main_v53) = (Cert.ReferenceIdeal.Read.val_main_v53 (F := Ideal) (V (Proc.devRef .tc main_arg33))) := by
  have e0 := (B2_main_arg33 V)
  show StableHlo.after rops3 (B2 V) (Proc.devRef .tc main_v53) = _
  generalize (B2 V) = W at e0 ⊢
  simp only [rops3]
  after_results_simp
  rw [e0]
  rfl

theorem B4_main_v53 (V : Valuation τ sig (Elt Ideal)) : (B4 V) (Proc.devRef .tc main_v53) = (Cert.ReferenceIdeal.Read.val_main_v53 (F := Ideal) (V (Proc.devRef .tc main_arg33))) :=
  (by keep_win rops4 : (B4 V) (Proc.devRef .tc main_v53) = (B3 V) (Proc.devRef .tc main_v53)).trans (B3_main_v53 V)

theorem B5_main_v53 (V : Valuation τ sig (Elt Ideal)) : (B5 V) (Proc.devRef .tc main_v53) = (Cert.ReferenceIdeal.Read.val_main_v53 (F := Ideal) (V (Proc.devRef .tc main_arg33))) :=
  (by keep_win rops5 : (B5 V) (Proc.devRef .tc main_v53) = (B4 V) (Proc.devRef .tc main_v53)).trans (B4_main_v53 V)

set_option maxHeartbeats 2000000 in
theorem B6_main_v105 (V : Valuation τ sig (Elt Ideal)) : (B6 V) (Proc.devRef .tc main_v105) = (Cert.ReferenceIdeal.Read.val_main_v105 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32)) (V (Proc.devRef .tc main_arg33))) := by
  have e0 := (B5_main_v31 V)
  have e1 := (B5_main_v53 V)
  show StableHlo.after rops6 (B5 V) (Proc.devRef .tc main_v105) = _
  generalize (B5 V) = W at e0 e1 ⊢
  simp only [rops6]
  after_results_simp
  rw [e0, e1]
  rfl

theorem B1_main_arg30 (V : Valuation τ sig (Elt Ideal)) : (B1 V) (Proc.devRef .tc main_arg30) = (V (Proc.devRef .tc main_arg30)) :=
  (by keep_win rops1 : (B1 V) (Proc.devRef .tc main_arg30) = V (Proc.devRef .tc main_arg30)).trans (rfl : V (Proc.devRef .tc main_arg30) = V (Proc.devRef .tc main_arg30))

theorem B1_main_arg14 (V : Valuation τ sig (Elt Ideal)) : (B1 V) (Proc.devRef .tc main_arg14) = (V (Proc.devRef .tc main_arg14)) :=
  (by keep_win rops1 : (B1 V) (Proc.devRef .tc main_arg14) = V (Proc.devRef .tc main_arg14)).trans (rfl : V (Proc.devRef .tc main_arg14) = V (Proc.devRef .tc main_arg14))

theorem B1_main_arg15 (V : Valuation τ sig (Elt Ideal)) : (B1 V) (Proc.devRef .tc main_arg15) = (V (Proc.devRef .tc main_arg15)) :=
  (by keep_win rops1 : (B1 V) (Proc.devRef .tc main_arg15) = V (Proc.devRef .tc main_arg15)).trans (rfl : V (Proc.devRef .tc main_arg15) = V (Proc.devRef .tc main_arg15))

theorem B1_main_arg16 (V : Valuation τ sig (Elt Ideal)) : (B1 V) (Proc.devRef .tc main_arg16) = (V (Proc.devRef .tc main_arg16)) :=
  (by keep_win rops1 : (B1 V) (Proc.devRef .tc main_arg16) = V (Proc.devRef .tc main_arg16)).trans (rfl : V (Proc.devRef .tc main_arg16) = V (Proc.devRef .tc main_arg16))

theorem B1_main_arg17 (V : Valuation τ sig (Elt Ideal)) : (B1 V) (Proc.devRef .tc main_arg17) = (V (Proc.devRef .tc main_arg17)) :=
  (by keep_win rops1 : (B1 V) (Proc.devRef .tc main_arg17) = V (Proc.devRef .tc main_arg17)).trans (rfl : V (Proc.devRef .tc main_arg17) = V (Proc.devRef .tc main_arg17))

set_option maxHeartbeats 2000000 in
theorem B2_main_v49 (V : Valuation τ sig (Elt Ideal)) : (B2 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) := by
  have e0 := (B1_main_arg30 V)
  have e1 := (B1_main_arg14 V)
  have e2 := (B1_main_arg15 V)
  have e3 := (B1_main_arg16 V)
  have e4 := (B1_main_arg17 V)
  show StableHlo.after rops2 (B1 V) (Proc.devRef .tc main_v49) = _
  generalize (B1 V) = W at e0 e1 e2 e3 e4 ⊢
  simp only [rops2]
  after_results_simp
  rw [e0, e1, e2, e3, e4]
  rfl

theorem B3_main_v49 (V : Valuation τ sig (Elt Ideal)) : (B3 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops3 : (B3 V) (Proc.devRef .tc main_v49) = (B2 V) (Proc.devRef .tc main_v49)).trans (B2_main_v49 V)

theorem B4_main_v49 (V : Valuation τ sig (Elt Ideal)) : (B4 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops4 : (B4 V) (Proc.devRef .tc main_v49) = (B3 V) (Proc.devRef .tc main_v49)).trans (B3_main_v49 V)

theorem B5_main_v49 (V : Valuation τ sig (Elt Ideal)) : (B5 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops5 : (B5 V) (Proc.devRef .tc main_v49) = (B4 V) (Proc.devRef .tc main_v49)).trans (B4_main_v49 V)

theorem B6_main_v49 (V : Valuation τ sig (Elt Ideal)) : (B6 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops6 : (B6 V) (Proc.devRef .tc main_v49) = (B5 V) (Proc.devRef .tc main_v49)).trans (B5_main_v49 V)

set_option maxHeartbeats 2000000 in
theorem B7_main_v106 (V : Valuation τ sig (Elt Ideal)) : (B7 V) (Proc.devRef .tc main_v106) = (Cert.ReferenceIdeal.Read.val_main_v106 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg30)) (V (Proc.devRef .tc main_arg31)) (V (Proc.devRef .tc main_arg32)) (V (Proc.devRef .tc main_arg33))) := by
  have e0 := (B6_main_v98 V)
  have e1 := (B6_main_v105 V)
  have e2 := (B6_main_v49 V)
  show StableHlo.after rops7 (B6 V) (Proc.devRef .tc main_v106) = _
  generalize (B6 V) = W at e0 e1 e2 ⊢
  simp only [rops7, after_cons, after_nil]
  rw [nary3_result, e0, e1, e2]
  rfl

theorem B1_main_arg22 (V : Valuation τ sig (Elt Ideal)) : (B1 V) (Proc.devRef .tc main_arg22) = (V (Proc.devRef .tc main_arg22)) :=
  (by keep_win rops1 : (B1 V) (Proc.devRef .tc main_arg22) = V (Proc.devRef .tc main_arg22)).trans (rfl : V (Proc.devRef .tc main_arg22) = V (Proc.devRef .tc main_arg22))

theorem B2_main_arg22 (V : Valuation τ sig (Elt Ideal)) : (B2 V) (Proc.devRef .tc main_arg22) = (V (Proc.devRef .tc main_arg22)) :=
  (by keep_win rops2 : (B2 V) (Proc.devRef .tc main_arg22) = (B1 V) (Proc.devRef .tc main_arg22)).trans (B1_main_arg22 V)

theorem B3_main_arg22 (V : Valuation τ sig (Elt Ideal)) : (B3 V) (Proc.devRef .tc main_arg22) = (V (Proc.devRef .tc main_arg22)) :=
  (by keep_win rops3 : (B3 V) (Proc.devRef .tc main_arg22) = (B2 V) (Proc.devRef .tc main_arg22)).trans (B2_main_arg22 V)

theorem B4_main_arg22 (V : Valuation τ sig (Elt Ideal)) : (B4 V) (Proc.devRef .tc main_arg22) = (V (Proc.devRef .tc main_arg22)) :=
  (by keep_win rops4 : (B4 V) (Proc.devRef .tc main_arg22) = (B3 V) (Proc.devRef .tc main_arg22)).trans (B3_main_arg22 V)

theorem B5_main_arg22 (V : Valuation τ sig (Elt Ideal)) : (B5 V) (Proc.devRef .tc main_arg22) = (V (Proc.devRef .tc main_arg22)) :=
  (by keep_win rops5 : (B5 V) (Proc.devRef .tc main_arg22) = (B4 V) (Proc.devRef .tc main_arg22)).trans (B4_main_arg22 V)

theorem B6_main_arg22 (V : Valuation τ sig (Elt Ideal)) : (B6 V) (Proc.devRef .tc main_arg22) = (V (Proc.devRef .tc main_arg22)) :=
  (by keep_win rops6 : (B6 V) (Proc.devRef .tc main_arg22) = (B5 V) (Proc.devRef .tc main_arg22)).trans (B5_main_arg22 V)

theorem B7_main_arg22 (V : Valuation τ sig (Elt Ideal)) : (B7 V) (Proc.devRef .tc main_arg22) = (V (Proc.devRef .tc main_arg22)) :=
  (by keep_win rops7 : (B7 V) (Proc.devRef .tc main_arg22) = (B6 V) (Proc.devRef .tc main_arg22)).trans (B6_main_arg22 V)

theorem B1_main_arg23 (V : Valuation τ sig (Elt Ideal)) : (B1 V) (Proc.devRef .tc main_arg23) = (V (Proc.devRef .tc main_arg23)) :=
  (by keep_win rops1 : (B1 V) (Proc.devRef .tc main_arg23) = V (Proc.devRef .tc main_arg23)).trans (rfl : V (Proc.devRef .tc main_arg23) = V (Proc.devRef .tc main_arg23))

theorem B2_main_arg23 (V : Valuation τ sig (Elt Ideal)) : (B2 V) (Proc.devRef .tc main_arg23) = (V (Proc.devRef .tc main_arg23)) :=
  (by keep_win rops2 : (B2 V) (Proc.devRef .tc main_arg23) = (B1 V) (Proc.devRef .tc main_arg23)).trans (B1_main_arg23 V)

theorem B3_main_arg23 (V : Valuation τ sig (Elt Ideal)) : (B3 V) (Proc.devRef .tc main_arg23) = (V (Proc.devRef .tc main_arg23)) :=
  (by keep_win rops3 : (B3 V) (Proc.devRef .tc main_arg23) = (B2 V) (Proc.devRef .tc main_arg23)).trans (B2_main_arg23 V)

theorem B4_main_arg23 (V : Valuation τ sig (Elt Ideal)) : (B4 V) (Proc.devRef .tc main_arg23) = (V (Proc.devRef .tc main_arg23)) :=
  (by keep_win rops4 : (B4 V) (Proc.devRef .tc main_arg23) = (B3 V) (Proc.devRef .tc main_arg23)).trans (B3_main_arg23 V)

theorem B5_main_arg23 (V : Valuation τ sig (Elt Ideal)) : (B5 V) (Proc.devRef .tc main_arg23) = (V (Proc.devRef .tc main_arg23)) :=
  (by keep_win rops5 : (B5 V) (Proc.devRef .tc main_arg23) = (B4 V) (Proc.devRef .tc main_arg23)).trans (B4_main_arg23 V)

theorem B6_main_arg23 (V : Valuation τ sig (Elt Ideal)) : (B6 V) (Proc.devRef .tc main_arg23) = (V (Proc.devRef .tc main_arg23)) :=
  (by keep_win rops6 : (B6 V) (Proc.devRef .tc main_arg23) = (B5 V) (Proc.devRef .tc main_arg23)).trans (B5_main_arg23 V)

theorem B7_main_arg23 (V : Valuation τ sig (Elt Ideal)) : (B7 V) (Proc.devRef .tc main_arg23) = (V (Proc.devRef .tc main_arg23)) :=
  (by keep_win rops7 : (B7 V) (Proc.devRef .tc main_arg23) = (B6 V) (Proc.devRef .tc main_arg23)).trans (B6_main_arg23 V)

theorem B1_main_arg24 (V : Valuation τ sig (Elt Ideal)) : (B1 V) (Proc.devRef .tc main_arg24) = (V (Proc.devRef .tc main_arg24)) :=
  (by keep_win rops1 : (B1 V) (Proc.devRef .tc main_arg24) = V (Proc.devRef .tc main_arg24)).trans (rfl : V (Proc.devRef .tc main_arg24) = V (Proc.devRef .tc main_arg24))

theorem B2_main_arg24 (V : Valuation τ sig (Elt Ideal)) : (B2 V) (Proc.devRef .tc main_arg24) = (V (Proc.devRef .tc main_arg24)) :=
  (by keep_win rops2 : (B2 V) (Proc.devRef .tc main_arg24) = (B1 V) (Proc.devRef .tc main_arg24)).trans (B1_main_arg24 V)

theorem B3_main_arg24 (V : Valuation τ sig (Elt Ideal)) : (B3 V) (Proc.devRef .tc main_arg24) = (V (Proc.devRef .tc main_arg24)) :=
  (by keep_win rops3 : (B3 V) (Proc.devRef .tc main_arg24) = (B2 V) (Proc.devRef .tc main_arg24)).trans (B2_main_arg24 V)

theorem B4_main_arg24 (V : Valuation τ sig (Elt Ideal)) : (B4 V) (Proc.devRef .tc main_arg24) = (V (Proc.devRef .tc main_arg24)) :=
  (by keep_win rops4 : (B4 V) (Proc.devRef .tc main_arg24) = (B3 V) (Proc.devRef .tc main_arg24)).trans (B3_main_arg24 V)

theorem B5_main_arg24 (V : Valuation τ sig (Elt Ideal)) : (B5 V) (Proc.devRef .tc main_arg24) = (V (Proc.devRef .tc main_arg24)) :=
  (by keep_win rops5 : (B5 V) (Proc.devRef .tc main_arg24) = (B4 V) (Proc.devRef .tc main_arg24)).trans (B4_main_arg24 V)

theorem B6_main_arg24 (V : Valuation τ sig (Elt Ideal)) : (B6 V) (Proc.devRef .tc main_arg24) = (V (Proc.devRef .tc main_arg24)) :=
  (by keep_win rops6 : (B6 V) (Proc.devRef .tc main_arg24) = (B5 V) (Proc.devRef .tc main_arg24)).trans (B5_main_arg24 V)

theorem B7_main_arg24 (V : Valuation τ sig (Elt Ideal)) : (B7 V) (Proc.devRef .tc main_arg24) = (V (Proc.devRef .tc main_arg24)) :=
  (by keep_win rops7 : (B7 V) (Proc.devRef .tc main_arg24) = (B6 V) (Proc.devRef .tc main_arg24)).trans (B6_main_arg24 V)

theorem B1_main_arg25 (V : Valuation τ sig (Elt Ideal)) : (B1 V) (Proc.devRef .tc main_arg25) = (V (Proc.devRef .tc main_arg25)) :=
  (by keep_win rops1 : (B1 V) (Proc.devRef .tc main_arg25) = V (Proc.devRef .tc main_arg25)).trans (rfl : V (Proc.devRef .tc main_arg25) = V (Proc.devRef .tc main_arg25))

theorem B2_main_arg25 (V : Valuation τ sig (Elt Ideal)) : (B2 V) (Proc.devRef .tc main_arg25) = (V (Proc.devRef .tc main_arg25)) :=
  (by keep_win rops2 : (B2 V) (Proc.devRef .tc main_arg25) = (B1 V) (Proc.devRef .tc main_arg25)).trans (B1_main_arg25 V)

theorem B3_main_arg25 (V : Valuation τ sig (Elt Ideal)) : (B3 V) (Proc.devRef .tc main_arg25) = (V (Proc.devRef .tc main_arg25)) :=
  (by keep_win rops3 : (B3 V) (Proc.devRef .tc main_arg25) = (B2 V) (Proc.devRef .tc main_arg25)).trans (B2_main_arg25 V)

theorem B4_main_arg25 (V : Valuation τ sig (Elt Ideal)) : (B4 V) (Proc.devRef .tc main_arg25) = (V (Proc.devRef .tc main_arg25)) :=
  (by keep_win rops4 : (B4 V) (Proc.devRef .tc main_arg25) = (B3 V) (Proc.devRef .tc main_arg25)).trans (B3_main_arg25 V)

theorem B5_main_arg25 (V : Valuation τ sig (Elt Ideal)) : (B5 V) (Proc.devRef .tc main_arg25) = (V (Proc.devRef .tc main_arg25)) :=
  (by keep_win rops5 : (B5 V) (Proc.devRef .tc main_arg25) = (B4 V) (Proc.devRef .tc main_arg25)).trans (B4_main_arg25 V)

theorem B6_main_arg25 (V : Valuation τ sig (Elt Ideal)) : (B6 V) (Proc.devRef .tc main_arg25) = (V (Proc.devRef .tc main_arg25)) :=
  (by keep_win rops6 : (B6 V) (Proc.devRef .tc main_arg25) = (B5 V) (Proc.devRef .tc main_arg25)).trans (B5_main_arg25 V)

theorem B7_main_arg25 (V : Valuation τ sig (Elt Ideal)) : (B7 V) (Proc.devRef .tc main_arg25) = (V (Proc.devRef .tc main_arg25)) :=
  (by keep_win rops7 : (B7 V) (Proc.devRef .tc main_arg25) = (B6 V) (Proc.devRef .tc main_arg25)).trans (B6_main_arg25 V)

set_option maxHeartbeats 2000000 in
theorem B8_main_v131 (V : Valuation τ sig (Elt Ideal)) : (B8 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B7_main_v15 V)
  have e1 := (B7_main_v51 V)
  have e2 := (B7_main_v106 V)
  have e3 := (B7_main_arg22 V)
  have e4 := (B7_main_arg23 V)
  have e5 := (B7_main_arg24 V)
  have e6 := (B7_main_arg25 V)
  show StableHlo.after rops8 (B7 V) (Proc.devRef .tc main_v131) = _
  generalize (B7 V) = W at e0 e1 e2 e3 e4 e5 e6 ⊢
  simp only [rops8]
  after_results_simp
  rw [e0, e1, e2, e3, e4, e5, e6]
  rfl

theorem B9_main_v131 (V : Valuation τ sig (Elt Ideal)) : (B9 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops9 : (B9 V) (Proc.devRef .tc main_v131) = (B8 V) (Proc.devRef .tc main_v131)).trans (B8_main_v131 V)

theorem B10_main_v131 (V : Valuation τ sig (Elt Ideal)) : (B10 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops10 : (B10 V) (Proc.devRef .tc main_v131) = (B9 V) (Proc.devRef .tc main_v131)).trans (B9_main_v131 V)

theorem B11_main_v131 (V : Valuation τ sig (Elt Ideal)) : (B11 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops11 : (B11 V) (Proc.devRef .tc main_v131) = (B10 V) (Proc.devRef .tc main_v131)).trans (B10_main_v131 V)

theorem B12_main_v131 (V : Valuation τ sig (Elt Ideal)) : (B12 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops12 : (B12 V) (Proc.devRef .tc main_v131) = (B11 V) (Proc.devRef .tc main_v131)).trans (B11_main_v131 V)

theorem B13_main_v131 (V : Valuation τ sig (Elt Ideal)) : (B13 V) (Proc.devRef .tc main_v131) = (Cert.ReferenceIdeal.Read.val_main_v131 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops13 : (B13 V) (Proc.devRef .tc main_v131) = (B12 V) (Proc.devRef .tc main_v131)).trans (B12_main_v131 V)

theorem B8_main_v51 (V : Valuation τ sig (Elt Ideal)) : (B8 V) (Proc.devRef .tc main_v51) = (Cert.ReferenceIdeal.Read.val_main_v51 (F := Ideal) (V (Proc.devRef .tc main_arg33))) :=
  (by keep_win rops8 : (B8 V) (Proc.devRef .tc main_v51) = (B7 V) (Proc.devRef .tc main_v51)).trans (B7_main_v51 V)

theorem B9_main_v51 (V : Valuation τ sig (Elt Ideal)) : (B9 V) (Proc.devRef .tc main_v51) = (Cert.ReferenceIdeal.Read.val_main_v51 (F := Ideal) (V (Proc.devRef .tc main_arg33))) :=
  (by keep_win rops9 : (B9 V) (Proc.devRef .tc main_v51) = (B8 V) (Proc.devRef .tc main_v51)).trans (B8_main_v51 V)

theorem B10_main_v51 (V : Valuation τ sig (Elt Ideal)) : (B10 V) (Proc.devRef .tc main_v51) = (Cert.ReferenceIdeal.Read.val_main_v51 (F := Ideal) (V (Proc.devRef .tc main_arg33))) :=
  (by keep_win rops10 : (B10 V) (Proc.devRef .tc main_v51) = (B9 V) (Proc.devRef .tc main_v51)).trans (B9_main_v51 V)

theorem B11_main_v51 (V : Valuation τ sig (Elt Ideal)) : (B11 V) (Proc.devRef .tc main_v51) = (Cert.ReferenceIdeal.Read.val_main_v51 (F := Ideal) (V (Proc.devRef .tc main_arg33))) :=
  (by keep_win rops11 : (B11 V) (Proc.devRef .tc main_v51) = (B10 V) (Proc.devRef .tc main_v51)).trans (B10_main_v51 V)

theorem B12_main_v51 (V : Valuation τ sig (Elt Ideal)) : (B12 V) (Proc.devRef .tc main_v51) = (Cert.ReferenceIdeal.Read.val_main_v51 (F := Ideal) (V (Proc.devRef .tc main_arg33))) :=
  (by keep_win rops12 : (B12 V) (Proc.devRef .tc main_v51) = (B11 V) (Proc.devRef .tc main_v51)).trans (B11_main_v51 V)

theorem B13_main_v51 (V : Valuation τ sig (Elt Ideal)) : (B13 V) (Proc.devRef .tc main_v51) = (Cert.ReferenceIdeal.Read.val_main_v51 (F := Ideal) (V (Proc.devRef .tc main_arg33))) :=
  (by keep_win rops13 : (B13 V) (Proc.devRef .tc main_v51) = (B12 V) (Proc.devRef .tc main_v51)).trans (B12_main_v51 V)

set_option maxHeartbeats 2000000 in
theorem B12_main_v178 (V : Valuation τ sig (Elt Ideal)) : (B12 V) (Proc.devRef .tc main_v178) = (Cert.ReferenceIdeal.Read.val_main_v178 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B11_main_v131 V)
  have e1 := (B11_main_v51 V)
  show StableHlo.after rops12 (B11 V) (Proc.devRef .tc main_v178) = _
  generalize (B11 V) = W at e0 e1 ⊢
  simp only [rops12]
  after_results_simp
  rw [e0, e1]
  rfl

theorem B6_main_v31 (V : Valuation τ sig (Elt Ideal)) : (B6 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops6 : (B6 V) (Proc.devRef .tc main_v31) = (B5 V) (Proc.devRef .tc main_v31)).trans (B5_main_v31 V)

theorem B7_main_v31 (V : Valuation τ sig (Elt Ideal)) : (B7 V) (Proc.devRef .tc main_v31) = (Cert.ReferenceIdeal.Read.val_main_v31 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32))) :=
  (by keep_win rops7 : (B7 V) (Proc.devRef .tc main_v31) = (B6 V) (Proc.devRef .tc main_v31)).trans (B6_main_v31 V)

set_option maxHeartbeats 2000000 in
theorem B3_main_v60 (V : Valuation τ sig (Elt Ideal)) : (B3 V) (Proc.devRef .tc main_v60) = (Cert.ReferenceIdeal.Read.val_main_v60 (F := Ideal) (V (Proc.devRef .tc main_arg1)) (V (Proc.devRef .tc main_arg6)) (V (Proc.devRef .tc main_arg7)) (V (Proc.devRef .tc main_arg8)) (V (Proc.devRef .tc main_arg9)) (V (Proc.devRef .tc main_arg32)) (V (Proc.devRef .tc main_arg33))) := by
  have e0 := (B2_main_v31 V)
  have e1 := (B2_main_arg33 V)
  show StableHlo.after rops3 (B2 V) (Proc.devRef .tc main_v60) = _
  generalize (B2 V) = W at e0 e1 ⊢
  simp only [rops3]
  after_results_simp
  rw [e0, e1]
  rfl

set_option maxHeartbeats 2000000 in
theorem B3_main_v67 (V : Valuation τ sig (Elt Ideal)) : (B3 V) (Proc.devRef .tc main_v67) = (Cert.ReferenceIdeal.Read.val_main_v67 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg31)) (V (Proc.devRef .tc main_arg33))) := by
  have e0 := (B2_main_v15 V)
  have e1 := (B2_main_v51 V)
  show StableHlo.after rops3 (B2 V) (Proc.devRef .tc main_v67) = _
  generalize (B2 V) = W at e0 e1 ⊢
  simp only [rops3]
  after_results_simp
  rw [e0, e1]
  rfl

theorem B1_main_arg10 (V : Valuation τ sig (Elt Ideal)) : (B1 V) (Proc.devRef .tc main_arg10) = (V (Proc.devRef .tc main_arg10)) :=
  (by keep_win rops1 : (B1 V) (Proc.devRef .tc main_arg10) = V (Proc.devRef .tc main_arg10)).trans (rfl : V (Proc.devRef .tc main_arg10) = V (Proc.devRef .tc main_arg10))

theorem B1_main_arg11 (V : Valuation τ sig (Elt Ideal)) : (B1 V) (Proc.devRef .tc main_arg11) = (V (Proc.devRef .tc main_arg11)) :=
  (by keep_win rops1 : (B1 V) (Proc.devRef .tc main_arg11) = V (Proc.devRef .tc main_arg11)).trans (rfl : V (Proc.devRef .tc main_arg11) = V (Proc.devRef .tc main_arg11))

theorem B1_main_arg12 (V : Valuation τ sig (Elt Ideal)) : (B1 V) (Proc.devRef .tc main_arg12) = (V (Proc.devRef .tc main_arg12)) :=
  (by keep_win rops1 : (B1 V) (Proc.devRef .tc main_arg12) = V (Proc.devRef .tc main_arg12)).trans (rfl : V (Proc.devRef .tc main_arg12) = V (Proc.devRef .tc main_arg12))

theorem B1_main_arg13 (V : Valuation τ sig (Elt Ideal)) : (B1 V) (Proc.devRef .tc main_arg13) = (V (Proc.devRef .tc main_arg13)) :=
  (by keep_win rops1 : (B1 V) (Proc.devRef .tc main_arg13) = V (Proc.devRef .tc main_arg13)).trans (rfl : V (Proc.devRef .tc main_arg13) = V (Proc.devRef .tc main_arg13))

set_option maxHeartbeats 2000000 in
theorem B2_main_v40 (V : Valuation τ sig (Elt Ideal)) : (B2 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) := by
  have e0 := (B1_main_arg30 V)
  have e1 := (B1_main_arg10 V)
  have e2 := (B1_main_arg11 V)
  have e3 := (B1_main_arg12 V)
  have e4 := (B1_main_arg13 V)
  show StableHlo.after rops2 (B1 V) (Proc.devRef .tc main_v40) = _
  generalize (B1 V) = W at e0 e1 e2 e3 e4 ⊢
  simp only [rops2]
  after_results_simp
  rw [e0, e1, e2, e3, e4]
  rfl

theorem B3_main_v40 (V : Valuation τ sig (Elt Ideal)) : (B3 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops3 : (B3 V) (Proc.devRef .tc main_v40) = (B2 V) (Proc.devRef .tc main_v40)).trans (B2_main_v40 V)

set_option maxHeartbeats 2000000 in
theorem B4_main_v68 (V : Valuation τ sig (Elt Ideal)) : (B4 V) (Proc.devRef .tc main_v68) = (Cert.ReferenceIdeal.Read.val_main_v68 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg30)) (V (Proc.devRef .tc main_arg31)) (V (Proc.devRef .tc main_arg32)) (V (Proc.devRef .tc main_arg33))) := by
  have e0 := (B3_main_v60 V)
  have e1 := (B3_main_v67 V)
  have e2 := (B3_main_v40 V)
  show StableHlo.after rops4 (B3 V) (Proc.devRef .tc main_v68) = _
  generalize (B3 V) = W at e0 e1 e2 ⊢
  simp only [rops4, after_cons, after_nil]
  rw [nary3_result, e0, e1, e2]
  rfl

theorem B1_main_arg18 (V : Valuation τ sig (Elt Ideal)) : (B1 V) (Proc.devRef .tc main_arg18) = (V (Proc.devRef .tc main_arg18)) :=
  (by keep_win rops1 : (B1 V) (Proc.devRef .tc main_arg18) = V (Proc.devRef .tc main_arg18)).trans (rfl : V (Proc.devRef .tc main_arg18) = V (Proc.devRef .tc main_arg18))

theorem B2_main_arg18 (V : Valuation τ sig (Elt Ideal)) : (B2 V) (Proc.devRef .tc main_arg18) = (V (Proc.devRef .tc main_arg18)) :=
  (by keep_win rops2 : (B2 V) (Proc.devRef .tc main_arg18) = (B1 V) (Proc.devRef .tc main_arg18)).trans (B1_main_arg18 V)

theorem B3_main_arg18 (V : Valuation τ sig (Elt Ideal)) : (B3 V) (Proc.devRef .tc main_arg18) = (V (Proc.devRef .tc main_arg18)) :=
  (by keep_win rops3 : (B3 V) (Proc.devRef .tc main_arg18) = (B2 V) (Proc.devRef .tc main_arg18)).trans (B2_main_arg18 V)

theorem B4_main_arg18 (V : Valuation τ sig (Elt Ideal)) : (B4 V) (Proc.devRef .tc main_arg18) = (V (Proc.devRef .tc main_arg18)) :=
  (by keep_win rops4 : (B4 V) (Proc.devRef .tc main_arg18) = (B3 V) (Proc.devRef .tc main_arg18)).trans (B3_main_arg18 V)

theorem B1_main_arg19 (V : Valuation τ sig (Elt Ideal)) : (B1 V) (Proc.devRef .tc main_arg19) = (V (Proc.devRef .tc main_arg19)) :=
  (by keep_win rops1 : (B1 V) (Proc.devRef .tc main_arg19) = V (Proc.devRef .tc main_arg19)).trans (rfl : V (Proc.devRef .tc main_arg19) = V (Proc.devRef .tc main_arg19))

theorem B2_main_arg19 (V : Valuation τ sig (Elt Ideal)) : (B2 V) (Proc.devRef .tc main_arg19) = (V (Proc.devRef .tc main_arg19)) :=
  (by keep_win rops2 : (B2 V) (Proc.devRef .tc main_arg19) = (B1 V) (Proc.devRef .tc main_arg19)).trans (B1_main_arg19 V)

theorem B3_main_arg19 (V : Valuation τ sig (Elt Ideal)) : (B3 V) (Proc.devRef .tc main_arg19) = (V (Proc.devRef .tc main_arg19)) :=
  (by keep_win rops3 : (B3 V) (Proc.devRef .tc main_arg19) = (B2 V) (Proc.devRef .tc main_arg19)).trans (B2_main_arg19 V)

theorem B4_main_arg19 (V : Valuation τ sig (Elt Ideal)) : (B4 V) (Proc.devRef .tc main_arg19) = (V (Proc.devRef .tc main_arg19)) :=
  (by keep_win rops4 : (B4 V) (Proc.devRef .tc main_arg19) = (B3 V) (Proc.devRef .tc main_arg19)).trans (B3_main_arg19 V)

theorem B1_main_arg20 (V : Valuation τ sig (Elt Ideal)) : (B1 V) (Proc.devRef .tc main_arg20) = (V (Proc.devRef .tc main_arg20)) :=
  (by keep_win rops1 : (B1 V) (Proc.devRef .tc main_arg20) = V (Proc.devRef .tc main_arg20)).trans (rfl : V (Proc.devRef .tc main_arg20) = V (Proc.devRef .tc main_arg20))

theorem B2_main_arg20 (V : Valuation τ sig (Elt Ideal)) : (B2 V) (Proc.devRef .tc main_arg20) = (V (Proc.devRef .tc main_arg20)) :=
  (by keep_win rops2 : (B2 V) (Proc.devRef .tc main_arg20) = (B1 V) (Proc.devRef .tc main_arg20)).trans (B1_main_arg20 V)

theorem B3_main_arg20 (V : Valuation τ sig (Elt Ideal)) : (B3 V) (Proc.devRef .tc main_arg20) = (V (Proc.devRef .tc main_arg20)) :=
  (by keep_win rops3 : (B3 V) (Proc.devRef .tc main_arg20) = (B2 V) (Proc.devRef .tc main_arg20)).trans (B2_main_arg20 V)

theorem B4_main_arg20 (V : Valuation τ sig (Elt Ideal)) : (B4 V) (Proc.devRef .tc main_arg20) = (V (Proc.devRef .tc main_arg20)) :=
  (by keep_win rops4 : (B4 V) (Proc.devRef .tc main_arg20) = (B3 V) (Proc.devRef .tc main_arg20)).trans (B3_main_arg20 V)

theorem B1_main_arg21 (V : Valuation τ sig (Elt Ideal)) : (B1 V) (Proc.devRef .tc main_arg21) = (V (Proc.devRef .tc main_arg21)) :=
  (by keep_win rops1 : (B1 V) (Proc.devRef .tc main_arg21) = V (Proc.devRef .tc main_arg21)).trans (rfl : V (Proc.devRef .tc main_arg21) = V (Proc.devRef .tc main_arg21))

theorem B2_main_arg21 (V : Valuation τ sig (Elt Ideal)) : (B2 V) (Proc.devRef .tc main_arg21) = (V (Proc.devRef .tc main_arg21)) :=
  (by keep_win rops2 : (B2 V) (Proc.devRef .tc main_arg21) = (B1 V) (Proc.devRef .tc main_arg21)).trans (B1_main_arg21 V)

theorem B3_main_arg21 (V : Valuation τ sig (Elt Ideal)) : (B3 V) (Proc.devRef .tc main_arg21) = (V (Proc.devRef .tc main_arg21)) :=
  (by keep_win rops3 : (B3 V) (Proc.devRef .tc main_arg21) = (B2 V) (Proc.devRef .tc main_arg21)).trans (B2_main_arg21 V)

theorem B4_main_arg21 (V : Valuation τ sig (Elt Ideal)) : (B4 V) (Proc.devRef .tc main_arg21) = (V (Proc.devRef .tc main_arg21)) :=
  (by keep_win rops4 : (B4 V) (Proc.devRef .tc main_arg21) = (B3 V) (Proc.devRef .tc main_arg21)).trans (B3_main_arg21 V)

set_option maxHeartbeats 2000000 in
theorem B5_main_v85 (V : Valuation τ sig (Elt Ideal)) : (B5 V) (Proc.devRef .tc main_v85) = (Cert.ReferenceIdeal.Read.val_main_v85 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B4_main_v68 V)
  have e1 := (B4_main_arg18 V)
  have e2 := (B4_main_arg19 V)
  have e3 := (B4_main_arg20 V)
  have e4 := (B4_main_arg21 V)
  show StableHlo.after rops5 (B4 V) (Proc.devRef .tc main_v85) = _
  generalize (B4 V) = W at e0 e1 e2 e3 e4 ⊢
  simp only [rops5]
  after_results_simp
  rw [e0, e1, e2, e3, e4]
  rfl

set_option maxHeartbeats 2000000 in
theorem B6_main_v91 (V : Valuation τ sig (Elt Ideal)) : (B6 V) (Proc.devRef .tc main_v91) = (Cert.ReferenceIdeal.Read.val_main_v91 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B5_main_v31 V)
  have e1 := (B5_main_v53 V)
  have e2 := (B5_main_v85 V)
  show StableHlo.after rops6 (B5 V) (Proc.devRef .tc main_v91) = _
  generalize (B5 V) = W at e0 e1 e2 ⊢
  simp only [rops6]
  after_results_simp
  rw [e0, e1, e2]
  rfl

theorem B7_main_v91 (V : Valuation τ sig (Elt Ideal)) : (B7 V) (Proc.devRef .tc main_v91) = (Cert.ReferenceIdeal.Read.val_main_v91 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) :=
  (by keep_win rops7 : (B7 V) (Proc.devRef .tc main_v91) = (B6 V) (Proc.devRef .tc main_v91)).trans (B6_main_v91 V)

set_option maxHeartbeats 2000000 in
theorem B8_main_v132 (V : Valuation τ sig (Elt Ideal)) : (B8 V) (Proc.devRef .tc main_v132) = (Cert.ReferenceIdeal.Read.val_main_v132 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B7_main_v31 V)
  have e1 := (B7_main_v91 V)
  show StableHlo.after rops8 (B7 V) (Proc.devRef .tc main_v132) = _
  generalize (B7 V) = W at e0 e1 ⊢
  simp only [rops8]
  after_results_simp
  rw [e0, e1]
  rfl

set_option maxHeartbeats 2000000 in
theorem B9_main_v133 (V : Valuation τ sig (Elt Ideal)) : (B9 V) (Proc.devRef .tc main_v133) = (Cert.ReferenceIdeal.Read.val_main_v133 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B8_main_v132 V)
  show StableHlo.after rops9 (B8 V) (Proc.devRef .tc main_v133) = _
  generalize (B8 V) = W at e0 ⊢
  simp only [rops9]
  after_results_simp
  rw [e0]
  rfl

theorem B10_main_v133 (V : Valuation τ sig (Elt Ideal)) : (B10 V) (Proc.devRef .tc main_v133) = (Cert.ReferenceIdeal.Read.val_main_v133 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) :=
  (by keep_win rops10 : (B10 V) (Proc.devRef .tc main_v133) = (B9 V) (Proc.devRef .tc main_v133)).trans (B9_main_v133 V)

theorem B11_main_v133 (V : Valuation τ sig (Elt Ideal)) : (B11 V) (Proc.devRef .tc main_v133) = (Cert.ReferenceIdeal.Read.val_main_v133 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) :=
  (by keep_win rops11 : (B11 V) (Proc.devRef .tc main_v133) = (B10 V) (Proc.devRef .tc main_v133)).trans (B10_main_v133 V)

theorem B6_main_v53 (V : Valuation τ sig (Elt Ideal)) : (B6 V) (Proc.devRef .tc main_v53) = (Cert.ReferenceIdeal.Read.val_main_v53 (F := Ideal) (V (Proc.devRef .tc main_arg33))) :=
  (by keep_win rops6 : (B6 V) (Proc.devRef .tc main_v53) = (B5 V) (Proc.devRef .tc main_v53)).trans (B5_main_v53 V)

theorem B7_main_v53 (V : Valuation τ sig (Elt Ideal)) : (B7 V) (Proc.devRef .tc main_v53) = (Cert.ReferenceIdeal.Read.val_main_v53 (F := Ideal) (V (Proc.devRef .tc main_arg33))) :=
  (by keep_win rops7 : (B7 V) (Proc.devRef .tc main_v53) = (B6 V) (Proc.devRef .tc main_v53)).trans (B6_main_v53 V)

theorem B8_main_v53 (V : Valuation τ sig (Elt Ideal)) : (B8 V) (Proc.devRef .tc main_v53) = (Cert.ReferenceIdeal.Read.val_main_v53 (F := Ideal) (V (Proc.devRef .tc main_arg33))) :=
  (by keep_win rops8 : (B8 V) (Proc.devRef .tc main_v53) = (B7 V) (Proc.devRef .tc main_v53)).trans (B7_main_v53 V)

theorem B9_main_v53 (V : Valuation τ sig (Elt Ideal)) : (B9 V) (Proc.devRef .tc main_v53) = (Cert.ReferenceIdeal.Read.val_main_v53 (F := Ideal) (V (Proc.devRef .tc main_arg33))) :=
  (by keep_win rops9 : (B9 V) (Proc.devRef .tc main_v53) = (B8 V) (Proc.devRef .tc main_v53)).trans (B8_main_v53 V)

theorem B10_main_v53 (V : Valuation τ sig (Elt Ideal)) : (B10 V) (Proc.devRef .tc main_v53) = (Cert.ReferenceIdeal.Read.val_main_v53 (F := Ideal) (V (Proc.devRef .tc main_arg33))) :=
  (by keep_win rops10 : (B10 V) (Proc.devRef .tc main_v53) = (B9 V) (Proc.devRef .tc main_v53)).trans (B9_main_v53 V)

theorem B11_main_v53 (V : Valuation τ sig (Elt Ideal)) : (B11 V) (Proc.devRef .tc main_v53) = (Cert.ReferenceIdeal.Read.val_main_v53 (F := Ideal) (V (Proc.devRef .tc main_arg33))) :=
  (by keep_win rops11 : (B11 V) (Proc.devRef .tc main_v53) = (B10 V) (Proc.devRef .tc main_v53)).trans (B10_main_v53 V)

set_option maxHeartbeats 2000000 in
theorem B12_main_v185 (V : Valuation τ sig (Elt Ideal)) : (B12 V) (Proc.devRef .tc main_v185) = (Cert.ReferenceIdeal.Read.val_main_v185 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B11_main_v133 V)
  have e1 := (B11_main_v53 V)
  show StableHlo.after rops12 (B11 V) (Proc.devRef .tc main_v185) = _
  generalize (B11 V) = W at e0 e1 ⊢
  simp only [rops12]
  after_results_simp
  rw [e0, e1]
  rfl

theorem B7_main_v49 (V : Valuation τ sig (Elt Ideal)) : (B7 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops7 : (B7 V) (Proc.devRef .tc main_v49) = (B6 V) (Proc.devRef .tc main_v49)).trans (B6_main_v49 V)

theorem B8_main_v49 (V : Valuation τ sig (Elt Ideal)) : (B8 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops8 : (B8 V) (Proc.devRef .tc main_v49) = (B7 V) (Proc.devRef .tc main_v49)).trans (B7_main_v49 V)

theorem B9_main_v49 (V : Valuation τ sig (Elt Ideal)) : (B9 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops9 : (B9 V) (Proc.devRef .tc main_v49) = (B8 V) (Proc.devRef .tc main_v49)).trans (B8_main_v49 V)

theorem B10_main_v49 (V : Valuation τ sig (Elt Ideal)) : (B10 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops10 : (B10 V) (Proc.devRef .tc main_v49) = (B9 V) (Proc.devRef .tc main_v49)).trans (B9_main_v49 V)

theorem B11_main_v49 (V : Valuation τ sig (Elt Ideal)) : (B11 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops11 : (B11 V) (Proc.devRef .tc main_v49) = (B10 V) (Proc.devRef .tc main_v49)).trans (B10_main_v49 V)

theorem B12_main_v49 (V : Valuation τ sig (Elt Ideal)) : (B12 V) (Proc.devRef .tc main_v49) = (Cert.ReferenceIdeal.Read.val_main_v49 (F := Ideal) (V (Proc.devRef .tc main_arg14)) (V (Proc.devRef .tc main_arg15)) (V (Proc.devRef .tc main_arg16)) (V (Proc.devRef .tc main_arg17)) (V (Proc.devRef .tc main_arg30))) :=
  (by keep_win rops12 : (B12 V) (Proc.devRef .tc main_v49) = (B11 V) (Proc.devRef .tc main_v49)).trans (B11_main_v49 V)

set_option maxHeartbeats 2000000 in
theorem B13_main_v186 (V : Valuation τ sig (Elt Ideal)) : (B13 V) (Proc.devRef .tc main_v186) = (Cert.ReferenceIdeal.Read.val_main_v186 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B12_main_v178 V)
  have e1 := (B12_main_v185 V)
  have e2 := (B12_main_v49 V)
  show StableHlo.after rops13 (B12 V) (Proc.devRef .tc main_v186) = _
  generalize (B12 V) = W at e0 e1 e2 ⊢
  simp only [rops13, after_cons, after_nil]
  rw [nary3_result, e0, e1, e2]
  rfl

theorem B8_main_arg22 (V : Valuation τ sig (Elt Ideal)) : (B8 V) (Proc.devRef .tc main_arg22) = (V (Proc.devRef .tc main_arg22)) :=
  (by keep_win rops8 : (B8 V) (Proc.devRef .tc main_arg22) = (B7 V) (Proc.devRef .tc main_arg22)).trans (B7_main_arg22 V)

theorem B9_main_arg22 (V : Valuation τ sig (Elt Ideal)) : (B9 V) (Proc.devRef .tc main_arg22) = (V (Proc.devRef .tc main_arg22)) :=
  (by keep_win rops9 : (B9 V) (Proc.devRef .tc main_arg22) = (B8 V) (Proc.devRef .tc main_arg22)).trans (B8_main_arg22 V)

theorem B10_main_arg22 (V : Valuation τ sig (Elt Ideal)) : (B10 V) (Proc.devRef .tc main_arg22) = (V (Proc.devRef .tc main_arg22)) :=
  (by keep_win rops10 : (B10 V) (Proc.devRef .tc main_arg22) = (B9 V) (Proc.devRef .tc main_arg22)).trans (B9_main_arg22 V)

theorem B11_main_arg22 (V : Valuation τ sig (Elt Ideal)) : (B11 V) (Proc.devRef .tc main_arg22) = (V (Proc.devRef .tc main_arg22)) :=
  (by keep_win rops11 : (B11 V) (Proc.devRef .tc main_arg22) = (B10 V) (Proc.devRef .tc main_arg22)).trans (B10_main_arg22 V)

theorem B12_main_arg22 (V : Valuation τ sig (Elt Ideal)) : (B12 V) (Proc.devRef .tc main_arg22) = (V (Proc.devRef .tc main_arg22)) :=
  (by keep_win rops12 : (B12 V) (Proc.devRef .tc main_arg22) = (B11 V) (Proc.devRef .tc main_arg22)).trans (B11_main_arg22 V)

theorem B13_main_arg22 (V : Valuation τ sig (Elt Ideal)) : (B13 V) (Proc.devRef .tc main_arg22) = (V (Proc.devRef .tc main_arg22)) :=
  (by keep_win rops13 : (B13 V) (Proc.devRef .tc main_arg22) = (B12 V) (Proc.devRef .tc main_arg22)).trans (B12_main_arg22 V)

theorem B8_main_arg23 (V : Valuation τ sig (Elt Ideal)) : (B8 V) (Proc.devRef .tc main_arg23) = (V (Proc.devRef .tc main_arg23)) :=
  (by keep_win rops8 : (B8 V) (Proc.devRef .tc main_arg23) = (B7 V) (Proc.devRef .tc main_arg23)).trans (B7_main_arg23 V)

theorem B9_main_arg23 (V : Valuation τ sig (Elt Ideal)) : (B9 V) (Proc.devRef .tc main_arg23) = (V (Proc.devRef .tc main_arg23)) :=
  (by keep_win rops9 : (B9 V) (Proc.devRef .tc main_arg23) = (B8 V) (Proc.devRef .tc main_arg23)).trans (B8_main_arg23 V)

theorem B10_main_arg23 (V : Valuation τ sig (Elt Ideal)) : (B10 V) (Proc.devRef .tc main_arg23) = (V (Proc.devRef .tc main_arg23)) :=
  (by keep_win rops10 : (B10 V) (Proc.devRef .tc main_arg23) = (B9 V) (Proc.devRef .tc main_arg23)).trans (B9_main_arg23 V)

theorem B11_main_arg23 (V : Valuation τ sig (Elt Ideal)) : (B11 V) (Proc.devRef .tc main_arg23) = (V (Proc.devRef .tc main_arg23)) :=
  (by keep_win rops11 : (B11 V) (Proc.devRef .tc main_arg23) = (B10 V) (Proc.devRef .tc main_arg23)).trans (B10_main_arg23 V)

theorem B12_main_arg23 (V : Valuation τ sig (Elt Ideal)) : (B12 V) (Proc.devRef .tc main_arg23) = (V (Proc.devRef .tc main_arg23)) :=
  (by keep_win rops12 : (B12 V) (Proc.devRef .tc main_arg23) = (B11 V) (Proc.devRef .tc main_arg23)).trans (B11_main_arg23 V)

theorem B13_main_arg23 (V : Valuation τ sig (Elt Ideal)) : (B13 V) (Proc.devRef .tc main_arg23) = (V (Proc.devRef .tc main_arg23)) :=
  (by keep_win rops13 : (B13 V) (Proc.devRef .tc main_arg23) = (B12 V) (Proc.devRef .tc main_arg23)).trans (B12_main_arg23 V)

theorem B8_main_arg24 (V : Valuation τ sig (Elt Ideal)) : (B8 V) (Proc.devRef .tc main_arg24) = (V (Proc.devRef .tc main_arg24)) :=
  (by keep_win rops8 : (B8 V) (Proc.devRef .tc main_arg24) = (B7 V) (Proc.devRef .tc main_arg24)).trans (B7_main_arg24 V)

theorem B9_main_arg24 (V : Valuation τ sig (Elt Ideal)) : (B9 V) (Proc.devRef .tc main_arg24) = (V (Proc.devRef .tc main_arg24)) :=
  (by keep_win rops9 : (B9 V) (Proc.devRef .tc main_arg24) = (B8 V) (Proc.devRef .tc main_arg24)).trans (B8_main_arg24 V)

theorem B10_main_arg24 (V : Valuation τ sig (Elt Ideal)) : (B10 V) (Proc.devRef .tc main_arg24) = (V (Proc.devRef .tc main_arg24)) :=
  (by keep_win rops10 : (B10 V) (Proc.devRef .tc main_arg24) = (B9 V) (Proc.devRef .tc main_arg24)).trans (B9_main_arg24 V)

theorem B11_main_arg24 (V : Valuation τ sig (Elt Ideal)) : (B11 V) (Proc.devRef .tc main_arg24) = (V (Proc.devRef .tc main_arg24)) :=
  (by keep_win rops11 : (B11 V) (Proc.devRef .tc main_arg24) = (B10 V) (Proc.devRef .tc main_arg24)).trans (B10_main_arg24 V)

theorem B12_main_arg24 (V : Valuation τ sig (Elt Ideal)) : (B12 V) (Proc.devRef .tc main_arg24) = (V (Proc.devRef .tc main_arg24)) :=
  (by keep_win rops12 : (B12 V) (Proc.devRef .tc main_arg24) = (B11 V) (Proc.devRef .tc main_arg24)).trans (B11_main_arg24 V)

theorem B13_main_arg24 (V : Valuation τ sig (Elt Ideal)) : (B13 V) (Proc.devRef .tc main_arg24) = (V (Proc.devRef .tc main_arg24)) :=
  (by keep_win rops13 : (B13 V) (Proc.devRef .tc main_arg24) = (B12 V) (Proc.devRef .tc main_arg24)).trans (B12_main_arg24 V)

theorem B8_main_arg25 (V : Valuation τ sig (Elt Ideal)) : (B8 V) (Proc.devRef .tc main_arg25) = (V (Proc.devRef .tc main_arg25)) :=
  (by keep_win rops8 : (B8 V) (Proc.devRef .tc main_arg25) = (B7 V) (Proc.devRef .tc main_arg25)).trans (B7_main_arg25 V)

theorem B9_main_arg25 (V : Valuation τ sig (Elt Ideal)) : (B9 V) (Proc.devRef .tc main_arg25) = (V (Proc.devRef .tc main_arg25)) :=
  (by keep_win rops9 : (B9 V) (Proc.devRef .tc main_arg25) = (B8 V) (Proc.devRef .tc main_arg25)).trans (B8_main_arg25 V)

theorem B10_main_arg25 (V : Valuation τ sig (Elt Ideal)) : (B10 V) (Proc.devRef .tc main_arg25) = (V (Proc.devRef .tc main_arg25)) :=
  (by keep_win rops10 : (B10 V) (Proc.devRef .tc main_arg25) = (B9 V) (Proc.devRef .tc main_arg25)).trans (B9_main_arg25 V)

theorem B11_main_arg25 (V : Valuation τ sig (Elt Ideal)) : (B11 V) (Proc.devRef .tc main_arg25) = (V (Proc.devRef .tc main_arg25)) :=
  (by keep_win rops11 : (B11 V) (Proc.devRef .tc main_arg25) = (B10 V) (Proc.devRef .tc main_arg25)).trans (B10_main_arg25 V)

theorem B12_main_arg25 (V : Valuation τ sig (Elt Ideal)) : (B12 V) (Proc.devRef .tc main_arg25) = (V (Proc.devRef .tc main_arg25)) :=
  (by keep_win rops12 : (B12 V) (Proc.devRef .tc main_arg25) = (B11 V) (Proc.devRef .tc main_arg25)).trans (B11_main_arg25 V)

theorem B13_main_arg25 (V : Valuation τ sig (Elt Ideal)) : (B13 V) (Proc.devRef .tc main_arg25) = (V (Proc.devRef .tc main_arg25)) :=
  (by keep_win rops13 : (B13 V) (Proc.devRef .tc main_arg25) = (B12 V) (Proc.devRef .tc main_arg25)).trans (B12_main_arg25 V)

set_option maxHeartbeats 2000000 in
theorem B14_main_v209 (V : Valuation τ sig (Elt Ideal)) : (B14 V) (Proc.devRef .tc main_v209) = (Cert.ReferenceIdeal.Read.val_main_v209 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B13_main_v131 V)
  have e1 := (B13_main_v51 V)
  have e2 := (B13_main_v186 V)
  have e3 := (B13_main_arg22 V)
  have e4 := (B13_main_arg23 V)
  have e5 := (B13_main_arg24 V)
  have e6 := (B13_main_arg25 V)
  show StableHlo.after rops14 (B13 V) (Proc.devRef .tc main_v209) = _
  generalize (B13 V) = W at e0 e1 e2 e3 e4 e5 e6 ⊢
  simp only [rops14]
  after_results_simp
  rw [e0, e1, e2, e3, e4, e5, e6]
  rfl

theorem B1_main_arg34 (V : Valuation τ sig (Elt Ideal)) : (B1 V) (Proc.devRef .tc main_arg34) = (V (Proc.devRef .tc main_arg34)) :=
  (by keep_win rops1 : (B1 V) (Proc.devRef .tc main_arg34) = V (Proc.devRef .tc main_arg34)).trans (rfl : V (Proc.devRef .tc main_arg34) = V (Proc.devRef .tc main_arg34))

theorem B2_main_arg34 (V : Valuation τ sig (Elt Ideal)) : (B2 V) (Proc.devRef .tc main_arg34) = (V (Proc.devRef .tc main_arg34)) :=
  (by keep_win rops2 : (B2 V) (Proc.devRef .tc main_arg34) = (B1 V) (Proc.devRef .tc main_arg34)).trans (B1_main_arg34 V)

theorem B3_main_arg34 (V : Valuation τ sig (Elt Ideal)) : (B3 V) (Proc.devRef .tc main_arg34) = (V (Proc.devRef .tc main_arg34)) :=
  (by keep_win rops3 : (B3 V) (Proc.devRef .tc main_arg34) = (B2 V) (Proc.devRef .tc main_arg34)).trans (B2_main_arg34 V)

theorem B4_main_arg34 (V : Valuation τ sig (Elt Ideal)) : (B4 V) (Proc.devRef .tc main_arg34) = (V (Proc.devRef .tc main_arg34)) :=
  (by keep_win rops4 : (B4 V) (Proc.devRef .tc main_arg34) = (B3 V) (Proc.devRef .tc main_arg34)).trans (B3_main_arg34 V)

theorem B5_main_arg34 (V : Valuation τ sig (Elt Ideal)) : (B5 V) (Proc.devRef .tc main_arg34) = (V (Proc.devRef .tc main_arg34)) :=
  (by keep_win rops5 : (B5 V) (Proc.devRef .tc main_arg34) = (B4 V) (Proc.devRef .tc main_arg34)).trans (B4_main_arg34 V)

theorem B6_main_arg34 (V : Valuation τ sig (Elt Ideal)) : (B6 V) (Proc.devRef .tc main_arg34) = (V (Proc.devRef .tc main_arg34)) :=
  (by keep_win rops6 : (B6 V) (Proc.devRef .tc main_arg34) = (B5 V) (Proc.devRef .tc main_arg34)).trans (B5_main_arg34 V)

theorem B7_main_arg34 (V : Valuation τ sig (Elt Ideal)) : (B7 V) (Proc.devRef .tc main_arg34) = (V (Proc.devRef .tc main_arg34)) :=
  (by keep_win rops7 : (B7 V) (Proc.devRef .tc main_arg34) = (B6 V) (Proc.devRef .tc main_arg34)).trans (B6_main_arg34 V)

theorem B8_main_arg34 (V : Valuation τ sig (Elt Ideal)) : (B8 V) (Proc.devRef .tc main_arg34) = (V (Proc.devRef .tc main_arg34)) :=
  (by keep_win rops8 : (B8 V) (Proc.devRef .tc main_arg34) = (B7 V) (Proc.devRef .tc main_arg34)).trans (B7_main_arg34 V)

theorem B9_main_arg34 (V : Valuation τ sig (Elt Ideal)) : (B9 V) (Proc.devRef .tc main_arg34) = (V (Proc.devRef .tc main_arg34)) :=
  (by keep_win rops9 : (B9 V) (Proc.devRef .tc main_arg34) = (B8 V) (Proc.devRef .tc main_arg34)).trans (B8_main_arg34 V)

theorem B10_main_arg34 (V : Valuation τ sig (Elt Ideal)) : (B10 V) (Proc.devRef .tc main_arg34) = (V (Proc.devRef .tc main_arg34)) :=
  (by keep_win rops10 : (B10 V) (Proc.devRef .tc main_arg34) = (B9 V) (Proc.devRef .tc main_arg34)).trans (B9_main_arg34 V)

theorem B11_main_arg34 (V : Valuation τ sig (Elt Ideal)) : (B11 V) (Proc.devRef .tc main_arg34) = (V (Proc.devRef .tc main_arg34)) :=
  (by keep_win rops11 : (B11 V) (Proc.devRef .tc main_arg34) = (B10 V) (Proc.devRef .tc main_arg34)).trans (B10_main_arg34 V)

theorem B12_main_arg34 (V : Valuation τ sig (Elt Ideal)) : (B12 V) (Proc.devRef .tc main_arg34) = (V (Proc.devRef .tc main_arg34)) :=
  (by keep_win rops12 : (B12 V) (Proc.devRef .tc main_arg34) = (B11 V) (Proc.devRef .tc main_arg34)).trans (B11_main_arg34 V)

theorem B13_main_arg34 (V : Valuation τ sig (Elt Ideal)) : (B13 V) (Proc.devRef .tc main_arg34) = (V (Proc.devRef .tc main_arg34)) :=
  (by keep_win rops13 : (B13 V) (Proc.devRef .tc main_arg34) = (B12 V) (Proc.devRef .tc main_arg34)).trans (B12_main_arg34 V)

theorem B14_main_arg34 (V : Valuation τ sig (Elt Ideal)) : (B14 V) (Proc.devRef .tc main_arg34) = (V (Proc.devRef .tc main_arg34)) :=
  (by keep_win rops14 : (B14 V) (Proc.devRef .tc main_arg34) = (B13 V) (Proc.devRef .tc main_arg34)).trans (B13_main_arg34 V)

set_option maxHeartbeats 2000000 in
theorem B15_main_v218 (V : Valuation τ sig (Elt Ideal)) : (B15 V) (Proc.devRef .tc main_v218) = (Cert.ReferenceIdeal.Read.val_main_v218 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33)) (V (Proc.devRef .tc main_arg34))) := by
  have e0 := (B14_main_v209 V)
  have e1 := (B14_main_arg34 V)
  show StableHlo.after rops15 (B14 V) (Proc.devRef .tc main_v218) = _
  generalize (B14 V) = W at e0 e1 ⊢
  simp only [rops15]
  after_results_simp
  rw [e0, e1]
  rfl

set_option maxHeartbeats 2000000 in
theorem B9_main_v140 (V : Valuation τ sig (Elt Ideal)) : (B9 V) (Proc.devRef .tc main_v140) = (Cert.ReferenceIdeal.Read.val_main_v140 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg20)) (V (Proc.devRef .tc main_arg21)) (V (Proc.devRef .tc main_arg30)) (V (Proc.devRef .tc main_arg31)) (V (Proc.devRef .tc main_arg32)) (V (Proc.devRef .tc main_arg33))) := by
  have e0 := (B8_main_v132 V)
  have e1 := (B8_main_v53 V)
  show StableHlo.after rops9 (B8 V) (Proc.devRef .tc main_v140) = _
  generalize (B8 V) = W at e0 e1 ⊢
  simp only [rops9]
  after_results_simp
  rw [e0, e1]
  rfl

set_option maxHeartbeats 2000000 in
theorem B9_main_v147 (V : Valuation τ sig (Elt Ideal)) : (B9 V) (Proc.devRef .tc main_v147) = (Cert.ReferenceIdeal.Read.val_main_v147 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B8_main_v131 V)
  have e1 := (B8_main_v51 V)
  show StableHlo.after rops9 (B8 V) (Proc.devRef .tc main_v147) = _
  generalize (B8 V) = W at e0 e1 ⊢
  simp only [rops9]
  after_results_simp
  rw [e0, e1]
  rfl

theorem B4_main_v40 (V : Valuation τ sig (Elt Ideal)) : (B4 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops4 : (B4 V) (Proc.devRef .tc main_v40) = (B3 V) (Proc.devRef .tc main_v40)).trans (B3_main_v40 V)

theorem B5_main_v40 (V : Valuation τ sig (Elt Ideal)) : (B5 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops5 : (B5 V) (Proc.devRef .tc main_v40) = (B4 V) (Proc.devRef .tc main_v40)).trans (B4_main_v40 V)

theorem B6_main_v40 (V : Valuation τ sig (Elt Ideal)) : (B6 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops6 : (B6 V) (Proc.devRef .tc main_v40) = (B5 V) (Proc.devRef .tc main_v40)).trans (B5_main_v40 V)

theorem B7_main_v40 (V : Valuation τ sig (Elt Ideal)) : (B7 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops7 : (B7 V) (Proc.devRef .tc main_v40) = (B6 V) (Proc.devRef .tc main_v40)).trans (B6_main_v40 V)

theorem B8_main_v40 (V : Valuation τ sig (Elt Ideal)) : (B8 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops8 : (B8 V) (Proc.devRef .tc main_v40) = (B7 V) (Proc.devRef .tc main_v40)).trans (B7_main_v40 V)

theorem B9_main_v40 (V : Valuation τ sig (Elt Ideal)) : (B9 V) (Proc.devRef .tc main_v40) = (Cert.ReferenceIdeal.Read.val_main_v40 (F := Ideal) (V (Proc.devRef .tc main_arg10)) (V (Proc.devRef .tc main_arg11)) (V (Proc.devRef .tc main_arg12)) (V (Proc.devRef .tc main_arg13)) (V (Proc.devRef .tc main_arg30))) :=
  (by keep_win rops9 : (B9 V) (Proc.devRef .tc main_v40) = (B8 V) (Proc.devRef .tc main_v40)).trans (B8_main_v40 V)

set_option maxHeartbeats 2000000 in
theorem B10_main_v148 (V : Valuation τ sig (Elt Ideal)) : (B10 V) (Proc.devRef .tc main_v148) = (Cert.ReferenceIdeal.Read.val_main_v148 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B9_main_v140 V)
  have e1 := (B9_main_v147 V)
  have e2 := (B9_main_v40 V)
  show StableHlo.after rops10 (B9 V) (Proc.devRef .tc main_v148) = _
  generalize (B9 V) = W at e0 e1 e2 ⊢
  simp only [rops10, after_cons, after_nil]
  rw [nary3_result, e0, e1, e2]
  rfl

theorem B5_main_arg18 (V : Valuation τ sig (Elt Ideal)) : (B5 V) (Proc.devRef .tc main_arg18) = (V (Proc.devRef .tc main_arg18)) :=
  (by keep_win rops5 : (B5 V) (Proc.devRef .tc main_arg18) = (B4 V) (Proc.devRef .tc main_arg18)).trans (B4_main_arg18 V)

theorem B6_main_arg18 (V : Valuation τ sig (Elt Ideal)) : (B6 V) (Proc.devRef .tc main_arg18) = (V (Proc.devRef .tc main_arg18)) :=
  (by keep_win rops6 : (B6 V) (Proc.devRef .tc main_arg18) = (B5 V) (Proc.devRef .tc main_arg18)).trans (B5_main_arg18 V)

theorem B7_main_arg18 (V : Valuation τ sig (Elt Ideal)) : (B7 V) (Proc.devRef .tc main_arg18) = (V (Proc.devRef .tc main_arg18)) :=
  (by keep_win rops7 : (B7 V) (Proc.devRef .tc main_arg18) = (B6 V) (Proc.devRef .tc main_arg18)).trans (B6_main_arg18 V)

theorem B8_main_arg18 (V : Valuation τ sig (Elt Ideal)) : (B8 V) (Proc.devRef .tc main_arg18) = (V (Proc.devRef .tc main_arg18)) :=
  (by keep_win rops8 : (B8 V) (Proc.devRef .tc main_arg18) = (B7 V) (Proc.devRef .tc main_arg18)).trans (B7_main_arg18 V)

theorem B9_main_arg18 (V : Valuation τ sig (Elt Ideal)) : (B9 V) (Proc.devRef .tc main_arg18) = (V (Proc.devRef .tc main_arg18)) :=
  (by keep_win rops9 : (B9 V) (Proc.devRef .tc main_arg18) = (B8 V) (Proc.devRef .tc main_arg18)).trans (B8_main_arg18 V)

theorem B10_main_arg18 (V : Valuation τ sig (Elt Ideal)) : (B10 V) (Proc.devRef .tc main_arg18) = (V (Proc.devRef .tc main_arg18)) :=
  (by keep_win rops10 : (B10 V) (Proc.devRef .tc main_arg18) = (B9 V) (Proc.devRef .tc main_arg18)).trans (B9_main_arg18 V)

theorem B5_main_arg19 (V : Valuation τ sig (Elt Ideal)) : (B5 V) (Proc.devRef .tc main_arg19) = (V (Proc.devRef .tc main_arg19)) :=
  (by keep_win rops5 : (B5 V) (Proc.devRef .tc main_arg19) = (B4 V) (Proc.devRef .tc main_arg19)).trans (B4_main_arg19 V)

theorem B6_main_arg19 (V : Valuation τ sig (Elt Ideal)) : (B6 V) (Proc.devRef .tc main_arg19) = (V (Proc.devRef .tc main_arg19)) :=
  (by keep_win rops6 : (B6 V) (Proc.devRef .tc main_arg19) = (B5 V) (Proc.devRef .tc main_arg19)).trans (B5_main_arg19 V)

theorem B7_main_arg19 (V : Valuation τ sig (Elt Ideal)) : (B7 V) (Proc.devRef .tc main_arg19) = (V (Proc.devRef .tc main_arg19)) :=
  (by keep_win rops7 : (B7 V) (Proc.devRef .tc main_arg19) = (B6 V) (Proc.devRef .tc main_arg19)).trans (B6_main_arg19 V)

theorem B8_main_arg19 (V : Valuation τ sig (Elt Ideal)) : (B8 V) (Proc.devRef .tc main_arg19) = (V (Proc.devRef .tc main_arg19)) :=
  (by keep_win rops8 : (B8 V) (Proc.devRef .tc main_arg19) = (B7 V) (Proc.devRef .tc main_arg19)).trans (B7_main_arg19 V)

theorem B9_main_arg19 (V : Valuation τ sig (Elt Ideal)) : (B9 V) (Proc.devRef .tc main_arg19) = (V (Proc.devRef .tc main_arg19)) :=
  (by keep_win rops9 : (B9 V) (Proc.devRef .tc main_arg19) = (B8 V) (Proc.devRef .tc main_arg19)).trans (B8_main_arg19 V)

theorem B10_main_arg19 (V : Valuation τ sig (Elt Ideal)) : (B10 V) (Proc.devRef .tc main_arg19) = (V (Proc.devRef .tc main_arg19)) :=
  (by keep_win rops10 : (B10 V) (Proc.devRef .tc main_arg19) = (B9 V) (Proc.devRef .tc main_arg19)).trans (B9_main_arg19 V)

theorem B5_main_arg20 (V : Valuation τ sig (Elt Ideal)) : (B5 V) (Proc.devRef .tc main_arg20) = (V (Proc.devRef .tc main_arg20)) :=
  (by keep_win rops5 : (B5 V) (Proc.devRef .tc main_arg20) = (B4 V) (Proc.devRef .tc main_arg20)).trans (B4_main_arg20 V)

theorem B6_main_arg20 (V : Valuation τ sig (Elt Ideal)) : (B6 V) (Proc.devRef .tc main_arg20) = (V (Proc.devRef .tc main_arg20)) :=
  (by keep_win rops6 : (B6 V) (Proc.devRef .tc main_arg20) = (B5 V) (Proc.devRef .tc main_arg20)).trans (B5_main_arg20 V)

theorem B7_main_arg20 (V : Valuation τ sig (Elt Ideal)) : (B7 V) (Proc.devRef .tc main_arg20) = (V (Proc.devRef .tc main_arg20)) :=
  (by keep_win rops7 : (B7 V) (Proc.devRef .tc main_arg20) = (B6 V) (Proc.devRef .tc main_arg20)).trans (B6_main_arg20 V)

theorem B8_main_arg20 (V : Valuation τ sig (Elt Ideal)) : (B8 V) (Proc.devRef .tc main_arg20) = (V (Proc.devRef .tc main_arg20)) :=
  (by keep_win rops8 : (B8 V) (Proc.devRef .tc main_arg20) = (B7 V) (Proc.devRef .tc main_arg20)).trans (B7_main_arg20 V)

theorem B9_main_arg20 (V : Valuation τ sig (Elt Ideal)) : (B9 V) (Proc.devRef .tc main_arg20) = (V (Proc.devRef .tc main_arg20)) :=
  (by keep_win rops9 : (B9 V) (Proc.devRef .tc main_arg20) = (B8 V) (Proc.devRef .tc main_arg20)).trans (B8_main_arg20 V)

theorem B10_main_arg20 (V : Valuation τ sig (Elt Ideal)) : (B10 V) (Proc.devRef .tc main_arg20) = (V (Proc.devRef .tc main_arg20)) :=
  (by keep_win rops10 : (B10 V) (Proc.devRef .tc main_arg20) = (B9 V) (Proc.devRef .tc main_arg20)).trans (B9_main_arg20 V)

theorem B5_main_arg21 (V : Valuation τ sig (Elt Ideal)) : (B5 V) (Proc.devRef .tc main_arg21) = (V (Proc.devRef .tc main_arg21)) :=
  (by keep_win rops5 : (B5 V) (Proc.devRef .tc main_arg21) = (B4 V) (Proc.devRef .tc main_arg21)).trans (B4_main_arg21 V)

theorem B6_main_arg21 (V : Valuation τ sig (Elt Ideal)) : (B6 V) (Proc.devRef .tc main_arg21) = (V (Proc.devRef .tc main_arg21)) :=
  (by keep_win rops6 : (B6 V) (Proc.devRef .tc main_arg21) = (B5 V) (Proc.devRef .tc main_arg21)).trans (B5_main_arg21 V)

theorem B7_main_arg21 (V : Valuation τ sig (Elt Ideal)) : (B7 V) (Proc.devRef .tc main_arg21) = (V (Proc.devRef .tc main_arg21)) :=
  (by keep_win rops7 : (B7 V) (Proc.devRef .tc main_arg21) = (B6 V) (Proc.devRef .tc main_arg21)).trans (B6_main_arg21 V)

theorem B8_main_arg21 (V : Valuation τ sig (Elt Ideal)) : (B8 V) (Proc.devRef .tc main_arg21) = (V (Proc.devRef .tc main_arg21)) :=
  (by keep_win rops8 : (B8 V) (Proc.devRef .tc main_arg21) = (B7 V) (Proc.devRef .tc main_arg21)).trans (B7_main_arg21 V)

theorem B9_main_arg21 (V : Valuation τ sig (Elt Ideal)) : (B9 V) (Proc.devRef .tc main_arg21) = (V (Proc.devRef .tc main_arg21)) :=
  (by keep_win rops9 : (B9 V) (Proc.devRef .tc main_arg21) = (B8 V) (Proc.devRef .tc main_arg21)).trans (B8_main_arg21 V)

theorem B10_main_arg21 (V : Valuation τ sig (Elt Ideal)) : (B10 V) (Proc.devRef .tc main_arg21) = (V (Proc.devRef .tc main_arg21)) :=
  (by keep_win rops10 : (B10 V) (Proc.devRef .tc main_arg21) = (B9 V) (Proc.devRef .tc main_arg21)).trans (B9_main_arg21 V)

set_option maxHeartbeats 2000000 in
theorem B11_main_v171 (V : Valuation τ sig (Elt Ideal)) : (B11 V) (Proc.devRef .tc main_v171) = (Cert.ReferenceIdeal.Read.val_main_v171 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) := by
  have e0 := (B10_main_v133 V)
  have e1 := (B10_main_v53 V)
  have e2 := (B10_main_v148 V)
  have e3 := (B10_main_arg18 V)
  have e4 := (B10_main_arg19 V)
  have e5 := (B10_main_arg20 V)
  have e6 := (B10_main_arg21 V)
  show StableHlo.after rops11 (B10 V) (Proc.devRef .tc main_v171) = _
  generalize (B10 V) = W at e0 e1 e2 e3 e4 e5 e6 ⊢
  simp only [rops11]
  after_results_simp
  rw [e0, e1, e2, e3, e4, e5, e6]
  rfl

theorem B12_main_v171 (V : Valuation τ sig (Elt Ideal)) : (B12 V) (Proc.devRef .tc main_v171) = (Cert.ReferenceIdeal.Read.val_main_v171 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops12 : (B12 V) (Proc.devRef .tc main_v171) = (B11 V) (Proc.devRef .tc main_v171)).trans (B11_main_v171 V)

theorem B13_main_v171 (V : Valuation τ sig (Elt Ideal)) : (B13 V) (Proc.devRef .tc main_v171) = (Cert.ReferenceIdeal.Read.val_main_v171 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops13 : (B13 V) (Proc.devRef .tc main_v171) = (B12 V) (Proc.devRef .tc main_v171)).trans (B12_main_v171 V)

theorem B14_main_v171 (V : Valuation τ sig (Elt Ideal)) : (B14 V) (Proc.devRef .tc main_v171) = (Cert.ReferenceIdeal.Read.val_main_v171 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33))) :=
  (by keep_win rops14 : (B14 V) (Proc.devRef .tc main_v171) = (B13 V) (Proc.devRef .tc main_v171)).trans (B13_main_v171 V)

set_option maxHeartbeats 2000000 in
theorem B15_main_v227 (V : Valuation τ sig (Elt Ideal)) : (B15 V) (Proc.devRef .tc main_v227) = (Cert.ReferenceIdeal.Read.val_main_v227 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33)) (V (Proc.devRef .tc main_arg34))) := by
  have e0 := (B14_main_v171 V)
  have e1 := (B14_main_arg34 V)
  show StableHlo.after rops15 (B14 V) (Proc.devRef .tc main_v227) = _
  generalize (B14 V) = W at e0 e1 ⊢
  simp only [rops15]
  after_results_simp
  rw [e0, e1]
  rfl

set_option maxHeartbeats 2000000 in
theorem B16_main_v228 (V : Valuation τ sig (Elt Ideal)) : (B16 V) (Proc.devRef .tc main_v228) = (Cert.ReferenceIdeal.Read.val_main_v228 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg30)) (V (Proc.devRef .tc main_arg31)) (V (Proc.devRef .tc main_arg32)) (V (Proc.devRef .tc main_arg33)) (V (Proc.devRef .tc main_arg34))) := by
  have e0 := (B15_main_v218 V)
  have e1 := (B15_main_v227 V)
  show StableHlo.after rops16 (B15 V) (Proc.devRef .tc main_v228) = _
  generalize (B15 V) = W at e0 e1 ⊢
  simp only [rops16]
  after_results_simp
  rw [e0, e1]
  rfl

theorem B1_main_arg26 (V : Valuation τ sig (Elt Ideal)) : (B1 V) (Proc.devRef .tc main_arg26) = (V (Proc.devRef .tc main_arg26)) :=
  (by keep_win rops1 : (B1 V) (Proc.devRef .tc main_arg26) = V (Proc.devRef .tc main_arg26)).trans (rfl : V (Proc.devRef .tc main_arg26) = V (Proc.devRef .tc main_arg26))

theorem B2_main_arg26 (V : Valuation τ sig (Elt Ideal)) : (B2 V) (Proc.devRef .tc main_arg26) = (V (Proc.devRef .tc main_arg26)) :=
  (by keep_win rops2 : (B2 V) (Proc.devRef .tc main_arg26) = (B1 V) (Proc.devRef .tc main_arg26)).trans (B1_main_arg26 V)

theorem B3_main_arg26 (V : Valuation τ sig (Elt Ideal)) : (B3 V) (Proc.devRef .tc main_arg26) = (V (Proc.devRef .tc main_arg26)) :=
  (by keep_win rops3 : (B3 V) (Proc.devRef .tc main_arg26) = (B2 V) (Proc.devRef .tc main_arg26)).trans (B2_main_arg26 V)

theorem B4_main_arg26 (V : Valuation τ sig (Elt Ideal)) : (B4 V) (Proc.devRef .tc main_arg26) = (V (Proc.devRef .tc main_arg26)) :=
  (by keep_win rops4 : (B4 V) (Proc.devRef .tc main_arg26) = (B3 V) (Proc.devRef .tc main_arg26)).trans (B3_main_arg26 V)

theorem B5_main_arg26 (V : Valuation τ sig (Elt Ideal)) : (B5 V) (Proc.devRef .tc main_arg26) = (V (Proc.devRef .tc main_arg26)) :=
  (by keep_win rops5 : (B5 V) (Proc.devRef .tc main_arg26) = (B4 V) (Proc.devRef .tc main_arg26)).trans (B4_main_arg26 V)

theorem B6_main_arg26 (V : Valuation τ sig (Elt Ideal)) : (B6 V) (Proc.devRef .tc main_arg26) = (V (Proc.devRef .tc main_arg26)) :=
  (by keep_win rops6 : (B6 V) (Proc.devRef .tc main_arg26) = (B5 V) (Proc.devRef .tc main_arg26)).trans (B5_main_arg26 V)

theorem B7_main_arg26 (V : Valuation τ sig (Elt Ideal)) : (B7 V) (Proc.devRef .tc main_arg26) = (V (Proc.devRef .tc main_arg26)) :=
  (by keep_win rops7 : (B7 V) (Proc.devRef .tc main_arg26) = (B6 V) (Proc.devRef .tc main_arg26)).trans (B6_main_arg26 V)

theorem B8_main_arg26 (V : Valuation τ sig (Elt Ideal)) : (B8 V) (Proc.devRef .tc main_arg26) = (V (Proc.devRef .tc main_arg26)) :=
  (by keep_win rops8 : (B8 V) (Proc.devRef .tc main_arg26) = (B7 V) (Proc.devRef .tc main_arg26)).trans (B7_main_arg26 V)

theorem B9_main_arg26 (V : Valuation τ sig (Elt Ideal)) : (B9 V) (Proc.devRef .tc main_arg26) = (V (Proc.devRef .tc main_arg26)) :=
  (by keep_win rops9 : (B9 V) (Proc.devRef .tc main_arg26) = (B8 V) (Proc.devRef .tc main_arg26)).trans (B8_main_arg26 V)

theorem B10_main_arg26 (V : Valuation τ sig (Elt Ideal)) : (B10 V) (Proc.devRef .tc main_arg26) = (V (Proc.devRef .tc main_arg26)) :=
  (by keep_win rops10 : (B10 V) (Proc.devRef .tc main_arg26) = (B9 V) (Proc.devRef .tc main_arg26)).trans (B9_main_arg26 V)

theorem B11_main_arg26 (V : Valuation τ sig (Elt Ideal)) : (B11 V) (Proc.devRef .tc main_arg26) = (V (Proc.devRef .tc main_arg26)) :=
  (by keep_win rops11 : (B11 V) (Proc.devRef .tc main_arg26) = (B10 V) (Proc.devRef .tc main_arg26)).trans (B10_main_arg26 V)

theorem B12_main_arg26 (V : Valuation τ sig (Elt Ideal)) : (B12 V) (Proc.devRef .tc main_arg26) = (V (Proc.devRef .tc main_arg26)) :=
  (by keep_win rops12 : (B12 V) (Proc.devRef .tc main_arg26) = (B11 V) (Proc.devRef .tc main_arg26)).trans (B11_main_arg26 V)

theorem B13_main_arg26 (V : Valuation τ sig (Elt Ideal)) : (B13 V) (Proc.devRef .tc main_arg26) = (V (Proc.devRef .tc main_arg26)) :=
  (by keep_win rops13 : (B13 V) (Proc.devRef .tc main_arg26) = (B12 V) (Proc.devRef .tc main_arg26)).trans (B12_main_arg26 V)

theorem B14_main_arg26 (V : Valuation τ sig (Elt Ideal)) : (B14 V) (Proc.devRef .tc main_arg26) = (V (Proc.devRef .tc main_arg26)) :=
  (by keep_win rops14 : (B14 V) (Proc.devRef .tc main_arg26) = (B13 V) (Proc.devRef .tc main_arg26)).trans (B13_main_arg26 V)

theorem B15_main_arg26 (V : Valuation τ sig (Elt Ideal)) : (B15 V) (Proc.devRef .tc main_arg26) = (V (Proc.devRef .tc main_arg26)) :=
  (by keep_win rops15 : (B15 V) (Proc.devRef .tc main_arg26) = (B14 V) (Proc.devRef .tc main_arg26)).trans (B14_main_arg26 V)

theorem B16_main_arg26 (V : Valuation τ sig (Elt Ideal)) : (B16 V) (Proc.devRef .tc main_arg26) = (V (Proc.devRef .tc main_arg26)) :=
  (by keep_win rops16 : (B16 V) (Proc.devRef .tc main_arg26) = (B15 V) (Proc.devRef .tc main_arg26)).trans (B15_main_arg26 V)

theorem B1_main_arg27 (V : Valuation τ sig (Elt Ideal)) : (B1 V) (Proc.devRef .tc main_arg27) = (V (Proc.devRef .tc main_arg27)) :=
  (by keep_win rops1 : (B1 V) (Proc.devRef .tc main_arg27) = V (Proc.devRef .tc main_arg27)).trans (rfl : V (Proc.devRef .tc main_arg27) = V (Proc.devRef .tc main_arg27))

theorem B2_main_arg27 (V : Valuation τ sig (Elt Ideal)) : (B2 V) (Proc.devRef .tc main_arg27) = (V (Proc.devRef .tc main_arg27)) :=
  (by keep_win rops2 : (B2 V) (Proc.devRef .tc main_arg27) = (B1 V) (Proc.devRef .tc main_arg27)).trans (B1_main_arg27 V)

theorem B3_main_arg27 (V : Valuation τ sig (Elt Ideal)) : (B3 V) (Proc.devRef .tc main_arg27) = (V (Proc.devRef .tc main_arg27)) :=
  (by keep_win rops3 : (B3 V) (Proc.devRef .tc main_arg27) = (B2 V) (Proc.devRef .tc main_arg27)).trans (B2_main_arg27 V)

theorem B4_main_arg27 (V : Valuation τ sig (Elt Ideal)) : (B4 V) (Proc.devRef .tc main_arg27) = (V (Proc.devRef .tc main_arg27)) :=
  (by keep_win rops4 : (B4 V) (Proc.devRef .tc main_arg27) = (B3 V) (Proc.devRef .tc main_arg27)).trans (B3_main_arg27 V)

theorem B5_main_arg27 (V : Valuation τ sig (Elt Ideal)) : (B5 V) (Proc.devRef .tc main_arg27) = (V (Proc.devRef .tc main_arg27)) :=
  (by keep_win rops5 : (B5 V) (Proc.devRef .tc main_arg27) = (B4 V) (Proc.devRef .tc main_arg27)).trans (B4_main_arg27 V)

theorem B6_main_arg27 (V : Valuation τ sig (Elt Ideal)) : (B6 V) (Proc.devRef .tc main_arg27) = (V (Proc.devRef .tc main_arg27)) :=
  (by keep_win rops6 : (B6 V) (Proc.devRef .tc main_arg27) = (B5 V) (Proc.devRef .tc main_arg27)).trans (B5_main_arg27 V)

theorem B7_main_arg27 (V : Valuation τ sig (Elt Ideal)) : (B7 V) (Proc.devRef .tc main_arg27) = (V (Proc.devRef .tc main_arg27)) :=
  (by keep_win rops7 : (B7 V) (Proc.devRef .tc main_arg27) = (B6 V) (Proc.devRef .tc main_arg27)).trans (B6_main_arg27 V)

theorem B8_main_arg27 (V : Valuation τ sig (Elt Ideal)) : (B8 V) (Proc.devRef .tc main_arg27) = (V (Proc.devRef .tc main_arg27)) :=
  (by keep_win rops8 : (B8 V) (Proc.devRef .tc main_arg27) = (B7 V) (Proc.devRef .tc main_arg27)).trans (B7_main_arg27 V)

theorem B9_main_arg27 (V : Valuation τ sig (Elt Ideal)) : (B9 V) (Proc.devRef .tc main_arg27) = (V (Proc.devRef .tc main_arg27)) :=
  (by keep_win rops9 : (B9 V) (Proc.devRef .tc main_arg27) = (B8 V) (Proc.devRef .tc main_arg27)).trans (B8_main_arg27 V)

theorem B10_main_arg27 (V : Valuation τ sig (Elt Ideal)) : (B10 V) (Proc.devRef .tc main_arg27) = (V (Proc.devRef .tc main_arg27)) :=
  (by keep_win rops10 : (B10 V) (Proc.devRef .tc main_arg27) = (B9 V) (Proc.devRef .tc main_arg27)).trans (B9_main_arg27 V)

theorem B11_main_arg27 (V : Valuation τ sig (Elt Ideal)) : (B11 V) (Proc.devRef .tc main_arg27) = (V (Proc.devRef .tc main_arg27)) :=
  (by keep_win rops11 : (B11 V) (Proc.devRef .tc main_arg27) = (B10 V) (Proc.devRef .tc main_arg27)).trans (B10_main_arg27 V)

theorem B12_main_arg27 (V : Valuation τ sig (Elt Ideal)) : (B12 V) (Proc.devRef .tc main_arg27) = (V (Proc.devRef .tc main_arg27)) :=
  (by keep_win rops12 : (B12 V) (Proc.devRef .tc main_arg27) = (B11 V) (Proc.devRef .tc main_arg27)).trans (B11_main_arg27 V)

theorem B13_main_arg27 (V : Valuation τ sig (Elt Ideal)) : (B13 V) (Proc.devRef .tc main_arg27) = (V (Proc.devRef .tc main_arg27)) :=
  (by keep_win rops13 : (B13 V) (Proc.devRef .tc main_arg27) = (B12 V) (Proc.devRef .tc main_arg27)).trans (B12_main_arg27 V)

theorem B14_main_arg27 (V : Valuation τ sig (Elt Ideal)) : (B14 V) (Proc.devRef .tc main_arg27) = (V (Proc.devRef .tc main_arg27)) :=
  (by keep_win rops14 : (B14 V) (Proc.devRef .tc main_arg27) = (B13 V) (Proc.devRef .tc main_arg27)).trans (B13_main_arg27 V)

theorem B15_main_arg27 (V : Valuation τ sig (Elt Ideal)) : (B15 V) (Proc.devRef .tc main_arg27) = (V (Proc.devRef .tc main_arg27)) :=
  (by keep_win rops15 : (B15 V) (Proc.devRef .tc main_arg27) = (B14 V) (Proc.devRef .tc main_arg27)).trans (B14_main_arg27 V)

theorem B16_main_arg27 (V : Valuation τ sig (Elt Ideal)) : (B16 V) (Proc.devRef .tc main_arg27) = (V (Proc.devRef .tc main_arg27)) :=
  (by keep_win rops16 : (B16 V) (Proc.devRef .tc main_arg27) = (B15 V) (Proc.devRef .tc main_arg27)).trans (B15_main_arg27 V)

theorem B1_main_arg28 (V : Valuation τ sig (Elt Ideal)) : (B1 V) (Proc.devRef .tc main_arg28) = (V (Proc.devRef .tc main_arg28)) :=
  (by keep_win rops1 : (B1 V) (Proc.devRef .tc main_arg28) = V (Proc.devRef .tc main_arg28)).trans (rfl : V (Proc.devRef .tc main_arg28) = V (Proc.devRef .tc main_arg28))

theorem B2_main_arg28 (V : Valuation τ sig (Elt Ideal)) : (B2 V) (Proc.devRef .tc main_arg28) = (V (Proc.devRef .tc main_arg28)) :=
  (by keep_win rops2 : (B2 V) (Proc.devRef .tc main_arg28) = (B1 V) (Proc.devRef .tc main_arg28)).trans (B1_main_arg28 V)

theorem B3_main_arg28 (V : Valuation τ sig (Elt Ideal)) : (B3 V) (Proc.devRef .tc main_arg28) = (V (Proc.devRef .tc main_arg28)) :=
  (by keep_win rops3 : (B3 V) (Proc.devRef .tc main_arg28) = (B2 V) (Proc.devRef .tc main_arg28)).trans (B2_main_arg28 V)

theorem B4_main_arg28 (V : Valuation τ sig (Elt Ideal)) : (B4 V) (Proc.devRef .tc main_arg28) = (V (Proc.devRef .tc main_arg28)) :=
  (by keep_win rops4 : (B4 V) (Proc.devRef .tc main_arg28) = (B3 V) (Proc.devRef .tc main_arg28)).trans (B3_main_arg28 V)

theorem B5_main_arg28 (V : Valuation τ sig (Elt Ideal)) : (B5 V) (Proc.devRef .tc main_arg28) = (V (Proc.devRef .tc main_arg28)) :=
  (by keep_win rops5 : (B5 V) (Proc.devRef .tc main_arg28) = (B4 V) (Proc.devRef .tc main_arg28)).trans (B4_main_arg28 V)

theorem B6_main_arg28 (V : Valuation τ sig (Elt Ideal)) : (B6 V) (Proc.devRef .tc main_arg28) = (V (Proc.devRef .tc main_arg28)) :=
  (by keep_win rops6 : (B6 V) (Proc.devRef .tc main_arg28) = (B5 V) (Proc.devRef .tc main_arg28)).trans (B5_main_arg28 V)

theorem B7_main_arg28 (V : Valuation τ sig (Elt Ideal)) : (B7 V) (Proc.devRef .tc main_arg28) = (V (Proc.devRef .tc main_arg28)) :=
  (by keep_win rops7 : (B7 V) (Proc.devRef .tc main_arg28) = (B6 V) (Proc.devRef .tc main_arg28)).trans (B6_main_arg28 V)

theorem B8_main_arg28 (V : Valuation τ sig (Elt Ideal)) : (B8 V) (Proc.devRef .tc main_arg28) = (V (Proc.devRef .tc main_arg28)) :=
  (by keep_win rops8 : (B8 V) (Proc.devRef .tc main_arg28) = (B7 V) (Proc.devRef .tc main_arg28)).trans (B7_main_arg28 V)

theorem B9_main_arg28 (V : Valuation τ sig (Elt Ideal)) : (B9 V) (Proc.devRef .tc main_arg28) = (V (Proc.devRef .tc main_arg28)) :=
  (by keep_win rops9 : (B9 V) (Proc.devRef .tc main_arg28) = (B8 V) (Proc.devRef .tc main_arg28)).trans (B8_main_arg28 V)

theorem B10_main_arg28 (V : Valuation τ sig (Elt Ideal)) : (B10 V) (Proc.devRef .tc main_arg28) = (V (Proc.devRef .tc main_arg28)) :=
  (by keep_win rops10 : (B10 V) (Proc.devRef .tc main_arg28) = (B9 V) (Proc.devRef .tc main_arg28)).trans (B9_main_arg28 V)

theorem B11_main_arg28 (V : Valuation τ sig (Elt Ideal)) : (B11 V) (Proc.devRef .tc main_arg28) = (V (Proc.devRef .tc main_arg28)) :=
  (by keep_win rops11 : (B11 V) (Proc.devRef .tc main_arg28) = (B10 V) (Proc.devRef .tc main_arg28)).trans (B10_main_arg28 V)

theorem B12_main_arg28 (V : Valuation τ sig (Elt Ideal)) : (B12 V) (Proc.devRef .tc main_arg28) = (V (Proc.devRef .tc main_arg28)) :=
  (by keep_win rops12 : (B12 V) (Proc.devRef .tc main_arg28) = (B11 V) (Proc.devRef .tc main_arg28)).trans (B11_main_arg28 V)

theorem B13_main_arg28 (V : Valuation τ sig (Elt Ideal)) : (B13 V) (Proc.devRef .tc main_arg28) = (V (Proc.devRef .tc main_arg28)) :=
  (by keep_win rops13 : (B13 V) (Proc.devRef .tc main_arg28) = (B12 V) (Proc.devRef .tc main_arg28)).trans (B12_main_arg28 V)

theorem B14_main_arg28 (V : Valuation τ sig (Elt Ideal)) : (B14 V) (Proc.devRef .tc main_arg28) = (V (Proc.devRef .tc main_arg28)) :=
  (by keep_win rops14 : (B14 V) (Proc.devRef .tc main_arg28) = (B13 V) (Proc.devRef .tc main_arg28)).trans (B13_main_arg28 V)

theorem B15_main_arg28 (V : Valuation τ sig (Elt Ideal)) : (B15 V) (Proc.devRef .tc main_arg28) = (V (Proc.devRef .tc main_arg28)) :=
  (by keep_win rops15 : (B15 V) (Proc.devRef .tc main_arg28) = (B14 V) (Proc.devRef .tc main_arg28)).trans (B14_main_arg28 V)

theorem B16_main_arg28 (V : Valuation τ sig (Elt Ideal)) : (B16 V) (Proc.devRef .tc main_arg28) = (V (Proc.devRef .tc main_arg28)) :=
  (by keep_win rops16 : (B16 V) (Proc.devRef .tc main_arg28) = (B15 V) (Proc.devRef .tc main_arg28)).trans (B15_main_arg28 V)

theorem B1_main_arg29 (V : Valuation τ sig (Elt Ideal)) : (B1 V) (Proc.devRef .tc main_arg29) = (V (Proc.devRef .tc main_arg29)) :=
  (by keep_win rops1 : (B1 V) (Proc.devRef .tc main_arg29) = V (Proc.devRef .tc main_arg29)).trans (rfl : V (Proc.devRef .tc main_arg29) = V (Proc.devRef .tc main_arg29))

theorem B2_main_arg29 (V : Valuation τ sig (Elt Ideal)) : (B2 V) (Proc.devRef .tc main_arg29) = (V (Proc.devRef .tc main_arg29)) :=
  (by keep_win rops2 : (B2 V) (Proc.devRef .tc main_arg29) = (B1 V) (Proc.devRef .tc main_arg29)).trans (B1_main_arg29 V)

theorem B3_main_arg29 (V : Valuation τ sig (Elt Ideal)) : (B3 V) (Proc.devRef .tc main_arg29) = (V (Proc.devRef .tc main_arg29)) :=
  (by keep_win rops3 : (B3 V) (Proc.devRef .tc main_arg29) = (B2 V) (Proc.devRef .tc main_arg29)).trans (B2_main_arg29 V)

theorem B4_main_arg29 (V : Valuation τ sig (Elt Ideal)) : (B4 V) (Proc.devRef .tc main_arg29) = (V (Proc.devRef .tc main_arg29)) :=
  (by keep_win rops4 : (B4 V) (Proc.devRef .tc main_arg29) = (B3 V) (Proc.devRef .tc main_arg29)).trans (B3_main_arg29 V)

theorem B5_main_arg29 (V : Valuation τ sig (Elt Ideal)) : (B5 V) (Proc.devRef .tc main_arg29) = (V (Proc.devRef .tc main_arg29)) :=
  (by keep_win rops5 : (B5 V) (Proc.devRef .tc main_arg29) = (B4 V) (Proc.devRef .tc main_arg29)).trans (B4_main_arg29 V)

theorem B6_main_arg29 (V : Valuation τ sig (Elt Ideal)) : (B6 V) (Proc.devRef .tc main_arg29) = (V (Proc.devRef .tc main_arg29)) :=
  (by keep_win rops6 : (B6 V) (Proc.devRef .tc main_arg29) = (B5 V) (Proc.devRef .tc main_arg29)).trans (B5_main_arg29 V)

theorem B7_main_arg29 (V : Valuation τ sig (Elt Ideal)) : (B7 V) (Proc.devRef .tc main_arg29) = (V (Proc.devRef .tc main_arg29)) :=
  (by keep_win rops7 : (B7 V) (Proc.devRef .tc main_arg29) = (B6 V) (Proc.devRef .tc main_arg29)).trans (B6_main_arg29 V)

theorem B8_main_arg29 (V : Valuation τ sig (Elt Ideal)) : (B8 V) (Proc.devRef .tc main_arg29) = (V (Proc.devRef .tc main_arg29)) :=
  (by keep_win rops8 : (B8 V) (Proc.devRef .tc main_arg29) = (B7 V) (Proc.devRef .tc main_arg29)).trans (B7_main_arg29 V)

theorem B9_main_arg29 (V : Valuation τ sig (Elt Ideal)) : (B9 V) (Proc.devRef .tc main_arg29) = (V (Proc.devRef .tc main_arg29)) :=
  (by keep_win rops9 : (B9 V) (Proc.devRef .tc main_arg29) = (B8 V) (Proc.devRef .tc main_arg29)).trans (B8_main_arg29 V)

theorem B10_main_arg29 (V : Valuation τ sig (Elt Ideal)) : (B10 V) (Proc.devRef .tc main_arg29) = (V (Proc.devRef .tc main_arg29)) :=
  (by keep_win rops10 : (B10 V) (Proc.devRef .tc main_arg29) = (B9 V) (Proc.devRef .tc main_arg29)).trans (B9_main_arg29 V)

theorem B11_main_arg29 (V : Valuation τ sig (Elt Ideal)) : (B11 V) (Proc.devRef .tc main_arg29) = (V (Proc.devRef .tc main_arg29)) :=
  (by keep_win rops11 : (B11 V) (Proc.devRef .tc main_arg29) = (B10 V) (Proc.devRef .tc main_arg29)).trans (B10_main_arg29 V)

theorem B12_main_arg29 (V : Valuation τ sig (Elt Ideal)) : (B12 V) (Proc.devRef .tc main_arg29) = (V (Proc.devRef .tc main_arg29)) :=
  (by keep_win rops12 : (B12 V) (Proc.devRef .tc main_arg29) = (B11 V) (Proc.devRef .tc main_arg29)).trans (B11_main_arg29 V)

theorem B13_main_arg29 (V : Valuation τ sig (Elt Ideal)) : (B13 V) (Proc.devRef .tc main_arg29) = (V (Proc.devRef .tc main_arg29)) :=
  (by keep_win rops13 : (B13 V) (Proc.devRef .tc main_arg29) = (B12 V) (Proc.devRef .tc main_arg29)).trans (B12_main_arg29 V)

theorem B14_main_arg29 (V : Valuation τ sig (Elt Ideal)) : (B14 V) (Proc.devRef .tc main_arg29) = (V (Proc.devRef .tc main_arg29)) :=
  (by keep_win rops14 : (B14 V) (Proc.devRef .tc main_arg29) = (B13 V) (Proc.devRef .tc main_arg29)).trans (B13_main_arg29 V)

theorem B15_main_arg29 (V : Valuation τ sig (Elt Ideal)) : (B15 V) (Proc.devRef .tc main_arg29) = (V (Proc.devRef .tc main_arg29)) :=
  (by keep_win rops15 : (B15 V) (Proc.devRef .tc main_arg29) = (B14 V) (Proc.devRef .tc main_arg29)).trans (B14_main_arg29 V)

theorem B16_main_arg29 (V : Valuation τ sig (Elt Ideal)) : (B16 V) (Proc.devRef .tc main_arg29) = (V (Proc.devRef .tc main_arg29)) :=
  (by keep_win rops16 : (B16 V) (Proc.devRef .tc main_arg29) = (B15 V) (Proc.devRef .tc main_arg29)).trans (B15_main_arg29 V)

set_option maxHeartbeats 2000000 in
theorem B17_main_v238 (V : Valuation τ sig (Elt Ideal)) : (B17 V) (Proc.devRef .tc main_v238) = (Cert.ReferenceIdeal.Read.val_main_v238 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34))) := by
  have e0 := (B16_main_v228 V)
  have e1 := (B16_main_arg26 V)
  have e2 := (B16_main_arg27 V)
  have e3 := (B16_main_arg28 V)
  have e4 := (B16_main_arg29 V)
  show StableHlo.after rops17 (B16 V) (Proc.devRef .tc main_v238) = _
  generalize (B16 V) = W at e0 e1 e2 e3 e4 ⊢
  simp only [rops17]
  after_results_simp
  rw [e0, e1, e2, e3, e4]
  rfl

/-- The result buffer after all the operations is the last stage of the argument arrays. -/
theorem after_ops_result (V : Valuation τ sig (Elt Ideal)) :
    StableHlo.after (ops (F := Ideal)) V (Proc.devRef .tc main_v238) = (Cert.ReferenceIdeal.Read.val_main_v238 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34))) := by
  rw [ops_windows]
  simp only [after_append']
  exact (B17_main_v238 V)

theorem B1_main_arg0 (V : Valuation τ sig (Elt Ideal)) : (B1 V) (Proc.devRef .tc main_arg0) = (V (Proc.devRef .tc main_arg0)) :=
  (by keep_win rops1 : (B1 V) (Proc.devRef .tc main_arg0) = V (Proc.devRef .tc main_arg0)).trans (rfl : V (Proc.devRef .tc main_arg0) = V (Proc.devRef .tc main_arg0))

theorem B2_main_arg0 (V : Valuation τ sig (Elt Ideal)) : (B2 V) (Proc.devRef .tc main_arg0) = (V (Proc.devRef .tc main_arg0)) :=
  (by keep_win rops2 : (B2 V) (Proc.devRef .tc main_arg0) = (B1 V) (Proc.devRef .tc main_arg0)).trans (B1_main_arg0 V)

theorem B3_main_arg0 (V : Valuation τ sig (Elt Ideal)) : (B3 V) (Proc.devRef .tc main_arg0) = (V (Proc.devRef .tc main_arg0)) :=
  (by keep_win rops3 : (B3 V) (Proc.devRef .tc main_arg0) = (B2 V) (Proc.devRef .tc main_arg0)).trans (B2_main_arg0 V)

theorem B4_main_arg0 (V : Valuation τ sig (Elt Ideal)) : (B4 V) (Proc.devRef .tc main_arg0) = (V (Proc.devRef .tc main_arg0)) :=
  (by keep_win rops4 : (B4 V) (Proc.devRef .tc main_arg0) = (B3 V) (Proc.devRef .tc main_arg0)).trans (B3_main_arg0 V)

theorem B5_main_arg0 (V : Valuation τ sig (Elt Ideal)) : (B5 V) (Proc.devRef .tc main_arg0) = (V (Proc.devRef .tc main_arg0)) :=
  (by keep_win rops5 : (B5 V) (Proc.devRef .tc main_arg0) = (B4 V) (Proc.devRef .tc main_arg0)).trans (B4_main_arg0 V)

theorem B6_main_arg0 (V : Valuation τ sig (Elt Ideal)) : (B6 V) (Proc.devRef .tc main_arg0) = (V (Proc.devRef .tc main_arg0)) :=
  (by keep_win rops6 : (B6 V) (Proc.devRef .tc main_arg0) = (B5 V) (Proc.devRef .tc main_arg0)).trans (B5_main_arg0 V)

theorem B7_main_arg0 (V : Valuation τ sig (Elt Ideal)) : (B7 V) (Proc.devRef .tc main_arg0) = (V (Proc.devRef .tc main_arg0)) :=
  (by keep_win rops7 : (B7 V) (Proc.devRef .tc main_arg0) = (B6 V) (Proc.devRef .tc main_arg0)).trans (B6_main_arg0 V)

theorem B8_main_arg0 (V : Valuation τ sig (Elt Ideal)) : (B8 V) (Proc.devRef .tc main_arg0) = (V (Proc.devRef .tc main_arg0)) :=
  (by keep_win rops8 : (B8 V) (Proc.devRef .tc main_arg0) = (B7 V) (Proc.devRef .tc main_arg0)).trans (B7_main_arg0 V)

theorem B9_main_arg0 (V : Valuation τ sig (Elt Ideal)) : (B9 V) (Proc.devRef .tc main_arg0) = (V (Proc.devRef .tc main_arg0)) :=
  (by keep_win rops9 : (B9 V) (Proc.devRef .tc main_arg0) = (B8 V) (Proc.devRef .tc main_arg0)).trans (B8_main_arg0 V)

theorem B10_main_arg0 (V : Valuation τ sig (Elt Ideal)) : (B10 V) (Proc.devRef .tc main_arg0) = (V (Proc.devRef .tc main_arg0)) :=
  (by keep_win rops10 : (B10 V) (Proc.devRef .tc main_arg0) = (B9 V) (Proc.devRef .tc main_arg0)).trans (B9_main_arg0 V)

theorem B11_main_arg0 (V : Valuation τ sig (Elt Ideal)) : (B11 V) (Proc.devRef .tc main_arg0) = (V (Proc.devRef .tc main_arg0)) :=
  (by keep_win rops11 : (B11 V) (Proc.devRef .tc main_arg0) = (B10 V) (Proc.devRef .tc main_arg0)).trans (B10_main_arg0 V)

theorem B12_main_arg0 (V : Valuation τ sig (Elt Ideal)) : (B12 V) (Proc.devRef .tc main_arg0) = (V (Proc.devRef .tc main_arg0)) :=
  (by keep_win rops12 : (B12 V) (Proc.devRef .tc main_arg0) = (B11 V) (Proc.devRef .tc main_arg0)).trans (B11_main_arg0 V)

theorem B13_main_arg0 (V : Valuation τ sig (Elt Ideal)) : (B13 V) (Proc.devRef .tc main_arg0) = (V (Proc.devRef .tc main_arg0)) :=
  (by keep_win rops13 : (B13 V) (Proc.devRef .tc main_arg0) = (B12 V) (Proc.devRef .tc main_arg0)).trans (B12_main_arg0 V)

theorem B14_main_arg0 (V : Valuation τ sig (Elt Ideal)) : (B14 V) (Proc.devRef .tc main_arg0) = (V (Proc.devRef .tc main_arg0)) :=
  (by keep_win rops14 : (B14 V) (Proc.devRef .tc main_arg0) = (B13 V) (Proc.devRef .tc main_arg0)).trans (B13_main_arg0 V)

theorem B15_main_arg0 (V : Valuation τ sig (Elt Ideal)) : (B15 V) (Proc.devRef .tc main_arg0) = (V (Proc.devRef .tc main_arg0)) :=
  (by keep_win rops15 : (B15 V) (Proc.devRef .tc main_arg0) = (B14 V) (Proc.devRef .tc main_arg0)).trans (B14_main_arg0 V)

theorem B16_main_arg0 (V : Valuation τ sig (Elt Ideal)) : (B16 V) (Proc.devRef .tc main_arg0) = (V (Proc.devRef .tc main_arg0)) :=
  (by keep_win rops16 : (B16 V) (Proc.devRef .tc main_arg0) = (B15 V) (Proc.devRef .tc main_arg0)).trans (B15_main_arg0 V)

theorem B17_main_arg0 (V : Valuation τ sig (Elt Ideal)) : (B17 V) (Proc.devRef .tc main_arg0) = (V (Proc.devRef .tc main_arg0)) :=
  (by keep_win rops17 : (B17 V) (Proc.devRef .tc main_arg0) = (B16 V) (Proc.devRef .tc main_arg0)).trans (B16_main_arg0 V)

theorem after_ops_arg0 (V : Valuation τ sig (Elt Ideal)) :
    StableHlo.after (ops (F := Ideal)) V (Proc.devRef .tc main_arg0) = V (Proc.devRef .tc main_arg0) := by
  rw [ops_windows]
  simp only [after_append']
  exact (B17_main_arg0 V)

theorem B1_main_arg1 (V : Valuation τ sig (Elt Ideal)) : (B1 V) (Proc.devRef .tc main_arg1) = (V (Proc.devRef .tc main_arg1)) :=
  (by keep_win rops1 : (B1 V) (Proc.devRef .tc main_arg1) = V (Proc.devRef .tc main_arg1)).trans (rfl : V (Proc.devRef .tc main_arg1) = V (Proc.devRef .tc main_arg1))

theorem B2_main_arg1 (V : Valuation τ sig (Elt Ideal)) : (B2 V) (Proc.devRef .tc main_arg1) = (V (Proc.devRef .tc main_arg1)) :=
  (by keep_win rops2 : (B2 V) (Proc.devRef .tc main_arg1) = (B1 V) (Proc.devRef .tc main_arg1)).trans (B1_main_arg1 V)

theorem B3_main_arg1 (V : Valuation τ sig (Elt Ideal)) : (B3 V) (Proc.devRef .tc main_arg1) = (V (Proc.devRef .tc main_arg1)) :=
  (by keep_win rops3 : (B3 V) (Proc.devRef .tc main_arg1) = (B2 V) (Proc.devRef .tc main_arg1)).trans (B2_main_arg1 V)

theorem B4_main_arg1 (V : Valuation τ sig (Elt Ideal)) : (B4 V) (Proc.devRef .tc main_arg1) = (V (Proc.devRef .tc main_arg1)) :=
  (by keep_win rops4 : (B4 V) (Proc.devRef .tc main_arg1) = (B3 V) (Proc.devRef .tc main_arg1)).trans (B3_main_arg1 V)

theorem B5_main_arg1 (V : Valuation τ sig (Elt Ideal)) : (B5 V) (Proc.devRef .tc main_arg1) = (V (Proc.devRef .tc main_arg1)) :=
  (by keep_win rops5 : (B5 V) (Proc.devRef .tc main_arg1) = (B4 V) (Proc.devRef .tc main_arg1)).trans (B4_main_arg1 V)

theorem B6_main_arg1 (V : Valuation τ sig (Elt Ideal)) : (B6 V) (Proc.devRef .tc main_arg1) = (V (Proc.devRef .tc main_arg1)) :=
  (by keep_win rops6 : (B6 V) (Proc.devRef .tc main_arg1) = (B5 V) (Proc.devRef .tc main_arg1)).trans (B5_main_arg1 V)

theorem B7_main_arg1 (V : Valuation τ sig (Elt Ideal)) : (B7 V) (Proc.devRef .tc main_arg1) = (V (Proc.devRef .tc main_arg1)) :=
  (by keep_win rops7 : (B7 V) (Proc.devRef .tc main_arg1) = (B6 V) (Proc.devRef .tc main_arg1)).trans (B6_main_arg1 V)

theorem B8_main_arg1 (V : Valuation τ sig (Elt Ideal)) : (B8 V) (Proc.devRef .tc main_arg1) = (V (Proc.devRef .tc main_arg1)) :=
  (by keep_win rops8 : (B8 V) (Proc.devRef .tc main_arg1) = (B7 V) (Proc.devRef .tc main_arg1)).trans (B7_main_arg1 V)

theorem B9_main_arg1 (V : Valuation τ sig (Elt Ideal)) : (B9 V) (Proc.devRef .tc main_arg1) = (V (Proc.devRef .tc main_arg1)) :=
  (by keep_win rops9 : (B9 V) (Proc.devRef .tc main_arg1) = (B8 V) (Proc.devRef .tc main_arg1)).trans (B8_main_arg1 V)

theorem B10_main_arg1 (V : Valuation τ sig (Elt Ideal)) : (B10 V) (Proc.devRef .tc main_arg1) = (V (Proc.devRef .tc main_arg1)) :=
  (by keep_win rops10 : (B10 V) (Proc.devRef .tc main_arg1) = (B9 V) (Proc.devRef .tc main_arg1)).trans (B9_main_arg1 V)

theorem B11_main_arg1 (V : Valuation τ sig (Elt Ideal)) : (B11 V) (Proc.devRef .tc main_arg1) = (V (Proc.devRef .tc main_arg1)) :=
  (by keep_win rops11 : (B11 V) (Proc.devRef .tc main_arg1) = (B10 V) (Proc.devRef .tc main_arg1)).trans (B10_main_arg1 V)

theorem B12_main_arg1 (V : Valuation τ sig (Elt Ideal)) : (B12 V) (Proc.devRef .tc main_arg1) = (V (Proc.devRef .tc main_arg1)) :=
  (by keep_win rops12 : (B12 V) (Proc.devRef .tc main_arg1) = (B11 V) (Proc.devRef .tc main_arg1)).trans (B11_main_arg1 V)

theorem B13_main_arg1 (V : Valuation τ sig (Elt Ideal)) : (B13 V) (Proc.devRef .tc main_arg1) = (V (Proc.devRef .tc main_arg1)) :=
  (by keep_win rops13 : (B13 V) (Proc.devRef .tc main_arg1) = (B12 V) (Proc.devRef .tc main_arg1)).trans (B12_main_arg1 V)

theorem B14_main_arg1 (V : Valuation τ sig (Elt Ideal)) : (B14 V) (Proc.devRef .tc main_arg1) = (V (Proc.devRef .tc main_arg1)) :=
  (by keep_win rops14 : (B14 V) (Proc.devRef .tc main_arg1) = (B13 V) (Proc.devRef .tc main_arg1)).trans (B13_main_arg1 V)

theorem B15_main_arg1 (V : Valuation τ sig (Elt Ideal)) : (B15 V) (Proc.devRef .tc main_arg1) = (V (Proc.devRef .tc main_arg1)) :=
  (by keep_win rops15 : (B15 V) (Proc.devRef .tc main_arg1) = (B14 V) (Proc.devRef .tc main_arg1)).trans (B14_main_arg1 V)

theorem B16_main_arg1 (V : Valuation τ sig (Elt Ideal)) : (B16 V) (Proc.devRef .tc main_arg1) = (V (Proc.devRef .tc main_arg1)) :=
  (by keep_win rops16 : (B16 V) (Proc.devRef .tc main_arg1) = (B15 V) (Proc.devRef .tc main_arg1)).trans (B15_main_arg1 V)

theorem B17_main_arg1 (V : Valuation τ sig (Elt Ideal)) : (B17 V) (Proc.devRef .tc main_arg1) = (V (Proc.devRef .tc main_arg1)) :=
  (by keep_win rops17 : (B17 V) (Proc.devRef .tc main_arg1) = (B16 V) (Proc.devRef .tc main_arg1)).trans (B16_main_arg1 V)

theorem after_ops_arg1 (V : Valuation τ sig (Elt Ideal)) :
    StableHlo.after (ops (F := Ideal)) V (Proc.devRef .tc main_arg1) = V (Proc.devRef .tc main_arg1) := by
  rw [ops_windows]
  simp only [after_append']
  exact (B17_main_arg1 V)

theorem B1_main_arg2 (V : Valuation τ sig (Elt Ideal)) : (B1 V) (Proc.devRef .tc main_arg2) = (V (Proc.devRef .tc main_arg2)) :=
  (by keep_win rops1 : (B1 V) (Proc.devRef .tc main_arg2) = V (Proc.devRef .tc main_arg2)).trans (rfl : V (Proc.devRef .tc main_arg2) = V (Proc.devRef .tc main_arg2))

theorem B2_main_arg2 (V : Valuation τ sig (Elt Ideal)) : (B2 V) (Proc.devRef .tc main_arg2) = (V (Proc.devRef .tc main_arg2)) :=
  (by keep_win rops2 : (B2 V) (Proc.devRef .tc main_arg2) = (B1 V) (Proc.devRef .tc main_arg2)).trans (B1_main_arg2 V)

theorem B3_main_arg2 (V : Valuation τ sig (Elt Ideal)) : (B3 V) (Proc.devRef .tc main_arg2) = (V (Proc.devRef .tc main_arg2)) :=
  (by keep_win rops3 : (B3 V) (Proc.devRef .tc main_arg2) = (B2 V) (Proc.devRef .tc main_arg2)).trans (B2_main_arg2 V)

theorem B4_main_arg2 (V : Valuation τ sig (Elt Ideal)) : (B4 V) (Proc.devRef .tc main_arg2) = (V (Proc.devRef .tc main_arg2)) :=
  (by keep_win rops4 : (B4 V) (Proc.devRef .tc main_arg2) = (B3 V) (Proc.devRef .tc main_arg2)).trans (B3_main_arg2 V)

theorem B5_main_arg2 (V : Valuation τ sig (Elt Ideal)) : (B5 V) (Proc.devRef .tc main_arg2) = (V (Proc.devRef .tc main_arg2)) :=
  (by keep_win rops5 : (B5 V) (Proc.devRef .tc main_arg2) = (B4 V) (Proc.devRef .tc main_arg2)).trans (B4_main_arg2 V)

theorem B6_main_arg2 (V : Valuation τ sig (Elt Ideal)) : (B6 V) (Proc.devRef .tc main_arg2) = (V (Proc.devRef .tc main_arg2)) :=
  (by keep_win rops6 : (B6 V) (Proc.devRef .tc main_arg2) = (B5 V) (Proc.devRef .tc main_arg2)).trans (B5_main_arg2 V)

theorem B7_main_arg2 (V : Valuation τ sig (Elt Ideal)) : (B7 V) (Proc.devRef .tc main_arg2) = (V (Proc.devRef .tc main_arg2)) :=
  (by keep_win rops7 : (B7 V) (Proc.devRef .tc main_arg2) = (B6 V) (Proc.devRef .tc main_arg2)).trans (B6_main_arg2 V)

theorem B8_main_arg2 (V : Valuation τ sig (Elt Ideal)) : (B8 V) (Proc.devRef .tc main_arg2) = (V (Proc.devRef .tc main_arg2)) :=
  (by keep_win rops8 : (B8 V) (Proc.devRef .tc main_arg2) = (B7 V) (Proc.devRef .tc main_arg2)).trans (B7_main_arg2 V)

theorem B9_main_arg2 (V : Valuation τ sig (Elt Ideal)) : (B9 V) (Proc.devRef .tc main_arg2) = (V (Proc.devRef .tc main_arg2)) :=
  (by keep_win rops9 : (B9 V) (Proc.devRef .tc main_arg2) = (B8 V) (Proc.devRef .tc main_arg2)).trans (B8_main_arg2 V)

theorem B10_main_arg2 (V : Valuation τ sig (Elt Ideal)) : (B10 V) (Proc.devRef .tc main_arg2) = (V (Proc.devRef .tc main_arg2)) :=
  (by keep_win rops10 : (B10 V) (Proc.devRef .tc main_arg2) = (B9 V) (Proc.devRef .tc main_arg2)).trans (B9_main_arg2 V)

theorem B11_main_arg2 (V : Valuation τ sig (Elt Ideal)) : (B11 V) (Proc.devRef .tc main_arg2) = (V (Proc.devRef .tc main_arg2)) :=
  (by keep_win rops11 : (B11 V) (Proc.devRef .tc main_arg2) = (B10 V) (Proc.devRef .tc main_arg2)).trans (B10_main_arg2 V)

theorem B12_main_arg2 (V : Valuation τ sig (Elt Ideal)) : (B12 V) (Proc.devRef .tc main_arg2) = (V (Proc.devRef .tc main_arg2)) :=
  (by keep_win rops12 : (B12 V) (Proc.devRef .tc main_arg2) = (B11 V) (Proc.devRef .tc main_arg2)).trans (B11_main_arg2 V)

theorem B13_main_arg2 (V : Valuation τ sig (Elt Ideal)) : (B13 V) (Proc.devRef .tc main_arg2) = (V (Proc.devRef .tc main_arg2)) :=
  (by keep_win rops13 : (B13 V) (Proc.devRef .tc main_arg2) = (B12 V) (Proc.devRef .tc main_arg2)).trans (B12_main_arg2 V)

theorem B14_main_arg2 (V : Valuation τ sig (Elt Ideal)) : (B14 V) (Proc.devRef .tc main_arg2) = (V (Proc.devRef .tc main_arg2)) :=
  (by keep_win rops14 : (B14 V) (Proc.devRef .tc main_arg2) = (B13 V) (Proc.devRef .tc main_arg2)).trans (B13_main_arg2 V)

theorem B15_main_arg2 (V : Valuation τ sig (Elt Ideal)) : (B15 V) (Proc.devRef .tc main_arg2) = (V (Proc.devRef .tc main_arg2)) :=
  (by keep_win rops15 : (B15 V) (Proc.devRef .tc main_arg2) = (B14 V) (Proc.devRef .tc main_arg2)).trans (B14_main_arg2 V)

theorem B16_main_arg2 (V : Valuation τ sig (Elt Ideal)) : (B16 V) (Proc.devRef .tc main_arg2) = (V (Proc.devRef .tc main_arg2)) :=
  (by keep_win rops16 : (B16 V) (Proc.devRef .tc main_arg2) = (B15 V) (Proc.devRef .tc main_arg2)).trans (B15_main_arg2 V)

theorem B17_main_arg2 (V : Valuation τ sig (Elt Ideal)) : (B17 V) (Proc.devRef .tc main_arg2) = (V (Proc.devRef .tc main_arg2)) :=
  (by keep_win rops17 : (B17 V) (Proc.devRef .tc main_arg2) = (B16 V) (Proc.devRef .tc main_arg2)).trans (B16_main_arg2 V)

theorem after_ops_arg2 (V : Valuation τ sig (Elt Ideal)) :
    StableHlo.after (ops (F := Ideal)) V (Proc.devRef .tc main_arg2) = V (Proc.devRef .tc main_arg2) := by
  rw [ops_windows]
  simp only [after_append']
  exact (B17_main_arg2 V)

theorem B1_main_arg3 (V : Valuation τ sig (Elt Ideal)) : (B1 V) (Proc.devRef .tc main_arg3) = (V (Proc.devRef .tc main_arg3)) :=
  (by keep_win rops1 : (B1 V) (Proc.devRef .tc main_arg3) = V (Proc.devRef .tc main_arg3)).trans (rfl : V (Proc.devRef .tc main_arg3) = V (Proc.devRef .tc main_arg3))

theorem B2_main_arg3 (V : Valuation τ sig (Elt Ideal)) : (B2 V) (Proc.devRef .tc main_arg3) = (V (Proc.devRef .tc main_arg3)) :=
  (by keep_win rops2 : (B2 V) (Proc.devRef .tc main_arg3) = (B1 V) (Proc.devRef .tc main_arg3)).trans (B1_main_arg3 V)

theorem B3_main_arg3 (V : Valuation τ sig (Elt Ideal)) : (B3 V) (Proc.devRef .tc main_arg3) = (V (Proc.devRef .tc main_arg3)) :=
  (by keep_win rops3 : (B3 V) (Proc.devRef .tc main_arg3) = (B2 V) (Proc.devRef .tc main_arg3)).trans (B2_main_arg3 V)

theorem B4_main_arg3 (V : Valuation τ sig (Elt Ideal)) : (B4 V) (Proc.devRef .tc main_arg3) = (V (Proc.devRef .tc main_arg3)) :=
  (by keep_win rops4 : (B4 V) (Proc.devRef .tc main_arg3) = (B3 V) (Proc.devRef .tc main_arg3)).trans (B3_main_arg3 V)

theorem B5_main_arg3 (V : Valuation τ sig (Elt Ideal)) : (B5 V) (Proc.devRef .tc main_arg3) = (V (Proc.devRef .tc main_arg3)) :=
  (by keep_win rops5 : (B5 V) (Proc.devRef .tc main_arg3) = (B4 V) (Proc.devRef .tc main_arg3)).trans (B4_main_arg3 V)

theorem B6_main_arg3 (V : Valuation τ sig (Elt Ideal)) : (B6 V) (Proc.devRef .tc main_arg3) = (V (Proc.devRef .tc main_arg3)) :=
  (by keep_win rops6 : (B6 V) (Proc.devRef .tc main_arg3) = (B5 V) (Proc.devRef .tc main_arg3)).trans (B5_main_arg3 V)

theorem B7_main_arg3 (V : Valuation τ sig (Elt Ideal)) : (B7 V) (Proc.devRef .tc main_arg3) = (V (Proc.devRef .tc main_arg3)) :=
  (by keep_win rops7 : (B7 V) (Proc.devRef .tc main_arg3) = (B6 V) (Proc.devRef .tc main_arg3)).trans (B6_main_arg3 V)

theorem B8_main_arg3 (V : Valuation τ sig (Elt Ideal)) : (B8 V) (Proc.devRef .tc main_arg3) = (V (Proc.devRef .tc main_arg3)) :=
  (by keep_win rops8 : (B8 V) (Proc.devRef .tc main_arg3) = (B7 V) (Proc.devRef .tc main_arg3)).trans (B7_main_arg3 V)

theorem B9_main_arg3 (V : Valuation τ sig (Elt Ideal)) : (B9 V) (Proc.devRef .tc main_arg3) = (V (Proc.devRef .tc main_arg3)) :=
  (by keep_win rops9 : (B9 V) (Proc.devRef .tc main_arg3) = (B8 V) (Proc.devRef .tc main_arg3)).trans (B8_main_arg3 V)

theorem B10_main_arg3 (V : Valuation τ sig (Elt Ideal)) : (B10 V) (Proc.devRef .tc main_arg3) = (V (Proc.devRef .tc main_arg3)) :=
  (by keep_win rops10 : (B10 V) (Proc.devRef .tc main_arg3) = (B9 V) (Proc.devRef .tc main_arg3)).trans (B9_main_arg3 V)

theorem B11_main_arg3 (V : Valuation τ sig (Elt Ideal)) : (B11 V) (Proc.devRef .tc main_arg3) = (V (Proc.devRef .tc main_arg3)) :=
  (by keep_win rops11 : (B11 V) (Proc.devRef .tc main_arg3) = (B10 V) (Proc.devRef .tc main_arg3)).trans (B10_main_arg3 V)

theorem B12_main_arg3 (V : Valuation τ sig (Elt Ideal)) : (B12 V) (Proc.devRef .tc main_arg3) = (V (Proc.devRef .tc main_arg3)) :=
  (by keep_win rops12 : (B12 V) (Proc.devRef .tc main_arg3) = (B11 V) (Proc.devRef .tc main_arg3)).trans (B11_main_arg3 V)

theorem B13_main_arg3 (V : Valuation τ sig (Elt Ideal)) : (B13 V) (Proc.devRef .tc main_arg3) = (V (Proc.devRef .tc main_arg3)) :=
  (by keep_win rops13 : (B13 V) (Proc.devRef .tc main_arg3) = (B12 V) (Proc.devRef .tc main_arg3)).trans (B12_main_arg3 V)

theorem B14_main_arg3 (V : Valuation τ sig (Elt Ideal)) : (B14 V) (Proc.devRef .tc main_arg3) = (V (Proc.devRef .tc main_arg3)) :=
  (by keep_win rops14 : (B14 V) (Proc.devRef .tc main_arg3) = (B13 V) (Proc.devRef .tc main_arg3)).trans (B13_main_arg3 V)

theorem B15_main_arg3 (V : Valuation τ sig (Elt Ideal)) : (B15 V) (Proc.devRef .tc main_arg3) = (V (Proc.devRef .tc main_arg3)) :=
  (by keep_win rops15 : (B15 V) (Proc.devRef .tc main_arg3) = (B14 V) (Proc.devRef .tc main_arg3)).trans (B14_main_arg3 V)

theorem B16_main_arg3 (V : Valuation τ sig (Elt Ideal)) : (B16 V) (Proc.devRef .tc main_arg3) = (V (Proc.devRef .tc main_arg3)) :=
  (by keep_win rops16 : (B16 V) (Proc.devRef .tc main_arg3) = (B15 V) (Proc.devRef .tc main_arg3)).trans (B15_main_arg3 V)

theorem B17_main_arg3 (V : Valuation τ sig (Elt Ideal)) : (B17 V) (Proc.devRef .tc main_arg3) = (V (Proc.devRef .tc main_arg3)) :=
  (by keep_win rops17 : (B17 V) (Proc.devRef .tc main_arg3) = (B16 V) (Proc.devRef .tc main_arg3)).trans (B16_main_arg3 V)

theorem after_ops_arg3 (V : Valuation τ sig (Elt Ideal)) :
    StableHlo.after (ops (F := Ideal)) V (Proc.devRef .tc main_arg3) = V (Proc.devRef .tc main_arg3) := by
  rw [ops_windows]
  simp only [after_append']
  exact (B17_main_arg3 V)

theorem B1_main_arg4 (V : Valuation τ sig (Elt Ideal)) : (B1 V) (Proc.devRef .tc main_arg4) = (V (Proc.devRef .tc main_arg4)) :=
  (by keep_win rops1 : (B1 V) (Proc.devRef .tc main_arg4) = V (Proc.devRef .tc main_arg4)).trans (rfl : V (Proc.devRef .tc main_arg4) = V (Proc.devRef .tc main_arg4))

theorem B2_main_arg4 (V : Valuation τ sig (Elt Ideal)) : (B2 V) (Proc.devRef .tc main_arg4) = (V (Proc.devRef .tc main_arg4)) :=
  (by keep_win rops2 : (B2 V) (Proc.devRef .tc main_arg4) = (B1 V) (Proc.devRef .tc main_arg4)).trans (B1_main_arg4 V)

theorem B3_main_arg4 (V : Valuation τ sig (Elt Ideal)) : (B3 V) (Proc.devRef .tc main_arg4) = (V (Proc.devRef .tc main_arg4)) :=
  (by keep_win rops3 : (B3 V) (Proc.devRef .tc main_arg4) = (B2 V) (Proc.devRef .tc main_arg4)).trans (B2_main_arg4 V)

theorem B4_main_arg4 (V : Valuation τ sig (Elt Ideal)) : (B4 V) (Proc.devRef .tc main_arg4) = (V (Proc.devRef .tc main_arg4)) :=
  (by keep_win rops4 : (B4 V) (Proc.devRef .tc main_arg4) = (B3 V) (Proc.devRef .tc main_arg4)).trans (B3_main_arg4 V)

theorem B5_main_arg4 (V : Valuation τ sig (Elt Ideal)) : (B5 V) (Proc.devRef .tc main_arg4) = (V (Proc.devRef .tc main_arg4)) :=
  (by keep_win rops5 : (B5 V) (Proc.devRef .tc main_arg4) = (B4 V) (Proc.devRef .tc main_arg4)).trans (B4_main_arg4 V)

theorem B6_main_arg4 (V : Valuation τ sig (Elt Ideal)) : (B6 V) (Proc.devRef .tc main_arg4) = (V (Proc.devRef .tc main_arg4)) :=
  (by keep_win rops6 : (B6 V) (Proc.devRef .tc main_arg4) = (B5 V) (Proc.devRef .tc main_arg4)).trans (B5_main_arg4 V)

theorem B7_main_arg4 (V : Valuation τ sig (Elt Ideal)) : (B7 V) (Proc.devRef .tc main_arg4) = (V (Proc.devRef .tc main_arg4)) :=
  (by keep_win rops7 : (B7 V) (Proc.devRef .tc main_arg4) = (B6 V) (Proc.devRef .tc main_arg4)).trans (B6_main_arg4 V)

theorem B8_main_arg4 (V : Valuation τ sig (Elt Ideal)) : (B8 V) (Proc.devRef .tc main_arg4) = (V (Proc.devRef .tc main_arg4)) :=
  (by keep_win rops8 : (B8 V) (Proc.devRef .tc main_arg4) = (B7 V) (Proc.devRef .tc main_arg4)).trans (B7_main_arg4 V)

theorem B9_main_arg4 (V : Valuation τ sig (Elt Ideal)) : (B9 V) (Proc.devRef .tc main_arg4) = (V (Proc.devRef .tc main_arg4)) :=
  (by keep_win rops9 : (B9 V) (Proc.devRef .tc main_arg4) = (B8 V) (Proc.devRef .tc main_arg4)).trans (B8_main_arg4 V)

theorem B10_main_arg4 (V : Valuation τ sig (Elt Ideal)) : (B10 V) (Proc.devRef .tc main_arg4) = (V (Proc.devRef .tc main_arg4)) :=
  (by keep_win rops10 : (B10 V) (Proc.devRef .tc main_arg4) = (B9 V) (Proc.devRef .tc main_arg4)).trans (B9_main_arg4 V)

theorem B11_main_arg4 (V : Valuation τ sig (Elt Ideal)) : (B11 V) (Proc.devRef .tc main_arg4) = (V (Proc.devRef .tc main_arg4)) :=
  (by keep_win rops11 : (B11 V) (Proc.devRef .tc main_arg4) = (B10 V) (Proc.devRef .tc main_arg4)).trans (B10_main_arg4 V)

theorem B12_main_arg4 (V : Valuation τ sig (Elt Ideal)) : (B12 V) (Proc.devRef .tc main_arg4) = (V (Proc.devRef .tc main_arg4)) :=
  (by keep_win rops12 : (B12 V) (Proc.devRef .tc main_arg4) = (B11 V) (Proc.devRef .tc main_arg4)).trans (B11_main_arg4 V)

theorem B13_main_arg4 (V : Valuation τ sig (Elt Ideal)) : (B13 V) (Proc.devRef .tc main_arg4) = (V (Proc.devRef .tc main_arg4)) :=
  (by keep_win rops13 : (B13 V) (Proc.devRef .tc main_arg4) = (B12 V) (Proc.devRef .tc main_arg4)).trans (B12_main_arg4 V)

theorem B14_main_arg4 (V : Valuation τ sig (Elt Ideal)) : (B14 V) (Proc.devRef .tc main_arg4) = (V (Proc.devRef .tc main_arg4)) :=
  (by keep_win rops14 : (B14 V) (Proc.devRef .tc main_arg4) = (B13 V) (Proc.devRef .tc main_arg4)).trans (B13_main_arg4 V)

theorem B15_main_arg4 (V : Valuation τ sig (Elt Ideal)) : (B15 V) (Proc.devRef .tc main_arg4) = (V (Proc.devRef .tc main_arg4)) :=
  (by keep_win rops15 : (B15 V) (Proc.devRef .tc main_arg4) = (B14 V) (Proc.devRef .tc main_arg4)).trans (B14_main_arg4 V)

theorem B16_main_arg4 (V : Valuation τ sig (Elt Ideal)) : (B16 V) (Proc.devRef .tc main_arg4) = (V (Proc.devRef .tc main_arg4)) :=
  (by keep_win rops16 : (B16 V) (Proc.devRef .tc main_arg4) = (B15 V) (Proc.devRef .tc main_arg4)).trans (B15_main_arg4 V)

theorem B17_main_arg4 (V : Valuation τ sig (Elt Ideal)) : (B17 V) (Proc.devRef .tc main_arg4) = (V (Proc.devRef .tc main_arg4)) :=
  (by keep_win rops17 : (B17 V) (Proc.devRef .tc main_arg4) = (B16 V) (Proc.devRef .tc main_arg4)).trans (B16_main_arg4 V)

theorem after_ops_arg4 (V : Valuation τ sig (Elt Ideal)) :
    StableHlo.after (ops (F := Ideal)) V (Proc.devRef .tc main_arg4) = V (Proc.devRef .tc main_arg4) := by
  rw [ops_windows]
  simp only [after_append']
  exact (B17_main_arg4 V)

theorem B1_main_arg5 (V : Valuation τ sig (Elt Ideal)) : (B1 V) (Proc.devRef .tc main_arg5) = (V (Proc.devRef .tc main_arg5)) :=
  (by keep_win rops1 : (B1 V) (Proc.devRef .tc main_arg5) = V (Proc.devRef .tc main_arg5)).trans (rfl : V (Proc.devRef .tc main_arg5) = V (Proc.devRef .tc main_arg5))

theorem B2_main_arg5 (V : Valuation τ sig (Elt Ideal)) : (B2 V) (Proc.devRef .tc main_arg5) = (V (Proc.devRef .tc main_arg5)) :=
  (by keep_win rops2 : (B2 V) (Proc.devRef .tc main_arg5) = (B1 V) (Proc.devRef .tc main_arg5)).trans (B1_main_arg5 V)

theorem B3_main_arg5 (V : Valuation τ sig (Elt Ideal)) : (B3 V) (Proc.devRef .tc main_arg5) = (V (Proc.devRef .tc main_arg5)) :=
  (by keep_win rops3 : (B3 V) (Proc.devRef .tc main_arg5) = (B2 V) (Proc.devRef .tc main_arg5)).trans (B2_main_arg5 V)

theorem B4_main_arg5 (V : Valuation τ sig (Elt Ideal)) : (B4 V) (Proc.devRef .tc main_arg5) = (V (Proc.devRef .tc main_arg5)) :=
  (by keep_win rops4 : (B4 V) (Proc.devRef .tc main_arg5) = (B3 V) (Proc.devRef .tc main_arg5)).trans (B3_main_arg5 V)

theorem B5_main_arg5 (V : Valuation τ sig (Elt Ideal)) : (B5 V) (Proc.devRef .tc main_arg5) = (V (Proc.devRef .tc main_arg5)) :=
  (by keep_win rops5 : (B5 V) (Proc.devRef .tc main_arg5) = (B4 V) (Proc.devRef .tc main_arg5)).trans (B4_main_arg5 V)

theorem B6_main_arg5 (V : Valuation τ sig (Elt Ideal)) : (B6 V) (Proc.devRef .tc main_arg5) = (V (Proc.devRef .tc main_arg5)) :=
  (by keep_win rops6 : (B6 V) (Proc.devRef .tc main_arg5) = (B5 V) (Proc.devRef .tc main_arg5)).trans (B5_main_arg5 V)

theorem B7_main_arg5 (V : Valuation τ sig (Elt Ideal)) : (B7 V) (Proc.devRef .tc main_arg5) = (V (Proc.devRef .tc main_arg5)) :=
  (by keep_win rops7 : (B7 V) (Proc.devRef .tc main_arg5) = (B6 V) (Proc.devRef .tc main_arg5)).trans (B6_main_arg5 V)

theorem B8_main_arg5 (V : Valuation τ sig (Elt Ideal)) : (B8 V) (Proc.devRef .tc main_arg5) = (V (Proc.devRef .tc main_arg5)) :=
  (by keep_win rops8 : (B8 V) (Proc.devRef .tc main_arg5) = (B7 V) (Proc.devRef .tc main_arg5)).trans (B7_main_arg5 V)

theorem B9_main_arg5 (V : Valuation τ sig (Elt Ideal)) : (B9 V) (Proc.devRef .tc main_arg5) = (V (Proc.devRef .tc main_arg5)) :=
  (by keep_win rops9 : (B9 V) (Proc.devRef .tc main_arg5) = (B8 V) (Proc.devRef .tc main_arg5)).trans (B8_main_arg5 V)

theorem B10_main_arg5 (V : Valuation τ sig (Elt Ideal)) : (B10 V) (Proc.devRef .tc main_arg5) = (V (Proc.devRef .tc main_arg5)) :=
  (by keep_win rops10 : (B10 V) (Proc.devRef .tc main_arg5) = (B9 V) (Proc.devRef .tc main_arg5)).trans (B9_main_arg5 V)

theorem B11_main_arg5 (V : Valuation τ sig (Elt Ideal)) : (B11 V) (Proc.devRef .tc main_arg5) = (V (Proc.devRef .tc main_arg5)) :=
  (by keep_win rops11 : (B11 V) (Proc.devRef .tc main_arg5) = (B10 V) (Proc.devRef .tc main_arg5)).trans (B10_main_arg5 V)

theorem B12_main_arg5 (V : Valuation τ sig (Elt Ideal)) : (B12 V) (Proc.devRef .tc main_arg5) = (V (Proc.devRef .tc main_arg5)) :=
  (by keep_win rops12 : (B12 V) (Proc.devRef .tc main_arg5) = (B11 V) (Proc.devRef .tc main_arg5)).trans (B11_main_arg5 V)

theorem B13_main_arg5 (V : Valuation τ sig (Elt Ideal)) : (B13 V) (Proc.devRef .tc main_arg5) = (V (Proc.devRef .tc main_arg5)) :=
  (by keep_win rops13 : (B13 V) (Proc.devRef .tc main_arg5) = (B12 V) (Proc.devRef .tc main_arg5)).trans (B12_main_arg5 V)

theorem B14_main_arg5 (V : Valuation τ sig (Elt Ideal)) : (B14 V) (Proc.devRef .tc main_arg5) = (V (Proc.devRef .tc main_arg5)) :=
  (by keep_win rops14 : (B14 V) (Proc.devRef .tc main_arg5) = (B13 V) (Proc.devRef .tc main_arg5)).trans (B13_main_arg5 V)

theorem B15_main_arg5 (V : Valuation τ sig (Elt Ideal)) : (B15 V) (Proc.devRef .tc main_arg5) = (V (Proc.devRef .tc main_arg5)) :=
  (by keep_win rops15 : (B15 V) (Proc.devRef .tc main_arg5) = (B14 V) (Proc.devRef .tc main_arg5)).trans (B14_main_arg5 V)

theorem B16_main_arg5 (V : Valuation τ sig (Elt Ideal)) : (B16 V) (Proc.devRef .tc main_arg5) = (V (Proc.devRef .tc main_arg5)) :=
  (by keep_win rops16 : (B16 V) (Proc.devRef .tc main_arg5) = (B15 V) (Proc.devRef .tc main_arg5)).trans (B15_main_arg5 V)

theorem B17_main_arg5 (V : Valuation τ sig (Elt Ideal)) : (B17 V) (Proc.devRef .tc main_arg5) = (V (Proc.devRef .tc main_arg5)) :=
  (by keep_win rops17 : (B17 V) (Proc.devRef .tc main_arg5) = (B16 V) (Proc.devRef .tc main_arg5)).trans (B16_main_arg5 V)

theorem after_ops_arg5 (V : Valuation τ sig (Elt Ideal)) :
    StableHlo.after (ops (F := Ideal)) V (Proc.devRef .tc main_arg5) = V (Proc.devRef .tc main_arg5) := by
  rw [ops_windows]
  simp only [after_append']
  exact (B17_main_arg5 V)

theorem B1_main_arg6 (V : Valuation τ sig (Elt Ideal)) : (B1 V) (Proc.devRef .tc main_arg6) = (V (Proc.devRef .tc main_arg6)) :=
  (by keep_win rops1 : (B1 V) (Proc.devRef .tc main_arg6) = V (Proc.devRef .tc main_arg6)).trans (rfl : V (Proc.devRef .tc main_arg6) = V (Proc.devRef .tc main_arg6))

theorem B2_main_arg6 (V : Valuation τ sig (Elt Ideal)) : (B2 V) (Proc.devRef .tc main_arg6) = (V (Proc.devRef .tc main_arg6)) :=
  (by keep_win rops2 : (B2 V) (Proc.devRef .tc main_arg6) = (B1 V) (Proc.devRef .tc main_arg6)).trans (B1_main_arg6 V)

theorem B3_main_arg6 (V : Valuation τ sig (Elt Ideal)) : (B3 V) (Proc.devRef .tc main_arg6) = (V (Proc.devRef .tc main_arg6)) :=
  (by keep_win rops3 : (B3 V) (Proc.devRef .tc main_arg6) = (B2 V) (Proc.devRef .tc main_arg6)).trans (B2_main_arg6 V)

theorem B4_main_arg6 (V : Valuation τ sig (Elt Ideal)) : (B4 V) (Proc.devRef .tc main_arg6) = (V (Proc.devRef .tc main_arg6)) :=
  (by keep_win rops4 : (B4 V) (Proc.devRef .tc main_arg6) = (B3 V) (Proc.devRef .tc main_arg6)).trans (B3_main_arg6 V)

theorem B5_main_arg6 (V : Valuation τ sig (Elt Ideal)) : (B5 V) (Proc.devRef .tc main_arg6) = (V (Proc.devRef .tc main_arg6)) :=
  (by keep_win rops5 : (B5 V) (Proc.devRef .tc main_arg6) = (B4 V) (Proc.devRef .tc main_arg6)).trans (B4_main_arg6 V)

theorem B6_main_arg6 (V : Valuation τ sig (Elt Ideal)) : (B6 V) (Proc.devRef .tc main_arg6) = (V (Proc.devRef .tc main_arg6)) :=
  (by keep_win rops6 : (B6 V) (Proc.devRef .tc main_arg6) = (B5 V) (Proc.devRef .tc main_arg6)).trans (B5_main_arg6 V)

theorem B7_main_arg6 (V : Valuation τ sig (Elt Ideal)) : (B7 V) (Proc.devRef .tc main_arg6) = (V (Proc.devRef .tc main_arg6)) :=
  (by keep_win rops7 : (B7 V) (Proc.devRef .tc main_arg6) = (B6 V) (Proc.devRef .tc main_arg6)).trans (B6_main_arg6 V)

theorem B8_main_arg6 (V : Valuation τ sig (Elt Ideal)) : (B8 V) (Proc.devRef .tc main_arg6) = (V (Proc.devRef .tc main_arg6)) :=
  (by keep_win rops8 : (B8 V) (Proc.devRef .tc main_arg6) = (B7 V) (Proc.devRef .tc main_arg6)).trans (B7_main_arg6 V)

theorem B9_main_arg6 (V : Valuation τ sig (Elt Ideal)) : (B9 V) (Proc.devRef .tc main_arg6) = (V (Proc.devRef .tc main_arg6)) :=
  (by keep_win rops9 : (B9 V) (Proc.devRef .tc main_arg6) = (B8 V) (Proc.devRef .tc main_arg6)).trans (B8_main_arg6 V)

theorem B10_main_arg6 (V : Valuation τ sig (Elt Ideal)) : (B10 V) (Proc.devRef .tc main_arg6) = (V (Proc.devRef .tc main_arg6)) :=
  (by keep_win rops10 : (B10 V) (Proc.devRef .tc main_arg6) = (B9 V) (Proc.devRef .tc main_arg6)).trans (B9_main_arg6 V)

theorem B11_main_arg6 (V : Valuation τ sig (Elt Ideal)) : (B11 V) (Proc.devRef .tc main_arg6) = (V (Proc.devRef .tc main_arg6)) :=
  (by keep_win rops11 : (B11 V) (Proc.devRef .tc main_arg6) = (B10 V) (Proc.devRef .tc main_arg6)).trans (B10_main_arg6 V)

theorem B12_main_arg6 (V : Valuation τ sig (Elt Ideal)) : (B12 V) (Proc.devRef .tc main_arg6) = (V (Proc.devRef .tc main_arg6)) :=
  (by keep_win rops12 : (B12 V) (Proc.devRef .tc main_arg6) = (B11 V) (Proc.devRef .tc main_arg6)).trans (B11_main_arg6 V)

theorem B13_main_arg6 (V : Valuation τ sig (Elt Ideal)) : (B13 V) (Proc.devRef .tc main_arg6) = (V (Proc.devRef .tc main_arg6)) :=
  (by keep_win rops13 : (B13 V) (Proc.devRef .tc main_arg6) = (B12 V) (Proc.devRef .tc main_arg6)).trans (B12_main_arg6 V)

theorem B14_main_arg6 (V : Valuation τ sig (Elt Ideal)) : (B14 V) (Proc.devRef .tc main_arg6) = (V (Proc.devRef .tc main_arg6)) :=
  (by keep_win rops14 : (B14 V) (Proc.devRef .tc main_arg6) = (B13 V) (Proc.devRef .tc main_arg6)).trans (B13_main_arg6 V)

theorem B15_main_arg6 (V : Valuation τ sig (Elt Ideal)) : (B15 V) (Proc.devRef .tc main_arg6) = (V (Proc.devRef .tc main_arg6)) :=
  (by keep_win rops15 : (B15 V) (Proc.devRef .tc main_arg6) = (B14 V) (Proc.devRef .tc main_arg6)).trans (B14_main_arg6 V)

theorem B16_main_arg6 (V : Valuation τ sig (Elt Ideal)) : (B16 V) (Proc.devRef .tc main_arg6) = (V (Proc.devRef .tc main_arg6)) :=
  (by keep_win rops16 : (B16 V) (Proc.devRef .tc main_arg6) = (B15 V) (Proc.devRef .tc main_arg6)).trans (B15_main_arg6 V)

theorem B17_main_arg6 (V : Valuation τ sig (Elt Ideal)) : (B17 V) (Proc.devRef .tc main_arg6) = (V (Proc.devRef .tc main_arg6)) :=
  (by keep_win rops17 : (B17 V) (Proc.devRef .tc main_arg6) = (B16 V) (Proc.devRef .tc main_arg6)).trans (B16_main_arg6 V)

theorem after_ops_arg6 (V : Valuation τ sig (Elt Ideal)) :
    StableHlo.after (ops (F := Ideal)) V (Proc.devRef .tc main_arg6) = V (Proc.devRef .tc main_arg6) := by
  rw [ops_windows]
  simp only [after_append']
  exact (B17_main_arg6 V)

theorem B1_main_arg7 (V : Valuation τ sig (Elt Ideal)) : (B1 V) (Proc.devRef .tc main_arg7) = (V (Proc.devRef .tc main_arg7)) :=
  (by keep_win rops1 : (B1 V) (Proc.devRef .tc main_arg7) = V (Proc.devRef .tc main_arg7)).trans (rfl : V (Proc.devRef .tc main_arg7) = V (Proc.devRef .tc main_arg7))

theorem B2_main_arg7 (V : Valuation τ sig (Elt Ideal)) : (B2 V) (Proc.devRef .tc main_arg7) = (V (Proc.devRef .tc main_arg7)) :=
  (by keep_win rops2 : (B2 V) (Proc.devRef .tc main_arg7) = (B1 V) (Proc.devRef .tc main_arg7)).trans (B1_main_arg7 V)

theorem B3_main_arg7 (V : Valuation τ sig (Elt Ideal)) : (B3 V) (Proc.devRef .tc main_arg7) = (V (Proc.devRef .tc main_arg7)) :=
  (by keep_win rops3 : (B3 V) (Proc.devRef .tc main_arg7) = (B2 V) (Proc.devRef .tc main_arg7)).trans (B2_main_arg7 V)

theorem B4_main_arg7 (V : Valuation τ sig (Elt Ideal)) : (B4 V) (Proc.devRef .tc main_arg7) = (V (Proc.devRef .tc main_arg7)) :=
  (by keep_win rops4 : (B4 V) (Proc.devRef .tc main_arg7) = (B3 V) (Proc.devRef .tc main_arg7)).trans (B3_main_arg7 V)

theorem B5_main_arg7 (V : Valuation τ sig (Elt Ideal)) : (B5 V) (Proc.devRef .tc main_arg7) = (V (Proc.devRef .tc main_arg7)) :=
  (by keep_win rops5 : (B5 V) (Proc.devRef .tc main_arg7) = (B4 V) (Proc.devRef .tc main_arg7)).trans (B4_main_arg7 V)

theorem B6_main_arg7 (V : Valuation τ sig (Elt Ideal)) : (B6 V) (Proc.devRef .tc main_arg7) = (V (Proc.devRef .tc main_arg7)) :=
  (by keep_win rops6 : (B6 V) (Proc.devRef .tc main_arg7) = (B5 V) (Proc.devRef .tc main_arg7)).trans (B5_main_arg7 V)

theorem B7_main_arg7 (V : Valuation τ sig (Elt Ideal)) : (B7 V) (Proc.devRef .tc main_arg7) = (V (Proc.devRef .tc main_arg7)) :=
  (by keep_win rops7 : (B7 V) (Proc.devRef .tc main_arg7) = (B6 V) (Proc.devRef .tc main_arg7)).trans (B6_main_arg7 V)

theorem B8_main_arg7 (V : Valuation τ sig (Elt Ideal)) : (B8 V) (Proc.devRef .tc main_arg7) = (V (Proc.devRef .tc main_arg7)) :=
  (by keep_win rops8 : (B8 V) (Proc.devRef .tc main_arg7) = (B7 V) (Proc.devRef .tc main_arg7)).trans (B7_main_arg7 V)

theorem B9_main_arg7 (V : Valuation τ sig (Elt Ideal)) : (B9 V) (Proc.devRef .tc main_arg7) = (V (Proc.devRef .tc main_arg7)) :=
  (by keep_win rops9 : (B9 V) (Proc.devRef .tc main_arg7) = (B8 V) (Proc.devRef .tc main_arg7)).trans (B8_main_arg7 V)

theorem B10_main_arg7 (V : Valuation τ sig (Elt Ideal)) : (B10 V) (Proc.devRef .tc main_arg7) = (V (Proc.devRef .tc main_arg7)) :=
  (by keep_win rops10 : (B10 V) (Proc.devRef .tc main_arg7) = (B9 V) (Proc.devRef .tc main_arg7)).trans (B9_main_arg7 V)

theorem B11_main_arg7 (V : Valuation τ sig (Elt Ideal)) : (B11 V) (Proc.devRef .tc main_arg7) = (V (Proc.devRef .tc main_arg7)) :=
  (by keep_win rops11 : (B11 V) (Proc.devRef .tc main_arg7) = (B10 V) (Proc.devRef .tc main_arg7)).trans (B10_main_arg7 V)

theorem B12_main_arg7 (V : Valuation τ sig (Elt Ideal)) : (B12 V) (Proc.devRef .tc main_arg7) = (V (Proc.devRef .tc main_arg7)) :=
  (by keep_win rops12 : (B12 V) (Proc.devRef .tc main_arg7) = (B11 V) (Proc.devRef .tc main_arg7)).trans (B11_main_arg7 V)

theorem B13_main_arg7 (V : Valuation τ sig (Elt Ideal)) : (B13 V) (Proc.devRef .tc main_arg7) = (V (Proc.devRef .tc main_arg7)) :=
  (by keep_win rops13 : (B13 V) (Proc.devRef .tc main_arg7) = (B12 V) (Proc.devRef .tc main_arg7)).trans (B12_main_arg7 V)

theorem B14_main_arg7 (V : Valuation τ sig (Elt Ideal)) : (B14 V) (Proc.devRef .tc main_arg7) = (V (Proc.devRef .tc main_arg7)) :=
  (by keep_win rops14 : (B14 V) (Proc.devRef .tc main_arg7) = (B13 V) (Proc.devRef .tc main_arg7)).trans (B13_main_arg7 V)

theorem B15_main_arg7 (V : Valuation τ sig (Elt Ideal)) : (B15 V) (Proc.devRef .tc main_arg7) = (V (Proc.devRef .tc main_arg7)) :=
  (by keep_win rops15 : (B15 V) (Proc.devRef .tc main_arg7) = (B14 V) (Proc.devRef .tc main_arg7)).trans (B14_main_arg7 V)

theorem B16_main_arg7 (V : Valuation τ sig (Elt Ideal)) : (B16 V) (Proc.devRef .tc main_arg7) = (V (Proc.devRef .tc main_arg7)) :=
  (by keep_win rops16 : (B16 V) (Proc.devRef .tc main_arg7) = (B15 V) (Proc.devRef .tc main_arg7)).trans (B15_main_arg7 V)

theorem B17_main_arg7 (V : Valuation τ sig (Elt Ideal)) : (B17 V) (Proc.devRef .tc main_arg7) = (V (Proc.devRef .tc main_arg7)) :=
  (by keep_win rops17 : (B17 V) (Proc.devRef .tc main_arg7) = (B16 V) (Proc.devRef .tc main_arg7)).trans (B16_main_arg7 V)

theorem after_ops_arg7 (V : Valuation τ sig (Elt Ideal)) :
    StableHlo.after (ops (F := Ideal)) V (Proc.devRef .tc main_arg7) = V (Proc.devRef .tc main_arg7) := by
  rw [ops_windows]
  simp only [after_append']
  exact (B17_main_arg7 V)

theorem B1_main_arg8 (V : Valuation τ sig (Elt Ideal)) : (B1 V) (Proc.devRef .tc main_arg8) = (V (Proc.devRef .tc main_arg8)) :=
  (by keep_win rops1 : (B1 V) (Proc.devRef .tc main_arg8) = V (Proc.devRef .tc main_arg8)).trans (rfl : V (Proc.devRef .tc main_arg8) = V (Proc.devRef .tc main_arg8))

theorem B2_main_arg8 (V : Valuation τ sig (Elt Ideal)) : (B2 V) (Proc.devRef .tc main_arg8) = (V (Proc.devRef .tc main_arg8)) :=
  (by keep_win rops2 : (B2 V) (Proc.devRef .tc main_arg8) = (B1 V) (Proc.devRef .tc main_arg8)).trans (B1_main_arg8 V)

theorem B3_main_arg8 (V : Valuation τ sig (Elt Ideal)) : (B3 V) (Proc.devRef .tc main_arg8) = (V (Proc.devRef .tc main_arg8)) :=
  (by keep_win rops3 : (B3 V) (Proc.devRef .tc main_arg8) = (B2 V) (Proc.devRef .tc main_arg8)).trans (B2_main_arg8 V)

theorem B4_main_arg8 (V : Valuation τ sig (Elt Ideal)) : (B4 V) (Proc.devRef .tc main_arg8) = (V (Proc.devRef .tc main_arg8)) :=
  (by keep_win rops4 : (B4 V) (Proc.devRef .tc main_arg8) = (B3 V) (Proc.devRef .tc main_arg8)).trans (B3_main_arg8 V)

theorem B5_main_arg8 (V : Valuation τ sig (Elt Ideal)) : (B5 V) (Proc.devRef .tc main_arg8) = (V (Proc.devRef .tc main_arg8)) :=
  (by keep_win rops5 : (B5 V) (Proc.devRef .tc main_arg8) = (B4 V) (Proc.devRef .tc main_arg8)).trans (B4_main_arg8 V)

theorem B6_main_arg8 (V : Valuation τ sig (Elt Ideal)) : (B6 V) (Proc.devRef .tc main_arg8) = (V (Proc.devRef .tc main_arg8)) :=
  (by keep_win rops6 : (B6 V) (Proc.devRef .tc main_arg8) = (B5 V) (Proc.devRef .tc main_arg8)).trans (B5_main_arg8 V)

theorem B7_main_arg8 (V : Valuation τ sig (Elt Ideal)) : (B7 V) (Proc.devRef .tc main_arg8) = (V (Proc.devRef .tc main_arg8)) :=
  (by keep_win rops7 : (B7 V) (Proc.devRef .tc main_arg8) = (B6 V) (Proc.devRef .tc main_arg8)).trans (B6_main_arg8 V)

theorem B8_main_arg8 (V : Valuation τ sig (Elt Ideal)) : (B8 V) (Proc.devRef .tc main_arg8) = (V (Proc.devRef .tc main_arg8)) :=
  (by keep_win rops8 : (B8 V) (Proc.devRef .tc main_arg8) = (B7 V) (Proc.devRef .tc main_arg8)).trans (B7_main_arg8 V)

theorem B9_main_arg8 (V : Valuation τ sig (Elt Ideal)) : (B9 V) (Proc.devRef .tc main_arg8) = (V (Proc.devRef .tc main_arg8)) :=
  (by keep_win rops9 : (B9 V) (Proc.devRef .tc main_arg8) = (B8 V) (Proc.devRef .tc main_arg8)).trans (B8_main_arg8 V)

theorem B10_main_arg8 (V : Valuation τ sig (Elt Ideal)) : (B10 V) (Proc.devRef .tc main_arg8) = (V (Proc.devRef .tc main_arg8)) :=
  (by keep_win rops10 : (B10 V) (Proc.devRef .tc main_arg8) = (B9 V) (Proc.devRef .tc main_arg8)).trans (B9_main_arg8 V)

theorem B11_main_arg8 (V : Valuation τ sig (Elt Ideal)) : (B11 V) (Proc.devRef .tc main_arg8) = (V (Proc.devRef .tc main_arg8)) :=
  (by keep_win rops11 : (B11 V) (Proc.devRef .tc main_arg8) = (B10 V) (Proc.devRef .tc main_arg8)).trans (B10_main_arg8 V)

theorem B12_main_arg8 (V : Valuation τ sig (Elt Ideal)) : (B12 V) (Proc.devRef .tc main_arg8) = (V (Proc.devRef .tc main_arg8)) :=
  (by keep_win rops12 : (B12 V) (Proc.devRef .tc main_arg8) = (B11 V) (Proc.devRef .tc main_arg8)).trans (B11_main_arg8 V)

theorem B13_main_arg8 (V : Valuation τ sig (Elt Ideal)) : (B13 V) (Proc.devRef .tc main_arg8) = (V (Proc.devRef .tc main_arg8)) :=
  (by keep_win rops13 : (B13 V) (Proc.devRef .tc main_arg8) = (B12 V) (Proc.devRef .tc main_arg8)).trans (B12_main_arg8 V)

theorem B14_main_arg8 (V : Valuation τ sig (Elt Ideal)) : (B14 V) (Proc.devRef .tc main_arg8) = (V (Proc.devRef .tc main_arg8)) :=
  (by keep_win rops14 : (B14 V) (Proc.devRef .tc main_arg8) = (B13 V) (Proc.devRef .tc main_arg8)).trans (B13_main_arg8 V)

theorem B15_main_arg8 (V : Valuation τ sig (Elt Ideal)) : (B15 V) (Proc.devRef .tc main_arg8) = (V (Proc.devRef .tc main_arg8)) :=
  (by keep_win rops15 : (B15 V) (Proc.devRef .tc main_arg8) = (B14 V) (Proc.devRef .tc main_arg8)).trans (B14_main_arg8 V)

theorem B16_main_arg8 (V : Valuation τ sig (Elt Ideal)) : (B16 V) (Proc.devRef .tc main_arg8) = (V (Proc.devRef .tc main_arg8)) :=
  (by keep_win rops16 : (B16 V) (Proc.devRef .tc main_arg8) = (B15 V) (Proc.devRef .tc main_arg8)).trans (B15_main_arg8 V)

theorem B17_main_arg8 (V : Valuation τ sig (Elt Ideal)) : (B17 V) (Proc.devRef .tc main_arg8) = (V (Proc.devRef .tc main_arg8)) :=
  (by keep_win rops17 : (B17 V) (Proc.devRef .tc main_arg8) = (B16 V) (Proc.devRef .tc main_arg8)).trans (B16_main_arg8 V)

theorem after_ops_arg8 (V : Valuation τ sig (Elt Ideal)) :
    StableHlo.after (ops (F := Ideal)) V (Proc.devRef .tc main_arg8) = V (Proc.devRef .tc main_arg8) := by
  rw [ops_windows]
  simp only [after_append']
  exact (B17_main_arg8 V)

theorem B1_main_arg9 (V : Valuation τ sig (Elt Ideal)) : (B1 V) (Proc.devRef .tc main_arg9) = (V (Proc.devRef .tc main_arg9)) :=
  (by keep_win rops1 : (B1 V) (Proc.devRef .tc main_arg9) = V (Proc.devRef .tc main_arg9)).trans (rfl : V (Proc.devRef .tc main_arg9) = V (Proc.devRef .tc main_arg9))

theorem B2_main_arg9 (V : Valuation τ sig (Elt Ideal)) : (B2 V) (Proc.devRef .tc main_arg9) = (V (Proc.devRef .tc main_arg9)) :=
  (by keep_win rops2 : (B2 V) (Proc.devRef .tc main_arg9) = (B1 V) (Proc.devRef .tc main_arg9)).trans (B1_main_arg9 V)

theorem B3_main_arg9 (V : Valuation τ sig (Elt Ideal)) : (B3 V) (Proc.devRef .tc main_arg9) = (V (Proc.devRef .tc main_arg9)) :=
  (by keep_win rops3 : (B3 V) (Proc.devRef .tc main_arg9) = (B2 V) (Proc.devRef .tc main_arg9)).trans (B2_main_arg9 V)

theorem B4_main_arg9 (V : Valuation τ sig (Elt Ideal)) : (B4 V) (Proc.devRef .tc main_arg9) = (V (Proc.devRef .tc main_arg9)) :=
  (by keep_win rops4 : (B4 V) (Proc.devRef .tc main_arg9) = (B3 V) (Proc.devRef .tc main_arg9)).trans (B3_main_arg9 V)

theorem B5_main_arg9 (V : Valuation τ sig (Elt Ideal)) : (B5 V) (Proc.devRef .tc main_arg9) = (V (Proc.devRef .tc main_arg9)) :=
  (by keep_win rops5 : (B5 V) (Proc.devRef .tc main_arg9) = (B4 V) (Proc.devRef .tc main_arg9)).trans (B4_main_arg9 V)

theorem B6_main_arg9 (V : Valuation τ sig (Elt Ideal)) : (B6 V) (Proc.devRef .tc main_arg9) = (V (Proc.devRef .tc main_arg9)) :=
  (by keep_win rops6 : (B6 V) (Proc.devRef .tc main_arg9) = (B5 V) (Proc.devRef .tc main_arg9)).trans (B5_main_arg9 V)

theorem B7_main_arg9 (V : Valuation τ sig (Elt Ideal)) : (B7 V) (Proc.devRef .tc main_arg9) = (V (Proc.devRef .tc main_arg9)) :=
  (by keep_win rops7 : (B7 V) (Proc.devRef .tc main_arg9) = (B6 V) (Proc.devRef .tc main_arg9)).trans (B6_main_arg9 V)

theorem B8_main_arg9 (V : Valuation τ sig (Elt Ideal)) : (B8 V) (Proc.devRef .tc main_arg9) = (V (Proc.devRef .tc main_arg9)) :=
  (by keep_win rops8 : (B8 V) (Proc.devRef .tc main_arg9) = (B7 V) (Proc.devRef .tc main_arg9)).trans (B7_main_arg9 V)

theorem B9_main_arg9 (V : Valuation τ sig (Elt Ideal)) : (B9 V) (Proc.devRef .tc main_arg9) = (V (Proc.devRef .tc main_arg9)) :=
  (by keep_win rops9 : (B9 V) (Proc.devRef .tc main_arg9) = (B8 V) (Proc.devRef .tc main_arg9)).trans (B8_main_arg9 V)

theorem B10_main_arg9 (V : Valuation τ sig (Elt Ideal)) : (B10 V) (Proc.devRef .tc main_arg9) = (V (Proc.devRef .tc main_arg9)) :=
  (by keep_win rops10 : (B10 V) (Proc.devRef .tc main_arg9) = (B9 V) (Proc.devRef .tc main_arg9)).trans (B9_main_arg9 V)

theorem B11_main_arg9 (V : Valuation τ sig (Elt Ideal)) : (B11 V) (Proc.devRef .tc main_arg9) = (V (Proc.devRef .tc main_arg9)) :=
  (by keep_win rops11 : (B11 V) (Proc.devRef .tc main_arg9) = (B10 V) (Proc.devRef .tc main_arg9)).trans (B10_main_arg9 V)

theorem B12_main_arg9 (V : Valuation τ sig (Elt Ideal)) : (B12 V) (Proc.devRef .tc main_arg9) = (V (Proc.devRef .tc main_arg9)) :=
  (by keep_win rops12 : (B12 V) (Proc.devRef .tc main_arg9) = (B11 V) (Proc.devRef .tc main_arg9)).trans (B11_main_arg9 V)

theorem B13_main_arg9 (V : Valuation τ sig (Elt Ideal)) : (B13 V) (Proc.devRef .tc main_arg9) = (V (Proc.devRef .tc main_arg9)) :=
  (by keep_win rops13 : (B13 V) (Proc.devRef .tc main_arg9) = (B12 V) (Proc.devRef .tc main_arg9)).trans (B12_main_arg9 V)

theorem B14_main_arg9 (V : Valuation τ sig (Elt Ideal)) : (B14 V) (Proc.devRef .tc main_arg9) = (V (Proc.devRef .tc main_arg9)) :=
  (by keep_win rops14 : (B14 V) (Proc.devRef .tc main_arg9) = (B13 V) (Proc.devRef .tc main_arg9)).trans (B13_main_arg9 V)

theorem B15_main_arg9 (V : Valuation τ sig (Elt Ideal)) : (B15 V) (Proc.devRef .tc main_arg9) = (V (Proc.devRef .tc main_arg9)) :=
  (by keep_win rops15 : (B15 V) (Proc.devRef .tc main_arg9) = (B14 V) (Proc.devRef .tc main_arg9)).trans (B14_main_arg9 V)

theorem B16_main_arg9 (V : Valuation τ sig (Elt Ideal)) : (B16 V) (Proc.devRef .tc main_arg9) = (V (Proc.devRef .tc main_arg9)) :=
  (by keep_win rops16 : (B16 V) (Proc.devRef .tc main_arg9) = (B15 V) (Proc.devRef .tc main_arg9)).trans (B15_main_arg9 V)

theorem B17_main_arg9 (V : Valuation τ sig (Elt Ideal)) : (B17 V) (Proc.devRef .tc main_arg9) = (V (Proc.devRef .tc main_arg9)) :=
  (by keep_win rops17 : (B17 V) (Proc.devRef .tc main_arg9) = (B16 V) (Proc.devRef .tc main_arg9)).trans (B16_main_arg9 V)

theorem after_ops_arg9 (V : Valuation τ sig (Elt Ideal)) :
    StableHlo.after (ops (F := Ideal)) V (Proc.devRef .tc main_arg9) = V (Proc.devRef .tc main_arg9) := by
  rw [ops_windows]
  simp only [after_append']
  exact (B17_main_arg9 V)

theorem B2_main_arg10 (V : Valuation τ sig (Elt Ideal)) : (B2 V) (Proc.devRef .tc main_arg10) = (V (Proc.devRef .tc main_arg10)) :=
  (by keep_win rops2 : (B2 V) (Proc.devRef .tc main_arg10) = (B1 V) (Proc.devRef .tc main_arg10)).trans (B1_main_arg10 V)

theorem B3_main_arg10 (V : Valuation τ sig (Elt Ideal)) : (B3 V) (Proc.devRef .tc main_arg10) = (V (Proc.devRef .tc main_arg10)) :=
  (by keep_win rops3 : (B3 V) (Proc.devRef .tc main_arg10) = (B2 V) (Proc.devRef .tc main_arg10)).trans (B2_main_arg10 V)

theorem B4_main_arg10 (V : Valuation τ sig (Elt Ideal)) : (B4 V) (Proc.devRef .tc main_arg10) = (V (Proc.devRef .tc main_arg10)) :=
  (by keep_win rops4 : (B4 V) (Proc.devRef .tc main_arg10) = (B3 V) (Proc.devRef .tc main_arg10)).trans (B3_main_arg10 V)

theorem B5_main_arg10 (V : Valuation τ sig (Elt Ideal)) : (B5 V) (Proc.devRef .tc main_arg10) = (V (Proc.devRef .tc main_arg10)) :=
  (by keep_win rops5 : (B5 V) (Proc.devRef .tc main_arg10) = (B4 V) (Proc.devRef .tc main_arg10)).trans (B4_main_arg10 V)

theorem B6_main_arg10 (V : Valuation τ sig (Elt Ideal)) : (B6 V) (Proc.devRef .tc main_arg10) = (V (Proc.devRef .tc main_arg10)) :=
  (by keep_win rops6 : (B6 V) (Proc.devRef .tc main_arg10) = (B5 V) (Proc.devRef .tc main_arg10)).trans (B5_main_arg10 V)

theorem B7_main_arg10 (V : Valuation τ sig (Elt Ideal)) : (B7 V) (Proc.devRef .tc main_arg10) = (V (Proc.devRef .tc main_arg10)) :=
  (by keep_win rops7 : (B7 V) (Proc.devRef .tc main_arg10) = (B6 V) (Proc.devRef .tc main_arg10)).trans (B6_main_arg10 V)

theorem B8_main_arg10 (V : Valuation τ sig (Elt Ideal)) : (B8 V) (Proc.devRef .tc main_arg10) = (V (Proc.devRef .tc main_arg10)) :=
  (by keep_win rops8 : (B8 V) (Proc.devRef .tc main_arg10) = (B7 V) (Proc.devRef .tc main_arg10)).trans (B7_main_arg10 V)

theorem B9_main_arg10 (V : Valuation τ sig (Elt Ideal)) : (B9 V) (Proc.devRef .tc main_arg10) = (V (Proc.devRef .tc main_arg10)) :=
  (by keep_win rops9 : (B9 V) (Proc.devRef .tc main_arg10) = (B8 V) (Proc.devRef .tc main_arg10)).trans (B8_main_arg10 V)

theorem B10_main_arg10 (V : Valuation τ sig (Elt Ideal)) : (B10 V) (Proc.devRef .tc main_arg10) = (V (Proc.devRef .tc main_arg10)) :=
  (by keep_win rops10 : (B10 V) (Proc.devRef .tc main_arg10) = (B9 V) (Proc.devRef .tc main_arg10)).trans (B9_main_arg10 V)

theorem B11_main_arg10 (V : Valuation τ sig (Elt Ideal)) : (B11 V) (Proc.devRef .tc main_arg10) = (V (Proc.devRef .tc main_arg10)) :=
  (by keep_win rops11 : (B11 V) (Proc.devRef .tc main_arg10) = (B10 V) (Proc.devRef .tc main_arg10)).trans (B10_main_arg10 V)

theorem B12_main_arg10 (V : Valuation τ sig (Elt Ideal)) : (B12 V) (Proc.devRef .tc main_arg10) = (V (Proc.devRef .tc main_arg10)) :=
  (by keep_win rops12 : (B12 V) (Proc.devRef .tc main_arg10) = (B11 V) (Proc.devRef .tc main_arg10)).trans (B11_main_arg10 V)

theorem B13_main_arg10 (V : Valuation τ sig (Elt Ideal)) : (B13 V) (Proc.devRef .tc main_arg10) = (V (Proc.devRef .tc main_arg10)) :=
  (by keep_win rops13 : (B13 V) (Proc.devRef .tc main_arg10) = (B12 V) (Proc.devRef .tc main_arg10)).trans (B12_main_arg10 V)

theorem B14_main_arg10 (V : Valuation τ sig (Elt Ideal)) : (B14 V) (Proc.devRef .tc main_arg10) = (V (Proc.devRef .tc main_arg10)) :=
  (by keep_win rops14 : (B14 V) (Proc.devRef .tc main_arg10) = (B13 V) (Proc.devRef .tc main_arg10)).trans (B13_main_arg10 V)

theorem B15_main_arg10 (V : Valuation τ sig (Elt Ideal)) : (B15 V) (Proc.devRef .tc main_arg10) = (V (Proc.devRef .tc main_arg10)) :=
  (by keep_win rops15 : (B15 V) (Proc.devRef .tc main_arg10) = (B14 V) (Proc.devRef .tc main_arg10)).trans (B14_main_arg10 V)

theorem B16_main_arg10 (V : Valuation τ sig (Elt Ideal)) : (B16 V) (Proc.devRef .tc main_arg10) = (V (Proc.devRef .tc main_arg10)) :=
  (by keep_win rops16 : (B16 V) (Proc.devRef .tc main_arg10) = (B15 V) (Proc.devRef .tc main_arg10)).trans (B15_main_arg10 V)

theorem B17_main_arg10 (V : Valuation τ sig (Elt Ideal)) : (B17 V) (Proc.devRef .tc main_arg10) = (V (Proc.devRef .tc main_arg10)) :=
  (by keep_win rops17 : (B17 V) (Proc.devRef .tc main_arg10) = (B16 V) (Proc.devRef .tc main_arg10)).trans (B16_main_arg10 V)

theorem after_ops_arg10 (V : Valuation τ sig (Elt Ideal)) :
    StableHlo.after (ops (F := Ideal)) V (Proc.devRef .tc main_arg10) = V (Proc.devRef .tc main_arg10) := by
  rw [ops_windows]
  simp only [after_append']
  exact (B17_main_arg10 V)

theorem B2_main_arg11 (V : Valuation τ sig (Elt Ideal)) : (B2 V) (Proc.devRef .tc main_arg11) = (V (Proc.devRef .tc main_arg11)) :=
  (by keep_win rops2 : (B2 V) (Proc.devRef .tc main_arg11) = (B1 V) (Proc.devRef .tc main_arg11)).trans (B1_main_arg11 V)

theorem B3_main_arg11 (V : Valuation τ sig (Elt Ideal)) : (B3 V) (Proc.devRef .tc main_arg11) = (V (Proc.devRef .tc main_arg11)) :=
  (by keep_win rops3 : (B3 V) (Proc.devRef .tc main_arg11) = (B2 V) (Proc.devRef .tc main_arg11)).trans (B2_main_arg11 V)

theorem B4_main_arg11 (V : Valuation τ sig (Elt Ideal)) : (B4 V) (Proc.devRef .tc main_arg11) = (V (Proc.devRef .tc main_arg11)) :=
  (by keep_win rops4 : (B4 V) (Proc.devRef .tc main_arg11) = (B3 V) (Proc.devRef .tc main_arg11)).trans (B3_main_arg11 V)

theorem B5_main_arg11 (V : Valuation τ sig (Elt Ideal)) : (B5 V) (Proc.devRef .tc main_arg11) = (V (Proc.devRef .tc main_arg11)) :=
  (by keep_win rops5 : (B5 V) (Proc.devRef .tc main_arg11) = (B4 V) (Proc.devRef .tc main_arg11)).trans (B4_main_arg11 V)

theorem B6_main_arg11 (V : Valuation τ sig (Elt Ideal)) : (B6 V) (Proc.devRef .tc main_arg11) = (V (Proc.devRef .tc main_arg11)) :=
  (by keep_win rops6 : (B6 V) (Proc.devRef .tc main_arg11) = (B5 V) (Proc.devRef .tc main_arg11)).trans (B5_main_arg11 V)

theorem B7_main_arg11 (V : Valuation τ sig (Elt Ideal)) : (B7 V) (Proc.devRef .tc main_arg11) = (V (Proc.devRef .tc main_arg11)) :=
  (by keep_win rops7 : (B7 V) (Proc.devRef .tc main_arg11) = (B6 V) (Proc.devRef .tc main_arg11)).trans (B6_main_arg11 V)

theorem B8_main_arg11 (V : Valuation τ sig (Elt Ideal)) : (B8 V) (Proc.devRef .tc main_arg11) = (V (Proc.devRef .tc main_arg11)) :=
  (by keep_win rops8 : (B8 V) (Proc.devRef .tc main_arg11) = (B7 V) (Proc.devRef .tc main_arg11)).trans (B7_main_arg11 V)

theorem B9_main_arg11 (V : Valuation τ sig (Elt Ideal)) : (B9 V) (Proc.devRef .tc main_arg11) = (V (Proc.devRef .tc main_arg11)) :=
  (by keep_win rops9 : (B9 V) (Proc.devRef .tc main_arg11) = (B8 V) (Proc.devRef .tc main_arg11)).trans (B8_main_arg11 V)

theorem B10_main_arg11 (V : Valuation τ sig (Elt Ideal)) : (B10 V) (Proc.devRef .tc main_arg11) = (V (Proc.devRef .tc main_arg11)) :=
  (by keep_win rops10 : (B10 V) (Proc.devRef .tc main_arg11) = (B9 V) (Proc.devRef .tc main_arg11)).trans (B9_main_arg11 V)

theorem B11_main_arg11 (V : Valuation τ sig (Elt Ideal)) : (B11 V) (Proc.devRef .tc main_arg11) = (V (Proc.devRef .tc main_arg11)) :=
  (by keep_win rops11 : (B11 V) (Proc.devRef .tc main_arg11) = (B10 V) (Proc.devRef .tc main_arg11)).trans (B10_main_arg11 V)

theorem B12_main_arg11 (V : Valuation τ sig (Elt Ideal)) : (B12 V) (Proc.devRef .tc main_arg11) = (V (Proc.devRef .tc main_arg11)) :=
  (by keep_win rops12 : (B12 V) (Proc.devRef .tc main_arg11) = (B11 V) (Proc.devRef .tc main_arg11)).trans (B11_main_arg11 V)

theorem B13_main_arg11 (V : Valuation τ sig (Elt Ideal)) : (B13 V) (Proc.devRef .tc main_arg11) = (V (Proc.devRef .tc main_arg11)) :=
  (by keep_win rops13 : (B13 V) (Proc.devRef .tc main_arg11) = (B12 V) (Proc.devRef .tc main_arg11)).trans (B12_main_arg11 V)

theorem B14_main_arg11 (V : Valuation τ sig (Elt Ideal)) : (B14 V) (Proc.devRef .tc main_arg11) = (V (Proc.devRef .tc main_arg11)) :=
  (by keep_win rops14 : (B14 V) (Proc.devRef .tc main_arg11) = (B13 V) (Proc.devRef .tc main_arg11)).trans (B13_main_arg11 V)

theorem B15_main_arg11 (V : Valuation τ sig (Elt Ideal)) : (B15 V) (Proc.devRef .tc main_arg11) = (V (Proc.devRef .tc main_arg11)) :=
  (by keep_win rops15 : (B15 V) (Proc.devRef .tc main_arg11) = (B14 V) (Proc.devRef .tc main_arg11)).trans (B14_main_arg11 V)

theorem B16_main_arg11 (V : Valuation τ sig (Elt Ideal)) : (B16 V) (Proc.devRef .tc main_arg11) = (V (Proc.devRef .tc main_arg11)) :=
  (by keep_win rops16 : (B16 V) (Proc.devRef .tc main_arg11) = (B15 V) (Proc.devRef .tc main_arg11)).trans (B15_main_arg11 V)

theorem B17_main_arg11 (V : Valuation τ sig (Elt Ideal)) : (B17 V) (Proc.devRef .tc main_arg11) = (V (Proc.devRef .tc main_arg11)) :=
  (by keep_win rops17 : (B17 V) (Proc.devRef .tc main_arg11) = (B16 V) (Proc.devRef .tc main_arg11)).trans (B16_main_arg11 V)

theorem after_ops_arg11 (V : Valuation τ sig (Elt Ideal)) :
    StableHlo.after (ops (F := Ideal)) V (Proc.devRef .tc main_arg11) = V (Proc.devRef .tc main_arg11) := by
  rw [ops_windows]
  simp only [after_append']
  exact (B17_main_arg11 V)

theorem B2_main_arg12 (V : Valuation τ sig (Elt Ideal)) : (B2 V) (Proc.devRef .tc main_arg12) = (V (Proc.devRef .tc main_arg12)) :=
  (by keep_win rops2 : (B2 V) (Proc.devRef .tc main_arg12) = (B1 V) (Proc.devRef .tc main_arg12)).trans (B1_main_arg12 V)

theorem B3_main_arg12 (V : Valuation τ sig (Elt Ideal)) : (B3 V) (Proc.devRef .tc main_arg12) = (V (Proc.devRef .tc main_arg12)) :=
  (by keep_win rops3 : (B3 V) (Proc.devRef .tc main_arg12) = (B2 V) (Proc.devRef .tc main_arg12)).trans (B2_main_arg12 V)

theorem B4_main_arg12 (V : Valuation τ sig (Elt Ideal)) : (B4 V) (Proc.devRef .tc main_arg12) = (V (Proc.devRef .tc main_arg12)) :=
  (by keep_win rops4 : (B4 V) (Proc.devRef .tc main_arg12) = (B3 V) (Proc.devRef .tc main_arg12)).trans (B3_main_arg12 V)

theorem B5_main_arg12 (V : Valuation τ sig (Elt Ideal)) : (B5 V) (Proc.devRef .tc main_arg12) = (V (Proc.devRef .tc main_arg12)) :=
  (by keep_win rops5 : (B5 V) (Proc.devRef .tc main_arg12) = (B4 V) (Proc.devRef .tc main_arg12)).trans (B4_main_arg12 V)

theorem B6_main_arg12 (V : Valuation τ sig (Elt Ideal)) : (B6 V) (Proc.devRef .tc main_arg12) = (V (Proc.devRef .tc main_arg12)) :=
  (by keep_win rops6 : (B6 V) (Proc.devRef .tc main_arg12) = (B5 V) (Proc.devRef .tc main_arg12)).trans (B5_main_arg12 V)

theorem B7_main_arg12 (V : Valuation τ sig (Elt Ideal)) : (B7 V) (Proc.devRef .tc main_arg12) = (V (Proc.devRef .tc main_arg12)) :=
  (by keep_win rops7 : (B7 V) (Proc.devRef .tc main_arg12) = (B6 V) (Proc.devRef .tc main_arg12)).trans (B6_main_arg12 V)

theorem B8_main_arg12 (V : Valuation τ sig (Elt Ideal)) : (B8 V) (Proc.devRef .tc main_arg12) = (V (Proc.devRef .tc main_arg12)) :=
  (by keep_win rops8 : (B8 V) (Proc.devRef .tc main_arg12) = (B7 V) (Proc.devRef .tc main_arg12)).trans (B7_main_arg12 V)

theorem B9_main_arg12 (V : Valuation τ sig (Elt Ideal)) : (B9 V) (Proc.devRef .tc main_arg12) = (V (Proc.devRef .tc main_arg12)) :=
  (by keep_win rops9 : (B9 V) (Proc.devRef .tc main_arg12) = (B8 V) (Proc.devRef .tc main_arg12)).trans (B8_main_arg12 V)

theorem B10_main_arg12 (V : Valuation τ sig (Elt Ideal)) : (B10 V) (Proc.devRef .tc main_arg12) = (V (Proc.devRef .tc main_arg12)) :=
  (by keep_win rops10 : (B10 V) (Proc.devRef .tc main_arg12) = (B9 V) (Proc.devRef .tc main_arg12)).trans (B9_main_arg12 V)

theorem B11_main_arg12 (V : Valuation τ sig (Elt Ideal)) : (B11 V) (Proc.devRef .tc main_arg12) = (V (Proc.devRef .tc main_arg12)) :=
  (by keep_win rops11 : (B11 V) (Proc.devRef .tc main_arg12) = (B10 V) (Proc.devRef .tc main_arg12)).trans (B10_main_arg12 V)

theorem B12_main_arg12 (V : Valuation τ sig (Elt Ideal)) : (B12 V) (Proc.devRef .tc main_arg12) = (V (Proc.devRef .tc main_arg12)) :=
  (by keep_win rops12 : (B12 V) (Proc.devRef .tc main_arg12) = (B11 V) (Proc.devRef .tc main_arg12)).trans (B11_main_arg12 V)

theorem B13_main_arg12 (V : Valuation τ sig (Elt Ideal)) : (B13 V) (Proc.devRef .tc main_arg12) = (V (Proc.devRef .tc main_arg12)) :=
  (by keep_win rops13 : (B13 V) (Proc.devRef .tc main_arg12) = (B12 V) (Proc.devRef .tc main_arg12)).trans (B12_main_arg12 V)

theorem B14_main_arg12 (V : Valuation τ sig (Elt Ideal)) : (B14 V) (Proc.devRef .tc main_arg12) = (V (Proc.devRef .tc main_arg12)) :=
  (by keep_win rops14 : (B14 V) (Proc.devRef .tc main_arg12) = (B13 V) (Proc.devRef .tc main_arg12)).trans (B13_main_arg12 V)

theorem B15_main_arg12 (V : Valuation τ sig (Elt Ideal)) : (B15 V) (Proc.devRef .tc main_arg12) = (V (Proc.devRef .tc main_arg12)) :=
  (by keep_win rops15 : (B15 V) (Proc.devRef .tc main_arg12) = (B14 V) (Proc.devRef .tc main_arg12)).trans (B14_main_arg12 V)

theorem B16_main_arg12 (V : Valuation τ sig (Elt Ideal)) : (B16 V) (Proc.devRef .tc main_arg12) = (V (Proc.devRef .tc main_arg12)) :=
  (by keep_win rops16 : (B16 V) (Proc.devRef .tc main_arg12) = (B15 V) (Proc.devRef .tc main_arg12)).trans (B15_main_arg12 V)

theorem B17_main_arg12 (V : Valuation τ sig (Elt Ideal)) : (B17 V) (Proc.devRef .tc main_arg12) = (V (Proc.devRef .tc main_arg12)) :=
  (by keep_win rops17 : (B17 V) (Proc.devRef .tc main_arg12) = (B16 V) (Proc.devRef .tc main_arg12)).trans (B16_main_arg12 V)

theorem after_ops_arg12 (V : Valuation τ sig (Elt Ideal)) :
    StableHlo.after (ops (F := Ideal)) V (Proc.devRef .tc main_arg12) = V (Proc.devRef .tc main_arg12) := by
  rw [ops_windows]
  simp only [after_append']
  exact (B17_main_arg12 V)

theorem B2_main_arg13 (V : Valuation τ sig (Elt Ideal)) : (B2 V) (Proc.devRef .tc main_arg13) = (V (Proc.devRef .tc main_arg13)) :=
  (by keep_win rops2 : (B2 V) (Proc.devRef .tc main_arg13) = (B1 V) (Proc.devRef .tc main_arg13)).trans (B1_main_arg13 V)

theorem B3_main_arg13 (V : Valuation τ sig (Elt Ideal)) : (B3 V) (Proc.devRef .tc main_arg13) = (V (Proc.devRef .tc main_arg13)) :=
  (by keep_win rops3 : (B3 V) (Proc.devRef .tc main_arg13) = (B2 V) (Proc.devRef .tc main_arg13)).trans (B2_main_arg13 V)

theorem B4_main_arg13 (V : Valuation τ sig (Elt Ideal)) : (B4 V) (Proc.devRef .tc main_arg13) = (V (Proc.devRef .tc main_arg13)) :=
  (by keep_win rops4 : (B4 V) (Proc.devRef .tc main_arg13) = (B3 V) (Proc.devRef .tc main_arg13)).trans (B3_main_arg13 V)

theorem B5_main_arg13 (V : Valuation τ sig (Elt Ideal)) : (B5 V) (Proc.devRef .tc main_arg13) = (V (Proc.devRef .tc main_arg13)) :=
  (by keep_win rops5 : (B5 V) (Proc.devRef .tc main_arg13) = (B4 V) (Proc.devRef .tc main_arg13)).trans (B4_main_arg13 V)

theorem B6_main_arg13 (V : Valuation τ sig (Elt Ideal)) : (B6 V) (Proc.devRef .tc main_arg13) = (V (Proc.devRef .tc main_arg13)) :=
  (by keep_win rops6 : (B6 V) (Proc.devRef .tc main_arg13) = (B5 V) (Proc.devRef .tc main_arg13)).trans (B5_main_arg13 V)

theorem B7_main_arg13 (V : Valuation τ sig (Elt Ideal)) : (B7 V) (Proc.devRef .tc main_arg13) = (V (Proc.devRef .tc main_arg13)) :=
  (by keep_win rops7 : (B7 V) (Proc.devRef .tc main_arg13) = (B6 V) (Proc.devRef .tc main_arg13)).trans (B6_main_arg13 V)

theorem B8_main_arg13 (V : Valuation τ sig (Elt Ideal)) : (B8 V) (Proc.devRef .tc main_arg13) = (V (Proc.devRef .tc main_arg13)) :=
  (by keep_win rops8 : (B8 V) (Proc.devRef .tc main_arg13) = (B7 V) (Proc.devRef .tc main_arg13)).trans (B7_main_arg13 V)

theorem B9_main_arg13 (V : Valuation τ sig (Elt Ideal)) : (B9 V) (Proc.devRef .tc main_arg13) = (V (Proc.devRef .tc main_arg13)) :=
  (by keep_win rops9 : (B9 V) (Proc.devRef .tc main_arg13) = (B8 V) (Proc.devRef .tc main_arg13)).trans (B8_main_arg13 V)

theorem B10_main_arg13 (V : Valuation τ sig (Elt Ideal)) : (B10 V) (Proc.devRef .tc main_arg13) = (V (Proc.devRef .tc main_arg13)) :=
  (by keep_win rops10 : (B10 V) (Proc.devRef .tc main_arg13) = (B9 V) (Proc.devRef .tc main_arg13)).trans (B9_main_arg13 V)

theorem B11_main_arg13 (V : Valuation τ sig (Elt Ideal)) : (B11 V) (Proc.devRef .tc main_arg13) = (V (Proc.devRef .tc main_arg13)) :=
  (by keep_win rops11 : (B11 V) (Proc.devRef .tc main_arg13) = (B10 V) (Proc.devRef .tc main_arg13)).trans (B10_main_arg13 V)

theorem B12_main_arg13 (V : Valuation τ sig (Elt Ideal)) : (B12 V) (Proc.devRef .tc main_arg13) = (V (Proc.devRef .tc main_arg13)) :=
  (by keep_win rops12 : (B12 V) (Proc.devRef .tc main_arg13) = (B11 V) (Proc.devRef .tc main_arg13)).trans (B11_main_arg13 V)

theorem B13_main_arg13 (V : Valuation τ sig (Elt Ideal)) : (B13 V) (Proc.devRef .tc main_arg13) = (V (Proc.devRef .tc main_arg13)) :=
  (by keep_win rops13 : (B13 V) (Proc.devRef .tc main_arg13) = (B12 V) (Proc.devRef .tc main_arg13)).trans (B12_main_arg13 V)

theorem B14_main_arg13 (V : Valuation τ sig (Elt Ideal)) : (B14 V) (Proc.devRef .tc main_arg13) = (V (Proc.devRef .tc main_arg13)) :=
  (by keep_win rops14 : (B14 V) (Proc.devRef .tc main_arg13) = (B13 V) (Proc.devRef .tc main_arg13)).trans (B13_main_arg13 V)

theorem B15_main_arg13 (V : Valuation τ sig (Elt Ideal)) : (B15 V) (Proc.devRef .tc main_arg13) = (V (Proc.devRef .tc main_arg13)) :=
  (by keep_win rops15 : (B15 V) (Proc.devRef .tc main_arg13) = (B14 V) (Proc.devRef .tc main_arg13)).trans (B14_main_arg13 V)

theorem B16_main_arg13 (V : Valuation τ sig (Elt Ideal)) : (B16 V) (Proc.devRef .tc main_arg13) = (V (Proc.devRef .tc main_arg13)) :=
  (by keep_win rops16 : (B16 V) (Proc.devRef .tc main_arg13) = (B15 V) (Proc.devRef .tc main_arg13)).trans (B15_main_arg13 V)

theorem B17_main_arg13 (V : Valuation τ sig (Elt Ideal)) : (B17 V) (Proc.devRef .tc main_arg13) = (V (Proc.devRef .tc main_arg13)) :=
  (by keep_win rops17 : (B17 V) (Proc.devRef .tc main_arg13) = (B16 V) (Proc.devRef .tc main_arg13)).trans (B16_main_arg13 V)

theorem after_ops_arg13 (V : Valuation τ sig (Elt Ideal)) :
    StableHlo.after (ops (F := Ideal)) V (Proc.devRef .tc main_arg13) = V (Proc.devRef .tc main_arg13) := by
  rw [ops_windows]
  simp only [after_append']
  exact (B17_main_arg13 V)

theorem B2_main_arg14 (V : Valuation τ sig (Elt Ideal)) : (B2 V) (Proc.devRef .tc main_arg14) = (V (Proc.devRef .tc main_arg14)) :=
  (by keep_win rops2 : (B2 V) (Proc.devRef .tc main_arg14) = (B1 V) (Proc.devRef .tc main_arg14)).trans (B1_main_arg14 V)

theorem B3_main_arg14 (V : Valuation τ sig (Elt Ideal)) : (B3 V) (Proc.devRef .tc main_arg14) = (V (Proc.devRef .tc main_arg14)) :=
  (by keep_win rops3 : (B3 V) (Proc.devRef .tc main_arg14) = (B2 V) (Proc.devRef .tc main_arg14)).trans (B2_main_arg14 V)

theorem B4_main_arg14 (V : Valuation τ sig (Elt Ideal)) : (B4 V) (Proc.devRef .tc main_arg14) = (V (Proc.devRef .tc main_arg14)) :=
  (by keep_win rops4 : (B4 V) (Proc.devRef .tc main_arg14) = (B3 V) (Proc.devRef .tc main_arg14)).trans (B3_main_arg14 V)

theorem B5_main_arg14 (V : Valuation τ sig (Elt Ideal)) : (B5 V) (Proc.devRef .tc main_arg14) = (V (Proc.devRef .tc main_arg14)) :=
  (by keep_win rops5 : (B5 V) (Proc.devRef .tc main_arg14) = (B4 V) (Proc.devRef .tc main_arg14)).trans (B4_main_arg14 V)

theorem B6_main_arg14 (V : Valuation τ sig (Elt Ideal)) : (B6 V) (Proc.devRef .tc main_arg14) = (V (Proc.devRef .tc main_arg14)) :=
  (by keep_win rops6 : (B6 V) (Proc.devRef .tc main_arg14) = (B5 V) (Proc.devRef .tc main_arg14)).trans (B5_main_arg14 V)

theorem B7_main_arg14 (V : Valuation τ sig (Elt Ideal)) : (B7 V) (Proc.devRef .tc main_arg14) = (V (Proc.devRef .tc main_arg14)) :=
  (by keep_win rops7 : (B7 V) (Proc.devRef .tc main_arg14) = (B6 V) (Proc.devRef .tc main_arg14)).trans (B6_main_arg14 V)

theorem B8_main_arg14 (V : Valuation τ sig (Elt Ideal)) : (B8 V) (Proc.devRef .tc main_arg14) = (V (Proc.devRef .tc main_arg14)) :=
  (by keep_win rops8 : (B8 V) (Proc.devRef .tc main_arg14) = (B7 V) (Proc.devRef .tc main_arg14)).trans (B7_main_arg14 V)

theorem B9_main_arg14 (V : Valuation τ sig (Elt Ideal)) : (B9 V) (Proc.devRef .tc main_arg14) = (V (Proc.devRef .tc main_arg14)) :=
  (by keep_win rops9 : (B9 V) (Proc.devRef .tc main_arg14) = (B8 V) (Proc.devRef .tc main_arg14)).trans (B8_main_arg14 V)

theorem B10_main_arg14 (V : Valuation τ sig (Elt Ideal)) : (B10 V) (Proc.devRef .tc main_arg14) = (V (Proc.devRef .tc main_arg14)) :=
  (by keep_win rops10 : (B10 V) (Proc.devRef .tc main_arg14) = (B9 V) (Proc.devRef .tc main_arg14)).trans (B9_main_arg14 V)

theorem B11_main_arg14 (V : Valuation τ sig (Elt Ideal)) : (B11 V) (Proc.devRef .tc main_arg14) = (V (Proc.devRef .tc main_arg14)) :=
  (by keep_win rops11 : (B11 V) (Proc.devRef .tc main_arg14) = (B10 V) (Proc.devRef .tc main_arg14)).trans (B10_main_arg14 V)

theorem B12_main_arg14 (V : Valuation τ sig (Elt Ideal)) : (B12 V) (Proc.devRef .tc main_arg14) = (V (Proc.devRef .tc main_arg14)) :=
  (by keep_win rops12 : (B12 V) (Proc.devRef .tc main_arg14) = (B11 V) (Proc.devRef .tc main_arg14)).trans (B11_main_arg14 V)

theorem B13_main_arg14 (V : Valuation τ sig (Elt Ideal)) : (B13 V) (Proc.devRef .tc main_arg14) = (V (Proc.devRef .tc main_arg14)) :=
  (by keep_win rops13 : (B13 V) (Proc.devRef .tc main_arg14) = (B12 V) (Proc.devRef .tc main_arg14)).trans (B12_main_arg14 V)

theorem B14_main_arg14 (V : Valuation τ sig (Elt Ideal)) : (B14 V) (Proc.devRef .tc main_arg14) = (V (Proc.devRef .tc main_arg14)) :=
  (by keep_win rops14 : (B14 V) (Proc.devRef .tc main_arg14) = (B13 V) (Proc.devRef .tc main_arg14)).trans (B13_main_arg14 V)

theorem B15_main_arg14 (V : Valuation τ sig (Elt Ideal)) : (B15 V) (Proc.devRef .tc main_arg14) = (V (Proc.devRef .tc main_arg14)) :=
  (by keep_win rops15 : (B15 V) (Proc.devRef .tc main_arg14) = (B14 V) (Proc.devRef .tc main_arg14)).trans (B14_main_arg14 V)

theorem B16_main_arg14 (V : Valuation τ sig (Elt Ideal)) : (B16 V) (Proc.devRef .tc main_arg14) = (V (Proc.devRef .tc main_arg14)) :=
  (by keep_win rops16 : (B16 V) (Proc.devRef .tc main_arg14) = (B15 V) (Proc.devRef .tc main_arg14)).trans (B15_main_arg14 V)

theorem B17_main_arg14 (V : Valuation τ sig (Elt Ideal)) : (B17 V) (Proc.devRef .tc main_arg14) = (V (Proc.devRef .tc main_arg14)) :=
  (by keep_win rops17 : (B17 V) (Proc.devRef .tc main_arg14) = (B16 V) (Proc.devRef .tc main_arg14)).trans (B16_main_arg14 V)

theorem after_ops_arg14 (V : Valuation τ sig (Elt Ideal)) :
    StableHlo.after (ops (F := Ideal)) V (Proc.devRef .tc main_arg14) = V (Proc.devRef .tc main_arg14) := by
  rw [ops_windows]
  simp only [after_append']
  exact (B17_main_arg14 V)

theorem B2_main_arg15 (V : Valuation τ sig (Elt Ideal)) : (B2 V) (Proc.devRef .tc main_arg15) = (V (Proc.devRef .tc main_arg15)) :=
  (by keep_win rops2 : (B2 V) (Proc.devRef .tc main_arg15) = (B1 V) (Proc.devRef .tc main_arg15)).trans (B1_main_arg15 V)

theorem B3_main_arg15 (V : Valuation τ sig (Elt Ideal)) : (B3 V) (Proc.devRef .tc main_arg15) = (V (Proc.devRef .tc main_arg15)) :=
  (by keep_win rops3 : (B3 V) (Proc.devRef .tc main_arg15) = (B2 V) (Proc.devRef .tc main_arg15)).trans (B2_main_arg15 V)

theorem B4_main_arg15 (V : Valuation τ sig (Elt Ideal)) : (B4 V) (Proc.devRef .tc main_arg15) = (V (Proc.devRef .tc main_arg15)) :=
  (by keep_win rops4 : (B4 V) (Proc.devRef .tc main_arg15) = (B3 V) (Proc.devRef .tc main_arg15)).trans (B3_main_arg15 V)

theorem B5_main_arg15 (V : Valuation τ sig (Elt Ideal)) : (B5 V) (Proc.devRef .tc main_arg15) = (V (Proc.devRef .tc main_arg15)) :=
  (by keep_win rops5 : (B5 V) (Proc.devRef .tc main_arg15) = (B4 V) (Proc.devRef .tc main_arg15)).trans (B4_main_arg15 V)

theorem B6_main_arg15 (V : Valuation τ sig (Elt Ideal)) : (B6 V) (Proc.devRef .tc main_arg15) = (V (Proc.devRef .tc main_arg15)) :=
  (by keep_win rops6 : (B6 V) (Proc.devRef .tc main_arg15) = (B5 V) (Proc.devRef .tc main_arg15)).trans (B5_main_arg15 V)

theorem B7_main_arg15 (V : Valuation τ sig (Elt Ideal)) : (B7 V) (Proc.devRef .tc main_arg15) = (V (Proc.devRef .tc main_arg15)) :=
  (by keep_win rops7 : (B7 V) (Proc.devRef .tc main_arg15) = (B6 V) (Proc.devRef .tc main_arg15)).trans (B6_main_arg15 V)

theorem B8_main_arg15 (V : Valuation τ sig (Elt Ideal)) : (B8 V) (Proc.devRef .tc main_arg15) = (V (Proc.devRef .tc main_arg15)) :=
  (by keep_win rops8 : (B8 V) (Proc.devRef .tc main_arg15) = (B7 V) (Proc.devRef .tc main_arg15)).trans (B7_main_arg15 V)

theorem B9_main_arg15 (V : Valuation τ sig (Elt Ideal)) : (B9 V) (Proc.devRef .tc main_arg15) = (V (Proc.devRef .tc main_arg15)) :=
  (by keep_win rops9 : (B9 V) (Proc.devRef .tc main_arg15) = (B8 V) (Proc.devRef .tc main_arg15)).trans (B8_main_arg15 V)

theorem B10_main_arg15 (V : Valuation τ sig (Elt Ideal)) : (B10 V) (Proc.devRef .tc main_arg15) = (V (Proc.devRef .tc main_arg15)) :=
  (by keep_win rops10 : (B10 V) (Proc.devRef .tc main_arg15) = (B9 V) (Proc.devRef .tc main_arg15)).trans (B9_main_arg15 V)

theorem B11_main_arg15 (V : Valuation τ sig (Elt Ideal)) : (B11 V) (Proc.devRef .tc main_arg15) = (V (Proc.devRef .tc main_arg15)) :=
  (by keep_win rops11 : (B11 V) (Proc.devRef .tc main_arg15) = (B10 V) (Proc.devRef .tc main_arg15)).trans (B10_main_arg15 V)

theorem B12_main_arg15 (V : Valuation τ sig (Elt Ideal)) : (B12 V) (Proc.devRef .tc main_arg15) = (V (Proc.devRef .tc main_arg15)) :=
  (by keep_win rops12 : (B12 V) (Proc.devRef .tc main_arg15) = (B11 V) (Proc.devRef .tc main_arg15)).trans (B11_main_arg15 V)

theorem B13_main_arg15 (V : Valuation τ sig (Elt Ideal)) : (B13 V) (Proc.devRef .tc main_arg15) = (V (Proc.devRef .tc main_arg15)) :=
  (by keep_win rops13 : (B13 V) (Proc.devRef .tc main_arg15) = (B12 V) (Proc.devRef .tc main_arg15)).trans (B12_main_arg15 V)

theorem B14_main_arg15 (V : Valuation τ sig (Elt Ideal)) : (B14 V) (Proc.devRef .tc main_arg15) = (V (Proc.devRef .tc main_arg15)) :=
  (by keep_win rops14 : (B14 V) (Proc.devRef .tc main_arg15) = (B13 V) (Proc.devRef .tc main_arg15)).trans (B13_main_arg15 V)

theorem B15_main_arg15 (V : Valuation τ sig (Elt Ideal)) : (B15 V) (Proc.devRef .tc main_arg15) = (V (Proc.devRef .tc main_arg15)) :=
  (by keep_win rops15 : (B15 V) (Proc.devRef .tc main_arg15) = (B14 V) (Proc.devRef .tc main_arg15)).trans (B14_main_arg15 V)

theorem B16_main_arg15 (V : Valuation τ sig (Elt Ideal)) : (B16 V) (Proc.devRef .tc main_arg15) = (V (Proc.devRef .tc main_arg15)) :=
  (by keep_win rops16 : (B16 V) (Proc.devRef .tc main_arg15) = (B15 V) (Proc.devRef .tc main_arg15)).trans (B15_main_arg15 V)

theorem B17_main_arg15 (V : Valuation τ sig (Elt Ideal)) : (B17 V) (Proc.devRef .tc main_arg15) = (V (Proc.devRef .tc main_arg15)) :=
  (by keep_win rops17 : (B17 V) (Proc.devRef .tc main_arg15) = (B16 V) (Proc.devRef .tc main_arg15)).trans (B16_main_arg15 V)

theorem after_ops_arg15 (V : Valuation τ sig (Elt Ideal)) :
    StableHlo.after (ops (F := Ideal)) V (Proc.devRef .tc main_arg15) = V (Proc.devRef .tc main_arg15) := by
  rw [ops_windows]
  simp only [after_append']
  exact (B17_main_arg15 V)

theorem B2_main_arg16 (V : Valuation τ sig (Elt Ideal)) : (B2 V) (Proc.devRef .tc main_arg16) = (V (Proc.devRef .tc main_arg16)) :=
  (by keep_win rops2 : (B2 V) (Proc.devRef .tc main_arg16) = (B1 V) (Proc.devRef .tc main_arg16)).trans (B1_main_arg16 V)

theorem B3_main_arg16 (V : Valuation τ sig (Elt Ideal)) : (B3 V) (Proc.devRef .tc main_arg16) = (V (Proc.devRef .tc main_arg16)) :=
  (by keep_win rops3 : (B3 V) (Proc.devRef .tc main_arg16) = (B2 V) (Proc.devRef .tc main_arg16)).trans (B2_main_arg16 V)

theorem B4_main_arg16 (V : Valuation τ sig (Elt Ideal)) : (B4 V) (Proc.devRef .tc main_arg16) = (V (Proc.devRef .tc main_arg16)) :=
  (by keep_win rops4 : (B4 V) (Proc.devRef .tc main_arg16) = (B3 V) (Proc.devRef .tc main_arg16)).trans (B3_main_arg16 V)

theorem B5_main_arg16 (V : Valuation τ sig (Elt Ideal)) : (B5 V) (Proc.devRef .tc main_arg16) = (V (Proc.devRef .tc main_arg16)) :=
  (by keep_win rops5 : (B5 V) (Proc.devRef .tc main_arg16) = (B4 V) (Proc.devRef .tc main_arg16)).trans (B4_main_arg16 V)

theorem B6_main_arg16 (V : Valuation τ sig (Elt Ideal)) : (B6 V) (Proc.devRef .tc main_arg16) = (V (Proc.devRef .tc main_arg16)) :=
  (by keep_win rops6 : (B6 V) (Proc.devRef .tc main_arg16) = (B5 V) (Proc.devRef .tc main_arg16)).trans (B5_main_arg16 V)

theorem B7_main_arg16 (V : Valuation τ sig (Elt Ideal)) : (B7 V) (Proc.devRef .tc main_arg16) = (V (Proc.devRef .tc main_arg16)) :=
  (by keep_win rops7 : (B7 V) (Proc.devRef .tc main_arg16) = (B6 V) (Proc.devRef .tc main_arg16)).trans (B6_main_arg16 V)

theorem B8_main_arg16 (V : Valuation τ sig (Elt Ideal)) : (B8 V) (Proc.devRef .tc main_arg16) = (V (Proc.devRef .tc main_arg16)) :=
  (by keep_win rops8 : (B8 V) (Proc.devRef .tc main_arg16) = (B7 V) (Proc.devRef .tc main_arg16)).trans (B7_main_arg16 V)

theorem B9_main_arg16 (V : Valuation τ sig (Elt Ideal)) : (B9 V) (Proc.devRef .tc main_arg16) = (V (Proc.devRef .tc main_arg16)) :=
  (by keep_win rops9 : (B9 V) (Proc.devRef .tc main_arg16) = (B8 V) (Proc.devRef .tc main_arg16)).trans (B8_main_arg16 V)

theorem B10_main_arg16 (V : Valuation τ sig (Elt Ideal)) : (B10 V) (Proc.devRef .tc main_arg16) = (V (Proc.devRef .tc main_arg16)) :=
  (by keep_win rops10 : (B10 V) (Proc.devRef .tc main_arg16) = (B9 V) (Proc.devRef .tc main_arg16)).trans (B9_main_arg16 V)

theorem B11_main_arg16 (V : Valuation τ sig (Elt Ideal)) : (B11 V) (Proc.devRef .tc main_arg16) = (V (Proc.devRef .tc main_arg16)) :=
  (by keep_win rops11 : (B11 V) (Proc.devRef .tc main_arg16) = (B10 V) (Proc.devRef .tc main_arg16)).trans (B10_main_arg16 V)

theorem B12_main_arg16 (V : Valuation τ sig (Elt Ideal)) : (B12 V) (Proc.devRef .tc main_arg16) = (V (Proc.devRef .tc main_arg16)) :=
  (by keep_win rops12 : (B12 V) (Proc.devRef .tc main_arg16) = (B11 V) (Proc.devRef .tc main_arg16)).trans (B11_main_arg16 V)

theorem B13_main_arg16 (V : Valuation τ sig (Elt Ideal)) : (B13 V) (Proc.devRef .tc main_arg16) = (V (Proc.devRef .tc main_arg16)) :=
  (by keep_win rops13 : (B13 V) (Proc.devRef .tc main_arg16) = (B12 V) (Proc.devRef .tc main_arg16)).trans (B12_main_arg16 V)

theorem B14_main_arg16 (V : Valuation τ sig (Elt Ideal)) : (B14 V) (Proc.devRef .tc main_arg16) = (V (Proc.devRef .tc main_arg16)) :=
  (by keep_win rops14 : (B14 V) (Proc.devRef .tc main_arg16) = (B13 V) (Proc.devRef .tc main_arg16)).trans (B13_main_arg16 V)

theorem B15_main_arg16 (V : Valuation τ sig (Elt Ideal)) : (B15 V) (Proc.devRef .tc main_arg16) = (V (Proc.devRef .tc main_arg16)) :=
  (by keep_win rops15 : (B15 V) (Proc.devRef .tc main_arg16) = (B14 V) (Proc.devRef .tc main_arg16)).trans (B14_main_arg16 V)

theorem B16_main_arg16 (V : Valuation τ sig (Elt Ideal)) : (B16 V) (Proc.devRef .tc main_arg16) = (V (Proc.devRef .tc main_arg16)) :=
  (by keep_win rops16 : (B16 V) (Proc.devRef .tc main_arg16) = (B15 V) (Proc.devRef .tc main_arg16)).trans (B15_main_arg16 V)

theorem B17_main_arg16 (V : Valuation τ sig (Elt Ideal)) : (B17 V) (Proc.devRef .tc main_arg16) = (V (Proc.devRef .tc main_arg16)) :=
  (by keep_win rops17 : (B17 V) (Proc.devRef .tc main_arg16) = (B16 V) (Proc.devRef .tc main_arg16)).trans (B16_main_arg16 V)

theorem after_ops_arg16 (V : Valuation τ sig (Elt Ideal)) :
    StableHlo.after (ops (F := Ideal)) V (Proc.devRef .tc main_arg16) = V (Proc.devRef .tc main_arg16) := by
  rw [ops_windows]
  simp only [after_append']
  exact (B17_main_arg16 V)

theorem B2_main_arg17 (V : Valuation τ sig (Elt Ideal)) : (B2 V) (Proc.devRef .tc main_arg17) = (V (Proc.devRef .tc main_arg17)) :=
  (by keep_win rops2 : (B2 V) (Proc.devRef .tc main_arg17) = (B1 V) (Proc.devRef .tc main_arg17)).trans (B1_main_arg17 V)

theorem B3_main_arg17 (V : Valuation τ sig (Elt Ideal)) : (B3 V) (Proc.devRef .tc main_arg17) = (V (Proc.devRef .tc main_arg17)) :=
  (by keep_win rops3 : (B3 V) (Proc.devRef .tc main_arg17) = (B2 V) (Proc.devRef .tc main_arg17)).trans (B2_main_arg17 V)

theorem B4_main_arg17 (V : Valuation τ sig (Elt Ideal)) : (B4 V) (Proc.devRef .tc main_arg17) = (V (Proc.devRef .tc main_arg17)) :=
  (by keep_win rops4 : (B4 V) (Proc.devRef .tc main_arg17) = (B3 V) (Proc.devRef .tc main_arg17)).trans (B3_main_arg17 V)

theorem B5_main_arg17 (V : Valuation τ sig (Elt Ideal)) : (B5 V) (Proc.devRef .tc main_arg17) = (V (Proc.devRef .tc main_arg17)) :=
  (by keep_win rops5 : (B5 V) (Proc.devRef .tc main_arg17) = (B4 V) (Proc.devRef .tc main_arg17)).trans (B4_main_arg17 V)

theorem B6_main_arg17 (V : Valuation τ sig (Elt Ideal)) : (B6 V) (Proc.devRef .tc main_arg17) = (V (Proc.devRef .tc main_arg17)) :=
  (by keep_win rops6 : (B6 V) (Proc.devRef .tc main_arg17) = (B5 V) (Proc.devRef .tc main_arg17)).trans (B5_main_arg17 V)

theorem B7_main_arg17 (V : Valuation τ sig (Elt Ideal)) : (B7 V) (Proc.devRef .tc main_arg17) = (V (Proc.devRef .tc main_arg17)) :=
  (by keep_win rops7 : (B7 V) (Proc.devRef .tc main_arg17) = (B6 V) (Proc.devRef .tc main_arg17)).trans (B6_main_arg17 V)

theorem B8_main_arg17 (V : Valuation τ sig (Elt Ideal)) : (B8 V) (Proc.devRef .tc main_arg17) = (V (Proc.devRef .tc main_arg17)) :=
  (by keep_win rops8 : (B8 V) (Proc.devRef .tc main_arg17) = (B7 V) (Proc.devRef .tc main_arg17)).trans (B7_main_arg17 V)

theorem B9_main_arg17 (V : Valuation τ sig (Elt Ideal)) : (B9 V) (Proc.devRef .tc main_arg17) = (V (Proc.devRef .tc main_arg17)) :=
  (by keep_win rops9 : (B9 V) (Proc.devRef .tc main_arg17) = (B8 V) (Proc.devRef .tc main_arg17)).trans (B8_main_arg17 V)

theorem B10_main_arg17 (V : Valuation τ sig (Elt Ideal)) : (B10 V) (Proc.devRef .tc main_arg17) = (V (Proc.devRef .tc main_arg17)) :=
  (by keep_win rops10 : (B10 V) (Proc.devRef .tc main_arg17) = (B9 V) (Proc.devRef .tc main_arg17)).trans (B9_main_arg17 V)

theorem B11_main_arg17 (V : Valuation τ sig (Elt Ideal)) : (B11 V) (Proc.devRef .tc main_arg17) = (V (Proc.devRef .tc main_arg17)) :=
  (by keep_win rops11 : (B11 V) (Proc.devRef .tc main_arg17) = (B10 V) (Proc.devRef .tc main_arg17)).trans (B10_main_arg17 V)

theorem B12_main_arg17 (V : Valuation τ sig (Elt Ideal)) : (B12 V) (Proc.devRef .tc main_arg17) = (V (Proc.devRef .tc main_arg17)) :=
  (by keep_win rops12 : (B12 V) (Proc.devRef .tc main_arg17) = (B11 V) (Proc.devRef .tc main_arg17)).trans (B11_main_arg17 V)

theorem B13_main_arg17 (V : Valuation τ sig (Elt Ideal)) : (B13 V) (Proc.devRef .tc main_arg17) = (V (Proc.devRef .tc main_arg17)) :=
  (by keep_win rops13 : (B13 V) (Proc.devRef .tc main_arg17) = (B12 V) (Proc.devRef .tc main_arg17)).trans (B12_main_arg17 V)

theorem B14_main_arg17 (V : Valuation τ sig (Elt Ideal)) : (B14 V) (Proc.devRef .tc main_arg17) = (V (Proc.devRef .tc main_arg17)) :=
  (by keep_win rops14 : (B14 V) (Proc.devRef .tc main_arg17) = (B13 V) (Proc.devRef .tc main_arg17)).trans (B13_main_arg17 V)

theorem B15_main_arg17 (V : Valuation τ sig (Elt Ideal)) : (B15 V) (Proc.devRef .tc main_arg17) = (V (Proc.devRef .tc main_arg17)) :=
  (by keep_win rops15 : (B15 V) (Proc.devRef .tc main_arg17) = (B14 V) (Proc.devRef .tc main_arg17)).trans (B14_main_arg17 V)

theorem B16_main_arg17 (V : Valuation τ sig (Elt Ideal)) : (B16 V) (Proc.devRef .tc main_arg17) = (V (Proc.devRef .tc main_arg17)) :=
  (by keep_win rops16 : (B16 V) (Proc.devRef .tc main_arg17) = (B15 V) (Proc.devRef .tc main_arg17)).trans (B15_main_arg17 V)

theorem B17_main_arg17 (V : Valuation τ sig (Elt Ideal)) : (B17 V) (Proc.devRef .tc main_arg17) = (V (Proc.devRef .tc main_arg17)) :=
  (by keep_win rops17 : (B17 V) (Proc.devRef .tc main_arg17) = (B16 V) (Proc.devRef .tc main_arg17)).trans (B16_main_arg17 V)

theorem after_ops_arg17 (V : Valuation τ sig (Elt Ideal)) :
    StableHlo.after (ops (F := Ideal)) V (Proc.devRef .tc main_arg17) = V (Proc.devRef .tc main_arg17) := by
  rw [ops_windows]
  simp only [after_append']
  exact (B17_main_arg17 V)

theorem B11_main_arg18 (V : Valuation τ sig (Elt Ideal)) : (B11 V) (Proc.devRef .tc main_arg18) = (V (Proc.devRef .tc main_arg18)) :=
  (by keep_win rops11 : (B11 V) (Proc.devRef .tc main_arg18) = (B10 V) (Proc.devRef .tc main_arg18)).trans (B10_main_arg18 V)

theorem B12_main_arg18 (V : Valuation τ sig (Elt Ideal)) : (B12 V) (Proc.devRef .tc main_arg18) = (V (Proc.devRef .tc main_arg18)) :=
  (by keep_win rops12 : (B12 V) (Proc.devRef .tc main_arg18) = (B11 V) (Proc.devRef .tc main_arg18)).trans (B11_main_arg18 V)

theorem B13_main_arg18 (V : Valuation τ sig (Elt Ideal)) : (B13 V) (Proc.devRef .tc main_arg18) = (V (Proc.devRef .tc main_arg18)) :=
  (by keep_win rops13 : (B13 V) (Proc.devRef .tc main_arg18) = (B12 V) (Proc.devRef .tc main_arg18)).trans (B12_main_arg18 V)

theorem B14_main_arg18 (V : Valuation τ sig (Elt Ideal)) : (B14 V) (Proc.devRef .tc main_arg18) = (V (Proc.devRef .tc main_arg18)) :=
  (by keep_win rops14 : (B14 V) (Proc.devRef .tc main_arg18) = (B13 V) (Proc.devRef .tc main_arg18)).trans (B13_main_arg18 V)

theorem B15_main_arg18 (V : Valuation τ sig (Elt Ideal)) : (B15 V) (Proc.devRef .tc main_arg18) = (V (Proc.devRef .tc main_arg18)) :=
  (by keep_win rops15 : (B15 V) (Proc.devRef .tc main_arg18) = (B14 V) (Proc.devRef .tc main_arg18)).trans (B14_main_arg18 V)

theorem B16_main_arg18 (V : Valuation τ sig (Elt Ideal)) : (B16 V) (Proc.devRef .tc main_arg18) = (V (Proc.devRef .tc main_arg18)) :=
  (by keep_win rops16 : (B16 V) (Proc.devRef .tc main_arg18) = (B15 V) (Proc.devRef .tc main_arg18)).trans (B15_main_arg18 V)

theorem B17_main_arg18 (V : Valuation τ sig (Elt Ideal)) : (B17 V) (Proc.devRef .tc main_arg18) = (V (Proc.devRef .tc main_arg18)) :=
  (by keep_win rops17 : (B17 V) (Proc.devRef .tc main_arg18) = (B16 V) (Proc.devRef .tc main_arg18)).trans (B16_main_arg18 V)

theorem after_ops_arg18 (V : Valuation τ sig (Elt Ideal)) :
    StableHlo.after (ops (F := Ideal)) V (Proc.devRef .tc main_arg18) = V (Proc.devRef .tc main_arg18) := by
  rw [ops_windows]
  simp only [after_append']
  exact (B17_main_arg18 V)

theorem B11_main_arg19 (V : Valuation τ sig (Elt Ideal)) : (B11 V) (Proc.devRef .tc main_arg19) = (V (Proc.devRef .tc main_arg19)) :=
  (by keep_win rops11 : (B11 V) (Proc.devRef .tc main_arg19) = (B10 V) (Proc.devRef .tc main_arg19)).trans (B10_main_arg19 V)

theorem B12_main_arg19 (V : Valuation τ sig (Elt Ideal)) : (B12 V) (Proc.devRef .tc main_arg19) = (V (Proc.devRef .tc main_arg19)) :=
  (by keep_win rops12 : (B12 V) (Proc.devRef .tc main_arg19) = (B11 V) (Proc.devRef .tc main_arg19)).trans (B11_main_arg19 V)

theorem B13_main_arg19 (V : Valuation τ sig (Elt Ideal)) : (B13 V) (Proc.devRef .tc main_arg19) = (V (Proc.devRef .tc main_arg19)) :=
  (by keep_win rops13 : (B13 V) (Proc.devRef .tc main_arg19) = (B12 V) (Proc.devRef .tc main_arg19)).trans (B12_main_arg19 V)

theorem B14_main_arg19 (V : Valuation τ sig (Elt Ideal)) : (B14 V) (Proc.devRef .tc main_arg19) = (V (Proc.devRef .tc main_arg19)) :=
  (by keep_win rops14 : (B14 V) (Proc.devRef .tc main_arg19) = (B13 V) (Proc.devRef .tc main_arg19)).trans (B13_main_arg19 V)

theorem B15_main_arg19 (V : Valuation τ sig (Elt Ideal)) : (B15 V) (Proc.devRef .tc main_arg19) = (V (Proc.devRef .tc main_arg19)) :=
  (by keep_win rops15 : (B15 V) (Proc.devRef .tc main_arg19) = (B14 V) (Proc.devRef .tc main_arg19)).trans (B14_main_arg19 V)

theorem B16_main_arg19 (V : Valuation τ sig (Elt Ideal)) : (B16 V) (Proc.devRef .tc main_arg19) = (V (Proc.devRef .tc main_arg19)) :=
  (by keep_win rops16 : (B16 V) (Proc.devRef .tc main_arg19) = (B15 V) (Proc.devRef .tc main_arg19)).trans (B15_main_arg19 V)

theorem B17_main_arg19 (V : Valuation τ sig (Elt Ideal)) : (B17 V) (Proc.devRef .tc main_arg19) = (V (Proc.devRef .tc main_arg19)) :=
  (by keep_win rops17 : (B17 V) (Proc.devRef .tc main_arg19) = (B16 V) (Proc.devRef .tc main_arg19)).trans (B16_main_arg19 V)

theorem after_ops_arg19 (V : Valuation τ sig (Elt Ideal)) :
    StableHlo.after (ops (F := Ideal)) V (Proc.devRef .tc main_arg19) = V (Proc.devRef .tc main_arg19) := by
  rw [ops_windows]
  simp only [after_append']
  exact (B17_main_arg19 V)

theorem B11_main_arg20 (V : Valuation τ sig (Elt Ideal)) : (B11 V) (Proc.devRef .tc main_arg20) = (V (Proc.devRef .tc main_arg20)) :=
  (by keep_win rops11 : (B11 V) (Proc.devRef .tc main_arg20) = (B10 V) (Proc.devRef .tc main_arg20)).trans (B10_main_arg20 V)

theorem B12_main_arg20 (V : Valuation τ sig (Elt Ideal)) : (B12 V) (Proc.devRef .tc main_arg20) = (V (Proc.devRef .tc main_arg20)) :=
  (by keep_win rops12 : (B12 V) (Proc.devRef .tc main_arg20) = (B11 V) (Proc.devRef .tc main_arg20)).trans (B11_main_arg20 V)

theorem B13_main_arg20 (V : Valuation τ sig (Elt Ideal)) : (B13 V) (Proc.devRef .tc main_arg20) = (V (Proc.devRef .tc main_arg20)) :=
  (by keep_win rops13 : (B13 V) (Proc.devRef .tc main_arg20) = (B12 V) (Proc.devRef .tc main_arg20)).trans (B12_main_arg20 V)

theorem B14_main_arg20 (V : Valuation τ sig (Elt Ideal)) : (B14 V) (Proc.devRef .tc main_arg20) = (V (Proc.devRef .tc main_arg20)) :=
  (by keep_win rops14 : (B14 V) (Proc.devRef .tc main_arg20) = (B13 V) (Proc.devRef .tc main_arg20)).trans (B13_main_arg20 V)

theorem B15_main_arg20 (V : Valuation τ sig (Elt Ideal)) : (B15 V) (Proc.devRef .tc main_arg20) = (V (Proc.devRef .tc main_arg20)) :=
  (by keep_win rops15 : (B15 V) (Proc.devRef .tc main_arg20) = (B14 V) (Proc.devRef .tc main_arg20)).trans (B14_main_arg20 V)

theorem B16_main_arg20 (V : Valuation τ sig (Elt Ideal)) : (B16 V) (Proc.devRef .tc main_arg20) = (V (Proc.devRef .tc main_arg20)) :=
  (by keep_win rops16 : (B16 V) (Proc.devRef .tc main_arg20) = (B15 V) (Proc.devRef .tc main_arg20)).trans (B15_main_arg20 V)

theorem B17_main_arg20 (V : Valuation τ sig (Elt Ideal)) : (B17 V) (Proc.devRef .tc main_arg20) = (V (Proc.devRef .tc main_arg20)) :=
  (by keep_win rops17 : (B17 V) (Proc.devRef .tc main_arg20) = (B16 V) (Proc.devRef .tc main_arg20)).trans (B16_main_arg20 V)

theorem after_ops_arg20 (V : Valuation τ sig (Elt Ideal)) :
    StableHlo.after (ops (F := Ideal)) V (Proc.devRef .tc main_arg20) = V (Proc.devRef .tc main_arg20) := by
  rw [ops_windows]
  simp only [after_append']
  exact (B17_main_arg20 V)

theorem B11_main_arg21 (V : Valuation τ sig (Elt Ideal)) : (B11 V) (Proc.devRef .tc main_arg21) = (V (Proc.devRef .tc main_arg21)) :=
  (by keep_win rops11 : (B11 V) (Proc.devRef .tc main_arg21) = (B10 V) (Proc.devRef .tc main_arg21)).trans (B10_main_arg21 V)

theorem B12_main_arg21 (V : Valuation τ sig (Elt Ideal)) : (B12 V) (Proc.devRef .tc main_arg21) = (V (Proc.devRef .tc main_arg21)) :=
  (by keep_win rops12 : (B12 V) (Proc.devRef .tc main_arg21) = (B11 V) (Proc.devRef .tc main_arg21)).trans (B11_main_arg21 V)

theorem B13_main_arg21 (V : Valuation τ sig (Elt Ideal)) : (B13 V) (Proc.devRef .tc main_arg21) = (V (Proc.devRef .tc main_arg21)) :=
  (by keep_win rops13 : (B13 V) (Proc.devRef .tc main_arg21) = (B12 V) (Proc.devRef .tc main_arg21)).trans (B12_main_arg21 V)

theorem B14_main_arg21 (V : Valuation τ sig (Elt Ideal)) : (B14 V) (Proc.devRef .tc main_arg21) = (V (Proc.devRef .tc main_arg21)) :=
  (by keep_win rops14 : (B14 V) (Proc.devRef .tc main_arg21) = (B13 V) (Proc.devRef .tc main_arg21)).trans (B13_main_arg21 V)

theorem B15_main_arg21 (V : Valuation τ sig (Elt Ideal)) : (B15 V) (Proc.devRef .tc main_arg21) = (V (Proc.devRef .tc main_arg21)) :=
  (by keep_win rops15 : (B15 V) (Proc.devRef .tc main_arg21) = (B14 V) (Proc.devRef .tc main_arg21)).trans (B14_main_arg21 V)

theorem B16_main_arg21 (V : Valuation τ sig (Elt Ideal)) : (B16 V) (Proc.devRef .tc main_arg21) = (V (Proc.devRef .tc main_arg21)) :=
  (by keep_win rops16 : (B16 V) (Proc.devRef .tc main_arg21) = (B15 V) (Proc.devRef .tc main_arg21)).trans (B15_main_arg21 V)

theorem B17_main_arg21 (V : Valuation τ sig (Elt Ideal)) : (B17 V) (Proc.devRef .tc main_arg21) = (V (Proc.devRef .tc main_arg21)) :=
  (by keep_win rops17 : (B17 V) (Proc.devRef .tc main_arg21) = (B16 V) (Proc.devRef .tc main_arg21)).trans (B16_main_arg21 V)

theorem after_ops_arg21 (V : Valuation τ sig (Elt Ideal)) :
    StableHlo.after (ops (F := Ideal)) V (Proc.devRef .tc main_arg21) = V (Proc.devRef .tc main_arg21) := by
  rw [ops_windows]
  simp only [after_append']
  exact (B17_main_arg21 V)

theorem B14_main_arg22 (V : Valuation τ sig (Elt Ideal)) : (B14 V) (Proc.devRef .tc main_arg22) = (V (Proc.devRef .tc main_arg22)) :=
  (by keep_win rops14 : (B14 V) (Proc.devRef .tc main_arg22) = (B13 V) (Proc.devRef .tc main_arg22)).trans (B13_main_arg22 V)

theorem B15_main_arg22 (V : Valuation τ sig (Elt Ideal)) : (B15 V) (Proc.devRef .tc main_arg22) = (V (Proc.devRef .tc main_arg22)) :=
  (by keep_win rops15 : (B15 V) (Proc.devRef .tc main_arg22) = (B14 V) (Proc.devRef .tc main_arg22)).trans (B14_main_arg22 V)

theorem B16_main_arg22 (V : Valuation τ sig (Elt Ideal)) : (B16 V) (Proc.devRef .tc main_arg22) = (V (Proc.devRef .tc main_arg22)) :=
  (by keep_win rops16 : (B16 V) (Proc.devRef .tc main_arg22) = (B15 V) (Proc.devRef .tc main_arg22)).trans (B15_main_arg22 V)

theorem B17_main_arg22 (V : Valuation τ sig (Elt Ideal)) : (B17 V) (Proc.devRef .tc main_arg22) = (V (Proc.devRef .tc main_arg22)) :=
  (by keep_win rops17 : (B17 V) (Proc.devRef .tc main_arg22) = (B16 V) (Proc.devRef .tc main_arg22)).trans (B16_main_arg22 V)

theorem after_ops_arg22 (V : Valuation τ sig (Elt Ideal)) :
    StableHlo.after (ops (F := Ideal)) V (Proc.devRef .tc main_arg22) = V (Proc.devRef .tc main_arg22) := by
  rw [ops_windows]
  simp only [after_append']
  exact (B17_main_arg22 V)

theorem B14_main_arg23 (V : Valuation τ sig (Elt Ideal)) : (B14 V) (Proc.devRef .tc main_arg23) = (V (Proc.devRef .tc main_arg23)) :=
  (by keep_win rops14 : (B14 V) (Proc.devRef .tc main_arg23) = (B13 V) (Proc.devRef .tc main_arg23)).trans (B13_main_arg23 V)

theorem B15_main_arg23 (V : Valuation τ sig (Elt Ideal)) : (B15 V) (Proc.devRef .tc main_arg23) = (V (Proc.devRef .tc main_arg23)) :=
  (by keep_win rops15 : (B15 V) (Proc.devRef .tc main_arg23) = (B14 V) (Proc.devRef .tc main_arg23)).trans (B14_main_arg23 V)

theorem B16_main_arg23 (V : Valuation τ sig (Elt Ideal)) : (B16 V) (Proc.devRef .tc main_arg23) = (V (Proc.devRef .tc main_arg23)) :=
  (by keep_win rops16 : (B16 V) (Proc.devRef .tc main_arg23) = (B15 V) (Proc.devRef .tc main_arg23)).trans (B15_main_arg23 V)

theorem B17_main_arg23 (V : Valuation τ sig (Elt Ideal)) : (B17 V) (Proc.devRef .tc main_arg23) = (V (Proc.devRef .tc main_arg23)) :=
  (by keep_win rops17 : (B17 V) (Proc.devRef .tc main_arg23) = (B16 V) (Proc.devRef .tc main_arg23)).trans (B16_main_arg23 V)

theorem after_ops_arg23 (V : Valuation τ sig (Elt Ideal)) :
    StableHlo.after (ops (F := Ideal)) V (Proc.devRef .tc main_arg23) = V (Proc.devRef .tc main_arg23) := by
  rw [ops_windows]
  simp only [after_append']
  exact (B17_main_arg23 V)

theorem B14_main_arg24 (V : Valuation τ sig (Elt Ideal)) : (B14 V) (Proc.devRef .tc main_arg24) = (V (Proc.devRef .tc main_arg24)) :=
  (by keep_win rops14 : (B14 V) (Proc.devRef .tc main_arg24) = (B13 V) (Proc.devRef .tc main_arg24)).trans (B13_main_arg24 V)

theorem B15_main_arg24 (V : Valuation τ sig (Elt Ideal)) : (B15 V) (Proc.devRef .tc main_arg24) = (V (Proc.devRef .tc main_arg24)) :=
  (by keep_win rops15 : (B15 V) (Proc.devRef .tc main_arg24) = (B14 V) (Proc.devRef .tc main_arg24)).trans (B14_main_arg24 V)

theorem B16_main_arg24 (V : Valuation τ sig (Elt Ideal)) : (B16 V) (Proc.devRef .tc main_arg24) = (V (Proc.devRef .tc main_arg24)) :=
  (by keep_win rops16 : (B16 V) (Proc.devRef .tc main_arg24) = (B15 V) (Proc.devRef .tc main_arg24)).trans (B15_main_arg24 V)

theorem B17_main_arg24 (V : Valuation τ sig (Elt Ideal)) : (B17 V) (Proc.devRef .tc main_arg24) = (V (Proc.devRef .tc main_arg24)) :=
  (by keep_win rops17 : (B17 V) (Proc.devRef .tc main_arg24) = (B16 V) (Proc.devRef .tc main_arg24)).trans (B16_main_arg24 V)

theorem after_ops_arg24 (V : Valuation τ sig (Elt Ideal)) :
    StableHlo.after (ops (F := Ideal)) V (Proc.devRef .tc main_arg24) = V (Proc.devRef .tc main_arg24) := by
  rw [ops_windows]
  simp only [after_append']
  exact (B17_main_arg24 V)

theorem B14_main_arg25 (V : Valuation τ sig (Elt Ideal)) : (B14 V) (Proc.devRef .tc main_arg25) = (V (Proc.devRef .tc main_arg25)) :=
  (by keep_win rops14 : (B14 V) (Proc.devRef .tc main_arg25) = (B13 V) (Proc.devRef .tc main_arg25)).trans (B13_main_arg25 V)

theorem B15_main_arg25 (V : Valuation τ sig (Elt Ideal)) : (B15 V) (Proc.devRef .tc main_arg25) = (V (Proc.devRef .tc main_arg25)) :=
  (by keep_win rops15 : (B15 V) (Proc.devRef .tc main_arg25) = (B14 V) (Proc.devRef .tc main_arg25)).trans (B14_main_arg25 V)

theorem B16_main_arg25 (V : Valuation τ sig (Elt Ideal)) : (B16 V) (Proc.devRef .tc main_arg25) = (V (Proc.devRef .tc main_arg25)) :=
  (by keep_win rops16 : (B16 V) (Proc.devRef .tc main_arg25) = (B15 V) (Proc.devRef .tc main_arg25)).trans (B15_main_arg25 V)

theorem B17_main_arg25 (V : Valuation τ sig (Elt Ideal)) : (B17 V) (Proc.devRef .tc main_arg25) = (V (Proc.devRef .tc main_arg25)) :=
  (by keep_win rops17 : (B17 V) (Proc.devRef .tc main_arg25) = (B16 V) (Proc.devRef .tc main_arg25)).trans (B16_main_arg25 V)

theorem after_ops_arg25 (V : Valuation τ sig (Elt Ideal)) :
    StableHlo.after (ops (F := Ideal)) V (Proc.devRef .tc main_arg25) = V (Proc.devRef .tc main_arg25) := by
  rw [ops_windows]
  simp only [after_append']
  exact (B17_main_arg25 V)

theorem B17_main_arg26 (V : Valuation τ sig (Elt Ideal)) : (B17 V) (Proc.devRef .tc main_arg26) = (V (Proc.devRef .tc main_arg26)) :=
  (by keep_win rops17 : (B17 V) (Proc.devRef .tc main_arg26) = (B16 V) (Proc.devRef .tc main_arg26)).trans (B16_main_arg26 V)

theorem after_ops_arg26 (V : Valuation τ sig (Elt Ideal)) :
    StableHlo.after (ops (F := Ideal)) V (Proc.devRef .tc main_arg26) = V (Proc.devRef .tc main_arg26) := by
  rw [ops_windows]
  simp only [after_append']
  exact (B17_main_arg26 V)

theorem B17_main_arg27 (V : Valuation τ sig (Elt Ideal)) : (B17 V) (Proc.devRef .tc main_arg27) = (V (Proc.devRef .tc main_arg27)) :=
  (by keep_win rops17 : (B17 V) (Proc.devRef .tc main_arg27) = (B16 V) (Proc.devRef .tc main_arg27)).trans (B16_main_arg27 V)

theorem after_ops_arg27 (V : Valuation τ sig (Elt Ideal)) :
    StableHlo.after (ops (F := Ideal)) V (Proc.devRef .tc main_arg27) = V (Proc.devRef .tc main_arg27) := by
  rw [ops_windows]
  simp only [after_append']
  exact (B17_main_arg27 V)

theorem B17_main_arg28 (V : Valuation τ sig (Elt Ideal)) : (B17 V) (Proc.devRef .tc main_arg28) = (V (Proc.devRef .tc main_arg28)) :=
  (by keep_win rops17 : (B17 V) (Proc.devRef .tc main_arg28) = (B16 V) (Proc.devRef .tc main_arg28)).trans (B16_main_arg28 V)

theorem after_ops_arg28 (V : Valuation τ sig (Elt Ideal)) :
    StableHlo.after (ops (F := Ideal)) V (Proc.devRef .tc main_arg28) = V (Proc.devRef .tc main_arg28) := by
  rw [ops_windows]
  simp only [after_append']
  exact (B17_main_arg28 V)

theorem B17_main_arg29 (V : Valuation τ sig (Elt Ideal)) : (B17 V) (Proc.devRef .tc main_arg29) = (V (Proc.devRef .tc main_arg29)) :=
  (by keep_win rops17 : (B17 V) (Proc.devRef .tc main_arg29) = (B16 V) (Proc.devRef .tc main_arg29)).trans (B16_main_arg29 V)

theorem after_ops_arg29 (V : Valuation τ sig (Elt Ideal)) :
    StableHlo.after (ops (F := Ideal)) V (Proc.devRef .tc main_arg29) = V (Proc.devRef .tc main_arg29) := by
  rw [ops_windows]
  simp only [after_append']
  exact (B17_main_arg29 V)

theorem B2_main_arg30 (V : Valuation τ sig (Elt Ideal)) : (B2 V) (Proc.devRef .tc main_arg30) = (V (Proc.devRef .tc main_arg30)) :=
  (by keep_win rops2 : (B2 V) (Proc.devRef .tc main_arg30) = (B1 V) (Proc.devRef .tc main_arg30)).trans (B1_main_arg30 V)

theorem B3_main_arg30 (V : Valuation τ sig (Elt Ideal)) : (B3 V) (Proc.devRef .tc main_arg30) = (V (Proc.devRef .tc main_arg30)) :=
  (by keep_win rops3 : (B3 V) (Proc.devRef .tc main_arg30) = (B2 V) (Proc.devRef .tc main_arg30)).trans (B2_main_arg30 V)

theorem B4_main_arg30 (V : Valuation τ sig (Elt Ideal)) : (B4 V) (Proc.devRef .tc main_arg30) = (V (Proc.devRef .tc main_arg30)) :=
  (by keep_win rops4 : (B4 V) (Proc.devRef .tc main_arg30) = (B3 V) (Proc.devRef .tc main_arg30)).trans (B3_main_arg30 V)

theorem B5_main_arg30 (V : Valuation τ sig (Elt Ideal)) : (B5 V) (Proc.devRef .tc main_arg30) = (V (Proc.devRef .tc main_arg30)) :=
  (by keep_win rops5 : (B5 V) (Proc.devRef .tc main_arg30) = (B4 V) (Proc.devRef .tc main_arg30)).trans (B4_main_arg30 V)

theorem B6_main_arg30 (V : Valuation τ sig (Elt Ideal)) : (B6 V) (Proc.devRef .tc main_arg30) = (V (Proc.devRef .tc main_arg30)) :=
  (by keep_win rops6 : (B6 V) (Proc.devRef .tc main_arg30) = (B5 V) (Proc.devRef .tc main_arg30)).trans (B5_main_arg30 V)

theorem B7_main_arg30 (V : Valuation τ sig (Elt Ideal)) : (B7 V) (Proc.devRef .tc main_arg30) = (V (Proc.devRef .tc main_arg30)) :=
  (by keep_win rops7 : (B7 V) (Proc.devRef .tc main_arg30) = (B6 V) (Proc.devRef .tc main_arg30)).trans (B6_main_arg30 V)

theorem B8_main_arg30 (V : Valuation τ sig (Elt Ideal)) : (B8 V) (Proc.devRef .tc main_arg30) = (V (Proc.devRef .tc main_arg30)) :=
  (by keep_win rops8 : (B8 V) (Proc.devRef .tc main_arg30) = (B7 V) (Proc.devRef .tc main_arg30)).trans (B7_main_arg30 V)

theorem B9_main_arg30 (V : Valuation τ sig (Elt Ideal)) : (B9 V) (Proc.devRef .tc main_arg30) = (V (Proc.devRef .tc main_arg30)) :=
  (by keep_win rops9 : (B9 V) (Proc.devRef .tc main_arg30) = (B8 V) (Proc.devRef .tc main_arg30)).trans (B8_main_arg30 V)

theorem B10_main_arg30 (V : Valuation τ sig (Elt Ideal)) : (B10 V) (Proc.devRef .tc main_arg30) = (V (Proc.devRef .tc main_arg30)) :=
  (by keep_win rops10 : (B10 V) (Proc.devRef .tc main_arg30) = (B9 V) (Proc.devRef .tc main_arg30)).trans (B9_main_arg30 V)

theorem B11_main_arg30 (V : Valuation τ sig (Elt Ideal)) : (B11 V) (Proc.devRef .tc main_arg30) = (V (Proc.devRef .tc main_arg30)) :=
  (by keep_win rops11 : (B11 V) (Proc.devRef .tc main_arg30) = (B10 V) (Proc.devRef .tc main_arg30)).trans (B10_main_arg30 V)

theorem B12_main_arg30 (V : Valuation τ sig (Elt Ideal)) : (B12 V) (Proc.devRef .tc main_arg30) = (V (Proc.devRef .tc main_arg30)) :=
  (by keep_win rops12 : (B12 V) (Proc.devRef .tc main_arg30) = (B11 V) (Proc.devRef .tc main_arg30)).trans (B11_main_arg30 V)

theorem B13_main_arg30 (V : Valuation τ sig (Elt Ideal)) : (B13 V) (Proc.devRef .tc main_arg30) = (V (Proc.devRef .tc main_arg30)) :=
  (by keep_win rops13 : (B13 V) (Proc.devRef .tc main_arg30) = (B12 V) (Proc.devRef .tc main_arg30)).trans (B12_main_arg30 V)

theorem B14_main_arg30 (V : Valuation τ sig (Elt Ideal)) : (B14 V) (Proc.devRef .tc main_arg30) = (V (Proc.devRef .tc main_arg30)) :=
  (by keep_win rops14 : (B14 V) (Proc.devRef .tc main_arg30) = (B13 V) (Proc.devRef .tc main_arg30)).trans (B13_main_arg30 V)

theorem B15_main_arg30 (V : Valuation τ sig (Elt Ideal)) : (B15 V) (Proc.devRef .tc main_arg30) = (V (Proc.devRef .tc main_arg30)) :=
  (by keep_win rops15 : (B15 V) (Proc.devRef .tc main_arg30) = (B14 V) (Proc.devRef .tc main_arg30)).trans (B14_main_arg30 V)

theorem B16_main_arg30 (V : Valuation τ sig (Elt Ideal)) : (B16 V) (Proc.devRef .tc main_arg30) = (V (Proc.devRef .tc main_arg30)) :=
  (by keep_win rops16 : (B16 V) (Proc.devRef .tc main_arg30) = (B15 V) (Proc.devRef .tc main_arg30)).trans (B15_main_arg30 V)

theorem B17_main_arg30 (V : Valuation τ sig (Elt Ideal)) : (B17 V) (Proc.devRef .tc main_arg30) = (V (Proc.devRef .tc main_arg30)) :=
  (by keep_win rops17 : (B17 V) (Proc.devRef .tc main_arg30) = (B16 V) (Proc.devRef .tc main_arg30)).trans (B16_main_arg30 V)

theorem after_ops_arg30 (V : Valuation τ sig (Elt Ideal)) :
    StableHlo.after (ops (F := Ideal)) V (Proc.devRef .tc main_arg30) = V (Proc.devRef .tc main_arg30) := by
  rw [ops_windows]
  simp only [after_append']
  exact (B17_main_arg30 V)

theorem B1_main_arg31 (V : Valuation τ sig (Elt Ideal)) : (B1 V) (Proc.devRef .tc main_arg31) = (V (Proc.devRef .tc main_arg31)) :=
  (by keep_win rops1 : (B1 V) (Proc.devRef .tc main_arg31) = V (Proc.devRef .tc main_arg31)).trans (rfl : V (Proc.devRef .tc main_arg31) = V (Proc.devRef .tc main_arg31))

theorem B2_main_arg31 (V : Valuation τ sig (Elt Ideal)) : (B2 V) (Proc.devRef .tc main_arg31) = (V (Proc.devRef .tc main_arg31)) :=
  (by keep_win rops2 : (B2 V) (Proc.devRef .tc main_arg31) = (B1 V) (Proc.devRef .tc main_arg31)).trans (B1_main_arg31 V)

theorem B3_main_arg31 (V : Valuation τ sig (Elt Ideal)) : (B3 V) (Proc.devRef .tc main_arg31) = (V (Proc.devRef .tc main_arg31)) :=
  (by keep_win rops3 : (B3 V) (Proc.devRef .tc main_arg31) = (B2 V) (Proc.devRef .tc main_arg31)).trans (B2_main_arg31 V)

theorem B4_main_arg31 (V : Valuation τ sig (Elt Ideal)) : (B4 V) (Proc.devRef .tc main_arg31) = (V (Proc.devRef .tc main_arg31)) :=
  (by keep_win rops4 : (B4 V) (Proc.devRef .tc main_arg31) = (B3 V) (Proc.devRef .tc main_arg31)).trans (B3_main_arg31 V)

theorem B5_main_arg31 (V : Valuation τ sig (Elt Ideal)) : (B5 V) (Proc.devRef .tc main_arg31) = (V (Proc.devRef .tc main_arg31)) :=
  (by keep_win rops5 : (B5 V) (Proc.devRef .tc main_arg31) = (B4 V) (Proc.devRef .tc main_arg31)).trans (B4_main_arg31 V)

theorem B6_main_arg31 (V : Valuation τ sig (Elt Ideal)) : (B6 V) (Proc.devRef .tc main_arg31) = (V (Proc.devRef .tc main_arg31)) :=
  (by keep_win rops6 : (B6 V) (Proc.devRef .tc main_arg31) = (B5 V) (Proc.devRef .tc main_arg31)).trans (B5_main_arg31 V)

theorem B7_main_arg31 (V : Valuation τ sig (Elt Ideal)) : (B7 V) (Proc.devRef .tc main_arg31) = (V (Proc.devRef .tc main_arg31)) :=
  (by keep_win rops7 : (B7 V) (Proc.devRef .tc main_arg31) = (B6 V) (Proc.devRef .tc main_arg31)).trans (B6_main_arg31 V)

theorem B8_main_arg31 (V : Valuation τ sig (Elt Ideal)) : (B8 V) (Proc.devRef .tc main_arg31) = (V (Proc.devRef .tc main_arg31)) :=
  (by keep_win rops8 : (B8 V) (Proc.devRef .tc main_arg31) = (B7 V) (Proc.devRef .tc main_arg31)).trans (B7_main_arg31 V)

theorem B9_main_arg31 (V : Valuation τ sig (Elt Ideal)) : (B9 V) (Proc.devRef .tc main_arg31) = (V (Proc.devRef .tc main_arg31)) :=
  (by keep_win rops9 : (B9 V) (Proc.devRef .tc main_arg31) = (B8 V) (Proc.devRef .tc main_arg31)).trans (B8_main_arg31 V)

theorem B10_main_arg31 (V : Valuation τ sig (Elt Ideal)) : (B10 V) (Proc.devRef .tc main_arg31) = (V (Proc.devRef .tc main_arg31)) :=
  (by keep_win rops10 : (B10 V) (Proc.devRef .tc main_arg31) = (B9 V) (Proc.devRef .tc main_arg31)).trans (B9_main_arg31 V)

theorem B11_main_arg31 (V : Valuation τ sig (Elt Ideal)) : (B11 V) (Proc.devRef .tc main_arg31) = (V (Proc.devRef .tc main_arg31)) :=
  (by keep_win rops11 : (B11 V) (Proc.devRef .tc main_arg31) = (B10 V) (Proc.devRef .tc main_arg31)).trans (B10_main_arg31 V)

theorem B12_main_arg31 (V : Valuation τ sig (Elt Ideal)) : (B12 V) (Proc.devRef .tc main_arg31) = (V (Proc.devRef .tc main_arg31)) :=
  (by keep_win rops12 : (B12 V) (Proc.devRef .tc main_arg31) = (B11 V) (Proc.devRef .tc main_arg31)).trans (B11_main_arg31 V)

theorem B13_main_arg31 (V : Valuation τ sig (Elt Ideal)) : (B13 V) (Proc.devRef .tc main_arg31) = (V (Proc.devRef .tc main_arg31)) :=
  (by keep_win rops13 : (B13 V) (Proc.devRef .tc main_arg31) = (B12 V) (Proc.devRef .tc main_arg31)).trans (B12_main_arg31 V)

theorem B14_main_arg31 (V : Valuation τ sig (Elt Ideal)) : (B14 V) (Proc.devRef .tc main_arg31) = (V (Proc.devRef .tc main_arg31)) :=
  (by keep_win rops14 : (B14 V) (Proc.devRef .tc main_arg31) = (B13 V) (Proc.devRef .tc main_arg31)).trans (B13_main_arg31 V)

theorem B15_main_arg31 (V : Valuation τ sig (Elt Ideal)) : (B15 V) (Proc.devRef .tc main_arg31) = (V (Proc.devRef .tc main_arg31)) :=
  (by keep_win rops15 : (B15 V) (Proc.devRef .tc main_arg31) = (B14 V) (Proc.devRef .tc main_arg31)).trans (B14_main_arg31 V)

theorem B16_main_arg31 (V : Valuation τ sig (Elt Ideal)) : (B16 V) (Proc.devRef .tc main_arg31) = (V (Proc.devRef .tc main_arg31)) :=
  (by keep_win rops16 : (B16 V) (Proc.devRef .tc main_arg31) = (B15 V) (Proc.devRef .tc main_arg31)).trans (B15_main_arg31 V)

theorem B17_main_arg31 (V : Valuation τ sig (Elt Ideal)) : (B17 V) (Proc.devRef .tc main_arg31) = (V (Proc.devRef .tc main_arg31)) :=
  (by keep_win rops17 : (B17 V) (Proc.devRef .tc main_arg31) = (B16 V) (Proc.devRef .tc main_arg31)).trans (B16_main_arg31 V)

theorem after_ops_arg31 (V : Valuation τ sig (Elt Ideal)) :
    StableHlo.after (ops (F := Ideal)) V (Proc.devRef .tc main_arg31) = V (Proc.devRef .tc main_arg31) := by
  rw [ops_windows]
  simp only [after_append']
  exact (B17_main_arg31 V)

theorem B1_main_arg32 (V : Valuation τ sig (Elt Ideal)) : (B1 V) (Proc.devRef .tc main_arg32) = (V (Proc.devRef .tc main_arg32)) :=
  (by keep_win rops1 : (B1 V) (Proc.devRef .tc main_arg32) = V (Proc.devRef .tc main_arg32)).trans (rfl : V (Proc.devRef .tc main_arg32) = V (Proc.devRef .tc main_arg32))

theorem B2_main_arg32 (V : Valuation τ sig (Elt Ideal)) : (B2 V) (Proc.devRef .tc main_arg32) = (V (Proc.devRef .tc main_arg32)) :=
  (by keep_win rops2 : (B2 V) (Proc.devRef .tc main_arg32) = (B1 V) (Proc.devRef .tc main_arg32)).trans (B1_main_arg32 V)

theorem B3_main_arg32 (V : Valuation τ sig (Elt Ideal)) : (B3 V) (Proc.devRef .tc main_arg32) = (V (Proc.devRef .tc main_arg32)) :=
  (by keep_win rops3 : (B3 V) (Proc.devRef .tc main_arg32) = (B2 V) (Proc.devRef .tc main_arg32)).trans (B2_main_arg32 V)

theorem B4_main_arg32 (V : Valuation τ sig (Elt Ideal)) : (B4 V) (Proc.devRef .tc main_arg32) = (V (Proc.devRef .tc main_arg32)) :=
  (by keep_win rops4 : (B4 V) (Proc.devRef .tc main_arg32) = (B3 V) (Proc.devRef .tc main_arg32)).trans (B3_main_arg32 V)

theorem B5_main_arg32 (V : Valuation τ sig (Elt Ideal)) : (B5 V) (Proc.devRef .tc main_arg32) = (V (Proc.devRef .tc main_arg32)) :=
  (by keep_win rops5 : (B5 V) (Proc.devRef .tc main_arg32) = (B4 V) (Proc.devRef .tc main_arg32)).trans (B4_main_arg32 V)

theorem B6_main_arg32 (V : Valuation τ sig (Elt Ideal)) : (B6 V) (Proc.devRef .tc main_arg32) = (V (Proc.devRef .tc main_arg32)) :=
  (by keep_win rops6 : (B6 V) (Proc.devRef .tc main_arg32) = (B5 V) (Proc.devRef .tc main_arg32)).trans (B5_main_arg32 V)

theorem B7_main_arg32 (V : Valuation τ sig (Elt Ideal)) : (B7 V) (Proc.devRef .tc main_arg32) = (V (Proc.devRef .tc main_arg32)) :=
  (by keep_win rops7 : (B7 V) (Proc.devRef .tc main_arg32) = (B6 V) (Proc.devRef .tc main_arg32)).trans (B6_main_arg32 V)

theorem B8_main_arg32 (V : Valuation τ sig (Elt Ideal)) : (B8 V) (Proc.devRef .tc main_arg32) = (V (Proc.devRef .tc main_arg32)) :=
  (by keep_win rops8 : (B8 V) (Proc.devRef .tc main_arg32) = (B7 V) (Proc.devRef .tc main_arg32)).trans (B7_main_arg32 V)

theorem B9_main_arg32 (V : Valuation τ sig (Elt Ideal)) : (B9 V) (Proc.devRef .tc main_arg32) = (V (Proc.devRef .tc main_arg32)) :=
  (by keep_win rops9 : (B9 V) (Proc.devRef .tc main_arg32) = (B8 V) (Proc.devRef .tc main_arg32)).trans (B8_main_arg32 V)

theorem B10_main_arg32 (V : Valuation τ sig (Elt Ideal)) : (B10 V) (Proc.devRef .tc main_arg32) = (V (Proc.devRef .tc main_arg32)) :=
  (by keep_win rops10 : (B10 V) (Proc.devRef .tc main_arg32) = (B9 V) (Proc.devRef .tc main_arg32)).trans (B9_main_arg32 V)

theorem B11_main_arg32 (V : Valuation τ sig (Elt Ideal)) : (B11 V) (Proc.devRef .tc main_arg32) = (V (Proc.devRef .tc main_arg32)) :=
  (by keep_win rops11 : (B11 V) (Proc.devRef .tc main_arg32) = (B10 V) (Proc.devRef .tc main_arg32)).trans (B10_main_arg32 V)

theorem B12_main_arg32 (V : Valuation τ sig (Elt Ideal)) : (B12 V) (Proc.devRef .tc main_arg32) = (V (Proc.devRef .tc main_arg32)) :=
  (by keep_win rops12 : (B12 V) (Proc.devRef .tc main_arg32) = (B11 V) (Proc.devRef .tc main_arg32)).trans (B11_main_arg32 V)

theorem B13_main_arg32 (V : Valuation τ sig (Elt Ideal)) : (B13 V) (Proc.devRef .tc main_arg32) = (V (Proc.devRef .tc main_arg32)) :=
  (by keep_win rops13 : (B13 V) (Proc.devRef .tc main_arg32) = (B12 V) (Proc.devRef .tc main_arg32)).trans (B12_main_arg32 V)

theorem B14_main_arg32 (V : Valuation τ sig (Elt Ideal)) : (B14 V) (Proc.devRef .tc main_arg32) = (V (Proc.devRef .tc main_arg32)) :=
  (by keep_win rops14 : (B14 V) (Proc.devRef .tc main_arg32) = (B13 V) (Proc.devRef .tc main_arg32)).trans (B13_main_arg32 V)

theorem B15_main_arg32 (V : Valuation τ sig (Elt Ideal)) : (B15 V) (Proc.devRef .tc main_arg32) = (V (Proc.devRef .tc main_arg32)) :=
  (by keep_win rops15 : (B15 V) (Proc.devRef .tc main_arg32) = (B14 V) (Proc.devRef .tc main_arg32)).trans (B14_main_arg32 V)

theorem B16_main_arg32 (V : Valuation τ sig (Elt Ideal)) : (B16 V) (Proc.devRef .tc main_arg32) = (V (Proc.devRef .tc main_arg32)) :=
  (by keep_win rops16 : (B16 V) (Proc.devRef .tc main_arg32) = (B15 V) (Proc.devRef .tc main_arg32)).trans (B15_main_arg32 V)

theorem B17_main_arg32 (V : Valuation τ sig (Elt Ideal)) : (B17 V) (Proc.devRef .tc main_arg32) = (V (Proc.devRef .tc main_arg32)) :=
  (by keep_win rops17 : (B17 V) (Proc.devRef .tc main_arg32) = (B16 V) (Proc.devRef .tc main_arg32)).trans (B16_main_arg32 V)

theorem after_ops_arg32 (V : Valuation τ sig (Elt Ideal)) :
    StableHlo.after (ops (F := Ideal)) V (Proc.devRef .tc main_arg32) = V (Proc.devRef .tc main_arg32) := by
  rw [ops_windows]
  simp only [after_append']
  exact (B17_main_arg32 V)

theorem B3_main_arg33 (V : Valuation τ sig (Elt Ideal)) : (B3 V) (Proc.devRef .tc main_arg33) = (V (Proc.devRef .tc main_arg33)) :=
  (by keep_win rops3 : (B3 V) (Proc.devRef .tc main_arg33) = (B2 V) (Proc.devRef .tc main_arg33)).trans (B2_main_arg33 V)

theorem B4_main_arg33 (V : Valuation τ sig (Elt Ideal)) : (B4 V) (Proc.devRef .tc main_arg33) = (V (Proc.devRef .tc main_arg33)) :=
  (by keep_win rops4 : (B4 V) (Proc.devRef .tc main_arg33) = (B3 V) (Proc.devRef .tc main_arg33)).trans (B3_main_arg33 V)

theorem B5_main_arg33 (V : Valuation τ sig (Elt Ideal)) : (B5 V) (Proc.devRef .tc main_arg33) = (V (Proc.devRef .tc main_arg33)) :=
  (by keep_win rops5 : (B5 V) (Proc.devRef .tc main_arg33) = (B4 V) (Proc.devRef .tc main_arg33)).trans (B4_main_arg33 V)

theorem B6_main_arg33 (V : Valuation τ sig (Elt Ideal)) : (B6 V) (Proc.devRef .tc main_arg33) = (V (Proc.devRef .tc main_arg33)) :=
  (by keep_win rops6 : (B6 V) (Proc.devRef .tc main_arg33) = (B5 V) (Proc.devRef .tc main_arg33)).trans (B5_main_arg33 V)

theorem B7_main_arg33 (V : Valuation τ sig (Elt Ideal)) : (B7 V) (Proc.devRef .tc main_arg33) = (V (Proc.devRef .tc main_arg33)) :=
  (by keep_win rops7 : (B7 V) (Proc.devRef .tc main_arg33) = (B6 V) (Proc.devRef .tc main_arg33)).trans (B6_main_arg33 V)

theorem B8_main_arg33 (V : Valuation τ sig (Elt Ideal)) : (B8 V) (Proc.devRef .tc main_arg33) = (V (Proc.devRef .tc main_arg33)) :=
  (by keep_win rops8 : (B8 V) (Proc.devRef .tc main_arg33) = (B7 V) (Proc.devRef .tc main_arg33)).trans (B7_main_arg33 V)

theorem B9_main_arg33 (V : Valuation τ sig (Elt Ideal)) : (B9 V) (Proc.devRef .tc main_arg33) = (V (Proc.devRef .tc main_arg33)) :=
  (by keep_win rops9 : (B9 V) (Proc.devRef .tc main_arg33) = (B8 V) (Proc.devRef .tc main_arg33)).trans (B8_main_arg33 V)

theorem B10_main_arg33 (V : Valuation τ sig (Elt Ideal)) : (B10 V) (Proc.devRef .tc main_arg33) = (V (Proc.devRef .tc main_arg33)) :=
  (by keep_win rops10 : (B10 V) (Proc.devRef .tc main_arg33) = (B9 V) (Proc.devRef .tc main_arg33)).trans (B9_main_arg33 V)

theorem B11_main_arg33 (V : Valuation τ sig (Elt Ideal)) : (B11 V) (Proc.devRef .tc main_arg33) = (V (Proc.devRef .tc main_arg33)) :=
  (by keep_win rops11 : (B11 V) (Proc.devRef .tc main_arg33) = (B10 V) (Proc.devRef .tc main_arg33)).trans (B10_main_arg33 V)

theorem B12_main_arg33 (V : Valuation τ sig (Elt Ideal)) : (B12 V) (Proc.devRef .tc main_arg33) = (V (Proc.devRef .tc main_arg33)) :=
  (by keep_win rops12 : (B12 V) (Proc.devRef .tc main_arg33) = (B11 V) (Proc.devRef .tc main_arg33)).trans (B11_main_arg33 V)

theorem B13_main_arg33 (V : Valuation τ sig (Elt Ideal)) : (B13 V) (Proc.devRef .tc main_arg33) = (V (Proc.devRef .tc main_arg33)) :=
  (by keep_win rops13 : (B13 V) (Proc.devRef .tc main_arg33) = (B12 V) (Proc.devRef .tc main_arg33)).trans (B12_main_arg33 V)

theorem B14_main_arg33 (V : Valuation τ sig (Elt Ideal)) : (B14 V) (Proc.devRef .tc main_arg33) = (V (Proc.devRef .tc main_arg33)) :=
  (by keep_win rops14 : (B14 V) (Proc.devRef .tc main_arg33) = (B13 V) (Proc.devRef .tc main_arg33)).trans (B13_main_arg33 V)

theorem B15_main_arg33 (V : Valuation τ sig (Elt Ideal)) : (B15 V) (Proc.devRef .tc main_arg33) = (V (Proc.devRef .tc main_arg33)) :=
  (by keep_win rops15 : (B15 V) (Proc.devRef .tc main_arg33) = (B14 V) (Proc.devRef .tc main_arg33)).trans (B14_main_arg33 V)

theorem B16_main_arg33 (V : Valuation τ sig (Elt Ideal)) : (B16 V) (Proc.devRef .tc main_arg33) = (V (Proc.devRef .tc main_arg33)) :=
  (by keep_win rops16 : (B16 V) (Proc.devRef .tc main_arg33) = (B15 V) (Proc.devRef .tc main_arg33)).trans (B15_main_arg33 V)

theorem B17_main_arg33 (V : Valuation τ sig (Elt Ideal)) : (B17 V) (Proc.devRef .tc main_arg33) = (V (Proc.devRef .tc main_arg33)) :=
  (by keep_win rops17 : (B17 V) (Proc.devRef .tc main_arg33) = (B16 V) (Proc.devRef .tc main_arg33)).trans (B16_main_arg33 V)

theorem after_ops_arg33 (V : Valuation τ sig (Elt Ideal)) :
    StableHlo.after (ops (F := Ideal)) V (Proc.devRef .tc main_arg33) = V (Proc.devRef .tc main_arg33) := by
  rw [ops_windows]
  simp only [after_append']
  exact (B17_main_arg33 V)

theorem B15_main_arg34 (V : Valuation τ sig (Elt Ideal)) : (B15 V) (Proc.devRef .tc main_arg34) = (V (Proc.devRef .tc main_arg34)) :=
  (by keep_win rops15 : (B15 V) (Proc.devRef .tc main_arg34) = (B14 V) (Proc.devRef .tc main_arg34)).trans (B14_main_arg34 V)

theorem B16_main_arg34 (V : Valuation τ sig (Elt Ideal)) : (B16 V) (Proc.devRef .tc main_arg34) = (V (Proc.devRef .tc main_arg34)) :=
  (by keep_win rops16 : (B16 V) (Proc.devRef .tc main_arg34) = (B15 V) (Proc.devRef .tc main_arg34)).trans (B15_main_arg34 V)

theorem B17_main_arg34 (V : Valuation τ sig (Elt Ideal)) : (B17 V) (Proc.devRef .tc main_arg34) = (V (Proc.devRef .tc main_arg34)) :=
  (by keep_win rops17 : (B17 V) (Proc.devRef .tc main_arg34) = (B16 V) (Proc.devRef .tc main_arg34)).trans (B16_main_arg34 V)

theorem after_ops_arg34 (V : Valuation τ sig (Elt Ideal)) :
    StableHlo.after (ops (F := Ideal)) V (Proc.devRef .tc main_arg34) = V (Proc.devRef .tc main_arg34) := by
  rw [ops_windows]
  simp only [after_append']
  exact (B17_main_arg34 V)

end Cert.ReferenceIdeal.Value

end
-- ==== Proof.RefRun.lean ====
/-
  The reference program's run, read back: every weakly fair execution of its @main terminates with the result array
  at the last stage of the argument arrays' launch contents and the argument arrays unchanged. The program is the
  sequence of its host operations; what a buffer holds after the sequence is the composition of the operations'
  functions along the buffers they read, which for the result buffer is the chain of stages, and no operation writes
  an argument array.
-/
import proofs.«109817_j10033043603480_2_alg».proof.Proof.RefRunBase
import proofs.«109817_j10033043603480_2_alg».proof.Proof.RefRunWin
import Idealize.ShloMosaic.Lib.StableHlo.Run

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

set_option maxHeartbeats 4000000 in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v238) = Cert.ReferenceIdeal.Read.val_main_v238 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34) :=
  (θ_run (defs (F := Ideal)) _ _).mono (fun _ h c => ⟨(h c main_v238).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _),
      (h c main_arg10).trans (after_ops_arg10 _),
      (h c main_arg11).trans (after_ops_arg11 _),
      (h c main_arg12).trans (after_ops_arg12 _),
      (h c main_arg13).trans (after_ops_arg13 _),
      (h c main_arg14).trans (after_ops_arg14 _),
      (h c main_arg15).trans (after_ops_arg15 _),
      (h c main_arg16).trans (after_ops_arg16 _),
      (h c main_arg17).trans (after_ops_arg17 _),
      (h c main_arg18).trans (after_ops_arg18 _),
      (h c main_arg19).trans (after_ops_arg19 _),
      (h c main_arg20).trans (after_ops_arg20 _),
      (h c main_arg21).trans (after_ops_arg21 _),
      (h c main_arg22).trans (after_ops_arg22 _),
      (h c main_arg23).trans (after_ops_arg23 _),
      (h c main_arg24).trans (after_ops_arg24 _),
      (h c main_arg25).trans (after_ops_arg25 _),
      (h c main_arg26).trans (after_ops_arg26 _),
      (h c main_arg27).trans (after_ops_arg27 _),
      (h c main_arg28).trans (after_ops_arg28 _),
      (h c main_arg29).trans (after_ops_arg29 _),
      (h c main_arg30).trans (after_ops_arg30 _),
      (h c main_arg31).trans (after_ops_arg31 _),
      (h c main_arg32).trans (after_ops_arg32 _),
      (h c main_arg33).trans (after_ops_arg33 _),
      (h c main_arg34).trans (after_ops_arg34 _)⟩)
    (run_seq scopedRefs_eq scopedSems_eq (defs (F := Ideal)) (main (F := Ideal)) (fun _ => ops (F := Ideal)) main_eq (fun _ => ops_sub) m ρ)

end Cert.ReferenceIdeal.Value

end
-- ==== Proof.RunResult.lean ====
/-
  The idealized kernel's run with its RESULT read: every weakly fair execution of @main terminates, nothing faults,
  the argument arrays end as launched, and the result buffer ends at the contents the last boundary of the
  segment chain assigns it (the fold of the host stretches and of the regions' write-backs from the launch memory).
-/
import proofs.«109817_j10033043603480_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the final thread state read at the result buffer as well as at the arguments. -/
theorem run_result : θ_run defs (onTc (τ := τ) (main (F := F))) ⟨m, fun _ => 0, ρ⟩ (fun r => ∀ c : Dev nD,
      r.2.mem ((c.tc : Thread nD τ).loc main_v81) = W24 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v81 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c),
       (h c _ (mem_uc main_arg19 (by decide))).trans (W24_main_arg19 m ρ c),
       (h c _ (mem_uc main_arg20 (by decide))).trans (W24_main_arg20 m ρ c),
       (h c _ (mem_uc main_arg21 (by decide))).trans (W24_main_arg21 m ρ c),
       (h c _ (mem_uc main_arg22 (by decide))).trans (W24_main_arg22 m ρ c),
       (h c _ (mem_uc main_arg23 (by decide))).trans (W24_main_arg23 m ρ c),
       (h c _ (mem_uc main_arg24 (by decide))).trans (W24_main_arg24 m ρ c),
       (h c _ (mem_uc main_arg25 (by decide))).trans (W24_main_arg25 m ρ c),
       (h c _ (mem_uc main_arg26 (by decide))).trans (W24_main_arg26 m ρ c),
       (h c _ (mem_uc main_arg27 (by decide))).trans (W24_main_arg27 m ρ c),
       (h c _ (mem_uc main_arg28 (by decide))).trans (W24_main_arg28 m ρ c),
       (h c _ (mem_uc main_arg29 (by decide))).trans (W24_main_arg29 m ρ c),
       (h c _ (mem_uc main_arg30 (by decide))).trans (W24_main_arg30 m ρ c),
       (h c _ (mem_uc main_arg31 (by decide))).trans (W24_main_arg31 m ρ c),
       (h c _ (mem_uc main_arg32 (by decide))).trans (W24_main_arg32 m ρ c),
       (h c _ (mem_uc main_arg33 (by decide))).trans (W24_main_arg33 m ρ c),
       (h c _ (mem_uc main_arg34 (by decide))).trans (W24_main_arg34 m ρ c)⟩)

end Cert.KernelIdeal.RunResult

end
-- ==== Proof.Takes.lean ====
/-
  The row lookups of the kernel's host program against a plain gather. Each lookup wraps a negative index by the
  table's row count, gathers, and replaces by a NaN row every result row whose wrapped index falls outside the table.
  When every index word lies in [-100000, 100000), signed, the wrapped index lies in [0, 99999], the bounds mask is
  all ones, and the lookup is the gather.
-/
import proofs.«109817_j10033043603480_2_alg».proof.Proof.Gen.KernelIdeal.Launch
import Idealize.ShloMosaic.Lib.StableHlo.Run
import Idealize.ShloMosaic.Lib.ReduceAll
set_option maxRecDepth 16384
noncomputable section
namespace Cert.Bridge.Takes
open Cert.KernelIdeal Cert.KernelIdeal.Gen Idealize.ShloMosaic Idealize.ShloMosaic.TcCoe Idealize.SL.Sem Idealize.ShloMosaic.StableHlo

/-! ## Words -/

theorem ofBool_eq_one (b : Bool) : BitVec.ofBool b = 1#1 ↔ b = true := by cases b <;> decide
theorem ofBool_eq_zero (b : Bool) : BitVec.ofBool b = 0#1 ↔ b = false := by cases b <;> decide

/-- A signed word in [-100000, 100000), with 100000 added when it is negative, lies in [0, 99999]. -/
theorem wrap_inRange (w : BitVec 32)
    (h1 : IntOp.cmpi .sge w 4294867296#32 = 1#1) (h2 : IntOp.cmpi .slt w 100000#32 = 1#1) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  rcases BitVec.eq_zero_or_eq_one (IntOp.cmpi .slt w 0#32) with hc | hc
  · rw [hc, show Scalar.select 0#1 (IntOp.addi w 100000#32) w = w from if_neg (by decide)]
    simp only [IntOp.cmpi, ofBool_eq_one, ofBool_eq_zero] at *
    simp only [BitVec.slt, BitVec.sle, decide_eq_true_eq, decide_eq_false_iff_not, BitVec.toInt_eq_toNat_cond] at *
    constructor <;> bv_omega
  · rw [hc, show Scalar.select 1#1 (IntOp.addi w 100000#32) w = IntOp.addi w 100000#32 from if_pos rfl]
    simp only [IntOp.cmpi, IntOp.addi, ofBool_eq_one] at *
    simp only [BitVec.slt, BitVec.sle, decide_eq_true_eq, BitVec.toInt_eq_toNat_cond] at *
    constructor <;> bv_omega

/-! ## Arrays -/

/-- The wrapped index array, element by element. -/
theorem wrap_ok {s : Shape} (x z c : IVec s 32) (hz : ∀ k, z k = 0#32) (hc : ∀ k, c k = 100000#32)
    (h : ∀ k, IntOp.cmpi .sge (x k) 4294867296#32 = 1#1 ∧ IntOp.cmpi .slt (x k) 100000#32 = 1#1) (k : s.Idx) :
    IntOp.cmpi .sge (select (cmpi .slt x z) (addi x c) x k) 0#32 = 1#1
    ∧ IntOp.cmpi .sle (select (cmpi .slt x z) (addi x c) x k) 99999#32 = 1#1 := by
  show IntOp.cmpi .sge (Scalar.select (IntOp.cmpi .slt (x k) (z k)) (IntOp.addi (x k) (c k)) (x k)) 0#32 = 1#1
    ∧ IntOp.cmpi .sle (Scalar.select (IntOp.cmpi .slt (x k) (z k)) (IntOp.addi (x k) (c k)) (x k)) 99999#32 = 1#1
  rw [hz, hc]; exact wrap_inRange (x k) (h k).1 (h k).2

/-- A left fold by "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- An and-reduction from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]; exact foldl_andi_ones x _ fun n _ => hx n

/-- The in-bounds mask of indices that all lie in [0, 99999] selects the gathered rows everywhere. -/
theorem select_mask_eq {s1 s2 sr s3 u : Shape} {α : Type}
    (w : IVec s1 32) (hw : ∀ k, IntOp.cmpi .sge (w k) 0#32 = 1#1 ∧ IntOp.cmpi .sle (w k) 99999#32 = 1#1)
    (d2 : Fin s1.rank → Fin s2.rank) (h2 : s1.BroadcastsInDim s2 d2)
    (z c : IVec s2 32) (hz : ∀ j, z j = 0#32) (hc : ∀ j, c j = 99999#32)
    {axes : List (Fin s2.rank)} (hr : s2.ReducesTo axes sr) (init : IVec u 1) (hu : 0 < u.numel) (hinit : ∀ k, init k = 1#1)
    (d3 : Fin sr.rank → Fin s3.rank) (h3 : sr.BroadcastsInDim s3 d3) (g nan : s3.Idx → α) :
    select (broadcastInDim s3 d3 h3 (Host.reduce IntOp.andi
      (andi (cmpi .sge (broadcastInDim s2 d2 h2 w) z) (cmpi .sle (broadcastInDim s2 d2 h2 w) c)) init hr hu)) g nan = g := by
  have hm : ∀ j, (andi (cmpi .sge (broadcastInDim s2 d2 h2 w) z) (cmpi .sle (broadcastInDim s2 d2 h2 w) c)) j = 1#1 := fun j => by
    show IntOp.andi (IntOp.cmpi .sge (w _) (z j)) (IntOp.cmpi .sle (w _) (c j)) = 1#1
    rw [hz, hc, (hw _).1, (hw _).2]; decide
  funext i
  show Scalar.select (Host.reduce IntOp.andi _ init hr hu _) (g i) (nan i) = g i
  rw [reduce_andi_ones _ _ _ _ hm hinit]
  exact if_pos rfl

/-- Contents carried to a buffer's own type and back are the contents. -/
theorem ofBuf_toBuf {sg : RefSig} {T : BufTy} {Val : EltTy → Type} (x : TRef sg T) (v : T.Contents Val) : x.ofBuf (x.toBuf v) = v := by
  obtain ⟨r, e, h1, h2⟩ := x
  subst e
  rfl

/-! ## The calls -/

/-- Call 0 of the row lookup (100000 indices): with every index word in [-100000, 100000) the bounds mask is all
    ones and the call returns the gathered rows of the wrapped indices. -/
theorem call0 (W : Valuation τ sig (Elt Ideal))
    (h : ∀ i : S100000.Idx, IntOp.cmpi .sge (W (Proc.devRef .tc main_arg31) i) 4294867296#32 = 1#1
      ∧ IntOp.cmpi .slt (W (Proc.devRef .tc main_arg31) i) 100000#32 = 1#1) :
    StableHlo.after (hostOps0 (F := Ideal)) W (Proc.devRef .tc main_v0)
      = Host.gather gather_S100000x64_S100000x1_S100000x64_1_0_n_n_0_1_164 (W (Proc.devRef .tc main_arg0))
          (broadcastInDim S100000x1 ![0] bcast_S100000_S100000x1_0
            (select (cmpi .slt (W (Proc.devRef .tc main_arg31)) (broadcastInDim S100000 ![] bcast_S_S100000 (constantI S_ 32 0#32)))
              (addi (W (Proc.devRef .tc main_arg31)) (broadcastInDim S100000 ![] bcast_S_S100000 (constantI S_ 32 100000#32)))
              (W (Proc.devRef .tc main_arg31)))) := by
  have key := select_mask_eq (s1 := S100000) (s2 := S100000x1) (sr := S100000) (s3 := S100000x64) (u := S_) (α := Ideal .f32)
    (select (cmpi .slt (W (Proc.devRef .tc main_arg31)) (broadcastInDim S100000 ![] bcast_S_S100000 (constantI S_ 32 0#32)))
              (addi (W (Proc.devRef .tc main_arg31)) (broadcastInDim S100000 ![] bcast_S_S100000 (constantI S_ 32 100000#32)))
              (W (Proc.devRef .tc main_arg31)))
    (wrap_ok _ _ _ (fun _ => rfl) (fun _ => rfl) h)
    ![0] bcast_S100000_S100000x1_0
    (broadcastInDim S100000x1 ![] bcast_S_S100000x1 (constantI S_ 32 0#32))
    (broadcastInDim S100000x1 ![0, 1] bcast_S1x1_S100000x1_0_1 (broadcastInDim S1x1 ![1] bcast_S1_S1x1_1 (constantI S1 32 99999#32)))
    (fun _ => rfl) (fun _ => rfl)
    reducesTo_S100000x1_S100000_d1 (constantI S_ 1 1#1) h_S_ (fun _ => rfl)
    ![0] bcast_S100000_S100000x64_0
    (Host.gather gather_S100000x64_S100000x1_S100000x64_1_0_n_n_0_1_164 (W (Proc.devRef .tc main_arg0))
          (broadcastInDim S100000x1 ![0] bcast_S100000_S100000x1_0
            (select (cmpi .slt (W (Proc.devRef .tc main_arg31)) (broadcastInDim S100000 ![] bcast_S_S100000 (constantI S_ 32 0#32)))
              (addi (W (Proc.devRef .tc main_arg31)) (broadcastInDim S100000 ![] bcast_S_S100000 (constantI S_ 32 100000#32)))
              (W (Proc.devRef .tc main_arg31)))))
    (broadcastInDim S100000x64 ![] bcast_S_S100000x64 (constant S_ .f32 0x7FC00000#32))
  have c1 : ∀ v, (TRef.of (T := ⟨S100000x64, .f32⟩) main_v0).toBuf (Val := Elt Ideal) v = v := fun _ => rfl
  have c2 : ∀ v, (TRef.of (T := ⟨S100000, .i32⟩) main_arg31).ofBuf (Val := Elt Ideal) v = v := fun _ => rfl
  have c3 : ∀ v, (TRef.of (T := ⟨S100000x64, .f32⟩) main_arg0).ofBuf (Val := Elt Ideal) v = v := fun _ => rfl
  after_results_simp
  simp only [ofBuf_toBuf, c1, c2, c3]
  exact key

/-- Call 1 of the row lookup (100000 indices): with every index word in [-100000, 100000) the bounds mask is all
    ones and the call returns the gathered rows of the wrapped indices. -/
theorem call1 (W : Valuation τ sig (Elt Ideal))
    (h : ∀ i : S100000.Idx, IntOp.cmpi .sge (W (Proc.devRef .tc main_arg32) i) 4294867296#32 = 1#1
      ∧ IntOp.cmpi .slt (W (Proc.devRef .tc main_arg32) i) 100000#32 = 1#1) :
    StableHlo.after (hostOps0_1 (F := Ideal)) W (Proc.devRef .tc main_v1)
      = Host.gather gather_S100000x64_S100000x1_S100000x64_1_0_n_n_0_1_164 (W (Proc.devRef .tc main_arg1))
          (broadcastInDim S100000x1 ![0] bcast_S100000_S100000x1_0
            (select (cmpi .slt (W (Proc.devRef .tc main_arg32)) (broadcastInDim S100000 ![] bcast_S_S100000 (constantI S_ 32 0#32)))
              (addi (W (Proc.devRef .tc main_arg32)) (broadcastInDim S100000 ![] bcast_S_S100000 (constantI S_ 32 100000#32)))
              (W (Proc.devRef .tc main_arg32)))) := by
  have key := select_mask_eq (s1 := S100000) (s2 := S100000x1) (sr := S100000) (s3 := S100000x64) (u := S_) (α := Ideal .f32)
    (select (cmpi .slt (W (Proc.devRef .tc main_arg32)) (broadcastInDim S100000 ![] bcast_S_S100000 (constantI S_ 32 0#32)))
              (addi (W (Proc.devRef .tc main_arg32)) (broadcastInDim S100000 ![] bcast_S_S100000 (constantI S_ 32 100000#32)))
              (W (Proc.devRef .tc main_arg32)))
    (wrap_ok _ _ _ (fun _ => rfl) (fun _ => rfl) h)
    ![0] bcast_S100000_S100000x1_0
    (broadcastInDim S100000x1 ![] bcast_S_S100000x1 (constantI S_ 32 0#32))
    (broadcastInDim S100000x1 ![0, 1] bcast_S1x1_S100000x1_0_1 (broadcastInDim S1x1 ![1] bcast_S1_S1x1_1 (constantI S1 32 99999#32)))
    (fun _ => rfl) (fun _ => rfl)
    reducesTo_S100000x1_S100000_d1 (constantI S_ 1 1#1) h_S_ (fun _ => rfl)
    ![0] bcast_S100000_S100000x64_0
    (Host.gather gather_S100000x64_S100000x1_S100000x64_1_0_n_n_0_1_164 (W (Proc.devRef .tc main_arg1))
          (broadcastInDim S100000x1 ![0] bcast_S100000_S100000x1_0
            (select (cmpi .slt (W (Proc.devRef .tc main_arg32)) (broadcastInDim S100000 ![] bcast_S_S100000 (constantI S_ 32 0#32)))
              (addi (W (Proc.devRef .tc main_arg32)) (broadcastInDim S100000 ![] bcast_S_S100000 (constantI S_ 32 100000#32)))
              (W (Proc.devRef .tc main_arg32)))))
    (broadcastInDim S100000x64 ![] bcast_S_S100000x64 (constant S_ .f32 0x7FC00000#32))
  have c1 : ∀ v, (TRef.of (T := ⟨S100000x64, .f32⟩) main_v1).toBuf (Val := Elt Ideal) v = v := fun _ => rfl
  have c2 : ∀ v, (TRef.of (T := ⟨S100000, .i32⟩) main_arg32).ofBuf (Val := Elt Ideal) v = v := fun _ => rfl
  have c3 : ∀ v, (TRef.of (T := ⟨S100000x64, .f32⟩) main_arg1).ofBuf (Val := Elt Ideal) v = v := fun _ => rfl
  after_results_simp
  simp only [ofBuf_toBuf, c1, c2, c3]
  exact key

/-- Call 2 of the row lookup (300000 indices): with every index word in [-100000, 100000) the bounds mask is all
    ones and the call returns the gathered rows of the wrapped indices. -/
theorem call2 (W : Valuation τ sig (Elt Ideal))
    (h : ∀ i : S300000.Idx, IntOp.cmpi .sge (W (Proc.devRef .tc main_v5) i) 4294867296#32 = 1#1
      ∧ IntOp.cmpi .slt (W (Proc.devRef .tc main_v5) i) 100000#32 = 1#1) :
    StableHlo.after (hostOps2_1 (F := Ideal)) W (Proc.devRef .tc main_v8)
      = Host.gather gather_S100000x64_S300000x1_S300000x64_1_0_n_n_0_1_164 (W (Proc.devRef .tc main_v2_0))
          (broadcastInDim S300000x1 ![0] bcast_S300000_S300000x1_0
            (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))) := by
  have key := select_mask_eq (s1 := S300000) (s2 := S300000x1) (sr := S300000) (s3 := S300000x64) (u := S_) (α := Ideal .f32)
    (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))
    (wrap_ok _ _ _ (fun _ => rfl) (fun _ => rfl) h)
    ![0] bcast_S300000_S300000x1_0
    (broadcastInDim S300000x1 ![] bcast_S_S300000x1 (constantI S_ 32 0#32))
    (broadcastInDim S300000x1 ![0, 1] bcast_S1x1_S300000x1_0_1 (broadcastInDim S1x1 ![1] bcast_S1_S1x1_1 (constantI S1 32 99999#32)))
    (fun _ => rfl) (fun _ => rfl)
    reducesTo_S300000x1_S300000_d1 (constantI S_ 1 1#1) h_S_ (fun _ => rfl)
    ![0] bcast_S300000_S300000x64_0
    (Host.gather gather_S100000x64_S300000x1_S300000x64_1_0_n_n_0_1_164 (W (Proc.devRef .tc main_v2_0))
          (broadcastInDim S300000x1 ![0] bcast_S300000_S300000x1_0
            (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))))
    (broadcastInDim S300000x64 ![] bcast_S_S300000x64 (constant S_ .f32 0x7FC00000#32))
  have c1 : ∀ v, (TRef.of (T := ⟨S300000x64, .f32⟩) main_v8).toBuf (Val := Elt Ideal) v = v := fun _ => rfl
  have c2 : ∀ v, (TRef.of (T := ⟨S300000, .i32⟩) main_v5).ofBuf (Val := Elt Ideal) v = v := fun _ => rfl
  have c3 : ∀ v, (TRef.of (T := ⟨S100000x64, .f32⟩) main_v2_0).ofBuf (Val := Elt Ideal) v = v := fun _ => rfl
  after_results_simp
  simp only [ofBuf_toBuf, c1, c2, c3]
  exact key

/-- Call 3 of the row lookup (300000 indices): with every index word in [-100000, 100000) the bounds mask is all
    ones and the call returns the gathered rows of the wrapped indices. -/
theorem call3 (W : Valuation τ sig (Elt Ideal))
    (h : ∀ i : S300000.Idx, IntOp.cmpi .sge (W (Proc.devRef .tc main_v7) i) 4294867296#32 = 1#1
      ∧ IntOp.cmpi .slt (W (Proc.devRef .tc main_v7) i) 100000#32 = 1#1) :
    StableHlo.after (hostOps2_2 (F := Ideal)) W (Proc.devRef .tc main_v9)
      = Host.gather gather_S100000x64_S300000x1_S300000x64_1_0_n_n_0_1_164 (W (Proc.devRef .tc main_v2_1))
          (broadcastInDim S300000x1 ![0] bcast_S300000_S300000x1_0
            (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))) := by
  have key := select_mask_eq (s1 := S300000) (s2 := S300000x1) (sr := S300000) (s3 := S300000x64) (u := S_) (α := Ideal .f32)
    (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))
    (wrap_ok _ _ _ (fun _ => rfl) (fun _ => rfl) h)
    ![0] bcast_S300000_S300000x1_0
    (broadcastInDim S300000x1 ![] bcast_S_S300000x1 (constantI S_ 32 0#32))
    (broadcastInDim S300000x1 ![0, 1] bcast_S1x1_S300000x1_0_1 (broadcastInDim S1x1 ![1] bcast_S1_S1x1_1 (constantI S1 32 99999#32)))
    (fun _ => rfl) (fun _ => rfl)
    reducesTo_S300000x1_S300000_d1 (constantI S_ 1 1#1) h_S_ (fun _ => rfl)
    ![0] bcast_S300000_S300000x64_0
    (Host.gather gather_S100000x64_S300000x1_S300000x64_1_0_n_n_0_1_164 (W (Proc.devRef .tc main_v2_1))
          (broadcastInDim S300000x1 ![0] bcast_S300000_S300000x1_0
            (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))))
    (broadcastInDim S300000x64 ![] bcast_S_S300000x64 (constant S_ .f32 0x7FC00000#32))
  have c1 : ∀ v, (TRef.of (T := ⟨S300000x64, .f32⟩) main_v9).toBuf (Val := Elt Ideal) v = v := fun _ => rfl
  have c2 : ∀ v, (TRef.of (T := ⟨S300000, .i32⟩) main_v7).ofBuf (Val := Elt Ideal) v = v := fun _ => rfl
  have c3 : ∀ v, (TRef.of (T := ⟨S100000x64, .f32⟩) main_v2_1).ofBuf (Val := Elt Ideal) v = v := fun _ => rfl
  after_results_simp
  simp only [ofBuf_toBuf, c1, c2, c3]
  exact key

/-- Call 4 of the row lookup (300000 indices): with every index word in [-100000, 100000) the bounds mask is all
    ones and the call returns the gathered rows of the wrapped indices. -/
theorem call4 (W : Valuation τ sig (Elt Ideal))
    (h : ∀ i : S300000.Idx, IntOp.cmpi .sge (W (Proc.devRef .tc main_v5) i) 4294867296#32 = 1#1
      ∧ IntOp.cmpi .slt (W (Proc.devRef .tc main_v5) i) 100000#32 = 1#1) :
    StableHlo.after (hostOps4 (F := Ideal)) W (Proc.devRef .tc main_v40)
      = Host.gather gather_S100000x64_S300000x1_S300000x64_1_0_n_n_0_1_164 (W (Proc.devRef .tc main_v39_0))
          (broadcastInDim S300000x1 ![0] bcast_S300000_S300000x1_0
            (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))) := by
  have key := select_mask_eq (s1 := S300000) (s2 := S300000x1) (sr := S300000) (s3 := S300000x64) (u := S_) (α := Ideal .f32)
    (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))
    (wrap_ok _ _ _ (fun _ => rfl) (fun _ => rfl) h)
    ![0] bcast_S300000_S300000x1_0
    (broadcastInDim S300000x1 ![] bcast_S_S300000x1 (constantI S_ 32 0#32))
    (broadcastInDim S300000x1 ![0, 1] bcast_S1x1_S300000x1_0_1 (broadcastInDim S1x1 ![1] bcast_S1_S1x1_1 (constantI S1 32 99999#32)))
    (fun _ => rfl) (fun _ => rfl)
    reducesTo_S300000x1_S300000_d1 (constantI S_ 1 1#1) h_S_ (fun _ => rfl)
    ![0] bcast_S300000_S300000x64_0
    (Host.gather gather_S100000x64_S300000x1_S300000x64_1_0_n_n_0_1_164 (W (Proc.devRef .tc main_v39_0))
          (broadcastInDim S300000x1 ![0] bcast_S300000_S300000x1_0
            (select (cmpi .slt (W (Proc.devRef .tc main_v5)) (broadcastInDim S300000 ![] bcast_S_S300000 (constantI S_ 32 0#32)))
              (addi (W (Proc.devRef .tc main_v5)) (broadcastInDim S300000 ![] bcast_S_S300000 (constantI S_ 32 100000#32)))
              (W (Proc.devRef .tc main_v5)))))
    (broadcastInDim S300000x64 ![] bcast_S_S300000x64 (constant S_ .f32 0x7FC00000#32))
  have c1 : ∀ v, (TRef.of (T := ⟨S300000x64, .f32⟩) main_v40).toBuf (Val := Elt Ideal) v = v := fun _ => rfl
  have c2 : ∀ v, (TRef.of (T := ⟨S300000, .i32⟩) main_v5).ofBuf (Val := Elt Ideal) v = v := fun _ => rfl
  have c3 : ∀ v, (TRef.of (T := ⟨S100000x64, .f32⟩) main_v39_0).ofBuf (Val := Elt Ideal) v = v := fun _ => rfl
  after_results_simp
  simp only [ofBuf_toBuf, c1, c2, c3]
  exact key

/-- Call 5 of the row lookup (300000 indices): with every index word in [-100000, 100000) the bounds mask is all
    ones and the call returns the gathered rows of the wrapped indices. -/
theorem call5 (W : Valuation τ sig (Elt Ideal))
    (h : ∀ i : S300000.Idx, IntOp.cmpi .sge (W (Proc.devRef .tc main_v7) i) 4294867296#32 = 1#1
      ∧ IntOp.cmpi .slt (W (Proc.devRef .tc main_v7) i) 100000#32 = 1#1) :
    StableHlo.after (hostOps4_1 (F := Ideal)) W (Proc.devRef .tc main_v41)
      = Host.gather gather_S100000x64_S300000x1_S300000x64_1_0_n_n_0_1_164 (W (Proc.devRef .tc main_v39_1))
          (broadcastInDim S300000x1 ![0] bcast_S300000_S300000x1_0
            (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))) := by
  have key := select_mask_eq (s1 := S300000) (s2 := S300000x1) (sr := S300000) (s3 := S300000x64) (u := S_) (α := Ideal .f32)
    (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))
    (wrap_ok _ _ _ (fun _ => rfl) (fun _ => rfl) h)
    ![0] bcast_S300000_S300000x1_0
    (broadcastInDim S300000x1 ![] bcast_S_S300000x1 (constantI S_ 32 0#32))
    (broadcastInDim S300000x1 ![0, 1] bcast_S1x1_S300000x1_0_1 (broadcastInDim S1x1 ![1] bcast_S1_S1x1_1 (constantI S1 32 99999#32)))
    (fun _ => rfl) (fun _ => rfl)
    reducesTo_S300000x1_S300000_d1 (constantI S_ 1 1#1) h_S_ (fun _ => rfl)
    ![0] bcast_S300000_S300000x64_0
    (Host.gather gather_S100000x64_S300000x1_S300000x64_1_0_n_n_0_1_164 (W (Proc.devRef .tc main_v39_1))
          (broadcastInDim S300000x1 ![0] bcast_S300000_S300000x1_0
            (select (cmpi .slt (W (Proc.devRef .tc main_v7)) (broadcastInDim S300000 ![] bcast_S_S300000 (constantI S_ 32 0#32)))
              (addi (W (Proc.devRef .tc main_v7)) (broadcastInDim S300000 ![] bcast_S_S300000 (constantI S_ 32 100000#32)))
              (W (Proc.devRef .tc main_v7)))))
    (broadcastInDim S300000x64 ![] bcast_S_S300000x64 (constant S_ .f32 0x7FC00000#32))
  have c1 : ∀ v, (TRef.of (T := ⟨S300000x64, .f32⟩) main_v41).toBuf (Val := Elt Ideal) v = v := fun _ => rfl
  have c2 : ∀ v, (TRef.of (T := ⟨S300000, .i32⟩) main_v7).ofBuf (Val := Elt Ideal) v = v := fun _ => rfl
  have c3 : ∀ v, (TRef.of (T := ⟨S100000x64, .f32⟩) main_v39_1).ofBuf (Val := Elt Ideal) v = v := fun _ => rfl
  after_results_simp
  simp only [ofBuf_toBuf, c1, c2, c3]
  exact key

/-- Call 6 of the row lookup (150000 indices): with every index word in [-100000, 100000) the bounds mask is all
    ones and the call returns the gathered rows of the wrapped indices. -/
theorem call6 (W : Valuation τ sig (Elt Ideal))
    (h : ∀ i : S150000.Idx, IntOp.cmpi .sge (W (Proc.devRef .tc main_v73) i) 4294867296#32 = 1#1
      ∧ IntOp.cmpi .slt (W (Proc.devRef .tc main_v73) i) 100000#32 = 1#1) :
    StableHlo.after (hostOps6_1 (F := Ideal)) W (Proc.devRef .tc main_v74)
      = Host.gather gather_S100000x64_S150000x1_S150000x64_1_0_n_n_0_1_164 (W (Proc.devRef .tc main_v71_0))
          (broadcastInDim S150000x1 ![0] bcast_S150000_S150000x1_0
            (select (cmpi .slt (W (Proc.devRef .tc main_v73)) (broadcastInDim S150000 ![] bcast_S_S150000 (constantI S_ 32 0#32)))
              (addi (W (Proc.devRef .tc main_v73)) (broadcastInDim S150000 ![] bcast_S_S150000 (constantI S_ 32 100000#32)))
              (W (Proc.devRef .tc main_v73)))) := by
  have key := select_mask_eq (s1 := S150000) (s2 := S150000x1) (sr := S150000) (s3 := S150000x64) (u := S_) (α := Ideal .f32)
    (select (cmpi .slt (W (Proc.devRef .tc main_v73)) (broadcastInDim S150000 ![] bcast_S_S150000 (constantI S_ 32 0#32)))
              (addi (W (Proc.devRef .tc main_v73)) (broadcastInDim S150000 ![] bcast_S_S150000 (constantI S_ 32 100000#32)))
              (W (Proc.devRef .tc main_v73)))
    (wrap_ok _ _ _ (fun _ => rfl) (fun _ => rfl) h)
    ![0] bcast_S150000_S150000x1_0
    (broadcastInDim S150000x1 ![] bcast_S_S150000x1 (constantI S_ 32 0#32))
    (broadcastInDim S150000x1 ![0, 1] bcast_S1x1_S150000x1_0_1 (broadcastInDim S1x1 ![1] bcast_S1_S1x1_1 (constantI S1 32 99999#32)))
    (fun _ => rfl) (fun _ => rfl)
    reducesTo_S150000x1_S150000_d1 (constantI S_ 1 1#1) h_S_ (fun _ => rfl)
    ![0] bcast_S150000_S150000x64_0
    (Host.gather gather_S100000x64_S150000x1_S150000x64_1_0_n_n_0_1_164 (W (Proc.devRef .tc main_v71_0))
          (broadcastInDim S150000x1 ![0] bcast_S150000_S150000x1_0
            (select (cmpi .slt (W (Proc.devRef .tc main_v73)) (broadcastInDim S150000 ![] bcast_S_S150000 (constantI S_ 32 0#32)))
              (addi (W (Proc.devRef .tc main_v73)) (broadcastInDim S150000 ![] bcast_S_S150000 (constantI S_ 32 100000#32)))
              (W (Proc.devRef .tc main_v73)))))
    (broadcastInDim S150000x64 ![] bcast_S_S150000x64 (constant S_ .f32 0x7FC00000#32))
  have c1 : ∀ v, (TRef.of (T := ⟨S150000x64, .f32⟩) main_v74).toBuf (Val := Elt Ideal) v = v := fun _ => rfl
  have c2 : ∀ v, (TRef.of (T := ⟨S150000, .i32⟩) main_v73).ofBuf (Val := Elt Ideal) v = v := fun _ => rfl
  have c3 : ∀ v, (TRef.of (T := ⟨S100000x64, .f32⟩) main_v71_0).ofBuf (Val := Elt Ideal) v = v := fun _ => rfl
  after_results_simp
  simp only [ofBuf_toBuf, c1, c2, c3]
  exact key

/-- Call 7 of the row lookup (150000 indices): with every index word in [-100000, 100000) the bounds mask is all
    ones and the call returns the gathered rows of the wrapped indices. -/
theorem call7 (W : Valuation τ sig (Elt Ideal))
    (h : ∀ i : S150000.Idx, IntOp.cmpi .sge (W (Proc.devRef .tc main_v76) i) 4294867296#32 = 1#1
      ∧ IntOp.cmpi .slt (W (Proc.devRef .tc main_v76) i) 100000#32 = 1#1) :
    StableHlo.after (hostOps6_3 (F := Ideal)) W (Proc.devRef .tc main_v77)
      = Host.gather gather_S100000x64_S150000x1_S150000x64_1_0_n_n_0_1_164 (W (Proc.devRef .tc main_v71_1))
          (broadcastInDim S150000x1 ![0] bcast_S150000_S150000x1_0
            (select (cmpi .slt (W (Proc.devRef .tc main_v76)) (broadcastInDim S150000 ![] bcast_S_S150000 (constantI S_ 32 0#32)))
              (addi (W (Proc.devRef .tc main_v76)) (broadcastInDim S150000 ![] bcast_S_S150000 (constantI S_ 32 100000#32)))
              (W (Proc.devRef .tc main_v76)))) := by
  have key := select_mask_eq (s1 := S150000) (s2 := S150000x1) (sr := S150000) (s3 := S150000x64) (u := S_) (α := Ideal .f32)
    (select (cmpi .slt (W (Proc.devRef .tc main_v76)) (broadcastInDim S150000 ![] bcast_S_S150000 (constantI S_ 32 0#32)))
              (addi (W (Proc.devRef .tc main_v76)) (broadcastInDim S150000 ![] bcast_S_S150000 (constantI S_ 32 100000#32)))
              (W (Proc.devRef .tc main_v76)))
    (wrap_ok _ _ _ (fun _ => rfl) (fun _ => rfl) h)
    ![0] bcast_S150000_S150000x1_0
    (broadcastInDim S150000x1 ![] bcast_S_S150000x1 (constantI S_ 32 0#32))
    (broadcastInDim S150000x1 ![0, 1] bcast_S1x1_S150000x1_0_1 (broadcastInDim S1x1 ![1] bcast_S1_S1x1_1 (constantI S1 32 99999#32)))
    (fun _ => rfl) (fun _ => rfl)
    reducesTo_S150000x1_S150000_d1 (constantI S_ 1 1#1) h_S_ (fun _ => rfl)
    ![0] bcast_S150000_S150000x64_0
    (Host.gather gather_S100000x64_S150000x1_S150000x64_1_0_n_n_0_1_164 (W (Proc.devRef .tc main_v71_1))
          (broadcastInDim S150000x1 ![0] bcast_S150000_S150000x1_0
            (select (cmpi .slt (W (Proc.devRef .tc main_v76)) (broadcastInDim S150000 ![] bcast_S_S150000 (constantI S_ 32 0#32)))
              (addi (W (Proc.devRef .tc main_v76)) (broadcastInDim S150000 ![] bcast_S_S150000 (constantI S_ 32 100000#32)))
              (W (Proc.devRef .tc main_v76)))))
    (broadcastInDim S150000x64 ![] bcast_S_S150000x64 (constant S_ .f32 0x7FC00000#32))
  have c1 : ∀ v, (TRef.of (T := ⟨S150000x64, .f32⟩) main_v77).toBuf (Val := Elt Ideal) v = v := fun _ => rfl
  have c2 : ∀ v, (TRef.of (T := ⟨S150000, .i32⟩) main_v76).ofBuf (Val := Elt Ideal) v = v := fun _ => rfl
  have c3 : ∀ v, (TRef.of (T := ⟨S100000x64, .f32⟩) main_v71_1).ofBuf (Val := Elt Ideal) v = v := fun _ => rfl
  after_results_simp
  simp only [ofBuf_toBuf, c1, c2, c3]
  exact key

/-! ## Ranges through a row slice and a reshape

Every element of a slice, and of a reshape, is an element of its operand, so a bound on every word of the two-row
index array holds of every word of either row read as a vector. -/

theorem range_v51 (x : (⟨S2x300000, .i32⟩ : BufTy).Contents (Elt Ideal))
    (h : ∀ i, IntOp.cmpi .sge (x i) 4294867296#32 = 1#1 ∧ IntOp.cmpi .slt (x i) 100000#32 = 1#1) :
    ∀ i, IntOp.cmpi .sge ((shapeCast _ (extractStridedSlice S1x300000 ![0, 0] x slices_S2x300000_S1x300000_0_0) shapeCasts_S1x300000_S300000 : (⟨S300000, .i32⟩ : BufTy).Contents (Elt Ideal)) i) 4294867296#32 = 1#1
      ∧ IntOp.cmpi .slt ((shapeCast _ (extractStridedSlice S1x300000 ![0, 0] x slices_S2x300000_S1x300000_0_0) shapeCasts_S1x300000_S300000 : (⟨S300000, .i32⟩ : BufTy).Contents (Elt Ideal)) i) 100000#32 = 1#1 :=
  fun _ => h _

theorem range_v53 (x : (⟨S2x300000, .i32⟩ : BufTy).Contents (Elt Ideal))
    (h : ∀ i, IntOp.cmpi .sge (x i) 4294867296#32 = 1#1 ∧ IntOp.cmpi .slt (x i) 100000#32 = 1#1) :
    ∀ i, IntOp.cmpi .sge ((shapeCast _ (extractStridedSlice S1x300000 ![1, 0] x slices_S2x300000_S1x300000_1_0) shapeCasts_S1x300000_S300000 : (⟨S300000, .i32⟩ : BufTy).Contents (Elt Ideal)) i) 4294867296#32 = 1#1
      ∧ IntOp.cmpi .slt ((shapeCast _ (extractStridedSlice S1x300000 ![1, 0] x slices_S2x300000_S1x300000_1_0) shapeCasts_S1x300000_S300000 : (⟨S300000, .i32⟩ : BufTy).Contents (Elt Ideal)) i) 100000#32 = 1#1 :=
  fun _ => h _

theorem range_v211 (x : (⟨S2x150000, .i32⟩ : BufTy).Contents (Elt Ideal))
    (h : ∀ i, IntOp.cmpi .sge (x i) 4294867296#32 = 1#1 ∧ IntOp.cmpi .slt (x i) 100000#32 = 1#1) :
    ∀ i, IntOp.cmpi .sge ((shapeCast _ (extractStridedSlice S1x150000 ![0, 0] x slices_S2x150000_S1x150000_0_0) shapeCasts_S1x150000_S150000 : (⟨S150000, .i32⟩ : BufTy).Contents (Elt Ideal)) i) 4294867296#32 = 1#1
      ∧ IntOp.cmpi .slt ((shapeCast _ (extractStridedSlice S1x150000 ![0, 0] x slices_S2x150000_S1x150000_0_0) shapeCasts_S1x150000_S150000 : (⟨S150000, .i32⟩ : BufTy).Contents (Elt Ideal)) i) 100000#32 = 1#1 :=
  fun _ => h _

theorem range_v220 (x : (⟨S2x150000, .i32⟩ : BufTy).Contents (Elt Ideal))
    (h : ∀ i, IntOp.cmpi .sge (x i) 4294867296#32 = 1#1 ∧ IntOp.cmpi .slt (x i) 100000#32 = 1#1) :
    ∀ i, IntOp.cmpi .sge ((shapeCast _ (extractStridedSlice S1x150000 ![1, 0] x slices_S2x150000_S1x150000_1_0) shapeCasts_S1x150000_S150000 : (⟨S150000, .i32⟩ : BufTy).Contents (Elt Ideal)) i) 4294867296#32 = 1#1
      ∧ IntOp.cmpi .slt ((shapeCast _ (extractStridedSlice S1x150000 ![1, 0] x slices_S2x150000_S1x150000_1_0) shapeCasts_S1x150000_S150000 : (⟨S150000, .i32⟩ : BufTy).Contents (Elt Ideal)) i) 100000#32 = 1#1 :=
  fun _ => h _

end Cert.Bridge.Takes
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.Region0.lean ====
/-
  The first pallas region: two independent two-layer perceptrons over the rows of two gathered embedding tables.

  Each result row is `relu(x W1 + b1) W2 + b2` of the same row of its input: with `z` the value of the zero word,
    out (p, q) = (∑ k, max ((∑ j, x (p, j) * W1 (j, k)) + b1 k) z * W2 (k, q)) + b2 q.
  The kernel computes it 5000 rows at a time over a grid of 20 points, the weights and biases staged whole at every
  point; the reference computes it on the whole `[100000, 64]` table. Entry `(p, q)` depends on the input only through
  its row `p`, so block `t` of the kernel's result is rows `5000 t … 5000 t + 4999` of the reference's, and the 20 blocks
  tile the array. No law of the extended reals is used beyond reading both sides as the same sums: nothing here needs the
  inputs to be finite.
-/
import proofs.«109817_j10033043603480_2_alg».proof.Proof.Gen.KernelIdeal.Frame
import proofs.«109817_j10033043603480_2_alg».proof.Proof.RefRead
import proofs.«109817_j10033043603480_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
open scoped BigOperators

namespace Cert.Bridge.R0

open Cert.KernelIdeal Cert.KernelIdeal.Gen Idealize.ShloMosaic Idealize.ShloMosaic.ValueIdx Idealize.ShloMosaic.TcCoe Idealize.SL.Sem
open Idealize.ShloMosaic.Pipeline (Dat)

/-! ## One entry of the perceptron -/

/-- Entry `(p, q)` of a two-layer perceptron applied to the rows of `x`; `max · z` with `z` the zero word's value is the
    rectifier. -/
def mlp {M : Nat} (x : (⟨2, ![M, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin M) (q : Fin 64) : EReal :=
  (∑ k : Fin 64, max ((∑ j : Fin 64, x (ix2 p j) * W1 (ix2 j k)) + b1 (ix1 k)) (Ideal.ofBits .f32 0x00000000#32)
      * W2 (ix2 k q)) + b2 (ix1 q)

/-- An entry depends on the input only through its own row. -/
theorem mlp_congr {M M' : Nat} (x : (⟨2, ![M, 64]⟩ : Shape).Idx → EReal) (x' : (⟨2, ![M', 64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (p : Fin M) (p' : Fin M') (q : Fin 64) (h : ∀ j : Fin 64, x (ix2 p j) = x' (ix2 p' j)) :
    mlp x W1 b1 W2 b2 p q = mlp x' W1 b1 W2 b2 p' q := by
  unfold mlp
  simp only [h]

/-! ## The kernel body's two results at an index

Each matrix product into the zero accumulator is the sum over the contracted axis; the bias, re-laid as one row and
repeated down the block, reads its entry of the column; the rectifier is the maximum with the zero word's value. -/

theorem pay1_apply (v0 : Vec Ideal S5000x64 .f32) (v2 : Vec Ideal S64x64 .f32) (v4 : Vec Ideal S64 .f32)
    (v10 : Vec Ideal S64x64 .f32) (v12 : Vec Ideal S64 .f32) (r : Fin 5000) (q : Fin 64) :
    k0_pay1 (F := Ideal) v0 v2 v4 v10 v12 (ix2 r q) = mlp (M := 5000) v0 v2 v4 v10 v12 r q := by
  unfold k0_pay1 mlp
  refine congrArg₂ (· + ·) ?_ ?_
  · refine (Cert.Lib.PlainDot.matmul_zero_apply 5000 64 64 none _ v10 r q).trans ?_
    refine Finset.sum_congr rfl fun k _ => ?_
    refine congrArg (· * v10 (ix2 k q)) ?_
    refine congrArg₂ max (congrArg₂ (· + ·) ?_ ?_) rfl
    · refine (Cert.Lib.PlainDot.matmul_zero_apply 5000 64 64 none _ v2 r k).trans ?_
      exact Finset.sum_congr rfl fun j _ => congrArg (· * v2 (ix2 j k)) (congrFun (shapeCast_self v0 _) (ix2 r j))
    · exact (broadcastTo_1b_ab_apply _ _ r k).trans (shapeCast_a_1a_apply v4 _ 0 k)
  · exact (broadcastTo_1b_ab_apply _ _ r q).trans (shapeCast_a_1a_apply v12 _ 0 q)

theorem pay2_apply (v17 : Vec Ideal S5000x64 .f32) (v19 : Vec Ideal S64x64 .f32) (v21 : Vec Ideal S64 .f32)
    (v27 : Vec Ideal S64x64 .f32) (v29 : Vec Ideal S64 .f32) (r : Fin 5000) (q : Fin 64) :
    k0_pay2 (F := Ideal) v17 v19 v21 v27 v29 (ix2 r q) = mlp (M := 5000) v17 v19 v21 v27 v29 r q := by
  unfold k0_pay2 mlp
  refine congrArg₂ (· + ·) ?_ ?_
  · refine (Cert.Lib.PlainDot.matmul_zero_apply 5000 64 64 none _ v27 r q).trans ?_
    refine Finset.sum_congr rfl fun k _ => ?_
    refine congrArg (· * v27 (ix2 k q)) ?_
    refine congrArg₂ max (congrArg₂ (· + ·) ?_ ?_) rfl
    · refine (Cert.Lib.PlainDot.matmul_zero_apply 5000 64 64 none _ v19 r k).trans ?_
      exact Finset.sum_congr rfl fun j _ => congrArg (· * v19 (ix2 j k)) (congrFun (shapeCast_self v17 _) (ix2 r j))
    · exact (broadcastTo_1b_ab_apply _ _ r k).trans (shapeCast_a_1a_apply v21 _ 0 k)
  · exact (broadcastTo_1b_ab_apply _ _ r q).trans (shapeCast_a_1a_apply v29 _ 0 q)

/-! ## Where each window's block sits

The grid has 20 points. The row-blocked windows (0 and 5, the two inputs; 10 and 11, the two results) take at point `t`
the 5000 rows from `5000 t` on; every weight and bias window takes its whole array at every point. The index maps are
decided once over the grid. -/

theorem index_rows0 : ∀ t : Fin cfg0.N, win0_0.index t (0 : Fin 2) = t.val ∧ win0_0.index t (1 : Fin 2) = 0 :=
  (by decide +kernel : ∀ t : Fin grid0.N, _)
theorem index_rows5 : ∀ t : Fin cfg0.N, win0_5.index t (0 : Fin 2) = t.val ∧ win0_5.index t (1 : Fin 2) = 0 :=
  (by decide +kernel : ∀ t : Fin grid0.N, _)
theorem index_rows10 : ∀ t : Fin cfg0.N, win0_10.index t (0 : Fin 2) = t.val ∧ win0_10.index t (1 : Fin 2) = 0 :=
  (by decide +kernel : ∀ t : Fin grid0.N, _)
theorem index_rows11 : ∀ t : Fin cfg0.N, win0_11.index t (0 : Fin 2) = t.val ∧ win0_11.index t (1 : Fin 2) = 0 :=
  (by decide +kernel : ∀ t : Fin grid0.N, _)
theorem index_whole1 : ∀ t : Fin cfg0.N, win0_1.index t (0 : Fin 2) = 0 ∧ win0_1.index t (1 : Fin 2) = 0 :=
  (by decide +kernel : ∀ t : Fin grid0.N, _)
theorem index_whole3 : ∀ t : Fin cfg0.N, win0_3.index t (0 : Fin 2) = 0 ∧ win0_3.index t (1 : Fin 2) = 0 :=
  (by decide +kernel : ∀ t : Fin grid0.N, _)
theorem index_whole6 : ∀ t : Fin cfg0.N, win0_6.index t (0 : Fin 2) = 0 ∧ win0_6.index t (1 : Fin 2) = 0 :=
  (by decide +kernel : ∀ t : Fin grid0.N, _)
theorem index_whole8 : ∀ t : Fin cfg0.N, win0_8.index t (0 : Fin 2) = 0 ∧ win0_8.index t (1 : Fin 2) = 0 :=
  (by decide +kernel : ∀ t : Fin grid0.N, _)
theorem index_whole2 : ∀ t : Fin cfg0.N, win0_2.index t (0 : Fin 1) = 0 := (by decide +kernel : ∀ t : Fin grid0.N, _)
theorem index_whole4 : ∀ t : Fin cfg0.N, win0_4.index t (0 : Fin 1) = 0 := (by decide +kernel : ∀ t : Fin grid0.N, _)
theorem index_whole7 : ∀ t : Fin cfg0.N, win0_7.index t (0 : Fin 1) = 0 := (by decide +kernel : ∀ t : Fin grid0.N, _)
theorem index_whole9 : ∀ t : Fin cfg0.N, win0_9.index t (0 : Fin 1) = 0 := (by decide +kernel : ∀ t : Fin grid0.N, _)

/-- Row `r` of the block at point `t` is row `5000 t + r` of the array. -/
def row (t : Fin cfg0.N) (r : Fin 5000) : Fin 100000 :=
  ⟨t.val * 5000 + r.val, by have h : t.val < grid0.N := t.isLt; rw [N_0] at h; have := r.isLt; omega⟩

/-- Element `(r, j)` of window 0's block at point `t` is the array's entry `(5000 t + r, j)`. -/
theorem read_rows0 (t : Fin cfg0.N) (A : S100000x64.Idx → EReal) (r : Fin 5000) (j : Fin 64) :
    ((cfg0.win 0).blk t).view.read (Elt Ideal) A (ix2 r j) = A (ix2 (row t r) j) := by
  obtain ⟨e0, e1⟩ := index_rows0 t
  rw [View.read_apply]
  show A _ = A _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 64 + 1 * j.val = j.val; rw [e1]; omega

/-- Element `(r, j)` of window 5's block at point `t` is the array's entry `(5000 t + r, j)`. -/
theorem read_rows5 (t : Fin cfg0.N) (A : S100000x64.Idx → EReal) (r : Fin 5000) (j : Fin 64) :
    ((cfg0.win 5).blk t).view.read (Elt Ideal) A (ix2 r j) = A (ix2 (row t r) j) := by
  obtain ⟨e0, e1⟩ := index_rows5 t
  rw [View.read_apply]
  show A _ = A _
  congr 1
  funext a
  apply Fin.ext
  match a with
  | ⟨0, _⟩ => show win0_5.index t (0 : Fin 2) * 5000 + 1 * r.val = t.val * 5000 + r.val; rw [e0]; omega
  | ⟨1, _⟩ => show win0_5.index t (1 : Fin 2) * 64 + 1 * j.val = j.val; rw [e1]; omega

/-- Element `(r, q)` of result window 10's block at point `t` sits at `(5000 t + r, q)` of its array. -/
theorem emb10 (t : Fin cfg0.N) (r : Fin 5000) (q : Fin 64) :
    ((cfg0.win 10).blk t).view.emb (ix2 r q) = ix2 (row t r) q := by
  obtain ⟨e0, e1⟩ := index_rows10 t
  funext a
  apply Fin.ext
  match a with
  | ⟨0, _⟩ => show win0_10.index t (0 : Fin 2) * 5000 + 1 * r.val = t.val * 5000 + r.val; rw [e0]; omega
  | ⟨1, _⟩ => show win0_10.index t (1 : Fin 2) * 64 + 1 * q.val = q.val; rw [e1]; omega

/-- Element `(r, q)` of result window 11's block at point `t` sits at `(5000 t + r, q)` of its array. -/
theorem emb11 (t : Fin cfg0.N) (r : Fin 5000) (q : Fin 64) :
    ((cfg0.win 11).blk t).view.emb (ix2 r q) = ix2 (row t r) q := by
  obtain ⟨e0, e1⟩ := index_rows11 t
  funext a
  apply Fin.ext
  match a with
  | ⟨0, _⟩ => show win0_11.index t (0 : Fin 2) * 5000 + 1 * r.val = t.val * 5000 + r.val; rw [e0]; omega
  | ⟨1, _⟩ => show win0_11.index t (1 : Fin 2) * 64 + 1 * q.val = q.val; rw [e1]; omega

/-- A `[64, 64]` weight window's block is its whole array: windows 1, 3, 6, 8. -/
theorem read_whole1 (t : Fin cfg0.N) (A : S64x64.Idx → EReal) : ((cfg0.win 1).blk t).view.read (Elt Ideal) A = A := by
  obtain ⟨e0, e1⟩ := index_whole1 t
  funext y
  rw [View.read_apply]
  show A _ = A y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega
theorem read_whole3 (t : Fin cfg0.N) (A : S64x64.Idx → EReal) : ((cfg0.win 3).blk t).view.read (Elt Ideal) A = A := by
  obtain ⟨e0, e1⟩ := index_whole3 t
  funext y
  rw [View.read_apply]
  show A _ = A y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega
theorem read_whole6 (t : Fin cfg0.N) (A : S64x64.Idx → EReal) : ((cfg0.win 6).blk t).view.read (Elt Ideal) A = A := by
  obtain ⟨e0, e1⟩ := index_whole6 t
  funext y
  rw [View.read_apply]
  show A _ = A y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 64 + 1 * (y 1).val = (y 1).val; rw [e1]; omega
theorem read_whole8 (t : Fin cfg0.N) (A : S64x64.Idx → EReal) : ((cfg0.win 8).blk t).view.read (Elt Ideal) A = A := by
  obtain ⟨e0, e1⟩ := index_whole8 t
  funext y
  rw [View.read_apply]
  show A _ = A y
  congr 1
  funext a
  apply Fin.ext
  match a with
  | ⟨0, _⟩ => show win0_8.index t (0 : Fin 2) * 64 + 1 * (y 0).val = (y 0).val; rw [e0]; omega
  | ⟨1, _⟩ => show win0_8.index t (1 : Fin 2) * 64 + 1 * (y 1).val = (y 1).val; rw [e1]; omega

/-- A `[64]` bias window's block is its whole array: windows 2, 4, 7, 9. -/
theorem read_whole2 (t : Fin cfg0.N) (A : S64.Idx → EReal) : ((cfg0.win 2).blk t).view.read (Elt Ideal) A = A := by
  have e0 := index_whole2 t
  funext y
  rw [View.read_apply]
  show A _ = A y
  congr 1
  funext a
  apply Fin.ext
  match a with
  | ⟨0, _⟩ => show win0_2.index t (0 : Fin 1) * 64 + 1 * (y 0).val = (y 0).val; rw [e0]; omega
theorem read_whole4 (t : Fin cfg0.N) (A : S64.Idx → EReal) : ((cfg0.win 4).blk t).view.read (Elt Ideal) A = A := by
  have e0 := index_whole4 t
  funext y
  rw [View.read_apply]
  show A _ = A y
  congr 1
  funext a
  apply Fin.ext
  match a with
  | ⟨0, _⟩ => show win0_4.index t (0 : Fin 1) * 64 + 1 * (y 0).val = (y 0).val; rw [e0]; omega
theorem read_whole7 (t : Fin cfg0.N) (A : S64.Idx → EReal) : ((cfg0.win 7).blk t).view.read (Elt Ideal) A = A := by
  have e0 := index_whole7 t
  funext y
  rw [View.read_apply]
  show A _ = A y
  congr 1
  funext a
  apply Fin.ext
  match a with
  | ⟨0, _⟩ => show win0_7.index t (0 : Fin 1) * 64 + 1 * (y 0).val = (y 0).val; rw [e0]; omega
theorem read_whole9 (t : Fin cfg0.N) (A : S64.Idx → EReal) : ((cfg0.win 9).blk t).view.read (Elt Ideal) A = A := by
  have e0 := index_whole9 t
  funext y
  rw [View.read_apply]
  show A _ = A y
  congr 1
  funext a
  apply Fin.ext
  match a with
  | ⟨0, _⟩ => show win0_9.index t (0 : Fin 1) * 64 + 1 * (y 0).val = (y 0).val; rw [e0]; omega

/-! ## The result blocks tile the result arrays -/

theorem mem_blk10 (t : Fin cfg0.N) (i : S100000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v2_0).slice (win0_10.rect t)).set ↔ _
  rw [View.set_slice_whole, Rect.mem_set_unit]
  exact Iff.rfl

theorem mem_blk11 (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v2_1).slice (win0_11.rect t)).set ↔ _
  rw [View.set_slice_whole, Rect.mem_set_unit]
  exact Iff.rfl

/-- Row `i` of the first result lies in the block of point `i / 5000`. -/
theorem cover10 (i : S100000x64.Idx) :
    ∃ t : Fin cfg0.N, (cfg0.win 10).flush t = true ∧ i ∈ ((cfg0.win 10).blk t).view.set := by
  have hN : grid0.N = 20 := N_0
  have hi0 : (i 0).val < 100000 := (i 0).isLt
  have hi1 : (i 1).val < 64 := (i 1).isLt
  have ht : (i 0).val / 5000 < cfg0.N := by show (i 0).val / 5000 < grid0.N; rw [hN]; omega
  obtain ⟨ea, eb⟩ := index_rows10 ⟨(i 0).val / 5000, ht⟩
  refine ⟨⟨(i 0).val / 5000, ht⟩, flush0_10 _, ?_⟩
  rw [mem_blk10]
  intro a
  match a with
  | ⟨0, _⟩ =>
    show win0_10.index ⟨(i 0).val / 5000, ht⟩ (0 : Fin 2) * 5000 ≤ (i 0).val ∧ (i 0).val < win0_10.index ⟨(i 0).val / 5000, ht⟩ (0 : Fin 2) * 5000 + 5000
    rw [ea]; show (i 0).val / 5000 * 5000 ≤ (i 0).val ∧ (i 0).val < (i 0).val / 5000 * 5000 + 5000; omega
  | ⟨1, _⟩ =>
    show win0_10.index ⟨(i 0).val / 5000, ht⟩ (1 : Fin 2) * 64 ≤ (i 1).val ∧ (i 1).val < win0_10.index ⟨(i 0).val / 5000, ht⟩ (1 : Fin 2) * 64 + 64
    rw [eb]; omega

/-- Row `i` of the second result lies in the block of point `i / 5000`. -/
theorem cover11 (i : S100000x64.Idx) :
    ∃ t : Fin cfg0.N, (cfg0.win 11).flush t = true ∧ i ∈ ((cfg0.win 11).blk t).view.set := by
  have hN : grid0.N = 20 := N_0
  have hi0 : (i 0).val < 100000 := (i 0).isLt
  have hi1 : (i 1).val < 64 := (i 1).isLt
  have ht : (i 0).val / 5000 < cfg0.N := by show (i 0).val / 5000 < grid0.N; rw [hN]; omega
  obtain ⟨ea, eb⟩ := index_rows11 ⟨(i 0).val / 5000, ht⟩
  refine ⟨⟨(i 0).val / 5000, ht⟩, flush0_11 _, ?_⟩
  rw [mem_blk11]
  intro a
  match a with
  | ⟨0, _⟩ =>
    show win0_11.index ⟨(i 0).val / 5000, ht⟩ (0 : Fin 2) * 5000 ≤ (i 0).val ∧ (i 0).val < win0_11.index ⟨(i 0).val / 5000, ht⟩ (0 : Fin 2) * 5000 + 5000
    rw [ea]; show (i 0).val / 5000 * 5000 ≤ (i 0).val ∧ (i 0).val < (i 0).val / 5000 * 5000 + 5000; omega
  | ⟨1, _⟩ =>
    show win0_11.index ⟨(i 0).val / 5000, ht⟩ (1 : Fin 2) * 64 ≤ (i 1).val ∧ (i 1).val < win0_11.index ⟨(i 0).val / 5000, ht⟩ (1 : Fin 2) * 64 + 64
    rw [eb]; omega

/-! ## From the blocks to the arrays

Stated against any function `G` of the result's index whose entry `(p, q)` is the perceptron's entry over a table `A`:
the region's first result array ends holding `G` when window 0's array is `A` and windows 1 to 4 hold the weights. -/

theorem hz : (![0, 0] : Fin 2 → Nat) = fun _ => 0 := funext fun a => by fin_cases a <;> rfl
theorem hz1 : (![0] : Fin 1 → Nat) = fun _ => 0 := funext fun a => by fin_cases a <;> rfl

/-- What point `t` writes back to the first result is block `t` of `G`. -/
theorem flushed10_of (V : (c : Dev nD) → (b : Ref sig .tc) → Buf (Elt Ideal) ((c : Thread nD τ).loc b)) (c : Dev nD)
    (A : S100000x64.Idx → EReal) (x2 : S64x64.Idx → EReal) (x3 : S64.Idx → EReal) (x4 : S64x64.Idx → EReal)
    (x5 : S64.Idx → EReal) (G : S100000x64.Idx → EReal)
    (hG : ∀ (p : Fin 100000) (q : Fin 64), G (ix2 p q) = mlp (M := 100000) A x2 x3 x4 x5 p q)
    (h0 : V c (Pipeline.arrRef spec0 0) = A) (h1 : V c (Pipeline.arrRef spec0 1) = x2)
    (h2 : V c (Pipeline.arrRef spec0 2) = x3) (h3 : V c (Pipeline.arrRef spec0 3) = x4)
    (h4 : V c (Pipeline.arrRef spec0 4) = x5) (t : Fin cfg0.N) :
    (dat0 (F := Ideal) V c).flushed 10 t = ((cfg0.win 10).blk t).view.read (Elt Ideal) G := by
  have b0 : ∀ (r : Fin 5000) (j : Fin 64), (iblk0 V c 0 t : Vec Ideal S5000x64 .f32) (ix2 r j) = A (ix2 (row t r) j) :=
    fun r j => by unfold iblk0; rw [h0]; exact read_rows0 t A r j
  have b1 : (iblk0 V c 1 t : Vec Ideal S64x64 .f32) = x2 := by unfold iblk0; rw [h1]; exact read_whole1 t x2
  have b2 : (iblk0 V c 2 t : Vec Ideal S64 .f32) = x3 := by unfold iblk0; rw [h2]; exact read_whole2 t x3
  have b3 : (iblk0 V c 3 t : Vec Ideal S64x64 .f32) = x4 := by unfold iblk0; rw [h3]; exact read_whole3 t x4
  have b4 : (iblk0 V c 4 t : Vec Ideal S64 .f32) = x5 := by unfold iblk0; rw [h4]; exact read_whole4 t x5
  show (cfg0.win 10).cut (grid0.coords t) ((dat0 V c).after 10 t) = _
  rw [after0_10]
  unfold out0_10
  rw [View.canon_unit_zero hz]
  simp only [View.ld_unit_zero (S := S5000x64) hz, View.ld_unit_zero (S := S64x64) hz, View.ld_unit_zero (S := S64) hz1]
  rw [b1, b2, b3, b4]
  funext y
  obtain ⟨r, q, rfl⟩ : ∃ (r : Fin 5000) (q : Fin 64), y = ix2 r q := ⟨y 0, y 1, eq_ix2 y⟩
  show k0_pay1 (F := Ideal) (iblk0 V c 0 t) x2 x3 x4 x5 (ix2 r q) = G (((cfg0.win 10).blk t).view.emb (ix2 r q))
  rw [emb10 t r q, hG, pay1_apply]
  exact mlp_congr _ A x2 x3 x4 x5 r (row t r) q (b0 r)

/-- So the first result array after the region is `G`: its 20 blocks tile the array. -/
theorem arr10_of (V : (c : Dev nD) → (b : Ref sig .tc) → Buf (Elt Ideal) ((c : Thread nD τ).loc b)) (c : Dev nD)
    (A : S100000x64.Idx → EReal) (x2 : S64x64.Idx → EReal) (x3 : S64.Idx → EReal) (x4 : S64x64.Idx → EReal)
    (x5 : S64.Idx → EReal) (G : S100000x64.Idx → EReal)
    (hG : ∀ (p : Fin 100000) (q : Fin 64), G (ix2 p q) = mlp (M := 100000) A x2 x3 x4 x5 p q)
    (h0 : V c (Pipeline.arrRef spec0 0) = A) (h1 : V c (Pipeline.arrRef spec0 1) = x2)
    (h2 : V c (Pipeline.arrRef spec0 2) = x3) (h3 : V c (Pipeline.arrRef spec0 3) = x4)
    (h4 : V c (Pipeline.arrRef spec0 4) = x5) :
    (dat0 (F := Ideal) V c).arrAt 10 cfg0.N = G :=
  (dat0 (F := Ideal) V c).arrAt_eq_of_cover 10 G (fun t _ => flushed10_of V c A x2 x3 x4 x5 G hG h0 h1 h2 h3 h4 t) cover10

/-- What point `t` writes back to the second result is block `t` of `G`: the same body over windows 5 to 9. -/
theorem flushed11_of (V : (c : Dev nD) → (b : Ref sig .tc) → Buf (Elt Ideal) ((c : Thread nD τ).loc b)) (c : Dev nD)
    (A : S100000x64.Idx → EReal) (x6 : S64x64.Idx → EReal) (x7 : S64.Idx → EReal) (x8 : S64x64.Idx → EReal)
    (x9 : S64.Idx → EReal) (G : S100000x64.Idx → EReal)
    (hG : ∀ (p : Fin 100000) (q : Fin 64), G (ix2 p q) = mlp (M := 100000) A x6 x7 x8 x9 p q)
    (h5 : V c (Pipeline.arrRef spec0 5) = A) (h6 : V c (Pipeline.arrRef spec0 6) = x6)
    (h7 : V c (Pipeline.arrRef spec0 7) = x7) (h8 : V c (Pipeline.arrRef spec0 8) = x8)
    (h9 : V c (Pipeline.arrRef spec0 9) = x9) (t : Fin cfg0.N) :
    (dat0 (F := Ideal) V c).flushed 11 t = ((cfg0.win 11).blk t).view.read (Elt Ideal) G := by
  have b5 : ∀ (r : Fin 5000) (j : Fin 64), (iblk0 V c 5 t : Vec Ideal S5000x64 .f32) (ix2 r j) = A (ix2 (row t r) j) :=
    fun r j => by unfold iblk0; rw [h5]; exact read_rows5 t A r j
  have b6 : (iblk0 V c 6 t : Vec Ideal S64x64 .f32) = x6 := by unfold iblk0; rw [h6]; exact read_whole6 t x6
  have b7 : (iblk0 V c 7 t : Vec Ideal S64 .f32) = x7 := by unfold iblk0; rw [h7]; exact read_whole7 t x7
  have b8 : (iblk0 V c 8 t : Vec Ideal S64x64 .f32) = x8 := by unfold iblk0; rw [h8]; exact read_whole8 t x8
  have b9 : (iblk0 V c 9 t : Vec Ideal S64 .f32) = x9 := by unfold iblk0; rw [h9]; exact read_whole9 t x9
  show (cfg0.win 11).cut (grid0.coords t) ((dat0 V c).after 11 t) = _
  rw [after0_11]
  unfold out0_11
  rw [View.canon_unit_zero hz]
  simp only [View.ld_unit_zero (S := S5000x64) hz, View.ld_unit_zero (S := S64x64) hz, View.ld_unit_zero (S := S64) hz1]
  rw [b6, b7, b8, b9]
  funext y
  obtain ⟨r, q, rfl⟩ : ∃ (r : Fin 5000) (q : Fin 64), y = ix2 r q := ⟨y 0, y 1, eq_ix2 y⟩
  show k0_pay2 (F := Ideal) (iblk0 V c 5 t) x6 x7 x8 x9 (ix2 r q) = G (((cfg0.win 11).blk t).view.emb (ix2 r q))
  rw [emb11 t r q, hG, pay2_apply]
  exact mlp_congr _ A x6 x7 x8 x9 r (row t r) q (b5 r)

/-- So the second result array after the region is `G`. -/
theorem arr11_of (V : (c : Dev nD) → (b : Ref sig .tc) → Buf (Elt Ideal) ((c : Thread nD τ).loc b)) (c : Dev nD)
    (A : S100000x64.Idx → EReal) (x6 : S64x64.Idx → EReal) (x7 : S64.Idx → EReal) (x8 : S64x64.Idx → EReal)
    (x9 : S64.Idx → EReal) (G : S100000x64.Idx → EReal)
    (hG : ∀ (p : Fin 100000) (q : Fin 64), G (ix2 p q) = mlp (M := 100000) A x6 x7 x8 x9 p q)
    (h5 : V c (Pipeline.arrRef spec0 5) = A) (h6 : V c (Pipeline.arrRef spec0 6) = x6)
    (h7 : V c (Pipeline.arrRef spec0 7) = x7) (h8 : V c (Pipeline.arrRef spec0 8) = x8)
    (h9 : V c (Pipeline.arrRef spec0 9) = x9) :
    (dat0 (F := Ideal) V c).arrAt 11 cfg0.N = G :=
  (dat0 (F := Ideal) V c).arrAt_eq_of_cover 11 G (fun t _ => flushed11_of V c A x6 x7 x8 x9 G hG h5 h6 h7 h8 h9 t) cover11

/-! ## The reference's two results at an index

The reference applies the same operations to the whole table: each `dot_general` is the sum over the contracted axis,
each bias is laid as a row and repeated down the rows, and its rectifier is the maximum with a splat of the same zero
word. The gathered table stays an opaque function of the embedding table and the indices. -/

/-- The users' result: stages 7 to 15 over the gathered user rows (stage 6). -/
theorem ref_users (x0 : (⟨S100000x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x31 : (⟨S100000, .i32⟩ : BufTy).Contents (Elt Ideal))
    (p : Fin 100000) (q : Fin 64) :
    Cert.ReferenceIdeal.Read.val_main_v15 (F := Ideal) x0 x2 x3 x4 x5 x31 (ix2 p q)
      = mlp (M := 100000) (Cert.ReferenceIdeal.Read.val_main_v6 (F := Ideal) x0 x31) x2 x3 x4 x5 p q := by
  have l2 : ∀ k : Fin 64, Cert.ReferenceIdeal.Read.lidx_main_v12 (ix2 p q) k = ix2 p k := fun k => funext fun a => by
    match a with | ⟨0, _⟩ => rfl | ⟨1, _⟩ => rfl
  have r2 : ∀ k : Fin 64, Cert.ReferenceIdeal.Read.ridx_main_v12 (ix2 p q) k = ix2 k q := fun k => funext fun a => by
    match a with | ⟨0, _⟩ => rfl | ⟨1, _⟩ => rfl
  have l1 : ∀ k j : Fin 64, Cert.ReferenceIdeal.Read.lidx_main_v7 (ix2 p k) j = ix2 p j := fun k j => funext fun a => by
    match a with | ⟨0, _⟩ => rfl | ⟨1, _⟩ => rfl
  have r1 : ∀ k j : Fin 64, Cert.ReferenceIdeal.Read.ridx_main_v7 (ix2 p k) j = ix2 j k := fun k j => funext fun a => by
    match a with | ⟨0, _⟩ => rfl | ⟨1, _⟩ => rfl
  have c1 : ∀ k : Fin 64, Cert.ReferenceIdeal.Read.idx_main_v8 (Cert.ReferenceIdeal.Read.idx_main_v9 (ix2 p k)) = ix1 k :=
    fun k => funext fun a => by match a with | ⟨0, _⟩ => rfl
  have c2 : Cert.ReferenceIdeal.Read.idx_main_v13 (Cert.ReferenceIdeal.Read.idx_main_v14 (ix2 p q)) = ix1 q :=
    funext fun a => by match a with | ⟨0, _⟩ => rfl
  rw [Cert.ReferenceIdeal.Read.val_main_v15_apply, Cert.ReferenceIdeal.Read.val_main_v12_apply,
    Cert.ReferenceIdeal.Read.val_main_v14_apply, Cert.ReferenceIdeal.Read.val_main_v13_apply, c2]
  unfold mlp
  refine congrArg₂ (· + ·) (Finset.sum_congr rfl fun k _ => ?_) rfl
  rw [l2, r2, Cert.ReferenceIdeal.Read.val_main_v11_apply, Cert.ReferenceIdeal.Read.val_main_v10_apply,
    Cert.ReferenceIdeal.Read.val_main_v7_apply, Cert.ReferenceIdeal.Read.val_main_v9_apply,
    Cert.ReferenceIdeal.Read.val_main_v8_apply, c1, Cert.ReferenceIdeal.Read.val_main_call0_v0_apply,
    Cert.ReferenceIdeal.Read.val_main_call0_cst_apply]
  simp only [l1, r1]
  rfl

/-- The books' result: stages 23 to 31 over the gathered book rows (stage 22). -/
theorem ref_books (x1 : (⟨S100000x64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x32 : (⟨S100000, .i32⟩ : BufTy).Contents (Elt Ideal))
    (p : Fin 100000) (q : Fin 64) :
    Cert.ReferenceIdeal.Read.val_main_v31 (F := Ideal) x1 x6 x7 x8 x9 x32 (ix2 p q)
      = mlp (M := 100000) (Cert.ReferenceIdeal.Read.val_main_v22 (F := Ideal) x1 x32) x6 x7 x8 x9 p q := by
  have l2 : ∀ k : Fin 64, Cert.ReferenceIdeal.Read.lidx_main_v28 (ix2 p q) k = ix2 p k := fun k => funext fun a => by
    match a with | ⟨0, _⟩ => rfl | ⟨1, _⟩ => rfl
  have r2 : ∀ k : Fin 64, Cert.ReferenceIdeal.Read.ridx_main_v28 (ix2 p q) k = ix2 k q := fun k => funext fun a => by
    match a with | ⟨0, _⟩ => rfl | ⟨1, _⟩ => rfl
  have l1 : ∀ k j : Fin 64, Cert.ReferenceIdeal.Read.lidx_main_v23 (ix2 p k) j = ix2 p j := fun k j => funext fun a => by
    match a with | ⟨0, _⟩ => rfl | ⟨1, _⟩ => rfl
  have r1 : ∀ k j : Fin 64, Cert.ReferenceIdeal.Read.ridx_main_v23 (ix2 p k) j = ix2 j k := fun k j => funext fun a => by
    match a with | ⟨0, _⟩ => rfl | ⟨1, _⟩ => rfl
  have c1 : ∀ k : Fin 64, Cert.ReferenceIdeal.Read.idx_main_v24 (Cert.ReferenceIdeal.Read.idx_main_v25 (ix2 p k)) = ix1 k :=
    fun k => funext fun a => by match a with | ⟨0, _⟩ => rfl
  have c2 : Cert.ReferenceIdeal.Read.idx_main_v29 (Cert.ReferenceIdeal.Read.idx_main_v30 (ix2 p q)) = ix1 q :=
    funext fun a => by match a with | ⟨0, _⟩ => rfl
  rw [Cert.ReferenceIdeal.Read.val_main_v31_apply, Cert.ReferenceIdeal.Read.val_main_v28_apply,
    Cert.ReferenceIdeal.Read.val_main_v30_apply, Cert.ReferenceIdeal.Read.val_main_v29_apply, c2]
  unfold mlp
  refine congrArg₂ (· + ·) (Finset.sum_congr rfl fun k _ => ?_) rfl
  rw [l2, r2, Cert.ReferenceIdeal.Read.val_main_v27_apply, Cert.ReferenceIdeal.Read.val_main_v26_apply,
    Cert.ReferenceIdeal.Read.val_main_v23_apply, Cert.ReferenceIdeal.Read.val_main_v25_apply,
    Cert.ReferenceIdeal.Read.val_main_v24_apply, c1, Cert.ReferenceIdeal.Read.val_main_call1_v0_apply,
    Cert.ReferenceIdeal.Read.val_main_call1_cst_apply]
  simp only [l1, r1]
  rfl

/-! ## The two results, as the reference's stages -/

/-- The first result array after the region is the reference's users' result (stage 15). -/
theorem out_10 (V : (c : Dev nD) → (b : Ref sig .tc) → Buf (Elt Ideal) ((c : Thread nD τ).loc b)) (c : Dev nD)
    (x0 : (⟨S100000x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x31 : (⟨S100000, .i32⟩ : BufTy).Contents (Elt Ideal))
    (h0 : V c (Pipeline.arrRef spec0 0) = Cert.ReferenceIdeal.Read.val_main_v6 (F := Ideal) x0 x31)
    (h1 : V c (Pipeline.arrRef spec0 1) = x2) (h2 : V c (Pipeline.arrRef spec0 2) = x3)
    (h3 : V c (Pipeline.arrRef spec0 3) = x4) (h4 : V c (Pipeline.arrRef spec0 4) = x5) :
    (dat0 (F := Ideal) V c).arrAt 10 cfg0.N = Cert.ReferenceIdeal.Read.val_main_v15 (F := Ideal) x0 x2 x3 x4 x5 x31 :=
  arr10_of V c (Cert.ReferenceIdeal.Read.val_main_v6 (F := Ideal) x0 x31) x2 x3 x4 x5
    (Cert.ReferenceIdeal.Read.val_main_v15 (F := Ideal) x0 x2 x3 x4 x5 x31) (ref_users x0 x2 x3 x4 x5 x31) h0 h1 h2 h3 h4

/-- The second result array after the region is the reference's books' result (stage 31). -/
theorem out_11 (V : (c : Dev nD) → (b : Ref sig .tc) → Buf (Elt Ideal) ((c : Thread nD τ).loc b)) (c : Dev nD)
    (x1 : (⟨S100000x64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x32 : (⟨S100000, .i32⟩ : BufTy).Contents (Elt Ideal))
    (h5 : V c (Pipeline.arrRef spec0 5) = Cert.ReferenceIdeal.Read.val_main_v22 (F := Ideal) x1 x32)
    (h6 : V c (Pipeline.arrRef spec0 6) = x6) (h7 : V c (Pipeline.arrRef spec0 7) = x7)
    (h8 : V c (Pipeline.arrRef spec0 8) = x8) (h9 : V c (Pipeline.arrRef spec0 9) = x9) :
    (dat0 (F := Ideal) V c).arrAt 11 cfg0.N = Cert.ReferenceIdeal.Read.val_main_v31 (F := Ideal) x1 x6 x7 x8 x9 x32 :=
  arr11_of V c (Cert.ReferenceIdeal.Read.val_main_v22 (F := Ideal) x1 x32) x6 x7 x8 x9
    (Cert.ReferenceIdeal.Read.val_main_v31 (F := Ideal) x1 x6 x7 x8 x9 x32) (ref_books x1 x6 x7 x8 x9 x32) h5 h6 h7 h8 h9

end Cert.Bridge.R0
end
-- ==== Proof.Region1.lean ====
/-
  The second pallas region: two independent two-layer perceptrons over the rows of the edge-attribute table.

  Each result row is `relu(x W1 + b1) W2 + b2` of the same row of the `[300000, 256]` table, the first layer contracting
  its 256 columns: with `z` the value of the zero word,
    out (p, q) = (∑ k, max ((∑ j, x (p, j) * W1 (j, k)) + b1 k) z * W2 (k, q)) + b2 q.
  The kernel computes it 6000 rows at a time over a grid of 50 points, the weights and biases staged whole at every
  point, and narrows the table and the first-layer weights to a shorter float format before the first product; on the
  extended reals a change of format is the identity, so both sides are the same sums. Entry `(p, q)` depends on the table
  only through its row `p`, so block `t` of the kernel's result is rows `6000 t … 6000 t + 5999` of the reference's, and
  the 50 blocks tile the array. Nothing here needs the inputs to be finite.
-/
import proofs.«109817_j10033043603480_2_alg».proof.Proof.Gen.KernelIdeal.Frame
import proofs.«109817_j10033043603480_2_alg».proof.Proof.RefRead
import proofs.«109817_j10033043603480_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
open scoped BigOperators

namespace Cert.Bridge.R1

open Cert.KernelIdeal Cert.KernelIdeal.Gen Idealize.ShloMosaic Idealize.ShloMosaic.ValueIdx Idealize.ShloMosaic.TcCoe Idealize.SL.Sem
open Idealize.ShloMosaic.Pipeline (Dat)

/-! ## One entry of the perceptron -/

/-- Entry `(p, q)` of a two-layer perceptron applied to the rows of `x`, the first layer contracting `K` columns; `max · z`
    with `z` the zero word's value is the rectifier. -/
def mlp {M K : Nat} (x : (⟨2, ![M, K]⟩ : Shape).Idx → EReal) (W1 : (⟨2, ![K, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin M) (q : Fin 64) : EReal :=
  (∑ k : Fin 64, max ((∑ j : Fin K, x (ix2 p j) * W1 (ix2 j k)) + b1 (ix1 k)) (Ideal.ofBits .f32 0x00000000#32)
      * W2 (ix2 k q)) + b2 (ix1 q)

/-- An entry depends on the input only through its own row. -/
theorem mlp_congr {M M' K : Nat} (x : (⟨2, ![M, K]⟩ : Shape).Idx → EReal) (x' : (⟨2, ![M', K]⟩ : Shape).Idx → EReal)
    (W1 : (⟨2, ![K, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (p : Fin M) (p' : Fin M') (q : Fin 64) (h : ∀ j : Fin K, x (ix2 p j) = x' (ix2 p' j)) :
    mlp x W1 b1 W2 b2 p q = mlp x' W1 b1 W2 b2 p' q := by
  unfold mlp
  simp only [h]

/-! ## The kernel body's two results at an index

Each matrix product into the zero accumulator is the sum over the contracted axis (256 columns, then 64); the narrowing
of the table and of the first-layer weights is the identity on the extended reals; the bias, re-laid as one row and
repeated down the block, reads its entry of the column; the rectifier is the maximum with the zero word's value. -/

theorem pay2_apply (v0 : Vec Ideal S6000x256 .f32) (v2 : Vec Ideal S256x64 .f32) (v5 : Vec Ideal S64 .f32)
    (v11 : Vec Ideal S64x64 .f32) (v13 : Vec Ideal S64 .f32) (r : Fin 6000) (q : Fin 64) :
    k1_pay2 (F := Ideal) v0 v2 v5 v11 v13 (ix2 r q) = mlp (M := 6000) (K := 256) v0 v2 v5 v11 v13 r q := by
  unfold k1_pay2 k1_pay1 mlp
  refine congrArg₂ (· + ·) ?_ ?_
  · refine (Cert.Lib.PlainDot.matmul_zero_apply 6000 64 64 none _ v11 r q).trans ?_
    refine Finset.sum_congr rfl fun k _ => ?_
    refine congrArg (· * v11 (ix2 k q)) ?_
    refine congrArg₂ max (congrArg₂ (· + ·) ?_ ?_) rfl
    · exact Cert.Lib.PlainDot.matmul_zero_apply 6000 256 64 none _ _ r k
    · exact (broadcastTo_1b_ab_apply _ _ r k).trans (shapeCast_a_1a_apply v5 _ 0 k)
  · exact (broadcastTo_1b_ab_apply _ _ r q).trans (shapeCast_a_1a_apply v13 _ 0 q)

theorem pay3_apply (v0 : Vec Ideal S6000x256 .f32) (v18 : Vec Ideal S256x64 .f32) (v21 : Vec Ideal S64 .f32)
    (v27 : Vec Ideal S64x64 .f32) (v29 : Vec Ideal S64 .f32) (r : Fin 6000) (q : Fin 64) :
    k1_pay3 (F := Ideal) v0 v18 v21 v27 v29 (ix2 r q) = mlp (M := 6000) (K := 256) v0 v18 v21 v27 v29 r q := by
  unfold k1_pay3 k1_pay1 mlp
  refine congrArg₂ (· + ·) ?_ ?_
  · refine (Cert.Lib.PlainDot.matmul_zero_apply 6000 64 64 none _ v27 r q).trans ?_
    refine Finset.sum_congr rfl fun k _ => ?_
    refine congrArg (· * v27 (ix2 k q)) ?_
    refine congrArg₂ max (congrArg₂ (· + ·) ?_ ?_) rfl
    · exact Cert.Lib.PlainDot.matmul_zero_apply 6000 256 64 none _ _ r k
    · exact (broadcastTo_1b_ab_apply _ _ r k).trans (shapeCast_a_1a_apply v21 _ 0 k)
  · exact (broadcastTo_1b_ab_apply _ _ r q).trans (shapeCast_a_1a_apply v29 _ 0 q)

/-! ## Where each window's block sits

The grid has 50 points. The row-blocked windows (0, the edge attributes; 9 and 10, the two results) take at point `t` the
6000 rows from `6000 t` on; every weight and bias window takes its whole array at every point. The index maps are
decided once over the grid. -/

theorem index_rows0 : ∀ t : Fin cfg1.N, win1_0.index t (0 : Fin 2) = t.val ∧ win1_0.index t (1 : Fin 2) = 0 :=
  (by decide +kernel : ∀ t : Fin grid1.N, _)
theorem index_rows9 : ∀ t : Fin cfg1.N, win1_9.index t (0 : Fin 2) = t.val ∧ win1_9.index t (1 : Fin 2) = 0 :=
  (by decide +kernel : ∀ t : Fin grid1.N, _)
theorem index_rows10 : ∀ t : Fin cfg1.N, win1_10.index t (0 : Fin 2) = t.val ∧ win1_10.index t (1 : Fin 2) = 0 :=
  (by decide +kernel : ∀ t : Fin grid1.N, _)
theorem index_whole1 : ∀ t : Fin cfg1.N, win1_1.index t (0 : Fin 2) = 0 ∧ win1_1.index t (1 : Fin 2) = 0 :=
  (by decide +kernel : ∀ t : Fin grid1.N, _)
theorem index_whole3 : ∀ t : Fin cfg1.N, win1_3.index t (0 : Fin 2) = 0 ∧ win1_3.index t (1 : Fin 2) = 0 :=
  (by decide +kernel : ∀ t : Fin grid1.N, _)
theorem index_whole5 : ∀ t : Fin cfg1.N, win1_5.index t (0 : Fin 2) = 0 ∧ win1_5.index t (1 : Fin 2) = 0 :=
  (by decide +kernel : ∀ t : Fin grid1.N, _)
theorem index_whole7 : ∀ t : Fin cfg1.N, win1_7.index t (0 : Fin 2) = 0 ∧ win1_7.index t (1 : Fin 2) = 0 :=
  (by decide +kernel : ∀ t : Fin grid1.N, _)
theorem index_whole2 : ∀ t : Fin cfg1.N, win1_2.index t (0 : Fin 1) = 0 := (by decide +kernel : ∀ t : Fin grid1.N, _)
theorem index_whole4 : ∀ t : Fin cfg1.N, win1_4.index t (0 : Fin 1) = 0 := (by decide +kernel : ∀ t : Fin grid1.N, _)
theorem index_whole6 : ∀ t : Fin cfg1.N, win1_6.index t (0 : Fin 1) = 0 := (by decide +kernel : ∀ t : Fin grid1.N, _)
theorem index_whole8 : ∀ t : Fin cfg1.N, win1_8.index t (0 : Fin 1) = 0 := (by decide +kernel : ∀ t : Fin grid1.N, _)

/-- Row `r` of the block at point `t` is row `6000 t + r` of the array. -/
def row (t : Fin cfg1.N) (r : Fin 6000) : Fin 300000 :=
  ⟨t.val * 6000 + r.val, by have h : t.val < grid1.N := t.isLt; rw [N_1] at h; have := r.isLt; omega⟩

/-- Element `(r, j)` of window 0's block at point `t` is the array's entry `(6000 t + r, j)`. -/
theorem read_rows0 (t : Fin cfg1.N) (A : S300000x256.Idx → EReal) (r : Fin 6000) (j : Fin 256) :
    ((cfg1.win 0).blk t).view.read (Elt Ideal) A (ix2 r j) = A (ix2 (row t r) j) := by
  obtain ⟨e0, e1⟩ := index_rows0 t
  rw [View.read_apply]
  show A _ = A _
  congr 1
  funext a
  apply Fin.ext
  match a with
  | ⟨0, _⟩ => show win1_0.index t (0 : Fin 2) * 6000 + 1 * r.val = t.val * 6000 + r.val; rw [e0]; omega
  | ⟨1, _⟩ => show win1_0.index t (1 : Fin 2) * 256 + 1 * j.val = j.val; rw [e1]; omega

/-- Element `(r, q)` of result window 9's block at point `t` sits at `(6000 t + r, q)` of its array. -/
theorem emb9 (t : Fin cfg1.N) (r : Fin 6000) (q : Fin 64) :
    ((cfg1.win 9).blk t).view.emb (ix2 r q) = ix2 (row t r) q := by
  obtain ⟨e0, e1⟩ := index_rows9 t
  funext a
  apply Fin.ext
  match a with
  | ⟨0, _⟩ => show win1_9.index t (0 : Fin 2) * 6000 + 1 * r.val = t.val * 6000 + r.val; rw [e0]; omega
  | ⟨1, _⟩ => show win1_9.index t (1 : Fin 2) * 64 + 1 * q.val = q.val; rw [e1]; omega

/-- Element `(r, q)` of result window 10's block at point `t` sits at `(6000 t + r, q)` of its array. -/
theorem emb10 (t : Fin cfg1.N) (r : Fin 6000) (q : Fin 64) :
    ((cfg1.win 10).blk t).view.emb (ix2 r q) = ix2 (row t r) q := by
  obtain ⟨e0, e1⟩ := index_rows10 t
  funext a
  apply Fin.ext
  match a with
  | ⟨0, _⟩ => show win1_10.index t (0 : Fin 2) * 6000 + 1 * r.val = t.val * 6000 + r.val; rw [e0]; omega
  | ⟨1, _⟩ => show win1_10.index t (1 : Fin 2) * 64 + 1 * q.val = q.val; rw [e1]; omega

/-- A `[256, 64]` first-layer weight window's block is its whole array: windows 1 and 5. -/
theorem read_whole1 (t : Fin cfg1.N) (A : S256x64.Idx → EReal) : ((cfg1.win 1).blk t).view.read (Elt Ideal) A = A := by
  obtain ⟨e0, e1⟩ := index_whole1 t
  funext y
  rw [View.read_apply]
  show A _ = A y
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 64 + 1 * (y 1).val = (y 1).val; rw [e1]; omega
theorem read_whole5 (t : Fin cfg1.N) (A : S256x64.Idx → EReal) : ((cfg1.win 5).blk t).view.read (Elt Ideal) A = A := by
  obtain ⟨e0, e1⟩ := index_whole5 t
  funext y
  rw [View.read_apply]
  show A _ = A y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 64 + 1 * (y 1).val = (y 1).val; rw [e1]; omega

/-- A `[64, 64]` second-layer weight window's block is its whole array: windows 3 and 7. -/
theorem read_whole3 (t : Fin cfg1.N) (A : S64x64.Idx → EReal) : ((cfg1.win 3).blk t).view.read (Elt Ideal) A = A := by
  obtain ⟨e0, e1⟩ := index_whole3 t
  funext y
  rw [View.read_apply]
  show A _ = A y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega
theorem read_whole7 (t : Fin cfg1.N) (A : S64x64.Idx → EReal) : ((cfg1.win 7).blk t).view.read (Elt Ideal) A = A := by
  obtain ⟨e0, e1⟩ := index_whole7 t
  funext y
  rw [View.read_apply]
  show A _ = A y
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 64 + 1 * (y 1).val = (y 1).val; rw [e1]; omega

/-- A `[64]` bias window's block is its whole array: windows 2, 4, 6, 8. -/
theorem read_whole2 (t : Fin cfg1.N) (A : S64.Idx → EReal) : ((cfg1.win 2).blk t).view.read (Elt Ideal) A = A := by
  have e0 := index_whole2 t
  funext y
  rw [View.read_apply]
  show A _ = A y
  congr 1
  funext a
  apply Fin.ext
  match a with
  | ⟨0, _⟩ => show win1_2.index t (0 : Fin 1) * 64 + 1 * (y 0).val = (y 0).val; rw [e0]; omega
theorem read_whole4 (t : Fin cfg1.N) (A : S64.Idx → EReal) : ((cfg1.win 4).blk t).view.read (Elt Ideal) A = A := by
  have e0 := index_whole4 t
  funext y
  rw [View.read_apply]
  show A _ = A y
  congr 1
  funext a
  apply Fin.ext
  match a with
  | ⟨0, _⟩ => show win1_4.index t (0 : Fin 1) * 64 + 1 * (y 0).val = (y 0).val; rw [e0]; omega
theorem read_whole6 (t : Fin cfg1.N) (A : S64.Idx → EReal) : ((cfg1.win 6).blk t).view.read (Elt Ideal) A = A := by
  have e0 := index_whole6 t
  funext y
  rw [View.read_apply]
  show A _ = A y
  congr 1
  funext a
  apply Fin.ext
  match a with
  | ⟨0, _⟩ => show win1_6.index t (0 : Fin 1) * 64 + 1 * (y 0).val = (y 0).val; rw [e0]; omega
theorem read_whole8 (t : Fin cfg1.N) (A : S64.Idx → EReal) : ((cfg1.win 8).blk t).view.read (Elt Ideal) A = A := by
  have e0 := index_whole8 t
  funext y
  rw [View.read_apply]
  show A _ = A y
  congr 1
  funext a
  apply Fin.ext
  match a with
  | ⟨0, _⟩ => show win1_8.index t (0 : Fin 1) * 64 + 1 * (y 0).val = (y 0).val; rw [e0]; omega

/-! ## The result blocks tile the result arrays -/

theorem mem_blk9 (t : Fin cfg1.N) (i : S300000x64.Idx) :
    i ∈ ((cfg1.win 9).blk t).view.set ↔ ∀ a : Fin 2, win1_9.index t a * S6000x64.size a ≤ (i a).val ∧ (i a).val < win1_9.index t a * S6000x64.size a + S6000x64.size a := by
  show i ∈ ((View.whole main_v3_0).slice (win1_9.rect t)).set ↔ _
  rw [View.set_slice_whole, Rect.mem_set_unit]
  exact Iff.rfl

theorem mem_blk10 (t : Fin cfg1.N) (i : S300000x64.Idx) :
    i ∈ ((cfg1.win 10).blk t).view.set ↔ ∀ a : Fin 2, win1_10.index t a * S6000x64.size a ≤ (i a).val ∧ (i a).val < win1_10.index t a * S6000x64.size a + S6000x64.size a := by
  show i ∈ ((View.whole main_v3_1).slice (win1_10.rect t)).set ↔ _
  rw [View.set_slice_whole, Rect.mem_set_unit]
  exact Iff.rfl

/-- Row `i` of the first result lies in the block of point `i / 6000`. -/
theorem cover9 (i : S300000x64.Idx) :
    ∃ t : Fin cfg1.N, (cfg1.win 9).flush t = true ∧ i ∈ ((cfg1.win 9).blk t).view.set := by
  have hN : grid1.N = 50 := N_1
  have hi0 : (i 0).val < 300000 := (i 0).isLt
  have hi1 : (i 1).val < 64 := (i 1).isLt
  have ht : (i 0).val / 6000 < cfg1.N := by show (i 0).val / 6000 < grid1.N; rw [hN]; omega
  obtain ⟨ea, eb⟩ := index_rows9 ⟨(i 0).val / 6000, ht⟩
  refine ⟨⟨(i 0).val / 6000, ht⟩, flush1_9 _, ?_⟩
  rw [mem_blk9]
  intro a
  match a with
  | ⟨0, _⟩ =>
    show win1_9.index ⟨(i 0).val / 6000, ht⟩ (0 : Fin 2) * 6000 ≤ (i 0).val ∧ (i 0).val < win1_9.index ⟨(i 0).val / 6000, ht⟩ (0 : Fin 2) * 6000 + 6000
    rw [ea]; show (i 0).val / 6000 * 6000 ≤ (i 0).val ∧ (i 0).val < (i 0).val / 6000 * 6000 + 6000; omega
  | ⟨1, _⟩ =>
    show win1_9.index ⟨(i 0).val / 6000, ht⟩ (1 : Fin 2) * 64 ≤ (i 1).val ∧ (i 1).val < win1_9.index ⟨(i 0).val / 6000, ht⟩ (1 : Fin 2) * 64 + 64
    rw [eb]; omega

/-- Row `i` of the second result lies in the block of point `i / 6000`. -/
theorem cover10 (i : S300000x64.Idx) :
    ∃ t : Fin cfg1.N, (cfg1.win 10).flush t = true ∧ i ∈ ((cfg1.win 10).blk t).view.set := by
  have hN : grid1.N = 50 := N_1
  have hi0 : (i 0).val < 300000 := (i 0).isLt
  have hi1 : (i 1).val < 64 := (i 1).isLt
  have ht : (i 0).val / 6000 < cfg1.N := by show (i 0).val / 6000 < grid1.N; rw [hN]; omega
  obtain ⟨ea, eb⟩ := index_rows10 ⟨(i 0).val / 6000, ht⟩
  refine ⟨⟨(i 0).val / 6000, ht⟩, flush1_10 _, ?_⟩
  rw [mem_blk10]
  intro a
  match a with
  | ⟨0, _⟩ =>
    show win1_10.index ⟨(i 0).val / 6000, ht⟩ (0 : Fin 2) * 6000 ≤ (i 0).val ∧ (i 0).val < win1_10.index ⟨(i 0).val / 6000, ht⟩ (0 : Fin 2) * 6000 + 6000
    rw [ea]; show (i 0).val / 6000 * 6000 ≤ (i 0).val ∧ (i 0).val < (i 0).val / 6000 * 6000 + 6000; omega
  | ⟨1, _⟩ =>
    show win1_10.index ⟨(i 0).val / 6000, ht⟩ (1 : Fin 2) * 64 ≤ (i 1).val ∧ (i 1).val < win1_10.index ⟨(i 0).val / 6000, ht⟩ (1 : Fin 2) * 64 + 64
    rw [eb]; omega

/-! ## From the blocks to the arrays

Stated against any function `G` of the result's index whose entry `(p, q)` is the perceptron's entry over a table `A`:
a result array ends holding `G` when window 0's array is `A` and the four weight windows of that result hold the weights. -/

theorem hz : (![0, 0] : Fin 2 → Nat) = fun _ => 0 := funext fun a => by fin_cases a <;> rfl
theorem hz1 : (![0] : Fin 1 → Nat) = fun _ => 0 := funext fun a => by fin_cases a <;> rfl

/-- What point `t` writes back to the first result is block `t` of `G`: the body over windows 0 to 4. -/
theorem flushed9_of (V : (c : Dev nD) → (b : Ref sig .tc) → Buf (Elt Ideal) ((c : Thread nD τ).loc b)) (c : Dev nD)
    (A : S300000x256.Idx → EReal) (x10 : S256x64.Idx → EReal) (x11 : S64.Idx → EReal) (x12 : S64x64.Idx → EReal)
    (x13 : S64.Idx → EReal) (G : S300000x64.Idx → EReal)
    (hG : ∀ (p : Fin 300000) (q : Fin 64), G (ix2 p q) = mlp (M := 300000) (K := 256) A x10 x11 x12 x13 p q)
    (h0 : V c (Pipeline.arrRef spec1 0) = A) (h1 : V c (Pipeline.arrRef spec1 1) = x10)
    (h2 : V c (Pipeline.arrRef spec1 2) = x11) (h3 : V c (Pipeline.arrRef spec1 3) = x12)
    (h4 : V c (Pipeline.arrRef spec1 4) = x13) (t : Fin cfg1.N) :
    (dat1 (F := Ideal) V c).flushed 9 t = ((cfg1.win 9).blk t).view.read (Elt Ideal) G := by
  have b0 : ∀ (r : Fin 6000) (j : Fin 256), (iblk1 V c 0 t : Vec Ideal S6000x256 .f32) (ix2 r j) = A (ix2 (row t r) j) :=
    fun r j => by unfold iblk1; rw [h0]; exact read_rows0 t A r j
  have b1 : (iblk1 V c 1 t : Vec Ideal S256x64 .f32) = x10 := by unfold iblk1; rw [h1]; exact read_whole1 t x10
  have b2 : (iblk1 V c 2 t : Vec Ideal S64 .f32) = x11 := by unfold iblk1; rw [h2]; exact read_whole2 t x11
  have b3 : (iblk1 V c 3 t : Vec Ideal S64x64 .f32) = x12 := by unfold iblk1; rw [h3]; exact read_whole3 t x12
  have b4 : (iblk1 V c 4 t : Vec Ideal S64 .f32) = x13 := by unfold iblk1; rw [h4]; exact read_whole4 t x13
  show (cfg1.win 9).cut (grid1.coords t) ((dat1 V c).after 9 t) = _
  rw [after1_9]
  unfold out1_9
  rw [View.canon_unit_zero hz]
  simp only [View.ld_unit_zero (S := S6000x256) hz, View.ld_unit_zero (S := S256x64) hz,
    View.ld_unit_zero (S := S64x64) hz, View.ld_unit_zero (S := S64) hz1]
  rw [b1, b2, b3, b4]
  funext y
  obtain ⟨r, q, rfl⟩ : ∃ (r : Fin 6000) (q : Fin 64), y = ix2 r q := ⟨y 0, y 1, eq_ix2 y⟩
  show k1_pay2 (F := Ideal) (iblk1 V c 0 t) x10 x11 x12 x13 (ix2 r q) = G (((cfg1.win 9).blk t).view.emb (ix2 r q))
  rw [emb9 t r q, hG, pay2_apply]
  exact mlp_congr _ A x10 x11 x12 x13 r (row t r) q (b0 r)

/-- So the first result array after the region is `G`: its 50 blocks tile the array. -/
theorem arr9_of (V : (c : Dev nD) → (b : Ref sig .tc) → Buf (Elt Ideal) ((c : Thread nD τ).loc b)) (c : Dev nD)
    (A : S300000x256.Idx → EReal) (x10 : S256x64.Idx → EReal) (x11 : S64.Idx → EReal) (x12 : S64x64.Idx → EReal)
    (x13 : S64.Idx → EReal) (G : S300000x64.Idx → EReal)
    (hG : ∀ (p : Fin 300000) (q : Fin 64), G (ix2 p q) = mlp (M := 300000) (K := 256) A x10 x11 x12 x13 p q)
    (h0 : V c (Pipeline.arrRef spec1 0) = A) (h1 : V c (Pipeline.arrRef spec1 1) = x10)
    (h2 : V c (Pipeline.arrRef spec1 2) = x11) (h3 : V c (Pipeline.arrRef spec1 3) = x12)
    (h4 : V c (Pipeline.arrRef spec1 4) = x13) :
    (dat1 (F := Ideal) V c).arrAt 9 cfg1.N = G :=
  (dat1 (F := Ideal) V c).arrAt_eq_of_cover 9 G (fun t _ => flushed9_of V c A x10 x11 x12 x13 G hG h0 h1 h2 h3 h4 t) cover9

/-- What point `t` writes back to the second result is block `t` of `G`: the body over windows 0 and 5 to 8. -/
theorem flushed10_of (V : (c : Dev nD) → (b : Ref sig .tc) → Buf (Elt Ideal) ((c : Thread nD τ).loc b)) (c : Dev nD)
    (A : S300000x256.Idx → EReal) (x14 : S256x64.Idx → EReal) (x15 : S64.Idx → EReal) (x16 : S64x64.Idx → EReal)
    (x17 : S64.Idx → EReal) (G : S300000x64.Idx → EReal)
    (hG : ∀ (p : Fin 300000) (q : Fin 64), G (ix2 p q) = mlp (M := 300000) (K := 256) A x14 x15 x16 x17 p q)
    (h0 : V c (Pipeline.arrRef spec1 0) = A) (h5 : V c (Pipeline.arrRef spec1 5) = x14)
    (h6 : V c (Pipeline.arrRef spec1 6) = x15) (h7 : V c (Pipeline.arrRef spec1 7) = x16)
    (h8 : V c (Pipeline.arrRef spec1 8) = x17) (t : Fin cfg1.N) :
    (dat1 (F := Ideal) V c).flushed 10 t = ((cfg1.win 10).blk t).view.read (Elt Ideal) G := by
  have b0 : ∀ (r : Fin 6000) (j : Fin 256), (iblk1 V c 0 t : Vec Ideal S6000x256 .f32) (ix2 r j) = A (ix2 (row t r) j) :=
    fun r j => by unfold iblk1; rw [h0]; exact read_rows0 t A r j
  have b5 : (iblk1 V c 5 t : Vec Ideal S256x64 .f32) = x14 := by unfold iblk1; rw [h5]; exact read_whole5 t x14
  have b6 : (iblk1 V c 6 t : Vec Ideal S64 .f32) = x15 := by unfold iblk1; rw [h6]; exact read_whole6 t x15
  have b7 : (iblk1 V c 7 t : Vec Ideal S64x64 .f32) = x16 := by unfold iblk1; rw [h7]; exact read_whole7 t x16
  have b8 : (iblk1 V c 8 t : Vec Ideal S64 .f32) = x17 := by unfold iblk1; rw [h8]; exact read_whole8 t x17
  show (cfg1.win 10).cut (grid1.coords t) ((dat1 V c).after 10 t) = _
  rw [after1_10]
  unfold out1_10
  rw [View.canon_unit_zero hz]
  simp only [View.ld_unit_zero (S := S6000x256) hz, View.ld_unit_zero (S := S256x64) hz,
    View.ld_unit_zero (S := S64x64) hz, View.ld_unit_zero (S := S64) hz1]
  rw [b5, b6, b7, b8]
  funext y
  obtain ⟨r, q, rfl⟩ : ∃ (r : Fin 6000) (q : Fin 64), y = ix2 r q := ⟨y 0, y 1, eq_ix2 y⟩
  show k1_pay3 (F := Ideal) (iblk1 V c 0 t) x14 x15 x16 x17 (ix2 r q) = G (((cfg1.win 10).blk t).view.emb (ix2 r q))
  rw [emb10 t r q, hG, pay3_apply]
  exact mlp_congr _ A x14 x15 x16 x17 r (row t r) q (b0 r)

/-- So the second result array after the region is `G`. -/
theorem arr10_of (V : (c : Dev nD) → (b : Ref sig .tc) → Buf (Elt Ideal) ((c : Thread nD τ).loc b)) (c : Dev nD)
    (A : S300000x256.Idx → EReal) (x14 : S256x64.Idx → EReal) (x15 : S64.Idx → EReal) (x16 : S64x64.Idx → EReal)
    (x17 : S64.Idx → EReal) (G : S300000x64.Idx → EReal)
    (hG : ∀ (p : Fin 300000) (q : Fin 64), G (ix2 p q) = mlp (M := 300000) (K := 256) A x14 x15 x16 x17 p q)
    (h0 : V c (Pipeline.arrRef spec1 0) = A) (h5 : V c (Pipeline.arrRef spec1 5) = x14)
    (h6 : V c (Pipeline.arrRef spec1 6) = x15) (h7 : V c (Pipeline.arrRef spec1 7) = x16)
    (h8 : V c (Pipeline.arrRef spec1 8) = x17) :
    (dat1 (F := Ideal) V c).arrAt 10 cfg1.N = G :=
  (dat1 (F := Ideal) V c).arrAt_eq_of_cover 10 G (fun t _ => flushed10_of V c A x14 x15 x16 x17 G hG h0 h5 h6 h7 h8 t) cover10

/-! ## The reference's two results at an index

The reference applies the same operations to the whole table without changing its format: each `dot_general` is the sum
over the contracted axis, each bias is laid as a row and repeated down the rows, and its rectifier is the maximum with
a splat of the same zero word. -/

/-- The first result: stages 32 to 40 over the edge-attribute table. -/
theorem ref_eu (x10 : (⟨S256x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x30 : (⟨S300000x256, .f32⟩ : BufTy).Contents (Elt Ideal)) (p : Fin 300000) (q : Fin 64) :
    Cert.ReferenceIdeal.Read.val_main_v40 (F := Ideal) x10 x11 x12 x13 x30 (ix2 p q)
      = mlp (M := 300000) (K := 256) x30 x10 x11 x12 x13 p q := by
  have l2 : ∀ k : Fin 64, Cert.ReferenceIdeal.Read.lidx_main_v37 (ix2 p q) k = ix2 p k := fun k => funext fun a => by
    match a with | ⟨0, _⟩ => rfl | ⟨1, _⟩ => rfl
  have r2 : ∀ k : Fin 64, Cert.ReferenceIdeal.Read.ridx_main_v37 (ix2 p q) k = ix2 k q := fun k => funext fun a => by
    match a with | ⟨0, _⟩ => rfl | ⟨1, _⟩ => rfl
  have l1 : ∀ (k : Fin 64) (j : Fin 256), Cert.ReferenceIdeal.Read.lidx_main_v32 (ix2 p k) j = ix2 p j :=
    fun k j => funext fun a => by match a with | ⟨0, _⟩ => rfl | ⟨1, _⟩ => rfl
  have r1 : ∀ (k : Fin 64) (j : Fin 256), Cert.ReferenceIdeal.Read.ridx_main_v32 (ix2 p k) j = ix2 j k :=
    fun k j => funext fun a => by match a with | ⟨0, _⟩ => rfl | ⟨1, _⟩ => rfl
  have c1 : ∀ k : Fin 64, Cert.ReferenceIdeal.Read.idx_main_v33 (Cert.ReferenceIdeal.Read.idx_main_v34 (ix2 p k)) = ix1 k :=
    fun k => funext fun a => by match a with | ⟨0, _⟩ => rfl
  have c2 : Cert.ReferenceIdeal.Read.idx_main_v38 (Cert.ReferenceIdeal.Read.idx_main_v39 (ix2 p q)) = ix1 q :=
    funext fun a => by match a with | ⟨0, _⟩ => rfl
  rw [Cert.ReferenceIdeal.Read.val_main_v40_apply, Cert.ReferenceIdeal.Read.val_main_v37_apply,
    Cert.ReferenceIdeal.Read.val_main_v39_apply, Cert.ReferenceIdeal.Read.val_main_v38_apply, c2]
  unfold mlp
  refine congrArg₂ (· + ·) (Finset.sum_congr rfl fun k _ => ?_) rfl
  rw [l2, r2, Cert.ReferenceIdeal.Read.val_main_v36_apply, Cert.ReferenceIdeal.Read.val_main_v35_apply,
    Cert.ReferenceIdeal.Read.val_main_v32_apply, Cert.ReferenceIdeal.Read.val_main_v34_apply,
    Cert.ReferenceIdeal.Read.val_main_v33_apply, c1, Cert.ReferenceIdeal.Read.val_main_call2_v0_apply,
    Cert.ReferenceIdeal.Read.val_main_call2_cst_apply]
  simp only [l1, r1]
  rfl

/-- The second result: stages 41 to 49 over the edge-attribute table. -/
theorem ref_eb (x14 : (⟨S256x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal))
    (x30 : (⟨S300000x256, .f32⟩ : BufTy).Contents (Elt Ideal)) (p : Fin 300000) (q : Fin 64) :
    Cert.ReferenceIdeal.Read.val_main_v49 (F := Ideal) x14 x15 x16 x17 x30 (ix2 p q)
      = mlp (M := 300000) (K := 256) x30 x14 x15 x16 x17 p q := by
  have l2 : ∀ k : Fin 64, Cert.ReferenceIdeal.Read.lidx_main_v46 (ix2 p q) k = ix2 p k := fun k => funext fun a => by
    match a with | ⟨0, _⟩ => rfl | ⟨1, _⟩ => rfl
  have r2 : ∀ k : Fin 64, Cert.ReferenceIdeal.Read.ridx_main_v46 (ix2 p q) k = ix2 k q := fun k => funext fun a => by
    match a with | ⟨0, _⟩ => rfl | ⟨1, _⟩ => rfl
  have l1 : ∀ (k : Fin 64) (j : Fin 256), Cert.ReferenceIdeal.Read.lidx_main_v41 (ix2 p k) j = ix2 p j :=
    fun k j => funext fun a => by match a with | ⟨0, _⟩ => rfl | ⟨1, _⟩ => rfl
  have r1 : ∀ (k : Fin 64) (j : Fin 256), Cert.ReferenceIdeal.Read.ridx_main_v41 (ix2 p k) j = ix2 j k :=
    fun k j => funext fun a => by match a with | ⟨0, _⟩ => rfl | ⟨1, _⟩ => rfl
  have c1 : ∀ k : Fin 64, Cert.ReferenceIdeal.Read.idx_main_v42 (Cert.ReferenceIdeal.Read.idx_main_v43 (ix2 p k)) = ix1 k :=
    fun k => funext fun a => by match a with | ⟨0, _⟩ => rfl
  have c2 : Cert.ReferenceIdeal.Read.idx_main_v47 (Cert.ReferenceIdeal.Read.idx_main_v48 (ix2 p q)) = ix1 q :=
    funext fun a => by match a with | ⟨0, _⟩ => rfl
  rw [Cert.ReferenceIdeal.Read.val_main_v49_apply, Cert.ReferenceIdeal.Read.val_main_v46_apply,
    Cert.ReferenceIdeal.Read.val_main_v48_apply, Cert.ReferenceIdeal.Read.val_main_v47_apply, c2]
  unfold mlp
  refine congrArg₂ (· + ·) (Finset.sum_congr rfl fun k _ => ?_) rfl
  rw [l2, r2, Cert.ReferenceIdeal.Read.val_main_v45_apply, Cert.ReferenceIdeal.Read.val_main_v44_apply,
    Cert.ReferenceIdeal.Read.val_main_v41_apply, Cert.ReferenceIdeal.Read.val_main_v43_apply,
    Cert.ReferenceIdeal.Read.val_main_v42_apply, c1, Cert.ReferenceIdeal.Read.val_main_call3_v0_apply,
    Cert.ReferenceIdeal.Read.val_main_call3_cst_apply]
  simp only [l1, r1]
  rfl

/-! ## The two results, as the reference's stages -/

/-- The first result array after the region is the reference's stage 40. -/
theorem out_9 (V : (c : Dev nD) → (b : Ref sig .tc) → Buf (Elt Ideal) ((c : Thread nD τ).loc b)) (c : Dev nD)
    (x10 : (⟨S256x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x30 : (⟨S300000x256, .f32⟩ : BufTy).Contents (Elt Ideal))
    (h0 : V c (Pipeline.arrRef spec1 0) = x30) (h1 : V c (Pipeline.arrRef spec1 1) = x10)
    (h2 : V c (Pipeline.arrRef spec1 2) = x11) (h3 : V c (Pipeline.arrRef spec1 3) = x12)
    (h4 : V c (Pipeline.arrRef spec1 4) = x13) :
    (dat1 (F := Ideal) V c).arrAt 9 cfg1.N = Cert.ReferenceIdeal.Read.val_main_v40 (F := Ideal) x10 x11 x12 x13 x30 :=
  arr9_of V c x30 x10 x11 x12 x13 (Cert.ReferenceIdeal.Read.val_main_v40 (F := Ideal) x10 x11 x12 x13 x30)
    (ref_eu x10 x11 x12 x13 x30) h0 h1 h2 h3 h4

/-- The second result array after the region is the reference's stage 49. -/
theorem out_10 (V : (c : Dev nD) → (b : Ref sig .tc) → Buf (Elt Ideal) ((c : Thread nD τ).loc b)) (c : Dev nD)
    (x14 : (⟨S256x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal))
    (x30 : (⟨S300000x256, .f32⟩ : BufTy).Contents (Elt Ideal))
    (h0 : V c (Pipeline.arrRef spec1 0) = x30) (h5 : V c (Pipeline.arrRef spec1 5) = x14)
    (h6 : V c (Pipeline.arrRef spec1 6) = x15) (h7 : V c (Pipeline.arrRef spec1 7) = x16)
    (h8 : V c (Pipeline.arrRef spec1 8) = x17) :
    (dat1 (F := Ideal) V c).arrAt 10 cfg1.N = Cert.ReferenceIdeal.Read.val_main_v49 (F := Ideal) x14 x15 x16 x17 x30 :=
  arr10_of V c x30 x14 x15 x16 x17 (Cert.ReferenceIdeal.Read.val_main_v49 (F := Ideal) x14 x15 x16 x17 x30)
    (ref_eb x14 x15 x16 x17 x30) h0 h5 h6 h7 h8

end Cert.Bridge.R1
end
-- ==== Proof.Region2.lean ====
/-
  Region 2 of the kernel — the fused message body of a two-layer bipartite graph network — against the reference.

  Each of the region's two outputs is, row by row, relu(a·Wa + b·Wb + e·We + β₁)·W₂ + β₂: three row blocks a, b, e of
  6000 × 64 are multiplied by the three 64 × 64 row slices Wa, Wb, We of one 192 × 64 matrix, the products are added, a bias
  is added, the maximum with the zero word is taken, and the result is multiplied by a second 64 × 64 matrix and a second
  bias is added. The reference computes relu([a | b | e]·W + β₁)·W₂ + β₂ on whole 300000-row arrays, with the three
  operands joined along the columns and W the whole 192 × 64 matrix.

  The two agree entry by entry: the sum over the 192 joined columns splits into its three runs of 64
  (`sum_three_runs`); in the run starting at column 64·s the joined array's entry is the s-th operand's and the matrix's
  entry is the s-th slice's. `msgRef` is the reference's term over abstract operand arrays and `msgRef_apply` reads it at an
  index; `pay5_apply` and `pay1_apply` read the kernel's two bodies at an index; `point_16` / `point_17` put the two side by
  side. A block of a row-blocked window at grid point t is rows 6000·t … 6000·t + 5999 of its array and a weight or
  bias window's block is its whole array (`iblk_rows_*`, `iblk_whole_*`), so what point t writes back is block t of
  `msgRef` (`flushed_*`); the 50 blocks cover the 300000 rows (`cover_*`), so the output array is `msgRef` of the arrays
  the input windows hold (`core_*`). Last, the reference's stages %85 and %123 are `msgRef` of their operand stages by
  unfolding their definitions, and the second output's two gathered operands are the first's, recomputed (`out_16`, `out_17`).
-/
import proofs.«109817_j10033043603480_2_alg».proof.Proof.Gen.KernelIdeal.Frame
import proofs.«109817_j10033043603480_2_alg».proof.Proof.RefRead
import proofs.«109817_j10033043603480_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.Bridge.R2

/-- A sum over 192 indices is the sum of its three consecutive runs of 64. -/
theorem sum_three_runs (f : Fin 192 → EReal) :
    ∑ k : Fin 192, f k = (∑ k : Fin 64, f ⟨k.val, by omega⟩) + (∑ k : Fin 64, f ⟨64 + k.val, by omega⟩)
      + (∑ k : Fin 64, f ⟨128 + k.val, by omega⟩) := by
  have h := Fin.sum_univ_add (M := EReal) (a := 64 + 64) (b := 64) f
  have h2 := Fin.sum_univ_add (M := EReal) (a := 64) (b := 64) (fun i => f (Fin.castAdd 64 i))
  exact h.trans (congrArg₂ (· + ·) h2 rfl)

section Reference
open Cert.ReferenceIdeal Cert.ReferenceIdeal.Facts₀ Cert.ReferenceIdeal.Facts

/-- The reference's message function of its operands: the three operand arrays joined along the columns, times the
    192 × 64 matrix, plus the first bias, the maximum with the array Z, times the 64 × 64 matrix, plus the second bias. -/
def msgRef (Z A B E : FVec Ideal S300000x64 .f32) (W : FVec Ideal S192x64 .f32) (b1 : FVec Ideal S64 .f32)
    (W2 : FVec Ideal S64x64 .f32) (b2 : FVec Ideal S64 .f32) : FVec Ideal S300000x64 .f32 :=
  addf (Host.dotGeneral dot_S300000x64_S64x64_S300000x64_1_0_0_1_n_n none
      (maximumf (addf (Host.dotGeneral dot_S300000x192_S192x64_S300000x64_1_0_0_1_n_n none
          (concatenate S300000x192 1 [⟨S300000x64, A⟩, ⟨S300000x64, B⟩, ⟨S300000x64, E⟩]
            concatenates_S300000x64_S300000x64_S300000x64_S300000x192_d1) W)
        (broadcastInDim S300000x64 ![0, 1] bcast_S1x64_S300000x64_0_1 (broadcastInDim S1x64 ![1] bcast_S64_S1x64_1 b1))) Z) W2)
    (broadcastInDim S300000x64 ![0, 1] bcast_S1x64_S300000x64_0_1 (broadcastInDim S1x64 ![1] bcast_S64_S1x64_1 b2))

/-- The three joined arrays read at row i: columns 0–63 are the first array's. -/
theorem joined_left (A B E : FVec Ideal S300000x64 .f32) (i : Fin 300000) (k : Fin 64) (hk : k.val < 192) :
    concatenate S300000x192 1 [⟨S300000x64, A⟩, ⟨S300000x64, B⟩, ⟨S300000x64, E⟩]
        concatenates_S300000x64_S300000x64_S300000x64_S300000x192_d1 (ix2 i (⟨k.val, hk⟩ : Fin 192)) = A (ix2 i k) := by
  refine concatenate_apply_piece (t := S300000x192) (1 : Fin 2) [⟨S300000x64, A⟩, ⟨S300000x64, B⟩, ⟨S300000x64, E⟩] _ _ 0
    (by show 0 < 3; omega) S300000x64 A rfl rfl 0 rfl (ix2 i k) (fun b hb => ?_) ?_
  · match b with
    | ⟨0, _⟩ => rfl
    | ⟨1, _⟩ => exact absurd rfl hb
  · show 0 + k.val = k.val
    omega

/-- Columns 64–127 are the second array's. -/
theorem joined_mid (A B E : FVec Ideal S300000x64 .f32) (i : Fin 300000) (k : Fin 64) (hk : 64 + k.val < 192) :
    concatenate S300000x192 1 [⟨S300000x64, A⟩, ⟨S300000x64, B⟩, ⟨S300000x64, E⟩]
        concatenates_S300000x64_S300000x64_S300000x64_S300000x192_d1 (ix2 i (⟨64 + k.val, hk⟩ : Fin 192)) = B (ix2 i k) := by
  refine concatenate_apply_piece (t := S300000x192) (1 : Fin 2) [⟨S300000x64, A⟩, ⟨S300000x64, B⟩, ⟨S300000x64, E⟩] _ _ 1
    (by show 1 < 3; omega) S300000x64 B rfl rfl 64 rfl (ix2 i k) (fun b hb => ?_) ?_
  · match b with
    | ⟨0, _⟩ => rfl
    | ⟨1, _⟩ => exact absurd rfl hb
  · rfl

/-- Columns 128–191 are the third array's. -/
theorem joined_right (A B E : FVec Ideal S300000x64 .f32) (i : Fin 300000) (k : Fin 64) (hk : 128 + k.val < 192) :
    concatenate S300000x192 1 [⟨S300000x64, A⟩, ⟨S300000x64, B⟩, ⟨S300000x64, E⟩]
        concatenates_S300000x64_S300000x64_S300000x64_S300000x192_d1 (ix2 i (⟨128 + k.val, hk⟩ : Fin 192)) = E (ix2 i k) := by
  refine concatenate_apply_piece (t := S300000x192) (1 : Fin 2) [⟨S300000x64, A⟩, ⟨S300000x64, B⟩, ⟨S300000x64, E⟩] _ _ 2
    (by show 2 < 3; omega) S300000x64 E rfl rfl 128 rfl (ix2 i k) (fun b hb => ?_) ?_
  · match b with
    | ⟨0, _⟩ => rfl
    | ⟨1, _⟩ => exact absurd rfl hb
  · rfl

/-- A bias vector laid as one row and repeated over the array's rows reads, at (i, j), its entry j. -/
theorem ref_bias_apply (v : FVec Ideal S64 .f32) (i : Fin 300000) (j : Fin 64) :
    broadcastInDim S300000x64 ![0, 1] bcast_S1x64_S300000x64_0_1 (broadcastInDim S1x64 ![1] bcast_S64_S1x64_1 v) (ix2 i j)
      = v (ix1 j) :=
  (broadcastInDim_apply _ bcast_S1x64_S300000x64_0_1 _ (ix2 i j) (ix2 (0 : Fin 1) j) (fun a => match a with
    | ⟨0, _⟩ => by show 0 = if (1 : Nat) = 1 then 0 else _; rw [if_pos rfl]
    | ⟨1, _⟩ => by show j.val = if (64 : Nat) = 1 then 0 else j.val; rw [if_neg (by decide)])).trans
  (broadcastInDim_apply _ bcast_S64_S1x64_1 v (ix2 (0 : Fin 1) j) (ix1 j) (fun a => match a with
    | ⟨0, _⟩ => by show j.val = if (64 : Nat) = 1 then 0 else j.val; rw [if_neg (by decide)]))

/-- The reference's first product read at (i, j): the sum over the 192 joined columns. -/
theorem ref_dot192_apply (l : FVec Ideal S300000x192 .f32) (w : FVec Ideal S192x64 .f32) (i : Fin 300000) (j : Fin 64) :
    Host.dotGeneral dot_S300000x192_S192x64_S300000x64_1_0_0_1_n_n none l w (ix2 i j) = ∑ k : Fin 192, l (ix2 i k) * w (ix2 k j) :=
  Cert.Lib.PlainDot.dotGeneral_apply 300000 192 64 none _ l w i j

/-- The reference's second product read at (i, q). -/
theorem ref_dot64_apply (l : FVec Ideal S300000x64 .f32) (w : FVec Ideal S64x64 .f32) (i : Fin 300000) (q : Fin 64) :
    Host.dotGeneral dot_S300000x64_S64x64_S300000x64_1_0_0_1_n_n none l w (ix2 i q) = ∑ k : Fin 64, l (ix2 i k) * w (ix2 k q) :=
  Cert.Lib.PlainDot.dotGeneral_apply 300000 64 64 none _ l w i q

/-- The reference's message function read at row i and column q, the sum over the 192 joined columns split into the
    three operands' runs of 64. -/
theorem msgRef_apply (Z A B E : FVec Ideal S300000x64 .f32) (W : FVec Ideal S192x64 .f32) (b1 : FVec Ideal S64 .f32)
    (W2 : FVec Ideal S64x64 .f32) (b2 : FVec Ideal S64 .f32) (i : Fin 300000) (q : Fin 64) :
    msgRef Z A B E W b1 W2 b2 (ix2 i q)
      = (∑ j : Fin 64, max ((∑ k : Fin 64, A (ix2 i k) * W (ix2 (⟨k.val, by omega⟩ : Fin 192) j))
            + (∑ k : Fin 64, B (ix2 i k) * W (ix2 (⟨64 + k.val, by omega⟩ : Fin 192) j))
            + (∑ k : Fin 64, E (ix2 i k) * W (ix2 (⟨128 + k.val, by omega⟩ : Fin 192) j)) + b1 (ix1 j)) (Z (ix2 i j))
          * W2 (ix2 j q))
        + b2 (ix1 q) := by
  unfold msgRef
  rw [addf_apply, ref_dot64_apply, ref_bias_apply]
  simp only [maximumf_apply, addf_apply, ref_dot192_apply, ref_bias_apply]
  congr 1
  refine Finset.sum_congr rfl fun j _ => ?_
  rw [sum_three_runs, ref_bias_apply]
  simp only [joined_left, joined_mid, joined_right]

end Reference

section Kernel
open Cert.KernelIdeal Cert.KernelIdeal.Gen

/-- The offsets of a whole rank-2 block are zero on both axes. -/
theorem hz2 : (![0, 0] : Fin 2 → Nat) = fun _ => 0 := funext fun a => by fin_cases a <;> rfl
/-- The offset of a whole rank-1 block is zero. -/
theorem hz1 : (![0] : Fin 1 → Nat) = fun _ => 0 := funext fun a => by fin_cases a <;> rfl

/-- The printed index maps, decided over the 50 grid points: a row-blocked window's block index is the point's number on
    the rows and 0 on the columns; a weight or bias window's is 0 everywhere. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 1) = 0
    ∧ win2_14.index t (0 : Fin 2) = 0 ∧ win2_14.index t (1 : Fin 2) = 0
    ∧ win2_15.index t (0 : Fin 1) = 0
    ∧ win2_16.index t (0 : Fin 2) = t.val ∧ win2_16.index t (1 : Fin 2) = 0
    ∧ win2_17.index t (0 : Fin 2) = t.val ∧ win2_17.index t (1 : Fin 2) = 0 :=
  (by decide +kernel : ∀ t : Fin grid2.N, _)

/-- A block's product with a 64 × 64 matrix into the zero accumulator, read at row r and column q. -/
theorem block_matmul_apply (l : FVec Ideal S6000x64 .f32) (w : FVec Ideal S64x64 .f32) (r : Fin 6000) (q : Fin 64) :
    matmul dot_S6000x64_S64x64_S6000x64_1_0_0_1_n_n none l w (constant S6000x64 .f32 0x00000000#32) (ix2 r q)
      = ∑ k : Fin 64, l (ix2 r k) * w (ix2 k q) :=
  Cert.Lib.PlainDot.matmul_zero_apply 6000 64 64 none l w r q

/-- A bias vector laid as one row and repeated over the block's rows reads, at (r, j), its entry j. -/
theorem block_bias_apply (v : FVec Ideal S64 .f32) (r : Fin 6000) (j : Fin 64) :
    broadcastTo S6000x64 (shapeCast S1x64 v shapeCasts_S64_S1x64) broadcasts_S1x64_S6000x64 (ix2 r j) = v (ix1 j) :=
  (broadcastTo_1b_ab_apply _ broadcasts_S1x64_S6000x64 r j).trans (shapeCast_a_1a_apply v shapeCasts_S64_S1x64 0 j)

/-- The message body of one block, read at row r and column q: three products summed, a bias, the maximum with the
    zero word, a fourth product and a second bias. -/
theorem pay5_apply (a0 a1 a2 : Vec Ideal S6000x64 .f32) (w0 w1 w2 : Vec Ideal S64x64 .f32) (b1 : Vec Ideal S64 .f32)
    (w3 : Vec Ideal S64x64 .f32) (b2 : Vec Ideal S64 .f32) (r : Fin 6000) (q : Fin 64) :
    k2_pay5 (F := Ideal) a0 a1 a2 w0 w1 w2 b1 w3 b2 (ix2 r q)
      = (∑ j : Fin 64, max ((∑ k : Fin 64, a0 (ix2 r k) * w0 (ix2 k j)) + (∑ k : Fin 64, a1 (ix2 r k) * w1 (ix2 k j))
            + (∑ k : Fin 64, a2 (ix2 r k) * w2 (ix2 k j)) + b1 (ix1 j)) (Ideal.ofBits .f32 0x00000000#32) * w3 (ix2 j q))
          + b2 (ix1 q) := by
  unfold k2_pay5 k2_pay2 k2_pay3
  simp only [shapeCast_self]
  rw [addf_apply, block_matmul_apply, block_bias_apply]
  simp only [maximumf_apply, addf_apply, block_matmul_apply, block_bias_apply, broadcast_apply]
  rfl

/-- The second message body of one block, read at row r and column q (its operand blocks pass through shape casts to
    their own shape, which are the identity). -/
theorem pay1_apply (aA aB aE : Vec Ideal S6000x64 .f32) (w0 w1 w2 : Vec Ideal S64x64 .f32) (c1 : Vec Ideal S64 .f32)
    (w3 : Vec Ideal S64x64 .f32) (c2 : Vec Ideal S64 .f32) (r : Fin 6000) (q : Fin 64) :
    k2_pay1 (F := Ideal) (k2_pay2 aB) (k2_pay3 aA) (k2_pay4 aE) w0 w1 w2 c1 w3 c2 (ix2 r q)
      = (∑ j : Fin 64, max ((∑ k : Fin 64, aA (ix2 r k) * w0 (ix2 k j)) + (∑ k : Fin 64, aB (ix2 r k) * w1 (ix2 k j))
            + (∑ k : Fin 64, aE (ix2 r k) * w2 (ix2 k j)) + c1 (ix1 j)) (Ideal.ofBits .f32 0x00000000#32) * w3 (ix2 j q))
          + c2 (ix1 q) := by
  unfold k2_pay1 k2_pay2 k2_pay3 k2_pay4
  simp only [shapeCast_self]
  rw [addf_apply, block_matmul_apply, block_bias_apply]
  simp only [maximumf_apply, addf_apply, block_matmul_apply, block_bias_apply, broadcast_apply]
  rfl

/-- Window 0's block at point t is rows 6000·t … 6000·t + 5999 of its array. -/
theorem iblk_rows_0 (V : (c : Dev nD) → (b : Ref sig .tc) → Buf (Elt Ideal) ((c : Thread nD τ).loc b)) (c : Dev nD) (t : Fin cfg2.N)
    (X : FVec Ideal S300000x64 .f32) (hX : V c (Pipeline.arrRef spec2 0) = X) (r : Fin 6000) (k : Fin 64)
    (hb : t.val * 6000 + r.val < 300000) :
    (iblk2 (F := Ideal) V c 0 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 6000 + 1 * r.val = t.val * 6000 + r.val; rw [e0a]; omega
  | ⟨1, _⟩ => show win2_0.index t (1 : Fin 2) * 64 + 1 * k.val = k.val; rw [e0b]; omega

/-- Window 1's block at point t is rows 6000·t … 6000·t + 5999 of its array. -/
theorem iblk_rows_1 (V : (c : Dev nD) → (b : Ref sig .tc) → Buf (Elt Ideal) ((c : Thread nD τ).loc b)) (c : Dev nD) (t : Fin cfg2.N)
    (X : FVec Ideal S300000x64 .f32) (hX : V c (Pipeline.arrRef spec2 1) = X) (r : Fin 6000) (k : Fin 64)
    (hb : t.val * 6000 + r.val < 300000) :
    (iblk2 (F := Ideal) V c 1 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 6000 + 1 * r.val = t.val * 6000 + r.val; rw [e1a]; omega
  | ⟨1, _⟩ => show win2_1.index t (1 : Fin 2) * 64 + 1 * k.val = k.val; rw [e1b]; omega

/-- Window 2's block at point t is rows 6000·t … 6000·t + 5999 of its array. -/
theorem iblk_rows_2 (V : (c : Dev nD) → (b : Ref sig .tc) → Buf (Elt Ideal) ((c : Thread nD τ).loc b)) (c : Dev nD) (t : Fin cfg2.N)
    (X : FVec Ideal S300000x64 .f32) (hX : V c (Pipeline.arrRef spec2 2) = X) (r : Fin 6000) (k : Fin 64)
    (hb : t.val * 6000 + r.val < 300000) :
    (iblk2 (F := Ideal) V c 2 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 6000 + 1 * r.val = t.val * 6000 + r.val; rw [e2a]; omega
  | ⟨1, _⟩ => show win2_2.index t (1 : Fin 2) * 64 + 1 * k.val = k.val; rw [e2b]; omega

/-- Window 3's block at point t is rows 6000·t … 6000·t + 5999 of its array. -/
theorem iblk_rows_3 (V : (c : Dev nD) → (b : Ref sig .tc) → Buf (Elt Ideal) ((c : Thread nD τ).loc b)) (c : Dev nD) (t : Fin cfg2.N)
    (X : FVec Ideal S300000x64 .f32) (hX : V c (Pipeline.arrRef spec2 3) = X) (r : Fin 6000) (k : Fin 64)
    (hb : t.val * 6000 + r.val < 300000) :
    (iblk2 (F := Ideal) V c 3 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 6000 + 1 * r.val = t.val * 6000 + r.val; rw [e3a]; omega
  | ⟨1, _⟩ => show win2_3.index t (1 : Fin 2) * 64 + 1 * k.val = k.val; rw [e3b]; omega

/-- Window 4's block at every point is its whole 64 × 64 array. -/
theorem iblk_whole_4 (V : (c : Dev nD) → (b : Ref sig .tc) → Buf (Elt Ideal) ((c : Thread nD τ).loc b)) (c : Dev nD) (t : Fin cfg2.N)
    (X : FVec Ideal S64x64 .f32) (hX : V c (Pipeline.arrRef spec2 4) = X) (a b : Fin 64) :
    (iblk2 (F := Ideal) V c 4 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 4) _ = V c (Pipeline.arrRef spec2 4) _
  congr 1
  funext d
  apply Fin.ext
  match d with
  | ⟨0, _⟩ => show win2_4.index t (0 : Fin 2) * 64 + 1 * a.val = a.val; rw [e4a]; omega
  | ⟨1, _⟩ => show win2_4.index t (1 : Fin 2) * 64 + 1 * b.val = b.val; rw [e4b]; omega

/-- Window 5's block at every point is its whole 64 × 64 array. -/
theorem iblk_whole_5 (V : (c : Dev nD) → (b : Ref sig .tc) → Buf (Elt Ideal) ((c : Thread nD τ).loc b)) (c : Dev nD) (t : Fin cfg2.N)
    (X : FVec Ideal S64x64 .f32) (hX : V c (Pipeline.arrRef spec2 5) = X) (a b : Fin 64) :
    (iblk2 (F := Ideal) V c 5 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 5) _ = V c (Pipeline.arrRef spec2 5) _
  congr 1
  funext d
  apply Fin.ext
  match d with
  | ⟨0, _⟩ => show win2_5.index t (0 : Fin 2) * 64 + 1 * a.val = a.val; rw [e5a]; omega
  | ⟨1, _⟩ => show win2_5.index t (1 : Fin 2) * 64 + 1 * b.val = b.val; rw [e5b]; omega

/-- Window 6's block at every point is its whole 64 × 64 array. -/
theorem iblk_whole_6 (V : (c : Dev nD) → (b : Ref sig .tc) → Buf (Elt Ideal) ((c : Thread nD τ).loc b)) (c : Dev nD) (t : Fin cfg2.N)
    (X : FVec Ideal S64x64 .f32) (hX : V c (Pipeline.arrRef spec2 6) = X) (a b : Fin 64) :
    (iblk2 (F := Ideal) V c 6 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 6) _ = V c (Pipeline.arrRef spec2 6) _
  congr 1
  funext d
  apply Fin.ext
  match d with
  | ⟨0, _⟩ => show win2_6.index t (0 : Fin 2) * 64 + 1 * a.val = a.val; rw [e6a]; omega
  | ⟨1, _⟩ => show win2_6.index t (1 : Fin 2) * 64 + 1 * b.val = b.val; rw [e6b]; omega

/-- Window 8's block at every point is its whole 64 × 64 array. -/
theorem iblk_whole_8 (V : (c : Dev nD) → (b : Ref sig .tc) → Buf (Elt Ideal) ((c : Thread nD τ).loc b)) (c : Dev nD) (t : Fin cfg2.N)
    (X : FVec Ideal S64x64 .f32) (hX : V c (Pipeline.arrRef spec2 8) = X) (a b : Fin 64) :
    (iblk2 (F := Ideal) V c 8 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 8) _ = V c (Pipeline.arrRef spec2 8) _
  congr 1
  funext d
  apply Fin.ext
  match d with
  | ⟨0, _⟩ => show win2_8.index t (0 : Fin 2) * 64 + 1 * a.val = a.val; rw [e8a]; omega
  | ⟨1, _⟩ => show win2_8.index t (1 : Fin 2) * 64 + 1 * b.val = b.val; rw [e8b]; omega

/-- Window 10's block at every point is its whole 64 × 64 array. -/
theorem iblk_whole_10 (V : (c : Dev nD) → (b : Ref sig .tc) → Buf (Elt Ideal) ((c : Thread nD τ).loc b)) (c : Dev nD) (t : Fin cfg2.N)
    (X : FVec Ideal S64x64 .f32) (hX : V c (Pipeline.arrRef spec2 10) = X) (a b : Fin 64) :
    (iblk2 (F := Ideal) V c 10 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 10) _ = V c (Pipeline.arrRef spec2 10) _
  congr 1
  funext d
  apply Fin.ext
  match d with
  | ⟨0, _⟩ => show win2_10.index t (0 : Fin 2) * 64 + 1 * a.val = a.val; rw [e10a]; omega
  | ⟨1, _⟩ => show win2_10.index t (1 : Fin 2) * 64 + 1 * b.val = b.val; rw [e10b]; omega

/-- Window 11's block at every point is its whole 64 × 64 array. -/
theorem iblk_whole_11 (V : (c : Dev nD) → (b : Ref sig .tc) → Buf (Elt Ideal) ((c : Thread nD τ).loc b)) (c : Dev nD) (t : Fin cfg2.N)
    (X : FVec Ideal S64x64 .f32) (hX : V c (Pipeline.arrRef spec2 11) = X) (a b : Fin 64) :
    (iblk2 (F := Ideal) V c 11 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 11) _ = V c (Pipeline.arrRef spec2 11) _
  congr 1
  funext d
  apply Fin.ext
  match d with
  | ⟨0, _⟩ => show win2_11.index t (0 : Fin 2) * 64 + 1 * a.val = a.val; rw [e11a]; omega
  | ⟨1, _⟩ => show win2_11.index t (1 : Fin 2) * 64 + 1 * b.val = b.val; rw [e11b]; omega

/-- Window 12's block at every point is its whole 64 × 64 array. -/
theorem iblk_whole_12 (V : (c : Dev nD) → (b : Ref sig .tc) → Buf (Elt Ideal) ((c : Thread nD τ).loc b)) (c : Dev nD) (t : Fin cfg2.N)
    (X : FVec Ideal S64x64 .f32) (hX : V c (Pipeline.arrRef spec2 12) = X) (a b : Fin 64) :
    (iblk2 (F := Ideal) V c 12 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 12) _ = V c (Pipeline.arrRef spec2 12) _
  congr 1
  funext d
  apply Fin.ext
  match d with
  | ⟨0, _⟩ => show win2_12.index t (0 : Fin 2) * 64 + 1 * a.val = a.val; rw [e12a]; omega
  | ⟨1, _⟩ => show win2_12.index t (1 : Fin 2) * 64 + 1 * b.val = b.val; rw [e12b]; omega

/-- Window 14's block at every point is its whole 64 × 64 array. -/
theorem iblk_whole_14 (V : (c : Dev nD) → (b : Ref sig .tc) → Buf (Elt Ideal) ((c : Thread nD τ).loc b)) (c : Dev nD) (t : Fin cfg2.N)
    (X : FVec Ideal S64x64 .f32) (hX : V c (Pipeline.arrRef spec2 14) = X) (a b : Fin 64) :
    (iblk2 (F := Ideal) V c 14 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 14) _ = V c (Pipeline.arrRef spec2 14) _
  congr 1
  funext d
  apply Fin.ext
  match d with
  | ⟨0, _⟩ => show win2_14.index t (0 : Fin 2) * 64 + 1 * a.val = a.val; rw [e14a]; omega
  | ⟨1, _⟩ => show win2_14.index t (1 : Fin 2) * 64 + 1 * b.val = b.val; rw [e14b]; omega

/-- Window 7's block at every point is its whole 64-entry array. -/
theorem iblk_whole_7 (V : (c : Dev nD) → (b : Ref sig .tc) → Buf (Elt Ideal) ((c : Thread nD τ).loc b)) (c : Dev nD) (t : Fin cfg2.N)
    (X : FVec Ideal S64 .f32) (hX : V c (Pipeline.arrRef spec2 7) = X) (j : Fin 64) :
    (iblk2 (F := Ideal) V c 7 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 7) _ = V c (Pipeline.arrRef spec2 7) _
  congr 1
  funext d
  apply Fin.ext
  match d with
  | ⟨0, _⟩ => show win2_7.index t (0 : Fin 1) * 64 + 1 * j.val = j.val; rw [e7]; omega

/-- Window 9's block at every point is its whole 64-entry array. -/
theorem iblk_whole_9 (V : (c : Dev nD) → (b : Ref sig .tc) → Buf (Elt Ideal) ((c : Thread nD τ).loc b)) (c : Dev nD) (t : Fin cfg2.N)
    (X : FVec Ideal S64 .f32) (hX : V c (Pipeline.arrRef spec2 9) = X) (j : Fin 64) :
    (iblk2 (F := Ideal) V c 9 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 9) _ = V c (Pipeline.arrRef spec2 9) _
  congr 1
  funext d
  apply Fin.ext
  match d with
  | ⟨0, _⟩ => show win2_9.index t (0 : Fin 1) * 64 + 1 * j.val = j.val; rw [e9]; omega

/-- Window 13's block at every point is its whole 64-entry array. -/
theorem iblk_whole_13 (V : (c : Dev nD) → (b : Ref sig .tc) → Buf (Elt Ideal) ((c : Thread nD τ).loc b)) (c : Dev nD) (t : Fin cfg2.N)
    (X : FVec Ideal S64 .f32) (hX : V c (Pipeline.arrRef spec2 13) = X) (j : Fin 64) :
    (iblk2 (F := Ideal) V c 13 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 13) _ = V c (Pipeline.arrRef spec2 13) _
  congr 1
  funext d
  apply Fin.ext
  match d with
  | ⟨0, _⟩ => show win2_13.index t (0 : Fin 1) * 64 + 1 * j.val = j.val; rw [e13]; omega

/-- Window 15's block at every point is its whole 64-entry array. -/
theorem iblk_whole_15 (V : (c : Dev nD) → (b : Ref sig .tc) → Buf (Elt Ideal) ((c : Thread nD τ).loc b)) (c : Dev nD) (t : Fin cfg2.N)
    (X : FVec Ideal S64 .f32) (hX : V c (Pipeline.arrRef spec2 15) = X) (j : Fin 64) :
    (iblk2 (F := Ideal) V c 15 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk2
  rw [View.read_apply]
  show V c (Pipeline.arrRef spec2 15) _ = V c (Pipeline.arrRef spec2 15) _
  congr 1
  funext d
  apply Fin.ext
  match d with
  | ⟨0, _⟩ => show win2_15.index t (0 : Fin 1) * 64 + 1 * j.val = j.val; rw [e15]; omega

/-- One element of what a point writes to window 16 is the reference's message function at the array index under it:
    both are the same sums of the same entries, the joined columns' sum split into the three operands' runs. -/
theorem point_16 (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (T : Nat) (hT : T < 50)
    (aA aB aE : Vec Ideal S6000x64 .f32) (w0 w1 w2 : Vec Ideal S64x64 .f32) (c1 : Vec Ideal S64 .f32)
    (w3 : Vec Ideal S64x64 .f32) (c2 : Vec Ideal S64 .f32)
    (haA : ∀ (r : Fin 6000) (k : Fin 64), aA (ix2 r k) = A (ix2 (⟨T * 6000 + r.val, by omega⟩ : Fin 300000) k))
    (haB : ∀ (r : Fin 6000) (k : Fin 64), aB (ix2 r k) = B (ix2 (⟨T * 6000 + r.val, by omega⟩ : Fin 300000) k))
    (haE : ∀ (r : Fin 6000) (k : Fin 64), aE (ix2 r k) = E (ix2 (⟨T * 6000 + r.val, by omega⟩ : Fin 300000) k))
    (hw0 : ∀ k j : Fin 64, w0 (ix2 k j) = W (ix2 (⟨k.val, by omega⟩ : Fin 192) j))
    (hw1 : ∀ k j : Fin 64, w1 (ix2 k j) = W (ix2 (⟨64 + k.val, by omega⟩ : Fin 192) j))
    (hw2 : ∀ k j : Fin 64, w2 (ix2 k j) = W (ix2 (⟨128 + k.val, by omega⟩ : Fin 192) j))
    (hc1 : ∀ j : Fin 64, c1 (ix1 j) = b1 (ix1 j)) (hw3 : ∀ j q : Fin 64, w3 (ix2 j q) = W2 (ix2 j q))
    (hc2 : ∀ q : Fin 64, c2 (ix1 q) = b2 (ix1 q))
    (y : S6000x64.Idx) (i : S300000x64.Idx) (hi0 : (i 0).val = T * 6000 + (y 0).val) (hi1 : (i 1).val = (y 1).val) :
    k2_pay5 (F := Ideal) aA aB aE w0 w1 w2 c1 w3 c2 y = msgRef Z A B E W b1 W2 b2 i := by
  obtain ⟨r, q, rfl⟩ : ∃ (r : Fin 6000) (q : Fin 64), y = ix2 r q := ⟨y 0, y 1, eq_ix2 y⟩
  have hi : i = ix2 (⟨T * 6000 + r.val, by omega⟩ : Fin 300000) q :=
    funext fun a => match a with
      | ⟨0, _⟩ => Fin.ext hi0
      | ⟨1, _⟩ => Fin.ext hi1
  rw [hi, pay5_apply, msgRef_apply]
  simp only [haA, haB, haE, hw0, hw1, hw2, hc1, hw3, hc2, hZ]

/-- What point t writes back to window 16 is block t of the reference's message function. -/
theorem flushed_16 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h0 : V c (Pipeline.arrRef spec2 0) = A) (h1 : V c (Pipeline.arrRef spec2 1) = B)
    (h2 : V c (Pipeline.arrRef spec2 2) = E)
    (h4 : V c (Pipeline.arrRef spec2 4) = extractStridedSlice S64x64 ![0, 0] W slices_S192x64_S64x64_0_0)
    (h5 : V c (Pipeline.arrRef spec2 5) = extractStridedSlice S64x64 ![64, 0] W slices_S192x64_S64x64_64_0)
    (h6 : V c (Pipeline.arrRef spec2 6) = extractStridedSlice S64x64 ![128, 0] W slices_S192x64_S64x64_128_0)
    (h7 : V c (Pipeline.arrRef spec2 7) = b1) (h8 : V c (Pipeline.arrRef spec2 8) = W2)
    (h9 : V c (Pipeline.arrRef spec2 9) = b2) (t : Fin cfg2.N) :
    (dat2 (F := Ideal) V c).flushed 16 t
      = ((cfg2.win 16).blk t).view.read (Elt Ideal) (msgRef Z A B E W b1 W2 b2) := by
  have hT : t.val < 50 := Nat.lt_of_lt_of_eq t.isLt N_2
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  show (cfg2.win 16).cut (grid2.coords t) ((dat2 V c).after 16 t) = _
  rw [after2_16]
  unfold out2_16
  rw [View.canon_unit_zero hz2]
  simp only [View.ld_unit_zero (S := S6000x64) hz2, View.ld_unit_zero (S := S64x64) hz2, View.ld_unit_zero (S := S64) hz1]
  funext y
  refine point_16 Z A B E W b1 W2 b2 hZ t.val hT (iblk2 V c 0 t) (iblk2 V c 1 t) (iblk2 V c 2 t)
    (iblk2 V c 4 t) (iblk2 V c 5 t) (iblk2 V c 6 t) (iblk2 V c 7 t) (iblk2 V c 8 t) (iblk2 V c 9 t)
    (fun r k => iblk_rows_0 V c t A h0 r k _) (fun r k => iblk_rows_1 V c t B h1 r k _)
    (fun r k => iblk_rows_2 V c t E h2 r k _)
    (fun k j => (iblk_whole_4 V c t _ h4 k j).trans
      (slice2_axis0_apply 0 W slices_S192x64_S64x64_0_0 k j _ (by show k.val = 0 + k.val; omega)))
    (fun k j => (iblk_whole_5 V c t _ h5 k j).trans (slice2_axis0_apply 64 W slices_S192x64_S64x64_64_0 k j _ rfl))
    (fun k j => (iblk_whole_6 V c t _ h6 k j).trans (slice2_axis0_apply 128 W slices_S192x64_S64x64_128_0 k j _ rfl))
    (fun j => iblk_whole_7 V c t b1 h7 j) (fun j q => iblk_whole_8 V c t W2 h8 j q)
    (fun q => iblk_whole_9 V c t b2 h9 q)
    y (((cfg2.win 16).blk t).view.emb y) ?_ ?_
  · show win2_16.index t (0 : Fin 2) * 6000 + 1 * (y 0).val = t.val * 6000 + (y 0).val
    rw [e16a]; omega
  · show win2_16.index t (1 : Fin 2) * 64 + 1 * (y 1).val = (y 1).val
    rw [e16b]; omega

/-- Every row of window 16's array lies in the block of the point numbered by the row's quotient by 6000. -/
theorem cover_16 (c : Dev nD) (i : ((cfg2.win 16).arr.view.loc (c.tc : Thread nD τ)).2.ty.Idx) :
    ∃ t : Fin cfg2.N, (cfg2.win 16).flush t = true ∧ i ∈ ((cfg2.win 16).blk t).view.set := by
  have h0 : (i 0).val < 300000 := (i 0).isLt
  have h1 : (i 1).val < 64 := (i 1).isLt
  have hN : cfg2.N = 50 := N_2
  obtain ⟨t, ht⟩ : ∃ t : Fin cfg2.N, t.val = (i 0).val / 6000 := ⟨⟨(i 0).val / 6000, by rw [hN]; omega⟩, rfl⟩
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  refine ⟨t, flush2_16 t, ?_⟩
  show i ∈ ((View.whole main_v32_0).slice (win2_16.rect t)).set
  rw [View.set_slice_whole, Rect.mem_set_unit]
  intro a
  match a with
  | ⟨0, _⟩ =>
    show win2_16.index t (0 : Fin 2) * 6000 ≤ (i 0).val ∧ (i 0).val < win2_16.index t (0 : Fin 2) * 6000 + 6000
    rw [e16a, ht]; omega
  | ⟨1, _⟩ =>
    show win2_16.index t (1 : Fin 2) * 64 ≤ (i 1).val ∧ (i 1).val < win2_16.index t (1 : Fin 2) * 64 + 64
    rw [e16b]; omega

/-- Window 16's array after the region is the reference's message function of the arrays the input windows hold. -/
theorem core_16 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h0 : V c (Pipeline.arrRef spec2 0) = A) (h1 : V c (Pipeline.arrRef spec2 1) = B)
    (h2 : V c (Pipeline.arrRef spec2 2) = E)
    (h4 : V c (Pipeline.arrRef spec2 4) = extractStridedSlice S64x64 ![0, 0] W slices_S192x64_S64x64_0_0)
    (h5 : V c (Pipeline.arrRef spec2 5) = extractStridedSlice S64x64 ![64, 0] W slices_S192x64_S64x64_64_0)
    (h6 : V c (Pipeline.arrRef spec2 6) = extractStridedSlice S64x64 ![128, 0] W slices_S192x64_S64x64_128_0)
    (h7 : V c (Pipeline.arrRef spec2 7) = b1) (h8 : V c (Pipeline.arrRef spec2 8) = W2)
    (h9 : V c (Pipeline.arrRef spec2 9) = b2) :
    (dat2 (F := Ideal) V c).arrAt 16 cfg2.N = msgRef Z A B E W b1 W2 b2 :=
  (dat2 (F := Ideal) V c).arrAt_eq_of_cover 16 (msgRef Z A B E W b1 W2 b2)
    (fun t _ => flushed_16 V c Z A B E W b1 W2 b2 hZ h0 h1 h2 h4 h5 h6 h7 h8 h9 t) (cover_16 c)

/-- One element of what a point writes to window 17 is the reference's message function at the array index under it:
    both are the same sums of the same entries, the joined columns' sum split into the three operands' runs. -/
theorem point_17 (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (T : Nat) (hT : T < 50)
    (aA aB aE : Vec Ideal S6000x64 .f32) (w0 w1 w2 : Vec Ideal S64x64 .f32) (c1 : Vec Ideal S64 .f32)
    (w3 : Vec Ideal S64x64 .f32) (c2 : Vec Ideal S64 .f32)
    (haA : ∀ (r : Fin 6000) (k : Fin 64), aA (ix2 r k) = A (ix2 (⟨T * 6000 + r.val, by omega⟩ : Fin 300000) k))
    (haB : ∀ (r : Fin 6000) (k : Fin 64), aB (ix2 r k) = B (ix2 (⟨T * 6000 + r.val, by omega⟩ : Fin 300000) k))
    (haE : ∀ (r : Fin 6000) (k : Fin 64), aE (ix2 r k) = E (ix2 (⟨T * 6000 + r.val, by omega⟩ : Fin 300000) k))
    (hw0 : ∀ k j : Fin 64, w0 (ix2 k j) = W (ix2 (⟨k.val, by omega⟩ : Fin 192) j))
    (hw1 : ∀ k j : Fin 64, w1 (ix2 k j) = W (ix2 (⟨64 + k.val, by omega⟩ : Fin 192) j))
    (hw2 : ∀ k j : Fin 64, w2 (ix2 k j) = W (ix2 (⟨128 + k.val, by omega⟩ : Fin 192) j))
    (hc1 : ∀ j : Fin 64, c1 (ix1 j) = b1 (ix1 j)) (hw3 : ∀ j q : Fin 64, w3 (ix2 j q) = W2 (ix2 j q))
    (hc2 : ∀ q : Fin 64, c2 (ix1 q) = b2 (ix1 q))
    (y : S6000x64.Idx) (i : S300000x64.Idx) (hi0 : (i 0).val = T * 6000 + (y 0).val) (hi1 : (i 1).val = (y 1).val) :
    k2_pay1 (F := Ideal) (k2_pay2 aB) (k2_pay3 aA) (k2_pay4 aE) w0 w1 w2 c1 w3 c2 y = msgRef Z A B E W b1 W2 b2 i := by
  obtain ⟨r, q, rfl⟩ : ∃ (r : Fin 6000) (q : Fin 64), y = ix2 r q := ⟨y 0, y 1, eq_ix2 y⟩
  have hi : i = ix2 (⟨T * 6000 + r.val, by omega⟩ : Fin 300000) q :=
    funext fun a => match a with
      | ⟨0, _⟩ => Fin.ext hi0
      | ⟨1, _⟩ => Fin.ext hi1
  rw [hi, pay1_apply, msgRef_apply]
  simp only [haA, haB, haE, hw0, hw1, hw2, hc1, hw3, hc2, hZ]

/-- What point t writes back to window 17 is block t of the reference's message function. -/
theorem flushed_17 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h1 : V c (Pipeline.arrRef spec2 1) = A) (h0 : V c (Pipeline.arrRef spec2 0) = B)
    (h3 : V c (Pipeline.arrRef spec2 3) = E)
    (h10 : V c (Pipeline.arrRef spec2 10) = extractStridedSlice S64x64 ![0, 0] W slices_S192x64_S64x64_0_0)
    (h11 : V c (Pipeline.arrRef spec2 11) = extractStridedSlice S64x64 ![64, 0] W slices_S192x64_S64x64_64_0)
    (h12 : V c (Pipeline.arrRef spec2 12) = extractStridedSlice S64x64 ![128, 0] W slices_S192x64_S64x64_128_0)
    (h13 : V c (Pipeline.arrRef spec2 13) = b1) (h14 : V c (Pipeline.arrRef spec2 14) = W2)
    (h15 : V c (Pipeline.arrRef spec2 15) = b2) (t : Fin cfg2.N) :
    (dat2 (F := Ideal) V c).flushed 17 t
      = ((cfg2.win 17).blk t).view.read (Elt Ideal) (msgRef Z A B E W b1 W2 b2) := by
  have hT : t.val < 50 := Nat.lt_of_lt_of_eq t.isLt N_2
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  show (cfg2.win 17).cut (grid2.coords t) ((dat2 V c).after 17 t) = _
  rw [after2_17]
  unfold out2_17
  rw [View.canon_unit_zero hz2]
  simp only [View.ld_unit_zero (S := S6000x64) hz2, View.ld_unit_zero (S := S64x64) hz2, View.ld_unit_zero (S := S64) hz1]
  funext y
  refine point_17 Z A B E W b1 W2 b2 hZ t.val hT (iblk2 V c 1 t) (iblk2 V c 0 t) (iblk2 V c 3 t)
    (iblk2 V c 10 t) (iblk2 V c 11 t) (iblk2 V c 12 t) (iblk2 V c 13 t) (iblk2 V c 14 t) (iblk2 V c 15 t)
    (fun r k => iblk_rows_1 V c t A h1 r k _) (fun r k => iblk_rows_0 V c t B h0 r k _)
    (fun r k => iblk_rows_3 V c t E h3 r k _)
    (fun k j => (iblk_whole_10 V c t _ h10 k j).trans
      (slice2_axis0_apply 0 W slices_S192x64_S64x64_0_0 k j _ (by show k.val = 0 + k.val; omega)))
    (fun k j => (iblk_whole_11 V c t _ h11 k j).trans (slice2_axis0_apply 64 W slices_S192x64_S64x64_64_0 k j _ rfl))
    (fun k j => (iblk_whole_12 V c t _ h12 k j).trans (slice2_axis0_apply 128 W slices_S192x64_S64x64_128_0 k j _ rfl))
    (fun j => iblk_whole_13 V c t b1 h13 j) (fun j q => iblk_whole_14 V c t W2 h14 j q)
    (fun q => iblk_whole_15 V c t b2 h15 q)
    y (((cfg2.win 17).blk t).view.emb y) ?_ ?_
  · show win2_17.index t (0 : Fin 2) * 6000 + 1 * (y 0).val = t.val * 6000 + (y 0).val
    rw [e17a]; omega
  · show win2_17.index t (1 : Fin 2) * 64 + 1 * (y 1).val = (y 1).val
    rw [e17b]; omega

/-- Every row of window 17's array lies in the block of the point numbered by the row's quotient by 6000. -/
theorem cover_17 (c : Dev nD) (i : ((cfg2.win 17).arr.view.loc (c.tc : Thread nD τ)).2.ty.Idx) :
    ∃ t : Fin cfg2.N, (cfg2.win 17).flush t = true ∧ i ∈ ((cfg2.win 17).blk t).view.set := by
  have h0 : (i 0).val < 300000 := (i 0).isLt
  have h1 : (i 1).val < 64 := (i 1).isLt
  have hN : cfg2.N = 50 := N_2
  obtain ⟨t, ht⟩ : ∃ t : Fin cfg2.N, t.val = (i 0).val / 6000 := ⟨⟨(i 0).val / 6000, by rw [hN]; omega⟩, rfl⟩
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  refine ⟨t, flush2_17 t, ?_⟩
  show i ∈ ((View.whole main_v32_1).slice (win2_17.rect t)).set
  rw [View.set_slice_whole, Rect.mem_set_unit]
  intro a
  match a with
  | ⟨0, _⟩ =>
    show win2_17.index t (0 : Fin 2) * 6000 ≤ (i 0).val ∧ (i 0).val < win2_17.index t (0 : Fin 2) * 6000 + 6000
    rw [e17a, ht]; omega
  | ⟨1, _⟩ =>
    show win2_17.index t (1 : Fin 2) * 64 ≤ (i 1).val ∧ (i 1).val < win2_17.index t (1 : Fin 2) * 64 + 64
    rw [e17b]; omega

/-- Window 17's array after the region is the reference's message function of the arrays the input windows hold. -/
theorem core_17 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h1 : V c (Pipeline.arrRef spec2 1) = A) (h0 : V c (Pipeline.arrRef spec2 0) = B)
    (h3 : V c (Pipeline.arrRef spec2 3) = E)
    (h10 : V c (Pipeline.arrRef spec2 10) = extractStridedSlice S64x64 ![0, 0] W slices_S192x64_S64x64_0_0)
    (h11 : V c (Pipeline.arrRef spec2 11) = extractStridedSlice S64x64 ![64, 0] W slices_S192x64_S64x64_64_0)
    (h12 : V c (Pipeline.arrRef spec2 12) = extractStridedSlice S64x64 ![128, 0] W slices_S192x64_S64x64_128_0)
    (h13 : V c (Pipeline.arrRef spec2 13) = b1) (h14 : V c (Pipeline.arrRef spec2 14) = W2)
    (h15 : V c (Pipeline.arrRef spec2 15) = b2) :
    (dat2 (F := Ideal) V c).arrAt 17 cfg2.N = msgRef Z A B E W b1 W2 b2 :=
  (dat2 (F := Ideal) V c).arrAt_eq_of_cover 17 (msgRef Z A B E W b1 W2 b2)
    (fun t _ => flushed_17 V c Z A B E W b1 W2 b2 hZ h1 h0 h3 h10 h11 h12 h13 h14 h15 t) (cover_17 c)

end Kernel

section Wrap
open Cert.KernelIdeal Cert.KernelIdeal.Gen

/-- The array the reference's maximum is taken against holds the zero word everywhere. -/
theorem zero_call4_v0 (i : Cert.ReferenceIdeal.S300000x64.Idx) :
    Cert.ReferenceIdeal.Read.val_main_call4_v0 (F := Ideal) i = Ideal.ofBits .f32 0x00000000#32 := rfl

/-- The reference's stage %85 is the message function of the stages %60, %67, %40 joined, the matrix %70,
    the biases %72, %76 and the matrix %74: its definition, unfolded. -/
theorem ref_85
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v85 (F := Ideal) x0 x1 x2 x3 x4 x5 x6 x7 x8 x9 x10 x11 x12 x13 x18 x19 x20 x21 x30 x31 x32 x33
      = msgRef (Cert.ReferenceIdeal.Read.val_main_call4_v0 (F := Ideal)) (Cert.ReferenceIdeal.Read.val_main_v60 (F := Ideal) x1 x6 x7 x8 x9 x32 x33) (Cert.ReferenceIdeal.Read.val_main_v67 (F := Ideal) x0 x2 x3 x4 x5 x31 x33)
          (Cert.ReferenceIdeal.Read.val_main_v40 (F := Ideal) x10 x11 x12 x13 x30) (Cert.ReferenceIdeal.Read.val_main_v70 (F := Ideal) x18) (Cert.ReferenceIdeal.Read.val_main_v72 (F := Ideal) x19) (Cert.ReferenceIdeal.Read.val_main_v74 (F := Ideal) x20) (Cert.ReferenceIdeal.Read.val_main_v76 (F := Ideal) x21) := rfl

/-- Window 16's array after region 2 is the reference's stage %85, when the region's input windows hold the
    reference's stages named in the hypotheses. -/
theorem out_16 (V : (c : Dev nD) → (b : Ref sig .tc) → Buf (Elt Ideal) ((c : Thread nD τ).loc b)) (c : Dev nD)
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal))
    (h0 : V c (Pipeline.arrRef spec2 0) = Cert.ReferenceIdeal.Read.val_main_v60 (F := Ideal) x1 x6 x7 x8 x9 x32 x33)
    (h1 : V c (Pipeline.arrRef spec2 1) = Cert.ReferenceIdeal.Read.val_main_v67 (F := Ideal) x0 x2 x3 x4 x5 x31 x33)
    (h2 : V c (Pipeline.arrRef spec2 2) = Cert.ReferenceIdeal.Read.val_main_v40 (F := Ideal) x10 x11 x12 x13 x30)
    (h4 : V c (Pipeline.arrRef spec2 4) = extractStridedSlice S64x64 ![0, 0] (Cert.ReferenceIdeal.Read.val_main_v70 (F := Ideal) x18) slices_S192x64_S64x64_0_0)
    (h5 : V c (Pipeline.arrRef spec2 5) = extractStridedSlice S64x64 ![64, 0] (Cert.ReferenceIdeal.Read.val_main_v70 (F := Ideal) x18) slices_S192x64_S64x64_64_0)
    (h6 : V c (Pipeline.arrRef spec2 6) = extractStridedSlice S64x64 ![128, 0] (Cert.ReferenceIdeal.Read.val_main_v70 (F := Ideal) x18) slices_S192x64_S64x64_128_0)
    (h7 : V c (Pipeline.arrRef spec2 7) = Cert.ReferenceIdeal.Read.val_main_v72 (F := Ideal) x19)
    (h8 : V c (Pipeline.arrRef spec2 8) = Cert.ReferenceIdeal.Read.val_main_v74 (F := Ideal) x20)
    (h9 : V c (Pipeline.arrRef spec2 9) = Cert.ReferenceIdeal.Read.val_main_v76 (F := Ideal) x21) :
    (Cert.KernelIdeal.Gen.dat2 (F := Ideal) V c).arrAt 16 cfg2.N
      = Cert.ReferenceIdeal.Read.val_main_v85 (F := Ideal) x0 x1 x2 x3 x4 x5 x6 x7 x8 x9 x10 x11 x12 x13 x18 x19 x20 x21 x30 x31 x32 x33 :=
  (core_16 V c _ _ _ _ _ _ _ _ zero_call4_v0 h0 h1 h2 h4 h5 h6 h7 h8 h9).trans
    (ref_85 x0 x1 x2 x3 x4 x5 x6 x7 x8 x9 x10 x11 x12 x13 x18 x19 x20 x21 x30 x31 x32 x33).symm

/-- The array the reference's maximum is taken against holds the zero word everywhere. -/
theorem zero_call5_v0 (i : Cert.ReferenceIdeal.S300000x64.Idx) :
    Cert.ReferenceIdeal.Read.val_main_call5_v0 (F := Ideal) i = Ideal.ofBits .f32 0x00000000#32 := rfl

/-- The reference's stage %123 is the message function of the stages %98, %105, %49 joined, the matrix %108,
    the biases %110, %114 and the matrix %112: its definition, unfolded. -/
theorem ref_123
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v123 (F := Ideal) x0 x1 x2 x3 x4 x5 x6 x7 x8 x9 x14 x15 x16 x17 x22 x23 x24 x25 x30 x31 x32 x33
      = msgRef (Cert.ReferenceIdeal.Read.val_main_call5_v0 (F := Ideal)) (Cert.ReferenceIdeal.Read.val_main_v98 (F := Ideal) x0 x2 x3 x4 x5 x31 x33) (Cert.ReferenceIdeal.Read.val_main_v105 (F := Ideal) x1 x6 x7 x8 x9 x32 x33)
          (Cert.ReferenceIdeal.Read.val_main_v49 (F := Ideal) x14 x15 x16 x17 x30) (Cert.ReferenceIdeal.Read.val_main_v108 (F := Ideal) x22) (Cert.ReferenceIdeal.Read.val_main_v110 (F := Ideal) x23) (Cert.ReferenceIdeal.Read.val_main_v112 (F := Ideal) x24) (Cert.ReferenceIdeal.Read.val_main_v114 (F := Ideal) x25) := rfl

/-- The reference recomputes stage %67 as stage %98: the same operations on the same arguments. -/
theorem same_98_67
    (x0 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x31 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v98 (F := Ideal) x0 x2 x3 x4 x5 x31 x33 = Cert.ReferenceIdeal.Read.val_main_v67 (F := Ideal) x0 x2 x3 x4 x5 x31 x33 := rfl

/-- The reference recomputes stage %60 as stage %105: the same operations on the same arguments. -/
theorem same_105_60
    (x1 : (⟨Cert.ReferenceIdeal.S100000x64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v105 (F := Ideal) x1 x6 x7 x8 x9 x32 x33 = Cert.ReferenceIdeal.Read.val_main_v60 (F := Ideal) x1 x6 x7 x8 x9 x32 x33 := rfl

/-- Window 17's array after region 2 is the reference's stage %123, when the region's input windows hold the
    reference's stages named in the hypotheses. -/
theorem out_17 (V : (c : Dev nD) → (b : Ref sig .tc) → Buf (Elt Ideal) ((c : Thread nD τ).loc b)) (c : Dev nD)
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal))
    (h0 : V c (Pipeline.arrRef spec2 0) = Cert.ReferenceIdeal.Read.val_main_v60 (F := Ideal) x1 x6 x7 x8 x9 x32 x33)
    (h1 : V c (Pipeline.arrRef spec2 1) = Cert.ReferenceIdeal.Read.val_main_v67 (F := Ideal) x0 x2 x3 x4 x5 x31 x33)
    (h3 : V c (Pipeline.arrRef spec2 3) = Cert.ReferenceIdeal.Read.val_main_v49 (F := Ideal) x14 x15 x16 x17 x30)
    (h10 : V c (Pipeline.arrRef spec2 10) = extractStridedSlice S64x64 ![0, 0] (Cert.ReferenceIdeal.Read.val_main_v108 (F := Ideal) x22) slices_S192x64_S64x64_0_0)
    (h11 : V c (Pipeline.arrRef spec2 11) = extractStridedSlice S64x64 ![64, 0] (Cert.ReferenceIdeal.Read.val_main_v108 (F := Ideal) x22) slices_S192x64_S64x64_64_0)
    (h12 : V c (Pipeline.arrRef spec2 12) = extractStridedSlice S64x64 ![128, 0] (Cert.ReferenceIdeal.Read.val_main_v108 (F := Ideal) x22) slices_S192x64_S64x64_128_0)
    (h13 : V c (Pipeline.arrRef spec2 13) = Cert.ReferenceIdeal.Read.val_main_v110 (F := Ideal) x23)
    (h14 : V c (Pipeline.arrRef spec2 14) = Cert.ReferenceIdeal.Read.val_main_v112 (F := Ideal) x24)
    (h15 : V c (Pipeline.arrRef spec2 15) = Cert.ReferenceIdeal.Read.val_main_v114 (F := Ideal) x25) :
    (Cert.KernelIdeal.Gen.dat2 (F := Ideal) V c).arrAt 17 cfg2.N
      = Cert.ReferenceIdeal.Read.val_main_v123 (F := Ideal) x0 x1 x2 x3 x4 x5 x6 x7 x8 x9 x14 x15 x16 x17 x22 x23 x24 x25 x30 x31 x32 x33 :=
  (core_17 V c _ _ _ _ _ _ _ _ zero_call5_v0 (h1.trans (same_98_67 x0 x2 x3 x4 x5 x31 x33).symm) (h0.trans (same_105_60 x1 x6 x7 x8 x9 x32 x33).symm) h3 h10 h11 h12 h13 h14 h15).trans
    (ref_123 x0 x1 x2 x3 x4 x5 x6 x7 x8 x9 x14 x15 x16 x17 x22 x23 x24 x25 x30 x31 x32 x33).symm

end Wrap

end Cert.Bridge.R2

end
-- ==== Proof.Region3.lean ====
/-
  Region 3 of the kernel (the first residual update of both node sets), read as whole arrays.

  Each of its two outputs is pointwise in two inputs of the same shape: at every index the kernel leaves
  `max (h · s + a, 0)`, where `h` is the node feature, `a` the aggregated messages and `s` the named scale
  `17616077 / 8388608`. The reference computes `max (h + (d · h + a), 0)` with `d = 9227469 / 8388608`, the exact
  value of the word `0x3F8CCCCD`. Since `1 + d = s` and `d > 0`, the two agree on every extended real `h` and `a`:
  for real `h` by distributivity in ℝ, for `h = ⊤` both sides are `⊤ + a`, for `h = ⊥` both are `⊥`
  (`self_add_mul`, `scale_law`). No finiteness of `h` or `a` is used.

  The grid has 20 points; point `t` reads rows `5000 t … 5000 t + 4999` of every input and writes the same rows of
  both outputs, so the blocks of each output tile its array and the array ends holding the pointwise function.
-/
import proofs.«109817_j10033043603480_2_alg».proof.Proof.Gen.KernelIdeal.Frame
import proofs.«109817_j10033043603480_2_alg».proof.Proof.RefRead
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.Bridge.R3

open Idealize.ShloMosaic Idealize.ShloMosaic.TcCoe Idealize.SL.Sem
open Idealize.ShloMosaic.Pipeline (Dat)
open Cert.KernelIdeal Cert.KernelIdeal.Gen

/-! ## The constants and the law on the extended reals -/

/-- The scale the kernel multiplies by. -/
abbrev sc : EReal := Named.named (F := Ideal) Cert.KernelIdeal.κ "scale_layer0" (φ := .f32) 0x40066666#32
/-- The zero word of the rectifier, the same word on both sides: never evaluated. -/
abbrev zw : EReal := Ideal.ofBits .f32 0x00000000#32
/-- The factor the reference multiplies by. -/
abbrev cw : EReal := Ideal.ofBits .f32 0x3F8CCCCD#32

/-- The named scale is the rational its table entry gives. -/
theorem sc_eq : sc = ((17616077 / 8388608 : ℝ) : EReal) :=
  IdealRules.named_const.ideal_named_scalar _ _ _ _ rfl

/-- The word `0x3F8CCCCD` denotes `9227469 / 8388608`. -/
theorem cw_eq : cw = ((9227469 / 8388608 : ℝ) : EReal) := by
  simp [Ideal.ofBits, Ideal.ieee, -EReal.coe_mul]; norm_num

/-- `h + d · h = h · (1 + d)` on every extended real `h`, for a positive real `d`. -/
theorem self_add_mul (D : ℝ) (hD : 0 < D) (h : EReal) : h + (D : EReal) * h = h * ((1 + D : ℝ) : EReal) := by
  have h1 : (0 : ℝ) < 1 + D := by linarith
  induction h using EReal.rec with
  | bot => rw [EReal.bot_add, EReal.bot_mul_coe_of_pos h1]
  | coe x => rw [← EReal.coe_mul, ← EReal.coe_add, ← EReal.coe_mul]; congr 1; ring
  | top => rw [EReal.coe_mul_top_of_pos hD, EReal.top_add_top, EReal.top_mul_coe_of_pos h1]

/-- `h + (d · h + a) = h · (1 + d) + a` on all extended reals `h`, `a`, for a positive real `d`: addition is
    associative on the extended reals, and the rest is `self_add_mul`. -/
theorem scale_law (D : ℝ) (hD : 0 < D) (h agg : EReal) :
    h + ((D : EReal) * h + agg) = h * ((1 + D : ℝ) : EReal) + agg := by
  rw [← add_assoc, self_add_mul D hD]

/-- The reference's element is the kernel's. -/
theorem relu_law (a b : EReal) : max (a + (cw * a + b)) zw = max (a * sc + b) zw := by
  rw [cw_eq, sc_eq, scale_law _ (by norm_num)]
  norm_num

/-- What both sides compute, as one function of the two whole input arrays. -/
def G (A B : S100000x64.Idx → EReal) : S100000x64.Idx → EReal := fun i => max (A i * sc + B i) zw

/-! ## The body's two payloads at an index -/

theorem hz : (![0, 0] : Fin 2 → Nat) = fun _ => 0 := funext fun a => by fin_cases a <;> rfl

theorem pay1_apply (v0 v4 : Vec Ideal S5000x64 .f32) (y : S5000x64.Idx) :
    k3_pay1 (F := Ideal) v0 v4 y = max (v0 y * sc + v4 y) zw := by
  unfold k3_pay1
  rw [shapeCast_self, shapeCast_self]
  rfl

theorem pay2_apply (v7 v11 : Vec Ideal S5000x64 .f32) (y : S5000x64.Idx) :
    k3_pay2 (F := Ideal) v7 v11 y = max (v7 y * sc + v11 y) zw := by
  unfold k3_pay2
  rw [shapeCast_self, shapeCast_self]
  rfl

/-! ## Where a block sits in its array -/

/-- Every window's block at point `t` is block `(t, 0)`: decided once over the 20 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- An element of input block 0 sits in its array where the same element of output block 4 sits in its. -/
theorem emb04 (t : Fin cfg3.N) (j : S5000x64.Idx) :
    ((cfg3.win 0).blk t).view.emb j = ((cfg3.win 4).blk t).view.emb j := by
  obtain ⟨e0, e1, e2, e3, e4, e5, e6, e7, e8, e9, e10, e11⟩ := idx_facts t
  funext a; apply Fin.ext
  match a with
  | ⟨0, _⟩ => show win3_0.index t (0 : Fin 2) * 5000 + 1 * (j 0).val = win3_4.index t (0 : Fin 2) * 5000 + 1 * (j 0).val; rw [e0, e8]
  | ⟨1, _⟩ => show win3_0.index t (1 : Fin 2) * 64 + 1 * (j 1).val = win3_4.index t (1 : Fin 2) * 64 + 1 * (j 1).val; rw [e1, e9]

theorem emb14 (t : Fin cfg3.N) (j : S5000x64.Idx) :
    ((cfg3.win 1).blk t).view.emb j = ((cfg3.win 4).blk t).view.emb j := by
  obtain ⟨e0, e1, e2, e3, e4, e5, e6, e7, e8, e9, e10, e11⟩ := idx_facts t
  funext a; apply Fin.ext
  match a with
  | ⟨0, _⟩ => show win3_1.index t (0 : Fin 2) * 5000 + 1 * (j 0).val = win3_4.index t (0 : Fin 2) * 5000 + 1 * (j 0).val; rw [e2, e8]
  | ⟨1, _⟩ => show win3_1.index t (1 : Fin 2) * 64 + 1 * (j 1).val = win3_4.index t (1 : Fin 2) * 64 + 1 * (j 1).val; rw [e3, e9]

theorem emb25 (t : Fin cfg3.N) (j : S5000x64.Idx) :
    ((cfg3.win 2).blk t).view.emb j = ((cfg3.win 5).blk t).view.emb j := by
  obtain ⟨e0, e1, e2, e3, e4, e5, e6, e7, e8, e9, e10, e11⟩ := idx_facts t
  funext a; apply Fin.ext
  match a with
  | ⟨0, _⟩ => show win3_2.index t (0 : Fin 2) * 5000 + 1 * (j 0).val = win3_5.index t (0 : Fin 2) * 5000 + 1 * (j 0).val; rw [e4, e10]
  | ⟨1, _⟩ => show win3_2.index t (1 : Fin 2) * 64 + 1 * (j 1).val = win3_5.index t (1 : Fin 2) * 64 + 1 * (j 1).val; rw [e5, e11]

theorem emb35 (t : Fin cfg3.N) (j : S5000x64.Idx) :
    ((cfg3.win 3).blk t).view.emb j = ((cfg3.win 5).blk t).view.emb j := by
  obtain ⟨e0, e1, e2, e3, e4, e5, e6, e7, e8, e9, e10, e11⟩ := idx_facts t
  funext a; apply Fin.ext
  match a with
  | ⟨0, _⟩ => show win3_3.index t (0 : Fin 2) * 5000 + 1 * (j 0).val = win3_5.index t (0 : Fin 2) * 5000 + 1 * (j 0).val; rw [e6, e10]
  | ⟨1, _⟩ => show win3_3.index t (1 : Fin 2) * 64 + 1 * (j 1).val = win3_5.index t (1 : Fin 2) * 64 + 1 * (j 1).val; rw [e7, e11]

/-- An index of output array 4 is in point `t`'s block iff each coordinate is in the block's range. -/
theorem mem_blk4 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v39_0).slice (win3_4.rect t)).set ↔ _
  rw [View.set_slice_whole, Rect.mem_set_unit]
  exact Iff.rfl

theorem mem_blk5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v39_1).slice (win3_5.rect t)).set ↔ _
  rw [View.set_slice_whole, Rect.mem_set_unit]
  exact Iff.rfl

/-- Row `r` of output array 4 is written by point `r / 5000`. -/
theorem cover4 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  obtain ⟨e0, e1, e2, e3, e4, e5, e6, e7, e8, e9, e10, e11⟩ := idx_facts ⟨(i 0).val / 5000, ht⟩
  refine ⟨⟨(i 0).val / 5000, ht⟩, flush3_4 _, ?_⟩
  rw [mem_blk4]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val ∧ (i 1).val < win3_4.index ⟨(i 0).val / 5000, ht⟩ (1 : Fin 2) * 64 + 64
    rw [e9]; omega

theorem cover5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  obtain ⟨e0, e1, e2, e3, e4, e5, e6, e7, e8, e9, e10, e11⟩ := idx_facts ⟨(i 0).val / 5000, ht⟩
  refine ⟨⟨(i 0).val / 5000, ht⟩, flush3_5 _, ?_⟩
  rw [mem_blk5]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e11]; omega

/-! ## What each point writes back, and the arrays after the region -/

section Arrays

variable (V : (c : Dev nD) → (b : Ref sig .tc) → Buf (Elt Ideal) ((c : Thread nD τ).loc b)) (c : Dev nD)

/-- Point `t` writes back block `t` of `G` of the two input arrays of output 4. -/
theorem flushed4_eq (A B : S100000x64.Idx → EReal)
    (hA : V c (Pipeline.arrRef spec3 0) = A) (hB : V c (Pipeline.arrRef spec3 1) = B) (t : Fin cfg3.N) :
    (dat3 (F := Ideal) V c).flushed 4 t = ((cfg3.win 4).blk t).view.read (Elt Ideal) (G A B) := by
  subst hA hB
  show (cfg3.win 4).cut (grid3.coords t) ((dat3 (F := Ideal) V c).after 4 t) = _
  rw [after3_4]
  unfold out3_4
  rw [View.canon_unit_zero hz]
  simp only [View.ld_unit_zero (S := S5000x64) hz]
  funext j
  show k3_pay1 (F := Ideal) (iblk3 V c 0 t) (iblk3 V c 1 t) j = G _ _ (((cfg3.win 4).blk t).view.emb j)
  rw [pay1_apply (iblk3 V c 0 t) (iblk3 V c 1 t) j]
  show FloatOps.maximumf (F := Ideal) (φ := .f32) (FloatOps.addf (F := Ideal) (φ := .f32)
      (FloatOps.mulf (F := Ideal) (φ := .f32) (V c (Pipeline.arrRef spec3 0) (((cfg3.win 0).blk t).view.emb j)) sc)
      (V c (Pipeline.arrRef spec3 1) (((cfg3.win 1).blk t).view.emb j))) zw = _
  rw [emb04, emb14]
  rfl

theorem flushed5_eq (A B : S100000x64.Idx → EReal)
    (hA : V c (Pipeline.arrRef spec3 2) = A) (hB : V c (Pipeline.arrRef spec3 3) = B) (t : Fin cfg3.N) :
    (dat3 (F := Ideal) V c).flushed 5 t = ((cfg3.win 5).blk t).view.read (Elt Ideal) (G A B) := by
  subst hA hB
  show (cfg3.win 5).cut (grid3.coords t) ((dat3 (F := Ideal) V c).after 5 t) = _
  rw [after3_5]
  unfold out3_5
  rw [View.canon_unit_zero hz]
  simp only [View.ld_unit_zero (S := S5000x64) hz]
  funext j
  show k3_pay2 (F := Ideal) (iblk3 V c 2 t) (iblk3 V c 3 t) j = G _ _ (((cfg3.win 5).blk t).view.emb j)
  rw [pay2_apply (iblk3 V c 2 t) (iblk3 V c 3 t) j]
  show FloatOps.maximumf (F := Ideal) (φ := .f32) (FloatOps.addf (F := Ideal) (φ := .f32)
      (FloatOps.mulf (F := Ideal) (φ := .f32) (V c (Pipeline.arrRef spec3 2) (((cfg3.win 2).blk t).view.emb j)) sc)
      (V c (Pipeline.arrRef spec3 3) (((cfg3.win 3).blk t).view.emb j))) zw = _
  rw [emb25, emb35]
  rfl

/-- Output array 4 after the region is `G` of its two input arrays. -/
theorem arr4 (A B : S100000x64.Idx → EReal)
    (hA : V c (Pipeline.arrRef spec3 0) = A) (hB : V c (Pipeline.arrRef spec3 1) = B) :
    (dat3 (F := Ideal) V c).arrAt 4 cfg3.N = G A B :=
  (dat3 (F := Ideal) V c).arrAt_eq_of_cover 4 (G A B) (fun t _ => flushed4_eq V c A B hA hB t) cover4

theorem arr5 (A B : S100000x64.Idx → EReal)
    (hA : V c (Pipeline.arrRef spec3 2) = A) (hB : V c (Pipeline.arrRef spec3 3) = B) :
    (dat3 (F := Ideal) V c).arrAt 5 cfg3.N = G A B :=
  (dat3 (F := Ideal) V c).arrAt_eq_of_cover 5 (G A B) (fun t _ => flushed5_eq V c A B hA hB t) cover5

end Arrays

/-! ## The reference's two stages are `G` of the same arrays -/

theorem ref131 (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) :
    Cert.ReferenceIdeal.Read.val_main_v131 (F := Ideal) x0 x1 x2 x3 x4 x5 x6 x7 x8 x9 x14 x15 x16 x17 x22 x23 x24 x25 x30 x31 x32 x33 = G (Cert.ReferenceIdeal.Read.val_main_v15 (F := Ideal) x0 x2 x3 x4 x5 x31) (Cert.ReferenceIdeal.Read.val_main_v128 (F := Ideal) x0 x1 x2 x3 x4 x5 x6 x7 x8 x9 x14 x15 x16 x17 x22 x23 x24 x25 x30 x31 x32 x33) := by
  funext i
  rw [Cert.ReferenceIdeal.Read.val_main_v131_apply, Cert.ReferenceIdeal.Read.val_main_v130_apply,
    Cert.ReferenceIdeal.Read.val_main_v129_apply, Cert.ReferenceIdeal.Read.val_main_v125_apply,
    Cert.ReferenceIdeal.Read.val_main_v124_apply, Cert.ReferenceIdeal.Read.val_main_cst_12_apply,
    Cert.ReferenceIdeal.Read.val_main_call6_v0_apply, Cert.ReferenceIdeal.Read.val_main_call6_cst_apply]
  exact relu_law _ _

theorem ref133 (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) :
    Cert.ReferenceIdeal.Read.val_main_v133 (F := Ideal) x0 x1 x2 x3 x4 x5 x6 x7 x8 x9 x10 x11 x12 x13 x18 x19 x20 x21 x30 x31 x32 x33 = G (Cert.ReferenceIdeal.Read.val_main_v31 (F := Ideal) x1 x6 x7 x8 x9 x32) (Cert.ReferenceIdeal.Read.val_main_v90 (F := Ideal) x0 x1 x2 x3 x4 x5 x6 x7 x8 x9 x10 x11 x12 x13 x18 x19 x20 x21 x30 x31 x32 x33) := by
  funext i
  rw [Cert.ReferenceIdeal.Read.val_main_v133_apply, Cert.ReferenceIdeal.Read.val_main_v132_apply,
    Cert.ReferenceIdeal.Read.val_main_v91_apply, Cert.ReferenceIdeal.Read.val_main_v87_apply,
    Cert.ReferenceIdeal.Read.val_main_v86_apply, Cert.ReferenceIdeal.Read.val_main_cst_apply,
    Cert.ReferenceIdeal.Read.val_main_call7_v0_apply, Cert.ReferenceIdeal.Read.val_main_call7_cst_apply]
  exact relu_law _ _

/-! ## The two outputs against the reference -/

theorem out_4 (V : (c : Dev nD) → (b : Ref sig .tc) → Buf (Elt Ideal) ((c : Thread nD τ).loc b)) (c : Dev nD)
    (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal))
    (h0 : V c (Pipeline.arrRef spec3 0) = Cert.ReferenceIdeal.Read.val_main_v15 (F := Ideal) x0 x2 x3 x4 x5 x31)
    (h1 : V c (Pipeline.arrRef spec3 1) = Cert.ReferenceIdeal.Read.val_main_v128 (F := Ideal) x0 x1 x2 x3 x4 x5 x6 x7 x8 x9 x14 x15 x16 x17 x22 x23 x24 x25 x30 x31 x32 x33) :
    (Cert.KernelIdeal.Gen.dat3 (F := Ideal) V c).arrAt 4 cfg3.N = Cert.ReferenceIdeal.Read.val_main_v131 (F := Ideal) x0 x1 x2 x3 x4 x5 x6 x7 x8 x9 x14 x15 x16 x17 x22 x23 x24 x25 x30 x31 x32 x33 :=
  (arr4 V c _ _ h0 h1).trans (ref131 x0 x1 x2 x3 x4 x5 x6 x7 x8 x9 x14 x15 x16 x17 x22 x23 x24 x25 x30 x31 x32 x33).symm

theorem out_5 (V : (c : Dev nD) → (b : Ref sig .tc) → Buf (Elt Ideal) ((c : Thread nD τ).loc b)) (c : Dev nD)
    (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal))
    (h2 : V c (Pipeline.arrRef spec3 2) = Cert.ReferenceIdeal.Read.val_main_v31 (F := Ideal) x1 x6 x7 x8 x9 x32)
    (h3 : V c (Pipeline.arrRef spec3 3) = Cert.ReferenceIdeal.Read.val_main_v90 (F := Ideal) x0 x1 x2 x3 x4 x5 x6 x7 x8 x9 x10 x11 x12 x13 x18 x19 x20 x21 x30 x31 x32 x33) :
    (Cert.KernelIdeal.Gen.dat3 (F := Ideal) V c).arrAt 5 cfg3.N = Cert.ReferenceIdeal.Read.val_main_v133 (F := Ideal) x0 x1 x2 x3 x4 x5 x6 x7 x8 x9 x10 x11 x12 x13 x18 x19 x20 x21 x30 x31 x32 x33 :=
  (arr5 V c _ _ h2 h3).trans (ref133 x0 x1 x2 x3 x4 x5 x6 x7 x8 x9 x10 x11 x12 x13 x18 x19 x20 x21 x30 x31 x32 x33).symm

end Cert.Bridge.R3

end
-- ==== Proof.Region4.lean ====
/-
  Region 4 of the kernel — the fused message body of a two-layer bipartite graph network — against the reference.

  Each of the region's two outputs is, row by row, relu(a·Wa + b·Wb + e·We + β₁)·W₂ + β₂: three row blocks a, b, e of
  6000 × 64 are multiplied by the three 64 × 64 row slices Wa, Wb, We of one 192 × 64 matrix, the products are added, a bias
  is added, the maximum with the zero word is taken, and the result is multiplied by a second 64 × 64 matrix and a second
  bias is added. The reference computes relu([a | b | e]·W + β₁)·W₂ + β₂ on whole 300000-row arrays, with the three
  operands joined along the columns and W the whole 192 × 64 matrix.

  The two agree entry by entry: the sum over the 192 joined columns splits into its three runs of 64
  (`sum_three_runs`); in the run starting at column 64·s the joined array's entry is the s-th operand's and the matrix's
  entry is the s-th slice's. `msgRef` is the reference's term over abstract operand arrays and `msgRef_apply` reads it at an
  index; `pay5_apply` and `pay1_apply` read the kernel's two bodies at an index; `point_16` / `point_17` put the two side by
  side. A block of a row-blocked window at grid point t is rows 6000·t … 6000·t + 5999 of its array and a weight or
  bias window's block is its whole array (`iblk_rows_*`, `iblk_whole_*`), so what point t writes back is block t of
  `msgRef` (`flushed_*`); the 50 blocks cover the 300000 rows (`cover_*`), so the output array is `msgRef` of the arrays
  the input windows hold (`core_*`). Last, the reference's stages %165 and %203 are `msgRef` of their operand stages by
  unfolding their definitions, and the second output's two gathered operands are the first's, recomputed (`out_16`, `out_17`).
-/
import proofs.«109817_j10033043603480_2_alg».proof.Proof.Gen.KernelIdeal.Frame
import proofs.«109817_j10033043603480_2_alg».proof.Proof.RefRead
import proofs.«109817_j10033043603480_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.Bridge.R4

/-- A sum over 192 indices is the sum of its three consecutive runs of 64. -/
theorem sum_three_runs (f : Fin 192 → EReal) :
    ∑ k : Fin 192, f k = (∑ k : Fin 64, f ⟨k.val, by omega⟩) + (∑ k : Fin 64, f ⟨64 + k.val, by omega⟩)
      + (∑ k : Fin 64, f ⟨128 + k.val, by omega⟩) := by
  have h := Fin.sum_univ_add (M := EReal) (a := 64 + 64) (b := 64) f
  have h2 := Fin.sum_univ_add (M := EReal) (a := 64) (b := 64) (fun i => f (Fin.castAdd 64 i))
  exact h.trans (congrArg₂ (· + ·) h2 rfl)

section Reference
open Cert.ReferenceIdeal Cert.ReferenceIdeal.Facts₀ Cert.ReferenceIdeal.Facts

/-- The reference's message function of its operands: the three operand arrays joined along the columns, times the
    192 × 64 matrix, plus the first bias, the maximum with the array Z, times the 64 × 64 matrix, plus the second bias. -/
def msgRef (Z A B E : FVec Ideal S300000x64 .f32) (W : FVec Ideal S192x64 .f32) (b1 : FVec Ideal S64 .f32)
    (W2 : FVec Ideal S64x64 .f32) (b2 : FVec Ideal S64 .f32) : FVec Ideal S300000x64 .f32 :=
  addf (Host.dotGeneral dot_S300000x64_S64x64_S300000x64_1_0_0_1_n_n none
      (maximumf (addf (Host.dotGeneral dot_S300000x192_S192x64_S300000x64_1_0_0_1_n_n none
          (concatenate S300000x192 1 [⟨S300000x64, A⟩, ⟨S300000x64, B⟩, ⟨S300000x64, E⟩]
            concatenates_S300000x64_S300000x64_S300000x64_S300000x192_d1) W)
        (broadcastInDim S300000x64 ![0, 1] bcast_S1x64_S300000x64_0_1 (broadcastInDim S1x64 ![1] bcast_S64_S1x64_1 b1))) Z) W2)
    (broadcastInDim S300000x64 ![0, 1] bcast_S1x64_S300000x64_0_1 (broadcastInDim S1x64 ![1] bcast_S64_S1x64_1 b2))

/-- The three joined arrays read at row i: columns 0–63 are the first array's. -/
theorem joined_left (A B E : FVec Ideal S300000x64 .f32) (i : Fin 300000) (k : Fin 64) (hk : k.val < 192) :
    concatenate S300000x192 1 [⟨S300000x64, A⟩, ⟨S300000x64, B⟩, ⟨S300000x64, E⟩]
        concatenates_S300000x64_S300000x64_S300000x64_S300000x192_d1 (ix2 i (⟨k.val, hk⟩ : Fin 192)) = A (ix2 i k) := by
  refine concatenate_apply_piece (t := S300000x192) (1 : Fin 2) [⟨S300000x64, A⟩, ⟨S300000x64, B⟩, ⟨S300000x64, E⟩] _ _ 0
    (by show 0 < 3; omega) S300000x64 A rfl rfl 0 rfl (ix2 i k) (fun b hb => ?_) ?_
  · match b with
    | ⟨0, _⟩ => rfl
    | ⟨1, _⟩ => exact absurd rfl hb
  · show 0 + k.val = k.val
    omega

/-- Columns 64–127 are the second array's. -/
theorem joined_mid (A B E : FVec Ideal S300000x64 .f32) (i : Fin 300000) (k : Fin 64) (hk : 64 + k.val < 192) :
    concatenate S300000x192 1 [⟨S300000x64, A⟩, ⟨S300000x64, B⟩, ⟨S300000x64, E⟩]
        concatenates_S300000x64_S300000x64_S300000x64_S300000x192_d1 (ix2 i (⟨64 + k.val, hk⟩ : Fin 192)) = B (ix2 i k) := by
  refine concatenate_apply_piece (t := S300000x192) (1 : Fin 2) [⟨S300000x64, A⟩, ⟨S300000x64, B⟩, ⟨S300000x64, E⟩] _ _ 1
    (by show 1 < 3; omega) S300000x64 B rfl rfl 64 rfl (ix2 i k) (fun b hb => ?_) ?_
  · match b with
    | ⟨0, _⟩ => rfl
    | ⟨1, _⟩ => exact absurd rfl hb
  · rfl

/-- Columns 128–191 are the third array's. -/
theorem joined_right (A B E : FVec Ideal S300000x64 .f32) (i : Fin 300000) (k : Fin 64) (hk : 128 + k.val < 192) :
    concatenate S300000x192 1 [⟨S300000x64, A⟩, ⟨S300000x64, B⟩, ⟨S300000x64, E⟩]
        concatenates_S300000x64_S300000x64_S300000x64_S300000x192_d1 (ix2 i (⟨128 + k.val, hk⟩ : Fin 192)) = E (ix2 i k) := by
  refine concatenate_apply_piece (t := S300000x192) (1 : Fin 2) [⟨S300000x64, A⟩, ⟨S300000x64, B⟩, ⟨S300000x64, E⟩] _ _ 2
    (by show 2 < 3; omega) S300000x64 E rfl rfl 128 rfl (ix2 i k) (fun b hb => ?_) ?_
  · match b with
    | ⟨0, _⟩ => rfl
    | ⟨1, _⟩ => exact absurd rfl hb
  · rfl

/-- A bias vector laid as one row and repeated over the array's rows reads, at (i, j), its entry j. -/
theorem ref_bias_apply (v : FVec Ideal S64 .f32) (i : Fin 300000) (j : Fin 64) :
    broadcastInDim S300000x64 ![0, 1] bcast_S1x64_S300000x64_0_1 (broadcastInDim S1x64 ![1] bcast_S64_S1x64_1 v) (ix2 i j)
      = v (ix1 j) :=
  (broadcastInDim_apply _ bcast_S1x64_S300000x64_0_1 _ (ix2 i j) (ix2 (0 : Fin 1) j) (fun a => match a with
    | ⟨0, _⟩ => by show 0 = if (1 : Nat) = 1 then 0 else _; rw [if_pos rfl]
    | ⟨1, _⟩ => by show j.val = if (64 : Nat) = 1 then 0 else j.val; rw [if_neg (by decide)])).trans
  (broadcastInDim_apply _ bcast_S64_S1x64_1 v (ix2 (0 : Fin 1) j) (ix1 j) (fun a => match a with
    | ⟨0, _⟩ => by show j.val = if (64 : Nat) = 1 then 0 else j.val; rw [if_neg (by decide)]))

/-- The reference's first product read at (i, j): the sum over the 192 joined columns. -/
theorem ref_dot192_apply (l : FVec Ideal S300000x192 .f32) (w : FVec Ideal S192x64 .f32) (i : Fin 300000) (j : Fin 64) :
    Host.dotGeneral dot_S300000x192_S192x64_S300000x64_1_0_0_1_n_n none l w (ix2 i j) = ∑ k : Fin 192, l (ix2 i k) * w (ix2 k j) :=
  Cert.Lib.PlainDot.dotGeneral_apply 300000 192 64 none _ l w i j

/-- The reference's second product read at (i, q). -/
theorem ref_dot64_apply (l : FVec Ideal S300000x64 .f32) (w : FVec Ideal S64x64 .f32) (i : Fin 300000) (q : Fin 64) :
    Host.dotGeneral dot_S300000x64_S64x64_S300000x64_1_0_0_1_n_n none l w (ix2 i q) = ∑ k : Fin 64, l (ix2 i k) * w (ix2 k q) :=
  Cert.Lib.PlainDot.dotGeneral_apply 300000 64 64 none _ l w i q

/-- The reference's message function read at row i and column q, the sum over the 192 joined columns split into the
    three operands' runs of 64. -/
theorem msgRef_apply (Z A B E : FVec Ideal S300000x64 .f32) (W : FVec Ideal S192x64 .f32) (b1 : FVec Ideal S64 .f32)
    (W2 : FVec Ideal S64x64 .f32) (b2 : FVec Ideal S64 .f32) (i : Fin 300000) (q : Fin 64) :
    msgRef Z A B E W b1 W2 b2 (ix2 i q)
      = (∑ j : Fin 64, max ((∑ k : Fin 64, A (ix2 i k) * W (ix2 (⟨k.val, by omega⟩ : Fin 192) j))
            + (∑ k : Fin 64, B (ix2 i k) * W (ix2 (⟨64 + k.val, by omega⟩ : Fin 192) j))
            + (∑ k : Fin 64, E (ix2 i k) * W (ix2 (⟨128 + k.val, by omega⟩ : Fin 192) j)) + b1 (ix1 j)) (Z (ix2 i j))
          * W2 (ix2 j q))
        + b2 (ix1 q) := by
  unfold msgRef
  rw [addf_apply, ref_dot64_apply, ref_bias_apply]
  simp only [maximumf_apply, addf_apply, ref_dot192_apply, ref_bias_apply]
  congr 1
  refine Finset.sum_congr rfl fun j _ => ?_
  rw [sum_three_runs, ref_bias_apply]
  simp only [joined_left, joined_mid, joined_right]

end Reference

section Kernel
open Cert.KernelIdeal Cert.KernelIdeal.Gen

/-- The offsets of a whole rank-2 block are zero on both axes. -/
theorem hz2 : (![0, 0] : Fin 2 → Nat) = fun _ => 0 := funext fun a => by fin_cases a <;> rfl
/-- The offset of a whole rank-1 block is zero. -/
theorem hz1 : (![0] : Fin 1 → Nat) = fun _ => 0 := funext fun a => by fin_cases a <;> rfl

/-- The printed index maps, decided over the 50 grid points: a row-blocked window's block index is the point's number on
    the rows and 0 on the columns; a weight or bias window's is 0 everywhere. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 1) = 0
    ∧ win4_8.index t (0 : Fin 2) = 0 ∧ win4_8.index t (1 : Fin 2) = 0
    ∧ win4_9.index t (0 : Fin 1) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 1) = 0
    ∧ win4_14.index t (0 : Fin 2) = 0 ∧ win4_14.index t (1 : Fin 2) = 0
    ∧ win4_15.index t (0 : Fin 1) = 0
    ∧ win4_16.index t (0 : Fin 2) = t.val ∧ win4_16.index t (1 : Fin 2) = 0
    ∧ win4_17.index t (0 : Fin 2) = t.val ∧ win4_17.index t (1 : Fin 2) = 0 :=
  (by decide +kernel : ∀ t : Fin grid4.N, _)

/-- A block's product with a 64 × 64 matrix into the zero accumulator, read at row r and column q. -/
theorem block_matmul_apply (l : FVec Ideal S6000x64 .f32) (w : FVec Ideal S64x64 .f32) (r : Fin 6000) (q : Fin 64) :
    matmul dot_S6000x64_S64x64_S6000x64_1_0_0_1_n_n none l w (constant S6000x64 .f32 0x00000000#32) (ix2 r q)
      = ∑ k : Fin 64, l (ix2 r k) * w (ix2 k q) :=
  Cert.Lib.PlainDot.matmul_zero_apply 6000 64 64 none l w r q

/-- A bias vector laid as one row and repeated over the block's rows reads, at (r, j), its entry j. -/
theorem block_bias_apply (v : FVec Ideal S64 .f32) (r : Fin 6000) (j : Fin 64) :
    broadcastTo S6000x64 (shapeCast S1x64 v shapeCasts_S64_S1x64) broadcasts_S1x64_S6000x64 (ix2 r j) = v (ix1 j) :=
  (broadcastTo_1b_ab_apply _ broadcasts_S1x64_S6000x64 r j).trans (shapeCast_a_1a_apply v shapeCasts_S64_S1x64 0 j)

/-- The message body of one block, read at row r and column q: three products summed, a bias, the maximum with the
    zero word, a fourth product and a second bias. -/
theorem pay5_apply (a0 a1 a2 : Vec Ideal S6000x64 .f32) (w0 w1 w2 : Vec Ideal S64x64 .f32) (b1 : Vec Ideal S64 .f32)
    (w3 : Vec Ideal S64x64 .f32) (b2 : Vec Ideal S64 .f32) (r : Fin 6000) (q : Fin 64) :
    k4_pay5 (F := Ideal) a0 a1 a2 w0 w1 w2 b1 w3 b2 (ix2 r q)
      = (∑ j : Fin 64, max ((∑ k : Fin 64, a0 (ix2 r k) * w0 (ix2 k j)) + (∑ k : Fin 64, a1 (ix2 r k) * w1 (ix2 k j))
            + (∑ k : Fin 64, a2 (ix2 r k) * w2 (ix2 k j)) + b1 (ix1 j)) (Ideal.ofBits .f32 0x00000000#32) * w3 (ix2 j q))
          + b2 (ix1 q) := by
  unfold k4_pay5 k4_pay2 k4_pay3
  simp only [shapeCast_self]
  rw [addf_apply, block_matmul_apply, block_bias_apply]
  simp only [maximumf_apply, addf_apply, block_matmul_apply, block_bias_apply, broadcast_apply]
  rfl

/-- The second message body of one block, read at row r and column q (its operand blocks pass through shape casts to
    their own shape, which are the identity). -/
theorem pay1_apply (aA aB aE : Vec Ideal S6000x64 .f32) (w0 w1 w2 : Vec Ideal S64x64 .f32) (c1 : Vec Ideal S64 .f32)
    (w3 : Vec Ideal S64x64 .f32) (c2 : Vec Ideal S64 .f32) (r : Fin 6000) (q : Fin 64) :
    k4_pay1 (F := Ideal) (k4_pay2 aB) (k4_pay3 aA) (k4_pay4 aE) w0 w1 w2 c1 w3 c2 (ix2 r q)
      = (∑ j : Fin 64, max ((∑ k : Fin 64, aA (ix2 r k) * w0 (ix2 k j)) + (∑ k : Fin 64, aB (ix2 r k) * w1 (ix2 k j))
            + (∑ k : Fin 64, aE (ix2 r k) * w2 (ix2 k j)) + c1 (ix1 j)) (Ideal.ofBits .f32 0x00000000#32) * w3 (ix2 j q))
          + c2 (ix1 q) := by
  unfold k4_pay1 k4_pay2 k4_pay3 k4_pay4
  simp only [shapeCast_self]
  rw [addf_apply, block_matmul_apply, block_bias_apply]
  simp only [maximumf_apply, addf_apply, block_matmul_apply, block_bias_apply, broadcast_apply]
  rfl

/-- Window 0's block at point t is rows 6000·t … 6000·t + 5999 of its array. -/
theorem iblk_rows_0 (V : (c : Dev nD) → (b : Ref sig .tc) → Buf (Elt Ideal) ((c : Thread nD τ).loc b)) (c : Dev nD) (t : Fin cfg4.N)
    (X : FVec Ideal S300000x64 .f32) (hX : V c (Pipeline.arrRef spec4 0) = X) (r : Fin 6000) (k : Fin 64)
    (hb : t.val * 6000 + r.val < 300000) :
    (iblk4 (F := Ideal) V c 0 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 6000 + 1 * r.val = t.val * 6000 + r.val; rw [e0a]; omega
  | ⟨1, _⟩ => show win4_0.index t (1 : Fin 2) * 64 + 1 * k.val = k.val; rw [e0b]; omega

/-- Window 1's block at point t is rows 6000·t … 6000·t + 5999 of its array. -/
theorem iblk_rows_1 (V : (c : Dev nD) → (b : Ref sig .tc) → Buf (Elt Ideal) ((c : Thread nD τ).loc b)) (c : Dev nD) (t : Fin cfg4.N)
    (X : FVec Ideal S300000x64 .f32) (hX : V c (Pipeline.arrRef spec4 1) = X) (r : Fin 6000) (k : Fin 64)
    (hb : t.val * 6000 + r.val < 300000) :
    (iblk4 (F := Ideal) V c 1 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 6000 + 1 * r.val = t.val * 6000 + r.val; rw [e1a]; omega
  | ⟨1, _⟩ => show win4_1.index t (1 : Fin 2) * 64 + 1 * k.val = k.val; rw [e1b]; omega

/-- Window 2's block at point t is rows 6000·t … 6000·t + 5999 of its array. -/
theorem iblk_rows_2 (V : (c : Dev nD) → (b : Ref sig .tc) → Buf (Elt Ideal) ((c : Thread nD τ).loc b)) (c : Dev nD) (t : Fin cfg4.N)
    (X : FVec Ideal S300000x64 .f32) (hX : V c (Pipeline.arrRef spec4 2) = X) (r : Fin 6000) (k : Fin 64)
    (hb : t.val * 6000 + r.val < 300000) :
    (iblk4 (F := Ideal) V c 2 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 6000 + 1 * r.val = t.val * 6000 + r.val; rw [e2a]; omega
  | ⟨1, _⟩ => show win4_2.index t (1 : Fin 2) * 64 + 1 * k.val = k.val; rw [e2b]; omega

/-- Window 3's block at point t is rows 6000·t … 6000·t + 5999 of its array. -/
theorem iblk_rows_3 (V : (c : Dev nD) → (b : Ref sig .tc) → Buf (Elt Ideal) ((c : Thread nD τ).loc b)) (c : Dev nD) (t : Fin cfg4.N)
    (X : FVec Ideal S300000x64 .f32) (hX : V c (Pipeline.arrRef spec4 3) = X) (r : Fin 6000) (k : Fin 64)
    (hb : t.val * 6000 + r.val < 300000) :
    (iblk4 (F := Ideal) V c 3 t : Vec Ideal S6000x64 .f32) (ix2 r k) = X (ix2 ⟨t.val * 6000 + r.val, hb⟩ k) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 6000 + 1 * r.val = t.val * 6000 + r.val; rw [e3a]; omega
  | ⟨1, _⟩ => show win4_3.index t (1 : Fin 2) * 64 + 1 * k.val = k.val; rw [e3b]; omega

/-- Window 4's block at every point is its whole 64 × 64 array. -/
theorem iblk_whole_4 (V : (c : Dev nD) → (b : Ref sig .tc) → Buf (Elt Ideal) ((c : Thread nD τ).loc b)) (c : Dev nD) (t : Fin cfg4.N)
    (X : FVec Ideal S64x64 .f32) (hX : V c (Pipeline.arrRef spec4 4) = X) (a b : Fin 64) :
    (iblk4 (F := Ideal) V c 4 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 4) _ = V c (Pipeline.arrRef spec4 4) _
  congr 1
  funext d
  apply Fin.ext
  match d with
  | ⟨0, _⟩ => show win4_4.index t (0 : Fin 2) * 64 + 1 * a.val = a.val; rw [e4a]; omega
  | ⟨1, _⟩ => show win4_4.index t (1 : Fin 2) * 64 + 1 * b.val = b.val; rw [e4b]; omega

/-- Window 5's block at every point is its whole 64 × 64 array. -/
theorem iblk_whole_5 (V : (c : Dev nD) → (b : Ref sig .tc) → Buf (Elt Ideal) ((c : Thread nD τ).loc b)) (c : Dev nD) (t : Fin cfg4.N)
    (X : FVec Ideal S64x64 .f32) (hX : V c (Pipeline.arrRef spec4 5) = X) (a b : Fin 64) :
    (iblk4 (F := Ideal) V c 5 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 5) _ = V c (Pipeline.arrRef spec4 5) _
  congr 1
  funext d
  apply Fin.ext
  match d with
  | ⟨0, _⟩ => show win4_5.index t (0 : Fin 2) * 64 + 1 * a.val = a.val; rw [e5a]; omega
  | ⟨1, _⟩ => show win4_5.index t (1 : Fin 2) * 64 + 1 * b.val = b.val; rw [e5b]; omega

/-- Window 6's block at every point is its whole 64 × 64 array. -/
theorem iblk_whole_6 (V : (c : Dev nD) → (b : Ref sig .tc) → Buf (Elt Ideal) ((c : Thread nD τ).loc b)) (c : Dev nD) (t : Fin cfg4.N)
    (X : FVec Ideal S64x64 .f32) (hX : V c (Pipeline.arrRef spec4 6) = X) (a b : Fin 64) :
    (iblk4 (F := Ideal) V c 6 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 6) _ = V c (Pipeline.arrRef spec4 6) _
  congr 1
  funext d
  apply Fin.ext
  match d with
  | ⟨0, _⟩ => show win4_6.index t (0 : Fin 2) * 64 + 1 * a.val = a.val; rw [e6a]; omega
  | ⟨1, _⟩ => show win4_6.index t (1 : Fin 2) * 64 + 1 * b.val = b.val; rw [e6b]; omega

/-- Window 8's block at every point is its whole 64 × 64 array. -/
theorem iblk_whole_8 (V : (c : Dev nD) → (b : Ref sig .tc) → Buf (Elt Ideal) ((c : Thread nD τ).loc b)) (c : Dev nD) (t : Fin cfg4.N)
    (X : FVec Ideal S64x64 .f32) (hX : V c (Pipeline.arrRef spec4 8) = X) (a b : Fin 64) :
    (iblk4 (F := Ideal) V c 8 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 8) _ = V c (Pipeline.arrRef spec4 8) _
  congr 1
  funext d
  apply Fin.ext
  match d with
  | ⟨0, _⟩ => show win4_8.index t (0 : Fin 2) * 64 + 1 * a.val = a.val; rw [e8a]; omega
  | ⟨1, _⟩ => show win4_8.index t (1 : Fin 2) * 64 + 1 * b.val = b.val; rw [e8b]; omega

/-- Window 10's block at every point is its whole 64 × 64 array. -/
theorem iblk_whole_10 (V : (c : Dev nD) → (b : Ref sig .tc) → Buf (Elt Ideal) ((c : Thread nD τ).loc b)) (c : Dev nD) (t : Fin cfg4.N)
    (X : FVec Ideal S64x64 .f32) (hX : V c (Pipeline.arrRef spec4 10) = X) (a b : Fin 64) :
    (iblk4 (F := Ideal) V c 10 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 10) _ = V c (Pipeline.arrRef spec4 10) _
  congr 1
  funext d
  apply Fin.ext
  match d with
  | ⟨0, _⟩ => show win4_10.index t (0 : Fin 2) * 64 + 1 * a.val = a.val; rw [e10a]; omega
  | ⟨1, _⟩ => show win4_10.index t (1 : Fin 2) * 64 + 1 * b.val = b.val; rw [e10b]; omega

/-- Window 11's block at every point is its whole 64 × 64 array. -/
theorem iblk_whole_11 (V : (c : Dev nD) → (b : Ref sig .tc) → Buf (Elt Ideal) ((c : Thread nD τ).loc b)) (c : Dev nD) (t : Fin cfg4.N)
    (X : FVec Ideal S64x64 .f32) (hX : V c (Pipeline.arrRef spec4 11) = X) (a b : Fin 64) :
    (iblk4 (F := Ideal) V c 11 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 11) _ = V c (Pipeline.arrRef spec4 11) _
  congr 1
  funext d
  apply Fin.ext
  match d with
  | ⟨0, _⟩ => show win4_11.index t (0 : Fin 2) * 64 + 1 * a.val = a.val; rw [e11a]; omega
  | ⟨1, _⟩ => show win4_11.index t (1 : Fin 2) * 64 + 1 * b.val = b.val; rw [e11b]; omega

/-- Window 12's block at every point is its whole 64 × 64 array. -/
theorem iblk_whole_12 (V : (c : Dev nD) → (b : Ref sig .tc) → Buf (Elt Ideal) ((c : Thread nD τ).loc b)) (c : Dev nD) (t : Fin cfg4.N)
    (X : FVec Ideal S64x64 .f32) (hX : V c (Pipeline.arrRef spec4 12) = X) (a b : Fin 64) :
    (iblk4 (F := Ideal) V c 12 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 12) _ = V c (Pipeline.arrRef spec4 12) _
  congr 1
  funext d
  apply Fin.ext
  match d with
  | ⟨0, _⟩ => show win4_12.index t (0 : Fin 2) * 64 + 1 * a.val = a.val; rw [e12a]; omega
  | ⟨1, _⟩ => show win4_12.index t (1 : Fin 2) * 64 + 1 * b.val = b.val; rw [e12b]; omega

/-- Window 14's block at every point is its whole 64 × 64 array. -/
theorem iblk_whole_14 (V : (c : Dev nD) → (b : Ref sig .tc) → Buf (Elt Ideal) ((c : Thread nD τ).loc b)) (c : Dev nD) (t : Fin cfg4.N)
    (X : FVec Ideal S64x64 .f32) (hX : V c (Pipeline.arrRef spec4 14) = X) (a b : Fin 64) :
    (iblk4 (F := Ideal) V c 14 t : Vec Ideal S64x64 .f32) (ix2 a b) = X (ix2 a b) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 14) _ = V c (Pipeline.arrRef spec4 14) _
  congr 1
  funext d
  apply Fin.ext
  match d with
  | ⟨0, _⟩ => show win4_14.index t (0 : Fin 2) * 64 + 1 * a.val = a.val; rw [e14a]; omega
  | ⟨1, _⟩ => show win4_14.index t (1 : Fin 2) * 64 + 1 * b.val = b.val; rw [e14b]; omega

/-- Window 7's block at every point is its whole 64-entry array. -/
theorem iblk_whole_7 (V : (c : Dev nD) → (b : Ref sig .tc) → Buf (Elt Ideal) ((c : Thread nD τ).loc b)) (c : Dev nD) (t : Fin cfg4.N)
    (X : FVec Ideal S64 .f32) (hX : V c (Pipeline.arrRef spec4 7) = X) (j : Fin 64) :
    (iblk4 (F := Ideal) V c 7 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 7) _ = V c (Pipeline.arrRef spec4 7) _
  congr 1
  funext d
  apply Fin.ext
  match d with
  | ⟨0, _⟩ => show win4_7.index t (0 : Fin 1) * 64 + 1 * j.val = j.val; rw [e7]; omega

/-- Window 9's block at every point is its whole 64-entry array. -/
theorem iblk_whole_9 (V : (c : Dev nD) → (b : Ref sig .tc) → Buf (Elt Ideal) ((c : Thread nD τ).loc b)) (c : Dev nD) (t : Fin cfg4.N)
    (X : FVec Ideal S64 .f32) (hX : V c (Pipeline.arrRef spec4 9) = X) (j : Fin 64) :
    (iblk4 (F := Ideal) V c 9 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 9) _ = V c (Pipeline.arrRef spec4 9) _
  congr 1
  funext d
  apply Fin.ext
  match d with
  | ⟨0, _⟩ => show win4_9.index t (0 : Fin 1) * 64 + 1 * j.val = j.val; rw [e9]; omega

/-- Window 13's block at every point is its whole 64-entry array. -/
theorem iblk_whole_13 (V : (c : Dev nD) → (b : Ref sig .tc) → Buf (Elt Ideal) ((c : Thread nD τ).loc b)) (c : Dev nD) (t : Fin cfg4.N)
    (X : FVec Ideal S64 .f32) (hX : V c (Pipeline.arrRef spec4 13) = X) (j : Fin 64) :
    (iblk4 (F := Ideal) V c 13 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 13) _ = V c (Pipeline.arrRef spec4 13) _
  congr 1
  funext d
  apply Fin.ext
  match d with
  | ⟨0, _⟩ => show win4_13.index t (0 : Fin 1) * 64 + 1 * j.val = j.val; rw [e13]; omega

/-- Window 15's block at every point is its whole 64-entry array. -/
theorem iblk_whole_15 (V : (c : Dev nD) → (b : Ref sig .tc) → Buf (Elt Ideal) ((c : Thread nD τ).loc b)) (c : Dev nD) (t : Fin cfg4.N)
    (X : FVec Ideal S64 .f32) (hX : V c (Pipeline.arrRef spec4 15) = X) (j : Fin 64) :
    (iblk4 (F := Ideal) V c 15 t : Vec Ideal S64 .f32) (ix1 j) = X (ix1 j) := by
  subst hX
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  unfold iblk4
  rw [View.read_apply]
  show V c (Pipeline.arrRef spec4 15) _ = V c (Pipeline.arrRef spec4 15) _
  congr 1
  funext d
  apply Fin.ext
  match d with
  | ⟨0, _⟩ => show win4_15.index t (0 : Fin 1) * 64 + 1 * j.val = j.val; rw [e15]; omega

/-- One element of what a point writes to window 16 is the reference's message function at the array index under it:
    both are the same sums of the same entries, the joined columns' sum split into the three operands' runs. -/
theorem point_16 (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (T : Nat) (hT : T < 50)
    (aA aB aE : Vec Ideal S6000x64 .f32) (w0 w1 w2 : Vec Ideal S64x64 .f32) (c1 : Vec Ideal S64 .f32)
    (w3 : Vec Ideal S64x64 .f32) (c2 : Vec Ideal S64 .f32)
    (haA : ∀ (r : Fin 6000) (k : Fin 64), aA (ix2 r k) = A (ix2 (⟨T * 6000 + r.val, by omega⟩ : Fin 300000) k))
    (haB : ∀ (r : Fin 6000) (k : Fin 64), aB (ix2 r k) = B (ix2 (⟨T * 6000 + r.val, by omega⟩ : Fin 300000) k))
    (haE : ∀ (r : Fin 6000) (k : Fin 64), aE (ix2 r k) = E (ix2 (⟨T * 6000 + r.val, by omega⟩ : Fin 300000) k))
    (hw0 : ∀ k j : Fin 64, w0 (ix2 k j) = W (ix2 (⟨k.val, by omega⟩ : Fin 192) j))
    (hw1 : ∀ k j : Fin 64, w1 (ix2 k j) = W (ix2 (⟨64 + k.val, by omega⟩ : Fin 192) j))
    (hw2 : ∀ k j : Fin 64, w2 (ix2 k j) = W (ix2 (⟨128 + k.val, by omega⟩ : Fin 192) j))
    (hc1 : ∀ j : Fin 64, c1 (ix1 j) = b1 (ix1 j)) (hw3 : ∀ j q : Fin 64, w3 (ix2 j q) = W2 (ix2 j q))
    (hc2 : ∀ q : Fin 64, c2 (ix1 q) = b2 (ix1 q))
    (y : S6000x64.Idx) (i : S300000x64.Idx) (hi0 : (i 0).val = T * 6000 + (y 0).val) (hi1 : (i 1).val = (y 1).val) :
    k4_pay5 (F := Ideal) aA aB aE w0 w1 w2 c1 w3 c2 y = msgRef Z A B E W b1 W2 b2 i := by
  obtain ⟨r, q, rfl⟩ : ∃ (r : Fin 6000) (q : Fin 64), y = ix2 r q := ⟨y 0, y 1, eq_ix2 y⟩
  have hi : i = ix2 (⟨T * 6000 + r.val, by omega⟩ : Fin 300000) q :=
    funext fun a => match a with
      | ⟨0, _⟩ => Fin.ext hi0
      | ⟨1, _⟩ => Fin.ext hi1
  rw [hi, pay5_apply, msgRef_apply]
  simp only [haA, haB, haE, hw0, hw1, hw2, hc1, hw3, hc2, hZ]

/-- What point t writes back to window 16 is block t of the reference's message function. -/
theorem flushed_16 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h0 : V c (Pipeline.arrRef spec4 0) = A) (h1 : V c (Pipeline.arrRef spec4 1) = B)
    (h2 : V c (Pipeline.arrRef spec4 2) = E)
    (h4 : V c (Pipeline.arrRef spec4 4) = extractStridedSlice S64x64 ![0, 0] W slices_S192x64_S64x64_0_0)
    (h5 : V c (Pipeline.arrRef spec4 5) = extractStridedSlice S64x64 ![64, 0] W slices_S192x64_S64x64_64_0)
    (h6 : V c (Pipeline.arrRef spec4 6) = extractStridedSlice S64x64 ![128, 0] W slices_S192x64_S64x64_128_0)
    (h7 : V c (Pipeline.arrRef spec4 7) = b1) (h8 : V c (Pipeline.arrRef spec4 8) = W2)
    (h9 : V c (Pipeline.arrRef spec4 9) = b2) (t : Fin cfg4.N) :
    (dat4 (F := Ideal) V c).flushed 16 t
      = ((cfg4.win 16).blk t).view.read (Elt Ideal) (msgRef Z A B E W b1 W2 b2) := by
  have hT : t.val < 50 := Nat.lt_of_lt_of_eq t.isLt N_4
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  show (cfg4.win 16).cut (grid4.coords t) ((dat4 V c).after 16 t) = _
  rw [after4_16]
  unfold out4_16
  rw [View.canon_unit_zero hz2]
  simp only [View.ld_unit_zero (S := S6000x64) hz2, View.ld_unit_zero (S := S64x64) hz2, View.ld_unit_zero (S := S64) hz1]
  funext y
  refine point_16 Z A B E W b1 W2 b2 hZ t.val hT (iblk4 V c 0 t) (iblk4 V c 1 t) (iblk4 V c 2 t)
    (iblk4 V c 4 t) (iblk4 V c 5 t) (iblk4 V c 6 t) (iblk4 V c 7 t) (iblk4 V c 8 t) (iblk4 V c 9 t)
    (fun r k => iblk_rows_0 V c t A h0 r k _) (fun r k => iblk_rows_1 V c t B h1 r k _)
    (fun r k => iblk_rows_2 V c t E h2 r k _)
    (fun k j => (iblk_whole_4 V c t _ h4 k j).trans
      (slice2_axis0_apply 0 W slices_S192x64_S64x64_0_0 k j _ (by show k.val = 0 + k.val; omega)))
    (fun k j => (iblk_whole_5 V c t _ h5 k j).trans (slice2_axis0_apply 64 W slices_S192x64_S64x64_64_0 k j _ rfl))
    (fun k j => (iblk_whole_6 V c t _ h6 k j).trans (slice2_axis0_apply 128 W slices_S192x64_S64x64_128_0 k j _ rfl))
    (fun j => iblk_whole_7 V c t b1 h7 j) (fun j q => iblk_whole_8 V c t W2 h8 j q)
    (fun q => iblk_whole_9 V c t b2 h9 q)
    y (((cfg4.win 16).blk t).view.emb y) ?_ ?_
  · show win4_16.index t (0 : Fin 2) * 6000 + 1 * (y 0).val = t.val * 6000 + (y 0).val
    rw [e16a]; omega
  · show win4_16.index t (1 : Fin 2) * 64 + 1 * (y 1).val = (y 1).val
    rw [e16b]; omega

/-- Every row of window 16's array lies in the block of the point numbered by the row's quotient by 6000. -/
theorem cover_16 (c : Dev nD) (i : ((cfg4.win 16).arr.view.loc (c.tc : Thread nD τ)).2.ty.Idx) :
    ∃ t : Fin cfg4.N, (cfg4.win 16).flush t = true ∧ i ∈ ((cfg4.win 16).blk t).view.set := by
  have h0 : (i 0).val < 300000 := (i 0).isLt
  have h1 : (i 1).val < 64 := (i 1).isLt
  have hN : cfg4.N = 50 := N_4
  obtain ⟨t, ht⟩ : ∃ t : Fin cfg4.N, t.val = (i 0).val / 6000 := ⟨⟨(i 0).val / 6000, by rw [hN]; omega⟩, rfl⟩
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  refine ⟨t, flush4_16 t, ?_⟩
  show i ∈ ((View.whole main_v64_0).slice (win4_16.rect t)).set
  rw [View.set_slice_whole, Rect.mem_set_unit]
  intro a
  match a with
  | ⟨0, _⟩ =>
    show win4_16.index t (0 : Fin 2) * 6000 ≤ (i 0).val ∧ (i 0).val < win4_16.index t (0 : Fin 2) * 6000 + 6000
    rw [e16a, ht]; omega
  | ⟨1, _⟩ =>
    show win4_16.index t (1 : Fin 2) * 64 ≤ (i 1).val ∧ (i 1).val < win4_16.index t (1 : Fin 2) * 64 + 64
    rw [e16b]; omega

/-- Window 16's array after the region is the reference's message function of the arrays the input windows hold. -/
theorem core_16 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h0 : V c (Pipeline.arrRef spec4 0) = A) (h1 : V c (Pipeline.arrRef spec4 1) = B)
    (h2 : V c (Pipeline.arrRef spec4 2) = E)
    (h4 : V c (Pipeline.arrRef spec4 4) = extractStridedSlice S64x64 ![0, 0] W slices_S192x64_S64x64_0_0)
    (h5 : V c (Pipeline.arrRef spec4 5) = extractStridedSlice S64x64 ![64, 0] W slices_S192x64_S64x64_64_0)
    (h6 : V c (Pipeline.arrRef spec4 6) = extractStridedSlice S64x64 ![128, 0] W slices_S192x64_S64x64_128_0)
    (h7 : V c (Pipeline.arrRef spec4 7) = b1) (h8 : V c (Pipeline.arrRef spec4 8) = W2)
    (h9 : V c (Pipeline.arrRef spec4 9) = b2) :
    (dat4 (F := Ideal) V c).arrAt 16 cfg4.N = msgRef Z A B E W b1 W2 b2 :=
  (dat4 (F := Ideal) V c).arrAt_eq_of_cover 16 (msgRef Z A B E W b1 W2 b2)
    (fun t _ => flushed_16 V c Z A B E W b1 W2 b2 hZ h0 h1 h2 h4 h5 h6 h7 h8 h9 t) (cover_16 c)

/-- One element of what a point writes to window 17 is the reference's message function at the array index under it:
    both are the same sums of the same entries, the joined columns' sum split into the three operands' runs. -/
theorem point_17 (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (T : Nat) (hT : T < 50)
    (aA aB aE : Vec Ideal S6000x64 .f32) (w0 w1 w2 : Vec Ideal S64x64 .f32) (c1 : Vec Ideal S64 .f32)
    (w3 : Vec Ideal S64x64 .f32) (c2 : Vec Ideal S64 .f32)
    (haA : ∀ (r : Fin 6000) (k : Fin 64), aA (ix2 r k) = A (ix2 (⟨T * 6000 + r.val, by omega⟩ : Fin 300000) k))
    (haB : ∀ (r : Fin 6000) (k : Fin 64), aB (ix2 r k) = B (ix2 (⟨T * 6000 + r.val, by omega⟩ : Fin 300000) k))
    (haE : ∀ (r : Fin 6000) (k : Fin 64), aE (ix2 r k) = E (ix2 (⟨T * 6000 + r.val, by omega⟩ : Fin 300000) k))
    (hw0 : ∀ k j : Fin 64, w0 (ix2 k j) = W (ix2 (⟨k.val, by omega⟩ : Fin 192) j))
    (hw1 : ∀ k j : Fin 64, w1 (ix2 k j) = W (ix2 (⟨64 + k.val, by omega⟩ : Fin 192) j))
    (hw2 : ∀ k j : Fin 64, w2 (ix2 k j) = W (ix2 (⟨128 + k.val, by omega⟩ : Fin 192) j))
    (hc1 : ∀ j : Fin 64, c1 (ix1 j) = b1 (ix1 j)) (hw3 : ∀ j q : Fin 64, w3 (ix2 j q) = W2 (ix2 j q))
    (hc2 : ∀ q : Fin 64, c2 (ix1 q) = b2 (ix1 q))
    (y : S6000x64.Idx) (i : S300000x64.Idx) (hi0 : (i 0).val = T * 6000 + (y 0).val) (hi1 : (i 1).val = (y 1).val) :
    k4_pay1 (F := Ideal) (k4_pay2 aB) (k4_pay3 aA) (k4_pay4 aE) w0 w1 w2 c1 w3 c2 y = msgRef Z A B E W b1 W2 b2 i := by
  obtain ⟨r, q, rfl⟩ : ∃ (r : Fin 6000) (q : Fin 64), y = ix2 r q := ⟨y 0, y 1, eq_ix2 y⟩
  have hi : i = ix2 (⟨T * 6000 + r.val, by omega⟩ : Fin 300000) q :=
    funext fun a => match a with
      | ⟨0, _⟩ => Fin.ext hi0
      | ⟨1, _⟩ => Fin.ext hi1
  rw [hi, pay1_apply, msgRef_apply]
  simp only [haA, haB, haE, hw0, hw1, hw2, hc1, hw3, hc2, hZ]

/-- What point t writes back to window 17 is block t of the reference's message function. -/
theorem flushed_17 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h1 : V c (Pipeline.arrRef spec4 1) = A) (h0 : V c (Pipeline.arrRef spec4 0) = B)
    (h3 : V c (Pipeline.arrRef spec4 3) = E)
    (h10 : V c (Pipeline.arrRef spec4 10) = extractStridedSlice S64x64 ![0, 0] W slices_S192x64_S64x64_0_0)
    (h11 : V c (Pipeline.arrRef spec4 11) = extractStridedSlice S64x64 ![64, 0] W slices_S192x64_S64x64_64_0)
    (h12 : V c (Pipeline.arrRef spec4 12) = extractStridedSlice S64x64 ![128, 0] W slices_S192x64_S64x64_128_0)
    (h13 : V c (Pipeline.arrRef spec4 13) = b1) (h14 : V c (Pipeline.arrRef spec4 14) = W2)
    (h15 : V c (Pipeline.arrRef spec4 15) = b2) (t : Fin cfg4.N) :
    (dat4 (F := Ideal) V c).flushed 17 t
      = ((cfg4.win 17).blk t).view.read (Elt Ideal) (msgRef Z A B E W b1 W2 b2) := by
  have hT : t.val < 50 := Nat.lt_of_lt_of_eq t.isLt N_4
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  show (cfg4.win 17).cut (grid4.coords t) ((dat4 V c).after 17 t) = _
  rw [after4_17]
  unfold out4_17
  rw [View.canon_unit_zero hz2]
  simp only [View.ld_unit_zero (S := S6000x64) hz2, View.ld_unit_zero (S := S64x64) hz2, View.ld_unit_zero (S := S64) hz1]
  funext y
  refine point_17 Z A B E W b1 W2 b2 hZ t.val hT (iblk4 V c 1 t) (iblk4 V c 0 t) (iblk4 V c 3 t)
    (iblk4 V c 10 t) (iblk4 V c 11 t) (iblk4 V c 12 t) (iblk4 V c 13 t) (iblk4 V c 14 t) (iblk4 V c 15 t)
    (fun r k => iblk_rows_1 V c t A h1 r k _) (fun r k => iblk_rows_0 V c t B h0 r k _)
    (fun r k => iblk_rows_3 V c t E h3 r k _)
    (fun k j => (iblk_whole_10 V c t _ h10 k j).trans
      (slice2_axis0_apply 0 W slices_S192x64_S64x64_0_0 k j _ (by show k.val = 0 + k.val; omega)))
    (fun k j => (iblk_whole_11 V c t _ h11 k j).trans (slice2_axis0_apply 64 W slices_S192x64_S64x64_64_0 k j _ rfl))
    (fun k j => (iblk_whole_12 V c t _ h12 k j).trans (slice2_axis0_apply 128 W slices_S192x64_S64x64_128_0 k j _ rfl))
    (fun j => iblk_whole_13 V c t b1 h13 j) (fun j q => iblk_whole_14 V c t W2 h14 j q)
    (fun q => iblk_whole_15 V c t b2 h15 q)
    y (((cfg4.win 17).blk t).view.emb y) ?_ ?_
  · show win4_17.index t (0 : Fin 2) * 6000 + 1 * (y 0).val = t.val * 6000 + (y 0).val
    rw [e17a]; omega
  · show win4_17.index t (1 : Fin 2) * 64 + 1 * (y 1).val = (y 1).val
    rw [e17b]; omega

/-- Every row of window 17's array lies in the block of the point numbered by the row's quotient by 6000. -/
theorem cover_17 (c : Dev nD) (i : ((cfg4.win 17).arr.view.loc (c.tc : Thread nD τ)).2.ty.Idx) :
    ∃ t : Fin cfg4.N, (cfg4.win 17).flush t = true ∧ i ∈ ((cfg4.win 17).blk t).view.set := by
  have h0 : (i 0).val < 300000 := (i 0).isLt
  have h1 : (i 1).val < 64 := (i 1).isLt
  have hN : cfg4.N = 50 := N_4
  obtain ⟨t, ht⟩ : ∃ t : Fin cfg4.N, t.val = (i 0).val / 6000 := ⟨⟨(i 0).val / 6000, by rw [hN]; omega⟩, rfl⟩
  obtain ⟨e0a, e0b, e1a, e1b, e2a, e2b, e3a, e3b, e4a, e4b, e5a, e5b, e6a, e6b, e7, e8a, e8b, e9, e10a, e10b, e11a, e11b, e12a, e12b, e13, e14a, e14b, e15, e16a, e16b, e17a, e17b⟩ := idx_facts t
  refine ⟨t, flush4_17 t, ?_⟩
  show i ∈ ((View.whole main_v64_1).slice (win4_17.rect t)).set
  rw [View.set_slice_whole, Rect.mem_set_unit]
  intro a
  match a with
  | ⟨0, _⟩ =>
    show win4_17.index t (0 : Fin 2) * 6000 ≤ (i 0).val ∧ (i 0).val < win4_17.index t (0 : Fin 2) * 6000 + 6000
    rw [e17a, ht]; omega
  | ⟨1, _⟩ =>
    show win4_17.index t (1 : Fin 2) * 64 ≤ (i 1).val ∧ (i 1).val < win4_17.index t (1 : Fin 2) * 64 + 64
    rw [e17b]; omega

/-- Window 17's array after the region is the reference's message function of the arrays the input windows hold. -/
theorem core_17 (V : (c : Dev nD) → (b : Ref sig .tc) → Buf (Elt Ideal) ((c : Thread nD τ).loc b)) (c : Dev nD)
    (Z A B E : FVec Ideal S300000x64 .f32) (W : FVec Ideal S192x64 .f32) (b1 : FVec Ideal S64 .f32)
    (W2 : FVec Ideal S64x64 .f32) (b2 : FVec Ideal S64 .f32) (hZ : ∀ i, Z i = Ideal.ofBits .f32 0x00000000#32)
    (h1 : V c (Pipeline.arrRef spec4 1) = A) (h0 : V c (Pipeline.arrRef spec4 0) = B)
    (h3 : V c (Pipeline.arrRef spec4 3) = E)
    (h10 : V c (Pipeline.arrRef spec4 10) = extractStridedSlice S64x64 ![0, 0] W slices_S192x64_S64x64_0_0)
    (h11 : V c (Pipeline.arrRef spec4 11) = extractStridedSlice S64x64 ![64, 0] W slices_S192x64_S64x64_64_0)
    (h12 : V c (Pipeline.arrRef spec4 12) = extractStridedSlice S64x64 ![128, 0] W slices_S192x64_S64x64_128_0)
    (h13 : V c (Pipeline.arrRef spec4 13) = b1) (h14 : V c (Pipeline.arrRef spec4 14) = W2)
    (h15 : V c (Pipeline.arrRef spec4 15) = b2) :
    (dat4 (F := Ideal) V c).arrAt 17 cfg4.N = msgRef Z A B E W b1 W2 b2 :=
  (dat4 (F := Ideal) V c).arrAt_eq_of_cover 17 (msgRef Z A B E W b1 W2 b2)
    (fun t _ => flushed_17 V c Z A B E W b1 W2 b2 hZ h1 h0 h3 h10 h11 h12 h13 h14 h15 t) (cover_17 c)

end Kernel

section Wrap
open Cert.KernelIdeal Cert.KernelIdeal.Gen

/-- The array the reference's maximum is taken against holds the zero word everywhere. -/
theorem zero_call8_v0 (i : Cert.ReferenceIdeal.S300000x64.Idx) :
    Cert.ReferenceIdeal.Read.val_main_call8_v0 (F := Ideal) i = Ideal.ofBits .f32 0x00000000#32 := rfl

/-- The reference's stage %165 is the message function of the stages %140, %147, %40 joined, the matrix %150,
    the biases %152, %156 and the matrix %154: its definition, unfolded. -/
theorem ref_165
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v165 (F := Ideal) x0 x1 x2 x3 x4 x5 x6 x7 x8 x9 x10 x11 x12 x13 x14 x15 x16 x17 x18 x19 x20 x21 x22 x23 x24 x25 x30 x31 x32 x33
      = msgRef (Cert.ReferenceIdeal.Read.val_main_call8_v0 (F := Ideal)) (Cert.ReferenceIdeal.Read.val_main_v140 (F := Ideal) x0 x1 x2 x3 x4 x5 x6 x7 x8 x9 x10 x11 x12 x13 x18 x19 x20 x21 x30 x31 x32 x33) (Cert.ReferenceIdeal.Read.val_main_v147 (F := Ideal) x0 x1 x2 x3 x4 x5 x6 x7 x8 x9 x14 x15 x16 x17 x22 x23 x24 x25 x30 x31 x32 x33)
          (Cert.ReferenceIdeal.Read.val_main_v40 (F := Ideal) x10 x11 x12 x13 x30) (Cert.ReferenceIdeal.Read.val_main_v150 (F := Ideal) x18) (Cert.ReferenceIdeal.Read.val_main_v152 (F := Ideal) x19) (Cert.ReferenceIdeal.Read.val_main_v154 (F := Ideal) x20) (Cert.ReferenceIdeal.Read.val_main_v156 (F := Ideal) x21) := rfl

/-- Window 16's array after region 4 is the reference's stage %165, when the region's input windows hold the
    reference's stages named in the hypotheses. -/
theorem out_16 (V : (c : Dev nD) → (b : Ref sig .tc) → Buf (Elt Ideal) ((c : Thread nD τ).loc b)) (c : Dev nD)
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal))
    (h0 : V c (Pipeline.arrRef spec4 0) = Cert.ReferenceIdeal.Read.val_main_v140 (F := Ideal) x0 x1 x2 x3 x4 x5 x6 x7 x8 x9 x10 x11 x12 x13 x18 x19 x20 x21 x30 x31 x32 x33)
    (h1 : V c (Pipeline.arrRef spec4 1) = Cert.ReferenceIdeal.Read.val_main_v147 (F := Ideal) x0 x1 x2 x3 x4 x5 x6 x7 x8 x9 x14 x15 x16 x17 x22 x23 x24 x25 x30 x31 x32 x33)
    (h2 : V c (Pipeline.arrRef spec4 2) = Cert.ReferenceIdeal.Read.val_main_v40 (F := Ideal) x10 x11 x12 x13 x30)
    (h4 : V c (Pipeline.arrRef spec4 4) = extractStridedSlice S64x64 ![0, 0] (Cert.ReferenceIdeal.Read.val_main_v150 (F := Ideal) x18) slices_S192x64_S64x64_0_0)
    (h5 : V c (Pipeline.arrRef spec4 5) = extractStridedSlice S64x64 ![64, 0] (Cert.ReferenceIdeal.Read.val_main_v150 (F := Ideal) x18) slices_S192x64_S64x64_64_0)
    (h6 : V c (Pipeline.arrRef spec4 6) = extractStridedSlice S64x64 ![128, 0] (Cert.ReferenceIdeal.Read.val_main_v150 (F := Ideal) x18) slices_S192x64_S64x64_128_0)
    (h7 : V c (Pipeline.arrRef spec4 7) = Cert.ReferenceIdeal.Read.val_main_v152 (F := Ideal) x19)
    (h8 : V c (Pipeline.arrRef spec4 8) = Cert.ReferenceIdeal.Read.val_main_v154 (F := Ideal) x20)
    (h9 : V c (Pipeline.arrRef spec4 9) = Cert.ReferenceIdeal.Read.val_main_v156 (F := Ideal) x21) :
    (Cert.KernelIdeal.Gen.dat4 (F := Ideal) V c).arrAt 16 cfg4.N
      = Cert.ReferenceIdeal.Read.val_main_v165 (F := Ideal) x0 x1 x2 x3 x4 x5 x6 x7 x8 x9 x10 x11 x12 x13 x14 x15 x16 x17 x18 x19 x20 x21 x22 x23 x24 x25 x30 x31 x32 x33 :=
  (core_16 V c _ _ _ _ _ _ _ _ zero_call8_v0 h0 h1 h2 h4 h5 h6 h7 h8 h9).trans
    (ref_165 x0 x1 x2 x3 x4 x5 x6 x7 x8 x9 x10 x11 x12 x13 x14 x15 x16 x17 x18 x19 x20 x21 x22 x23 x24 x25 x30 x31 x32 x33).symm

/-- The array the reference's maximum is taken against holds the zero word everywhere. -/
theorem zero_call9_v0 (i : Cert.ReferenceIdeal.S300000x64.Idx) :
    Cert.ReferenceIdeal.Read.val_main_call9_v0 (F := Ideal) i = Ideal.ofBits .f32 0x00000000#32 := rfl

/-- The reference's stage %203 is the message function of the stages %178, %185, %49 joined, the matrix %188,
    the biases %190, %194 and the matrix %192: its definition, unfolded. -/
theorem ref_203
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v203 (F := Ideal) x0 x1 x2 x3 x4 x5 x6 x7 x8 x9 x10 x11 x12 x13 x14 x15 x16 x17 x18 x19 x20 x21 x22 x23 x24 x25 x30 x31 x32 x33
      = msgRef (Cert.ReferenceIdeal.Read.val_main_call9_v0 (F := Ideal)) (Cert.ReferenceIdeal.Read.val_main_v178 (F := Ideal) x0 x1 x2 x3 x4 x5 x6 x7 x8 x9 x14 x15 x16 x17 x22 x23 x24 x25 x30 x31 x32 x33) (Cert.ReferenceIdeal.Read.val_main_v185 (F := Ideal) x0 x1 x2 x3 x4 x5 x6 x7 x8 x9 x10 x11 x12 x13 x18 x19 x20 x21 x30 x31 x32 x33)
          (Cert.ReferenceIdeal.Read.val_main_v49 (F := Ideal) x14 x15 x16 x17 x30) (Cert.ReferenceIdeal.Read.val_main_v188 (F := Ideal) x22) (Cert.ReferenceIdeal.Read.val_main_v190 (F := Ideal) x23) (Cert.ReferenceIdeal.Read.val_main_v192 (F := Ideal) x24) (Cert.ReferenceIdeal.Read.val_main_v194 (F := Ideal) x25) := rfl

/-- The reference recomputes stage %147 as stage %178: the same operations on the same arguments. -/
theorem same_178_147
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v178 (F := Ideal) x0 x1 x2 x3 x4 x5 x6 x7 x8 x9 x14 x15 x16 x17 x22 x23 x24 x25 x30 x31 x32 x33 = Cert.ReferenceIdeal.Read.val_main_v147 (F := Ideal) x0 x1 x2 x3 x4 x5 x6 x7 x8 x9 x14 x15 x16 x17 x22 x23 x24 x25 x30 x31 x32 x33 := rfl

/-- The reference recomputes stage %140 as stage %185: the same operations on the same arguments. -/
theorem same_185_140
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal)) :
    Cert.ReferenceIdeal.Read.val_main_v185 (F := Ideal) x0 x1 x2 x3 x4 x5 x6 x7 x8 x9 x10 x11 x12 x13 x18 x19 x20 x21 x30 x31 x32 x33 = Cert.ReferenceIdeal.Read.val_main_v140 (F := Ideal) x0 x1 x2 x3 x4 x5 x6 x7 x8 x9 x10 x11 x12 x13 x18 x19 x20 x21 x30 x31 x32 x33 := rfl

/-- Window 17's array after region 4 is the reference's stage %203, when the region's input windows hold the
    reference's stages named in the hypotheses. -/
theorem out_17 (V : (c : Dev nD) → (b : Ref sig .tc) → Buf (Elt Ideal) ((c : Thread nD τ).loc b)) (c : Dev nD)
    (x0 : (⟨Cert.ReferenceIdeal.S100000x64, .f32⟩ : BufTy).Contents (Elt Ideal))
    (x1 : (⟨Cert.ReferenceIdeal.S100000x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S256x64, .f32⟩ : BufTy).Contents (Elt Ideal))
    (x11 : (⟨Cert.ReferenceIdeal.S64, .f32⟩ : BufTy).Contents (Elt Ideal))
    (x12 : (⟨Cert.ReferenceIdeal.S64x64, .f32⟩ : BufTy).Contents (Elt Ideal))
    (x13 : (⟨Cert.ReferenceIdeal.S64, .f32⟩ : BufTy).Contents (Elt Ideal))
    (x14 : (⟨Cert.ReferenceIdeal.S256x64, .f32⟩ : BufTy).Contents (Elt Ideal))
    (x15 : (⟨Cert.ReferenceIdeal.S64, .f32⟩ : BufTy).Contents (Elt Ideal))
    (x16 : (⟨Cert.ReferenceIdeal.S64x64, .f32⟩ : BufTy).Contents (Elt Ideal))
    (x17 : (⟨Cert.ReferenceIdeal.S64, .f32⟩ : BufTy).Contents (Elt Ideal))
    (x18 : (⟨Cert.ReferenceIdeal.S2x192x64, .f32⟩ : BufTy).Contents (Elt Ideal))
    (x19 : (⟨Cert.ReferenceIdeal.S2x64, .f32⟩ : BufTy).Contents (Elt Ideal))
    (x20 : (⟨Cert.ReferenceIdeal.S2x64x64, .f32⟩ : BufTy).Contents (Elt Ideal))
    (x21 : (⟨Cert.ReferenceIdeal.S2x64, .f32⟩ : BufTy).Contents (Elt Ideal))
    (x22 : (⟨Cert.ReferenceIdeal.S2x192x64, .f32⟩ : BufTy).Contents (Elt Ideal))
    (x23 : (⟨Cert.ReferenceIdeal.S2x64, .f32⟩ : BufTy).Contents (Elt Ideal))
    (x24 : (⟨Cert.ReferenceIdeal.S2x64x64, .f32⟩ : BufTy).Contents (Elt Ideal))
    (x25 : (⟨Cert.ReferenceIdeal.S2x64, .f32⟩ : BufTy).Contents (Elt Ideal))
    (x30 : (⟨Cert.ReferenceIdeal.S300000x256, .f32⟩ : BufTy).Contents (Elt Ideal))
    (x31 : (⟨Cert.ReferenceIdeal.S100000, .i32⟩ : BufTy).Contents (Elt Ideal))
    (x32 : (⟨Cert.ReferenceIdeal.S100000, .i32⟩ : BufTy).Contents (Elt Ideal))
    (x33 : (⟨Cert.ReferenceIdeal.S2x300000, .i32⟩ : BufTy).Contents (Elt Ideal))
    (h0 : V c (Pipeline.arrRef spec4 0) = Cert.ReferenceIdeal.Read.val_main_v140 (F := Ideal) x0 x1 x2 x3 x4 x5 x6 x7 x8 x9 x10 x11 x12 x13 x18 x19 x20 x21 x30 x31 x32 x33)
    (h1 : V c (Pipeline.arrRef spec4 1) = Cert.ReferenceIdeal.Read.val_main_v147 (F := Ideal) x0 x1 x2 x3 x4 x5 x6 x7 x8 x9 x14 x15 x16 x17 x22 x23 x24 x25 x30 x31 x32 x33)
    (h3 : V c (Pipeline.arrRef spec4 3) = Cert.ReferenceIdeal.Read.val_main_v49 (F := Ideal) x14 x15 x16 x17 x30)
    (h10 : V c (Pipeline.arrRef spec4 10) = extractStridedSlice S64x64 ![0, 0] (Cert.ReferenceIdeal.Read.val_main_v188 (F := Ideal) x22) slices_S192x64_S64x64_0_0)
    (h11 : V c (Pipeline.arrRef spec4 11) = extractStridedSlice S64x64 ![64, 0] (Cert.ReferenceIdeal.Read.val_main_v188 (F := Ideal) x22) slices_S192x64_S64x64_64_0)
    (h12 : V c (Pipeline.arrRef spec4 12) = extractStridedSlice S64x64 ![128, 0] (Cert.ReferenceIdeal.Read.val_main_v188 (F := Ideal) x22) slices_S192x64_S64x64_128_0)
    (h13 : V c (Pipeline.arrRef spec4 13) = Cert.ReferenceIdeal.Read.val_main_v190 (F := Ideal) x23)
    (h14 : V c (Pipeline.arrRef spec4 14) = Cert.ReferenceIdeal.Read.val_main_v192 (F := Ideal) x24)
    (h15 : V c (Pipeline.arrRef spec4 15) = Cert.ReferenceIdeal.Read.val_main_v194 (F := Ideal) x25) :
    (Cert.KernelIdeal.Gen.dat4 (F := Ideal) V c).arrAt 17 cfg4.N
      = Cert.ReferenceIdeal.Read.val_main_v203 (F := Ideal) x0 x1 x2 x3 x4 x5 x6 x7 x8 x9 x10 x11 x12 x13 x14 x15 x16 x17 x18 x19 x20 x21 x22 x23 x24 x25 x30 x31 x32 x33 :=
  (core_17 V c _ _ _ _ _ _ _ _ zero_call9_v0 (h1.trans (same_178_147 x0 x1 x2 x3 x4 x5 x6 x7 x8 x9 x14 x15 x16 x17 x22 x23 x24 x25 x30 x31 x32 x33).symm) (h0.trans (same_185_140 x0 x1 x2 x3 x4 x5 x6 x7 x8 x9 x10 x11 x12 x13 x18 x19 x20 x21 x30 x31 x32 x33).symm) h3 h10 h11 h12 h13 h14 h15).trans
    (ref_203 x0 x1 x2 x3 x4 x5 x6 x7 x8 x9 x10 x11 x12 x13 x14 x15 x16 x17 x18 x19 x20 x21 x22 x23 x24 x25 x30 x31 x32 x33).symm

end Wrap

end Cert.Bridge.R4

end
-- ==== Proof.Region5.lean ====
/-
  Region 5 of the kernel (the second residual update of both node sets, without a rectifier), read as whole arrays.

  Each of its two outputs is pointwise in two inputs of the same shape: at every index the kernel leaves `h · c + a`,
  where `h` is the node feature after the first layer, `a` the aggregated messages and `c` the value of the word
  `0x3F8CCCCD`. The reference computes `c · h + a` with the same word, so the two agree on every extended real by
  commutativity of the product; the word is never evaluated.

  The grid has 20 points; point `t` reads rows `5000 t … 5000 t + 4999` of every input and writes the same rows of
  both outputs, so the blocks of each output tile its array and the array ends holding the pointwise function.
-/
import proofs.«109817_j10033043603480_2_alg».proof.Proof.Gen.KernelIdeal.Frame
import proofs.«109817_j10033043603480_2_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Bridge.R5

open Idealize.ShloMosaic Idealize.ShloMosaic.TcCoe Idealize.SL.Sem
open Idealize.ShloMosaic.Pipeline (Dat)
open Cert.KernelIdeal Cert.KernelIdeal.Gen

/-- The factor both sides multiply by: one word, never evaluated. -/
abbrev cw : EReal := Ideal.ofBits .f32 0x3F8CCCCD#32

/-- What both sides compute, as one function of the two whole input arrays. -/
def G (A B : S100000x64.Idx → EReal) : S100000x64.Idx → EReal := fun i => A i * cw + B i

/-- The reference's element is the kernel's: the product commutes. -/
theorem comm_law (a b : EReal) : cw * a + b = a * cw + b := by rw [mul_comm]

/-! ## The body's two payloads at an index -/

theorem hz : (![0, 0] : Fin 2 → Nat) = fun _ => 0 := funext fun a => by fin_cases a <;> rfl

theorem pay1_apply (v0 v4 : Vec Ideal S5000x64 .f32) (y : S5000x64.Idx) :
    k5_pay1 (F := Ideal) v0 v4 y = v0 y * cw + v4 y := by
  unfold k5_pay1
  rw [shapeCast_self, shapeCast_self]
  rfl

theorem pay2_apply (v7 v11 : Vec Ideal S5000x64 .f32) (y : S5000x64.Idx) :
    k5_pay2 (F := Ideal) v7 v11 y = v7 y * cw + v11 y := by
  unfold k5_pay2
  rw [shapeCast_self, shapeCast_self]
  rfl

/-! ## Where a block sits in its array -/

/-- Every window's block at point `t` is block `(t, 0)`: decided once over the 20 points. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- An element of an input block sits in its array where the same element of the output block sits in its. -/
theorem emb04 (t : Fin cfg5.N) (j : S5000x64.Idx) :
    ((cfg5.win 0).blk t).view.emb j = ((cfg5.win 4).blk t).view.emb j := by
  obtain ⟨e0, e1, e2, e3, e4, e5, e6, e7, e8, e9, e10, e11⟩ := idx_facts t
  funext a; apply Fin.ext
  match a with
  | ⟨0, _⟩ => show win5_0.index t (0 : Fin 2) * 5000 + 1 * (j 0).val = win5_4.index t (0 : Fin 2) * 5000 + 1 * (j 0).val; rw [e0, e8]
  | ⟨1, _⟩ => show win5_0.index t (1 : Fin 2) * 64 + 1 * (j 1).val = win5_4.index t (1 : Fin 2) * 64 + 1 * (j 1).val; rw [e1, e9]

theorem emb14 (t : Fin cfg5.N) (j : S5000x64.Idx) :
    ((cfg5.win 1).blk t).view.emb j = ((cfg5.win 4).blk t).view.emb j := by
  obtain ⟨e0, e1, e2, e3, e4, e5, e6, e7, e8, e9, e10, e11⟩ := idx_facts t
  funext a; apply Fin.ext
  match a with
  | ⟨0, _⟩ => show win5_1.index t (0 : Fin 2) * 5000 + 1 * (j 0).val = win5_4.index t (0 : Fin 2) * 5000 + 1 * (j 0).val; rw [e2, e8]
  | ⟨1, _⟩ => show win5_1.index t (1 : Fin 2) * 64 + 1 * (j 1).val = win5_4.index t (1 : Fin 2) * 64 + 1 * (j 1).val; rw [e3, e9]

theorem emb25 (t : Fin cfg5.N) (j : S5000x64.Idx) :
    ((cfg5.win 2).blk t).view.emb j = ((cfg5.win 5).blk t).view.emb j := by
  obtain ⟨e0, e1, e2, e3, e4, e5, e6, e7, e8, e9, e10, e11⟩ := idx_facts t
  funext a; apply Fin.ext
  match a with
  | ⟨0, _⟩ => show win5_2.index t (0 : Fin 2) * 5000 + 1 * (j 0).val = win5_5.index t (0 : Fin 2) * 5000 + 1 * (j 0).val; rw [e4, e10]
  | ⟨1, _⟩ => show win5_2.index t (1 : Fin 2) * 64 + 1 * (j 1).val = win5_5.index t (1 : Fin 2) * 64 + 1 * (j 1).val; rw [e5, e11]

theorem emb35 (t : Fin cfg5.N) (j : S5000x64.Idx) :
    ((cfg5.win 3).blk t).view.emb j = ((cfg5.win 5).blk t).view.emb j := by
  obtain ⟨e0, e1, e2, e3, e4, e5, e6, e7, e8, e9, e10, e11⟩ := idx_facts t
  funext a; apply Fin.ext
  match a with
  | ⟨0, _⟩ => show win5_3.index t (0 : Fin 2) * 5000 + 1 * (j 0).val = win5_5.index t (0 : Fin 2) * 5000 + 1 * (j 0).val; rw [e6, e10]
  | ⟨1, _⟩ => show win5_3.index t (1 : Fin 2) * 64 + 1 * (j 1).val = win5_5.index t (1 : Fin 2) * 64 + 1 * (j 1).val; rw [e7, e11]

/-- An index of an output array is in point `t`'s block iff each coordinate is in the block's range. -/
theorem mem_blk4 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v71_0).slice (win5_4.rect t)).set ↔ _
  rw [View.set_slice_whole, Rect.mem_set_unit]
  exact Iff.rfl

theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v71_1).slice (win5_5.rect t)).set ↔ _
  rw [View.set_slice_whole, Rect.mem_set_unit]
  exact Iff.rfl

/-- Row `r` of an output array is written by point `r / 5000`. -/
theorem cover4 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have ht : (i 0).val / 5000 < cfg5.N := lt_of_lt_of_eq (by omega : (i 0).val / 5000 < 20) N_5.symm
  obtain ⟨e0, e1, e2, e3, e4, e5, e6, e7, e8, e9, e10, e11⟩ := idx_facts ⟨(i 0).val / 5000, ht⟩
  refine ⟨⟨(i 0).val / 5000, ht⟩, flush5_4 _, ?_⟩
  rw [mem_blk4]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    rw [e9]; omega

theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have ht : (i 0).val / 5000 < cfg5.N := lt_of_lt_of_eq (by omega : (i 0).val / 5000 < 20) N_5.symm
  obtain ⟨e0, e1, e2, e3, e4, e5, e6, e7, e8, e9, e10, e11⟩ := idx_facts ⟨(i 0).val / 5000, ht⟩
  refine ⟨⟨(i 0).val / 5000, ht⟩, flush5_5 _, ?_⟩
  rw [mem_blk5]
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win5_5.index ⟨(i 0).val / 5000, ht⟩ (1 : Fin 2) * 64 ≤ (i 1).val ∧ (i 1).val < win5_5.index ⟨(i 0).val / 5000, ht⟩ (1 : Fin 2) * 64 + 64
    rw [e11]; omega

/-! ## What each point writes back, and the arrays after the region -/

section Arrays

variable (V : (c : Dev nD) → (b : Ref sig .tc) → Buf (Elt Ideal) ((c : Thread nD τ).loc b)) (c : Dev nD)

/-- Point `t` writes back block `t` of `G` of the two input arrays of output 4. -/
theorem flushed4_eq (A B : S100000x64.Idx → EReal)
    (hA : V c (Pipeline.arrRef spec5 0) = A) (hB : V c (Pipeline.arrRef spec5 1) = B) (t : Fin cfg5.N) :
    (dat5 (F := Ideal) V c).flushed 4 t = ((cfg5.win 4).blk t).view.read (Elt Ideal) (G A B) := by
  subst hA hB
  show (cfg5.win 4).cut (grid5.coords t) ((dat5 (F := Ideal) V c).after 4 t) = _
  rw [after5_4]
  unfold out5_4
  rw [View.canon_unit_zero hz]
  simp only [View.ld_unit_zero (S := S5000x64) hz]
  funext j
  show k5_pay1 (F := Ideal) (iblk5 V c 0 t) (iblk5 V c 1 t) j = G _ _ (((cfg5.win 4).blk t).view.emb j)
  rw [pay1_apply (iblk5 V c 0 t) (iblk5 V c 1 t) j]
  show FloatOps.addf (F := Ideal) (φ := .f32)
      (FloatOps.mulf (F := Ideal) (φ := .f32) (V c (Pipeline.arrRef spec5 0) (((cfg5.win 0).blk t).view.emb j)) cw)
      (V c (Pipeline.arrRef spec5 1) (((cfg5.win 1).blk t).view.emb j)) = _
  rw [emb04, emb14]
  rfl

theorem flushed5_eq (A B : S100000x64.Idx → EReal)
    (hA : V c (Pipeline.arrRef spec5 2) = A) (hB : V c (Pipeline.arrRef spec5 3) = B) (t : Fin cfg5.N) :
    (dat5 (F := Ideal) V c).flushed 5 t = ((cfg5.win 5).blk t).view.read (Elt Ideal) (G A B) := by
  subst hA hB
  show (cfg5.win 5).cut (grid5.coords t) ((dat5 (F := Ideal) V c).after 5 t) = _
  rw [after5_5]
  unfold out5_5
  rw [View.canon_unit_zero hz]
  simp only [View.ld_unit_zero (S := S5000x64) hz]
  funext j
  show k5_pay2 (F := Ideal) (iblk5 V c 2 t) (iblk5 V c 3 t) j = G _ _ (((cfg5.win 5).blk t).view.emb j)
  rw [pay2_apply (iblk5 V c 2 t) (iblk5 V c 3 t) j]
  show FloatOps.addf (F := Ideal) (φ := .f32)
      (FloatOps.mulf (F := Ideal) (φ := .f32) (V c (Pipeline.arrRef spec5 2) (((cfg5.win 2).blk t).view.emb j)) cw)
      (V c (Pipeline.arrRef spec5 3) (((cfg5.win 3).blk t).view.emb j)) = _
  rw [emb25, emb35]
  rfl

/-- An output array after the region is `G` of its two input arrays. -/
theorem arr4 (A B : S100000x64.Idx → EReal)
    (hA : V c (Pipeline.arrRef spec5 0) = A) (hB : V c (Pipeline.arrRef spec5 1) = B) :
    (dat5 (F := Ideal) V c).arrAt 4 cfg5.N = G A B :=
  (dat5 (F := Ideal) V c).arrAt_eq_of_cover 4 (G A B) (fun t _ => flushed4_eq V c A B hA hB t) cover4

theorem arr5 (A B : S100000x64.Idx → EReal)
    (hA : V c (Pipeline.arrRef spec5 2) = A) (hB : V c (Pipeline.arrRef spec5 3) = B) :
    (dat5 (F := Ideal) V c).arrAt 5 cfg5.N = G A B :=
  (dat5 (F := Ideal) V c).arrAt_eq_of_cover 5 (G A B) (fun t _ => flushed5_eq V c A B hA hB t) cover5

end Arrays

/-! ## The reference's two stages are `G` of the same arrays -/

theorem ref209 (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) :
    Cert.ReferenceIdeal.Read.val_main_v209 (F := Ideal) x0 x1 x2 x3 x4 x5 x6 x7 x8 x9 x10 x11 x12 x13 x14 x15 x16 x17 x18 x19 x20 x21 x22 x23 x24 x25 x30 x31 x32 x33 = G (Cert.ReferenceIdeal.Read.val_main_v131 (F := Ideal) x0 x1 x2 x3 x4 x5 x6 x7 x8 x9 x14 x15 x16 x17 x22 x23 x24 x25 x30 x31 x32 x33) (Cert.ReferenceIdeal.Read.val_main_v208 (F := Ideal) x0 x1 x2 x3 x4 x5 x6 x7 x8 x9 x10 x11 x12 x13 x14 x15 x16 x17 x18 x19 x20 x21 x22 x23 x24 x25 x30 x31 x32 x33) := by
  funext i
  rw [Cert.ReferenceIdeal.Read.val_main_v209_apply, Cert.ReferenceIdeal.Read.val_main_v205_apply,
    Cert.ReferenceIdeal.Read.val_main_v204_apply, Cert.ReferenceIdeal.Read.val_main_cst_24_apply]
  exact comm_law _ _

theorem ref171 (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) :
    Cert.ReferenceIdeal.Read.val_main_v171 (F := Ideal) x0 x1 x2 x3 x4 x5 x6 x7 x8 x9 x10 x11 x12 x13 x14 x15 x16 x17 x18 x19 x20 x21 x22 x23 x24 x25 x30 x31 x32 x33 = G (Cert.ReferenceIdeal.Read.val_main_v133 (F := Ideal) x0 x1 x2 x3 x4 x5 x6 x7 x8 x9 x10 x11 x12 x13 x18 x19 x20 x21 x30 x31 x32 x33) (Cert.ReferenceIdeal.Read.val_main_v170 (F := Ideal) x0 x1 x2 x3 x4 x5 x6 x7 x8 x9 x10 x11 x12 x13 x14 x15 x16 x17 x18 x19 x20 x21 x22 x23 x24 x25 x30 x31 x32 x33) := by
  funext i
  rw [Cert.ReferenceIdeal.Read.val_main_v171_apply, Cert.ReferenceIdeal.Read.val_main_v167_apply,
    Cert.ReferenceIdeal.Read.val_main_v166_apply, Cert.ReferenceIdeal.Read.val_main_cst_18_apply]
  exact comm_law _ _

/-! ## The two outputs against the reference -/

theorem out_4 (V : (c : Dev nD) → (b : Ref sig .tc) → Buf (Elt Ideal) ((c : Thread nD τ).loc b)) (c : Dev nD)
    (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal))
    (h0 : V c (Pipeline.arrRef spec5 0) = Cert.ReferenceIdeal.Read.val_main_v131 (F := Ideal) x0 x1 x2 x3 x4 x5 x6 x7 x8 x9 x14 x15 x16 x17 x22 x23 x24 x25 x30 x31 x32 x33)
    (h1 : V c (Pipeline.arrRef spec5 1) = Cert.ReferenceIdeal.Read.val_main_v208 (F := Ideal) x0 x1 x2 x3 x4 x5 x6 x7 x8 x9 x10 x11 x12 x13 x14 x15 x16 x17 x18 x19 x20 x21 x22 x23 x24 x25 x30 x31 x32 x33) :
    (Cert.KernelIdeal.Gen.dat5 (F := Ideal) V c).arrAt 4 cfg5.N = Cert.ReferenceIdeal.Read.val_main_v209 (F := Ideal) x0 x1 x2 x3 x4 x5 x6 x7 x8 x9 x10 x11 x12 x13 x14 x15 x16 x17 x18 x19 x20 x21 x22 x23 x24 x25 x30 x31 x32 x33 :=
  (arr4 V c _ _ h0 h1).trans (ref209 x0 x1 x2 x3 x4 x5 x6 x7 x8 x9 x10 x11 x12 x13 x14 x15 x16 x17 x18 x19 x20 x21 x22 x23 x24 x25 x30 x31 x32 x33).symm

theorem out_5 (V : (c : Dev nD) → (b : Ref sig .tc) → Buf (Elt Ideal) ((c : Thread nD τ).loc b)) (c : Dev nD)
    (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal))
    (h2 : V c (Pipeline.arrRef spec5 2) = Cert.ReferenceIdeal.Read.val_main_v133 (F := Ideal) x0 x1 x2 x3 x4 x5 x6 x7 x8 x9 x10 x11 x12 x13 x18 x19 x20 x21 x30 x31 x32 x33)
    (h3 : V c (Pipeline.arrRef spec5 3) = Cert.ReferenceIdeal.Read.val_main_v170 (F := Ideal) x0 x1 x2 x3 x4 x5 x6 x7 x8 x9 x10 x11 x12 x13 x14 x15 x16 x17 x18 x19 x20 x21 x22 x23 x24 x25 x30 x31 x32 x33) :
    (Cert.KernelIdeal.Gen.dat5 (F := Ideal) V c).arrAt 5 cfg5.N = Cert.ReferenceIdeal.Read.val_main_v171 (F := Ideal) x0 x1 x2 x3 x4 x5 x6 x7 x8 x9 x10 x11 x12 x13 x14 x15 x16 x17 x18 x19 x20 x21 x22 x23 x24 x25 x30 x31 x32 x33 :=
  (arr5 V c _ _ h2 h3).trans (ref171 x0 x1 x2 x3 x4 x5 x6 x7 x8 x9 x10 x11 x12 x13 x14 x15 x16 x17 x18 x19 x20 x21 x22 x23 x24 x25 x30 x31 x32 x33).symm

end Cert.Bridge.R5

end
-- ==== Proof.Region6.lean ====
/-
  Region 6 of the kernel (the two-layer scoring head over the labelled edges), read as a whole array.

  For an edge `p` with user features `a_p` and business features `b_p` (64 lanes each) the kernel computes
  `z_p = ∑_k max (a_p · Wa[:,k] + b_p · Wb[:,k] + b1[k], 0) · W2[k] + b2`, where `Wa` and `Wb` are the upper and lower
  halves of one `128 × 64` matrix `W`. The reference joins `a_p` and `b_p` into one row of 128 lanes and multiplies by
  `W`: a sum over 128 lanes is the sum over the first 64 plus the sum over the last 64 (`sum_split`), lane `j` of the
  joined row is `a_p[j]` and lane `64 + j` is `b_p[j]` (`concat_left`, `concat_right`), and row `j` of the upper half of
  `W` is row `j` of `W`, row `j` of the lower half row `64 + j`. Everything else is the same term on both sides; no law of
  the extended reals beyond congruence is used, and the zero word of the rectifier is never evaluated.

  The grid has 25 points; point `t` reads rows `6000 t … 6000 t + 5999` of both feature arrays and the whole of every
  weight and bias, and writes the same rows of the `150000 × 1` output, whose blocks therefore tile it.
-/
import proofs.«109817_j10033043603480_2_alg».proof.Proof.Gen.KernelIdeal.Frame
import proofs.«109817_j10033043603480_2_alg».proof.Proof.RefRead
import proofs.«109817_j10033043603480_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.R6

open Idealize.ShloMosaic Idealize.ShloMosaic.TcCoe Idealize.SL.Sem Idealize.ShloMosaic.ValueIdx
open Idealize.ShloMosaic.Pipeline (Dat)
open Cert.KernelIdeal Cert.KernelIdeal.Gen

/-- The zero word of the rectifier, the same word on both sides: never evaluated. -/
abbrev zw : EReal := Ideal.ofBits .f32 0x00000000#32

/-! ## What both sides compute -/

/-- The score of edge `p` (column `q` of the one-column result) from the two feature arrays, the two halves of the
    first layer's matrix, and the remaining weights and biases. -/
def Gpq (A B : S150000x64.Idx → EReal) (Wa Wb : S64x64.Idx → EReal) (b1 : S64.Idx → EReal) (W2 : S64x1.Idx → EReal)
    (b2 : S1.Idx → EReal) (p : Fin 150000) (q : Fin 1) : EReal :=
  (∑ k : Fin 64, max ((∑ j : Fin 64, A (ix2 p j) * Wa (ix2 j k)) + (∑ j : Fin 64, B (ix2 p j) * Wb (ix2 j k))
      + b1 (ix1 k)) zw * W2 (ix2 k q)) + b2 (ix1 q)

/-- The whole result array. -/
def G (A B : S150000x64.Idx → EReal) (Wa Wb : S64x64.Idx → EReal) (b1 : S64.Idx → EReal) (W2 : S64x1.Idx → EReal)
    (b2 : S1.Idx → EReal) : S150000x1.Idx → EReal :=
  fun i => Gpq A B Wa Wb b1 W2 b2 ⟨(i 0).val, idx2_lt0 i⟩ ⟨(i 1).val, idx2_lt1 i⟩

theorem G_ix2 (A B : S150000x64.Idx → EReal) (Wa Wb : S64x64.Idx → EReal) (b1 : S64.Idx → EReal) (W2 : S64x1.Idx → EReal)
    (b2 : S1.Idx → EReal) (p : Fin 150000) (q : Fin 1) :
    G A B Wa Wb b1 W2 b2 (ix2 p q) = Gpq A B Wa Wb b1 W2 b2 p q := rfl

/-! ## The body's payload at an index -/

theorem hz : (![0, 0] : Fin 2 → Nat) = fun _ => 0 := funext fun a => by fin_cases a <;> rfl
theorem hz1 : (![0] : Fin 1 → Nat) = fun _ => 0 := funext fun a => by fin_cases a; rfl

/-- The body's two dimension records are the plain matrix products. -/
theorem dot1_eq : dot_S6000x64_S64x64_S6000x64_1_0_0_1_n_n = DotDims.plain 6000 64 64 := rfl
theorem dot2_eq : dot_S6000x64_S64x1_S6000x1_1_0_0_1_n_n = DotDims.plain 6000 64 1 := rfl

theorem pay_apply (v0 v5 : Vec Ideal S6000x64 .f32) (v2 v7 : Vec Ideal S64x64 .f32) (v11 : Vec Ideal S64 .f32)
    (v17 : Vec Ideal S64x1 .f32) (v19 : Vec Ideal S1 .f32) (r : Fin 6000) (q : Fin 1) :
    k6_pay1 (F := Ideal) v0 v2 v5 v7 v11 v17 v19 (ix2 r q)
      = (∑ k : Fin 64, max ((∑ j : Fin 64, v0 (ix2 r j) * v2 (ix2 j k)) + (∑ j : Fin 64, v5 (ix2 r j) * v7 (ix2 j k))
            + v11 (ix1 k)) zw * v17 (ix2 k q)) + v19 (ix1 q) := by
  unfold k6_pay1
  rw [shapeCast_self, shapeCast_self, shapeCast_self, shapeCast_self, dot1_eq, dot2_eq]
  refine congrArg₂ (· + ·) ?_ ?_
  · refine (Cert.Lib.PlainDot.matmul_zero_apply 6000 64 1 none _ v17 r q).trans ?_
    refine Finset.sum_congr rfl fun k _ => ?_
    refine congrArg (· * v17 (ix2 k q)) ?_
    refine congrArg (max · zw) ?_
    refine congrArg₂ (· + ·) (congrArg₂ (· + ·) ?_ ?_) ?_
    · exact Cert.Lib.PlainDot.matmul_zero_apply 6000 64 64 none v0 v2 r k
    · exact Cert.Lib.PlainDot.matmul_zero_apply 6000 64 64 none v5 v7 r k
    · exact (broadcastTo_1b_ab_apply _ _ r k).trans (shapeCast_a_1a_apply v11 _ 0 k)
  · exact (broadcastTo_1b_ab_apply _ _ r q).trans (shapeCast_a_1a_apply v19 _ 0 q)

/-! ## Where a block sits in its array -/

/-- The row-blocked windows' block at point `t` is block `(t, 0)`; every weight's and bias's is its whole array:
    decided once over the 25 points. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 1) = 0
    ∧ win6_7.index t (0 : Fin 2) = t.val ∧ win6_7.index t (1 : Fin 2) = 0 :=
  (by decide +kernel : ∀ t : Fin grid6.N, _)

theorem row_lt (t : Fin cfg6.N) (r : Fin 6000) : t.val * 6000 + r.val < 150000 := by
  have h1 : t.val < cfg6.N := t.isLt
  have h2 : cfg6.N = 25 := N_6
  have h3 := r.isLt
  omega

/-- Row `r` of block `t` of a row-blocked input is row `6000 t + r` of its array. -/
theorem emb0 (t : Fin cfg6.N) (r : Fin 6000) (j : Fin 64) :
    ((cfg6.win 0).blk t).view.emb (ix2 r j) = ix2 (⟨t.val * 6000 + r.val, row_lt t r⟩ : Fin 150000) j := by
  obtain ⟨e0, e1, e2, e3, e4, e5, e6, e7, e8, e9, e10, e11, e12, e13⟩ := idx_facts t
  funext a; apply Fin.ext
  match a with
  | ⟨0, _⟩ => show win6_0.index t (0 : Fin 2) * 6000 + 1 * r.val = t.val * 6000 + r.val; rw [e0]; omega
  | ⟨1, _⟩ => show win6_0.index t (1 : Fin 2) * 64 + 1 * j.val = j.val; rw [e1]; omega

theorem emb1 (t : Fin cfg6.N) (r : Fin 6000) (j : Fin 64) :
    ((cfg6.win 1).blk t).view.emb (ix2 r j) = ix2 (⟨t.val * 6000 + r.val, row_lt t r⟩ : Fin 150000) j := by
  obtain ⟨e0, e1, e2, e3, e4, e5, e6, e7, e8, e9, e10, e11, e12, e13⟩ := idx_facts t
  funext a; apply Fin.ext
  match a with
  | ⟨0, _⟩ => show win6_1.index t (0 : Fin 2) * 6000 + 1 * r.val = t.val * 6000 + r.val; rw [e2]; omega
  | ⟨1, _⟩ => show win6_1.index t (1 : Fin 2) * 64 + 1 * j.val = j.val; rw [e3]; omega

/-- The weights' and biases' blocks are their whole arrays. -/
theorem emb2 (t : Fin cfg6.N) (y : S64x64.Idx) : ((cfg6.win 2).blk t).view.emb y = y := by
  obtain ⟨e0, e1, e2, e3, e4, e5, e6, e7, e8, e9, e10, e11, e12, e13⟩ := idx_facts t
  funext a; apply Fin.ext
  match a with
  | ⟨0, _⟩ => show win6_2.index t (0 : Fin 2) * 64 + 1 * (y 0).val = (y 0).val; rw [e4]; omega
  | ⟨1, _⟩ => show win6_2.index t (1 : Fin 2) * 64 + 1 * (y 1).val = (y 1).val; rw [e5]; omega

theorem emb3 (t : Fin cfg6.N) (y : S64x64.Idx) : ((cfg6.win 3).blk t).view.emb y = y := by
  obtain ⟨e0, e1, e2, e3, e4, e5, e6, e7, e8, e9, e10, e11, e12, e13⟩ := idx_facts t
  funext a; apply Fin.ext
  match a with
  | ⟨0, _⟩ => show win6_3.index t (0 : Fin 2) * 64 + 1 * (y 0).val = (y 0).val; rw [e6]; omega
  | ⟨1, _⟩ => show win6_3.index t (1 : Fin 2) * 64 + 1 * (y 1).val = (y 1).val; rw [e7]; omega

theorem emb4 (t : Fin cfg6.N) (y : S64.Idx) : ((cfg6.win 4).blk t).view.emb y = y := by
  obtain ⟨e0, e1, e2, e3, e4, e5, e6, e7, e8, e9, e10, e11, e12, e13⟩ := idx_facts t
  funext a; apply Fin.ext
  match a with
  | ⟨0, _⟩ => show win6_4.index t (0 : Fin 1) * 64 + 1 * (y 0).val = (y 0).val; rw [e8]; omega

theorem emb5 (t : Fin cfg6.N) (y : S64x1.Idx) : ((cfg6.win 5).blk t).view.emb y = y := by
  obtain ⟨e0, e1, e2, e3, e4, e5, e6, e7, e8, e9, e10, e11, e12, e13⟩ := idx_facts t
  funext a; apply Fin.ext
  match a with
  | ⟨0, _⟩ => show win6_5.index t (0 : Fin 2) * 64 + 1 * (y 0).val = (y 0).val; rw [e9]; omega
  | ⟨1, _⟩ => show win6_5.index t (1 : Fin 2) * 1 + 1 * (y 1).val = (y 1).val; rw [e10]; omega

theorem emb6 (t : Fin cfg6.N) (y : S1.Idx) : ((cfg6.win 6).blk t).view.emb y = y := by
  obtain ⟨e0, e1, e2, e3, e4, e5, e6, e7, e8, e9, e10, e11, e12, e13⟩ := idx_facts t
  funext a; apply Fin.ext
  match a with
  | ⟨0, _⟩ => show win6_6.index t (0 : Fin 1) * 1 + 1 * (y 0).val = (y 0).val; rw [e11]; omega

/-- Row `r` of block `t` of the output is row `6000 t + r` of its array. -/
theorem emb7 (t : Fin cfg6.N) (r : Fin 6000) (q : Fin 1) :
    ((cfg6.win 7).blk t).view.emb (ix2 r q) = ix2 (⟨t.val * 6000 + r.val, row_lt t r⟩ : Fin 150000) q := by
  obtain ⟨e0, e1, e2, e3, e4, e5, e6, e7, e8, e9, e10, e11, e12, e13⟩ := idx_facts t
  funext a; apply Fin.ext
  match a with
  | ⟨0, _⟩ => show win6_7.index t (0 : Fin 2) * 6000 + 1 * r.val = t.val * 6000 + r.val; rw [e12]; omega
  | ⟨1, _⟩ => show win6_7.index t (1 : Fin 2) * 1 + 1 * q.val = q.val; rw [e13]; omega

theorem mem_blk7 (t : Fin cfg6.N) (i : S150000x1.Idx) :
    i ∈ ((cfg6.win 7).blk t).view.set ↔ ∀ a : Fin 2, win6_7.index t a * S6000x1.size a ≤ (i a).val ∧ (i a).val < win6_7.index t a * S6000x1.size a + S6000x1.size a := by
  show i ∈ ((View.whole main_v80).slice (win6_7.rect t)).set ↔ _
  rw [View.set_slice_whole, Rect.mem_set_unit]
  exact Iff.rfl

/-- Row `r` of the output array is written by point `r / 6000`. -/
theorem cover7 (i : S150000x1.Idx) :
    ∃ t : Fin cfg6.N, (cfg6.win 7).flush t = true ∧ i ∈ ((cfg6.win 7).blk t).view.set := by
  have hi0 : (i 0).val < 150000 := (i 0).isLt
  have hi1 : (i 1).val < 1 := (i 1).isLt
  have ht : (i 0).val / 6000 < cfg6.N := lt_of_lt_of_eq (by omega : (i 0).val / 6000 < 25) N_6.symm
  obtain ⟨e0, e1, e2, e3, e4, e5, e6, e7, e8, e9, e10, e11, e12, e13⟩ := idx_facts ⟨(i 0).val / 6000, ht⟩
  refine ⟨⟨(i 0).val / 6000, ht⟩, flush6_7 _, ?_⟩
  rw [mem_blk7]
  intro a
  match a with
  | ⟨0, _⟩ =>
    show win6_7.index ⟨(i 0).val / 6000, ht⟩ (0 : Fin 2) * 6000 ≤ (i 0).val ∧ (i 0).val < win6_7.index ⟨(i 0).val / 6000, ht⟩ (0 : Fin 2) * 6000 + 6000
    rw [e12]; show (i 0).val / 6000 * 6000 ≤ (i 0).val ∧ (i 0).val < (i 0).val / 6000 * 6000 + 6000; omega
  | ⟨1, _⟩ =>
    show win6_7.index ⟨(i 0).val / 6000, ht⟩ (1 : Fin 2) * 1 ≤ (i 1).val ∧ (i 1).val < win6_7.index ⟨(i 0).val / 6000, ht⟩ (1 : Fin 2) * 1 + 1
    rw [e13]; omega

/-! ## What each point writes back, and the array after the region -/

/-- The body's payload at row `r` of a block whose feature rows are rows `P` of the two feature arrays and whose
    weights and biases are the whole arrays is the score of edge `P`. Stated over plain vectors. -/
theorem pay_eq_score (A B : S150000x64.Idx → EReal) (Wa Wb : S64x64.Idx → EReal) (b1 : S64.Idx → EReal)
    (W2 : S64x1.Idx → EReal) (b2 : S1.Idx → EReal)
    (X0 X1 : Vec Ideal S6000x64 .f32) (X2 X3 : Vec Ideal S64x64 .f32) (X4 : Vec Ideal S64 .f32)
    (X5 : Vec Ideal S64x1 .f32) (X6 : Vec Ideal S1 .f32) (P : Fin 150000) (r : Fin 6000) (q : Fin 1)
    (e0 : ∀ j : Fin 64, X0 (ix2 r j) = A (ix2 P j)) (e1 : ∀ j : Fin 64, X1 (ix2 r j) = B (ix2 P j))
    (e2 : ∀ y, X2 y = Wa y) (e3 : ∀ y, X3 y = Wb y) (e4 : ∀ y, X4 y = b1 y) (e5 : ∀ y, X5 y = W2 y) (e6 : ∀ y, X6 y = b2 y) :
    k6_pay1 (F := Ideal) X0 X2 X1 X3 X4 X5 X6 (ix2 r q) = Gpq A B Wa Wb b1 W2 b2 P q := by
  rw [pay_apply]
  unfold Gpq
  refine congrArg₂ (· + ·) (Finset.sum_congr rfl fun k _ => ?_) (e6 _)
  refine congrArg₂ (· * ·) (congrArg (max · zw) (congrArg₂ (· + ·) (congrArg₂ (· + ·) ?_ ?_) (e4 _))) (e5 _)
  · exact Finset.sum_congr rfl fun j _ => congrArg₂ (· * ·) (e0 j) (e2 _)
  · exact Finset.sum_congr rfl fun j _ => congrArg₂ (· * ·) (e1 j) (e3 _)

section Arrays

variable (V : (c : Dev nD) → (b : Ref sig .tc) → Buf (Elt Ideal) ((c : Thread nD τ).loc b)) (c : Dev nD)

theorem read0 (t : Fin cfg6.N) (r : Fin 6000) (j : Fin 64) :
    iblk6 V c 0 t (ix2 r j) = V c (Pipeline.arrRef spec6 0) (ix2 (⟨t.val * 6000 + r.val, row_lt t r⟩ : Fin 150000) j) := by
  show V c (Pipeline.arrRef spec6 0) (((cfg6.win 0).blk t).view.emb (ix2 r j)) = _
  rw [emb0]
theorem read1 (t : Fin cfg6.N) (r : Fin 6000) (j : Fin 64) :
    iblk6 V c 1 t (ix2 r j) = V c (Pipeline.arrRef spec6 1) (ix2 (⟨t.val * 6000 + r.val, row_lt t r⟩ : Fin 150000) j) := by
  show V c (Pipeline.arrRef spec6 1) (((cfg6.win 1).blk t).view.emb (ix2 r j)) = _
  rw [emb1]
theorem read2 (t : Fin cfg6.N) (y : S64x64.Idx) : iblk6 V c 2 t y = V c (Pipeline.arrRef spec6 2) y := by
  show V c (Pipeline.arrRef spec6 2) (((cfg6.win 2).blk t).view.emb y) = _
  rw [emb2]
theorem read3 (t : Fin cfg6.N) (y : S64x64.Idx) : iblk6 V c 3 t y = V c (Pipeline.arrRef spec6 3) y := by
  show V c (Pipeline.arrRef spec6 3) (((cfg6.win 3).blk t).view.emb y) = _
  rw [emb3]
theorem read4 (t : Fin cfg6.N) (y : S64.Idx) : iblk6 V c 4 t y = V c (Pipeline.arrRef spec6 4) y := by
  show V c (Pipeline.arrRef spec6 4) (((cfg6.win 4).blk t).view.emb y) = _
  rw [emb4]
theorem read5 (t : Fin cfg6.N) (y : S64x1.Idx) : iblk6 V c 5 t y = V c (Pipeline.arrRef spec6 5) y := by
  show V c (Pipeline.arrRef spec6 5) (((cfg6.win 5).blk t).view.emb y) = _
  rw [emb5]
theorem read6 (t : Fin cfg6.N) (y : S1.Idx) : iblk6 V c 6 t y = V c (Pipeline.arrRef spec6 6) y := by
  show V c (Pipeline.arrRef spec6 6) (((cfg6.win 6).blk t).view.emb y) = _
  rw [emb6]

/-- Point `t` writes back block `t` of `G` of the seven input arrays. -/
theorem flushed7_eq (A B : S150000x64.Idx → EReal) (Wa Wb : S64x64.Idx → EReal) (b1 : S64.Idx → EReal)
    (W2 : S64x1.Idx → EReal) (b2 : S1.Idx → EReal)
    (h0 : V c (Pipeline.arrRef spec6 0) = A) (h1 : V c (Pipeline.arrRef spec6 1) = B)
    (h2 : V c (Pipeline.arrRef spec6 2) = Wa) (h3 : V c (Pipeline.arrRef spec6 3) = Wb)
    (h4 : V c (Pipeline.arrRef spec6 4) = b1) (h5 : V c (Pipeline.arrRef spec6 5) = W2)
    (h6 : V c (Pipeline.arrRef spec6 6) = b2) (t : Fin cfg6.N) :
    (dat6 (F := Ideal) V c).flushed 7 t = ((cfg6.win 7).blk t).view.read (Elt Ideal) (G A B Wa Wb b1 W2 b2) := by
  show (cfg6.win 7).cut (grid6.coords t) ((dat6 (F := Ideal) V c).after 7 t) = _
  rw [after6_7]
  unfold out6_7
  rw [View.canon_unit_zero hz]
  simp only [View.ld_unit_zero (S := S6000x64) hz, View.ld_unit_zero (S := S64x64) hz, View.ld_unit_zero (S := S64) hz1,
    View.ld_unit_zero (S := S64x1) hz, View.ld_unit_zero (S := S1) hz1]
  funext y
  obtain ⟨r, q, rfl⟩ : ∃ (r : Fin 6000) (q : Fin 1), y = ix2 r q := ⟨y 0, y 1, eq_ix2 y⟩
  show k6_pay1 (F := Ideal) (iblk6 V c 0 t) (iblk6 V c 2 t) (iblk6 V c 1 t) (iblk6 V c 3 t) (iblk6 V c 4 t) (iblk6 V c 5 t)
      (iblk6 V c 6 t) (ix2 r q) = G A B Wa Wb b1 W2 b2 (((cfg6.win 7).blk t).view.emb (ix2 r q))
  rw [emb7, G_ix2]
  exact pay_eq_score A B Wa Wb b1 W2 b2 (iblk6 V c 0 t) (iblk6 V c 1 t) (iblk6 V c 2 t) (iblk6 V c 3 t) (iblk6 V c 4 t)
    (iblk6 V c 5 t) (iblk6 V c 6 t) ⟨t.val * 6000 + r.val, row_lt t r⟩ r q
    (fun j => (read0 V c t r j).trans (congrFun h0 _)) (fun j => (read1 V c t r j).trans (congrFun h1 _))
    (fun y => (read2 V c t y).trans (congrFun h2 _)) (fun y => (read3 V c t y).trans (congrFun h3 _))
    (fun y => (read4 V c t y).trans (congrFun h4 _)) (fun y => (read5 V c t y).trans (congrFun h5 _))
    (fun y => (read6 V c t y).trans (congrFun h6 _))

/-- The output array after the region is `G` of the seven input arrays. -/
theorem arr7 (A B : S150000x64.Idx → EReal) (Wa Wb : S64x64.Idx → EReal) (b1 : S64.Idx → EReal)
    (W2 : S64x1.Idx → EReal) (b2 : S1.Idx → EReal)
    (h0 : V c (Pipeline.arrRef spec6 0) = A) (h1 : V c (Pipeline.arrRef spec6 1) = B)
    (h2 : V c (Pipeline.arrRef spec6 2) = Wa) (h3 : V c (Pipeline.arrRef spec6 3) = Wb)
    (h4 : V c (Pipeline.arrRef spec6 4) = b1) (h5 : V c (Pipeline.arrRef spec6 5) = W2)
    (h6 : V c (Pipeline.arrRef spec6 6) = b2) :
    (dat6 (F := Ideal) V c).arrAt 7 cfg6.N = G A B Wa Wb b1 W2 b2 :=
  (dat6 (F := Ideal) V c).arrAt_eq_of_cover 7 (G A B Wa Wb b1 W2 b2)
    (fun t _ => flushed7_eq V c A B Wa Wb b1 W2 b2 h0 h1 h2 h3 h4 h5 h6 t) cover7

end Arrays

/-! ## The joined features -/

/-- A sum over 128 lanes is the sum over the first 64 plus the sum over the last 64. -/
theorem sum_split (f : Fin 128 → EReal) :
    ∑ k : Fin 128, f k = (∑ j : Fin 64, f ⟨j.val, by omega⟩) + ∑ j : Fin 64, f ⟨64 + j.val, by omega⟩ :=
  Fin.sum_univ_add (a := 64) (b := 64) f

/-- Lane `j < 64` of the joined array is lane `j` of the first piece. -/
theorem concat_left (A B : (⟨2, ![150000, 64]⟩ : Shape).Idx → EReal)
    (h : Shape.Concatenates [(⟨2, ![150000, 64]⟩ : Shape), ⟨2, ![150000, 64]⟩] ⟨2, ![150000, 128]⟩ 1)
    (p : Fin 150000) (j : Fin 64) :
    concatenate ⟨2, ![150000, 128]⟩ 1 [⟨⟨2, ![150000, 64]⟩, A⟩, ⟨⟨2, ![150000, 64]⟩, B⟩] h (ix2 p (⟨j.val, by omega⟩ : Fin 128))
      = A (ix2 p j) :=
  concatenate_pair_apply_left 1 A B h _ rfl (ix2 p j) fun b => match b with | ⟨0, _⟩ => rfl | ⟨1, _⟩ => rfl

/-- Lane `64 + j` of the joined array is lane `j` of the second piece. -/
theorem concat_right (A B : (⟨2, ![150000, 64]⟩ : Shape).Idx → EReal)
    (h : Shape.Concatenates [(⟨2, ![150000, 64]⟩ : Shape), ⟨2, ![150000, 64]⟩] ⟨2, ![150000, 128]⟩ 1)
    (p : Fin 150000) (j : Fin 64) :
    concatenate ⟨2, ![150000, 128]⟩ 1 [⟨⟨2, ![150000, 64]⟩, A⟩, ⟨⟨2, ![150000, 64]⟩, B⟩] h (ix2 p (⟨64 + j.val, by omega⟩ : Fin 128))
      = B (ix2 p j) :=
  concatenate_pair_apply_right 1 A B h _ rfl rfl (ix2 p j)
    (fun b => match b with | ⟨0, _⟩ => fun _ => rfl | ⟨1, _⟩ => fun hb => absurd rfl hb)
    (by show j.val + 64 = 64 + j.val; omega)

/-- The product of the joined features with a `128 × 64` matrix is the sum of the two pieces' products with its
    upper and lower halves. -/
theorem sum_concat (A B : (⟨2, ![150000, 64]⟩ : Shape).Idx → EReal) (W : (⟨2, ![128, 64]⟩ : Shape).Idx → EReal)
    (h : Shape.Concatenates [(⟨2, ![150000, 64]⟩ : Shape), ⟨2, ![150000, 64]⟩] ⟨2, ![150000, 128]⟩ 1)
    (p : Fin 150000) (q : Fin 64) :
    ∑ k : Fin 128, concatenate ⟨2, ![150000, 128]⟩ 1 [⟨⟨2, ![150000, 64]⟩, A⟩, ⟨⟨2, ![150000, 64]⟩, B⟩] h (ix2 p k) * W (ix2 k q)
      = (∑ j : Fin 64, A (ix2 p j) * W (ix2 (⟨j.val, by omega⟩ : Fin 128) q))
        + ∑ j : Fin 64, B (ix2 p j) * W (ix2 (⟨64 + j.val, by omega⟩ : Fin 128) q) := by
  rw [sum_split]
  refine congrArg₂ (· + ·) (Finset.sum_congr rfl fun j _ => ?_) (Finset.sum_congr rfl fun j _ => ?_)
  · rw [concat_left]
  · rw [concat_right]

/-! ## The reference's last stage is `G` of the same arrays -/

/-- The reference's head over abstract feature arrays: the joined product splits over the two halves of `W`. -/
theorem ref_elem (A B : S150000x64.Idx → EReal) (W : S128x64.Idx → EReal)
    (h : Shape.Concatenates [S150000x64, S150000x64] (⟨2, ![150000, 128]⟩ : Shape) 1) (p : Fin 150000) (k : Fin 64) :
    (∑ k' : Fin 128, concatenate (⟨2, ![150000, 128]⟩ : Shape) 1 [⟨S150000x64, A⟩, ⟨S150000x64, B⟩] h (ix2 p k') * W (ix2 k' k))
      = (∑ j : Fin 64, A (ix2 p j) * extractStridedSlice S64x64 ![0, 0] W slices_S128x64_S64x64_0_0 (ix2 j k))
        + ∑ j : Fin 64, B (ix2 p j) * extractStridedSlice S64x64 ![64, 0] W slices_S128x64_S64x64_64_0 (ix2 j k) := by
  rw [sum_concat A B W h p k]
  refine congrArg₂ (· + ·) (Finset.sum_congr rfl fun j _ => ?_) (Finset.sum_congr rfl fun j _ => ?_)
  · rw [slice2_axis0_apply 0 W slices_S128x64_S64x64_0_0 j k ⟨j.val, by omega⟩ (by show j.val = 0 + j.val; omega)]
  · rw [slice2_axis0_apply 64 W slices_S128x64_S64x64_64_0 j k ⟨64 + j.val, by omega⟩ rfl]

theorem ref237 (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x26 : (⟨S128x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) (x34 : (⟨S2x150000, .i32⟩ : BufTy).Contents (Elt Ideal)) :
    Cert.ReferenceIdeal.Read.val_main_v237 (F := Ideal) x0 x1 x2 x3 x4 x5 x6 x7 x8 x9 x10 x11 x12 x13 x14 x15 x16 x17 x18 x19 x20 x21 x22 x23 x24 x25 x26 x27 x28 x29 x30 x31 x32 x33 x34
      = G (Cert.ReferenceIdeal.Read.val_main_v218 (F := Ideal) x0 x1 x2 x3 x4 x5 x6 x7 x8 x9 x10 x11 x12 x13 x14 x15 x16 x17 x18 x19 x20 x21 x22 x23 x24 x25 x30 x31 x32 x33 x34)
          (Cert.ReferenceIdeal.Read.val_main_v227 (F := Ideal) x0 x1 x2 x3 x4 x5 x6 x7 x8 x9 x10 x11 x12 x13 x14 x15 x16 x17 x18 x19 x20 x21 x22 x23 x24 x25 x30 x31 x32 x33 x34)
          (extractStridedSlice S64x64 ![0, 0] x26 slices_S128x64_S64x64_0_0)
          (extractStridedSlice S64x64 ![64, 0] x26 slices_S128x64_S64x64_64_0) x27 x28 x29 := by
  funext i
  obtain ⟨p, q, rfl⟩ : ∃ (p : Fin 150000) (q : Fin 1), i = ix2 p q := ⟨i 0, i 1, eq_ix2 i⟩
  rw [G_ix2, Cert.ReferenceIdeal.Read.val_main_v237_apply, Cert.ReferenceIdeal.Read.val_main_v234_apply,
    Cert.ReferenceIdeal.Read.val_main_v236_apply, Cert.ReferenceIdeal.Read.val_main_v235_apply]
  unfold Gpq
  refine congrArg₂ (· + ·) (Finset.sum_congr rfl fun k _ => ?_) ?_
  · have el : Cert.ReferenceIdeal.Read.lidx_main_v234 (ix2 p q) k = ix2 p k :=
      funext fun a => match a with | ⟨0, _⟩ => rfl | ⟨1, _⟩ => rfl
    have er : Cert.ReferenceIdeal.Read.ridx_main_v234 (ix2 p q) k = ix2 k q :=
      funext fun a => match a with | ⟨0, _⟩ => rfl | ⟨1, _⟩ => rfl
    rw [el, er, Cert.ReferenceIdeal.Read.val_main_v233_apply, Cert.ReferenceIdeal.Read.val_main_v232_apply,
      Cert.ReferenceIdeal.Read.val_main_v229_apply, Cert.ReferenceIdeal.Read.val_main_v231_apply,
      Cert.ReferenceIdeal.Read.val_main_v230_apply, Cert.ReferenceIdeal.Read.val_main_call10_v0_apply,
      Cert.ReferenceIdeal.Read.val_main_call10_cst_apply]
    unfold Cert.ReferenceIdeal.Read.val_main_v228
    generalize Cert.ReferenceIdeal.Read.val_main_v218 (F := Ideal) x0 x1 x2 x3 x4 x5 x6 x7 x8 x9 x10 x11 x12 x13 x14 x15 x16 x17 x18 x19 x20 x21 x22 x23 x24 x25 x30 x31 x32 x33 x34 = A
    generalize Cert.ReferenceIdeal.Read.val_main_v227 (F := Ideal) x0 x1 x2 x3 x4 x5 x6 x7 x8 x9 x10 x11 x12 x13 x14 x15 x16 x17 x18 x19 x20 x21 x22 x23 x24 x25 x30 x31 x32 x33 x34 = B
    refine congrArg (· * x28 (ix2 k q)) (congrArg (max · zw) (congrArg₂ (· + ·) ?_ ?_))
    · have e1 : ∀ k' : Fin 128, Cert.ReferenceIdeal.Read.lidx_main_v229 (ix2 p k) k' = ix2 p k' := fun k' =>
        funext fun a => match a with | ⟨0, _⟩ => rfl | ⟨1, _⟩ => rfl
      have e2 : ∀ k' : Fin 128, Cert.ReferenceIdeal.Read.ridx_main_v229 (ix2 p k) k' = ix2 k' k := fun k' =>
        funext fun a => match a with | ⟨0, _⟩ => rfl | ⟨1, _⟩ => rfl
      simp only [e1, e2]
      exact ref_elem A B x26 _ p k
    · exact congrArg x27 (funext fun a => match a with | ⟨0, _⟩ => rfl)
  · exact congrArg x29 (funext fun a => match a with | ⟨0, _⟩ => Fin.ext (by show 0 = q.val; omega))

/-! ## The output against the reference -/

theorem out_7 (V : (c : Dev nD) → (b : Ref sig .tc) → Buf (Elt Ideal) ((c : Thread nD τ).loc b)) (c : Dev nD)
    (x0 x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S256x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S2x192x64, .f32⟩ : BufTy).Contents (Elt Ideal)) (x19 : (⟨S2x64, .f32⟩ : BufTy).Contents (Elt Ideal)) (x20 : (⟨S2x64x64, .f32⟩ : BufTy).Contents (Elt Ideal)) (x21 : (⟨S2x64, .f32⟩ : BufTy).Contents (Elt Ideal)) (x22 : (⟨S2x192x64, .f32⟩ : BufTy).Contents (Elt Ideal)) (x23 : (⟨S2x64, .f32⟩ : BufTy).Contents (Elt Ideal)) (x24 : (⟨S2x64x64, .f32⟩ : BufTy).Contents (Elt Ideal)) (x25 : (⟨S2x64, .f32⟩ : BufTy).Contents (Elt Ideal)) (x26 : (⟨S128x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) (x30 : (⟨S300000x256, .f32⟩ : BufTy).Contents (Elt Ideal)) (x31 x32 : (⟨S100000, .i32⟩ : BufTy).Contents (Elt Ideal)) (x33 : (⟨S2x300000, .i32⟩ : BufTy).Contents (Elt Ideal)) (x34 : (⟨S2x150000, .i32⟩ : BufTy).Contents (Elt Ideal))
    (h0 : V c (Pipeline.arrRef spec6 0) = Cert.ReferenceIdeal.Read.val_main_v218 (F := Ideal) x0 x1 x2 x3 x4 x5 x6 x7 x8 x9 x10 x11 x12 x13 x14 x15 x16 x17 x18 x19 x20 x21 x22 x23 x24 x25 x30 x31 x32 x33 x34)
    (h1 : V c (Pipeline.arrRef spec6 1) = Cert.ReferenceIdeal.Read.val_main_v227 (F := Ideal) x0 x1 x2 x3 x4 x5 x6 x7 x8 x9 x10 x11 x12 x13 x14 x15 x16 x17 x18 x19 x20 x21 x22 x23 x24 x25 x30 x31 x32 x33 x34)
    (h2 : V c (Pipeline.arrRef spec6 2) = extractStridedSlice S64x64 ![0, 0] x26 slices_S128x64_S64x64_0_0)
    (h3 : V c (Pipeline.arrRef spec6 3) = extractStridedSlice S64x64 ![64, 0] x26 slices_S128x64_S64x64_64_0)
    (h4 : V c (Pipeline.arrRef spec6 4) = x27)
    (h5 : V c (Pipeline.arrRef spec6 5) = x28)
    (h6 : V c (Pipeline.arrRef spec6 6) = x29) :
    (Cert.KernelIdeal.Gen.dat6 (F := Ideal) V c).arrAt 7 cfg6.N = Cert.ReferenceIdeal.Read.val_main_v237 (F := Ideal) x0 x1 x2 x3 x4 x5 x6 x7 x8 x9 x10 x11 x12 x13 x14 x15 x16 x17 x18 x19 x20 x21 x22 x23 x24 x25 x26 x27 x28 x29 x30 x31 x32 x33 x34 :=
  (arr7 V c _ _ _ _ _ _ _ h0 h1 h2 h3 h4 h5 h6).trans (ref237 x0 x1 x2 x3 x4 x5 x6 x7 x8 x9 x10 x11 x12 x13 x14 x15 x16 x17 x18 x19 x20 x21 x22 x23 x24 x25 x26 x27 x28 x29 x30 x31 x32 x33 x34).symm

end Cert.Bridge.R6

end
-- ==== Proof.Chain.lean ====
/-
  The idealized kernel's result, boundary by boundary.

  @main of the kernel program is a chain of 24 segments: stretches of host operations (row gathers with a fill
  marker, slices and reshapes of the stacked weights and of the edge lists, the two per-endpoint sums of each round)
  and seven regions that compute, row block by row block, the node, edge, message, combination and classifier
  stages. `W j` is the contents of the TensorCore's buffers after segment `j`. For every buffer a later segment
  reads, this file states what it holds at each boundary up to its last reader, as a stage of the REFERENCE program
  (`val_main_vN` of the argument arrays `X k`):
  • an argument array holds its launch contents (no segment writes it);
  • a buffer a host operation writes holds that operation of its operands' contents — the same operation the
    reference applies to the same stages, so the equation is by unfolding the stage's definition;
  • a row gather with a fill marker holds the plain gather when the index words lie in [-100000, 100000);
  • a region's output array holds the reference's stage when its input arrays do (the regions' own files);
  • every other buffer is carried across a segment unchanged: no operation of a stretch writes it, and a region
    leaves every buffer that is not one of its output arrays as it found it.
  The last boundary gives the result array as the reference's last stage.
-/
import proofs.«109817_j10033043603480_2_alg».proof.Proof.Gen.KernelIdeal.Frame
import proofs.«109817_j10033043603480_2_alg».proof.Proof.RefRead
import proofs.«109817_j10033043603480_2_alg».proof.Proof.Takes
import proofs.«109817_j10033043603480_2_alg».proof.Proof.Region0
import proofs.«109817_j10033043603480_2_alg».proof.Proof.Region1
import proofs.«109817_j10033043603480_2_alg».proof.Proof.Region2
import proofs.«109817_j10033043603480_2_alg».proof.Proof.Region3
import proofs.«109817_j10033043603480_2_alg».proof.Proof.Region4
import proofs.«109817_j10033043603480_2_alg».proof.Proof.Region5
import proofs.«109817_j10033043603480_2_alg».proof.Proof.Region6
set_option maxRecDepth 16384
set_option quotPrecheck false

noncomputable section

namespace Cert.Bridge.Chain

open Cert.KernelIdeal Cert.KernelIdeal.Gen
open Idealize.ShloMosaic Idealize.ShloMosaic.TcCoe Idealize.SL.Sem

local notation "R" => Cert.ReferenceIdeal.Read

variable (m : (ℓ : Loc nD τ sig) → Buf (Elt Ideal) ℓ) (ρ : Dev nD → PrngReg) (c : Dev nD)

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))
local notation "X15" => (m ((c : Thread nD τ).loc main_arg15))
local notation "X16" => (m ((c : Thread nD τ).loc main_arg16))
local notation "X17" => (m ((c : Thread nD τ).loc main_arg17))
local notation "X18" => (m ((c : Thread nD τ).loc main_arg18))
local notation "X19" => (m ((c : Thread nD τ).loc main_arg19))
local notation "X20" => (m ((c : Thread nD τ).loc main_arg20))
local notation "X21" => (m ((c : Thread nD τ).loc main_arg21))
local notation "X22" => (m ((c : Thread nD τ).loc main_arg22))
local notation "X23" => (m ((c : Thread nD τ).loc main_arg23))
local notation "X24" => (m ((c : Thread nD τ).loc main_arg24))
local notation "X25" => (m ((c : Thread nD τ).loc main_arg25))
local notation "X26" => (m ((c : Thread nD τ).loc main_arg26))
local notation "X27" => (m ((c : Thread nD τ).loc main_arg27))
local notation "X28" => (m ((c : Thread nD τ).loc main_arg28))
local notation "X29" => (m ((c : Thread nD τ).loc main_arg29))
local notation "X30" => (m ((c : Thread nD τ).loc main_arg30))
local notation "X31" => (m ((c : Thread nD τ).loc main_arg31))
local notation "X32" => (m ((c : Thread nD τ).loc main_arg32))
local notation "X33" => (m ((c : Thread nD τ).loc main_arg33))
local notation "X34" => (m ((c : Thread nD τ).loc main_arg34))

local notation "RangeOf" x => ∀ i, IntOp.cmpi .sge (x i) 4294867296#32 = 1#1 ∧ IntOp.cmpi .slt (x i) 100000#32 = 1#1

/-- A buffer that no operation of a host stretch writes keeps its contents across the stretch. -/
macro "keep_host" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

theorem W0_main_arg0 : W0 m ρ c (Proc.devRef .tc main_arg0) = X0 := rfl

theorem W0_main_arg31 : W0 m ρ c (Proc.devRef .tc main_arg31) = X31 := rfl

set_option maxHeartbeats 1000000 in
theorem W1_main_v0 (h31 : RangeOf X31) (h32 : RangeOf X32) (h33 : RangeOf X33) (h34 : RangeOf X34) : W1 m ρ c (Proc.devRef .tc main_v0) = (Cert.ReferenceIdeal.Read.val_main_v6 (F := Ideal) X0 X31) := by
  refine (Cert.Bridge.Takes.call0 (W0 m ρ c) (by rw [(W0_main_arg31 m ρ c)]; exact h31) : W1 m ρ c (Proc.devRef .tc main_v0) = _).trans ?_
  rw [(W0_main_arg0 m ρ c), (W0_main_arg31 m ρ c)]
  rfl

theorem W0_main_arg1 : W0 m ρ c (Proc.devRef .tc main_arg1) = X1 := rfl

theorem W1_main_arg1 (h31 : RangeOf X31) (h32 : RangeOf X32) (h33 : RangeOf X33) (h34 : RangeOf X34) : W1 m ρ c (Proc.devRef .tc main_arg1) = X1 :=
  (by keep_host hostOps0 : W1 m ρ c (Proc.devRef .tc main_arg1) = W0 m ρ c (Proc.devRef .tc main_arg1)).trans (W0_main_arg1 m ρ c)

theorem W0_main_arg32 : W0 m ρ c (Proc.devRef .tc main_arg32) = X32 := rfl

theorem W1_main_arg32 (h31 : RangeOf X31) (h32 : RangeOf X32) (h33 : RangeOf X33) (h34 : RangeOf X34) : W1 m ρ c (Proc.devRef .tc main_arg32) = X32 :=
  (by keep_host hostOps0 : W1 m ρ c (Proc.devRef .tc main_arg32) = W0 m ρ c (Proc.devRef .tc main_arg32)).trans (W0_main_arg32 m ρ c)

set_option maxHeartbeats 1000000 in
theorem W2_main_v1 (h31 : RangeOf X31) (h32 : RangeOf X32) (h33 : RangeOf X33) (h34 : RangeOf X34) : W2 m ρ c (Proc.devRef .tc main_v1) = (Cert.ReferenceIdeal.Read.val_main_v22 (F := Ideal) X1 X32) := by
  refine (Cert.Bridge.Takes.call1 (W1 m ρ c) (by rw [(W1_main_arg32 m ρ c h31 h32 h33 h34)]; exact h32) : W2 m ρ c (Proc.devRef .tc main_v1) = _).trans ?_
  rw [(W1_main_arg1 m ρ c h31 h32 h33 h34), (W1_main_arg32 m ρ c h31 h32 h33 h34)]
  rfl

theorem W2_main_v0 (h31 : RangeOf X31) (h32 : RangeOf X32) (h33 : RangeOf X33) (h34 : RangeOf X34) : W2 m ρ c (Proc.devRef .tc main_v0) = (Cert.ReferenceIdeal.Read.val_main_v6 (F := Ideal) X0 X31) :=
  (by keep_host hostOps0_1 : W2 m ρ c (Proc.devRef .tc main_v0) = W1 m ρ c (Proc.devRef .tc main_v0)).trans (W1_main_v0 m ρ c h31 h32 h33 h34)

theorem W0_main_arg2 : W0 m ρ c (Proc.devRef .tc main_arg2) = X2 := rfl

theorem W1_main_arg2 (h31 : RangeOf X31) (h32 : RangeOf X32) (h33 : RangeOf X33) (h34 : RangeOf X34) : W1 m ρ c (Proc.devRef .tc main_arg2) = X2 :=
  (by keep_host hostOps0 : W1 m ρ c (Proc.devRef .tc main_arg2) = W0 m ρ c (Proc.devRef .tc main_arg2)).trans (W0_main_arg2 m ρ c)

theorem W2_main_arg2 (h31 : RangeOf X31) (h32 : RangeOf X32) (h33 : RangeOf X33) (h34 : RangeOf X34) : W2 m ρ c (Proc.devRef .tc main_arg2) = X2 :=
  (by keep_host hostOps0_1 : W2 m ρ c (Proc.devRef .tc main_arg2) = W1 m ρ c (Proc.devRef .tc main_arg2)).trans (W1_main_arg2 m ρ c h31 h32 h33 h34)

theorem W0_main_arg3 : W0 m ρ c (Proc.devRef .tc main_arg3) = X3 := rfl

theorem W1_main_arg3 (h31 : RangeOf X31) (h32 : RangeOf X32) (h33 : RangeOf X33) (h34 : RangeOf X34) : W1 m ρ c (Proc.devRef .tc main_arg3) = X3 :=
  (by keep_host hostOps0 : W1 m ρ c (Proc.devRef .tc main_arg3) = W0 m ρ c (Proc.devRef .tc main_arg3)).trans (W0_main_arg3 m ρ c)

theorem W2_main_arg3 (h31 : RangeOf X31) (h32 : RangeOf X32) (h33 : RangeOf X33) (h34 : RangeOf X34) : W2 m ρ c (Proc.devRef .tc main_arg3) = X3 :=
  (by keep_host hostOps0_1 : W2 m ρ c (Proc.devRef .tc main_arg3) = W1 m ρ c (Proc.devRef .tc main_arg3)).trans (W1_main_arg3 m ρ c h31 h32 h33 h34)

theorem W0_main_arg4 : W0 m ρ c (Proc.devRef .tc main_arg4) = X4 := rfl

theorem W1_main_arg4 (h31 : RangeOf X31) (h32 : RangeOf X32) (h33 : RangeOf X33) (h34 : RangeOf X34) : W1 m ρ c (Proc.devRef .tc main_arg4) = X4 :=
  (by keep_host hostOps0 : W1 m ρ c (Proc.devRef .tc main_arg4) = W0 m ρ c (Proc.devRef .tc main_arg4)).trans (W0_main_arg4 m ρ c)

theorem W2_main_arg4 (h31 : RangeOf X31) (h32 : RangeOf X32) (h33 : RangeOf X33) (h34 : RangeOf X34) : W2 m ρ c (Proc.devRef .tc main_arg4) = X4 :=
  (by keep_host hostOps0_1 : W2 m ρ c (Proc.devRef .tc main_arg4) = W1 m ρ c (Proc.devRef .tc main_arg4)).trans (W1_main_arg4 m ρ c h31 h32 h33 h34)

theorem W0_main_arg5 : W0 m ρ c (Proc.devRef .tc main_arg5) = X5 := rfl

theorem W1_main_arg5 (h31 : RangeOf X31) (h32 : RangeOf X32) (h33 : RangeOf X33) (h34 : RangeOf X34) : W1 m ρ c (Proc.devRef .tc main_arg5) = X5 :=
  (by keep_host hostOps0 : W1 m ρ c (Proc.devRef .tc main_arg5) = W0 m ρ c (Proc.devRef .tc main_arg5)).trans (W0_main_arg5 m ρ c)

theorem W2_main_arg5 (h31 : RangeOf X31) (h32 : RangeOf X32) (h33 : RangeOf X33) (h34 : RangeOf X34) : W2 m ρ c (Proc.devRef .tc main_arg5) = X5 :=
  (by keep_host hostOps0_1 : W2 m ρ c (Proc.devRef .tc main_arg5) = W1 m ρ c (Proc.devRef .tc main_arg5)).trans (W1_main_arg5 m ρ c h31 h32 h33 h34)

set_option maxHeartbeats 1000000 in
theorem W3_main_v2_0 (h31 : RangeOf X31) (h32 : RangeOf X32) (h33 : RangeOf X33) (h34 : RangeOf X34) : W3 m ρ c (Proc.devRef .tc main_v2_0) = (Cert.ReferenceIdeal.Read.val_main_v15 (F := Ideal) X0 X2 X3 X4 X5 X31) := by
  refine (W3_arr m ρ c 10).trans ?_
  exact Cert.Bridge.R0.out_10 (V2 m ρ) c X0 X2 X3 X4 X5 X31 (W2_main_v0 m ρ c h31 h32 h33 h34) (W2_main_arg2 m ρ c h31 h32 h33 h34) (W2_main_arg3 m ρ c h31 h32 h33 h34) (W2_main_arg4 m ρ c h31 h32 h33 h34) (W2_main_arg5 m ρ c h31 h32 h33 h34)

theorem W0_main_arg6 : W0 m ρ c (Proc.devRef .tc main_arg6) = X6 := rfl

theorem W1_main_arg6 (h31 : RangeOf X31) (h32 : RangeOf X32) (h33 : RangeOf X33) (h34 : RangeOf X34) : W1 m ρ c (Proc.devRef .tc main_arg6) = X6 :=
  (by keep_host hostOps0 : W1 m ρ c (Proc.devRef .tc main_arg6) = W0 m ρ c (Proc.devRef .tc main_arg6)).trans (W0_main_arg6 m ρ c)

theorem W2_main_arg6 (h31 : RangeOf X31) (h32 : RangeOf X32) (h33 : RangeOf X33) (h34 : RangeOf X34) : W2 m ρ c (Proc.devRef .tc main_arg6) = X6 :=
  (by keep_host hostOps0_1 : W2 m ρ c (Proc.devRef .tc main_arg6) = W1 m ρ c (Proc.devRef .tc main_arg6)).trans (W1_main_arg6 m ρ c h31 h32 h33 h34)

theorem W0_main_arg7 : W0 m ρ c (Proc.devRef .tc main_arg7) = X7 := rfl

theorem W1_main_arg7 (h31 : RangeOf X31) (h32 : RangeOf X32) (h33 : RangeOf X33) (h34 : RangeOf X34) : W1 m ρ c (Proc.devRef .tc main_arg7) = X7 :=
  (by keep_host hostOps0 : W1 m ρ c (Proc.devRef .tc main_arg7) = W0 m ρ c (Proc.devRef .tc main_arg7)).trans (W0_main_arg7 m ρ c)

theorem W2_main_arg7 (h31 : RangeOf X31) (h32 : RangeOf X32) (h33 : RangeOf X33) (h34 : RangeOf X34) : W2 m ρ c (Proc.devRef .tc main_arg7) = X7 :=
  (by keep_host hostOps0_1 : W2 m ρ c (Proc.devRef .tc main_arg7) = W1 m ρ c (Proc.devRef .tc main_arg7)).trans (W1_main_arg7 m ρ c h31 h32 h33 h34)

theorem W0_main_arg8 : W0 m ρ c (Proc.devRef .tc main_arg8) = X8 := rfl

theorem W1_main_arg8 (h31 : RangeOf X31) (h32 : RangeOf X32) (h33 : RangeOf X33) (h34 : RangeOf X34) : W1 m ρ c (Proc.devRef .tc main_arg8) = X8 :=
  (by keep_host hostOps0 : W1 m ρ c (Proc.devRef .tc main_arg8) = W0 m ρ c (Proc.devRef .tc main_arg8)).trans (W0_main_arg8 m ρ c)

theorem W2_main_arg8 (h31 : RangeOf X31) (h32 : RangeOf X32) (h33 : RangeOf X33) (h34 : RangeOf X34) : W2 m ρ c (Proc.devRef .tc main_arg8) = X8 :=
  (by keep_host hostOps0_1 : W2 m ρ c (Proc.devRef .tc main_arg8) = W1 m ρ c (Proc.devRef .tc main_arg8)).trans (W1_main_arg8 m ρ c h31 h32 h33 h34)

theorem W0_main_arg9 : W0 m ρ c (Proc.devRef .tc main_arg9) = X9 := rfl

theorem W1_main_arg9 (h31 : RangeOf X31) (h32 : RangeOf X32) (h33 : RangeOf X33) (h34 : RangeOf X34) : W1 m ρ c (Proc.devRef .tc main_arg9) = X9 :=
  (by keep_host hostOps0 : W1 m ρ c (Proc.devRef .tc main_arg9) = W0 m ρ c (Proc.devRef .tc main_arg9)).trans (W0_main_arg9 m ρ c)

theorem W2_main_arg9 (h31 : RangeOf X31) (h32 : RangeOf X32) (h33 : RangeOf X33) (h34 : RangeOf X34) : W2 m ρ c (Proc.devRef .tc main_arg9) = X9 :=
  (by keep_host hostOps0_1 : W2 m ρ c (Proc.devRef .tc main_arg9) = W1 m ρ c (Proc.devRef .tc main_arg9)).trans (W1_main_arg9 m ρ c h31 h32 h33 h34)

set_option maxHeartbeats 1000000 in
theorem W3_main_v2_1 (h31 : RangeOf X31) (h32 : RangeOf X32) (h33 : RangeOf X33) (h34 : RangeOf X34) : W3 m ρ c (Proc.devRef .tc main_v2_1) = (Cert.ReferenceIdeal.Read.val_main_v31 (F := Ideal) X1 X6 X7 X8 X9 X32) := by
  refine (W3_arr m ρ c 11).trans ?_
  exact Cert.Bridge.R0.out_11 (V2 m ρ) c X1 X6 X7 X8 X9 X32 (W2_main_v1 m ρ c h31 h32 h33 h34) (W2_main_arg6 m ρ c h31 h32 h33 h34) (W2_main_arg7 m ρ c h31 h32 h33 h34) (W2_main_arg8 m ρ c h31 h32 h33 h34) (W2_main_arg9 m ρ c h31 h32 h33 h34)

theorem W0_main_arg30 : W0 m ρ c (Proc.devRef .tc main_arg30) = X30 := rfl

theorem W1_main_arg30 (h31 : RangeOf X31) (h32 : RangeOf X32) (h33 : RangeOf X33) (h34 : RangeOf X34) : W1 m ρ c (Proc.devRef .tc main_arg30) = X30 :=
  (by keep_host hostOps0 : W1 m ρ c (Proc.devRef .tc main_arg30) = W0 m ρ c (Proc.devRef .tc main_arg30)).trans (W0_main_arg30 m ρ c)

theorem W2_main_arg30 (h31 : RangeOf X31) (h32 : RangeOf X32) (h33 : RangeOf X33) (h34 : RangeOf X34) : W2 m ρ c (Proc.devRef .tc main_arg30) = X30 :=
  (by keep_host hostOps0_1 : W2 m ρ c (Proc.devRef .tc main_arg30) = W1 m ρ c (Proc.devRef .tc main_arg30)).trans (W1_main_arg30 m ρ c h31 h32 h33 h34)

theorem W3_main_arg30 (h31 : RangeOf X31) (h32 : RangeOf X32) (h33 : RangeOf X33) (h34 : RangeOf X34) : W3 m ρ c (Proc.devRef .tc main_arg30) = X30 :=
  (W3_of_ne m ρ c main_arg30 (by decide)).trans (W2_main_arg30 m ρ c h31 h32 h33 h34)

theorem W0_main_arg10 : W0 m ρ c (Proc.devRef .tc main_arg10) = X10 := rfl

theorem W1_main_arg10 (h31 : RangeOf X31) (h32 : RangeOf X32) (h33 : RangeOf X33) (h34 : RangeOf X34) : W1 m ρ c (Proc.devRef .tc main_arg10) = X10 :=
  (by keep_host hostOps0 : W1 m ρ c (Proc.devRef .tc main_arg10) = W0 m ρ c (Proc.devRef .tc main_arg10)).trans (W0_main_arg10 m ρ c)

theorem W2_main_arg10 (h31 : RangeOf X31) (h32 : RangeOf X32) (h33 : RangeOf X33) (h34 : RangeOf X34) : W2 m ρ c (Proc.devRef .tc main_arg10) = X10 :=
  (by keep_host hostOps0_1 : W2 m ρ c (Proc.devRef .tc main_arg10) = W1 m ρ c (Proc.devRef .tc main_arg10)).trans (W1_main_arg10 m ρ c h31 h32 h33 h34)

theorem W3_main_arg10 (h31 : RangeOf X31) (h32 : RangeOf X32) (h33 : RangeOf X33) (h34 : RangeOf X34) : W3 m ρ c (Proc.devRef .tc main_arg10) = X10 :=
  (W3_of_ne m ρ c main_arg10 (by decide)).trans (W2_main_arg10 m ρ c h31 h32 h33 h34)

theorem W0_main_arg11 : W0 m ρ c (Proc.devRef .tc main_arg11) = X11 := rfl

theorem W1_main_arg11 (h31 : RangeOf X31) (h32 : RangeOf X32) (h33 : RangeOf X33) (h34 : RangeOf X34) : W1 m ρ c (Proc.devRef .tc main_arg11) = X11 :=
  (by keep_host hostOps0 : W1 m ρ c (Proc.devRef .tc main_arg11) = W0 m ρ c (Proc.devRef .tc main_arg11)).trans (W0_main_arg11 m ρ c)

theorem W2_main_arg11 (h31 : RangeOf X31) (h32 : RangeOf X32) (h33 : RangeOf X33) (h34 : RangeOf X34) : W2 m ρ c (Proc.devRef .tc main_arg11) = X11 :=
  (by keep_host hostOps0_1 : W2 m ρ c (Proc.devRef .tc main_arg11) = W1 m ρ c (Proc.devRef .tc main_arg11)).trans (W1_main_arg11 m ρ c h31 h32 h33 h34)

theorem W3_main_arg11 (h31 : RangeOf X31) (h32 : RangeOf X32) (h33 : RangeOf X33) (h34 : RangeOf X34) : W3 m ρ c (Proc.devRef .tc main_arg11) = X11 :=
  (W3_of_ne m ρ c main_arg11 (by decide)).trans (W2_main_arg11 m ρ c h31 h32 h33 h34)

theorem W0_main_arg12 : W0 m ρ c (Proc.devRef .tc main_arg12) = X12 := rfl

theorem W1_main_arg12 (h31 : RangeOf X31) (h32 : RangeOf X32) (h33 : RangeOf X33) (h34 : RangeOf X34) : W1 m ρ c (Proc.devRef .tc main_arg12) = X12 :=
  (by keep_host hostOps0 : W1 m ρ c (Proc.devRef .tc main_arg12) = W0 m ρ c (Proc.devRef .tc main_arg12)).trans (W0_main_arg12 m ρ c)

theorem W2_main_arg12 (h31 : RangeOf X31) (h32 : RangeOf X32) (h33 : RangeOf X33) (h34 : RangeOf X34) : W2 m ρ c (Proc.devRef .tc main_arg12) = X12 :=
  (by keep_host hostOps0_1 : W2 m ρ c (Proc.devRef .tc main_arg12) = W1 m ρ c (Proc.devRef .tc main_arg12)).trans (W1_main_arg12 m ρ c h31 h32 h33 h34)

theorem W3_main_arg12 (h31 : RangeOf X31) (h32 : RangeOf X32) (h33 : RangeOf X33) (h34 : RangeOf X34) : W3 m ρ c (Proc.devRef .tc main_arg12) = X12 :=
  (W3_of_ne m ρ c main_arg12 (by decide)).trans (W2_main_arg12 m ρ c h31 h32 h33 h34)

theorem W0_main_arg13 : W0 m ρ c (Proc.devRef .tc main_arg13) = X13 := rfl

theorem W1_main_arg13 (h31 : RangeOf X31) (h32 : RangeOf X32) (h33 : RangeOf X33) (h34 : RangeOf X34) : W1 m ρ c (Proc.devRef .tc main_arg13) = X13 :=
  (by keep_host hostOps0 : W1 m ρ c (Proc.devRef .tc main_arg13) = W0 m ρ c (Proc.devRef .tc main_arg13)).trans (W0_main_arg13 m ρ c)

theorem W2_main_arg13 (h31 : RangeOf X31) (h32 : RangeOf X32) (h33 : RangeOf X33) (h34 : RangeOf X34) : W2 m ρ c (Proc.devRef .tc main_arg13) = X13 :=
  (by keep_host hostOps0_1 : W2 m ρ c (Proc.devRef .tc main_arg13) = W1 m ρ c (Proc.devRef .tc main_arg13)).trans (W1_main_arg13 m ρ c h31 h32 h33 h34)

theorem W3_main_arg13 (h31 : RangeOf X31) (h32 : RangeOf X32) (h33 : RangeOf X33) (h34 : RangeOf X34) : W3 m ρ c (Proc.devRef .tc main_arg13) = X13 :=
  (W3_of_ne m ρ c main_arg13 (by decide)).trans (W2_main_arg13 m ρ c h31 h32 h33 h34)

set_option maxHeartbeats 1000000 in
theorem W4_main_v3_0 (h31 : RangeOf X31) (h32 : RangeOf X32) (h33 : RangeOf X33) (h34 : RangeOf X34) : W4 m ρ c (Proc.devRef .tc main_v3_0) = (Cert.ReferenceIdeal.Read.val_main_v40 (F := Ideal) X10 X11 X12 X13 X30) := by
  refine (W4_arr m ρ c 9).trans ?_
  exact Cert.Bridge.R1.out_9 (V3 m ρ) c X10 X11 X12 X13 X30 (W3_main_arg30 m ρ c h31 h32 h33 h34) (W3_main_arg10 m ρ c h31 h32 h33 h34) (W3_main_arg11 m ρ c h31 h32 h33 h34) (W3_main_arg12 m ρ c h31 h32 h33 h34) (W3_main_arg13 m ρ c h31 h32 h33 h34)

theorem W0_main_arg14 : W0 m ρ c (Proc.devRef .tc main_arg14) = X14 := rfl

theorem W1_main_arg14 (h31 : RangeOf X31) (h32 : RangeOf X32) (h33 : RangeOf X33) (h34 : RangeOf X34) : W1 m ρ c (Proc.devRef .tc main_arg14) = X14 :=
  (by keep_host hostOps0 : W1 m ρ c (Proc.devRef .tc main_arg14) = W0 m ρ c (Proc.devRef .tc main_arg14)).trans (W0_main_arg14 m ρ c)

theorem W2_main_arg14 (h31 : RangeOf X31) (h32 : RangeOf X32) (h33 : RangeOf X33) (h34 : RangeOf X34) : W2 m ρ c (Proc.devRef .tc main_arg14) = X14 :=
  (by keep_host hostOps0_1 : W2 m ρ c (Proc.devRef .tc main_arg14) = W1 m ρ c (Proc.devRef .tc main_arg14)).trans (W1_main_arg14 m ρ c h31 h32 h33 h34)

theorem W3_main_arg14 (h31 : RangeOf X31) (h32 : RangeOf X32) (h33 : RangeOf X33) (h34 : RangeOf X34) : W3 m ρ c (Proc.devRef .tc main_arg14) = X14 :=
  (W3_of_ne m ρ c main_arg14 (by decide)).trans (W2_main_arg14 m ρ c h31 h32 h33 h34)

theorem W0_main_arg15 : W0 m ρ c (Proc.devRef .tc main_arg15) = X15 := rfl

theorem W1_main_arg15 (h31 : RangeOf X31) (h32 : RangeOf X32) (h33 : RangeOf X33) (h34 : RangeOf X34) : W1 m ρ c (Proc.devRef .tc main_arg15) = X15 :=
  (by keep_host hostOps0 : W1 m ρ c (Proc.devRef .tc main_arg15) = W0 m ρ c (Proc.devRef .tc main_arg15)).trans (W0_main_arg15 m ρ c)

theorem W2_main_arg15 (h31 : RangeOf X31) (h32 : RangeOf X32) (h33 : RangeOf X33) (h34 : RangeOf X34) : W2 m ρ c (Proc.devRef .tc main_arg15) = X15 :=
  (by keep_host hostOps0_1 : W2 m ρ c (Proc.devRef .tc main_arg15) = W1 m ρ c (Proc.devRef .tc main_arg15)).trans (W1_main_arg15 m ρ c h31 h32 h33 h34)

theorem W3_main_arg15 (h31 : RangeOf X31) (h32 : RangeOf X32) (h33 : RangeOf X33) (h34 : RangeOf X34) : W3 m ρ c (Proc.devRef .tc main_arg15) = X15 :=
  (W3_of_ne m ρ c main_arg15 (by decide)).trans (W2_main_arg15 m ρ c h31 h32 h33 h34)

theorem W0_main_arg16 : W0 m ρ c (Proc.devRef .tc main_arg16) = X16 := rfl

theorem W1_main_arg16 (h31 : RangeOf X31) (h32 : RangeOf X32) (h33 : RangeOf X33) (h34 : RangeOf X34) : W1 m ρ c (Proc.devRef .tc main_arg16) = X16 :=
  (by keep_host hostOps0 : W1 m ρ c (Proc.devRef .tc main_arg16) = W0 m ρ c (Proc.devRef .tc main_arg16)).trans (W0_main_arg16 m ρ c)

theorem W2_main_arg16 (h31 : RangeOf X31) (h32 : RangeOf X32) (h33 : RangeOf X33) (h34 : RangeOf X34) : W2 m ρ c (Proc.devRef .tc main_arg16) = X16 :=
  (by keep_host hostOps0_1 : W2 m ρ c (Proc.devRef .tc main_arg16) = W1 m ρ c (Proc.devRef .tc main_arg16)).trans (W1_main_arg16 m ρ c h31 h32 h33 h34)

theorem W3_main_arg16 (h31 : RangeOf X31) (h32 : RangeOf X32) (h33 : RangeOf X33) (h34 : RangeOf X34) : W3 m ρ c (Proc.devRef .tc main_arg16) = X16 :=
  (W3_of_ne m ρ c main_arg16 (by decide)).trans (W2_main_arg16 m ρ c h31 h32 h33 h34)

theorem W0_main_arg17 : W0 m ρ c (Proc.devRef .tc main_arg17) = X17 := rfl

theorem W1_main_arg17 (h31 : RangeOf X31) (h32 : RangeOf X32) (h33 : RangeOf X33) (h34 : RangeOf X34) : W1 m ρ c (Proc.devRef .tc main_arg17) = X17 :=
  (by keep_host hostOps0 : W1 m ρ c (Proc.devRef .tc main_arg17) = W0 m ρ c (Proc.devRef .tc main_arg17)).trans (W0_main_arg17 m ρ c)

theorem W2_main_arg17 (h31 : RangeOf X31) (h32 : RangeOf X32) (h33 : RangeOf X33) (h34 : RangeOf X34) : W2 m ρ c (Proc.devRef .tc main_arg17) = X17 :=
  (by keep_host hostOps0_1 : W2 m ρ c (Proc.devRef .tc main_arg17) = W1 m ρ c (Proc.devRef .tc main_arg17)).trans (W1_main_arg17 m ρ c h31 h32 h33 h34)

theorem W3_main_arg17 (h31 : RangeOf X31) (h32 : RangeOf X32) (h33 : RangeOf X33) (h34 : RangeOf X34) : W3 m ρ c (Proc.devRef .tc main_arg17) = X17 :=
  (W3_of_ne m ρ c main_arg17 (by decide)).trans (W2_main_arg17 m ρ c h31 h32 h33 h34)

set_option maxHeartbeats 1000000 in
theorem W4_main_v3_1 (h31 : RangeOf X31) (h32 : RangeOf X32) (h33 : RangeOf X33) (h34 : RangeOf X34) : W4 m ρ c (Proc.devRef .tc main_v3_1) = (Cert.ReferenceIdeal.Read.val_main_v49 (F := Ideal) X14 X15 X16 X17 X30) := by
  refine (W4_arr m ρ c 10).trans ?_
  exact Cert.Bridge.R1.out_10 (V3 m ρ) c X14 X15 X16 X17 X30 (W3_main_arg30 m ρ c h31 h32 h33 h34) (W3_main_arg14 m ρ c h31 h32 h33 h34) (W3_main_arg15 m ρ c h31 h32 h33 h34) (W3_main_arg16 m ρ c h31 h32 h33 h34) (W3_main_arg17 m ρ c h31 h32 h33 h34)

theorem W0_main_arg33 : W0 m ρ c (Proc.devRef .tc main_arg33) = X33 := rfl

theorem W1_main_arg33 (h31 : RangeOf X31) (h32 : RangeOf X32) (h33 : RangeOf X33) (h34 : RangeOf X34) : W1 m ρ c (Proc.devRef .tc main_arg33) = X33 :=
  (by keep_host hostOps0 : W1 m ρ c (Proc.devRef .tc main_arg33) = W0 m ρ c (Proc.devRef .tc main_arg33)).trans (W0_main_arg33 m ρ c)

theorem W2_main_arg33 (h31 : RangeOf X31) (h32 : RangeOf X32) (h33 : RangeOf X33) (h34 : RangeOf X34) : W2 m ρ c (Proc.devRef .tc main_arg33) = X33 :=
  (by keep_host hostOps0_1 : W2 m ρ c (Proc.devRef .tc main_arg33) = W1 m ρ c (Proc.devRef .tc main_arg33)).trans (W1_main_arg33 m ρ c h31 h32 h33 h34)

theorem W3_main_arg33 (h31 : RangeOf X31) (h32 : RangeOf X32) (h33 : RangeOf X33) (h34 : RangeOf X34) : W3 m ρ c (Proc.devRef .tc main_arg33) = X33 :=
  (W3_of_ne m ρ c main_arg33 (by decide)).trans (W2_main_arg33 m ρ c h31 h32 h33 h34)

theorem W4_main_arg33 (h31 : RangeOf X31) (h32 : RangeOf X32) (h33 : RangeOf X33) (h34 : RangeOf X34) : W4 m ρ c (Proc.devRef .tc main_arg33) = X33 :=
  (W4_of_ne m ρ c main_arg33 (by decide)).trans (W3_main_arg33 m ρ c h31 h32 h33 h34)

set_option maxHeartbeats 1000000 in
theorem W5_main_v5 (h31 : RangeOf X31) (h32 : RangeOf X32) (h33 : RangeOf X33) (h34 : RangeOf X34) : W5 m ρ c (Proc.devRef .tc main_v5) = (Cert.ReferenceIdeal.Read.val_main_v51 (F := Ideal) X33) := by
  have e0 := (W4_main_arg33 m ρ c h31 h32 h33 h34)
  show StableHlo.after hostOps2 (W4 m ρ c) (Proc.devRef .tc main_v5) = _
  generalize W4 m ρ c = W at e0 ⊢
  simp only [hostOps2]
  after_results
  rw [e0]
  rfl

set_option maxHeartbeats 1000000 in
theorem W5_main_v7 (h31 : RangeOf X31) (h32 : RangeOf X32) (h33 : RangeOf X33) (h34 : RangeOf X34) : W5 m ρ c (Proc.devRef .tc main_v7) = (Cert.ReferenceIdeal.Read.val_main_v53 (F := Ideal) X33) := by
  have e0 := (W4_main_arg33 m ρ c h31 h32 h33 h34)
  show StableHlo.after hostOps2 (W4 m ρ c) (Proc.devRef .tc main_v7) = _
  generalize W4 m ρ c = W at e0 ⊢
  simp only [hostOps2]
  after_results
  rw [e0]
  rfl

theorem W4_main_v2_0 (h31 : RangeOf X31) (h32 : RangeOf X32) (h33 : RangeOf X33) (h34 : RangeOf X34) : W4 m ρ c (Proc.devRef .tc main_v2_0) = (Cert.ReferenceIdeal.Read.val_main_v15 (F := Ideal) X0 X2 X3 X4 X5 X31) :=
  (W4_of_ne m ρ c main_v2_0 (by decide)).trans (W3_main_v2_0 m ρ c h31 h32 h33 h34)

theorem W5_main_v2_0 (h31 : RangeOf X31) (h32 : RangeOf X32) (h33 : RangeOf X33) (h34 : RangeOf X34) : W5 m ρ c (Proc.devRef .tc main_v2_0) = (Cert.ReferenceIdeal.Read.val_main_v15 (F := Ideal) X0 X2 X3 X4 X5 X31) :=
  (by keep_host hostOps2 : W5 m ρ c (Proc.devRef .tc main_v2_0) = W4 m ρ c (Proc.devRef .tc main_v2_0)).trans (W4_main_v2_0 m ρ c h31 h32 h33 h34)

set_option maxHeartbeats 1000000 in
theorem W6_main_v8 (h31 : RangeOf X31) (h32 : RangeOf X32) (h33 : RangeOf X33) (h34 : RangeOf X34) : W6 m ρ c (Proc.devRef .tc main_v8) = (Cert.ReferenceIdeal.Read.val_main_v67 (F := Ideal) X0 X2 X3 X4 X5 X31 X33) := by
  refine (Cert.Bridge.Takes.call2 (W5 m ρ c) (by rw [(W5_main_v5 m ρ c h31 h32 h33 h34)]; exact (Cert.Bridge.Takes.range_v51 X33 h33)) : W6 m ρ c (Proc.devRef .tc main_v8) = _).trans ?_
  rw [(W5_main_v2_0 m ρ c h31 h32 h33 h34), (W5_main_v5 m ρ c h31 h32 h33 h34)]
  rfl

theorem W4_main_v2_1 (h31 : RangeOf X31) (h32 : RangeOf X32) (h33 : RangeOf X33) (h34 : RangeOf X34) : W4 m ρ c (Proc.devRef .tc main_v2_1) = (Cert.ReferenceIdeal.Read.val_main_v31 (F := Ideal) X1 X6 X7 X8 X9 X32) :=
  (W4_of_ne m ρ c main_v2_1 (by decide)).trans (W3_main_v2_1 m ρ c h31 h32 h33 h34)

theorem W5_main_v2_1 (h31 : RangeOf X31) (h32 : RangeOf X32) (h33 : RangeOf X33) (h34 : RangeOf X34) : W5 m ρ c (Proc.devRef .tc main_v2_1) = (Cert.ReferenceIdeal.Read.val_main_v31 (F := Ideal) X1 X6 X7 X8 X9 X32) :=
  (by keep_host hostOps2 : W5 m ρ c (Proc.devRef .tc main_v2_1) = W4 m ρ c (Proc.devRef .tc main_v2_1)).trans (W4_main_v2_1 m ρ c h31 h32 h33 h34)

theorem W6_main_v2_1 (h31 : RangeOf X31) (h32 : RangeOf X32) (h33 : RangeOf X33) (h34 : RangeOf X34) : W6 m ρ c (Proc.devRef .tc main_v2_1) = (Cert.ReferenceIdeal.Read.val_main_v31 (F := Ideal) X1 X6 X7 X8 X9 X32) :=
  (by keep_host hostOps2_1 : W6 m ρ c (Proc.devRef .tc main_v2_1) = W5 m ρ c (Proc.devRef .tc main_v2_1)).trans (W5_main_v2_1 m ρ c h31 h32 h33 h34)

theorem W6_main_v7 (h31 : RangeOf X31) (h32 : RangeOf X32) (h33 : RangeOf X33) (h34 : RangeOf X34) : W6 m ρ c (Proc.devRef .tc main_v7) = (Cert.ReferenceIdeal.Read.val_main_v53 (F := Ideal) X33) :=
  (by keep_host hostOps2_1 : W6 m ρ c (Proc.devRef .tc main_v7) = W5 m ρ c (Proc.devRef .tc main_v7)).trans (W5_main_v7 m ρ c h31 h32 h33 h34)

set_option maxHeartbeats 1000000 in
theorem W7_main_v9 (h31 : RangeOf X31) (h32 : RangeOf X32) (h33 : RangeOf X33) (h34 : RangeOf X34) : W7 m ρ c (Proc.devRef .tc main_v9) = (Cert.ReferenceIdeal.Read.val_main_v60 (F := Ideal) X1 X6 X7 X8 X9 X32 X33) := by
  refine (Cert.Bridge.Takes.call3 (W6 m ρ c) (by rw [(W6_main_v7 m ρ c h31 h32 h33 h34)]; exact (Cert.Bridge.Takes.range_v53 X33 h33)) : W7 m ρ c (Proc.devRef .tc main_v9) = _).trans ?_
  rw [(W6_main_v2_1 m ρ c h31 h32 h33 h34), (W6_main_v7 m ρ c h31 h32 h33 h34)]
  rfl

theorem W0_main_arg18 : W0 m ρ c (Proc.devRef .tc main_arg18) = X18 := rfl

theorem W1_main_arg18 (h31 : RangeOf X31) (h32 : RangeOf X32) (h33 : RangeOf X33) (h34 : RangeOf X34) : W1 m ρ c (Proc.devRef .tc main_arg18) = X18 :=
  (by keep_host hostOps0 : W1 m ρ c (Proc.devRef .tc main_arg18) = W0 m ρ c (Proc.devRef .tc main_arg18)).trans (W0_main_arg18 m ρ c)

theorem W2_main_arg18 (h31 : RangeOf X31) (h32 : RangeOf X32) (h33 : RangeOf X33) (h34 : RangeOf X34) : W2 m ρ c (Proc.devRef .tc main_arg18) = X18 :=
  (by keep_host hostOps0_1 : W2 m ρ c (Proc.devRef .tc main_arg18) = W1 m ρ c (Proc.devRef .tc main_arg18)).trans (W1_main_arg18 m ρ c h31 h32 h33 h34)

theorem W3_main_arg18 (h31 : RangeOf X31) (h32 : RangeOf X32) (h33 : RangeOf X33) (h34 : RangeOf X34) : W3 m ρ c (Proc.devRef .tc main_arg18) = X18 :=
  (W3_of_ne m ρ c main_arg18 (by decide)).trans (W2_main_arg18 m ρ c h31 h32 h33 h34)

theorem W4_main_arg18 (h31 : RangeOf X31) (h32 : RangeOf X32) (h33 : RangeOf X33) (h34 : RangeOf X34) : W4 m ρ c (Proc.devRef .tc main_arg18) = X18 :=
  (W4_of_ne m ρ c main_arg18 (by decide)).trans (W3_main_arg18 m ρ c h31 h32 h33 h34)

theorem W5_main_arg18 (h31 : RangeOf X31) (h32 : RangeOf X32) (h33 : RangeOf X33) (h34 : RangeOf X34) : W5 m ρ c (Proc.devRef .tc main_arg18) = X18 :=
  (by keep_host hostOps2 : W5 m ρ c (Proc.devRef .tc main_arg18) = W4 m ρ c (Proc.devRef .tc main_arg18)).trans (W4_main_arg18 m ρ c h31 h32 h33 h34)

theorem W6_main_arg18 (h31 : RangeOf X31) (h32 : RangeOf X32) (h33 : RangeOf X33) (h34 : RangeOf X34) : W6 m ρ c (Proc.devRef .tc main_arg18) = X18 :=
  (by keep_host hostOps2_1 : W6 m ρ c (Proc.devRef .tc main_arg18) = W5 m ρ c (Proc.devRef .tc main_arg18)).trans (W5_main_arg18 m ρ c h31 h32 h33 h34)

theorem W7_main_arg18 (h31 : RangeOf X31) (h32 : RangeOf X32) (h33 : RangeOf X33) (h34 : RangeOf X34) : W7 m ρ c (Proc.devRef .tc main_arg18) = X18 :=
  (by keep_host hostOps2_2 : W7 m ρ c (Proc.devRef .tc main_arg18) = W6 m ρ c (Proc.devRef .tc main_arg18)).trans (W6_main_arg18 m ρ c h31 h32 h33 h34)

set_option maxHeartbeats 1000000 in
theorem W8_main_v26 (h31 : RangeOf X31) (h32 : RangeOf X32) (h33 : RangeOf X33) (h34 : RangeOf X34) : W8 m ρ c (Proc.devRef .tc main_v26) = (extractStridedSlice S64x64 ![0, 0] (Cert.ReferenceIdeal.Read.val_main_v70 (F := Ideal) X18) slices_S192x64_S64x64_0_0) := by
  have e0 := (W7_main_arg18 m ρ c h31 h32 h33 h34)
  show StableHlo.after hostOps2_3 (W7 m ρ c) (Proc.devRef .tc main_v26) = _
  generalize W7 m ρ c = W at e0 ⊢
  simp only [hostOps2_3]
  after_results
  rw [e0]
  rfl

set_option maxHeartbeats 1000000 in
theorem W8_main_v27 (h31 : RangeOf X31) (h32 : RangeOf X32) (h33 : RangeOf X33) (h34 : RangeOf X34) : W8 m ρ c (Proc.devRef .tc main_v27) = (extractStridedSlice S64x64 ![64, 0] (Cert.ReferenceIdeal.Read.val_main_v70 (F := Ideal) X18) slices_S192x64_S64x64_64_0) := by
  have e0 := (W7_main_arg18 m ρ c h31 h32 h33 h34)
  show StableHlo.after hostOps2_3 (W7 m ρ c) (Proc.devRef .tc main_v27) = _
  generalize W7 m ρ c = W at e0 ⊢
  simp only [hostOps2_3]
  after_results
  rw [e0]
  rfl

set_option maxHeartbeats 1000000 in
theorem W8_main_v28 (h31 : RangeOf X31) (h32 : RangeOf X32) (h33 : RangeOf X33) (h34 : RangeOf X34) : W8 m ρ c (Proc.devRef .tc main_v28) = (extractStridedSlice S64x64 ![128, 0] (Cert.ReferenceIdeal.Read.val_main_v70 (F := Ideal) X18) slices_S192x64_S64x64_128_0) := by
  have e0 := (W7_main_arg18 m ρ c h31 h32 h33 h34)
  show StableHlo.after hostOps2_3 (W7 m ρ c) (Proc.devRef .tc main_v28) = _
  generalize W7 m ρ c = W at e0 ⊢
  simp only [hostOps2_3]
  after_results
  rw [e0]
  rfl

theorem W0_main_arg19 : W0 m ρ c (Proc.devRef .tc main_arg19) = X19 := rfl

theorem W1_main_arg19 (h31 : RangeOf X31) (h32 : RangeOf X32) (h33 : RangeOf X33) (h34 : RangeOf X34) : W1 m ρ c (Proc.devRef .tc main_arg19) = X19 :=
  (by keep_host hostOps0 : W1 m ρ c (Proc.devRef .tc main_arg19) = W0 m ρ c (Proc.devRef .tc main_arg19)).trans (W0_main_arg19 m ρ c)

theorem W2_main_arg19 (h31 : RangeOf X31) (h32 : RangeOf X32) (h33 : RangeOf X33) (h34 : RangeOf X34) : W2 m ρ c (Proc.devRef .tc main_arg19) = X19 :=
  (by keep_host hostOps0_1 : W2 m ρ c (Proc.devRef .tc main_arg19) = W1 m ρ c (Proc.devRef .tc main_arg19)).trans (W1_main_arg19 m ρ c h31 h32 h33 h34)

theorem W3_main_arg19 (h31 : RangeOf X31) (h32 : RangeOf X32) (h33 : RangeOf X33) (h34 : RangeOf X34) : W3 m ρ c (Proc.devRef .tc main_arg19) = X19 :=
  (W3_of_ne m ρ c main_arg19 (by decide)).trans (W2_main_arg19 m ρ c h31 h32 h33 h34)

theorem W4_main_arg19 (h31 : RangeOf X31) (h32 : RangeOf X32) (h33 : RangeOf X33) (h34 : RangeOf X34) : W4 m ρ c (Proc.devRef .tc main_arg19) = X19 :=
  (W4_of_ne m ρ c main_arg19 (by decide)).trans (W3_main_arg19 m ρ c h31 h32 h33 h34)

theorem W5_main_arg19 (h31 : RangeOf X31) (h32 : RangeOf X32) (h33 : RangeOf X33) (h34 : RangeOf X34) : W5 m ρ c (Proc.devRef .tc main_arg19) = X19 :=
  (by keep_host hostOps2 : W5 m ρ c (Proc.devRef .tc main_arg19) = W4 m ρ c (Proc.devRef .tc main_arg19)).trans (W4_main_arg19 m ρ c h31 h32 h33 h34)

theorem W6_main_arg19 (h31 : RangeOf X31) (h32 : RangeOf X32) (h33 : RangeOf X33) (h34 : RangeOf X34) : W6 m ρ c (Proc.devRef .tc main_arg19) = X19 :=
  (by keep_host hostOps2_1 : W6 m ρ c (Proc.devRef .tc main_arg19) = W5 m ρ c (Proc.devRef .tc main_arg19)).trans (W5_main_arg19 m ρ c h31 h32 h33 h34)

theorem W7_main_arg19 (h31 : RangeOf X31) (h32 : RangeOf X32) (h33 : RangeOf X33) (h34 : RangeOf X34) : W7 m ρ c (Proc.devRef .tc main_arg19) = X19 :=
  (by keep_host hostOps2_2 : W7 m ρ c (Proc.devRef .tc main_arg19) = W6 m ρ c (Proc.devRef .tc main_arg19)).trans (W6_main_arg19 m ρ c h31 h32 h33 h34)

set_option maxHeartbeats 1000000 in
theorem W8_main_v13 (h31 : RangeOf X31) (h32 : RangeOf X32) (h33 : RangeOf X33) (h34 : RangeOf X34) : W8 m ρ c (Proc.devRef .tc main_v13) = (Cert.ReferenceIdeal.Read.val_main_v72 (F := Ideal) X19) := by
  have e0 := (W7_main_arg19 m ρ c h31 h32 h33 h34)
  show StableHlo.after hostOps2_3 (W7 m ρ c) (Proc.devRef .tc main_v13) = _
  generalize W7 m ρ c = W at e0 ⊢
  simp only [hostOps2_3]
  after_results
  rw [e0]
  rfl

theorem W0_main_arg20 : W0 m ρ c (Proc.devRef .tc main_arg20) = X20 := rfl

theorem W1_main_arg20 (h31 : RangeOf X31) (h32 : RangeOf X32) (h33 : RangeOf X33) (h34 : RangeOf X34) : W1 m ρ c (Proc.devRef .tc main_arg20) = X20 :=
  (by keep_host hostOps0 : W1 m ρ c (Proc.devRef .tc main_arg20) = W0 m ρ c (Proc.devRef .tc main_arg20)).trans (W0_main_arg20 m ρ c)

theorem W2_main_arg20 (h31 : RangeOf X31) (h32 : RangeOf X32) (h33 : RangeOf X33) (h34 : RangeOf X34) : W2 m ρ c (Proc.devRef .tc main_arg20) = X20 :=
  (by keep_host hostOps0_1 : W2 m ρ c (Proc.devRef .tc main_arg20) = W1 m ρ c (Proc.devRef .tc main_arg20)).trans (W1_main_arg20 m ρ c h31 h32 h33 h34)

theorem W3_main_arg20 (h31 : RangeOf X31) (h32 : RangeOf X32) (h33 : RangeOf X33) (h34 : RangeOf X34) : W3 m ρ c (Proc.devRef .tc main_arg20) = X20 :=
  (W3_of_ne m ρ c main_arg20 (by decide)).trans (W2_main_arg20 m ρ c h31 h32 h33 h34)

theorem W4_main_arg20 (h31 : RangeOf X31) (h32 : RangeOf X32) (h33 : RangeOf X33) (h34 : RangeOf X34) : W4 m ρ c (Proc.devRef .tc main_arg20) = X20 :=
  (W4_of_ne m ρ c main_arg20 (by decide)).trans (W3_main_arg20 m ρ c h31 h32 h33 h34)

theorem W5_main_arg20 (h31 : RangeOf X31) (h32 : RangeOf X32) (h33 : RangeOf X33) (h34 : RangeOf X34) : W5 m ρ c (Proc.devRef .tc main_arg20) = X20 :=
  (by keep_host hostOps2 : W5 m ρ c (Proc.devRef .tc main_arg20) = W4 m ρ c (Proc.devRef .tc main_arg20)).trans (W4_main_arg20 m ρ c h31 h32 h33 h34)

theorem W6_main_arg20 (h31 : RangeOf X31) (h32 : RangeOf X32) (h33 : RangeOf X33) (h34 : RangeOf X34) : W6 m ρ c (Proc.devRef .tc main_arg20) = X20 :=
  (by keep_host hostOps2_1 : W6 m ρ c (Proc.devRef .tc main_arg20) = W5 m ρ c (Proc.devRef .tc main_arg20)).trans (W5_main_arg20 m ρ c h31 h32 h33 h34)

theorem W7_main_arg20 (h31 : RangeOf X31) (h32 : RangeOf X32) (h33 : RangeOf X33) (h34 : RangeOf X34) : W7 m ρ c (Proc.devRef .tc main_arg20) = X20 :=
  (by keep_host hostOps2_2 : W7 m ρ c (Proc.devRef .tc main_arg20) = W6 m ρ c (Proc.devRef .tc main_arg20)).trans (W6_main_arg20 m ρ c h31 h32 h33 h34)

set_option maxHeartbeats 1000000 in
theorem W8_main_v15 (h31 : RangeOf X31) (h32 : RangeOf X32) (h33 : RangeOf X33) (h34 : RangeOf X34) : W8 m ρ c (Proc.devRef .tc main_v15) = (Cert.ReferenceIdeal.Read.val_main_v74 (F := Ideal) X20) := by
  have e0 := (W7_main_arg20 m ρ c h31 h32 h33 h34)
  show StableHlo.after hostOps2_3 (W7 m ρ c) (Proc.devRef .tc main_v15) = _
  generalize W7 m ρ c = W at e0 ⊢
  simp only [hostOps2_3]
  after_results
  rw [e0]
  rfl

theorem W0_main_arg21 : W0 m ρ c (Proc.devRef .tc main_arg21) = X21 := rfl

theorem W1_main_arg21 (h31 : RangeOf X31) (h32 : RangeOf X32) (h33 : RangeOf X33) (h34 : RangeOf X34) : W1 m ρ c (Proc.devRef .tc main_arg21) = X21 :=
  (by keep_host hostOps0 : W1 m ρ c (Proc.devRef .tc main_arg21) = W0 m ρ c (Proc.devRef .tc main_arg21)).trans (W0_main_arg21 m ρ c)

theorem W2_main_arg21 (h31 : RangeOf X31) (h32 : RangeOf X32) (h33 : RangeOf X33) (h34 : RangeOf X34) : W2 m ρ c (Proc.devRef .tc main_arg21) = X21 :=
  (by keep_host hostOps0_1 : W2 m ρ c (Proc.devRef .tc main_arg21) = W1 m ρ c (Proc.devRef .tc main_arg21)).trans (W1_main_arg21 m ρ c h31 h32 h33 h34)

theorem W3_main_arg21 (h31 : RangeOf X31) (h32 : RangeOf X32) (h33 : RangeOf X33) (h34 : RangeOf X34) : W3 m ρ c (Proc.devRef .tc main_arg21) = X21 :=
  (W3_of_ne m ρ c main_arg21 (by decide)).trans (W2_main_arg21 m ρ c h31 h32 h33 h34)

theorem W4_main_arg21 (h31 : RangeOf X31) (h32 : RangeOf X32) (h33 : RangeOf X33) (h34 : RangeOf X34) : W4 m ρ c (Proc.devRef .tc main_arg21) = X21 :=
  (W4_of_ne m ρ c main_arg21 (by decide)).trans (W3_main_arg21 m ρ c h31 h32 h33 h34)

theorem W5_main_arg21 (h31 : RangeOf X31) (h32 : RangeOf X32) (h33 : RangeOf X33) (h34 : RangeOf X34) : W5 m ρ c (Proc.devRef .tc main_arg21) = X21 :=
  (by keep_host hostOps2 : W5 m ρ c (Proc.devRef .tc main_arg21) = W4 m ρ c (Proc.devRef .tc main_arg21)).trans (W4_main_arg21 m ρ c h31 h32 h33 h34)

theorem W6_main_arg21 (h31 : RangeOf X31) (h32 : RangeOf X32) (h33 : RangeOf X33) (h34 : RangeOf X34) : W6 m ρ c (Proc.devRef .tc main_arg21) = X21 :=
  (by keep_host hostOps2_1 : W6 m ρ c (Proc.devRef .tc main_arg21) = W5 m ρ c (Proc.devRef .tc main_arg21)).trans (W5_main_arg21 m ρ c h31 h32 h33 h34)

theorem W7_main_arg21 (h31 : RangeOf X31) (h32 : RangeOf X32) (h33 : RangeOf X33) (h34 : RangeOf X34) : W7 m ρ c (Proc.devRef .tc main_arg21) = X21 :=
  (by keep_host hostOps2_2 : W7 m ρ c (Proc.devRef .tc main_arg21) = W6 m ρ c (Proc.devRef .tc main_arg21)).trans (W6_main_arg21 m ρ c h31 h32 h33 h34)

set_option maxHeartbeats 1000000 in
theorem W8_main_v17 (h31 : RangeOf X31) (h32 : RangeOf X32) (h33 : RangeOf X33) (h34 : RangeOf X34) : W8 m ρ c (Proc.devRef .tc main_v17) = (Cert.ReferenceIdeal.Read.val_main_v76 (F := Ideal) X21) := by
  have e0 := (W7_main_arg21 m ρ c h31 h32 h33 h34)
  show StableHlo.after hostOps2_3 (W7 m ρ c) (Proc.devRef .tc main_v17) = _
  generalize W7 m ρ c = W at e0 ⊢
  simp only [hostOps2_3]
  after_results
  rw [e0]
  rfl

theorem W0_main_arg22 : W0 m ρ c (Proc.devRef .tc main_arg22) = X22 := rfl

theorem W1_main_arg22 (h31 : RangeOf X31) (h32 : RangeOf X32) (h33 : RangeOf X33) (h34 : RangeOf X34) : W1 m ρ c (Proc.devRef .tc main_arg22) = X22 :=
  (by keep_host hostOps0 : W1 m ρ c (Proc.devRef .tc main_arg22) = W0 m ρ c (Proc.devRef .tc main_arg22)).trans (W0_main_arg22 m ρ c)

theorem W2_main_arg22 (h31 : RangeOf X31) (h32 : RangeOf X32) (h33 : RangeOf X33) (h34 : RangeOf X34) : W2 m ρ c (Proc.devRef .tc main_arg22) = X22 :=
  (by keep_host hostOps0_1 : W2 m ρ c (Proc.devRef .tc main_arg22) = W1 m ρ c (Proc.devRef .tc main_arg22)).trans (W1_main_arg22 m ρ c h31 h32 h33 h34)

theorem W3_main_arg22 (h31 : RangeOf X31) (h32 : RangeOf X32) (h33 : RangeOf X33) (h34 : RangeOf X34) : W3 m ρ c (Proc.devRef .tc main_arg22) = X22 :=
  (W3_of_ne m ρ c main_arg22 (by decide)).trans (W2_main_arg22 m ρ c h31 h32 h33 h34)

theorem W4_main_arg22 (h31 : RangeOf X31) (h32 : RangeOf X32) (h33 : RangeOf X33) (h34 : RangeOf X34) : W4 m ρ c (Proc.devRef .tc main_arg22) = X22 :=
  (W4_of_ne m ρ c main_arg22 (by decide)).trans (W3_main_arg22 m ρ c h31 h32 h33 h34)

theorem W5_main_arg22 (h31 : RangeOf X31) (h32 : RangeOf X32) (h33 : RangeOf X33) (h34 : RangeOf X34) : W5 m ρ c (Proc.devRef .tc main_arg22) = X22 :=
  (by keep_host hostOps2 : W5 m ρ c (Proc.devRef .tc main_arg22) = W4 m ρ c (Proc.devRef .tc main_arg22)).trans (W4_main_arg22 m ρ c h31 h32 h33 h34)

theorem W6_main_arg22 (h31 : RangeOf X31) (h32 : RangeOf X32) (h33 : RangeOf X33) (h34 : RangeOf X34) : W6 m ρ c (Proc.devRef .tc main_arg22) = X22 :=
  (by keep_host hostOps2_1 : W6 m ρ c (Proc.devRef .tc main_arg22) = W5 m ρ c (Proc.devRef .tc main_arg22)).trans (W5_main_arg22 m ρ c h31 h32 h33 h34)

theorem W7_main_arg22 (h31 : RangeOf X31) (h32 : RangeOf X32) (h33 : RangeOf X33) (h34 : RangeOf X34) : W7 m ρ c (Proc.devRef .tc main_arg22) = X22 :=
  (by keep_host hostOps2_2 : W7 m ρ c (Proc.devRef .tc main_arg22) = W6 m ρ c (Proc.devRef .tc main_arg22)).trans (W6_main_arg22 m ρ c h31 h32 h33 h34)

set_option maxHeartbeats 1000000 in
theorem W8_main_v29 (h31 : RangeOf X31) (h32 : RangeOf X32) (h33 : RangeOf X33) (h34 : RangeOf X34) : W8 m ρ c (Proc.devRef .tc main_v29) = (extractStridedSlice S64x64 ![0, 0] (Cert.ReferenceIdeal.Read.val_main_v108 (F := Ideal) X22) slices_S192x64_S64x64_0_0) := by
  have e0 := (W7_main_arg22 m ρ c h31 h32 h33 h34)
  show StableHlo.after hostOps2_3 (W7 m ρ c) (Proc.devRef .tc main_v29) = _
  generalize W7 m ρ c = W at e0 ⊢
  simp only [hostOps2_3]
  after_results
  rw [e0]
  rfl

set_option maxHeartbeats 1000000 in
theorem W8_main_v30 (h31 : RangeOf X31) (h32 : RangeOf X32) (h33 : RangeOf X33) (h34 : RangeOf X34) : W8 m ρ c (Proc.devRef .tc main_v30) = (extractStridedSlice S64x64 ![64, 0] (Cert.ReferenceIdeal.Read.val_main_v108 (F := Ideal) X22) slices_S192x64_S64x64_64_0) := by
  have e0 := (W7_main_arg22 m ρ c h31 h32 h33 h34)
  show StableHlo.after hostOps2_3 (W7 m ρ c) (Proc.devRef .tc main_v30) = _
  generalize W7 m ρ c = W at e0 ⊢
  simp only [hostOps2_3]
  after_results
  rw [e0]
  rfl

set_option maxHeartbeats 1000000 in
theorem W8_main_v31 (h31 : RangeOf X31) (h32 : RangeOf X32) (h33 : RangeOf X33) (h34 : RangeOf X34) : W8 m ρ c (Proc.devRef .tc main_v31) = (extractStridedSlice S64x64 ![128, 0] (Cert.ReferenceIdeal.Read.val_main_v108 (F := Ideal) X22) slices_S192x64_S64x64_128_0) := by
  have e0 := (W7_main_arg22 m ρ c h31 h32 h33 h34)
  show StableHlo.after hostOps2_3 (W7 m ρ c) (Proc.devRef .tc main_v31) = _
  generalize W7 m ρ c = W at e0 ⊢
  simp only [hostOps2_3]
  after_results
  rw [e0]
  rfl

theorem W0_main_arg23 : W0 m ρ c (Proc.devRef .tc main_arg23) = X23 := rfl

theorem W1_main_arg23 (h31 : RangeOf X31) (h32 : RangeOf X32) (h33 : RangeOf X33) (h34 : RangeOf X34) : W1 m ρ c (Proc.devRef .tc main_arg23) = X23 :=
  (by keep_host hostOps0 : W1 m ρ c (Proc.devRef .tc main_arg23) = W0 m ρ c (Proc.devRef .tc main_arg23)).trans (W0_main_arg23 m ρ c)

theorem W2_main_arg23 (h31 : RangeOf X31) (h32 : RangeOf X32) (h33 : RangeOf X33) (h34 : RangeOf X34) : W2 m ρ c (Proc.devRef .tc main_arg23) = X23 :=
  (by keep_host hostOps0_1 : W2 m ρ c (Proc.devRef .tc main_arg23) = W1 m ρ c (Proc.devRef .tc main_arg23)).trans (W1_main_arg23 m ρ c h31 h32 h33 h34)

theorem W3_main_arg23 (h31 : RangeOf X31) (h32 : RangeOf X32) (h33 : RangeOf X33) (h34 : RangeOf X34) : W3 m ρ c (Proc.devRef .tc main_arg23) = X23 :=
  (W3_of_ne m ρ c main_arg23 (by decide)).trans (W2_main_arg23 m ρ c h31 h32 h33 h34)

theorem W4_main_arg23 (h31 : RangeOf X31) (h32 : RangeOf X32) (h33 : RangeOf X33) (h34 : RangeOf X34) : W4 m ρ c (Proc.devRef .tc main_arg23) = X23 :=
  (W4_of_ne m ρ c main_arg23 (by decide)).trans (W3_main_arg23 m ρ c h31 h32 h33 h34)

theorem W5_main_arg23 (h31 : RangeOf X31) (h32 : RangeOf X32) (h33 : RangeOf X33) (h34 : RangeOf X34) : W5 m ρ c (Proc.devRef .tc main_arg23) = X23 :=
  (by keep_host hostOps2 : W5 m ρ c (Proc.devRef .tc main_arg23) = W4 m ρ c (Proc.devRef .tc main_arg23)).trans (W4_main_arg23 m ρ c h31 h32 h33 h34)

theorem W6_main_arg23 (h31 : RangeOf X31) (h32 : RangeOf X32) (h33 : RangeOf X33) (h34 : RangeOf X34) : W6 m ρ c (Proc.devRef .tc main_arg23) = X23 :=
  (by keep_host hostOps2_1 : W6 m ρ c (Proc.devRef .tc main_arg23) = W5 m ρ c (Proc.devRef .tc main_arg23)).trans (W5_main_arg23 m ρ c h31 h32 h33 h34)

theorem W7_main_arg23 (h31 : RangeOf X31) (h32 : RangeOf X32) (h33 : RangeOf X33) (h34 : RangeOf X34) : W7 m ρ c (Proc.devRef .tc main_arg23) = X23 :=
  (by keep_host hostOps2_2 : W7 m ρ c (Proc.devRef .tc main_arg23) = W6 m ρ c (Proc.devRef .tc main_arg23)).trans (W6_main_arg23 m ρ c h31 h32 h33 h34)

set_option maxHeartbeats 1000000 in
theorem W8_main_v21 (h31 : RangeOf X31) (h32 : RangeOf X32) (h33 : RangeOf X33) (h34 : RangeOf X34) : W8 m ρ c (Proc.devRef .tc main_v21) = (Cert.ReferenceIdeal.Read.val_main_v110 (F := Ideal) X23) := by
  have e0 := (W7_main_arg23 m ρ c h31 h32 h33 h34)
  show StableHlo.after hostOps2_3 (W7 m ρ c) (Proc.devRef .tc main_v21) = _
  generalize W7 m ρ c = W at e0 ⊢
  simp only [hostOps2_3]
  after_results
  rw [e0]
  rfl

theorem W0_main_arg24 : W0 m ρ c (Proc.devRef .tc main_arg24) = X24 := rfl

theorem W1_main_arg24 (h31 : RangeOf X31) (h32 : RangeOf X32) (h33 : RangeOf X33) (h34 : RangeOf X34) : W1 m ρ c (Proc.devRef .tc main_arg24) = X24 :=
  (by keep_host hostOps0 : W1 m ρ c (Proc.devRef .tc main_arg24) = W0 m ρ c (Proc.devRef .tc main_arg24)).trans (W0_main_arg24 m ρ c)

theorem W2_main_arg24 (h31 : RangeOf X31) (h32 : RangeOf X32) (h33 : RangeOf X33) (h34 : RangeOf X34) : W2 m ρ c (Proc.devRef .tc main_arg24) = X24 :=
  (by keep_host hostOps0_1 : W2 m ρ c (Proc.devRef .tc main_arg24) = W1 m ρ c (Proc.devRef .tc main_arg24)).trans (W1_main_arg24 m ρ c h31 h32 h33 h34)

theorem W3_main_arg24 (h31 : RangeOf X31) (h32 : RangeOf X32) (h33 : RangeOf X33) (h34 : RangeOf X34) : W3 m ρ c (Proc.devRef .tc main_arg24) = X24 :=
  (W3_of_ne m ρ c main_arg24 (by decide)).trans (W2_main_arg24 m ρ c h31 h32 h33 h34)

theorem W4_main_arg24 (h31 : RangeOf X31) (h32 : RangeOf X32) (h33 : RangeOf X33) (h34 : RangeOf X34) : W4 m ρ c (Proc.devRef .tc main_arg24) = X24 :=
  (W4_of_ne m ρ c main_arg24 (by decide)).trans (W3_main_arg24 m ρ c h31 h32 h33 h34)

theorem W5_main_arg24 (h31 : RangeOf X31) (h32 : RangeOf X32) (h33 : RangeOf X33) (h34 : RangeOf X34) : W5 m ρ c (Proc.devRef .tc main_arg24) = X24 :=
  (by keep_host hostOps2 : W5 m ρ c (Proc.devRef .tc main_arg24) = W4 m ρ c (Proc.devRef .tc main_arg24)).trans (W4_main_arg24 m ρ c h31 h32 h33 h34)

theorem W6_main_arg24 (h31 : RangeOf X31) (h32 : RangeOf X32) (h33 : RangeOf X33) (h34 : RangeOf X34) : W6 m ρ c (Proc.devRef .tc main_arg24) = X24 :=
  (by keep_host hostOps2_1 : W6 m ρ c (Proc.devRef .tc main_arg24) = W5 m ρ c (Proc.devRef .tc main_arg24)).trans (W5_main_arg24 m ρ c h31 h32 h33 h34)

theorem W7_main_arg24 (h31 : RangeOf X31) (h32 : RangeOf X32) (h33 : RangeOf X33) (h34 : RangeOf X34) : W7 m ρ c (Proc.devRef .tc main_arg24) = X24 :=
  (by keep_host hostOps2_2 : W7 m ρ c (Proc.devRef .tc main_arg24) = W6 m ρ c (Proc.devRef .tc main_arg24)).trans (W6_main_arg24 m ρ c h31 h32 h33 h34)

set_option maxHeartbeats 1000000 in
theorem W8_main_v23 (h31 : RangeOf X31) (h32 : RangeOf X32) (h33 : RangeOf X33) (h34 : RangeOf X34) : W8 m ρ c (Proc.devRef .tc main_v23) = (Cert.ReferenceIdeal.Read.val_main_v112 (F := Ideal) X24) := by
  have e0 := (W7_main_arg24 m ρ c h31 h32 h33 h34)
  show StableHlo.after hostOps2_3 (W7 m ρ c) (Proc.devRef .tc main_v23) = _
  generalize W7 m ρ c = W at e0 ⊢
  simp only [hostOps2_3]
  after_results
  rw [e0]
  rfl

theorem W0_main_arg25 : W0 m ρ c (Proc.devRef .tc main_arg25) = X25 := rfl

theorem W1_main_arg25 (h31 : RangeOf X31) (h32 : RangeOf X32) (h33 : RangeOf X33) (h34 : RangeOf X34) : W1 m ρ c (Proc.devRef .tc main_arg25) = X25 :=
  (by keep_host hostOps0 : W1 m ρ c (Proc.devRef .tc main_arg25) = W0 m ρ c (Proc.devRef .tc main_arg25)).trans (W0_main_arg25 m ρ c)

theorem W2_main_arg25 (h31 : RangeOf X31) (h32 : RangeOf X32) (h33 : RangeOf X33) (h34 : RangeOf X34) : W2 m ρ c (Proc.devRef .tc main_arg25) = X25 :=
  (by keep_host hostOps0_1 : W2 m ρ c (Proc.devRef .tc main_arg25) = W1 m ρ c (Proc.devRef .tc main_arg25)).trans (W1_main_arg25 m ρ c h31 h32 h33 h34)

theorem W3_main_arg25 (h31 : RangeOf X31) (h32 : RangeOf X32) (h33 : RangeOf X33) (h34 : RangeOf X34) : W3 m ρ c (Proc.devRef .tc main_arg25) = X25 :=
  (W3_of_ne m ρ c main_arg25 (by decide)).trans (W2_main_arg25 m ρ c h31 h32 h33 h34)

theorem W4_main_arg25 (h31 : RangeOf X31) (h32 : RangeOf X32) (h33 : RangeOf X33) (h34 : RangeOf X34) : W4 m ρ c (Proc.devRef .tc main_arg25) = X25 :=
  (W4_of_ne m ρ c main_arg25 (by decide)).trans (W3_main_arg25 m ρ c h31 h32 h33 h34)

theorem W5_main_arg25 (h31 : RangeOf X31) (h32 : RangeOf X32) (h33 : RangeOf X33) (h34 : RangeOf X34) : W5 m ρ c (Proc.devRef .tc main_arg25) = X25 :=
  (by keep_host hostOps2 : W5 m ρ c (Proc.devRef .tc main_arg25) = W4 m ρ c (Proc.devRef .tc main_arg25)).trans (W4_main_arg25 m ρ c h31 h32 h33 h34)

theorem W6_main_arg25 (h31 : RangeOf X31) (h32 : RangeOf X32) (h33 : RangeOf X33) (h34 : RangeOf X34) : W6 m ρ c (Proc.devRef .tc main_arg25) = X25 :=
  (by keep_host hostOps2_1 : W6 m ρ c (Proc.devRef .tc main_arg25) = W5 m ρ c (Proc.devRef .tc main_arg25)).trans (W5_main_arg25 m ρ c h31 h32 h33 h34)

theorem W7_main_arg25 (h31 : RangeOf X31) (h32 : RangeOf X32) (h33 : RangeOf X33) (h34 : RangeOf X34) : W7 m ρ c (Proc.devRef .tc main_arg25) = X25 :=
  (by keep_host hostOps2_2 : W7 m ρ c (Proc.devRef .tc main_arg25) = W6 m ρ c (Proc.devRef .tc main_arg25)).trans (W6_main_arg25 m ρ c h31 h32 h33 h34)

set_option maxHeartbeats 1000000 in
theorem W8_main_v25 (h31 : RangeOf X31) (h32 : RangeOf X32) (h33 : RangeOf X33) (h34 : RangeOf X34) : W8 m ρ c (Proc.devRef .tc main_v25) = (Cert.ReferenceIdeal.Read.val_main_v114 (F := Ideal) X25) := by
  have e0 := (W7_main_arg25 m ρ c h31 h32 h33 h34)
  show StableHlo.after hostOps2_3 (W7 m ρ c) (Proc.devRef .tc main_v25) = _
  generalize W7 m ρ c = W at e0 ⊢
  simp only [hostOps2_3]
  after_results
  rw [e0]
  rfl

theorem W8_main_v9 (h31 : RangeOf X31) (h32 : RangeOf X32) (h33 : RangeOf X33) (h34 : RangeOf X34) : W8 m ρ c (Proc.devRef .tc main_v9) = (Cert.ReferenceIdeal.Read.val_main_v60 (F := Ideal) X1 X6 X7 X8 X9 X32 X33) :=
  (by keep_host hostOps2_3 : W8 m ρ c (Proc.devRef .tc main_v9) = W7 m ρ c (Proc.devRef .tc main_v9)).trans (W7_main_v9 m ρ c h31 h32 h33 h34)

theorem W7_main_v8 (h31 : RangeOf X31) (h32 : RangeOf X32) (h33 : RangeOf X33) (h34 : RangeOf X34) : W7 m ρ c (Proc.devRef .tc main_v8) = (Cert.ReferenceIdeal.Read.val_main_v67 (F := Ideal) X0 X2 X3 X4 X5 X31 X33) :=
  (by keep_host hostOps2_2 : W7 m ρ c (Proc.devRef .tc main_v8) = W6 m ρ c (Proc.devRef .tc main_v8)).trans (W6_main_v8 m ρ c h31 h32 h33 h34)

theorem W8_main_v8 (h31 : RangeOf X31) (h32 : RangeOf X32) (h33 : RangeOf X33) (h34 : RangeOf X34) : W8 m ρ c (Proc.devRef .tc main_v8) = (Cert.ReferenceIdeal.Read.val_main_v67 (F := Ideal) X0 X2 X3 X4 X5 X31 X33) :=
  (by keep_host hostOps2_3 : W8 m ρ c (Proc.devRef .tc main_v8) = W7 m ρ c (Proc.devRef .tc main_v8)).trans (W7_main_v8 m ρ c h31 h32 h33 h34)

theorem W5_main_v3_0 (h31 : RangeOf X31) (h32 : RangeOf X32) (h33 : RangeOf X33) (h34 : RangeOf X34) : W5 m ρ c (Proc.devRef .tc main_v3_0) = (Cert.ReferenceIdeal.Read.val_main_v40 (F := Ideal) X10 X11 X12 X13 X30) :=
  (by keep_host hostOps2 : W5 m ρ c (Proc.devRef .tc main_v3_0) = W4 m ρ c (Proc.devRef .tc main_v3_0)).trans (W4_main_v3_0 m ρ c h31 h32 h33 h34)

theorem W6_main_v3_0 (h31 : RangeOf X31) (h32 : RangeOf X32) (h33 : RangeOf X33) (h34 : RangeOf X34) : W6 m ρ c (Proc.devRef .tc main_v3_0) = (Cert.ReferenceIdeal.Read.val_main_v40 (F := Ideal) X10 X11 X12 X13 X30) :=
  (by keep_host hostOps2_1 : W6 m ρ c (Proc.devRef .tc main_v3_0) = W5 m ρ c (Proc.devRef .tc main_v3_0)).trans (W5_main_v3_0 m ρ c h31 h32 h33 h34)

theorem W7_main_v3_0 (h31 : RangeOf X31) (h32 : RangeOf X32) (h33 : RangeOf X33) (h34 : RangeOf X34) : W7 m ρ c (Proc.devRef .tc main_v3_0) = (Cert.ReferenceIdeal.Read.val_main_v40 (F := Ideal) X10 X11 X12 X13 X30) :=
  (by keep_host hostOps2_2 : W7 m ρ c (Proc.devRef .tc main_v3_0) = W6 m ρ c (Proc.devRef .tc main_v3_0)).trans (W6_main_v3_0 m ρ c h31 h32 h33 h34)

theorem W8_main_v3_0 (h31 : RangeOf X31) (h32 : RangeOf X32) (h33 : RangeOf X33) (h34 : RangeOf X34) : W8 m ρ c (Proc.devRef .tc main_v3_0) = (Cert.ReferenceIdeal.Read.val_main_v40 (F := Ideal) X10 X11 X12 X13 X30) :=
  (by keep_host hostOps2_3 : W8 m ρ c (Proc.devRef .tc main_v3_0) = W7 m ρ c (Proc.devRef .tc main_v3_0)).trans (W7_main_v3_0 m ρ c h31 h32 h33 h34)

set_option maxHeartbeats 1000000 in
theorem W9_main_v32_0 (h31 : RangeOf X31) (h32 : RangeOf X32) (h33 : RangeOf X33) (h34 : RangeOf X34) : W9 m ρ c (Proc.devRef .tc main_v32_0) = (Cert.ReferenceIdeal.Read.val_main_v85 (F := Ideal) X0 X1 X2 X3 X4 X5 X6 X7 X8 X9 X10 X11 X12 X13 X18 X19 X20 X21 X30 X31 X32 X33) := by
  refine (W9_arr m ρ c 16).trans ?_
  exact Cert.Bridge.R2.out_16 (V8 m ρ) c X0 X1 X2 X3 X4 X5 X6 X7 X8 X9 X10 X11 X12 X13 X18 X19 X20 X21 X30 X31 X32 X33 (W8_main_v9 m ρ c h31 h32 h33 h34) (W8_main_v8 m ρ c h31 h32 h33 h34) (W8_main_v3_0 m ρ c h31 h32 h33 h34) (W8_main_v26 m ρ c h31 h32 h33 h34) (W8_main_v27 m ρ c h31 h32 h33 h34) (W8_main_v28 m ρ c h31 h32 h33 h34) (W8_main_v13 m ρ c h31 h32 h33 h34) (W8_main_v15 m ρ c h31 h32 h33 h34) (W8_main_v17 m ρ c h31 h32 h33 h34)

theorem W5_main_v3_1 (h31 : RangeOf X31) (h32 : RangeOf X32) (h33 : RangeOf X33) (h34 : RangeOf X34) : W5 m ρ c (Proc.devRef .tc main_v3_1) = (Cert.ReferenceIdeal.Read.val_main_v49 (F := Ideal) X14 X15 X16 X17 X30) :=
  (by keep_host hostOps2 : W5 m ρ c (Proc.devRef .tc main_v3_1) = W4 m ρ c (Proc.devRef .tc main_v3_1)).trans (W4_main_v3_1 m ρ c h31 h32 h33 h34)

theorem W6_main_v3_1 (h31 : RangeOf X31) (h32 : RangeOf X32) (h33 : RangeOf X33) (h34 : RangeOf X34) : W6 m ρ c (Proc.devRef .tc main_v3_1) = (Cert.ReferenceIdeal.Read.val_main_v49 (F := Ideal) X14 X15 X16 X17 X30) :=
  (by keep_host hostOps2_1 : W6 m ρ c (Proc.devRef .tc main_v3_1) = W5 m ρ c (Proc.devRef .tc main_v3_1)).trans (W5_main_v3_1 m ρ c h31 h32 h33 h34)

theorem W7_main_v3_1 (h31 : RangeOf X31) (h32 : RangeOf X32) (h33 : RangeOf X33) (h34 : RangeOf X34) : W7 m ρ c (Proc.devRef .tc main_v3_1) = (Cert.ReferenceIdeal.Read.val_main_v49 (F := Ideal) X14 X15 X16 X17 X30) :=
  (by keep_host hostOps2_2 : W7 m ρ c (Proc.devRef .tc main_v3_1) = W6 m ρ c (Proc.devRef .tc main_v3_1)).trans (W6_main_v3_1 m ρ c h31 h32 h33 h34)

theorem W8_main_v3_1 (h31 : RangeOf X31) (h32 : RangeOf X32) (h33 : RangeOf X33) (h34 : RangeOf X34) : W8 m ρ c (Proc.devRef .tc main_v3_1) = (Cert.ReferenceIdeal.Read.val_main_v49 (F := Ideal) X14 X15 X16 X17 X30) :=
  (by keep_host hostOps2_3 : W8 m ρ c (Proc.devRef .tc main_v3_1) = W7 m ρ c (Proc.devRef .tc main_v3_1)).trans (W7_main_v3_1 m ρ c h31 h32 h33 h34)

set_option maxHeartbeats 1000000 in
theorem W9_main_v32_1 (h31 : RangeOf X31) (h32 : RangeOf X32) (h33 : RangeOf X33) (h34 : RangeOf X34) : W9 m ρ c (Proc.devRef .tc main_v32_1) = (Cert.ReferenceIdeal.Read.val_main_v123 (F := Ideal) X0 X1 X2 X3 X4 X5 X6 X7 X8 X9 X14 X15 X16 X17 X22 X23 X24 X25 X30 X31 X32 X33) := by
  refine (W9_arr m ρ c 17).trans ?_
  exact Cert.Bridge.R2.out_17 (V8 m ρ) c X0 X1 X2 X3 X4 X5 X6 X7 X8 X9 X14 X15 X16 X17 X22 X23 X24 X25 X30 X31 X32 X33 (W8_main_v9 m ρ c h31 h32 h33 h34) (W8_main_v8 m ρ c h31 h32 h33 h34) (W8_main_v3_1 m ρ c h31 h32 h33 h34) (W8_main_v29 m ρ c h31 h32 h33 h34) (W8_main_v30 m ρ c h31 h32 h33 h34) (W8_main_v31 m ρ c h31 h32 h33 h34) (W8_main_v21 m ρ c h31 h32 h33 h34) (W8_main_v23 m ρ c h31 h32 h33 h34) (W8_main_v25 m ρ c h31 h32 h33 h34)

theorem W7_main_v7 (h31 : RangeOf X31) (h32 : RangeOf X32) (h33 : RangeOf X33) (h34 : RangeOf X34) : W7 m ρ c (Proc.devRef .tc main_v7) = (Cert.ReferenceIdeal.Read.val_main_v53 (F := Ideal) X33) :=
  (by keep_host hostOps2_2 : W7 m ρ c (Proc.devRef .tc main_v7) = W6 m ρ c (Proc.devRef .tc main_v7)).trans (W6_main_v7 m ρ c h31 h32 h33 h34)

theorem W8_main_v7 (h31 : RangeOf X31) (h32 : RangeOf X32) (h33 : RangeOf X33) (h34 : RangeOf X34) : W8 m ρ c (Proc.devRef .tc main_v7) = (Cert.ReferenceIdeal.Read.val_main_v53 (F := Ideal) X33) :=
  (by keep_host hostOps2_3 : W8 m ρ c (Proc.devRef .tc main_v7) = W7 m ρ c (Proc.devRef .tc main_v7)).trans (W7_main_v7 m ρ c h31 h32 h33 h34)

theorem W9_main_v7 (h31 : RangeOf X31) (h32 : RangeOf X32) (h33 : RangeOf X33) (h34 : RangeOf X34) : W9 m ρ c (Proc.devRef .tc main_v7) = (Cert.ReferenceIdeal.Read.val_main_v53 (F := Ideal) X33) :=
  (W9_of_ne m ρ c main_v7 (by decide)).trans (W8_main_v7 m ρ c h31 h32 h33 h34)

set_option maxHeartbeats 1000000 in
theorem W10_main_v35 (h31 : RangeOf X31) (h32 : RangeOf X32) (h33 : RangeOf X33) (h34 : RangeOf X34) : W10 m ρ c (Proc.devRef .tc main_v35) = (Cert.ReferenceIdeal.Read.val_main_v90 (F := Ideal) X0 X1 X2 X3 X4 X5 X6 X7 X8 X9 X10 X11 X12 X13 X18 X19 X20 X21 X30 X31 X32 X33) := by
  have e0 := (W9_main_v7 m ρ c h31 h32 h33 h34)
  have e1 := (W9_main_v32_0 m ρ c h31 h32 h33 h34)
  show StableHlo.after hostOps3 (W9 m ρ c) (Proc.devRef .tc main_v35) = _
  generalize W9 m ρ c = W at e0 e1 ⊢
  simp only [hostOps3]
  after_results
  rw [e0, e1]
  rfl

theorem W6_main_v5 (h31 : RangeOf X31) (h32 : RangeOf X32) (h33 : RangeOf X33) (h34 : RangeOf X34) : W6 m ρ c (Proc.devRef .tc main_v5) = (Cert.ReferenceIdeal.Read.val_main_v51 (F := Ideal) X33) :=
  (by keep_host hostOps2_1 : W6 m ρ c (Proc.devRef .tc main_v5) = W5 m ρ c (Proc.devRef .tc main_v5)).trans (W5_main_v5 m ρ c h31 h32 h33 h34)

theorem W7_main_v5 (h31 : RangeOf X31) (h32 : RangeOf X32) (h33 : RangeOf X33) (h34 : RangeOf X34) : W7 m ρ c (Proc.devRef .tc main_v5) = (Cert.ReferenceIdeal.Read.val_main_v51 (F := Ideal) X33) :=
  (by keep_host hostOps2_2 : W7 m ρ c (Proc.devRef .tc main_v5) = W6 m ρ c (Proc.devRef .tc main_v5)).trans (W6_main_v5 m ρ c h31 h32 h33 h34)

theorem W8_main_v5 (h31 : RangeOf X31) (h32 : RangeOf X32) (h33 : RangeOf X33) (h34 : RangeOf X34) : W8 m ρ c (Proc.devRef .tc main_v5) = (Cert.ReferenceIdeal.Read.val_main_v51 (F := Ideal) X33) :=
  (by keep_host hostOps2_3 : W8 m ρ c (Proc.devRef .tc main_v5) = W7 m ρ c (Proc.devRef .tc main_v5)).trans (W7_main_v5 m ρ c h31 h32 h33 h34)

theorem W9_main_v5 (h31 : RangeOf X31) (h32 : RangeOf X32) (h33 : RangeOf X33) (h34 : RangeOf X34) : W9 m ρ c (Proc.devRef .tc main_v5) = (Cert.ReferenceIdeal.Read.val_main_v51 (F := Ideal) X33) :=
  (W9_of_ne m ρ c main_v5 (by decide)).trans (W8_main_v5 m ρ c h31 h32 h33 h34)

set_option maxHeartbeats 1000000 in
theorem W10_main_v38 (h31 : RangeOf X31) (h32 : RangeOf X32) (h33 : RangeOf X33) (h34 : RangeOf X34) : W10 m ρ c (Proc.devRef .tc main_v38) = (Cert.ReferenceIdeal.Read.val_main_v128 (F := Ideal) X0 X1 X2 X3 X4 X5 X6 X7 X8 X9 X14 X15 X16 X17 X22 X23 X24 X25 X30 X31 X32 X33) := by
  have e0 := (W9_main_v5 m ρ c h31 h32 h33 h34)
  have e1 := (W9_main_v32_1 m ρ c h31 h32 h33 h34)
  show StableHlo.after hostOps3 (W9 m ρ c) (Proc.devRef .tc main_v38) = _
  generalize W9 m ρ c = W at e0 e1 ⊢
  simp only [hostOps3]
  after_results
  rw [e0, e1]
  rfl

theorem W6_main_v2_0 (h31 : RangeOf X31) (h32 : RangeOf X32) (h33 : RangeOf X33) (h34 : RangeOf X34) : W6 m ρ c (Proc.devRef .tc main_v2_0) = (Cert.ReferenceIdeal.Read.val_main_v15 (F := Ideal) X0 X2 X3 X4 X5 X31) :=
  (by keep_host hostOps2_1 : W6 m ρ c (Proc.devRef .tc main_v2_0) = W5 m ρ c (Proc.devRef .tc main_v2_0)).trans (W5_main_v2_0 m ρ c h31 h32 h33 h34)

theorem W7_main_v2_0 (h31 : RangeOf X31) (h32 : RangeOf X32) (h33 : RangeOf X33) (h34 : RangeOf X34) : W7 m ρ c (Proc.devRef .tc main_v2_0) = (Cert.ReferenceIdeal.Read.val_main_v15 (F := Ideal) X0 X2 X3 X4 X5 X31) :=
  (by keep_host hostOps2_2 : W7 m ρ c (Proc.devRef .tc main_v2_0) = W6 m ρ c (Proc.devRef .tc main_v2_0)).trans (W6_main_v2_0 m ρ c h31 h32 h33 h34)

theorem W8_main_v2_0 (h31 : RangeOf X31) (h32 : RangeOf X32) (h33 : RangeOf X33) (h34 : RangeOf X34) : W8 m ρ c (Proc.devRef .tc main_v2_0) = (Cert.ReferenceIdeal.Read.val_main_v15 (F := Ideal) X0 X2 X3 X4 X5 X31) :=
  (by keep_host hostOps2_3 : W8 m ρ c (Proc.devRef .tc main_v2_0) = W7 m ρ c (Proc.devRef .tc main_v2_0)).trans (W7_main_v2_0 m ρ c h31 h32 h33 h34)

theorem W9_main_v2_0 (h31 : RangeOf X31) (h32 : RangeOf X32) (h33 : RangeOf X33) (h34 : RangeOf X34) : W9 m ρ c (Proc.devRef .tc main_v2_0) = (Cert.ReferenceIdeal.Read.val_main_v15 (F := Ideal) X0 X2 X3 X4 X5 X31) :=
  (W9_of_ne m ρ c main_v2_0 (by decide)).trans (W8_main_v2_0 m ρ c h31 h32 h33 h34)

theorem W10_main_v2_0 (h31 : RangeOf X31) (h32 : RangeOf X32) (h33 : RangeOf X33) (h34 : RangeOf X34) : W10 m ρ c (Proc.devRef .tc main_v2_0) = (Cert.ReferenceIdeal.Read.val_main_v15 (F := Ideal) X0 X2 X3 X4 X5 X31) :=
  (by keep_host hostOps3 : W10 m ρ c (Proc.devRef .tc main_v2_0) = W9 m ρ c (Proc.devRef .tc main_v2_0)).trans (W9_main_v2_0 m ρ c h31 h32 h33 h34)

set_option maxHeartbeats 1000000 in
theorem W11_main_v39_0 (h31 : RangeOf X31) (h32 : RangeOf X32) (h33 : RangeOf X33) (h34 : RangeOf X34) : W11 m ρ c (Proc.devRef .tc main_v39_0) = (Cert.ReferenceIdeal.Read.val_main_v131 (F := Ideal) X0 X1 X2 X3 X4 X5 X6 X7 X8 X9 X14 X15 X16 X17 X22 X23 X24 X25 X30 X31 X32 X33) := by
  refine (W11_arr m ρ c 4).trans ?_
  exact Cert.Bridge.R3.out_4 (V10 m ρ) c X0 X1 X2 X3 X4 X5 X6 X7 X8 X9 X14 X15 X16 X17 X22 X23 X24 X25 X30 X31 X32 X33 (W10_main_v2_0 m ρ c h31 h32 h33 h34) (W10_main_v38 m ρ c h31 h32 h33 h34)

theorem W7_main_v2_1 (h31 : RangeOf X31) (h32 : RangeOf X32) (h33 : RangeOf X33) (h34 : RangeOf X34) : W7 m ρ c (Proc.devRef .tc main_v2_1) = (Cert.ReferenceIdeal.Read.val_main_v31 (F := Ideal) X1 X6 X7 X8 X9 X32) :=
  (by keep_host hostOps2_2 : W7 m ρ c (Proc.devRef .tc main_v2_1) = W6 m ρ c (Proc.devRef .tc main_v2_1)).trans (W6_main_v2_1 m ρ c h31 h32 h33 h34)

theorem W8_main_v2_1 (h31 : RangeOf X31) (h32 : RangeOf X32) (h33 : RangeOf X33) (h34 : RangeOf X34) : W8 m ρ c (Proc.devRef .tc main_v2_1) = (Cert.ReferenceIdeal.Read.val_main_v31 (F := Ideal) X1 X6 X7 X8 X9 X32) :=
  (by keep_host hostOps2_3 : W8 m ρ c (Proc.devRef .tc main_v2_1) = W7 m ρ c (Proc.devRef .tc main_v2_1)).trans (W7_main_v2_1 m ρ c h31 h32 h33 h34)

theorem W9_main_v2_1 (h31 : RangeOf X31) (h32 : RangeOf X32) (h33 : RangeOf X33) (h34 : RangeOf X34) : W9 m ρ c (Proc.devRef .tc main_v2_1) = (Cert.ReferenceIdeal.Read.val_main_v31 (F := Ideal) X1 X6 X7 X8 X9 X32) :=
  (W9_of_ne m ρ c main_v2_1 (by decide)).trans (W8_main_v2_1 m ρ c h31 h32 h33 h34)

theorem W10_main_v2_1 (h31 : RangeOf X31) (h32 : RangeOf X32) (h33 : RangeOf X33) (h34 : RangeOf X34) : W10 m ρ c (Proc.devRef .tc main_v2_1) = (Cert.ReferenceIdeal.Read.val_main_v31 (F := Ideal) X1 X6 X7 X8 X9 X32) :=
  (by keep_host hostOps3 : W10 m ρ c (Proc.devRef .tc main_v2_1) = W9 m ρ c (Proc.devRef .tc main_v2_1)).trans (W9_main_v2_1 m ρ c h31 h32 h33 h34)

set_option maxHeartbeats 1000000 in
theorem W11_main_v39_1 (h31 : RangeOf X31) (h32 : RangeOf X32) (h33 : RangeOf X33) (h34 : RangeOf X34) : W11 m ρ c (Proc.devRef .tc main_v39_1) = (Cert.ReferenceIdeal.Read.val_main_v133 (F := Ideal) X0 X1 X2 X3 X4 X5 X6 X7 X8 X9 X10 X11 X12 X13 X18 X19 X20 X21 X30 X31 X32 X33) := by
  refine (W11_arr m ρ c 5).trans ?_
  exact Cert.Bridge.R3.out_5 (V10 m ρ) c X0 X1 X2 X3 X4 X5 X6 X7 X8 X9 X10 X11 X12 X13 X18 X19 X20 X21 X30 X31 X32 X33 (W10_main_v2_1 m ρ c h31 h32 h33 h34) (W10_main_v35 m ρ c h31 h32 h33 h34)

theorem W10_main_v5 (h31 : RangeOf X31) (h32 : RangeOf X32) (h33 : RangeOf X33) (h34 : RangeOf X34) : W10 m ρ c (Proc.devRef .tc main_v5) = (Cert.ReferenceIdeal.Read.val_main_v51 (F := Ideal) X33) :=
  (by keep_host hostOps3 : W10 m ρ c (Proc.devRef .tc main_v5) = W9 m ρ c (Proc.devRef .tc main_v5)).trans (W9_main_v5 m ρ c h31 h32 h33 h34)

theorem W11_main_v5 (h31 : RangeOf X31) (h32 : RangeOf X32) (h33 : RangeOf X33) (h34 : RangeOf X34) : W11 m ρ c (Proc.devRef .tc main_v5) = (Cert.ReferenceIdeal.Read.val_main_v51 (F := Ideal) X33) :=
  (W11_of_ne m ρ c main_v5 (by decide)).trans (W10_main_v5 m ρ c h31 h32 h33 h34)

set_option maxHeartbeats 1000000 in
theorem W12_main_v40 (h31 : RangeOf X31) (h32 : RangeOf X32) (h33 : RangeOf X33) (h34 : RangeOf X34) : W12 m ρ c (Proc.devRef .tc main_v40) = (Cert.ReferenceIdeal.Read.val_main_v147 (F := Ideal) X0 X1 X2 X3 X4 X5 X6 X7 X8 X9 X14 X15 X16 X17 X22 X23 X24 X25 X30 X31 X32 X33) := by
  refine (Cert.Bridge.Takes.call4 (W11 m ρ c) (by rw [(W11_main_v5 m ρ c h31 h32 h33 h34)]; exact (Cert.Bridge.Takes.range_v51 X33 h33)) : W12 m ρ c (Proc.devRef .tc main_v40) = _).trans ?_
  rw [(W11_main_v39_0 m ρ c h31 h32 h33 h34), (W11_main_v5 m ρ c h31 h32 h33 h34)]
  rfl

theorem W12_main_v39_1 (h31 : RangeOf X31) (h32 : RangeOf X32) (h33 : RangeOf X33) (h34 : RangeOf X34) : W12 m ρ c (Proc.devRef .tc main_v39_1) = (Cert.ReferenceIdeal.Read.val_main_v133 (F := Ideal) X0 X1 X2 X3 X4 X5 X6 X7 X8 X9 X10 X11 X12 X13 X18 X19 X20 X21 X30 X31 X32 X33) :=
  (by keep_host hostOps4 : W12 m ρ c (Proc.devRef .tc main_v39_1) = W11 m ρ c (Proc.devRef .tc main_v39_1)).trans (W11_main_v39_1 m ρ c h31 h32 h33 h34)

theorem W10_main_v7 (h31 : RangeOf X31) (h32 : RangeOf X32) (h33 : RangeOf X33) (h34 : RangeOf X34) : W10 m ρ c (Proc.devRef .tc main_v7) = (Cert.ReferenceIdeal.Read.val_main_v53 (F := Ideal) X33) :=
  (by keep_host hostOps3 : W10 m ρ c (Proc.devRef .tc main_v7) = W9 m ρ c (Proc.devRef .tc main_v7)).trans (W9_main_v7 m ρ c h31 h32 h33 h34)

theorem W11_main_v7 (h31 : RangeOf X31) (h32 : RangeOf X32) (h33 : RangeOf X33) (h34 : RangeOf X34) : W11 m ρ c (Proc.devRef .tc main_v7) = (Cert.ReferenceIdeal.Read.val_main_v53 (F := Ideal) X33) :=
  (W11_of_ne m ρ c main_v7 (by decide)).trans (W10_main_v7 m ρ c h31 h32 h33 h34)

theorem W12_main_v7 (h31 : RangeOf X31) (h32 : RangeOf X32) (h33 : RangeOf X33) (h34 : RangeOf X34) : W12 m ρ c (Proc.devRef .tc main_v7) = (Cert.ReferenceIdeal.Read.val_main_v53 (F := Ideal) X33) :=
  (by keep_host hostOps4 : W12 m ρ c (Proc.devRef .tc main_v7) = W11 m ρ c (Proc.devRef .tc main_v7)).trans (W11_main_v7 m ρ c h31 h32 h33 h34)

set_option maxHeartbeats 1000000 in
theorem W13_main_v41 (h31 : RangeOf X31) (h32 : RangeOf X32) (h33 : RangeOf X33) (h34 : RangeOf X34) : W13 m ρ c (Proc.devRef .tc main_v41) = (Cert.ReferenceIdeal.Read.val_main_v140 (F := Ideal) X0 X1 X2 X3 X4 X5 X6 X7 X8 X9 X10 X11 X12 X13 X18 X19 X20 X21 X30 X31 X32 X33) := by
  refine (Cert.Bridge.Takes.call5 (W12 m ρ c) (by rw [(W12_main_v7 m ρ c h31 h32 h33 h34)]; exact (Cert.Bridge.Takes.range_v53 X33 h33)) : W13 m ρ c (Proc.devRef .tc main_v41) = _).trans ?_
  rw [(W12_main_v39_1 m ρ c h31 h32 h33 h34), (W12_main_v7 m ρ c h31 h32 h33 h34)]
  rfl

theorem W8_main_arg18 (h31 : RangeOf X31) (h32 : RangeOf X32) (h33 : RangeOf X33) (h34 : RangeOf X34) : W8 m ρ c (Proc.devRef .tc main_arg18) = X18 :=
  (by keep_host hostOps2_3 : W8 m ρ c (Proc.devRef .tc main_arg18) = W7 m ρ c (Proc.devRef .tc main_arg18)).trans (W7_main_arg18 m ρ c h31 h32 h33 h34)

theorem W9_main_arg18 (h31 : RangeOf X31) (h32 : RangeOf X32) (h33 : RangeOf X33) (h34 : RangeOf X34) : W9 m ρ c (Proc.devRef .tc main_arg18) = X18 :=
  (W9_of_ne m ρ c main_arg18 (by decide)).trans (W8_main_arg18 m ρ c h31 h32 h33 h34)

theorem W10_main_arg18 (h31 : RangeOf X31) (h32 : RangeOf X32) (h33 : RangeOf X33) (h34 : RangeOf X34) : W10 m ρ c (Proc.devRef .tc main_arg18) = X18 :=
  (by keep_host hostOps3 : W10 m ρ c (Proc.devRef .tc main_arg18) = W9 m ρ c (Proc.devRef .tc main_arg18)).trans (W9_main_arg18 m ρ c h31 h32 h33 h34)

theorem W11_main_arg18 (h31 : RangeOf X31) (h32 : RangeOf X32) (h33 : RangeOf X33) (h34 : RangeOf X34) : W11 m ρ c (Proc.devRef .tc main_arg18) = X18 :=
  (W11_of_ne m ρ c main_arg18 (by decide)).trans (W10_main_arg18 m ρ c h31 h32 h33 h34)

theorem W12_main_arg18 (h31 : RangeOf X31) (h32 : RangeOf X32) (h33 : RangeOf X33) (h34 : RangeOf X34) : W12 m ρ c (Proc.devRef .tc main_arg18) = X18 :=
  (by keep_host hostOps4 : W12 m ρ c (Proc.devRef .tc main_arg18) = W11 m ρ c (Proc.devRef .tc main_arg18)).trans (W11_main_arg18 m ρ c h31 h32 h33 h34)

theorem W13_main_arg18 (h31 : RangeOf X31) (h32 : RangeOf X32) (h33 : RangeOf X33) (h34 : RangeOf X34) : W13 m ρ c (Proc.devRef .tc main_arg18) = X18 :=
  (by keep_host hostOps4_1 : W13 m ρ c (Proc.devRef .tc main_arg18) = W12 m ρ c (Proc.devRef .tc main_arg18)).trans (W12_main_arg18 m ρ c h31 h32 h33 h34)

set_option maxHeartbeats 1000000 in
theorem W14_main_v58 (h31 : RangeOf X31) (h32 : RangeOf X32) (h33 : RangeOf X33) (h34 : RangeOf X34) : W14 m ρ c (Proc.devRef .tc main_v58) = (extractStridedSlice S64x64 ![0, 0] (Cert.ReferenceIdeal.Read.val_main_v150 (F := Ideal) X18) slices_S192x64_S64x64_0_0) := by
  have e0 := (W13_main_arg18 m ρ c h31 h32 h33 h34)
  show StableHlo.after hostOps4_2 (W13 m ρ c) (Proc.devRef .tc main_v58) = _
  generalize W13 m ρ c = W at e0 ⊢
  simp only [hostOps4_2]
  after_results
  rw [e0]
  rfl

set_option maxHeartbeats 1000000 in
theorem W14_main_v59 (h31 : RangeOf X31) (h32 : RangeOf X32) (h33 : RangeOf X33) (h34 : RangeOf X34) : W14 m ρ c (Proc.devRef .tc main_v59) = (extractStridedSlice S64x64 ![64, 0] (Cert.ReferenceIdeal.Read.val_main_v150 (F := Ideal) X18) slices_S192x64_S64x64_64_0) := by
  have e0 := (W13_main_arg18 m ρ c h31 h32 h33 h34)
  show StableHlo.after hostOps4_2 (W13 m ρ c) (Proc.devRef .tc main_v59) = _
  generalize W13 m ρ c = W at e0 ⊢
  simp only [hostOps4_2]
  after_results
  rw [e0]
  rfl

set_option maxHeartbeats 1000000 in
theorem W14_main_v60 (h31 : RangeOf X31) (h32 : RangeOf X32) (h33 : RangeOf X33) (h34 : RangeOf X34) : W14 m ρ c (Proc.devRef .tc main_v60) = (extractStridedSlice S64x64 ![128, 0] (Cert.ReferenceIdeal.Read.val_main_v150 (F := Ideal) X18) slices_S192x64_S64x64_128_0) := by
  have e0 := (W13_main_arg18 m ρ c h31 h32 h33 h34)
  show StableHlo.after hostOps4_2 (W13 m ρ c) (Proc.devRef .tc main_v60) = _
  generalize W13 m ρ c = W at e0 ⊢
  simp only [hostOps4_2]
  after_results
  rw [e0]
  rfl

theorem W8_main_arg19 (h31 : RangeOf X31) (h32 : RangeOf X32) (h33 : RangeOf X33) (h34 : RangeOf X34) : W8 m ρ c (Proc.devRef .tc main_arg19) = X19 :=
  (by keep_host hostOps2_3 : W8 m ρ c (Proc.devRef .tc main_arg19) = W7 m ρ c (Proc.devRef .tc main_arg19)).trans (W7_main_arg19 m ρ c h31 h32 h33 h34)

theorem W9_main_arg19 (h31 : RangeOf X31) (h32 : RangeOf X32) (h33 : RangeOf X33) (h34 : RangeOf X34) : W9 m ρ c (Proc.devRef .tc main_arg19) = X19 :=
  (W9_of_ne m ρ c main_arg19 (by decide)).trans (W8_main_arg19 m ρ c h31 h32 h33 h34)

theorem W10_main_arg19 (h31 : RangeOf X31) (h32 : RangeOf X32) (h33 : RangeOf X33) (h34 : RangeOf X34) : W10 m ρ c (Proc.devRef .tc main_arg19) = X19 :=
  (by keep_host hostOps3 : W10 m ρ c (Proc.devRef .tc main_arg19) = W9 m ρ c (Proc.devRef .tc main_arg19)).trans (W9_main_arg19 m ρ c h31 h32 h33 h34)

theorem W11_main_arg19 (h31 : RangeOf X31) (h32 : RangeOf X32) (h33 : RangeOf X33) (h34 : RangeOf X34) : W11 m ρ c (Proc.devRef .tc main_arg19) = X19 :=
  (W11_of_ne m ρ c main_arg19 (by decide)).trans (W10_main_arg19 m ρ c h31 h32 h33 h34)

theorem W12_main_arg19 (h31 : RangeOf X31) (h32 : RangeOf X32) (h33 : RangeOf X33) (h34 : RangeOf X34) : W12 m ρ c (Proc.devRef .tc main_arg19) = X19 :=
  (by keep_host hostOps4 : W12 m ρ c (Proc.devRef .tc main_arg19) = W11 m ρ c (Proc.devRef .tc main_arg19)).trans (W11_main_arg19 m ρ c h31 h32 h33 h34)

theorem W13_main_arg19 (h31 : RangeOf X31) (h32 : RangeOf X32) (h33 : RangeOf X33) (h34 : RangeOf X34) : W13 m ρ c (Proc.devRef .tc main_arg19) = X19 :=
  (by keep_host hostOps4_1 : W13 m ρ c (Proc.devRef .tc main_arg19) = W12 m ρ c (Proc.devRef .tc main_arg19)).trans (W12_main_arg19 m ρ c h31 h32 h33 h34)

set_option maxHeartbeats 1000000 in
theorem W14_main_v45 (h31 : RangeOf X31) (h32 : RangeOf X32) (h33 : RangeOf X33) (h34 : RangeOf X34) : W14 m ρ c (Proc.devRef .tc main_v45) = (Cert.ReferenceIdeal.Read.val_main_v152 (F := Ideal) X19) := by
  have e0 := (W13_main_arg19 m ρ c h31 h32 h33 h34)
  show StableHlo.after hostOps4_2 (W13 m ρ c) (Proc.devRef .tc main_v45) = _
  generalize W13 m ρ c = W at e0 ⊢
  simp only [hostOps4_2]
  after_results
  rw [e0]
  rfl

theorem W8_main_arg20 (h31 : RangeOf X31) (h32 : RangeOf X32) (h33 : RangeOf X33) (h34 : RangeOf X34) : W8 m ρ c (Proc.devRef .tc main_arg20) = X20 :=
  (by keep_host hostOps2_3 : W8 m ρ c (Proc.devRef .tc main_arg20) = W7 m ρ c (Proc.devRef .tc main_arg20)).trans (W7_main_arg20 m ρ c h31 h32 h33 h34)

theorem W9_main_arg20 (h31 : RangeOf X31) (h32 : RangeOf X32) (h33 : RangeOf X33) (h34 : RangeOf X34) : W9 m ρ c (Proc.devRef .tc main_arg20) = X20 :=
  (W9_of_ne m ρ c main_arg20 (by decide)).trans (W8_main_arg20 m ρ c h31 h32 h33 h34)

theorem W10_main_arg20 (h31 : RangeOf X31) (h32 : RangeOf X32) (h33 : RangeOf X33) (h34 : RangeOf X34) : W10 m ρ c (Proc.devRef .tc main_arg20) = X20 :=
  (by keep_host hostOps3 : W10 m ρ c (Proc.devRef .tc main_arg20) = W9 m ρ c (Proc.devRef .tc main_arg20)).trans (W9_main_arg20 m ρ c h31 h32 h33 h34)

theorem W11_main_arg20 (h31 : RangeOf X31) (h32 : RangeOf X32) (h33 : RangeOf X33) (h34 : RangeOf X34) : W11 m ρ c (Proc.devRef .tc main_arg20) = X20 :=
  (W11_of_ne m ρ c main_arg20 (by decide)).trans (W10_main_arg20 m ρ c h31 h32 h33 h34)

theorem W12_main_arg20 (h31 : RangeOf X31) (h32 : RangeOf X32) (h33 : RangeOf X33) (h34 : RangeOf X34) : W12 m ρ c (Proc.devRef .tc main_arg20) = X20 :=
  (by keep_host hostOps4 : W12 m ρ c (Proc.devRef .tc main_arg20) = W11 m ρ c (Proc.devRef .tc main_arg20)).trans (W11_main_arg20 m ρ c h31 h32 h33 h34)

theorem W13_main_arg20 (h31 : RangeOf X31) (h32 : RangeOf X32) (h33 : RangeOf X33) (h34 : RangeOf X34) : W13 m ρ c (Proc.devRef .tc main_arg20) = X20 :=
  (by keep_host hostOps4_1 : W13 m ρ c (Proc.devRef .tc main_arg20) = W12 m ρ c (Proc.devRef .tc main_arg20)).trans (W12_main_arg20 m ρ c h31 h32 h33 h34)

set_option maxHeartbeats 1000000 in
theorem W14_main_v47 (h31 : RangeOf X31) (h32 : RangeOf X32) (h33 : RangeOf X33) (h34 : RangeOf X34) : W14 m ρ c (Proc.devRef .tc main_v47) = (Cert.ReferenceIdeal.Read.val_main_v154 (F := Ideal) X20) := by
  have e0 := (W13_main_arg20 m ρ c h31 h32 h33 h34)
  show StableHlo.after hostOps4_2 (W13 m ρ c) (Proc.devRef .tc main_v47) = _
  generalize W13 m ρ c = W at e0 ⊢
  simp only [hostOps4_2]
  after_results
  rw [e0]
  rfl

theorem W8_main_arg21 (h31 : RangeOf X31) (h32 : RangeOf X32) (h33 : RangeOf X33) (h34 : RangeOf X34) : W8 m ρ c (Proc.devRef .tc main_arg21) = X21 :=
  (by keep_host hostOps2_3 : W8 m ρ c (Proc.devRef .tc main_arg21) = W7 m ρ c (Proc.devRef .tc main_arg21)).trans (W7_main_arg21 m ρ c h31 h32 h33 h34)

theorem W9_main_arg21 (h31 : RangeOf X31) (h32 : RangeOf X32) (h33 : RangeOf X33) (h34 : RangeOf X34) : W9 m ρ c (Proc.devRef .tc main_arg21) = X21 :=
  (W9_of_ne m ρ c main_arg21 (by decide)).trans (W8_main_arg21 m ρ c h31 h32 h33 h34)

theorem W10_main_arg21 (h31 : RangeOf X31) (h32 : RangeOf X32) (h33 : RangeOf X33) (h34 : RangeOf X34) : W10 m ρ c (Proc.devRef .tc main_arg21) = X21 :=
  (by keep_host hostOps3 : W10 m ρ c (Proc.devRef .tc main_arg21) = W9 m ρ c (Proc.devRef .tc main_arg21)).trans (W9_main_arg21 m ρ c h31 h32 h33 h34)

theorem W11_main_arg21 (h31 : RangeOf X31) (h32 : RangeOf X32) (h33 : RangeOf X33) (h34 : RangeOf X34) : W11 m ρ c (Proc.devRef .tc main_arg21) = X21 :=
  (W11_of_ne m ρ c main_arg21 (by decide)).trans (W10_main_arg21 m ρ c h31 h32 h33 h34)

theorem W12_main_arg21 (h31 : RangeOf X31) (h32 : RangeOf X32) (h33 : RangeOf X33) (h34 : RangeOf X34) : W12 m ρ c (Proc.devRef .tc main_arg21) = X21 :=
  (by keep_host hostOps4 : W12 m ρ c (Proc.devRef .tc main_arg21) = W11 m ρ c (Proc.devRef .tc main_arg21)).trans (W11_main_arg21 m ρ c h31 h32 h33 h34)

theorem W13_main_arg21 (h31 : RangeOf X31) (h32 : RangeOf X32) (h33 : RangeOf X33) (h34 : RangeOf X34) : W13 m ρ c (Proc.devRef .tc main_arg21) = X21 :=
  (by keep_host hostOps4_1 : W13 m ρ c (Proc.devRef .tc main_arg21) = W12 m ρ c (Proc.devRef .tc main_arg21)).trans (W12_main_arg21 m ρ c h31 h32 h33 h34)

set_option maxHeartbeats 1000000 in
theorem W14_main_v49 (h31 : RangeOf X31) (h32 : RangeOf X32) (h33 : RangeOf X33) (h34 : RangeOf X34) : W14 m ρ c (Proc.devRef .tc main_v49) = (Cert.ReferenceIdeal.Read.val_main_v156 (F := Ideal) X21) := by
  have e0 := (W13_main_arg21 m ρ c h31 h32 h33 h34)
  show StableHlo.after hostOps4_2 (W13 m ρ c) (Proc.devRef .tc main_v49) = _
  generalize W13 m ρ c = W at e0 ⊢
  simp only [hostOps4_2]
  after_results
  rw [e0]
  rfl

theorem W8_main_arg22 (h31 : RangeOf X31) (h32 : RangeOf X32) (h33 : RangeOf X33) (h34 : RangeOf X34) : W8 m ρ c (Proc.devRef .tc main_arg22) = X22 :=
  (by keep_host hostOps2_3 : W8 m ρ c (Proc.devRef .tc main_arg22) = W7 m ρ c (Proc.devRef .tc main_arg22)).trans (W7_main_arg22 m ρ c h31 h32 h33 h34)

theorem W9_main_arg22 (h31 : RangeOf X31) (h32 : RangeOf X32) (h33 : RangeOf X33) (h34 : RangeOf X34) : W9 m ρ c (Proc.devRef .tc main_arg22) = X22 :=
  (W9_of_ne m ρ c main_arg22 (by decide)).trans (W8_main_arg22 m ρ c h31 h32 h33 h34)

theorem W10_main_arg22 (h31 : RangeOf X31) (h32 : RangeOf X32) (h33 : RangeOf X33) (h34 : RangeOf X34) : W10 m ρ c (Proc.devRef .tc main_arg22) = X22 :=
  (by keep_host hostOps3 : W10 m ρ c (Proc.devRef .tc main_arg22) = W9 m ρ c (Proc.devRef .tc main_arg22)).trans (W9_main_arg22 m ρ c h31 h32 h33 h34)

theorem W11_main_arg22 (h31 : RangeOf X31) (h32 : RangeOf X32) (h33 : RangeOf X33) (h34 : RangeOf X34) : W11 m ρ c (Proc.devRef .tc main_arg22) = X22 :=
  (W11_of_ne m ρ c main_arg22 (by decide)).trans (W10_main_arg22 m ρ c h31 h32 h33 h34)

theorem W12_main_arg22 (h31 : RangeOf X31) (h32 : RangeOf X32) (h33 : RangeOf X33) (h34 : RangeOf X34) : W12 m ρ c (Proc.devRef .tc main_arg22) = X22 :=
  (by keep_host hostOps4 : W12 m ρ c (Proc.devRef .tc main_arg22) = W11 m ρ c (Proc.devRef .tc main_arg22)).trans (W11_main_arg22 m ρ c h31 h32 h33 h34)

theorem W13_main_arg22 (h31 : RangeOf X31) (h32 : RangeOf X32) (h33 : RangeOf X33) (h34 : RangeOf X34) : W13 m ρ c (Proc.devRef .tc main_arg22) = X22 :=
  (by keep_host hostOps4_1 : W13 m ρ c (Proc.devRef .tc main_arg22) = W12 m ρ c (Proc.devRef .tc main_arg22)).trans (W12_main_arg22 m ρ c h31 h32 h33 h34)

set_option maxHeartbeats 1000000 in
theorem W14_main_v61 (h31 : RangeOf X31) (h32 : RangeOf X32) (h33 : RangeOf X33) (h34 : RangeOf X34) : W14 m ρ c (Proc.devRef .tc main_v61) = (extractStridedSlice S64x64 ![0, 0] (Cert.ReferenceIdeal.Read.val_main_v188 (F := Ideal) X22) slices_S192x64_S64x64_0_0) := by
  have e0 := (W13_main_arg22 m ρ c h31 h32 h33 h34)
  show StableHlo.after hostOps4_2 (W13 m ρ c) (Proc.devRef .tc main_v61) = _
  generalize W13 m ρ c = W at e0 ⊢
  simp only [hostOps4_2]
  after_results
  rw [e0]
  rfl

set_option maxHeartbeats 1000000 in
theorem W14_main_v62 (h31 : RangeOf X31) (h32 : RangeOf X32) (h33 : RangeOf X33) (h34 : RangeOf X34) : W14 m ρ c (Proc.devRef .tc main_v62) = (extractStridedSlice S64x64 ![64, 0] (Cert.ReferenceIdeal.Read.val_main_v188 (F := Ideal) X22) slices_S192x64_S64x64_64_0) := by
  have e0 := (W13_main_arg22 m ρ c h31 h32 h33 h34)
  show StableHlo.after hostOps4_2 (W13 m ρ c) (Proc.devRef .tc main_v62) = _
  generalize W13 m ρ c = W at e0 ⊢
  simp only [hostOps4_2]
  after_results
  rw [e0]
  rfl

set_option maxHeartbeats 1000000 in
theorem W14_main_v63 (h31 : RangeOf X31) (h32 : RangeOf X32) (h33 : RangeOf X33) (h34 : RangeOf X34) : W14 m ρ c (Proc.devRef .tc main_v63) = (extractStridedSlice S64x64 ![128, 0] (Cert.ReferenceIdeal.Read.val_main_v188 (F := Ideal) X22) slices_S192x64_S64x64_128_0) := by
  have e0 := (W13_main_arg22 m ρ c h31 h32 h33 h34)
  show StableHlo.after hostOps4_2 (W13 m ρ c) (Proc.devRef .tc main_v63) = _
  generalize W13 m ρ c = W at e0 ⊢
  simp only [hostOps4_2]
  after_results
  rw [e0]
  rfl

theorem W8_main_arg23 (h31 : RangeOf X31) (h32 : RangeOf X32) (h33 : RangeOf X33) (h34 : RangeOf X34) : W8 m ρ c (Proc.devRef .tc main_arg23) = X23 :=
  (by keep_host hostOps2_3 : W8 m ρ c (Proc.devRef .tc main_arg23) = W7 m ρ c (Proc.devRef .tc main_arg23)).trans (W7_main_arg23 m ρ c h31 h32 h33 h34)

theorem W9_main_arg23 (h31 : RangeOf X31) (h32 : RangeOf X32) (h33 : RangeOf X33) (h34 : RangeOf X34) : W9 m ρ c (Proc.devRef .tc main_arg23) = X23 :=
  (W9_of_ne m ρ c main_arg23 (by decide)).trans (W8_main_arg23 m ρ c h31 h32 h33 h34)

theorem W10_main_arg23 (h31 : RangeOf X31) (h32 : RangeOf X32) (h33 : RangeOf X33) (h34 : RangeOf X34) : W10 m ρ c (Proc.devRef .tc main_arg23) = X23 :=
  (by keep_host hostOps3 : W10 m ρ c (Proc.devRef .tc main_arg23) = W9 m ρ c (Proc.devRef .tc main_arg23)).trans (W9_main_arg23 m ρ c h31 h32 h33 h34)

theorem W11_main_arg23 (h31 : RangeOf X31) (h32 : RangeOf X32) (h33 : RangeOf X33) (h34 : RangeOf X34) : W11 m ρ c (Proc.devRef .tc main_arg23) = X23 :=
  (W11_of_ne m ρ c main_arg23 (by decide)).trans (W10_main_arg23 m ρ c h31 h32 h33 h34)

theorem W12_main_arg23 (h31 : RangeOf X31) (h32 : RangeOf X32) (h33 : RangeOf X33) (h34 : RangeOf X34) : W12 m ρ c (Proc.devRef .tc main_arg23) = X23 :=
  (by keep_host hostOps4 : W12 m ρ c (Proc.devRef .tc main_arg23) = W11 m ρ c (Proc.devRef .tc main_arg23)).trans (W11_main_arg23 m ρ c h31 h32 h33 h34)

theorem W13_main_arg23 (h31 : RangeOf X31) (h32 : RangeOf X32) (h33 : RangeOf X33) (h34 : RangeOf X34) : W13 m ρ c (Proc.devRef .tc main_arg23) = X23 :=
  (by keep_host hostOps4_1 : W13 m ρ c (Proc.devRef .tc main_arg23) = W12 m ρ c (Proc.devRef .tc main_arg23)).trans (W12_main_arg23 m ρ c h31 h32 h33 h34)

set_option maxHeartbeats 1000000 in
theorem W14_main_v53 (h31 : RangeOf X31) (h32 : RangeOf X32) (h33 : RangeOf X33) (h34 : RangeOf X34) : W14 m ρ c (Proc.devRef .tc main_v53) = (Cert.ReferenceIdeal.Read.val_main_v190 (F := Ideal) X23) := by
  have e0 := (W13_main_arg23 m ρ c h31 h32 h33 h34)
  show StableHlo.after hostOps4_2 (W13 m ρ c) (Proc.devRef .tc main_v53) = _
  generalize W13 m ρ c = W at e0 ⊢
  simp only [hostOps4_2]
  after_results
  rw [e0]
  rfl

theorem W8_main_arg24 (h31 : RangeOf X31) (h32 : RangeOf X32) (h33 : RangeOf X33) (h34 : RangeOf X34) : W8 m ρ c (Proc.devRef .tc main_arg24) = X24 :=
  (by keep_host hostOps2_3 : W8 m ρ c (Proc.devRef .tc main_arg24) = W7 m ρ c (Proc.devRef .tc main_arg24)).trans (W7_main_arg24 m ρ c h31 h32 h33 h34)

theorem W9_main_arg24 (h31 : RangeOf X31) (h32 : RangeOf X32) (h33 : RangeOf X33) (h34 : RangeOf X34) : W9 m ρ c (Proc.devRef .tc main_arg24) = X24 :=
  (W9_of_ne m ρ c main_arg24 (by decide)).trans (W8_main_arg24 m ρ c h31 h32 h33 h34)

theorem W10_main_arg24 (h31 : RangeOf X31) (h32 : RangeOf X32) (h33 : RangeOf X33) (h34 : RangeOf X34) : W10 m ρ c (Proc.devRef .tc main_arg24) = X24 :=
  (by keep_host hostOps3 : W10 m ρ c (Proc.devRef .tc main_arg24) = W9 m ρ c (Proc.devRef .tc main_arg24)).trans (W9_main_arg24 m ρ c h31 h32 h33 h34)

theorem W11_main_arg24 (h31 : RangeOf X31) (h32 : RangeOf X32) (h33 : RangeOf X33) (h34 : RangeOf X34) : W11 m ρ c (Proc.devRef .tc main_arg24) = X24 :=
  (W11_of_ne m ρ c main_arg24 (by decide)).trans (W10_main_arg24 m ρ c h31 h32 h33 h34)

theorem W12_main_arg24 (h31 : RangeOf X31) (h32 : RangeOf X32) (h33 : RangeOf X33) (h34 : RangeOf X34) : W12 m ρ c (Proc.devRef .tc main_arg24) = X24 :=
  (by keep_host hostOps4 : W12 m ρ c (Proc.devRef .tc main_arg24) = W11 m ρ c (Proc.devRef .tc main_arg24)).trans (W11_main_arg24 m ρ c h31 h32 h33 h34)

theorem W13_main_arg24 (h31 : RangeOf X31) (h32 : RangeOf X32) (h33 : RangeOf X33) (h34 : RangeOf X34) : W13 m ρ c (Proc.devRef .tc main_arg24) = X24 :=
  (by keep_host hostOps4_1 : W13 m ρ c (Proc.devRef .tc main_arg24) = W12 m ρ c (Proc.devRef .tc main_arg24)).trans (W12_main_arg24 m ρ c h31 h32 h33 h34)

set_option maxHeartbeats 1000000 in
theorem W14_main_v55 (h31 : RangeOf X31) (h32 : RangeOf X32) (h33 : RangeOf X33) (h34 : RangeOf X34) : W14 m ρ c (Proc.devRef .tc main_v55) = (Cert.ReferenceIdeal.Read.val_main_v192 (F := Ideal) X24) := by
  have e0 := (W13_main_arg24 m ρ c h31 h32 h33 h34)
  show StableHlo.after hostOps4_2 (W13 m ρ c) (Proc.devRef .tc main_v55) = _
  generalize W13 m ρ c = W at e0 ⊢
  simp only [hostOps4_2]
  after_results
  rw [e0]
  rfl

theorem W8_main_arg25 (h31 : RangeOf X31) (h32 : RangeOf X32) (h33 : RangeOf X33) (h34 : RangeOf X34) : W8 m ρ c (Proc.devRef .tc main_arg25) = X25 :=
  (by keep_host hostOps2_3 : W8 m ρ c (Proc.devRef .tc main_arg25) = W7 m ρ c (Proc.devRef .tc main_arg25)).trans (W7_main_arg25 m ρ c h31 h32 h33 h34)

theorem W9_main_arg25 (h31 : RangeOf X31) (h32 : RangeOf X32) (h33 : RangeOf X33) (h34 : RangeOf X34) : W9 m ρ c (Proc.devRef .tc main_arg25) = X25 :=
  (W9_of_ne m ρ c main_arg25 (by decide)).trans (W8_main_arg25 m ρ c h31 h32 h33 h34)

theorem W10_main_arg25 (h31 : RangeOf X31) (h32 : RangeOf X32) (h33 : RangeOf X33) (h34 : RangeOf X34) : W10 m ρ c (Proc.devRef .tc main_arg25) = X25 :=
  (by keep_host hostOps3 : W10 m ρ c (Proc.devRef .tc main_arg25) = W9 m ρ c (Proc.devRef .tc main_arg25)).trans (W9_main_arg25 m ρ c h31 h32 h33 h34)

theorem W11_main_arg25 (h31 : RangeOf X31) (h32 : RangeOf X32) (h33 : RangeOf X33) (h34 : RangeOf X34) : W11 m ρ c (Proc.devRef .tc main_arg25) = X25 :=
  (W11_of_ne m ρ c main_arg25 (by decide)).trans (W10_main_arg25 m ρ c h31 h32 h33 h34)

theorem W12_main_arg25 (h31 : RangeOf X31) (h32 : RangeOf X32) (h33 : RangeOf X33) (h34 : RangeOf X34) : W12 m ρ c (Proc.devRef .tc main_arg25) = X25 :=
  (by keep_host hostOps4 : W12 m ρ c (Proc.devRef .tc main_arg25) = W11 m ρ c (Proc.devRef .tc main_arg25)).trans (W11_main_arg25 m ρ c h31 h32 h33 h34)

theorem W13_main_arg25 (h31 : RangeOf X31) (h32 : RangeOf X32) (h33 : RangeOf X33) (h34 : RangeOf X34) : W13 m ρ c (Proc.devRef .tc main_arg25) = X25 :=
  (by keep_host hostOps4_1 : W13 m ρ c (Proc.devRef .tc main_arg25) = W12 m ρ c (Proc.devRef .tc main_arg25)).trans (W12_main_arg25 m ρ c h31 h32 h33 h34)

set_option maxHeartbeats 1000000 in
theorem W14_main_v57 (h31 : RangeOf X31) (h32 : RangeOf X32) (h33 : RangeOf X33) (h34 : RangeOf X34) : W14 m ρ c (Proc.devRef .tc main_v57) = (Cert.ReferenceIdeal.Read.val_main_v194 (F := Ideal) X25) := by
  have e0 := (W13_main_arg25 m ρ c h31 h32 h33 h34)
  show StableHlo.after hostOps4_2 (W13 m ρ c) (Proc.devRef .tc main_v57) = _
  generalize W13 m ρ c = W at e0 ⊢
  simp only [hostOps4_2]
  after_results
  rw [e0]
  rfl

theorem W14_main_v41 (h31 : RangeOf X31) (h32 : RangeOf X32) (h33 : RangeOf X33) (h34 : RangeOf X34) : W14 m ρ c (Proc.devRef .tc main_v41) = (Cert.ReferenceIdeal.Read.val_main_v140 (F := Ideal) X0 X1 X2 X3 X4 X5 X6 X7 X8 X9 X10 X11 X12 X13 X18 X19 X20 X21 X30 X31 X32 X33) :=
  (by keep_host hostOps4_2 : W14 m ρ c (Proc.devRef .tc main_v41) = W13 m ρ c (Proc.devRef .tc main_v41)).trans (W13_main_v41 m ρ c h31 h32 h33 h34)

theorem W13_main_v40 (h31 : RangeOf X31) (h32 : RangeOf X32) (h33 : RangeOf X33) (h34 : RangeOf X34) : W13 m ρ c (Proc.devRef .tc main_v40) = (Cert.ReferenceIdeal.Read.val_main_v147 (F := Ideal) X0 X1 X2 X3 X4 X5 X6 X7 X8 X9 X14 X15 X16 X17 X22 X23 X24 X25 X30 X31 X32 X33) :=
  (by keep_host hostOps4_1 : W13 m ρ c (Proc.devRef .tc main_v40) = W12 m ρ c (Proc.devRef .tc main_v40)).trans (W12_main_v40 m ρ c h31 h32 h33 h34)

theorem W14_main_v40 (h31 : RangeOf X31) (h32 : RangeOf X32) (h33 : RangeOf X33) (h34 : RangeOf X34) : W14 m ρ c (Proc.devRef .tc main_v40) = (Cert.ReferenceIdeal.Read.val_main_v147 (F := Ideal) X0 X1 X2 X3 X4 X5 X6 X7 X8 X9 X14 X15 X16 X17 X22 X23 X24 X25 X30 X31 X32 X33) :=
  (by keep_host hostOps4_2 : W14 m ρ c (Proc.devRef .tc main_v40) = W13 m ρ c (Proc.devRef .tc main_v40)).trans (W13_main_v40 m ρ c h31 h32 h33 h34)

theorem W9_main_v3_0 (h31 : RangeOf X31) (h32 : RangeOf X32) (h33 : RangeOf X33) (h34 : RangeOf X34) : W9 m ρ c (Proc.devRef .tc main_v3_0) = (Cert.ReferenceIdeal.Read.val_main_v40 (F := Ideal) X10 X11 X12 X13 X30) :=
  ((W9_arr m ρ c 2).trans (((dat2 (V8 m ρ) c).arrAt_in 2 rfl _).trans (A_eq2 (V8 m ρ) c 2))).trans (W8_main_v3_0 m ρ c h31 h32 h33 h34)

theorem W10_main_v3_0 (h31 : RangeOf X31) (h32 : RangeOf X32) (h33 : RangeOf X33) (h34 : RangeOf X34) : W10 m ρ c (Proc.devRef .tc main_v3_0) = (Cert.ReferenceIdeal.Read.val_main_v40 (F := Ideal) X10 X11 X12 X13 X30) :=
  (by keep_host hostOps3 : W10 m ρ c (Proc.devRef .tc main_v3_0) = W9 m ρ c (Proc.devRef .tc main_v3_0)).trans (W9_main_v3_0 m ρ c h31 h32 h33 h34)

theorem W11_main_v3_0 (h31 : RangeOf X31) (h32 : RangeOf X32) (h33 : RangeOf X33) (h34 : RangeOf X34) : W11 m ρ c (Proc.devRef .tc main_v3_0) = (Cert.ReferenceIdeal.Read.val_main_v40 (F := Ideal) X10 X11 X12 X13 X30) :=
  (W11_of_ne m ρ c main_v3_0 (by decide)).trans (W10_main_v3_0 m ρ c h31 h32 h33 h34)

theorem W12_main_v3_0 (h31 : RangeOf X31) (h32 : RangeOf X32) (h33 : RangeOf X33) (h34 : RangeOf X34) : W12 m ρ c (Proc.devRef .tc main_v3_0) = (Cert.ReferenceIdeal.Read.val_main_v40 (F := Ideal) X10 X11 X12 X13 X30) :=
  (by keep_host hostOps4 : W12 m ρ c (Proc.devRef .tc main_v3_0) = W11 m ρ c (Proc.devRef .tc main_v3_0)).trans (W11_main_v3_0 m ρ c h31 h32 h33 h34)

theorem W13_main_v3_0 (h31 : RangeOf X31) (h32 : RangeOf X32) (h33 : RangeOf X33) (h34 : RangeOf X34) : W13 m ρ c (Proc.devRef .tc main_v3_0) = (Cert.ReferenceIdeal.Read.val_main_v40 (F := Ideal) X10 X11 X12 X13 X30) :=
  (by keep_host hostOps4_1 : W13 m ρ c (Proc.devRef .tc main_v3_0) = W12 m ρ c (Proc.devRef .tc main_v3_0)).trans (W12_main_v3_0 m ρ c h31 h32 h33 h34)

theorem W14_main_v3_0 (h31 : RangeOf X31) (h32 : RangeOf X32) (h33 : RangeOf X33) (h34 : RangeOf X34) : W14 m ρ c (Proc.devRef .tc main_v3_0) = (Cert.ReferenceIdeal.Read.val_main_v40 (F := Ideal) X10 X11 X12 X13 X30) :=
  (by keep_host hostOps4_2 : W14 m ρ c (Proc.devRef .tc main_v3_0) = W13 m ρ c (Proc.devRef .tc main_v3_0)).trans (W13_main_v3_0 m ρ c h31 h32 h33 h34)

set_option maxHeartbeats 1000000 in
theorem W15_main_v64_0 (h31 : RangeOf X31) (h32 : RangeOf X32) (h33 : RangeOf X33) (h34 : RangeOf X34) : W15 m ρ c (Proc.devRef .tc main_v64_0) = (Cert.ReferenceIdeal.Read.val_main_v165 (F := Ideal) X0 X1 X2 X3 X4 X5 X6 X7 X8 X9 X10 X11 X12 X13 X14 X15 X16 X17 X18 X19 X20 X21 X22 X23 X24 X25 X30 X31 X32 X33) := by
  refine (W15_arr m ρ c 16).trans ?_
  exact Cert.Bridge.R4.out_16 (V14 m ρ) c X0 X1 X2 X3 X4 X5 X6 X7 X8 X9 X10 X11 X12 X13 X14 X15 X16 X17 X18 X19 X20 X21 X22 X23 X24 X25 X30 X31 X32 X33 (W14_main_v41 m ρ c h31 h32 h33 h34) (W14_main_v40 m ρ c h31 h32 h33 h34) (W14_main_v3_0 m ρ c h31 h32 h33 h34) (W14_main_v58 m ρ c h31 h32 h33 h34) (W14_main_v59 m ρ c h31 h32 h33 h34) (W14_main_v60 m ρ c h31 h32 h33 h34) (W14_main_v45 m ρ c h31 h32 h33 h34) (W14_main_v47 m ρ c h31 h32 h33 h34) (W14_main_v49 m ρ c h31 h32 h33 h34)

theorem W9_main_v3_1 (h31 : RangeOf X31) (h32 : RangeOf X32) (h33 : RangeOf X33) (h34 : RangeOf X34) : W9 m ρ c (Proc.devRef .tc main_v3_1) = (Cert.ReferenceIdeal.Read.val_main_v49 (F := Ideal) X14 X15 X16 X17 X30) :=
  ((W9_arr m ρ c 3).trans (((dat2 (V8 m ρ) c).arrAt_in 3 rfl _).trans (A_eq2 (V8 m ρ) c 3))).trans (W8_main_v3_1 m ρ c h31 h32 h33 h34)

theorem W10_main_v3_1 (h31 : RangeOf X31) (h32 : RangeOf X32) (h33 : RangeOf X33) (h34 : RangeOf X34) : W10 m ρ c (Proc.devRef .tc main_v3_1) = (Cert.ReferenceIdeal.Read.val_main_v49 (F := Ideal) X14 X15 X16 X17 X30) :=
  (by keep_host hostOps3 : W10 m ρ c (Proc.devRef .tc main_v3_1) = W9 m ρ c (Proc.devRef .tc main_v3_1)).trans (W9_main_v3_1 m ρ c h31 h32 h33 h34)

theorem W11_main_v3_1 (h31 : RangeOf X31) (h32 : RangeOf X32) (h33 : RangeOf X33) (h34 : RangeOf X34) : W11 m ρ c (Proc.devRef .tc main_v3_1) = (Cert.ReferenceIdeal.Read.val_main_v49 (F := Ideal) X14 X15 X16 X17 X30) :=
  (W11_of_ne m ρ c main_v3_1 (by decide)).trans (W10_main_v3_1 m ρ c h31 h32 h33 h34)

theorem W12_main_v3_1 (h31 : RangeOf X31) (h32 : RangeOf X32) (h33 : RangeOf X33) (h34 : RangeOf X34) : W12 m ρ c (Proc.devRef .tc main_v3_1) = (Cert.ReferenceIdeal.Read.val_main_v49 (F := Ideal) X14 X15 X16 X17 X30) :=
  (by keep_host hostOps4 : W12 m ρ c (Proc.devRef .tc main_v3_1) = W11 m ρ c (Proc.devRef .tc main_v3_1)).trans (W11_main_v3_1 m ρ c h31 h32 h33 h34)

theorem W13_main_v3_1 (h31 : RangeOf X31) (h32 : RangeOf X32) (h33 : RangeOf X33) (h34 : RangeOf X34) : W13 m ρ c (Proc.devRef .tc main_v3_1) = (Cert.ReferenceIdeal.Read.val_main_v49 (F := Ideal) X14 X15 X16 X17 X30) :=
  (by keep_host hostOps4_1 : W13 m ρ c (Proc.devRef .tc main_v3_1) = W12 m ρ c (Proc.devRef .tc main_v3_1)).trans (W12_main_v3_1 m ρ c h31 h32 h33 h34)

theorem W14_main_v3_1 (h31 : RangeOf X31) (h32 : RangeOf X32) (h33 : RangeOf X33) (h34 : RangeOf X34) : W14 m ρ c (Proc.devRef .tc main_v3_1) = (Cert.ReferenceIdeal.Read.val_main_v49 (F := Ideal) X14 X15 X16 X17 X30) :=
  (by keep_host hostOps4_2 : W14 m ρ c (Proc.devRef .tc main_v3_1) = W13 m ρ c (Proc.devRef .tc main_v3_1)).trans (W13_main_v3_1 m ρ c h31 h32 h33 h34)

set_option maxHeartbeats 1000000 in
theorem W15_main_v64_1 (h31 : RangeOf X31) (h32 : RangeOf X32) (h33 : RangeOf X33) (h34 : RangeOf X34) : W15 m ρ c (Proc.devRef .tc main_v64_1) = (Cert.ReferenceIdeal.Read.val_main_v203 (F := Ideal) X0 X1 X2 X3 X4 X5 X6 X7 X8 X9 X10 X11 X12 X13 X14 X15 X16 X17 X18 X19 X20 X21 X22 X23 X24 X25 X30 X31 X32 X33) := by
  refine (W15_arr m ρ c 17).trans ?_
  exact Cert.Bridge.R4.out_17 (V14 m ρ) c X0 X1 X2 X3 X4 X5 X6 X7 X8 X9 X10 X11 X12 X13 X14 X15 X16 X17 X18 X19 X20 X21 X22 X23 X24 X25 X30 X31 X32 X33 (W14_main_v41 m ρ c h31 h32 h33 h34) (W14_main_v40 m ρ c h31 h32 h33 h34) (W14_main_v3_1 m ρ c h31 h32 h33 h34) (W14_main_v61 m ρ c h31 h32 h33 h34) (W14_main_v62 m ρ c h31 h32 h33 h34) (W14_main_v63 m ρ c h31 h32 h33 h34) (W14_main_v53 m ρ c h31 h32 h33 h34) (W14_main_v55 m ρ c h31 h32 h33 h34) (W14_main_v57 m ρ c h31 h32 h33 h34)

theorem W13_main_v7 (h31 : RangeOf X31) (h32 : RangeOf X32) (h33 : RangeOf X33) (h34 : RangeOf X34) : W13 m ρ c (Proc.devRef .tc main_v7) = (Cert.ReferenceIdeal.Read.val_main_v53 (F := Ideal) X33) :=
  (by keep_host hostOps4_1 : W13 m ρ c (Proc.devRef .tc main_v7) = W12 m ρ c (Proc.devRef .tc main_v7)).trans (W12_main_v7 m ρ c h31 h32 h33 h34)

theorem W14_main_v7 (h31 : RangeOf X31) (h32 : RangeOf X32) (h33 : RangeOf X33) (h34 : RangeOf X34) : W14 m ρ c (Proc.devRef .tc main_v7) = (Cert.ReferenceIdeal.Read.val_main_v53 (F := Ideal) X33) :=
  (by keep_host hostOps4_2 : W14 m ρ c (Proc.devRef .tc main_v7) = W13 m ρ c (Proc.devRef .tc main_v7)).trans (W13_main_v7 m ρ c h31 h32 h33 h34)

theorem W15_main_v7 (h31 : RangeOf X31) (h32 : RangeOf X32) (h33 : RangeOf X33) (h34 : RangeOf X34) : W15 m ρ c (Proc.devRef .tc main_v7) = (Cert.ReferenceIdeal.Read.val_main_v53 (F := Ideal) X33) :=
  (W15_of_ne m ρ c main_v7 (by decide)).trans (W14_main_v7 m ρ c h31 h32 h33 h34)

set_option maxHeartbeats 1000000 in
theorem W16_main_v67 (h31 : RangeOf X31) (h32 : RangeOf X32) (h33 : RangeOf X33) (h34 : RangeOf X34) : W16 m ρ c (Proc.devRef .tc main_v67) = (Cert.ReferenceIdeal.Read.val_main_v170 (F := Ideal) X0 X1 X2 X3 X4 X5 X6 X7 X8 X9 X10 X11 X12 X13 X14 X15 X16 X17 X18 X19 X20 X21 X22 X23 X24 X25 X30 X31 X32 X33) := by
  have e0 := (W15_main_v7 m ρ c h31 h32 h33 h34)
  have e1 := (W15_main_v64_0 m ρ c h31 h32 h33 h34)
  show StableHlo.after hostOps5 (W15 m ρ c) (Proc.devRef .tc main_v67) = _
  generalize W15 m ρ c = W at e0 e1 ⊢
  simp only [hostOps5]
  after_results
  rw [e0, e1]
  rfl

theorem W12_main_v5 (h31 : RangeOf X31) (h32 : RangeOf X32) (h33 : RangeOf X33) (h34 : RangeOf X34) : W12 m ρ c (Proc.devRef .tc main_v5) = (Cert.ReferenceIdeal.Read.val_main_v51 (F := Ideal) X33) :=
  (by keep_host hostOps4 : W12 m ρ c (Proc.devRef .tc main_v5) = W11 m ρ c (Proc.devRef .tc main_v5)).trans (W11_main_v5 m ρ c h31 h32 h33 h34)

theorem W13_main_v5 (h31 : RangeOf X31) (h32 : RangeOf X32) (h33 : RangeOf X33) (h34 : RangeOf X34) : W13 m ρ c (Proc.devRef .tc main_v5) = (Cert.ReferenceIdeal.Read.val_main_v51 (F := Ideal) X33) :=
  (by keep_host hostOps4_1 : W13 m ρ c (Proc.devRef .tc main_v5) = W12 m ρ c (Proc.devRef .tc main_v5)).trans (W12_main_v5 m ρ c h31 h32 h33 h34)

theorem W14_main_v5 (h31 : RangeOf X31) (h32 : RangeOf X32) (h33 : RangeOf X33) (h34 : RangeOf X34) : W14 m ρ c (Proc.devRef .tc main_v5) = (Cert.ReferenceIdeal.Read.val_main_v51 (F := Ideal) X33) :=
  (by keep_host hostOps4_2 : W14 m ρ c (Proc.devRef .tc main_v5) = W13 m ρ c (Proc.devRef .tc main_v5)).trans (W13_main_v5 m ρ c h31 h32 h33 h34)

theorem W15_main_v5 (h31 : RangeOf X31) (h32 : RangeOf X32) (h33 : RangeOf X33) (h34 : RangeOf X34) : W15 m ρ c (Proc.devRef .tc main_v5) = (Cert.ReferenceIdeal.Read.val_main_v51 (F := Ideal) X33) :=
  (W15_of_ne m ρ c main_v5 (by decide)).trans (W14_main_v5 m ρ c h31 h32 h33 h34)

set_option maxHeartbeats 1000000 in
theorem W16_main_v70 (h31 : RangeOf X31) (h32 : RangeOf X32) (h33 : RangeOf X33) (h34 : RangeOf X34) : W16 m ρ c (Proc.devRef .tc main_v70) = (Cert.ReferenceIdeal.Read.val_main_v208 (F := Ideal) X0 X1 X2 X3 X4 X5 X6 X7 X8 X9 X10 X11 X12 X13 X14 X15 X16 X17 X18 X19 X20 X21 X22 X23 X24 X25 X30 X31 X32 X33) := by
  have e0 := (W15_main_v5 m ρ c h31 h32 h33 h34)
  have e1 := (W15_main_v64_1 m ρ c h31 h32 h33 h34)
  show StableHlo.after hostOps5 (W15 m ρ c) (Proc.devRef .tc main_v70) = _
  generalize W15 m ρ c = W at e0 e1 ⊢
  simp only [hostOps5]
  after_results
  rw [e0, e1]
  rfl

theorem W12_main_v39_0 (h31 : RangeOf X31) (h32 : RangeOf X32) (h33 : RangeOf X33) (h34 : RangeOf X34) : W12 m ρ c (Proc.devRef .tc main_v39_0) = (Cert.ReferenceIdeal.Read.val_main_v131 (F := Ideal) X0 X1 X2 X3 X4 X5 X6 X7 X8 X9 X14 X15 X16 X17 X22 X23 X24 X25 X30 X31 X32 X33) :=
  (by keep_host hostOps4 : W12 m ρ c (Proc.devRef .tc main_v39_0) = W11 m ρ c (Proc.devRef .tc main_v39_0)).trans (W11_main_v39_0 m ρ c h31 h32 h33 h34)

theorem W13_main_v39_0 (h31 : RangeOf X31) (h32 : RangeOf X32) (h33 : RangeOf X33) (h34 : RangeOf X34) : W13 m ρ c (Proc.devRef .tc main_v39_0) = (Cert.ReferenceIdeal.Read.val_main_v131 (F := Ideal) X0 X1 X2 X3 X4 X5 X6 X7 X8 X9 X14 X15 X16 X17 X22 X23 X24 X25 X30 X31 X32 X33) :=
  (by keep_host hostOps4_1 : W13 m ρ c (Proc.devRef .tc main_v39_0) = W12 m ρ c (Proc.devRef .tc main_v39_0)).trans (W12_main_v39_0 m ρ c h31 h32 h33 h34)

theorem W14_main_v39_0 (h31 : RangeOf X31) (h32 : RangeOf X32) (h33 : RangeOf X33) (h34 : RangeOf X34) : W14 m ρ c (Proc.devRef .tc main_v39_0) = (Cert.ReferenceIdeal.Read.val_main_v131 (F := Ideal) X0 X1 X2 X3 X4 X5 X6 X7 X8 X9 X14 X15 X16 X17 X22 X23 X24 X25 X30 X31 X32 X33) :=
  (by keep_host hostOps4_2 : W14 m ρ c (Proc.devRef .tc main_v39_0) = W13 m ρ c (Proc.devRef .tc main_v39_0)).trans (W13_main_v39_0 m ρ c h31 h32 h33 h34)

theorem W15_main_v39_0 (h31 : RangeOf X31) (h32 : RangeOf X32) (h33 : RangeOf X33) (h34 : RangeOf X34) : W15 m ρ c (Proc.devRef .tc main_v39_0) = (Cert.ReferenceIdeal.Read.val_main_v131 (F := Ideal) X0 X1 X2 X3 X4 X5 X6 X7 X8 X9 X14 X15 X16 X17 X22 X23 X24 X25 X30 X31 X32 X33) :=
  (W15_of_ne m ρ c main_v39_0 (by decide)).trans (W14_main_v39_0 m ρ c h31 h32 h33 h34)

theorem W16_main_v39_0 (h31 : RangeOf X31) (h32 : RangeOf X32) (h33 : RangeOf X33) (h34 : RangeOf X34) : W16 m ρ c (Proc.devRef .tc main_v39_0) = (Cert.ReferenceIdeal.Read.val_main_v131 (F := Ideal) X0 X1 X2 X3 X4 X5 X6 X7 X8 X9 X14 X15 X16 X17 X22 X23 X24 X25 X30 X31 X32 X33) :=
  (by keep_host hostOps5 : W16 m ρ c (Proc.devRef .tc main_v39_0) = W15 m ρ c (Proc.devRef .tc main_v39_0)).trans (W15_main_v39_0 m ρ c h31 h32 h33 h34)

set_option maxHeartbeats 1000000 in
theorem W17_main_v71_0 (h31 : RangeOf X31) (h32 : RangeOf X32) (h33 : RangeOf X33) (h34 : RangeOf X34) : W17 m ρ c (Proc.devRef .tc main_v71_0) = (Cert.ReferenceIdeal.Read.val_main_v209 (F := Ideal) X0 X1 X2 X3 X4 X5 X6 X7 X8 X9 X10 X11 X12 X13 X14 X15 X16 X17 X18 X19 X20 X21 X22 X23 X24 X25 X30 X31 X32 X33) := by
  refine (W17_arr m ρ c 4).trans ?_
  exact Cert.Bridge.R5.out_4 (V16 m ρ) c X0 X1 X2 X3 X4 X5 X6 X7 X8 X9 X10 X11 X12 X13 X14 X15 X16 X17 X18 X19 X20 X21 X22 X23 X24 X25 X30 X31 X32 X33 (W16_main_v39_0 m ρ c h31 h32 h33 h34) (W16_main_v70 m ρ c h31 h32 h33 h34)

theorem W13_main_v39_1 (h31 : RangeOf X31) (h32 : RangeOf X32) (h33 : RangeOf X33) (h34 : RangeOf X34) : W13 m ρ c (Proc.devRef .tc main_v39_1) = (Cert.ReferenceIdeal.Read.val_main_v133 (F := Ideal) X0 X1 X2 X3 X4 X5 X6 X7 X8 X9 X10 X11 X12 X13 X18 X19 X20 X21 X30 X31 X32 X33) :=
  (by keep_host hostOps4_1 : W13 m ρ c (Proc.devRef .tc main_v39_1) = W12 m ρ c (Proc.devRef .tc main_v39_1)).trans (W12_main_v39_1 m ρ c h31 h32 h33 h34)

theorem W14_main_v39_1 (h31 : RangeOf X31) (h32 : RangeOf X32) (h33 : RangeOf X33) (h34 : RangeOf X34) : W14 m ρ c (Proc.devRef .tc main_v39_1) = (Cert.ReferenceIdeal.Read.val_main_v133 (F := Ideal) X0 X1 X2 X3 X4 X5 X6 X7 X8 X9 X10 X11 X12 X13 X18 X19 X20 X21 X30 X31 X32 X33) :=
  (by keep_host hostOps4_2 : W14 m ρ c (Proc.devRef .tc main_v39_1) = W13 m ρ c (Proc.devRef .tc main_v39_1)).trans (W13_main_v39_1 m ρ c h31 h32 h33 h34)

theorem W15_main_v39_1 (h31 : RangeOf X31) (h32 : RangeOf X32) (h33 : RangeOf X33) (h34 : RangeOf X34) : W15 m ρ c (Proc.devRef .tc main_v39_1) = (Cert.ReferenceIdeal.Read.val_main_v133 (F := Ideal) X0 X1 X2 X3 X4 X5 X6 X7 X8 X9 X10 X11 X12 X13 X18 X19 X20 X21 X30 X31 X32 X33) :=
  (W15_of_ne m ρ c main_v39_1 (by decide)).trans (W14_main_v39_1 m ρ c h31 h32 h33 h34)

theorem W16_main_v39_1 (h31 : RangeOf X31) (h32 : RangeOf X32) (h33 : RangeOf X33) (h34 : RangeOf X34) : W16 m ρ c (Proc.devRef .tc main_v39_1) = (Cert.ReferenceIdeal.Read.val_main_v133 (F := Ideal) X0 X1 X2 X3 X4 X5 X6 X7 X8 X9 X10 X11 X12 X13 X18 X19 X20 X21 X30 X31 X32 X33) :=
  (by keep_host hostOps5 : W16 m ρ c (Proc.devRef .tc main_v39_1) = W15 m ρ c (Proc.devRef .tc main_v39_1)).trans (W15_main_v39_1 m ρ c h31 h32 h33 h34)

set_option maxHeartbeats 1000000 in
theorem W17_main_v71_1 (h31 : RangeOf X31) (h32 : RangeOf X32) (h33 : RangeOf X33) (h34 : RangeOf X34) : W17 m ρ c (Proc.devRef .tc main_v71_1) = (Cert.ReferenceIdeal.Read.val_main_v171 (F := Ideal) X0 X1 X2 X3 X4 X5 X6 X7 X8 X9 X10 X11 X12 X13 X14 X15 X16 X17 X18 X19 X20 X21 X22 X23 X24 X25 X30 X31 X32 X33) := by
  refine (W17_arr m ρ c 5).trans ?_
  exact Cert.Bridge.R5.out_5 (V16 m ρ) c X0 X1 X2 X3 X4 X5 X6 X7 X8 X9 X10 X11 X12 X13 X14 X15 X16 X17 X18 X19 X20 X21 X22 X23 X24 X25 X30 X31 X32 X33 (W16_main_v39_1 m ρ c h31 h32 h33 h34) (W16_main_v67 m ρ c h31 h32 h33 h34)

theorem W0_main_arg34 : W0 m ρ c (Proc.devRef .tc main_arg34) = X34 := rfl

theorem W1_main_arg34 (h31 : RangeOf X31) (h32 : RangeOf X32) (h33 : RangeOf X33) (h34 : RangeOf X34) : W1 m ρ c (Proc.devRef .tc main_arg34) = X34 :=
  (by keep_host hostOps0 : W1 m ρ c (Proc.devRef .tc main_arg34) = W0 m ρ c (Proc.devRef .tc main_arg34)).trans (W0_main_arg34 m ρ c)

theorem W2_main_arg34 (h31 : RangeOf X31) (h32 : RangeOf X32) (h33 : RangeOf X33) (h34 : RangeOf X34) : W2 m ρ c (Proc.devRef .tc main_arg34) = X34 :=
  (by keep_host hostOps0_1 : W2 m ρ c (Proc.devRef .tc main_arg34) = W1 m ρ c (Proc.devRef .tc main_arg34)).trans (W1_main_arg34 m ρ c h31 h32 h33 h34)

theorem W3_main_arg34 (h31 : RangeOf X31) (h32 : RangeOf X32) (h33 : RangeOf X33) (h34 : RangeOf X34) : W3 m ρ c (Proc.devRef .tc main_arg34) = X34 :=
  (W3_of_ne m ρ c main_arg34 (by decide)).trans (W2_main_arg34 m ρ c h31 h32 h33 h34)

theorem W4_main_arg34 (h31 : RangeOf X31) (h32 : RangeOf X32) (h33 : RangeOf X33) (h34 : RangeOf X34) : W4 m ρ c (Proc.devRef .tc main_arg34) = X34 :=
  (W4_of_ne m ρ c main_arg34 (by decide)).trans (W3_main_arg34 m ρ c h31 h32 h33 h34)

theorem W5_main_arg34 (h31 : RangeOf X31) (h32 : RangeOf X32) (h33 : RangeOf X33) (h34 : RangeOf X34) : W5 m ρ c (Proc.devRef .tc main_arg34) = X34 :=
  (by keep_host hostOps2 : W5 m ρ c (Proc.devRef .tc main_arg34) = W4 m ρ c (Proc.devRef .tc main_arg34)).trans (W4_main_arg34 m ρ c h31 h32 h33 h34)

theorem W6_main_arg34 (h31 : RangeOf X31) (h32 : RangeOf X32) (h33 : RangeOf X33) (h34 : RangeOf X34) : W6 m ρ c (Proc.devRef .tc main_arg34) = X34 :=
  (by keep_host hostOps2_1 : W6 m ρ c (Proc.devRef .tc main_arg34) = W5 m ρ c (Proc.devRef .tc main_arg34)).trans (W5_main_arg34 m ρ c h31 h32 h33 h34)

theorem W7_main_arg34 (h31 : RangeOf X31) (h32 : RangeOf X32) (h33 : RangeOf X33) (h34 : RangeOf X34) : W7 m ρ c (Proc.devRef .tc main_arg34) = X34 :=
  (by keep_host hostOps2_2 : W7 m ρ c (Proc.devRef .tc main_arg34) = W6 m ρ c (Proc.devRef .tc main_arg34)).trans (W6_main_arg34 m ρ c h31 h32 h33 h34)

theorem W8_main_arg34 (h31 : RangeOf X31) (h32 : RangeOf X32) (h33 : RangeOf X33) (h34 : RangeOf X34) : W8 m ρ c (Proc.devRef .tc main_arg34) = X34 :=
  (by keep_host hostOps2_3 : W8 m ρ c (Proc.devRef .tc main_arg34) = W7 m ρ c (Proc.devRef .tc main_arg34)).trans (W7_main_arg34 m ρ c h31 h32 h33 h34)

theorem W9_main_arg34 (h31 : RangeOf X31) (h32 : RangeOf X32) (h33 : RangeOf X33) (h34 : RangeOf X34) : W9 m ρ c (Proc.devRef .tc main_arg34) = X34 :=
  (W9_of_ne m ρ c main_arg34 (by decide)).trans (W8_main_arg34 m ρ c h31 h32 h33 h34)

theorem W10_main_arg34 (h31 : RangeOf X31) (h32 : RangeOf X32) (h33 : RangeOf X33) (h34 : RangeOf X34) : W10 m ρ c (Proc.devRef .tc main_arg34) = X34 :=
  (by keep_host hostOps3 : W10 m ρ c (Proc.devRef .tc main_arg34) = W9 m ρ c (Proc.devRef .tc main_arg34)).trans (W9_main_arg34 m ρ c h31 h32 h33 h34)

theorem W11_main_arg34 (h31 : RangeOf X31) (h32 : RangeOf X32) (h33 : RangeOf X33) (h34 : RangeOf X34) : W11 m ρ c (Proc.devRef .tc main_arg34) = X34 :=
  (W11_of_ne m ρ c main_arg34 (by decide)).trans (W10_main_arg34 m ρ c h31 h32 h33 h34)

theorem W12_main_arg34 (h31 : RangeOf X31) (h32 : RangeOf X32) (h33 : RangeOf X33) (h34 : RangeOf X34) : W12 m ρ c (Proc.devRef .tc main_arg34) = X34 :=
  (by keep_host hostOps4 : W12 m ρ c (Proc.devRef .tc main_arg34) = W11 m ρ c (Proc.devRef .tc main_arg34)).trans (W11_main_arg34 m ρ c h31 h32 h33 h34)

theorem W13_main_arg34 (h31 : RangeOf X31) (h32 : RangeOf X32) (h33 : RangeOf X33) (h34 : RangeOf X34) : W13 m ρ c (Proc.devRef .tc main_arg34) = X34 :=
  (by keep_host hostOps4_1 : W13 m ρ c (Proc.devRef .tc main_arg34) = W12 m ρ c (Proc.devRef .tc main_arg34)).trans (W12_main_arg34 m ρ c h31 h32 h33 h34)

theorem W14_main_arg34 (h31 : RangeOf X31) (h32 : RangeOf X32) (h33 : RangeOf X33) (h34 : RangeOf X34) : W14 m ρ c (Proc.devRef .tc main_arg34) = X34 :=
  (by keep_host hostOps4_2 : W14 m ρ c (Proc.devRef .tc main_arg34) = W13 m ρ c (Proc.devRef .tc main_arg34)).trans (W13_main_arg34 m ρ c h31 h32 h33 h34)

theorem W15_main_arg34 (h31 : RangeOf X31) (h32 : RangeOf X32) (h33 : RangeOf X33) (h34 : RangeOf X34) : W15 m ρ c (Proc.devRef .tc main_arg34) = X34 :=
  (W15_of_ne m ρ c main_arg34 (by decide)).trans (W14_main_arg34 m ρ c h31 h32 h33 h34)

theorem W16_main_arg34 (h31 : RangeOf X31) (h32 : RangeOf X32) (h33 : RangeOf X33) (h34 : RangeOf X34) : W16 m ρ c (Proc.devRef .tc main_arg34) = X34 :=
  (by keep_host hostOps5 : W16 m ρ c (Proc.devRef .tc main_arg34) = W15 m ρ c (Proc.devRef .tc main_arg34)).trans (W15_main_arg34 m ρ c h31 h32 h33 h34)

theorem W17_main_arg34 (h31 : RangeOf X31) (h32 : RangeOf X32) (h33 : RangeOf X33) (h34 : RangeOf X34) : W17 m ρ c (Proc.devRef .tc main_arg34) = X34 :=
  (W17_of_ne m ρ c main_arg34 (by decide)).trans (W16_main_arg34 m ρ c h31 h32 h33 h34)

set_option maxHeartbeats 1000000 in
theorem W18_main_v73 (h31 : RangeOf X31) (h32 : RangeOf X32) (h33 : RangeOf X33) (h34 : RangeOf X34) : W18 m ρ c (Proc.devRef .tc main_v73) = (Cert.ReferenceIdeal.Read.val_main_v211 (F := Ideal) X34) := by
  have e0 := (W17_main_arg34 m ρ c h31 h32 h33 h34)
  show StableHlo.after hostOps6 (W17 m ρ c) (Proc.devRef .tc main_v73) = _
  generalize W17 m ρ c = W at e0 ⊢
  simp only [hostOps6]
  after_results
  rw [e0]
  rfl

theorem W18_main_v71_0 (h31 : RangeOf X31) (h32 : RangeOf X32) (h33 : RangeOf X33) (h34 : RangeOf X34) : W18 m ρ c (Proc.devRef .tc main_v71_0) = (Cert.ReferenceIdeal.Read.val_main_v209 (F := Ideal) X0 X1 X2 X3 X4 X5 X6 X7 X8 X9 X10 X11 X12 X13 X14 X15 X16 X17 X18 X19 X20 X21 X22 X23 X24 X25 X30 X31 X32 X33) :=
  (by keep_host hostOps6 : W18 m ρ c (Proc.devRef .tc main_v71_0) = W17 m ρ c (Proc.devRef .tc main_v71_0)).trans (W17_main_v71_0 m ρ c h31 h32 h33 h34)

set_option maxHeartbeats 1000000 in
theorem W19_main_v74 (h31 : RangeOf X31) (h32 : RangeOf X32) (h33 : RangeOf X33) (h34 : RangeOf X34) : W19 m ρ c (Proc.devRef .tc main_v74) = (Cert.ReferenceIdeal.Read.val_main_v218 (F := Ideal) X0 X1 X2 X3 X4 X5 X6 X7 X8 X9 X10 X11 X12 X13 X14 X15 X16 X17 X18 X19 X20 X21 X22 X23 X24 X25 X30 X31 X32 X33 X34) := by
  refine (Cert.Bridge.Takes.call6 (W18 m ρ c) (by rw [(W18_main_v73 m ρ c h31 h32 h33 h34)]; exact (Cert.Bridge.Takes.range_v211 X34 h34)) : W19 m ρ c (Proc.devRef .tc main_v74) = _).trans ?_
  rw [(W18_main_v71_0 m ρ c h31 h32 h33 h34), (W18_main_v73 m ρ c h31 h32 h33 h34)]
  rfl

theorem W18_main_arg34 (h31 : RangeOf X31) (h32 : RangeOf X32) (h33 : RangeOf X33) (h34 : RangeOf X34) : W18 m ρ c (Proc.devRef .tc main_arg34) = X34 :=
  (by keep_host hostOps6 : W18 m ρ c (Proc.devRef .tc main_arg34) = W17 m ρ c (Proc.devRef .tc main_arg34)).trans (W17_main_arg34 m ρ c h31 h32 h33 h34)

theorem W19_main_arg34 (h31 : RangeOf X31) (h32 : RangeOf X32) (h33 : RangeOf X33) (h34 : RangeOf X34) : W19 m ρ c (Proc.devRef .tc main_arg34) = X34 :=
  (by keep_host hostOps6_1 : W19 m ρ c (Proc.devRef .tc main_arg34) = W18 m ρ c (Proc.devRef .tc main_arg34)).trans (W18_main_arg34 m ρ c h31 h32 h33 h34)

set_option maxHeartbeats 1000000 in
theorem W20_main_v76 (h31 : RangeOf X31) (h32 : RangeOf X32) (h33 : RangeOf X33) (h34 : RangeOf X34) : W20 m ρ c (Proc.devRef .tc main_v76) = (Cert.ReferenceIdeal.Read.val_main_v220 (F := Ideal) X34) := by
  have e0 := (W19_main_arg34 m ρ c h31 h32 h33 h34)
  show StableHlo.after hostOps6_2 (W19 m ρ c) (Proc.devRef .tc main_v76) = _
  generalize W19 m ρ c = W at e0 ⊢
  simp only [hostOps6_2]
  after_results
  rw [e0]
  rfl

theorem W18_main_v71_1 (h31 : RangeOf X31) (h32 : RangeOf X32) (h33 : RangeOf X33) (h34 : RangeOf X34) : W18 m ρ c (Proc.devRef .tc main_v71_1) = (Cert.ReferenceIdeal.Read.val_main_v171 (F := Ideal) X0 X1 X2 X3 X4 X5 X6 X7 X8 X9 X10 X11 X12 X13 X14 X15 X16 X17 X18 X19 X20 X21 X22 X23 X24 X25 X30 X31 X32 X33) :=
  (by keep_host hostOps6 : W18 m ρ c (Proc.devRef .tc main_v71_1) = W17 m ρ c (Proc.devRef .tc main_v71_1)).trans (W17_main_v71_1 m ρ c h31 h32 h33 h34)

theorem W19_main_v71_1 (h31 : RangeOf X31) (h32 : RangeOf X32) (h33 : RangeOf X33) (h34 : RangeOf X34) : W19 m ρ c (Proc.devRef .tc main_v71_1) = (Cert.ReferenceIdeal.Read.val_main_v171 (F := Ideal) X0 X1 X2 X3 X4 X5 X6 X7 X8 X9 X10 X11 X12 X13 X14 X15 X16 X17 X18 X19 X20 X21 X22 X23 X24 X25 X30 X31 X32 X33) :=
  (by keep_host hostOps6_1 : W19 m ρ c (Proc.devRef .tc main_v71_1) = W18 m ρ c (Proc.devRef .tc main_v71_1)).trans (W18_main_v71_1 m ρ c h31 h32 h33 h34)

theorem W20_main_v71_1 (h31 : RangeOf X31) (h32 : RangeOf X32) (h33 : RangeOf X33) (h34 : RangeOf X34) : W20 m ρ c (Proc.devRef .tc main_v71_1) = (Cert.ReferenceIdeal.Read.val_main_v171 (F := Ideal) X0 X1 X2 X3 X4 X5 X6 X7 X8 X9 X10 X11 X12 X13 X14 X15 X16 X17 X18 X19 X20 X21 X22 X23 X24 X25 X30 X31 X32 X33) :=
  (by keep_host hostOps6_2 : W20 m ρ c (Proc.devRef .tc main_v71_1) = W19 m ρ c (Proc.devRef .tc main_v71_1)).trans (W19_main_v71_1 m ρ c h31 h32 h33 h34)

set_option maxHeartbeats 1000000 in
theorem W21_main_v77 (h31 : RangeOf X31) (h32 : RangeOf X32) (h33 : RangeOf X33) (h34 : RangeOf X34) : W21 m ρ c (Proc.devRef .tc main_v77) = (Cert.ReferenceIdeal.Read.val_main_v227 (F := Ideal) X0 X1 X2 X3 X4 X5 X6 X7 X8 X9 X10 X11 X12 X13 X14 X15 X16 X17 X18 X19 X20 X21 X22 X23 X24 X25 X30 X31 X32 X33 X34) := by
  refine (Cert.Bridge.Takes.call7 (W20 m ρ c) (by rw [(W20_main_v76 m ρ c h31 h32 h33 h34)]; exact (Cert.Bridge.Takes.range_v220 X34 h34)) : W21 m ρ c (Proc.devRef .tc main_v77) = _).trans ?_
  rw [(W20_main_v71_1 m ρ c h31 h32 h33 h34), (W20_main_v76 m ρ c h31 h32 h33 h34)]
  rfl

theorem W0_main_arg26 : W0 m ρ c (Proc.devRef .tc main_arg26) = X26 := rfl

theorem W1_main_arg26 (h31 : RangeOf X31) (h32 : RangeOf X32) (h33 : RangeOf X33) (h34 : RangeOf X34) : W1 m ρ c (Proc.devRef .tc main_arg26) = X26 :=
  (by keep_host hostOps0 : W1 m ρ c (Proc.devRef .tc main_arg26) = W0 m ρ c (Proc.devRef .tc main_arg26)).trans (W0_main_arg26 m ρ c)

theorem W2_main_arg26 (h31 : RangeOf X31) (h32 : RangeOf X32) (h33 : RangeOf X33) (h34 : RangeOf X34) : W2 m ρ c (Proc.devRef .tc main_arg26) = X26 :=
  (by keep_host hostOps0_1 : W2 m ρ c (Proc.devRef .tc main_arg26) = W1 m ρ c (Proc.devRef .tc main_arg26)).trans (W1_main_arg26 m ρ c h31 h32 h33 h34)

theorem W3_main_arg26 (h31 : RangeOf X31) (h32 : RangeOf X32) (h33 : RangeOf X33) (h34 : RangeOf X34) : W3 m ρ c (Proc.devRef .tc main_arg26) = X26 :=
  (W3_of_ne m ρ c main_arg26 (by decide)).trans (W2_main_arg26 m ρ c h31 h32 h33 h34)

theorem W4_main_arg26 (h31 : RangeOf X31) (h32 : RangeOf X32) (h33 : RangeOf X33) (h34 : RangeOf X34) : W4 m ρ c (Proc.devRef .tc main_arg26) = X26 :=
  (W4_of_ne m ρ c main_arg26 (by decide)).trans (W3_main_arg26 m ρ c h31 h32 h33 h34)

theorem W5_main_arg26 (h31 : RangeOf X31) (h32 : RangeOf X32) (h33 : RangeOf X33) (h34 : RangeOf X34) : W5 m ρ c (Proc.devRef .tc main_arg26) = X26 :=
  (by keep_host hostOps2 : W5 m ρ c (Proc.devRef .tc main_arg26) = W4 m ρ c (Proc.devRef .tc main_arg26)).trans (W4_main_arg26 m ρ c h31 h32 h33 h34)

theorem W6_main_arg26 (h31 : RangeOf X31) (h32 : RangeOf X32) (h33 : RangeOf X33) (h34 : RangeOf X34) : W6 m ρ c (Proc.devRef .tc main_arg26) = X26 :=
  (by keep_host hostOps2_1 : W6 m ρ c (Proc.devRef .tc main_arg26) = W5 m ρ c (Proc.devRef .tc main_arg26)).trans (W5_main_arg26 m ρ c h31 h32 h33 h34)

theorem W7_main_arg26 (h31 : RangeOf X31) (h32 : RangeOf X32) (h33 : RangeOf X33) (h34 : RangeOf X34) : W7 m ρ c (Proc.devRef .tc main_arg26) = X26 :=
  (by keep_host hostOps2_2 : W7 m ρ c (Proc.devRef .tc main_arg26) = W6 m ρ c (Proc.devRef .tc main_arg26)).trans (W6_main_arg26 m ρ c h31 h32 h33 h34)

theorem W8_main_arg26 (h31 : RangeOf X31) (h32 : RangeOf X32) (h33 : RangeOf X33) (h34 : RangeOf X34) : W8 m ρ c (Proc.devRef .tc main_arg26) = X26 :=
  (by keep_host hostOps2_3 : W8 m ρ c (Proc.devRef .tc main_arg26) = W7 m ρ c (Proc.devRef .tc main_arg26)).trans (W7_main_arg26 m ρ c h31 h32 h33 h34)

theorem W9_main_arg26 (h31 : RangeOf X31) (h32 : RangeOf X32) (h33 : RangeOf X33) (h34 : RangeOf X34) : W9 m ρ c (Proc.devRef .tc main_arg26) = X26 :=
  (W9_of_ne m ρ c main_arg26 (by decide)).trans (W8_main_arg26 m ρ c h31 h32 h33 h34)

theorem W10_main_arg26 (h31 : RangeOf X31) (h32 : RangeOf X32) (h33 : RangeOf X33) (h34 : RangeOf X34) : W10 m ρ c (Proc.devRef .tc main_arg26) = X26 :=
  (by keep_host hostOps3 : W10 m ρ c (Proc.devRef .tc main_arg26) = W9 m ρ c (Proc.devRef .tc main_arg26)).trans (W9_main_arg26 m ρ c h31 h32 h33 h34)

theorem W11_main_arg26 (h31 : RangeOf X31) (h32 : RangeOf X32) (h33 : RangeOf X33) (h34 : RangeOf X34) : W11 m ρ c (Proc.devRef .tc main_arg26) = X26 :=
  (W11_of_ne m ρ c main_arg26 (by decide)).trans (W10_main_arg26 m ρ c h31 h32 h33 h34)

theorem W12_main_arg26 (h31 : RangeOf X31) (h32 : RangeOf X32) (h33 : RangeOf X33) (h34 : RangeOf X34) : W12 m ρ c (Proc.devRef .tc main_arg26) = X26 :=
  (by keep_host hostOps4 : W12 m ρ c (Proc.devRef .tc main_arg26) = W11 m ρ c (Proc.devRef .tc main_arg26)).trans (W11_main_arg26 m ρ c h31 h32 h33 h34)

theorem W13_main_arg26 (h31 : RangeOf X31) (h32 : RangeOf X32) (h33 : RangeOf X33) (h34 : RangeOf X34) : W13 m ρ c (Proc.devRef .tc main_arg26) = X26 :=
  (by keep_host hostOps4_1 : W13 m ρ c (Proc.devRef .tc main_arg26) = W12 m ρ c (Proc.devRef .tc main_arg26)).trans (W12_main_arg26 m ρ c h31 h32 h33 h34)

theorem W14_main_arg26 (h31 : RangeOf X31) (h32 : RangeOf X32) (h33 : RangeOf X33) (h34 : RangeOf X34) : W14 m ρ c (Proc.devRef .tc main_arg26) = X26 :=
  (by keep_host hostOps4_2 : W14 m ρ c (Proc.devRef .tc main_arg26) = W13 m ρ c (Proc.devRef .tc main_arg26)).trans (W13_main_arg26 m ρ c h31 h32 h33 h34)

theorem W15_main_arg26 (h31 : RangeOf X31) (h32 : RangeOf X32) (h33 : RangeOf X33) (h34 : RangeOf X34) : W15 m ρ c (Proc.devRef .tc main_arg26) = X26 :=
  (W15_of_ne m ρ c main_arg26 (by decide)).trans (W14_main_arg26 m ρ c h31 h32 h33 h34)

theorem W16_main_arg26 (h31 : RangeOf X31) (h32 : RangeOf X32) (h33 : RangeOf X33) (h34 : RangeOf X34) : W16 m ρ c (Proc.devRef .tc main_arg26) = X26 :=
  (by keep_host hostOps5 : W16 m ρ c (Proc.devRef .tc main_arg26) = W15 m ρ c (Proc.devRef .tc main_arg26)).trans (W15_main_arg26 m ρ c h31 h32 h33 h34)

theorem W17_main_arg26 (h31 : RangeOf X31) (h32 : RangeOf X32) (h33 : RangeOf X33) (h34 : RangeOf X34) : W17 m ρ c (Proc.devRef .tc main_arg26) = X26 :=
  (W17_of_ne m ρ c main_arg26 (by decide)).trans (W16_main_arg26 m ρ c h31 h32 h33 h34)

theorem W18_main_arg26 (h31 : RangeOf X31) (h32 : RangeOf X32) (h33 : RangeOf X33) (h34 : RangeOf X34) : W18 m ρ c (Proc.devRef .tc main_arg26) = X26 :=
  (by keep_host hostOps6 : W18 m ρ c (Proc.devRef .tc main_arg26) = W17 m ρ c (Proc.devRef .tc main_arg26)).trans (W17_main_arg26 m ρ c h31 h32 h33 h34)

theorem W19_main_arg26 (h31 : RangeOf X31) (h32 : RangeOf X32) (h33 : RangeOf X33) (h34 : RangeOf X34) : W19 m ρ c (Proc.devRef .tc main_arg26) = X26 :=
  (by keep_host hostOps6_1 : W19 m ρ c (Proc.devRef .tc main_arg26) = W18 m ρ c (Proc.devRef .tc main_arg26)).trans (W18_main_arg26 m ρ c h31 h32 h33 h34)

theorem W20_main_arg26 (h31 : RangeOf X31) (h32 : RangeOf X32) (h33 : RangeOf X33) (h34 : RangeOf X34) : W20 m ρ c (Proc.devRef .tc main_arg26) = X26 :=
  (by keep_host hostOps6_2 : W20 m ρ c (Proc.devRef .tc main_arg26) = W19 m ρ c (Proc.devRef .tc main_arg26)).trans (W19_main_arg26 m ρ c h31 h32 h33 h34)

theorem W21_main_arg26 (h31 : RangeOf X31) (h32 : RangeOf X32) (h33 : RangeOf X33) (h34 : RangeOf X34) : W21 m ρ c (Proc.devRef .tc main_arg26) = X26 :=
  (by keep_host hostOps6_3 : W21 m ρ c (Proc.devRef .tc main_arg26) = W20 m ρ c (Proc.devRef .tc main_arg26)).trans (W20_main_arg26 m ρ c h31 h32 h33 h34)

set_option maxHeartbeats 1000000 in
theorem W22_main_v78 (h31 : RangeOf X31) (h32 : RangeOf X32) (h33 : RangeOf X33) (h34 : RangeOf X34) : W22 m ρ c (Proc.devRef .tc main_v78) = (extractStridedSlice S64x64 ![0, 0] X26 slices_S128x64_S64x64_0_0) := by
  have e0 := (W21_main_arg26 m ρ c h31 h32 h33 h34)
  show StableHlo.after hostOps6_4 (W21 m ρ c) (Proc.devRef .tc main_v78) = _
  generalize W21 m ρ c = W at e0 ⊢
  simp only [hostOps6_4]
  after_results
  rw [e0]

set_option maxHeartbeats 1000000 in
theorem W22_main_v79 (h31 : RangeOf X31) (h32 : RangeOf X32) (h33 : RangeOf X33) (h34 : RangeOf X34) : W22 m ρ c (Proc.devRef .tc main_v79) = (extractStridedSlice S64x64 ![64, 0] X26 slices_S128x64_S64x64_64_0) := by
  have e0 := (W21_main_arg26 m ρ c h31 h32 h33 h34)
  show StableHlo.after hostOps6_4 (W21 m ρ c) (Proc.devRef .tc main_v79) = _
  generalize W21 m ρ c = W at e0 ⊢
  simp only [hostOps6_4]
  after_results
  rw [e0]

theorem W20_main_v74 (h31 : RangeOf X31) (h32 : RangeOf X32) (h33 : RangeOf X33) (h34 : RangeOf X34) : W20 m ρ c (Proc.devRef .tc main_v74) = (Cert.ReferenceIdeal.Read.val_main_v218 (F := Ideal) X0 X1 X2 X3 X4 X5 X6 X7 X8 X9 X10 X11 X12 X13 X14 X15 X16 X17 X18 X19 X20 X21 X22 X23 X24 X25 X30 X31 X32 X33 X34) :=
  (by keep_host hostOps6_2 : W20 m ρ c (Proc.devRef .tc main_v74) = W19 m ρ c (Proc.devRef .tc main_v74)).trans (W19_main_v74 m ρ c h31 h32 h33 h34)

theorem W21_main_v74 (h31 : RangeOf X31) (h32 : RangeOf X32) (h33 : RangeOf X33) (h34 : RangeOf X34) : W21 m ρ c (Proc.devRef .tc main_v74) = (Cert.ReferenceIdeal.Read.val_main_v218 (F := Ideal) X0 X1 X2 X3 X4 X5 X6 X7 X8 X9 X10 X11 X12 X13 X14 X15 X16 X17 X18 X19 X20 X21 X22 X23 X24 X25 X30 X31 X32 X33 X34) :=
  (by keep_host hostOps6_3 : W21 m ρ c (Proc.devRef .tc main_v74) = W20 m ρ c (Proc.devRef .tc main_v74)).trans (W20_main_v74 m ρ c h31 h32 h33 h34)

theorem W22_main_v74 (h31 : RangeOf X31) (h32 : RangeOf X32) (h33 : RangeOf X33) (h34 : RangeOf X34) : W22 m ρ c (Proc.devRef .tc main_v74) = (Cert.ReferenceIdeal.Read.val_main_v218 (F := Ideal) X0 X1 X2 X3 X4 X5 X6 X7 X8 X9 X10 X11 X12 X13 X14 X15 X16 X17 X18 X19 X20 X21 X22 X23 X24 X25 X30 X31 X32 X33 X34) :=
  (by keep_host hostOps6_4 : W22 m ρ c (Proc.devRef .tc main_v74) = W21 m ρ c (Proc.devRef .tc main_v74)).trans (W21_main_v74 m ρ c h31 h32 h33 h34)

theorem W22_main_v77 (h31 : RangeOf X31) (h32 : RangeOf X32) (h33 : RangeOf X33) (h34 : RangeOf X34) : W22 m ρ c (Proc.devRef .tc main_v77) = (Cert.ReferenceIdeal.Read.val_main_v227 (F := Ideal) X0 X1 X2 X3 X4 X5 X6 X7 X8 X9 X10 X11 X12 X13 X14 X15 X16 X17 X18 X19 X20 X21 X22 X23 X24 X25 X30 X31 X32 X33 X34) :=
  (by keep_host hostOps6_4 : W22 m ρ c (Proc.devRef .tc main_v77) = W21 m ρ c (Proc.devRef .tc main_v77)).trans (W21_main_v77 m ρ c h31 h32 h33 h34)

theorem W0_main_arg27 : W0 m ρ c (Proc.devRef .tc main_arg27) = X27 := rfl

theorem W1_main_arg27 (h31 : RangeOf X31) (h32 : RangeOf X32) (h33 : RangeOf X33) (h34 : RangeOf X34) : W1 m ρ c (Proc.devRef .tc main_arg27) = X27 :=
  (by keep_host hostOps0 : W1 m ρ c (Proc.devRef .tc main_arg27) = W0 m ρ c (Proc.devRef .tc main_arg27)).trans (W0_main_arg27 m ρ c)

theorem W2_main_arg27 (h31 : RangeOf X31) (h32 : RangeOf X32) (h33 : RangeOf X33) (h34 : RangeOf X34) : W2 m ρ c (Proc.devRef .tc main_arg27) = X27 :=
  (by keep_host hostOps0_1 : W2 m ρ c (Proc.devRef .tc main_arg27) = W1 m ρ c (Proc.devRef .tc main_arg27)).trans (W1_main_arg27 m ρ c h31 h32 h33 h34)

theorem W3_main_arg27 (h31 : RangeOf X31) (h32 : RangeOf X32) (h33 : RangeOf X33) (h34 : RangeOf X34) : W3 m ρ c (Proc.devRef .tc main_arg27) = X27 :=
  (W3_of_ne m ρ c main_arg27 (by decide)).trans (W2_main_arg27 m ρ c h31 h32 h33 h34)

theorem W4_main_arg27 (h31 : RangeOf X31) (h32 : RangeOf X32) (h33 : RangeOf X33) (h34 : RangeOf X34) : W4 m ρ c (Proc.devRef .tc main_arg27) = X27 :=
  (W4_of_ne m ρ c main_arg27 (by decide)).trans (W3_main_arg27 m ρ c h31 h32 h33 h34)

theorem W5_main_arg27 (h31 : RangeOf X31) (h32 : RangeOf X32) (h33 : RangeOf X33) (h34 : RangeOf X34) : W5 m ρ c (Proc.devRef .tc main_arg27) = X27 :=
  (by keep_host hostOps2 : W5 m ρ c (Proc.devRef .tc main_arg27) = W4 m ρ c (Proc.devRef .tc main_arg27)).trans (W4_main_arg27 m ρ c h31 h32 h33 h34)

theorem W6_main_arg27 (h31 : RangeOf X31) (h32 : RangeOf X32) (h33 : RangeOf X33) (h34 : RangeOf X34) : W6 m ρ c (Proc.devRef .tc main_arg27) = X27 :=
  (by keep_host hostOps2_1 : W6 m ρ c (Proc.devRef .tc main_arg27) = W5 m ρ c (Proc.devRef .tc main_arg27)).trans (W5_main_arg27 m ρ c h31 h32 h33 h34)

theorem W7_main_arg27 (h31 : RangeOf X31) (h32 : RangeOf X32) (h33 : RangeOf X33) (h34 : RangeOf X34) : W7 m ρ c (Proc.devRef .tc main_arg27) = X27 :=
  (by keep_host hostOps2_2 : W7 m ρ c (Proc.devRef .tc main_arg27) = W6 m ρ c (Proc.devRef .tc main_arg27)).trans (W6_main_arg27 m ρ c h31 h32 h33 h34)

theorem W8_main_arg27 (h31 : RangeOf X31) (h32 : RangeOf X32) (h33 : RangeOf X33) (h34 : RangeOf X34) : W8 m ρ c (Proc.devRef .tc main_arg27) = X27 :=
  (by keep_host hostOps2_3 : W8 m ρ c (Proc.devRef .tc main_arg27) = W7 m ρ c (Proc.devRef .tc main_arg27)).trans (W7_main_arg27 m ρ c h31 h32 h33 h34)

theorem W9_main_arg27 (h31 : RangeOf X31) (h32 : RangeOf X32) (h33 : RangeOf X33) (h34 : RangeOf X34) : W9 m ρ c (Proc.devRef .tc main_arg27) = X27 :=
  (W9_of_ne m ρ c main_arg27 (by decide)).trans (W8_main_arg27 m ρ c h31 h32 h33 h34)

theorem W10_main_arg27 (h31 : RangeOf X31) (h32 : RangeOf X32) (h33 : RangeOf X33) (h34 : RangeOf X34) : W10 m ρ c (Proc.devRef .tc main_arg27) = X27 :=
  (by keep_host hostOps3 : W10 m ρ c (Proc.devRef .tc main_arg27) = W9 m ρ c (Proc.devRef .tc main_arg27)).trans (W9_main_arg27 m ρ c h31 h32 h33 h34)

theorem W11_main_arg27 (h31 : RangeOf X31) (h32 : RangeOf X32) (h33 : RangeOf X33) (h34 : RangeOf X34) : W11 m ρ c (Proc.devRef .tc main_arg27) = X27 :=
  (W11_of_ne m ρ c main_arg27 (by decide)).trans (W10_main_arg27 m ρ c h31 h32 h33 h34)

theorem W12_main_arg27 (h31 : RangeOf X31) (h32 : RangeOf X32) (h33 : RangeOf X33) (h34 : RangeOf X34) : W12 m ρ c (Proc.devRef .tc main_arg27) = X27 :=
  (by keep_host hostOps4 : W12 m ρ c (Proc.devRef .tc main_arg27) = W11 m ρ c (Proc.devRef .tc main_arg27)).trans (W11_main_arg27 m ρ c h31 h32 h33 h34)

theorem W13_main_arg27 (h31 : RangeOf X31) (h32 : RangeOf X32) (h33 : RangeOf X33) (h34 : RangeOf X34) : W13 m ρ c (Proc.devRef .tc main_arg27) = X27 :=
  (by keep_host hostOps4_1 : W13 m ρ c (Proc.devRef .tc main_arg27) = W12 m ρ c (Proc.devRef .tc main_arg27)).trans (W12_main_arg27 m ρ c h31 h32 h33 h34)

theorem W14_main_arg27 (h31 : RangeOf X31) (h32 : RangeOf X32) (h33 : RangeOf X33) (h34 : RangeOf X34) : W14 m ρ c (Proc.devRef .tc main_arg27) = X27 :=
  (by keep_host hostOps4_2 : W14 m ρ c (Proc.devRef .tc main_arg27) = W13 m ρ c (Proc.devRef .tc main_arg27)).trans (W13_main_arg27 m ρ c h31 h32 h33 h34)

theorem W15_main_arg27 (h31 : RangeOf X31) (h32 : RangeOf X32) (h33 : RangeOf X33) (h34 : RangeOf X34) : W15 m ρ c (Proc.devRef .tc main_arg27) = X27 :=
  (W15_of_ne m ρ c main_arg27 (by decide)).trans (W14_main_arg27 m ρ c h31 h32 h33 h34)

theorem W16_main_arg27 (h31 : RangeOf X31) (h32 : RangeOf X32) (h33 : RangeOf X33) (h34 : RangeOf X34) : W16 m ρ c (Proc.devRef .tc main_arg27) = X27 :=
  (by keep_host hostOps5 : W16 m ρ c (Proc.devRef .tc main_arg27) = W15 m ρ c (Proc.devRef .tc main_arg27)).trans (W15_main_arg27 m ρ c h31 h32 h33 h34)

theorem W17_main_arg27 (h31 : RangeOf X31) (h32 : RangeOf X32) (h33 : RangeOf X33) (h34 : RangeOf X34) : W17 m ρ c (Proc.devRef .tc main_arg27) = X27 :=
  (W17_of_ne m ρ c main_arg27 (by decide)).trans (W16_main_arg27 m ρ c h31 h32 h33 h34)

theorem W18_main_arg27 (h31 : RangeOf X31) (h32 : RangeOf X32) (h33 : RangeOf X33) (h34 : RangeOf X34) : W18 m ρ c (Proc.devRef .tc main_arg27) = X27 :=
  (by keep_host hostOps6 : W18 m ρ c (Proc.devRef .tc main_arg27) = W17 m ρ c (Proc.devRef .tc main_arg27)).trans (W17_main_arg27 m ρ c h31 h32 h33 h34)

theorem W19_main_arg27 (h31 : RangeOf X31) (h32 : RangeOf X32) (h33 : RangeOf X33) (h34 : RangeOf X34) : W19 m ρ c (Proc.devRef .tc main_arg27) = X27 :=
  (by keep_host hostOps6_1 : W19 m ρ c (Proc.devRef .tc main_arg27) = W18 m ρ c (Proc.devRef .tc main_arg27)).trans (W18_main_arg27 m ρ c h31 h32 h33 h34)

theorem W20_main_arg27 (h31 : RangeOf X31) (h32 : RangeOf X32) (h33 : RangeOf X33) (h34 : RangeOf X34) : W20 m ρ c (Proc.devRef .tc main_arg27) = X27 :=
  (by keep_host hostOps6_2 : W20 m ρ c (Proc.devRef .tc main_arg27) = W19 m ρ c (Proc.devRef .tc main_arg27)).trans (W19_main_arg27 m ρ c h31 h32 h33 h34)

theorem W21_main_arg27 (h31 : RangeOf X31) (h32 : RangeOf X32) (h33 : RangeOf X33) (h34 : RangeOf X34) : W21 m ρ c (Proc.devRef .tc main_arg27) = X27 :=
  (by keep_host hostOps6_3 : W21 m ρ c (Proc.devRef .tc main_arg27) = W20 m ρ c (Proc.devRef .tc main_arg27)).trans (W20_main_arg27 m ρ c h31 h32 h33 h34)

theorem W22_main_arg27 (h31 : RangeOf X31) (h32 : RangeOf X32) (h33 : RangeOf X33) (h34 : RangeOf X34) : W22 m ρ c (Proc.devRef .tc main_arg27) = X27 :=
  (by keep_host hostOps6_4 : W22 m ρ c (Proc.devRef .tc main_arg27) = W21 m ρ c (Proc.devRef .tc main_arg27)).trans (W21_main_arg27 m ρ c h31 h32 h33 h34)

theorem W0_main_arg28 : W0 m ρ c (Proc.devRef .tc main_arg28) = X28 := rfl

theorem W1_main_arg28 (h31 : RangeOf X31) (h32 : RangeOf X32) (h33 : RangeOf X33) (h34 : RangeOf X34) : W1 m ρ c (Proc.devRef .tc main_arg28) = X28 :=
  (by keep_host hostOps0 : W1 m ρ c (Proc.devRef .tc main_arg28) = W0 m ρ c (Proc.devRef .tc main_arg28)).trans (W0_main_arg28 m ρ c)

theorem W2_main_arg28 (h31 : RangeOf X31) (h32 : RangeOf X32) (h33 : RangeOf X33) (h34 : RangeOf X34) : W2 m ρ c (Proc.devRef .tc main_arg28) = X28 :=
  (by keep_host hostOps0_1 : W2 m ρ c (Proc.devRef .tc main_arg28) = W1 m ρ c (Proc.devRef .tc main_arg28)).trans (W1_main_arg28 m ρ c h31 h32 h33 h34)

theorem W3_main_arg28 (h31 : RangeOf X31) (h32 : RangeOf X32) (h33 : RangeOf X33) (h34 : RangeOf X34) : W3 m ρ c (Proc.devRef .tc main_arg28) = X28 :=
  (W3_of_ne m ρ c main_arg28 (by decide)).trans (W2_main_arg28 m ρ c h31 h32 h33 h34)

theorem W4_main_arg28 (h31 : RangeOf X31) (h32 : RangeOf X32) (h33 : RangeOf X33) (h34 : RangeOf X34) : W4 m ρ c (Proc.devRef .tc main_arg28) = X28 :=
  (W4_of_ne m ρ c main_arg28 (by decide)).trans (W3_main_arg28 m ρ c h31 h32 h33 h34)

theorem W5_main_arg28 (h31 : RangeOf X31) (h32 : RangeOf X32) (h33 : RangeOf X33) (h34 : RangeOf X34) : W5 m ρ c (Proc.devRef .tc main_arg28) = X28 :=
  (by keep_host hostOps2 : W5 m ρ c (Proc.devRef .tc main_arg28) = W4 m ρ c (Proc.devRef .tc main_arg28)).trans (W4_main_arg28 m ρ c h31 h32 h33 h34)

theorem W6_main_arg28 (h31 : RangeOf X31) (h32 : RangeOf X32) (h33 : RangeOf X33) (h34 : RangeOf X34) : W6 m ρ c (Proc.devRef .tc main_arg28) = X28 :=
  (by keep_host hostOps2_1 : W6 m ρ c (Proc.devRef .tc main_arg28) = W5 m ρ c (Proc.devRef .tc main_arg28)).trans (W5_main_arg28 m ρ c h31 h32 h33 h34)

theorem W7_main_arg28 (h31 : RangeOf X31) (h32 : RangeOf X32) (h33 : RangeOf X33) (h34 : RangeOf X34) : W7 m ρ c (Proc.devRef .tc main_arg28) = X28 :=
  (by keep_host hostOps2_2 : W7 m ρ c (Proc.devRef .tc main_arg28) = W6 m ρ c (Proc.devRef .tc main_arg28)).trans (W6_main_arg28 m ρ c h31 h32 h33 h34)

theorem W8_main_arg28 (h31 : RangeOf X31) (h32 : RangeOf X32) (h33 : RangeOf X33) (h34 : RangeOf X34) : W8 m ρ c (Proc.devRef .tc main_arg28) = X28 :=
  (by keep_host hostOps2_3 : W8 m ρ c (Proc.devRef .tc main_arg28) = W7 m ρ c (Proc.devRef .tc main_arg28)).trans (W7_main_arg28 m ρ c h31 h32 h33 h34)

theorem W9_main_arg28 (h31 : RangeOf X31) (h32 : RangeOf X32) (h33 : RangeOf X33) (h34 : RangeOf X34) : W9 m ρ c (Proc.devRef .tc main_arg28) = X28 :=
  (W9_of_ne m ρ c main_arg28 (by decide)).trans (W8_main_arg28 m ρ c h31 h32 h33 h34)

theorem W10_main_arg28 (h31 : RangeOf X31) (h32 : RangeOf X32) (h33 : RangeOf X33) (h34 : RangeOf X34) : W10 m ρ c (Proc.devRef .tc main_arg28) = X28 :=
  (by keep_host hostOps3 : W10 m ρ c (Proc.devRef .tc main_arg28) = W9 m ρ c (Proc.devRef .tc main_arg28)).trans (W9_main_arg28 m ρ c h31 h32 h33 h34)

theorem W11_main_arg28 (h31 : RangeOf X31) (h32 : RangeOf X32) (h33 : RangeOf X33) (h34 : RangeOf X34) : W11 m ρ c (Proc.devRef .tc main_arg28) = X28 :=
  (W11_of_ne m ρ c main_arg28 (by decide)).trans (W10_main_arg28 m ρ c h31 h32 h33 h34)

theorem W12_main_arg28 (h31 : RangeOf X31) (h32 : RangeOf X32) (h33 : RangeOf X33) (h34 : RangeOf X34) : W12 m ρ c (Proc.devRef .tc main_arg28) = X28 :=
  (by keep_host hostOps4 : W12 m ρ c (Proc.devRef .tc main_arg28) = W11 m ρ c (Proc.devRef .tc main_arg28)).trans (W11_main_arg28 m ρ c h31 h32 h33 h34)

theorem W13_main_arg28 (h31 : RangeOf X31) (h32 : RangeOf X32) (h33 : RangeOf X33) (h34 : RangeOf X34) : W13 m ρ c (Proc.devRef .tc main_arg28) = X28 :=
  (by keep_host hostOps4_1 : W13 m ρ c (Proc.devRef .tc main_arg28) = W12 m ρ c (Proc.devRef .tc main_arg28)).trans (W12_main_arg28 m ρ c h31 h32 h33 h34)

theorem W14_main_arg28 (h31 : RangeOf X31) (h32 : RangeOf X32) (h33 : RangeOf X33) (h34 : RangeOf X34) : W14 m ρ c (Proc.devRef .tc main_arg28) = X28 :=
  (by keep_host hostOps4_2 : W14 m ρ c (Proc.devRef .tc main_arg28) = W13 m ρ c (Proc.devRef .tc main_arg28)).trans (W13_main_arg28 m ρ c h31 h32 h33 h34)

theorem W15_main_arg28 (h31 : RangeOf X31) (h32 : RangeOf X32) (h33 : RangeOf X33) (h34 : RangeOf X34) : W15 m ρ c (Proc.devRef .tc main_arg28) = X28 :=
  (W15_of_ne m ρ c main_arg28 (by decide)).trans (W14_main_arg28 m ρ c h31 h32 h33 h34)

theorem W16_main_arg28 (h31 : RangeOf X31) (h32 : RangeOf X32) (h33 : RangeOf X33) (h34 : RangeOf X34) : W16 m ρ c (Proc.devRef .tc main_arg28) = X28 :=
  (by keep_host hostOps5 : W16 m ρ c (Proc.devRef .tc main_arg28) = W15 m ρ c (Proc.devRef .tc main_arg28)).trans (W15_main_arg28 m ρ c h31 h32 h33 h34)

theorem W17_main_arg28 (h31 : RangeOf X31) (h32 : RangeOf X32) (h33 : RangeOf X33) (h34 : RangeOf X34) : W17 m ρ c (Proc.devRef .tc main_arg28) = X28 :=
  (W17_of_ne m ρ c main_arg28 (by decide)).trans (W16_main_arg28 m ρ c h31 h32 h33 h34)

theorem W18_main_arg28 (h31 : RangeOf X31) (h32 : RangeOf X32) (h33 : RangeOf X33) (h34 : RangeOf X34) : W18 m ρ c (Proc.devRef .tc main_arg28) = X28 :=
  (by keep_host hostOps6 : W18 m ρ c (Proc.devRef .tc main_arg28) = W17 m ρ c (Proc.devRef .tc main_arg28)).trans (W17_main_arg28 m ρ c h31 h32 h33 h34)

theorem W19_main_arg28 (h31 : RangeOf X31) (h32 : RangeOf X32) (h33 : RangeOf X33) (h34 : RangeOf X34) : W19 m ρ c (Proc.devRef .tc main_arg28) = X28 :=
  (by keep_host hostOps6_1 : W19 m ρ c (Proc.devRef .tc main_arg28) = W18 m ρ c (Proc.devRef .tc main_arg28)).trans (W18_main_arg28 m ρ c h31 h32 h33 h34)

theorem W20_main_arg28 (h31 : RangeOf X31) (h32 : RangeOf X32) (h33 : RangeOf X33) (h34 : RangeOf X34) : W20 m ρ c (Proc.devRef .tc main_arg28) = X28 :=
  (by keep_host hostOps6_2 : W20 m ρ c (Proc.devRef .tc main_arg28) = W19 m ρ c (Proc.devRef .tc main_arg28)).trans (W19_main_arg28 m ρ c h31 h32 h33 h34)

theorem W21_main_arg28 (h31 : RangeOf X31) (h32 : RangeOf X32) (h33 : RangeOf X33) (h34 : RangeOf X34) : W21 m ρ c (Proc.devRef .tc main_arg28) = X28 :=
  (by keep_host hostOps6_3 : W21 m ρ c (Proc.devRef .tc main_arg28) = W20 m ρ c (Proc.devRef .tc main_arg28)).trans (W20_main_arg28 m ρ c h31 h32 h33 h34)

theorem W22_main_arg28 (h31 : RangeOf X31) (h32 : RangeOf X32) (h33 : RangeOf X33) (h34 : RangeOf X34) : W22 m ρ c (Proc.devRef .tc main_arg28) = X28 :=
  (by keep_host hostOps6_4 : W22 m ρ c (Proc.devRef .tc main_arg28) = W21 m ρ c (Proc.devRef .tc main_arg28)).trans (W21_main_arg28 m ρ c h31 h32 h33 h34)

theorem W0_main_arg29 : W0 m ρ c (Proc.devRef .tc main_arg29) = X29 := rfl

theorem W1_main_arg29 (h31 : RangeOf X31) (h32 : RangeOf X32) (h33 : RangeOf X33) (h34 : RangeOf X34) : W1 m ρ c (Proc.devRef .tc main_arg29) = X29 :=
  (by keep_host hostOps0 : W1 m ρ c (Proc.devRef .tc main_arg29) = W0 m ρ c (Proc.devRef .tc main_arg29)).trans (W0_main_arg29 m ρ c)

theorem W2_main_arg29 (h31 : RangeOf X31) (h32 : RangeOf X32) (h33 : RangeOf X33) (h34 : RangeOf X34) : W2 m ρ c (Proc.devRef .tc main_arg29) = X29 :=
  (by keep_host hostOps0_1 : W2 m ρ c (Proc.devRef .tc main_arg29) = W1 m ρ c (Proc.devRef .tc main_arg29)).trans (W1_main_arg29 m ρ c h31 h32 h33 h34)

theorem W3_main_arg29 (h31 : RangeOf X31) (h32 : RangeOf X32) (h33 : RangeOf X33) (h34 : RangeOf X34) : W3 m ρ c (Proc.devRef .tc main_arg29) = X29 :=
  (W3_of_ne m ρ c main_arg29 (by decide)).trans (W2_main_arg29 m ρ c h31 h32 h33 h34)

theorem W4_main_arg29 (h31 : RangeOf X31) (h32 : RangeOf X32) (h33 : RangeOf X33) (h34 : RangeOf X34) : W4 m ρ c (Proc.devRef .tc main_arg29) = X29 :=
  (W4_of_ne m ρ c main_arg29 (by decide)).trans (W3_main_arg29 m ρ c h31 h32 h33 h34)

theorem W5_main_arg29 (h31 : RangeOf X31) (h32 : RangeOf X32) (h33 : RangeOf X33) (h34 : RangeOf X34) : W5 m ρ c (Proc.devRef .tc main_arg29) = X29 :=
  (by keep_host hostOps2 : W5 m ρ c (Proc.devRef .tc main_arg29) = W4 m ρ c (Proc.devRef .tc main_arg29)).trans (W4_main_arg29 m ρ c h31 h32 h33 h34)

theorem W6_main_arg29 (h31 : RangeOf X31) (h32 : RangeOf X32) (h33 : RangeOf X33) (h34 : RangeOf X34) : W6 m ρ c (Proc.devRef .tc main_arg29) = X29 :=
  (by keep_host hostOps2_1 : W6 m ρ c (Proc.devRef .tc main_arg29) = W5 m ρ c (Proc.devRef .tc main_arg29)).trans (W5_main_arg29 m ρ c h31 h32 h33 h34)

theorem W7_main_arg29 (h31 : RangeOf X31) (h32 : RangeOf X32) (h33 : RangeOf X33) (h34 : RangeOf X34) : W7 m ρ c (Proc.devRef .tc main_arg29) = X29 :=
  (by keep_host hostOps2_2 : W7 m ρ c (Proc.devRef .tc main_arg29) = W6 m ρ c (Proc.devRef .tc main_arg29)).trans (W6_main_arg29 m ρ c h31 h32 h33 h34)

theorem W8_main_arg29 (h31 : RangeOf X31) (h32 : RangeOf X32) (h33 : RangeOf X33) (h34 : RangeOf X34) : W8 m ρ c (Proc.devRef .tc main_arg29) = X29 :=
  (by keep_host hostOps2_3 : W8 m ρ c (Proc.devRef .tc main_arg29) = W7 m ρ c (Proc.devRef .tc main_arg29)).trans (W7_main_arg29 m ρ c h31 h32 h33 h34)

theorem W9_main_arg29 (h31 : RangeOf X31) (h32 : RangeOf X32) (h33 : RangeOf X33) (h34 : RangeOf X34) : W9 m ρ c (Proc.devRef .tc main_arg29) = X29 :=
  (W9_of_ne m ρ c main_arg29 (by decide)).trans (W8_main_arg29 m ρ c h31 h32 h33 h34)

theorem W10_main_arg29 (h31 : RangeOf X31) (h32 : RangeOf X32) (h33 : RangeOf X33) (h34 : RangeOf X34) : W10 m ρ c (Proc.devRef .tc main_arg29) = X29 :=
  (by keep_host hostOps3 : W10 m ρ c (Proc.devRef .tc main_arg29) = W9 m ρ c (Proc.devRef .tc main_arg29)).trans (W9_main_arg29 m ρ c h31 h32 h33 h34)

theorem W11_main_arg29 (h31 : RangeOf X31) (h32 : RangeOf X32) (h33 : RangeOf X33) (h34 : RangeOf X34) : W11 m ρ c (Proc.devRef .tc main_arg29) = X29 :=
  (W11_of_ne m ρ c main_arg29 (by decide)).trans (W10_main_arg29 m ρ c h31 h32 h33 h34)

theorem W12_main_arg29 (h31 : RangeOf X31) (h32 : RangeOf X32) (h33 : RangeOf X33) (h34 : RangeOf X34) : W12 m ρ c (Proc.devRef .tc main_arg29) = X29 :=
  (by keep_host hostOps4 : W12 m ρ c (Proc.devRef .tc main_arg29) = W11 m ρ c (Proc.devRef .tc main_arg29)).trans (W11_main_arg29 m ρ c h31 h32 h33 h34)

theorem W13_main_arg29 (h31 : RangeOf X31) (h32 : RangeOf X32) (h33 : RangeOf X33) (h34 : RangeOf X34) : W13 m ρ c (Proc.devRef .tc main_arg29) = X29 :=
  (by keep_host hostOps4_1 : W13 m ρ c (Proc.devRef .tc main_arg29) = W12 m ρ c (Proc.devRef .tc main_arg29)).trans (W12_main_arg29 m ρ c h31 h32 h33 h34)

theorem W14_main_arg29 (h31 : RangeOf X31) (h32 : RangeOf X32) (h33 : RangeOf X33) (h34 : RangeOf X34) : W14 m ρ c (Proc.devRef .tc main_arg29) = X29 :=
  (by keep_host hostOps4_2 : W14 m ρ c (Proc.devRef .tc main_arg29) = W13 m ρ c (Proc.devRef .tc main_arg29)).trans (W13_main_arg29 m ρ c h31 h32 h33 h34)

theorem W15_main_arg29 (h31 : RangeOf X31) (h32 : RangeOf X32) (h33 : RangeOf X33) (h34 : RangeOf X34) : W15 m ρ c (Proc.devRef .tc main_arg29) = X29 :=
  (W15_of_ne m ρ c main_arg29 (by decide)).trans (W14_main_arg29 m ρ c h31 h32 h33 h34)

theorem W16_main_arg29 (h31 : RangeOf X31) (h32 : RangeOf X32) (h33 : RangeOf X33) (h34 : RangeOf X34) : W16 m ρ c (Proc.devRef .tc main_arg29) = X29 :=
  (by keep_host hostOps5 : W16 m ρ c (Proc.devRef .tc main_arg29) = W15 m ρ c (Proc.devRef .tc main_arg29)).trans (W15_main_arg29 m ρ c h31 h32 h33 h34)

theorem W17_main_arg29 (h31 : RangeOf X31) (h32 : RangeOf X32) (h33 : RangeOf X33) (h34 : RangeOf X34) : W17 m ρ c (Proc.devRef .tc main_arg29) = X29 :=
  (W17_of_ne m ρ c main_arg29 (by decide)).trans (W16_main_arg29 m ρ c h31 h32 h33 h34)

theorem W18_main_arg29 (h31 : RangeOf X31) (h32 : RangeOf X32) (h33 : RangeOf X33) (h34 : RangeOf X34) : W18 m ρ c (Proc.devRef .tc main_arg29) = X29 :=
  (by keep_host hostOps6 : W18 m ρ c (Proc.devRef .tc main_arg29) = W17 m ρ c (Proc.devRef .tc main_arg29)).trans (W17_main_arg29 m ρ c h31 h32 h33 h34)

theorem W19_main_arg29 (h31 : RangeOf X31) (h32 : RangeOf X32) (h33 : RangeOf X33) (h34 : RangeOf X34) : W19 m ρ c (Proc.devRef .tc main_arg29) = X29 :=
  (by keep_host hostOps6_1 : W19 m ρ c (Proc.devRef .tc main_arg29) = W18 m ρ c (Proc.devRef .tc main_arg29)).trans (W18_main_arg29 m ρ c h31 h32 h33 h34)

theorem W20_main_arg29 (h31 : RangeOf X31) (h32 : RangeOf X32) (h33 : RangeOf X33) (h34 : RangeOf X34) : W20 m ρ c (Proc.devRef .tc main_arg29) = X29 :=
  (by keep_host hostOps6_2 : W20 m ρ c (Proc.devRef .tc main_arg29) = W19 m ρ c (Proc.devRef .tc main_arg29)).trans (W19_main_arg29 m ρ c h31 h32 h33 h34)

theorem W21_main_arg29 (h31 : RangeOf X31) (h32 : RangeOf X32) (h33 : RangeOf X33) (h34 : RangeOf X34) : W21 m ρ c (Proc.devRef .tc main_arg29) = X29 :=
  (by keep_host hostOps6_3 : W21 m ρ c (Proc.devRef .tc main_arg29) = W20 m ρ c (Proc.devRef .tc main_arg29)).trans (W20_main_arg29 m ρ c h31 h32 h33 h34)

theorem W22_main_arg29 (h31 : RangeOf X31) (h32 : RangeOf X32) (h33 : RangeOf X33) (h34 : RangeOf X34) : W22 m ρ c (Proc.devRef .tc main_arg29) = X29 :=
  (by keep_host hostOps6_4 : W22 m ρ c (Proc.devRef .tc main_arg29) = W21 m ρ c (Proc.devRef .tc main_arg29)).trans (W21_main_arg29 m ρ c h31 h32 h33 h34)

set_option maxHeartbeats 1000000 in
theorem W23_main_v80 (h31 : RangeOf X31) (h32 : RangeOf X32) (h33 : RangeOf X33) (h34 : RangeOf X34) : W23 m ρ c (Proc.devRef .tc main_v80) = (Cert.ReferenceIdeal.Read.val_main_v237 (F := Ideal) X0 X1 X2 X3 X4 X5 X6 X7 X8 X9 X10 X11 X12 X13 X14 X15 X16 X17 X18 X19 X20 X21 X22 X23 X24 X25 X26 X27 X28 X29 X30 X31 X32 X33 X34) := by
  refine (W23_arr m ρ c 7).trans ?_
  exact Cert.Bridge.R6.out_7 (V22 m ρ) c X0 X1 X2 X3 X4 X5 X6 X7 X8 X9 X10 X11 X12 X13 X14 X15 X16 X17 X18 X19 X20 X21 X22 X23 X24 X25 X26 X27 X28 X29 X30 X31 X32 X33 X34 (W22_main_v74 m ρ c h31 h32 h33 h34) (W22_main_v77 m ρ c h31 h32 h33 h34) (W22_main_v78 m ρ c h31 h32 h33 h34) (W22_main_v79 m ρ c h31 h32 h33 h34) (W22_main_arg27 m ρ c h31 h32 h33 h34) (W22_main_arg28 m ρ c h31 h32 h33 h34) (W22_main_arg29 m ρ c h31 h32 h33 h34)

set_option maxHeartbeats 1000000 in
theorem W24_main_v81 (h31 : RangeOf X31) (h32 : RangeOf X32) (h33 : RangeOf X33) (h34 : RangeOf X34) : W24 m ρ c (Proc.devRef .tc main_v81) = (Cert.ReferenceIdeal.Read.val_main_v238 (F := Ideal) X0 X1 X2 X3 X4 X5 X6 X7 X8 X9 X10 X11 X12 X13 X14 X15 X16 X17 X18 X19 X20 X21 X22 X23 X24 X25 X26 X27 X28 X29 X30 X31 X32 X33 X34) := by
  have e0 := (W23_main_v80 m ρ c h31 h32 h33 h34)
  show StableHlo.after hostOps7 (W23 m ρ c) (Proc.devRef .tc main_v81) = _
  generalize W23 m ρ c = W at e0 ⊢
  simp only [hostOps7]
  after_results
  rw [e0]
  rfl

end Cert.Bridge.Chain

end
-- ==== Proof.PreRanges.lean ====
/-
  The index range out of the precondition. The precondition is one conjunction, folded left to right, of one
  "all elements" reduction per conjunct; its last eight conjuncts say of the four integer index arrays that every
  word is at least -100000 and below 100000, signed. An and-chain that is 1 has every link 1; an and-reduction into
  one element that is 1 met only ones; an element of a comparison array is the comparison of the elements.
-/
import proofs.«109817_j10033043603480_2_alg».proof.Defs
import proofs.«109817_j10033043603480_2_alg».proof.Proof.Gen.Pre_finite_inputs
import Idealize.ShloMosaic.Lib.ReduceAll
import Idealize.ShloMosaic.Lib.ValueIdx

set_option maxRecDepth 16384

noncomputable section

namespace Cert.Bridge.Pre

open Idealize.ShloMosaic Idealize.ShloMosaic.TcCoe Idealize.SL.Sem
open Cert.Pre_finite_inputs

/-- The rank-zero shape has one index. -/
instance : Subsingleton S_.Idx := ⟨fun a b => funext fun d => d.elim0⟩

/-- An elementwise "and" that is 1 at an index has both operands 1 there. -/
theorem and1 {s : Shape} (a b : IVec s 1) (i : s.Idx) (h : andi a b i = 1#1) : a i = 1#1 ∧ b i = 1#1 :=
  IntOp.andi_eq_one.1 h

/-- A reduction by "and" over all axes that is 1 says a lower bound of every word of the compared array. -/
theorem all_sge {s : Shape} {axes : List (Fin s.rank)} (x : IVec s 32) (hb : S_.BroadcastsInDim s (![] : Fin 0 → Fin s.rank))
    (hr : s.ReducesTo axes S_) (hu : 0 < S_.numel) (k : BitVec 32) (j : S_.Idx)
    (h : Host.reduce IntOp.andi (cmpi .sge x (broadcastInDim s ![] hb (constantI S_ 32 k))) (constantI S_ 1 1#1) hr hu j = 1#1)
    (i : s.Idx) : IntOp.cmpi .sge (x i) k = 1#1 :=
  Host.reduce_andi_all _ _ hr hu j h i

/-- The same for an upper bound. -/
theorem all_slt {s : Shape} {axes : List (Fin s.rank)} (x : IVec s 32) (hb : S_.BroadcastsInDim s (![] : Fin 0 → Fin s.rank))
    (hr : s.ReducesTo axes S_) (hu : 0 < S_.numel) (k : BitVec 32) (j : S_.Idx)
    (h : Host.reduce IntOp.andi (cmpi .slt x (broadcastInDim s ![] hb (constantI S_ 32 k))) (constantI S_ 1 1#1) hr hu j = 1#1)
    (i : s.Idx) : IntOp.cmpi .slt (x i) k = 1#1 :=
  Host.reduce_andi_all _ _ hr hu j h i

/-- The precondition's value is its last two parts' value at an accumulated conjunction of the earlier conjuncts. -/
theorem part9_of_fn {a0 : FVec Ideal S100000x64 .f32} {a1 : FVec Ideal S100000x64 .f32} {a2 : FVec Ideal S64x64 .f32} {a3 : FVec Ideal S64 .f32} {a4 : FVec Ideal S64x64 .f32} {a5 : FVec Ideal S64 .f32} {a6 : FVec Ideal S64x64 .f32} {a7 : FVec Ideal S64 .f32} {a8 : FVec Ideal S64x64 .f32} {a9 : FVec Ideal S64 .f32} {a10 : FVec Ideal S256x64 .f32} {a11 : FVec Ideal S64 .f32} {a12 : FVec Ideal S64x64 .f32} {a13 : FVec Ideal S64 .f32} {a14 : FVec Ideal S256x64 .f32} {a15 : FVec Ideal S64 .f32} {a16 : FVec Ideal S64x64 .f32} {a17 : FVec Ideal S64 .f32} {a18 : FVec Ideal S2x192x64 .f32} {a19 : FVec Ideal S2x64 .f32} {a20 : FVec Ideal S2x64x64 .f32} {a21 : FVec Ideal S2x64 .f32} {a22 : FVec Ideal S2x192x64 .f32} {a23 : FVec Ideal S2x64 .f32} {a24 : FVec Ideal S2x64x64 .f32} {a25 : FVec Ideal S2x64 .f32} {a26 : FVec Ideal S128x64 .f32} {a27 : FVec Ideal S64 .f32} {a28 : FVec Ideal S64x1 .f32} {a29 : FVec Ideal S1 .f32} {a30 : FVec Ideal S300000x256 .f32} {a31 : IVec S100000 32} {a32 : IVec S100000 32} {a33 : IVec S2x300000 32} {a34 : IVec S2x150000 32}
    (h : fn (F := Ideal) a0 a1 a2 a3 a4 a5 a6 a7 a8 a9 a10 a11 a12 a13 a14 a15 a16 a17 a18 a19 a20 a21 a22 a23 a24 a25 a26 a27 a28 a29 a30 a31 a32 a33 a34 ValueIdx.ix0 = 1#1) :
    ∃ v, fn_part9 (F := Ideal) a31 a32 a33 a34 v ValueIdx.ix0 = 1#1 := ⟨_, h⟩

/-- The last eight conjuncts, read back. -/
theorem part9_ranges (a31 a32 : IVec S100000 32) (a33 : IVec S2x300000 32) (a34 : IVec S2x150000 32) (v : IVec S_ 1)
    (h : fn_part9 (F := Ideal) a31 a32 a33 a34 v ValueIdx.ix0 = 1#1) :
    (∀ i, IntOp.cmpi .sge (a31 i) 4294867296#32 = 1#1 ∧ IntOp.cmpi .slt (a31 i) 100000#32 = 1#1)
    ∧ (∀ i, IntOp.cmpi .sge (a32 i) 4294867296#32 = 1#1 ∧ IntOp.cmpi .slt (a32 i) 100000#32 = 1#1)
    ∧ (∀ i, IntOp.cmpi .sge (a33 i) 4294867296#32 = 1#1 ∧ IntOp.cmpi .slt (a33 i) 100000#32 = 1#1)
    ∧ (∀ i, IntOp.cmpi .sge (a34 i) 4294867296#32 = 1#1 ∧ IntOp.cmpi .slt (a34 i) 100000#32 = 1#1) := by
  dsimp only [fn_part9, fn_part10] at h
  obtain ⟨h, h8⟩ := and1 _ _ _ h
  obtain ⟨h, h7⟩ := and1 _ _ _ h
  obtain ⟨h, h6⟩ := and1 _ _ _ h
  obtain ⟨h, h5⟩ := and1 _ _ _ h
  obtain ⟨h, h4⟩ := and1 _ _ _ h
  obtain ⟨h, h3⟩ := and1 _ _ _ h
  obtain ⟨h, h2⟩ := and1 _ _ _ h
  obtain ⟨h, h1⟩ := and1 _ _ _ h
  exact ⟨fun i => ⟨all_sge _ _ _ _ _ _ h1 i, all_slt _ _ _ _ _ _ h2 i⟩,
    fun i => ⟨all_sge _ _ _ _ _ _ h3 i, all_slt _ _ _ _ _ _ h4 i⟩,
    fun i => ⟨all_sge _ _ _ _ _ _ h5 i, all_slt _ _ _ _ _ _ h6 i⟩,
    fun i => ⟨all_sge _ _ _ _ _ _ h7 i, all_slt _ _ _ _ _ _ h8 i⟩⟩

/-- Under the precondition every word of the four index arrays lies in [-100000, 100000), signed. -/
theorem ranges (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S100000.Idx, IntOp.cmpi .sge (m ((c.tc : Thread Cert.KernelIdeal.nD Cert.KernelIdeal.τ).loc Cert.KernelIdeal.main_arg31) i) 4294867296#32 = 1#1
        ∧ IntOp.cmpi .slt (m ((c.tc : Thread Cert.KernelIdeal.nD Cert.KernelIdeal.τ).loc Cert.KernelIdeal.main_arg31) i) 100000#32 = 1#1)
    ∧ (∀ i : Cert.KernelIdeal.S100000.Idx, IntOp.cmpi .sge (m ((c.tc : Thread Cert.KernelIdeal.nD Cert.KernelIdeal.τ).loc Cert.KernelIdeal.main_arg32) i) 4294867296#32 = 1#1
        ∧ IntOp.cmpi .slt (m ((c.tc : Thread Cert.KernelIdeal.nD Cert.KernelIdeal.τ).loc Cert.KernelIdeal.main_arg32) i) 100000#32 = 1#1)
    ∧ (∀ i : Cert.KernelIdeal.S2x300000.Idx, IntOp.cmpi .sge (m ((c.tc : Thread Cert.KernelIdeal.nD Cert.KernelIdeal.τ).loc Cert.KernelIdeal.main_arg33) i) 4294867296#32 = 1#1
        ∧ IntOp.cmpi .slt (m ((c.tc : Thread Cert.KernelIdeal.nD Cert.KernelIdeal.τ).loc Cert.KernelIdeal.main_arg33) i) 100000#32 = 1#1)
    ∧ (∀ i : Cert.KernelIdeal.S2x150000.Idx, IntOp.cmpi .sge (m ((c.tc : Thread Cert.KernelIdeal.nD Cert.KernelIdeal.τ).loc Cert.KernelIdeal.main_arg34) i) 4294867296#32 = 1#1
        ∧ IntOp.cmpi .slt (m ((c.tc : Thread Cert.KernelIdeal.nD Cert.KernelIdeal.τ).loc Cert.KernelIdeal.main_arg34) i) 100000#32 = 1#1) := by
  obtain ⟨v, hv⟩ := part9_of_fn (congrFun (h c) ValueIdx.ix0)
  exact part9_ranges _ _ _ _ v hv

end Cert.Bridge.Pre
-- ==== Proof.lean ====
/-
  The certificate of a two-layer bipartite graph network for link prediction: node and edge features pass through
  two-layer perceptrons, two rounds of message passing (a message per edge from the two endpoint rows and the edge
  row, summed at each endpoint), and a perceptron on the concatenated endpoint rows of each labelled edge.
  The kernel program computes the perceptrons and the residual combination row block by row block and leaves the
  row gathers and the per-endpoint sums to the host; the reference computes everything on the host.
  At the ideal values the two results are one function of the arguments:
  • a product with a concatenation of column blocks is the sum of the products with the blocks
    (a sum over 192 = 64 + 64 + 64 columns, and over 128 = 64 + 64);
  • a change of float format is the identity;
  • the first round's residual h + (D·h + a) is h·(1 + D) + a for the positive rational D the reference multiplies by,
    for every extended real h, and the kernel's scale is the named rational 1 + D;
  • a row gather that fills out-of-range rows with a marker is the plain gather when every index lies in
    [-100000, 100000), which the precondition states.
  The kernel programs' frames are the generated ones; the reference's is its run (RefRun.lean) with the result dropped; the
  two named-constant conjuncts are the rule's own statements.
-/
import proofs.«109817_j10033043603480_2_alg».proof.Defs
import proofs.«109817_j10033043603480_2_alg».proof.Proof.Gen.Kernel
import proofs.«109817_j10033043603480_2_alg».proof.Proof.Gen.Kernel.Frame
import proofs.«109817_j10033043603480_2_alg».proof.Proof.Gen.KernelIdeal
import proofs.«109817_j10033043603480_2_alg».proof.Proof.Gen.KernelIdeal.Frame
import proofs.«109817_j10033043603480_2_alg».proof.Proof.Gen.ReferenceIdeal
import proofs.«109817_j10033043603480_2_alg».proof.Proof.RefRead
import proofs.«109817_j10033043603480_2_alg».proof.Proof.RefRun
import proofs.«109817_j10033043603480_2_alg».proof.Proof.Gen.Pre_finite_inputs
import proofs.«109817_j10033043603480_2_alg».proof.Proof.RunResult
import proofs.«109817_j10033043603480_2_alg».proof.Proof.Chain
import proofs.«109817_j10033043603480_2_alg».proof.Proof.PreRanges
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run m ρ)

/-- The two sites of the first round's scale: the table gives the name the rational 1 + D, and the printed constant
    is that value at the ideal instance. -/
theorem preserves : Cert.preserves_Kernel_KernelIdeal :=
  ⟨IdealRules.named_const.statement Cert.KernelIdeal.κ "scale_layer0" .f32 0x40066666#32 ((17616077 / 8388608 : ℝ) : EReal) rfl,
   IdealRules.named_const.statement Cert.KernelIdeal.κ "scale_layer0" .f32 0x40066666#32 ((17616077 / 8388608 : ℝ) : EReal) rfl⟩

set_option maxHeartbeats 4000000 in
/-- Both programs end with the result array at the reference's last stage of the (agreeing) arguments. -/
theorem algebraic : Cert.algebraic_KernelIdeal_ReferenceIdeal := by
  intro m ρ m' ρ' hpre hagree
  refine ⟨fun c => Cert.ReferenceIdeal.Read.val_main_v238 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)), ?_, ?_⟩
  · refine (θ_run Cert.KernelIdeal.defs _ _).mono (fun r h c => ⟨(h c).1.trans ?_, (h c).2⟩) (Cert.KernelIdeal.RunResult.run_result (F := Ideal) m ρ)
    obtain ⟨h31, h32, h33, h34⟩ := Cert.Bridge.Pre.ranges m hpre c
    exact Cert.Bridge.Chain.W24_main_v81 m ρ c h31 h32 h33 h34
  · refine (θ_run Cert.ReferenceIdeal.defs _ _).mono (fun _ h c => ⟨(h c).1.trans ?_, (h c).2⟩)
      (Cert.ReferenceIdeal.Value.run m' ρ')
    obtain ⟨e0, e1, e2, e3, e4, e5, e6, e7, e8, e9, e10, e11, e12, e13, e14, e15, e16, e17, e18, e19, e20, e21, e22, e23, e24, e25, e26, e27, e28, e29, e30, e31, e32, e33, e34⟩ := hagree c
    rw [e0, e1, e2, e3, e4, e5, e6, e7, e8, e9, e10, e11, e12, e13, e14, e15, e16, e17, e18, e19, e20, e21, e22, e23, e24, e25, e26, e27, e28, e29, e30, e31, e32, e33, e34]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
